-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1364) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S784x4096 : Shape := ⟨2, ![784, 4096]⟩
abbrev S4096 : Shape := ⟨1, ![4096]⟩
abbrev S4096x4096 : Shape := ⟨2, ![4096, 4096]⟩
abbrev S4096x10 : Shape := ⟨2, ![4096, 10]⟩
abbrev S10 : Shape := ⟨1, ![10]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S784x4096 : S_.BroadcastsInDim S784x4096 (![] : Fin 0 → Fin S784x4096.rank)
  reducesTo_S784x4096_S_d0_1 : S784x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x10 : S_.BroadcastsInDim S4096x10 (![] : Fin 0 → Fin S4096x10.rank)
  reducesTo_S4096x10_S_d0_1 : S4096x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S4096 .f32) (main_arg5 : FVec F S4096x10 .f32) (main_arg6 : FVec F S10 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x10 .f32 := Host.absf main_arg5
  let main_cst_8 : FVec F S_ .f32 := constant S_ .f32 0x7F800000#32
  let main_v25 : FVec F S4096x10 .f32 := broadcastInDim S4096x10 ![] bcast_S_S4096x10 main_cst_8
  let main_v26 : IVec S4096x10 1 := cmpf .olt main_v24 main_v25
  let main_c_9 : IVec S_ 1 := constantI S_ 1 1#1
  let main_v27 : IVec S_ 1 := (fun x v => Host.reduce IntOp.andi x v reducesTo_S4096x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S8192x784 .f32) (main_arg1 : FVec F S784x4096 .f32) (main_arg2 : FVec F S4096 .f32) (main_arg3 : FVec F S4096x4096 .f32) (main_arg4 : FVec F S4096 .f32) (main_arg5 : FVec F S4096x10 .f32) (main_arg6 : FVec F S10 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S784x4096 .f32 := Host.absf main_arg1
  let main_cst_0 : FVec F S_ .f32 := constant S_ .f32 0x7F800000#32
  let main_v5 : FVec F S784x4096 .f32 := broadcastInDim S784x4096 ![] bcast_S_S784x4096 main_cst_0
  let main_v6 : IVec S784x4096 1 := cmpf .olt main_v4 main_v5
  let main_c_1 : IVec S_ 1 := constantI S_ 1 1#1
  let main_v7 : IVec S_ 1 := (fun x v => Host.reduce IntOp.andi x v reducesTo_S784x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S8192x784 : Shape := ⟨2, ![8192, 784]⟩
abbrev S784x4096 : Shape := ⟨2, ![784, 4096]⟩
abbrev S4096 : Shape := ⟨1, ![4096]⟩
abbrev S4096x4096 : Shape := ⟨2, ![4096, 4096]⟩
abbrev S4096x10 : Shape := ⟨2, ![4096, 10]⟩
abbrev S10 : Shape := ⟨1, ![10]⟩
abbrev S8192x4096 : Shape := ⟨2, ![8192, 4096]⟩
abbrev S512x784 : Shape := ⟨2, ![512, 784]⟩
abbrev S512x4096 : Shape := ⟨2, ![512, 4096]⟩
abbrev S1x4096 : Shape := ⟨2, ![1, 4096]⟩
abbrev S128x4096 : Shape := ⟨2, ![128, 4096]⟩
abbrev S8192 : Shape := ⟨1, ![8192]⟩
abbrev S256x4096 : Shape := ⟨2, ![256, 4096]⟩
abbrev S256 : Shape := ⟨1, ![256]⟩
abbrev S256x10 : Shape := ⟨2, ![256, 10]⟩
abbrev S1x10 : Shape := ⟨2, ![1, 10]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x784, .f32⟩
  | .hbm, ⟨1, _⟩ => ⟨S784x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x10, .f32⟩
  | .hbm, ⟨6, _⟩ => ⟨S10, .f32⟩
  | .hbm, ⟨7, _⟩ => ⟨S8192x784, .bf16⟩
  | .hbm, ⟨8, _⟩ => ⟨S784x4096, .bf16⟩
  | .hbm, ⟨9, _⟩ => ⟨S4096x4096, .bf16⟩
  | .hbm, ⟨10, _⟩ => ⟨S4096x10, .bf16⟩
  | .hbm, ⟨11, _⟩ => ⟨S8192x4096, .bf16⟩
  | .hbm, ⟨12, _⟩ => ⟨S8192x4096, .bf16⟩
  | .hbm, ⟨13, _⟩ => ⟨S8192, .f32⟩
  | .local _ .vmem, ⟨0, _⟩ => ⟨S512x784, .bf16⟩
  | .local _ .vmem, ⟨1, _⟩ => ⟨S512x784, .bf16⟩
  | .local _ .vmem, ⟨2, _⟩ => ⟨S784x4096, .bf16⟩
  | .local _ .vmem, ⟨3, _⟩ => ⟨S4096, .f32⟩
  | .local _ .vmem, ⟨4, _⟩ => ⟨S512x4096, .bf16⟩
  | .local _ .vmem, ⟨5, _⟩ => ⟨S512x4096, .bf16⟩
  | .local _ .vmem, ⟨6, _⟩ => ⟨S128x4096, .bf16⟩
  | .local _ .vmem, ⟨7, _⟩ => ⟨S128x4096, .bf16⟩
  | .local _ .vmem, ⟨8, _⟩ => ⟨S4096x4096, .bf16⟩
  | .local _ .vmem, ⟨9, _⟩ => ⟨S4096, .f32⟩
  | .local _ .vmem, ⟨10, _⟩ => ⟨S128x4096, .bf16⟩
  | .local _ .vmem, ⟨11, _⟩ => ⟨S128x4096, .bf16⟩
  | .local _ .vmem, ⟨12, _⟩ => ⟨S256x4096, .bf16⟩
  | .local _ .vmem, ⟨13, _⟩ => ⟨S256x4096, .bf16⟩
  | .local _ .vmem, ⟨14, _⟩ => ⟨S4096x10, .bf16⟩
  | .local _ .vmem, ⟨15, _⟩ => ⟨S10, .f32⟩
  | .local _ .vmem, ⟨16, _⟩ => ⟨S256, .f32⟩
  | .local _ .vmem, ⟨17, _⟩ => ⟨S256, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x10 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S512x784_S512x784_0_0 : ∀ a, (![0, 0] : Fin 2 → Nat) a + S512x784.size a ≤ S512x784.size a
  h_S512x784 : 0 < S512x784.numel
  shapeCasts_S512x784_S512x784 : S512x784.ShapeCasts S512x784
  inb_S784x4096_S784x4096_0_0 : ∀ a, (![0, 0] : Fin 2 → Nat) a + S784x4096.size a ≤ S784x4096.size a
  h_S784x4096 : 0 < S784x4096.numel
  shapeCasts_S784x4096_S784x4096 : S784x4096.ShapeCasts S784x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  broadcasts_S1x4096_S128x4096 : S1x4096.Broadcasts S128x4096
  packedbf16_S128x4096_S128x4096_0_0 : (Rect.unit (s := S128x4096) ![0, 0] S128x4096.size inb_S128x4096_S128x4096_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x10_S4096x10_0_0 : ∀ a, (![0, 0] : Fin 2 → Nat) a + S4096x10.size a ≤ S4096x10.size a
  h_S4096x10 : 0 < S4096x10.numel
  shapeCasts_S4096x10_S4096x10 : S4096x10.ShapeCasts S4096x10
  inb_S10_S10_0 : ∀ a, (![0] : Fin 1 → Nat) a + S10.size a ≤ S10.size a
  h_S10 : 0 < S10.numel
  shapeCasts_S10_S1x10 : S10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  slices_S256x10_o0_0_S256x1 : S256x10.Slices ![0, 0] S256x1
  slices_S256x10_o0_1_S256x1 : S256x10.Slices ![0, 1] S256x1
  slices_S256x10_o0_2_S256x1 : S256x10.Slices ![0, 2] S256x1
  slices_S256x10_o0_3_S256x1 : S256x10.Slices ![0, 3] S256x1
  slices_S256x10_o0_4_S256x1 : S256x10.Slices ![0, 4] S256x1
  slices_S256x10_o0_5_S256x1 : S256x10.Slices ![0, 5] S256x1
  slices_S256x10_o0_6_S256x1 : S256x10.Slices ![0, 6] S256x1
  slices_S256x10_o0_7_S256x1 : S256x10.Slices ![0, 7] S256x1
  slices_S256x10_o0_8_S256x1 : S256x10.Slices ![0, 8] S256x1
  slices_S256x10_o0_9_S256x1 : S256x10.Slices ![0, 9] S256x1
  shapeCasts_S256x1_S256 : S256x1.ShapeCasts S256
  inb_S256_S256_0 : ∀ a, (![0] : Fin 1 → Nat) a + S256.size a ≤ S256.size a
  h_S256 : 0 < S256.numel
  dot_S512x784_S784x4096_S512x4096_1_0_0_1_n_n_wf : DotDims.WF S512x784 S784x4096 S512x4096 [1] [0] [0] [1] [] []
  dot_S128x4096_S4096x4096_S128x4096_1_0_0_1_n_n_wf : DotDims.WF S128x4096 S4096x4096 S128x4096 [1] [0] [0] [1] [] []
  dot_S256x4096_S4096x10_S256x10_1_0_0_1_n_n_wf : DotDims.WF S256x4096 S4096x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S8192x784.size a
  hwx0_0 : ∀ i : grid0.Coords, EltTy.bits .bf16 = 32 ∨ (Rect.block (s := S8192x784) S512x784.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x4096.size a ≤ S784x4096.size a
  hwx0_1 : ∀ i : grid0.Coords, EltTy.bits .bf16 = 32 ∨ (Rect.block (s := S784x4096) S784x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .bf16 = 32 ∨ (Rect.block (s := S8192x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .bf16 = 32 ∨ (Rect.block (s := S8192x4096) S128x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S4096.size a
  hwx1_2 : ∀ i : grid1.Coords, EltTy.bits .f32 = 32 ∨ (Rect.block (s := S4096) S4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S8192x4096.size a
  hwx1_3 : ∀ i : grid1.Coords, EltTy.bits .bf16 = 32 ∨ (Rect.block (s := S8192x4096) S128x4096.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .bf16 = 32 ∨ (Rect.block (s := S8192x4096) S256x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x10.size a ≤ S4096x10.size a
  hwx2_1 : ∀ i : grid2.Coords, EltTy.bits .bf16 = 32 ∨ (Rect.block (s := S4096x10) S4096x10.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10.size a ≤ S10.size a
  hwx2_2 : ∀ i : grid2.Coords, EltTy.bits .f32 = 32 ∨ (Rect.block (s := S10) S10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S8192.size a
  hwx2_3 : ∀ i : grid2.Coords, EltTy.bits .f32 = 32 ∨ (Rect.block (s := S8192) S256.size (cc2_transform_3 i) (hinb2_3 i)).WholeWords (EltTy.packing .f32)

variable [Facts₀]

def dot_S512x784_S784x4096_S512x4096_1_0_0_1_n_n : DotDims S512x784 S784x4096 S512x4096 where
  lhsContracting := [1]
  rhsContracting := [0]
  lhsNonContracting := [0]
  rhsNonContracting := [1]
  lhsBatch := []
  rhsBatch := []
  wf := dot_S512x784_S784x4096_S512x4096_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf
def dot_S256x4096_S4096x10_S256x10_1_0_0_1_n_n : DotDims S256x4096 S4096x10 S256x10 where
  lhsContracting := [1]
  rhsContracting := [0]
  lhsNonContracting := [0]
  rhsNonContracting := [1]
  lhsBatch := []
  rhsBatch := []
  wf := dot_S256x4096_S4096x10_S256x10_1_0_0_1_n_n_wf

abbrev win0_0 : Pipeline.Window sig grid0 :=
  Pipeline.Window.ofSpec (Memref.whole main_v0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S4096x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x784 : Shape := ⟨2, ![8192, 784]⟩
abbrev S784x4096 : Shape := ⟨2, ![784, 4096]⟩
abbrev S4096 : Shape := ⟨1, ![4096]⟩
abbrev S4096x4096 : Shape := ⟨2, ![4096, 4096]⟩
abbrev S4096x10 : Shape := ⟨2, ![4096, 10]⟩
abbrev S10 : Shape := ⟨1, ![10]⟩
abbrev S8192x4096 : Shape := ⟨2, ![8192, 4096]⟩
abbrev S1x4096 : Shape := ⟨2, ![1, 4096]⟩
abbrev S_ : Shape := ⟨0, ![]⟩
abbrev S8192x10 : Shape := ⟨2, ![8192, 10]⟩
abbrev S1x10 : Shape := ⟨2, ![1, 10]⟩
abbrev S8192 : Shape := ⟨1, ![8192]⟩
abbrev S8192x1 : Shape := ⟨2, ![8192, 1]⟩

abbrev nBuf : Space → Nat
  | .hbm => 1389
  | .vmem => 0
  | .smem => 0
  | _ => 0

abbrev hbmTy0_0 (i : Nat) : BufTy := match i % 128 with
  | 0 => ⟨S8192x784, .f32⟩
  | 1 => ⟨S784x4096, .f32⟩
  | 2 => ⟨S4096, .f32⟩
  | 3 => ⟨S4096x4096, .f32⟩
  | 4 => ⟨S4096, .f32⟩
  | 5 => ⟨S4096x10, .f32⟩
  | 6 => ⟨S10, .f32⟩
  | 7 => ⟨S8192x4096, .f32⟩
  | 8 => ⟨S1x4096, .f32⟩
  | 9 => ⟨S8192x4096, .f32⟩
  | 10 => ⟨S8192x4096, .f32⟩
  | 11 => ⟨S_, .f32⟩
  | 12 => ⟨S8192x4096, .f32⟩
  | 13 => ⟨S8192x4096, .f32⟩
  | 14 => ⟨S8192x4096, .f32⟩
  | 15 => ⟨S1x4096, .f32⟩
  | 16 => ⟨S8192x4096, .f32⟩
  | 17 => ⟨S8192x4096, .f32⟩
  | 18 => ⟨S_, .f32⟩
  | 19 => ⟨S8192x4096, .f32⟩
  | 20 => ⟨S8192x4096, .f32⟩
  | 21 => ⟨S8192x10, .f32⟩
  | 22 => ⟨S1x10, .f32⟩
  | 23 => ⟨S8192x10, .f32⟩
  | 24 => ⟨S8192x10, .f32⟩
  | 25 => ⟨S_, .f32⟩
  | 26 => ⟨S8192, .f32⟩
  | 27 => ⟨S_, .f32⟩
  | 28 => ⟨S8192, .f32⟩
  | 29 => ⟨S8192, .f32⟩
  | 30 => ⟨S8192x1, .f32⟩
  | 31 => ⟨S8192x10, .f32⟩
  | 32 => ⟨S8192x10, .f32⟩
  | 33 => ⟨S8192x10, .f32⟩
  | 34 => ⟨S_, .f32⟩
  | 35 => ⟨S8192, .f32⟩
  | 36 => ⟨S8192x1, .f32⟩
  | 37 => ⟨S8192x10, .f32⟩
  | 38 => ⟨S8192x10, .f32⟩
  | 39 => ⟨S8192x1, .f32⟩
  | 40 => ⟨S8192, .f32⟩
  | 41 => ⟨S8192x1, .f32⟩
  | 42 => ⟨S8192, .f32⟩
  | 43 => ⟨S8192x1, .f32⟩
  | 44 => ⟨S8192, .f32⟩
  | 45 => ⟨S8192x1, .f32⟩
  | 46 => ⟨S8192, .f32⟩
  | 47 => ⟨S8192x1, .f32⟩
  | 48 => ⟨S8192, .f32⟩
  | 49 => ⟨S8192x1, .f32⟩
  | 50 => ⟨S8192, .f32⟩
  | 51 => ⟨S8192x1, .f32⟩
  | 52 => ⟨S8192, .f32⟩
  | 53 => ⟨S8192x1, .f32⟩
  | 54 => ⟨S8192, .f32⟩
  | 55 => ⟨S8192x1, .f32⟩
  | 56 => ⟨S8192, .f32⟩
  | 57 => ⟨S8192x1, .f32⟩
  | 58 => ⟨S8192, .f32⟩
  | 59 => ⟨S8192x1, .f32⟩
  | 60 => ⟨S8192, .f32⟩
  | 61 => ⟨S_, .f32⟩
  | 62 => ⟨S8192, .f32⟩
  | 63 => ⟨S8192, .f32⟩
  | 64 => ⟨S8192x1, .f32⟩
  | 65 => ⟨S8192, .f32⟩
  | 66 => ⟨S_, .f32⟩
  | 67 => ⟨S8192, .f32⟩
  | 68 => ⟨S8192, .f32⟩
  | 69 => ⟨S8192x1, .f32⟩
  | 70 => ⟨S8192, .f32⟩
  | 71 => ⟨S_, .f32⟩
  | 72 => ⟨S8192, .f32⟩
  | 73 => ⟨S8192, .f32⟩
  | 74 => ⟨S8192x1, .f32⟩
  | 75 => ⟨S8192, .f32⟩
  | 76 => ⟨S_, .f32⟩
  | 77 => ⟨S8192, .f32⟩
  | 78 => ⟨S8192, .f32⟩
  | 79 => ⟨S8192x1, .f32⟩
  | 80 => ⟨S8192, .f32⟩
  | 81 => ⟨S_, .f32⟩
  | 82 => ⟨S8192, .f32⟩
  | 83 => ⟨S8192, .f32⟩
  | 84 => ⟨S8192x1, .f32⟩
  | 85 => ⟨S8192, .f32⟩
  | 86 => ⟨S_, .f32⟩
  | 87 => ⟨S8192, .f32⟩
  | 88 => ⟨S8192, .f32⟩
  | 89 => ⟨S8192x1, .f32⟩
  | 90 => ⟨S8192, .f32⟩
  | 91 => ⟨S_, .f32⟩
  | 92 => ⟨S8192, .f32⟩
  | 93 => ⟨S8192, .f32⟩
  | 94 => ⟨S8192x1, .f32⟩
  | 95 => ⟨S8192, .f32⟩
  | 96 => ⟨S_, .f32⟩
  | 97 => ⟨S8192, .f32⟩
  | 98 => ⟨S8192, .f32⟩
  | 99 => ⟨S8192x1, .f32⟩
  | 100 => ⟨S8192, .f32⟩
  | 101 => ⟨S_, .f32⟩
  | 102 => ⟨S8192, .f32⟩
  | 103 => ⟨S8192, .f32⟩
  | 104 => ⟨S8192x1, .f32⟩
  | 105 => ⟨S8192, .f32⟩
  | 106 => ⟨S_, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_1 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_2 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_3 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_4 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_5 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_6 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_7 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_8 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_9 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x784, .f32⟩

abbrev hbmTy0_10 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | _ => ⟨S8192x784, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S8192x784, .f32⟩

abbrev bufTy : (tb : Table) → Fin (tcTables nBuf tb) → BufTy
  | .hbm, ⟨i, _⟩ => hbmTy i
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_2 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_3 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_8 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_9 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_10 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_11 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_v337 : Ref sig .tc := ⟨.hbm, 361, rfl⟩
abbrev main_v338 : Ref sig .tc := ⟨.hbm, 362, rfl⟩
abbrev main_v339 : Ref sig .tc := ⟨.hbm, 363, rfl⟩
abbrev main_v340 : Ref sig .tc := ⟨.hbm, 364, rfl⟩
abbrev main_v341 : Ref sig .tc := ⟨.hbm, 365, rfl⟩
abbrev main_v342 : Ref sig .tc := ⟨.hbm, 366, rfl⟩
abbrev main_v343 : Ref sig .tc := ⟨.hbm, 367, rfl⟩
abbrev main_v344 : Ref sig .tc := ⟨.hbm, 368, rfl⟩
abbrev main_v345 : Ref sig .tc := ⟨.hbm, 369, rfl⟩
abbrev main_v346 : Ref sig .tc := ⟨.hbm, 370, rfl⟩
abbrev main_v347 : Ref sig .tc := ⟨.hbm, 371, rfl⟩
abbrev main_v348 : Ref sig .tc := ⟨.hbm, 372, rfl⟩
abbrev main_v349 : Ref sig .tc := ⟨.hbm, 373, rfl⟩
abbrev main_v350 : Ref sig .tc := ⟨.hbm, 374, rfl⟩
abbrev main_v351 : Ref sig .tc := ⟨.hbm, 375, rfl⟩
abbrev main_v352 : Ref sig .tc := ⟨.hbm, 376, rfl⟩
abbrev main_v353 : Ref sig .tc := ⟨.hbm, 377, rfl⟩
abbrev main_v354 : Ref sig .tc := ⟨.hbm, 378, rfl⟩
abbrev main_v355 : Ref sig .tc := ⟨.hbm, 379, rfl⟩
abbrev main_v356 : Ref sig .tc := ⟨.hbm, 380, rfl⟩
abbrev main_v357 : Ref sig .tc := ⟨.hbm, 381, rfl⟩
abbrev main_v358 : Ref sig .tc := ⟨.hbm, 382, rfl⟩
abbrev main_v359 : Ref sig .tc := ⟨.hbm, 383, rfl⟩
abbrev main_v360 : Ref sig .tc := ⟨.hbm, 384, rfl⟩
abbrev main_v361 : Ref sig .tc := ⟨.hbm, 385, rfl⟩
abbrev main_v362 : Ref sig .tc := ⟨.hbm, 386, rfl⟩
abbrev main_v363 : Ref sig .tc := ⟨.hbm, 387, rfl⟩
abbrev main_v364 : Ref sig .tc := ⟨.hbm, 388, rfl⟩
abbrev main_v365 : Ref sig .tc := ⟨.hbm, 389, rfl⟩
abbrev main_v366 : Ref sig .tc := ⟨.hbm, 390, rfl⟩
abbrev main_v367 : Ref sig .tc := ⟨.hbm, 391, rfl⟩
abbrev main_v368 : Ref sig .tc := ⟨.hbm, 392, rfl⟩
abbrev main_v369 : Ref sig .tc := ⟨.hbm, 393, rfl⟩
abbrev main_v370 : Ref sig .tc := ⟨.hbm, 394, rfl⟩
abbrev main_v371 : Ref sig .tc := ⟨.hbm, 395, rfl⟩
abbrev main_v372 : Ref sig .tc := ⟨.hbm, 396, rfl⟩
abbrev main_v373 : Ref sig .tc := ⟨.hbm, 397, rfl⟩
abbrev main_v374 : Ref sig .tc := ⟨.hbm, 398, rfl⟩
abbrev main_v375 : Ref sig .tc := ⟨.hbm, 399, rfl⟩
abbrev main_v376 : Ref sig .tc := ⟨.hbm, 400, rfl⟩
abbrev main_v377 : Ref sig .tc := ⟨.hbm, 401, rfl⟩
abbrev main_v378 : Ref sig .tc := ⟨.hbm, 402, rfl⟩
abbrev main_v379 : Ref sig .tc := ⟨.hbm, 403, rfl⟩
abbrev main_v380 : Ref sig .tc := ⟨.hbm, 404, rfl⟩
abbrev main_v381 : Ref sig .tc := ⟨.hbm, 405, rfl⟩
abbrev main_v382 : Ref sig .tc := ⟨.hbm, 406, rfl⟩
abbrev main_v383 : Ref sig .tc := ⟨.hbm, 407, rfl⟩
abbrev main_v384 : Ref sig .tc := ⟨.hbm, 408, rfl⟩
abbrev main_v385 : Ref sig .tc := ⟨.hbm, 409, rfl⟩
abbrev main_v386 : Ref sig .tc := ⟨.hbm, 410, rfl⟩
abbrev main_v387 : Ref sig .tc := ⟨.hbm, 411, rfl⟩
abbrev main_v388 : Ref sig .tc := ⟨.hbm, 412, rfl⟩
abbrev main_v389 : Ref sig .tc := ⟨.hbm, 413, rfl⟩
abbrev main_v390 : Ref sig .tc := ⟨.hbm, 414, rfl⟩
abbrev main_v391 : Ref sig .tc := ⟨.hbm, 415, rfl⟩
abbrev main_v392 : Ref sig .tc := ⟨.hbm, 416, rfl⟩
abbrev main_v393 : Ref sig .tc := ⟨.hbm, 417, rfl⟩
abbrev main_v394 : Ref sig .tc := ⟨.hbm, 418, rfl⟩
abbrev main_v395 : Ref sig .tc := ⟨.hbm, 419, rfl⟩
abbrev main_v396 : Ref sig .tc := ⟨.hbm, 420, rfl⟩
abbrev main_v397 : Ref sig .tc := ⟨.hbm, 421, rfl⟩
abbrev main_v398 : Ref sig .tc := ⟨.hbm, 422, rfl⟩
abbrev main_v399 : Ref sig .tc := ⟨.hbm, 423, rfl⟩
abbrev main_v400 : Ref sig .tc := ⟨.hbm, 424, rfl⟩
abbrev main_v401 : Ref sig .tc := ⟨.hbm, 425, rfl⟩
abbrev main_v402 : Ref sig .tc := ⟨.hbm, 426, rfl⟩
abbrev main_v403 : Ref sig .tc := ⟨.hbm, 427, rfl⟩
abbrev main_v404 : Ref sig .tc := ⟨.hbm, 428, rfl⟩
abbrev main_v405 : Ref sig .tc := ⟨.hbm, 429, rfl⟩
abbrev main_v406 : Ref sig .tc := ⟨.hbm, 430, rfl⟩
abbrev main_v407 : Ref sig .tc := ⟨.hbm, 431, rfl⟩
abbrev main_v408 : Ref sig .tc := ⟨.hbm, 432, rfl⟩
abbrev main_v409 : Ref sig .tc := ⟨.hbm, 433, rfl⟩
abbrev main_v410 : Ref sig .tc := ⟨.hbm, 434, rfl⟩
abbrev main_v411 : Ref sig .tc := ⟨.hbm, 435, rfl⟩
abbrev main_v412 : Ref sig .tc := ⟨.hbm, 436, rfl⟩
abbrev main_v413 : Ref sig .tc := ⟨.hbm, 437, rfl⟩
abbrev main_v414 : Ref sig .tc := ⟨.hbm, 438, rfl⟩
abbrev main_v415 : Ref sig .tc := ⟨.hbm, 439, rfl⟩
abbrev main_v416 : Ref sig .tc := ⟨.hbm, 440, rfl⟩
abbrev main_v417 : Ref sig .tc := ⟨.hbm, 441, rfl⟩
abbrev main_v418 : Ref sig .tc := ⟨.hbm, 442, rfl⟩
abbrev main_v419 : Ref sig .tc := ⟨.hbm, 443, rfl⟩
abbrev main_v420 : Ref sig .tc := ⟨.hbm, 444, rfl⟩
abbrev main_v421 : Ref sig .tc := ⟨.hbm, 445, rfl⟩
abbrev main_v422 : Ref sig .tc := ⟨.hbm, 446, rfl⟩
abbrev main_v423 : Ref sig .tc := ⟨.hbm, 447, rfl⟩
abbrev main_v424 : Ref sig .tc := ⟨.hbm, 448, rfl⟩
abbrev main_v425 : Ref sig .tc := ⟨.hbm, 449, rfl⟩
abbrev main_v426 : Ref sig .tc := ⟨.hbm, 450, rfl⟩
abbrev main_v427 : Ref sig .tc := ⟨.hbm, 451, rfl⟩
abbrev main_v428 : Ref sig .tc := ⟨.hbm, 452, rfl⟩
abbrev main_v429 : Ref sig .tc := ⟨.hbm, 453, rfl⟩
abbrev main_v430 : Ref sig .tc := ⟨.hbm, 454, rfl⟩
abbrev main_v431 : Ref sig .tc := ⟨.hbm, 455, rfl⟩
abbrev main_v432 : Ref sig .tc := ⟨.hbm, 456, rfl⟩
abbrev main_v433 : Ref sig .tc := ⟨.hbm, 457, rfl⟩
abbrev main_v434 : Ref sig .tc := ⟨.hbm, 458, rfl⟩
abbrev main_v435 : Ref sig .tc := ⟨.hbm, 459, rfl⟩
abbrev main_v436 : Ref sig .tc := ⟨.hbm, 460, rfl⟩
abbrev main_v437 : Ref sig .tc := ⟨.hbm, 461, rfl⟩
abbrev main_v438 : Ref sig .tc := ⟨.hbm, 462, rfl⟩
abbrev main_v439 : Ref sig .tc := ⟨.hbm, 463, rfl⟩
abbrev main_v440 : Ref sig .tc := ⟨.hbm, 464, rfl⟩
abbrev main_v441 : Ref sig .tc := ⟨.hbm, 465, rfl⟩
abbrev main_v442 : Ref sig .tc := ⟨.hbm, 466, rfl⟩
abbrev main_v443 : Ref sig .tc := ⟨.hbm, 467, rfl⟩
abbrev main_v444 : Ref sig .tc := ⟨.hbm, 468, rfl⟩
abbrev main_v445 : Ref sig .tc := ⟨.hbm, 469, rfl⟩
abbrev main_v446 : Ref sig .tc := ⟨.hbm, 470, rfl⟩
abbrev main_v447 : Ref sig .tc := ⟨.hbm, 471, rfl⟩
abbrev main_v448 : Ref sig .tc := ⟨.hbm, 472, rfl⟩
abbrev main_v449 : Ref sig .tc := ⟨.hbm, 473, rfl⟩
abbrev main_v450 : Ref sig .tc := ⟨.hbm, 474, rfl⟩
abbrev main_v451 : Ref sig .tc := ⟨.hbm, 475, rfl⟩
abbrev main_v452 : Ref sig .tc := ⟨.hbm, 476, rfl⟩
abbrev main_v453 : Ref sig .tc := ⟨.hbm, 477, rfl⟩
abbrev main_v454 : Ref sig .tc := ⟨.hbm, 478, rfl⟩
abbrev main_v455 : Ref sig .tc := ⟨.hbm, 479, rfl⟩
abbrev main_v456 : Ref sig .tc := ⟨.hbm, 480, rfl⟩
abbrev main_v457 : Ref sig .tc := ⟨.hbm, 481, rfl⟩
abbrev main_v458 : Ref sig .tc := ⟨.hbm, 482, rfl⟩
abbrev main_v459 : Ref sig .tc := ⟨.hbm, 483, rfl⟩
abbrev main_v460 : Ref sig .tc := ⟨.hbm, 484, rfl⟩
abbrev main_v461 : Ref sig .tc := ⟨.hbm, 485, rfl⟩
abbrev main_v462 : Ref sig .tc := ⟨.hbm, 486, rfl⟩
abbrev main_v463 : Ref sig .tc := ⟨.hbm, 487, rfl⟩
abbrev main_v464 : Ref sig .tc := ⟨.hbm, 488, rfl⟩
abbrev main_v465 : Ref sig .tc := ⟨.hbm, 489, rfl⟩
abbrev main_v466 : Ref sig .tc := ⟨.hbm, 490, rfl⟩
abbrev main_v467 : Ref sig .tc := ⟨.hbm, 491, rfl⟩
abbrev main_v468 : Ref sig .tc := ⟨.hbm, 492, rfl⟩
abbrev main_v469 : Ref sig .tc := ⟨.hbm, 493, rfl⟩
abbrev main_v470 : Ref sig .tc := ⟨.hbm, 494, rfl⟩
abbrev main_v471 : Ref sig .tc := ⟨.hbm, 495, rfl⟩
abbrev main_v472 : Ref sig .tc := ⟨.hbm, 496, rfl⟩
abbrev main_v473 : Ref sig .tc := ⟨.hbm, 497, rfl⟩
abbrev main_v474 : Ref sig .tc := ⟨.hbm, 498, rfl⟩
abbrev main_v475 : Ref sig .tc := ⟨.hbm, 499, rfl⟩
abbrev main_v476 : Ref sig .tc := ⟨.hbm, 500, rfl⟩
abbrev main_v477 : Ref sig .tc := ⟨.hbm, 501, rfl⟩
abbrev main_v478 : Ref sig .tc := ⟨.hbm, 502, rfl⟩
abbrev main_v479 : Ref sig .tc := ⟨.hbm, 503, rfl⟩
abbrev main_v480 : Ref sig .tc := ⟨.hbm, 504, rfl⟩
abbrev main_v481 : Ref sig .tc := ⟨.hbm, 505, rfl⟩
abbrev main_v482 : Ref sig .tc := ⟨.hbm, 506, rfl⟩
abbrev main_v483 : Ref sig .tc := ⟨.hbm, 507, rfl⟩
abbrev main_v484 : Ref sig .tc := ⟨.hbm, 508, rfl⟩
abbrev main_v485 : Ref sig .tc := ⟨.hbm, 509, rfl⟩
abbrev main_v486 : Ref sig .tc := ⟨.hbm, 510, rfl⟩
abbrev main_v487 : Ref sig .tc := ⟨.hbm, 511, rfl⟩
abbrev main_v488 : Ref sig .tc := ⟨.hbm, 512, rfl⟩
abbrev main_v489 : Ref sig .tc := ⟨.hbm, 513, rfl⟩
abbrev main_v490 : Ref sig .tc := ⟨.hbm, 514, rfl⟩
abbrev main_v491 : Ref sig .tc := ⟨.hbm, 515, rfl⟩
abbrev main_v492 : Ref sig .tc := ⟨.hbm, 516, rfl⟩
abbrev main_v493 : Ref sig .tc := ⟨.hbm, 517, rfl⟩
abbrev main_v494 : Ref sig .tc := ⟨.hbm, 518, rfl⟩
abbrev main_v495 : Ref sig .tc := ⟨.hbm, 519, rfl⟩
abbrev main_v496 : Ref sig .tc := ⟨.hbm, 520, rfl⟩
abbrev main_v497 : Ref sig .tc := ⟨.hbm, 521, rfl⟩
abbrev main_v498 : Ref sig .tc := ⟨.hbm, 522, rfl⟩
abbrev main_v499 : Ref sig .tc := ⟨.hbm, 523, rfl⟩
abbrev main_v500 : Ref sig .tc := ⟨.hbm, 524, rfl⟩
abbrev main_v501 : Ref sig .tc := ⟨.hbm, 525, rfl⟩
abbrev main_v502 : Ref sig .tc := ⟨.hbm, 526, rfl⟩
abbrev main_v503 : Ref sig .tc := ⟨.hbm, 527, rfl⟩
abbrev main_v504 : Ref sig .tc := ⟨.hbm, 528, rfl⟩
abbrev main_v505 : Ref sig .tc := ⟨.hbm, 529, rfl⟩
abbrev main_v506 : Ref sig .tc := ⟨.hbm, 530, rfl⟩
abbrev main_v507 : Ref sig .tc := ⟨.hbm, 531, rfl⟩
abbrev main_v508 : Ref sig .tc := ⟨.hbm, 532, rfl⟩
abbrev main_v509 : Ref sig .tc := ⟨.hbm, 533, rfl⟩
abbrev main_v510 : Ref sig .tc := ⟨.hbm, 534, rfl⟩
abbrev main_v511 : Ref sig .tc := ⟨.hbm, 535, rfl⟩
abbrev main_v512 : Ref sig .tc := ⟨.hbm, 536, rfl⟩
abbrev main_v513 : Ref sig .tc := ⟨.hbm, 537, rfl⟩
abbrev main_v514 : Ref sig .tc := ⟨.hbm, 538, rfl⟩
abbrev main_v515 : Ref sig .tc := ⟨.hbm, 539, rfl⟩
abbrev main_v516 : Ref sig .tc := ⟨.hbm, 540, rfl⟩
abbrev main_v517 : Ref sig .tc := ⟨.hbm, 541, rfl⟩
abbrev main_v518 : Ref sig .tc := ⟨.hbm, 542, rfl⟩
abbrev main_v519 : Ref sig .tc := ⟨.hbm, 543, rfl⟩
abbrev main_v520 : Ref sig .tc := ⟨.hbm, 544, rfl⟩
abbrev main_v521 : Ref sig .tc := ⟨.hbm, 545, rfl⟩
abbrev main_v522 : Ref sig .tc := ⟨.hbm, 546, rfl⟩
abbrev main_v523 : Ref sig .tc := ⟨.hbm, 547, rfl⟩
abbrev main_v524 : Ref sig .tc := ⟨.hbm, 548, rfl⟩
abbrev main_v525 : Ref sig .tc := ⟨.hbm, 549, rfl⟩
abbrev main_v526 : Ref sig .tc := ⟨.hbm, 550, rfl⟩
abbrev main_v527 : Ref sig .tc := ⟨.hbm, 551, rfl⟩
abbrev main_v528 : Ref sig .tc := ⟨.hbm, 552, rfl⟩
abbrev main_v529 : Ref sig .tc := ⟨.hbm, 553, rfl⟩
abbrev main_v530 : Ref sig .tc := ⟨.hbm, 554, rfl⟩
abbrev main_v531 : Ref sig .tc := ⟨.hbm, 555, rfl⟩
abbrev main_v532 : Ref sig .tc := ⟨.hbm, 556, rfl⟩
abbrev main_v533 : Ref sig .tc := ⟨.hbm, 557, rfl⟩
abbrev main_v534 : Ref sig .tc := ⟨.hbm, 558, rfl⟩
abbrev main_v535 : Ref sig .tc := ⟨.hbm, 559, rfl⟩
abbrev main_v536 : Ref sig .tc := ⟨.hbm, 560, rfl⟩
abbrev main_v537 : Ref sig .tc := ⟨.hbm, 561, rfl⟩
abbrev main_v538 : Ref sig .tc := ⟨.hbm, 562, rfl⟩
abbrev main_v539 : Ref sig .tc := ⟨.hbm, 563, rfl⟩
abbrev main_v540 : Ref sig .tc := ⟨.hbm, 564, rfl⟩
abbrev main_v541 : Ref sig .tc := ⟨.hbm, 565, rfl⟩
abbrev main_v542 : Ref sig .tc := ⟨.hbm, 566, rfl⟩
abbrev main_v543 : Ref sig .tc := ⟨.hbm, 567, rfl⟩
abbrev main_v544 : Ref sig .tc := ⟨.hbm, 568, rfl⟩
abbrev main_v545 : Ref sig .tc := ⟨.hbm, 569, rfl⟩
abbrev main_v546 : Ref sig .tc := ⟨.hbm, 570, rfl⟩
abbrev main_v547 : Ref sig .tc := ⟨.hbm, 571, rfl⟩
abbrev main_v548 : Ref sig .tc := ⟨.hbm, 572, rfl⟩
abbrev main_v549 : Ref sig .tc := ⟨.hbm, 573, rfl⟩
abbrev main_v550 : Ref sig .tc := ⟨.hbm, 574, rfl⟩
abbrev main_v551 : Ref sig .tc := ⟨.hbm, 575, rfl⟩
abbrev main_v552 : Ref sig .tc := ⟨.hbm, 576, rfl⟩
abbrev main_v553 : Ref sig .tc := ⟨.hbm, 577, rfl⟩
abbrev main_v554 : Ref sig .tc := ⟨.hbm, 578, rfl⟩
abbrev main_v555 : Ref sig .tc := ⟨.hbm, 579, rfl⟩
abbrev main_v556 : Ref sig .tc := ⟨.hbm, 580, rfl⟩
abbrev main_v557 : Ref sig .tc := ⟨.hbm, 581, rfl⟩
abbrev main_v558 : Ref sig .tc := ⟨.hbm, 582, rfl⟩
abbrev main_v559 : Ref sig .tc := ⟨.hbm, 583, rfl⟩
abbrev main_v560 : Ref sig .tc := ⟨.hbm, 584, rfl⟩
abbrev main_v561 : Ref sig .tc := ⟨.hbm, 585, rfl⟩
abbrev main_v562 : Ref sig .tc := ⟨.hbm, 586, rfl⟩
abbrev main_v563 : Ref sig .tc := ⟨.hbm, 587, rfl⟩
abbrev main_v564 : Ref sig .tc := ⟨.hbm, 588, rfl⟩
abbrev main_v565 : Ref sig .tc := ⟨.hbm, 589, rfl⟩
abbrev main_v566 : Ref sig .tc := ⟨.hbm, 590, rfl⟩
abbrev main_v567 : Ref sig .tc := ⟨.hbm, 591, rfl⟩
abbrev main_v568 : Ref sig .tc := ⟨.hbm, 592, rfl⟩
abbrev main_v569 : Ref sig .tc := ⟨.hbm, 593, rfl⟩
abbrev main_v570 : Ref sig .tc := ⟨.hbm, 594, rfl⟩
abbrev main_v571 : Ref sig .tc := ⟨.hbm, 595, rfl⟩
abbrev main_v572 : Ref sig .tc := ⟨.hbm, 596, rfl⟩
abbrev main_v573 : Ref sig .tc := ⟨.hbm, 597, rfl⟩
abbrev main_v574 : Ref sig .tc := ⟨.hbm, 598, rfl⟩
abbrev main_v575 : Ref sig .tc := ⟨.hbm, 599, rfl⟩
abbrev main_v576 : Ref sig .tc := ⟨.hbm, 600, rfl⟩
abbrev main_v577 : Ref sig .tc := ⟨.hbm, 601, rfl⟩
abbrev main_v578 : Ref sig .tc := ⟨.hbm, 602, rfl⟩
abbrev main_v579 : Ref sig .tc := ⟨.hbm, 603, rfl⟩
abbrev main_v580 : Ref sig .tc := ⟨.hbm, 604, rfl⟩
abbrev main_v581 : Ref sig .tc := ⟨.hbm, 605, rfl⟩
abbrev main_v582 : Ref sig .tc := ⟨.hbm, 606, rfl⟩
abbrev main_v583 : Ref sig .tc := ⟨.hbm, 607, rfl⟩
abbrev main_v584 : Ref sig .tc := ⟨.hbm, 608, rfl⟩
abbrev main_v585 : Ref sig .tc := ⟨.hbm, 609, rfl⟩
abbrev main_v586 : Ref sig .tc := ⟨.hbm, 610, rfl⟩
abbrev main_v587 : Ref sig .tc := ⟨.hbm, 611, rfl⟩
abbrev main_v588 : Ref sig .tc := ⟨.hbm, 612, rfl⟩
abbrev main_v589 : Ref sig .tc := ⟨.hbm, 613, rfl⟩
abbrev main_v590 : Ref sig .tc := ⟨.hbm, 614, rfl⟩
abbrev main_v591 : Ref sig .tc := ⟨.hbm, 615, rfl⟩
abbrev main_v592 : Ref sig .tc := ⟨.hbm, 616, rfl⟩
abbrev main_v593 : Ref sig .tc := ⟨.hbm, 617, rfl⟩
abbrev main_v594 : Ref sig .tc := ⟨.hbm, 618, rfl⟩
abbrev main_v595 : Ref sig .tc := ⟨.hbm, 619, rfl⟩
abbrev main_v596 : Ref sig .tc := ⟨.hbm, 620, rfl⟩
abbrev main_v597 : Ref sig .tc := ⟨.hbm, 621, rfl⟩
abbrev main_v598 : Ref sig .tc := ⟨.hbm, 622, rfl⟩
abbrev main_v599 : Ref sig .tc := ⟨.hbm, 623, rfl⟩
abbrev main_v600 : Ref sig .tc := ⟨.hbm, 624, rfl⟩
abbrev main_v601 : Ref sig .tc := ⟨.hbm, 625, rfl⟩
abbrev main_v602 : Ref sig .tc := ⟨.hbm, 626, rfl⟩
abbrev main_v603 : Ref sig .tc := ⟨.hbm, 627, rfl⟩
abbrev main_v604 : Ref sig .tc := ⟨.hbm, 628, rfl⟩
abbrev main_v605 : Ref sig .tc := ⟨.hbm, 629, rfl⟩
abbrev main_v606 : Ref sig .tc := ⟨.hbm, 630, rfl⟩
abbrev main_v607 : Ref sig .tc := ⟨.hbm, 631, rfl⟩
abbrev main_v608 : Ref sig .tc := ⟨.hbm, 632, rfl⟩
abbrev main_v609 : Ref sig .tc := ⟨.hbm, 633, rfl⟩
abbrev main_v610 : Ref sig .tc := ⟨.hbm, 634, rfl⟩
abbrev main_v611 : Ref sig .tc := ⟨.hbm, 635, rfl⟩
abbrev main_v612 : Ref sig .tc := ⟨.hbm, 636, rfl⟩
abbrev main_v613 : Ref sig .tc := ⟨.hbm, 637, rfl⟩
abbrev main_v614 : Ref sig .tc := ⟨.hbm, 638, rfl⟩
abbrev main_v615 : Ref sig .tc := ⟨.hbm, 639, rfl⟩
abbrev main_v616 : Ref sig .tc := ⟨.hbm, 640, rfl⟩
abbrev main_v617 : Ref sig .tc := ⟨.hbm, 641, rfl⟩
abbrev main_v618 : Ref sig .tc := ⟨.hbm, 642, rfl⟩
abbrev main_v619 : Ref sig .tc := ⟨.hbm, 643, rfl⟩
abbrev main_v620 : Ref sig .tc := ⟨.hbm, 644, rfl⟩
abbrev main_v621 : Ref sig .tc := ⟨.hbm, 645, rfl⟩
abbrev main_v622 : Ref sig .tc := ⟨.hbm, 646, rfl⟩
abbrev main_v623 : Ref sig .tc := ⟨.hbm, 647, rfl⟩
abbrev main_v624 : Ref sig .tc := ⟨.hbm, 648, rfl⟩
abbrev main_v625 : Ref sig .tc := ⟨.hbm, 649, rfl⟩
abbrev main_v626 : Ref sig .tc := ⟨.hbm, 650, rfl⟩
abbrev main_v627 : Ref sig .tc := ⟨.hbm, 651, rfl⟩
abbrev main_v628 : Ref sig .tc := ⟨.hbm, 652, rfl⟩
abbrev main_v629 : Ref sig .tc := ⟨.hbm, 653, rfl⟩
abbrev main_v630 : Ref sig .tc := ⟨.hbm, 654, rfl⟩
abbrev main_v631 : Ref sig .tc := ⟨.hbm, 655, rfl⟩
abbrev main_v632 : Ref sig .tc := ⟨.hbm, 656, rfl⟩
abbrev main_v633 : Ref sig .tc := ⟨.hbm, 657, rfl⟩
abbrev main_v634 : Ref sig .tc := ⟨.hbm, 658, rfl⟩
abbrev main_v635 : Ref sig .tc := ⟨.hbm, 659, rfl⟩
abbrev main_v636 : Ref sig .tc := ⟨.hbm, 660, rfl⟩
abbrev main_v637 : Ref sig .tc := ⟨.hbm, 661, rfl⟩
abbrev main_v638 : Ref sig .tc := ⟨.hbm, 662, rfl⟩
abbrev main_v639 : Ref sig .tc := ⟨.hbm, 663, rfl⟩
abbrev main_v640 : Ref sig .tc := ⟨.hbm, 664, rfl⟩
abbrev main_v641 : Ref sig .tc := ⟨.hbm, 665, rfl⟩
abbrev main_v642 : Ref sig .tc := ⟨.hbm, 666, rfl⟩
abbrev main_v643 : Ref sig .tc := ⟨.hbm, 667, rfl⟩
abbrev main_v644 : Ref sig .tc := ⟨.hbm, 668, rfl⟩
abbrev main_v645 : Ref sig .tc := ⟨.hbm, 669, rfl⟩
abbrev main_v646 : Ref sig .tc := ⟨.hbm, 670, rfl⟩
abbrev main_v647 : Ref sig .tc := ⟨.hbm, 671, rfl⟩
abbrev main_v648 : Ref sig .tc := ⟨.hbm, 672, rfl⟩
abbrev main_v649 : Ref sig .tc := ⟨.hbm, 673, rfl⟩
abbrev main_v650 : Ref sig .tc := ⟨.hbm, 674, rfl⟩
abbrev main_v651 : Ref sig .tc := ⟨.hbm, 675, rfl⟩
abbrev main_v652 : Ref sig .tc := ⟨.hbm, 676, rfl⟩
abbrev main_v653 : Ref sig .tc := ⟨.hbm, 677, rfl⟩
abbrev main_v654 : Ref sig .tc := ⟨.hbm, 678, rfl⟩
abbrev main_v655 : Ref sig .tc := ⟨.hbm, 679, rfl⟩
abbrev main_v656 : Ref sig .tc := ⟨.hbm, 680, rfl⟩
abbrev main_v657 : Ref sig .tc := ⟨.hbm, 681, rfl⟩
abbrev main_v658 : Ref sig .tc := ⟨.hbm, 682, rfl⟩
abbrev main_v659 : Ref sig .tc := ⟨.hbm, 683, rfl⟩
abbrev main_v660 : Ref sig .tc := ⟨.hbm, 684, rfl⟩
abbrev main_v661 : Ref sig .tc := ⟨.hbm, 685, rfl⟩
abbrev main_v662 : Ref sig .tc := ⟨.hbm, 686, rfl⟩
abbrev main_v663 : Ref sig .tc := ⟨.hbm, 687, rfl⟩
abbrev main_v664 : Ref sig .tc := ⟨.hbm, 688, rfl⟩
abbrev main_v665 : Ref sig .tc := ⟨.hbm, 689, rfl⟩
abbrev main_v666 : Ref sig .tc := ⟨.hbm, 690, rfl⟩
abbrev main_v667 : Ref sig .tc := ⟨.hbm, 691, rfl⟩
abbrev main_v668 : Ref sig .tc := ⟨.hbm, 692, rfl⟩
abbrev main_v669 : Ref sig .tc := ⟨.hbm, 693, rfl⟩
abbrev main_v670 : Ref sig .tc := ⟨.hbm, 694, rfl⟩
abbrev main_v671 : Ref sig .tc := ⟨.hbm, 695, rfl⟩
abbrev main_v672 : Ref sig .tc := ⟨.hbm, 696, rfl⟩
abbrev main_v673 : Ref sig .tc := ⟨.hbm, 697, rfl⟩
abbrev main_v674 : Ref sig .tc := ⟨.hbm, 698, rfl⟩
abbrev main_v675 : Ref sig .tc := ⟨.hbm, 699, rfl⟩
abbrev main_v676 : Ref sig .tc := ⟨.hbm, 700, rfl⟩
abbrev main_v677 : Ref sig .tc := ⟨.hbm, 701, rfl⟩
abbrev main_v678 : Ref sig .tc := ⟨.hbm, 702, rfl⟩
abbrev main_v679 : Ref sig .tc := ⟨.hbm, 703, rfl⟩
abbrev main_v680 : Ref sig .tc := ⟨.hbm, 704, rfl⟩
abbrev main_v681 : Ref sig .tc := ⟨.hbm, 705, rfl⟩
abbrev main_v682 : Ref sig .tc := ⟨.hbm, 706, rfl⟩
abbrev main_v683 : Ref sig .tc := ⟨.hbm, 707, rfl⟩
abbrev main_v684 : Ref sig .tc := ⟨.hbm, 708, rfl⟩
abbrev main_v685 : Ref sig .tc := ⟨.hbm, 709, rfl⟩
abbrev main_v686 : Ref sig .tc := ⟨.hbm, 710, rfl⟩
abbrev main_v687 : Ref sig .tc := ⟨.hbm, 711, rfl⟩
abbrev main_v688 : Ref sig .tc := ⟨.hbm, 712, rfl⟩
abbrev main_v689 : Ref sig .tc := ⟨.hbm, 713, rfl⟩
abbrev main_v690 : Ref sig .tc := ⟨.hbm, 714, rfl⟩
abbrev main_v691 : Ref sig .tc := ⟨.hbm, 715, rfl⟩
abbrev main_v692 : Ref sig .tc := ⟨.hbm, 716, rfl⟩
abbrev main_v693 : Ref sig .tc := ⟨.hbm, 717, rfl⟩
abbrev main_v694 : Ref sig .tc := ⟨.hbm, 718, rfl⟩
abbrev main_v695 : Ref sig .tc := ⟨.hbm, 719, rfl⟩
abbrev main_v696 : Ref sig .tc := ⟨.hbm, 720, rfl⟩
abbrev main_v697 : Ref sig .tc := ⟨.hbm, 721, rfl⟩
abbrev main_v698 : Ref sig .tc := ⟨.hbm, 722, rfl⟩
abbrev main_v699 : Ref sig .tc := ⟨.hbm, 723, rfl⟩
abbrev main_v700 : Ref sig .tc := ⟨.hbm, 724, rfl⟩
abbrev main_v701 : Ref sig .tc := ⟨.hbm, 725, rfl⟩
abbrev main_v702 : Ref sig .tc := ⟨.hbm, 726, rfl⟩
abbrev main_v703 : Ref sig .tc := ⟨.hbm, 727, rfl⟩
abbrev main_v704 : Ref sig .tc := ⟨.hbm, 728, rfl⟩
abbrev main_v705 : Ref sig .tc := ⟨.hbm, 729, rfl⟩
abbrev main_v706 : Ref sig .tc := ⟨.hbm, 730, rfl⟩
abbrev main_v707 : Ref sig .tc := ⟨.hbm, 731, rfl⟩
abbrev main_v708 : Ref sig .tc := ⟨.hbm, 732, rfl⟩
abbrev main_v709 : Ref sig .tc := ⟨.hbm, 733, rfl⟩
abbrev main_v710 : Ref sig .tc := ⟨.hbm, 734, rfl⟩
abbrev main_v711 : Ref sig .tc := ⟨.hbm, 735, rfl⟩
abbrev main_v712 : Ref sig .tc := ⟨.hbm, 736, rfl⟩
abbrev main_v713 : Ref sig .tc := ⟨.hbm, 737, rfl⟩
abbrev main_v714 : Ref sig .tc := ⟨.hbm, 738, rfl⟩
abbrev main_v715 : Ref sig .tc := ⟨.hbm, 739, rfl⟩
abbrev main_v716 : Ref sig .tc := ⟨.hbm, 740, rfl⟩
abbrev main_v717 : Ref sig .tc := ⟨.hbm, 741, rfl⟩
abbrev main_v718 : Ref sig .tc := ⟨.hbm, 742, rfl⟩
abbrev main_v719 : Ref sig .tc := ⟨.hbm, 743, rfl⟩
abbrev main_v720 : Ref sig .tc := ⟨.hbm, 744, rfl⟩
abbrev main_v721 : Ref sig .tc := ⟨.hbm, 745, rfl⟩
abbrev main_v722 : Ref sig .tc := ⟨.hbm, 746, rfl⟩
abbrev main_v723 : Ref sig .tc := ⟨.hbm, 747, rfl⟩
abbrev main_v724 : Ref sig .tc := ⟨.hbm, 748, rfl⟩
abbrev main_v725 : Ref sig .tc := ⟨.hbm, 749, rfl⟩
abbrev main_v726 : Ref sig .tc := ⟨.hbm, 750, rfl⟩
abbrev main_v727 : Ref sig .tc := ⟨.hbm, 751, rfl⟩
abbrev main_v728 : Ref sig .tc := ⟨.hbm, 752, rfl⟩
abbrev main_v729 : Ref sig .tc := ⟨.hbm, 753, rfl⟩
abbrev main_v730 : Ref sig .tc := ⟨.hbm, 754, rfl⟩
abbrev main_v731 : Ref sig .tc := ⟨.hbm, 755, rfl⟩
abbrev main_v732 : Ref sig .tc := ⟨.hbm, 756, rfl⟩
abbrev main_v733 : Ref sig .tc := ⟨.hbm, 757, rfl⟩
abbrev main_v734 : Ref sig .tc := ⟨.hbm, 758, rfl⟩
abbrev main_v735 : Ref sig .tc := ⟨.hbm, 759, rfl⟩
abbrev main_v736 : Ref sig .tc := ⟨.hbm, 760, rfl⟩
abbrev main_v737 : Ref sig .tc := ⟨.hbm, 761, rfl⟩
abbrev main_v738 : Ref sig .tc := ⟨.hbm, 762, rfl⟩
abbrev main_v739 : Ref sig .tc := ⟨.hbm, 763, rfl⟩
abbrev main_v740 : Ref sig .tc := ⟨.hbm, 764, rfl⟩
abbrev main_v741 : Ref sig .tc := ⟨.hbm, 765, rfl⟩
abbrev main_v742 : Ref sig .tc := ⟨.hbm, 766, rfl⟩
abbrev main_v743 : Ref sig .tc := ⟨.hbm, 767, rfl⟩
abbrev main_v744 : Ref sig .tc := ⟨.hbm, 768, rfl⟩
abbrev main_v745 : Ref sig .tc := ⟨.hbm, 769, rfl⟩
abbrev main_v746 : Ref sig .tc := ⟨.hbm, 770, rfl⟩
abbrev main_v747 : Ref sig .tc := ⟨.hbm, 771, rfl⟩
abbrev main_v748 : Ref sig .tc := ⟨.hbm, 772, rfl⟩
abbrev main_v749 : Ref sig .tc := ⟨.hbm, 773, rfl⟩
abbrev main_v750 : Ref sig .tc := ⟨.hbm, 774, rfl⟩
abbrev main_v751 : Ref sig .tc := ⟨.hbm, 775, rfl⟩
abbrev main_v752 : Ref sig .tc := ⟨.hbm, 776, rfl⟩
abbrev main_v753 : Ref sig .tc := ⟨.hbm, 777, rfl⟩
abbrev main_v754 : Ref sig .tc := ⟨.hbm, 778, rfl⟩
abbrev main_v755 : Ref sig .tc := ⟨.hbm, 779, rfl⟩
abbrev main_v756 : Ref sig .tc := ⟨.hbm, 780, rfl⟩
abbrev main_v757 : Ref sig .tc := ⟨.hbm, 781, rfl⟩
abbrev main_v758 : Ref sig .tc := ⟨.hbm, 782, rfl⟩
abbrev main_v759 : Ref sig .tc := ⟨.hbm, 783, rfl⟩
abbrev main_v760 : Ref sig .tc := ⟨.hbm, 784, rfl⟩
abbrev main_v761 : Ref sig .tc := ⟨.hbm, 785, rfl⟩
abbrev main_v762 : Ref sig .tc := ⟨.hbm, 786, rfl⟩
abbrev main_v763 : Ref sig .tc := ⟨.hbm, 787, rfl⟩
abbrev main_v764 : Ref sig .tc := ⟨.hbm, 788, rfl⟩
abbrev main_v765 : Ref sig .tc := ⟨.hbm, 789, rfl⟩
abbrev main_v766 : Ref sig .tc := ⟨.hbm, 790, rfl⟩
abbrev main_v767 : Ref sig .tc := ⟨.hbm, 791, rfl⟩
abbrev main_v768 : Ref sig .tc := ⟨.hbm, 792, rfl⟩
abbrev main_v769 : Ref sig .tc := ⟨.hbm, 793, rfl⟩
abbrev main_v770 : Ref sig .tc := ⟨.hbm, 794, rfl⟩
abbrev main_v771 : Ref sig .tc := ⟨.hbm, 795, rfl⟩
abbrev main_v772 : Ref sig .tc := ⟨.hbm, 796, rfl⟩
abbrev main_v773 : Ref sig .tc := ⟨.hbm, 797, rfl⟩
abbrev main_v774 : Ref sig .tc := ⟨.hbm, 798, rfl⟩
abbrev main_v775 : Ref sig .tc := ⟨.hbm, 799, rfl⟩
abbrev main_v776 : Ref sig .tc := ⟨.hbm, 800, rfl⟩
abbrev main_v777 : Ref sig .tc := ⟨.hbm, 801, rfl⟩
abbrev main_v778 : Ref sig .tc := ⟨.hbm, 802, rfl⟩
abbrev main_v779 : Ref sig .tc := ⟨.hbm, 803, rfl⟩
abbrev main_v780 : Ref sig .tc := ⟨.hbm, 804, rfl⟩
abbrev main_v781 : Ref sig .tc := ⟨.hbm, 805, rfl⟩
abbrev main_v782 : Ref sig .tc := ⟨.hbm, 806, rfl⟩
abbrev main_v783 : Ref sig .tc := ⟨.hbm, 807, rfl⟩
abbrev main_v784 : Ref sig .tc := ⟨.hbm, 808, rfl⟩
abbrev main_v785 : Ref sig .tc := ⟨.hbm, 809, rfl⟩
abbrev main_v786 : Ref sig .tc := ⟨.hbm, 810, rfl⟩
abbrev main_v787 : Ref sig .tc := ⟨.hbm, 811, rfl⟩
abbrev main_v788 : Ref sig .tc := ⟨.hbm, 812, rfl⟩
abbrev main_v789 : Ref sig .tc := ⟨.hbm, 813, rfl⟩
abbrev main_v790 : Ref sig .tc := ⟨.hbm, 814, rfl⟩
abbrev main_v791 : Ref sig .tc := ⟨.hbm, 815, rfl⟩
abbrev main_v792 : Ref sig .tc := ⟨.hbm, 816, rfl⟩
abbrev main_v793 : Ref sig .tc := ⟨.hbm, 817, rfl⟩
abbrev main_v794 : Ref sig .tc := ⟨.hbm, 818, rfl⟩
abbrev main_v795 : Ref sig .tc := ⟨.hbm, 819, rfl⟩
abbrev main_v796 : Ref sig .tc := ⟨.hbm, 820, rfl⟩
abbrev main_v797 : Ref sig .tc := ⟨.hbm, 821, rfl⟩
abbrev main_v798 : Ref sig .tc := ⟨.hbm, 822, rfl⟩
abbrev main_v799 : Ref sig .tc := ⟨.hbm, 823, rfl⟩
abbrev main_v800 : Ref sig .tc := ⟨.hbm, 824, rfl⟩
abbrev main_v801 : Ref sig .tc := ⟨.hbm, 825, rfl⟩
abbrev main_v802 : Ref sig .tc := ⟨.hbm, 826, rfl⟩
abbrev main_v803 : Ref sig .tc := ⟨.hbm, 827, rfl⟩
abbrev main_v804 : Ref sig .tc := ⟨.hbm, 828, rfl⟩
abbrev main_v805 : Ref sig .tc := ⟨.hbm, 829, rfl⟩
abbrev main_v806 : Ref sig .tc := ⟨.hbm, 830, rfl⟩
abbrev main_v807 : Ref sig .tc := ⟨.hbm, 831, rfl⟩
abbrev main_v808 : Ref sig .tc := ⟨.hbm, 832, rfl⟩
abbrev main_v809 : Ref sig .tc := ⟨.hbm, 833, rfl⟩
abbrev main_v810 : Ref sig .tc := ⟨.hbm, 834, rfl⟩
abbrev main_v811 : Ref sig .tc := ⟨.hbm, 835, rfl⟩
abbrev main_v812 : Ref sig .tc := ⟨.hbm, 836, rfl⟩
abbrev main_v813 : Ref sig .tc := ⟨.hbm, 837, rfl⟩
abbrev main_v814 : Ref sig .tc := ⟨.hbm, 838, rfl⟩
abbrev main_v815 : Ref sig .tc := ⟨.hbm, 839, rfl⟩
abbrev main_v816 : Ref sig .tc := ⟨.hbm, 840, rfl⟩
abbrev main_v817 : Ref sig .tc := ⟨.hbm, 841, rfl⟩
abbrev main_v818 : Ref sig .tc := ⟨.hbm, 842, rfl⟩
abbrev main_v819 : Ref sig .tc := ⟨.hbm, 843, rfl⟩
abbrev main_v820 : Ref sig .tc := ⟨.hbm, 844, rfl⟩
abbrev main_v821 : Ref sig .tc := ⟨.hbm, 845, rfl⟩
abbrev main_v822 : Ref sig .tc := ⟨.hbm, 846, rfl⟩
abbrev main_v823 : Ref sig .tc := ⟨.hbm, 847, rfl⟩
abbrev main_v824 : Ref sig .tc := ⟨.hbm, 848, rfl⟩
abbrev main_v825 : Ref sig .tc := ⟨.hbm, 849, rfl⟩
abbrev main_v826 : Ref sig .tc := ⟨.hbm, 850, rfl⟩
abbrev main_v827 : Ref sig .tc := ⟨.hbm, 851, rfl⟩
abbrev main_v828 : Ref sig .tc := ⟨.hbm, 852, rfl⟩
abbrev main_v829 : Ref sig .tc := ⟨.hbm, 853, rfl⟩
abbrev main_v830 : Ref sig .tc := ⟨.hbm, 854, rfl⟩
abbrev main_v831 : Ref sig .tc := ⟨.hbm, 855, rfl⟩
abbrev main_v832 : Ref sig .tc := ⟨.hbm, 856, rfl⟩
abbrev main_v833 : Ref sig .tc := ⟨.hbm, 857, rfl⟩
abbrev main_v834 : Ref sig .tc := ⟨.hbm, 858, rfl⟩
abbrev main_v835 : Ref sig .tc := ⟨.hbm, 859, rfl⟩
abbrev main_v836 : Ref sig .tc := ⟨.hbm, 860, rfl⟩
abbrev main_v837 : Ref sig .tc := ⟨.hbm, 861, rfl⟩
abbrev main_v838 : Ref sig .tc := ⟨.hbm, 862, rfl⟩
abbrev main_v839 : Ref sig .tc := ⟨.hbm, 863, rfl⟩
abbrev main_v840 : Ref sig .tc := ⟨.hbm, 864, rfl⟩
abbrev main_v841 : Ref sig .tc := ⟨.hbm, 865, rfl⟩
abbrev main_v842 : Ref sig .tc := ⟨.hbm, 866, rfl⟩
abbrev main_v843 : Ref sig .tc := ⟨.hbm, 867, rfl⟩
abbrev main_v844 : Ref sig .tc := ⟨.hbm, 868, rfl⟩
abbrev main_v845 : Ref sig .tc := ⟨.hbm, 869, rfl⟩
abbrev main_v846 : Ref sig .tc := ⟨.hbm, 870, rfl⟩
abbrev main_v847 : Ref sig .tc := ⟨.hbm, 871, rfl⟩
abbrev main_v848 : Ref sig .tc := ⟨.hbm, 872, rfl⟩
abbrev main_v849 : Ref sig .tc := ⟨.hbm, 873, rfl⟩
abbrev main_v850 : Ref sig .tc := ⟨.hbm, 874, rfl⟩
abbrev main_v851 : Ref sig .tc := ⟨.hbm, 875, rfl⟩
abbrev main_v852 : Ref sig .tc := ⟨.hbm, 876, rfl⟩
abbrev main_v853 : Ref sig .tc := ⟨.hbm, 877, rfl⟩
abbrev main_v854 : Ref sig .tc := ⟨.hbm, 878, rfl⟩
abbrev main_v855 : Ref sig .tc := ⟨.hbm, 879, rfl⟩
abbrev main_v856 : Ref sig .tc := ⟨.hbm, 880, rfl⟩
abbrev main_v857 : Ref sig .tc := ⟨.hbm, 881, rfl⟩
abbrev main_v858 : Ref sig .tc := ⟨.hbm, 882, rfl⟩
abbrev main_v859 : Ref sig .tc := ⟨.hbm, 883, rfl⟩
abbrev main_v860 : Ref sig .tc := ⟨.hbm, 884, rfl⟩
abbrev main_v861 : Ref sig .tc := ⟨.hbm, 885, rfl⟩
abbrev main_v862 : Ref sig .tc := ⟨.hbm, 886, rfl⟩
abbrev main_v863 : Ref sig .tc := ⟨.hbm, 887, rfl⟩
abbrev main_v864 : Ref sig .tc := ⟨.hbm, 888, rfl⟩
abbrev main_v865 : Ref sig .tc := ⟨.hbm, 889, rfl⟩
abbrev main_v866 : Ref sig .tc := ⟨.hbm, 890, rfl⟩
abbrev main_v867 : Ref sig .tc := ⟨.hbm, 891, rfl⟩
abbrev main_v868 : Ref sig .tc := ⟨.hbm, 892, rfl⟩
abbrev main_v869 : Ref sig .tc := ⟨.hbm, 893, rfl⟩
abbrev main_v870 : Ref sig .tc := ⟨.hbm, 894, rfl⟩
abbrev main_v871 : Ref sig .tc := ⟨.hbm, 895, rfl⟩
abbrev main_v872 : Ref sig .tc := ⟨.hbm, 896, rfl⟩
abbrev main_v873 : Ref sig .tc := ⟨.hbm, 897, rfl⟩
abbrev main_v874 : Ref sig .tc := ⟨.hbm, 898, rfl⟩
abbrev main_v875 : Ref sig .tc := ⟨.hbm, 899, rfl⟩
abbrev main_v876 : Ref sig .tc := ⟨.hbm, 900, rfl⟩
abbrev main_v877 : Ref sig .tc := ⟨.hbm, 901, rfl⟩
abbrev main_v878 : Ref sig .tc := ⟨.hbm, 902, rfl⟩
abbrev main_v879 : Ref sig .tc := ⟨.hbm, 903, rfl⟩
abbrev main_v880 : Ref sig .tc := ⟨.hbm, 904, rfl⟩
abbrev main_v881 : Ref sig .tc := ⟨.hbm, 905, rfl⟩
abbrev main_v882 : Ref sig .tc := ⟨.hbm, 906, rfl⟩
abbrev main_v883 : Ref sig .tc := ⟨.hbm, 907, rfl⟩
abbrev main_v884 : Ref sig .tc := ⟨.hbm, 908, rfl⟩
abbrev main_v885 : Ref sig .tc := ⟨.hbm, 909, rfl⟩
abbrev main_v886 : Ref sig .tc := ⟨.hbm, 910, rfl⟩
abbrev main_v887 : Ref sig .tc := ⟨.hbm, 911, rfl⟩
abbrev main_v888 : Ref sig .tc := ⟨.hbm, 912, rfl⟩
abbrev main_v889 : Ref sig .tc := ⟨.hbm, 913, rfl⟩
abbrev main_v890 : Ref sig .tc := ⟨.hbm, 914, rfl⟩
abbrev main_v891 : Ref sig .tc := ⟨.hbm, 915, rfl⟩
abbrev main_v892 : Ref sig .tc := ⟨.hbm, 916, rfl⟩
abbrev main_v893 : Ref sig .tc := ⟨.hbm, 917, rfl⟩
abbrev main_v894 : Ref sig .tc := ⟨.hbm, 918, rfl⟩
abbrev main_v895 : Ref sig .tc := ⟨.hbm, 919, rfl⟩
abbrev main_v896 : Ref sig .tc := ⟨.hbm, 920, rfl⟩
abbrev main_v897 : Ref sig .tc := ⟨.hbm, 921, rfl⟩
abbrev main_v898 : Ref sig .tc := ⟨.hbm, 922, rfl⟩
abbrev main_v899 : Ref sig .tc := ⟨.hbm, 923, rfl⟩
abbrev main_v900 : Ref sig .tc := ⟨.hbm, 924, rfl⟩
abbrev main_v901 : Ref sig .tc := ⟨.hbm, 925, rfl⟩
abbrev main_v902 : Ref sig .tc := ⟨.hbm, 926, rfl⟩
abbrev main_v903 : Ref sig .tc := ⟨.hbm, 927, rfl⟩
abbrev main_v904 : Ref sig .tc := ⟨.hbm, 928, rfl⟩
abbrev main_v905 : Ref sig .tc := ⟨.hbm, 929, rfl⟩
abbrev main_v906 : Ref sig .tc := ⟨.hbm, 930, rfl⟩
abbrev main_v907 : Ref sig .tc := ⟨.hbm, 931, rfl⟩
abbrev main_v908 : Ref sig .tc := ⟨.hbm, 932, rfl⟩
abbrev main_v909 : Ref sig .tc := ⟨.hbm, 933, rfl⟩
abbrev main_v910 : Ref sig .tc := ⟨.hbm, 934, rfl⟩
abbrev main_v911 : Ref sig .tc := ⟨.hbm, 935, rfl⟩
abbrev main_v912 : Ref sig .tc := ⟨.hbm, 936, rfl⟩
abbrev main_v913 : Ref sig .tc := ⟨.hbm, 937, rfl⟩
abbrev main_v914 : Ref sig .tc := ⟨.hbm, 938, rfl⟩
abbrev main_v915 : Ref sig .tc := ⟨.hbm, 939, rfl⟩
abbrev main_v916 : Ref sig .tc := ⟨.hbm, 940, rfl⟩
abbrev main_v917 : Ref sig .tc := ⟨.hbm, 941, rfl⟩
abbrev main_v918 : Ref sig .tc := ⟨.hbm, 942, rfl⟩
abbrev main_v919 : Ref sig .tc := ⟨.hbm, 943, rfl⟩
abbrev main_v920 : Ref sig .tc := ⟨.hbm, 944, rfl⟩
abbrev main_v921 : Ref sig .tc := ⟨.hbm, 945, rfl⟩
abbrev main_v922 : Ref sig .tc := ⟨.hbm, 946, rfl⟩
abbrev main_v923 : Ref sig .tc := ⟨.hbm, 947, rfl⟩
abbrev main_v924 : Ref sig .tc := ⟨.hbm, 948, rfl⟩
abbrev main_v925 : Ref sig .tc := ⟨.hbm, 949, rfl⟩
abbrev main_v926 : Ref sig .tc := ⟨.hbm, 950, rfl⟩
abbrev main_v927 : Ref sig .tc := ⟨.hbm, 951, rfl⟩
abbrev main_v928 : Ref sig .tc := ⟨.hbm, 952, rfl⟩
abbrev main_v929 : Ref sig .tc := ⟨.hbm, 953, rfl⟩
abbrev main_v930 : Ref sig .tc := ⟨.hbm, 954, rfl⟩
abbrev main_v931 : Ref sig .tc := ⟨.hbm, 955, rfl⟩
abbrev main_v932 : Ref sig .tc := ⟨.hbm, 956, rfl⟩
abbrev main_v933 : Ref sig .tc := ⟨.hbm, 957, rfl⟩
abbrev main_v934 : Ref sig .tc := ⟨.hbm, 958, rfl⟩
abbrev main_v935 : Ref sig .tc := ⟨.hbm, 959, rfl⟩
abbrev main_v936 : Ref sig .tc := ⟨.hbm, 960, rfl⟩
abbrev main_v937 : Ref sig .tc := ⟨.hbm, 961, rfl⟩
abbrev main_v938 : Ref sig .tc := ⟨.hbm, 962, rfl⟩
abbrev main_v939 : Ref sig .tc := ⟨.hbm, 963, rfl⟩
abbrev main_v940 : Ref sig .tc := ⟨.hbm, 964, rfl⟩
abbrev main_v941 : Ref sig .tc := ⟨.hbm, 965, rfl⟩
abbrev main_v942 : Ref sig .tc := ⟨.hbm, 966, rfl⟩
abbrev main_v943 : Ref sig .tc := ⟨.hbm, 967, rfl⟩
abbrev main_v944 : Ref sig .tc := ⟨.hbm, 968, rfl⟩
abbrev main_v945 : Ref sig .tc := ⟨.hbm, 969, rfl⟩
abbrev main_v946 : Ref sig .tc := ⟨.hbm, 970, rfl⟩
abbrev main_v947 : Ref sig .tc := ⟨.hbm, 971, rfl⟩
abbrev main_v948 : Ref sig .tc := ⟨.hbm, 972, rfl⟩
abbrev main_v949 : Ref sig .tc := ⟨.hbm, 973, rfl⟩
abbrev main_v950 : Ref sig .tc := ⟨.hbm, 974, rfl⟩
abbrev main_v951 : Ref sig .tc := ⟨.hbm, 975, rfl⟩
abbrev main_v952 : Ref sig .tc := ⟨.hbm, 976, rfl⟩
abbrev main_v953 : Ref sig .tc := ⟨.hbm, 977, rfl⟩
abbrev main_v954 : Ref sig .tc := ⟨.hbm, 978, rfl⟩
abbrev main_v955 : Ref sig .tc := ⟨.hbm, 979, rfl⟩
abbrev main_v956 : Ref sig .tc := ⟨.hbm, 980, rfl⟩
abbrev main_v957 : Ref sig .tc := ⟨.hbm, 981, rfl⟩
abbrev main_v958 : Ref sig .tc := ⟨.hbm, 982, rfl⟩
abbrev main_v959 : Ref sig .tc := ⟨.hbm, 983, rfl⟩
abbrev main_v960 : Ref sig .tc := ⟨.hbm, 984, rfl⟩
abbrev main_v961 : Ref sig .tc := ⟨.hbm, 985, rfl⟩
abbrev main_v962 : Ref sig .tc := ⟨.hbm, 986, rfl⟩
abbrev main_v963 : Ref sig .tc := ⟨.hbm, 987, rfl⟩
abbrev main_v964 : Ref sig .tc := ⟨.hbm, 988, rfl⟩
abbrev main_v965 : Ref sig .tc := ⟨.hbm, 989, rfl⟩
abbrev main_v966 : Ref sig .tc := ⟨.hbm, 990, rfl⟩
abbrev main_v967 : Ref sig .tc := ⟨.hbm, 991, rfl⟩
abbrev main_v968 : Ref sig .tc := ⟨.hbm, 992, rfl⟩
abbrev main_v969 : Ref sig .tc := ⟨.hbm, 993, rfl⟩
abbrev main_v970 : Ref sig .tc := ⟨.hbm, 994, rfl⟩
abbrev main_v971 : Ref sig .tc := ⟨.hbm, 995, rfl⟩
abbrev main_v972 : Ref sig .tc := ⟨.hbm, 996, rfl⟩
abbrev main_v973 : Ref sig .tc := ⟨.hbm, 997, rfl⟩
abbrev main_v974 : Ref sig .tc := ⟨.hbm, 998, rfl⟩
abbrev main_v975 : Ref sig .tc := ⟨.hbm, 999, rfl⟩
abbrev main_v976 : Ref sig .tc := ⟨.hbm, 1000, rfl⟩
abbrev main_v977 : Ref sig .tc := ⟨.hbm, 1001, rfl⟩
abbrev main_v978 : Ref sig .tc := ⟨.hbm, 1002, rfl⟩
abbrev main_v979 : Ref sig .tc := ⟨.hbm, 1003, rfl⟩
abbrev main_v980 : Ref sig .tc := ⟨.hbm, 1004, rfl⟩
abbrev main_v981 : Ref sig .tc := ⟨.hbm, 1005, rfl⟩
abbrev main_v982 : Ref sig .tc := ⟨.hbm, 1006, rfl⟩
abbrev main_v983 : Ref sig .tc := ⟨.hbm, 1007, rfl⟩
abbrev main_v984 : Ref sig .tc := ⟨.hbm, 1008, rfl⟩
abbrev main_v985 : Ref sig .tc := ⟨.hbm, 1009, rfl⟩
abbrev main_v986 : Ref sig .tc := ⟨.hbm, 1010, rfl⟩
abbrev main_v987 : Ref sig .tc := ⟨.hbm, 1011, rfl⟩
abbrev main_v988 : Ref sig .tc := ⟨.hbm, 1012, rfl⟩
abbrev main_v989 : Ref sig .tc := ⟨.hbm, 1013, rfl⟩
abbrev main_v990 : Ref sig .tc := ⟨.hbm, 1014, rfl⟩
abbrev main_v991 : Ref sig .tc := ⟨.hbm, 1015, rfl⟩
abbrev main_v992 : Ref sig .tc := ⟨.hbm, 1016, rfl⟩
abbrev main_v993 : Ref sig .tc := ⟨.hbm, 1017, rfl⟩
abbrev main_v994 : Ref sig .tc := ⟨.hbm, 1018, rfl⟩
abbrev main_v995 : Ref sig .tc := ⟨.hbm, 1019, rfl⟩
abbrev main_v996 : Ref sig .tc := ⟨.hbm, 1020, rfl⟩
abbrev main_v997 : Ref sig .tc := ⟨.hbm, 1021, rfl⟩
abbrev main_v998 : Ref sig .tc := ⟨.hbm, 1022, rfl⟩
abbrev main_v999 : Ref sig .tc := ⟨.hbm, 1023, rfl⟩
abbrev main_v1000 : Ref sig .tc := ⟨.hbm, 1024, rfl⟩
abbrev main_v1001 : Ref sig .tc := ⟨.hbm, 1025, rfl⟩
abbrev main_v1002 : Ref sig .tc := ⟨.hbm, 1026, rfl⟩
abbrev main_v1003 : Ref sig .tc := ⟨.hbm, 1027, rfl⟩
abbrev main_v1004 : Ref sig .tc := ⟨.hbm, 1028, rfl⟩
abbrev main_v1005 : Ref sig .tc := ⟨.hbm, 1029, rfl⟩
abbrev main_v1006 : Ref sig .tc := ⟨.hbm, 1030, rfl⟩
abbrev main_v1007 : Ref sig .tc := ⟨.hbm, 1031, rfl⟩
abbrev main_v1008 : Ref sig .tc := ⟨.hbm, 1032, rfl⟩
abbrev main_v1009 : Ref sig .tc := ⟨.hbm, 1033, rfl⟩
abbrev main_v1010 : Ref sig .tc := ⟨.hbm, 1034, rfl⟩
abbrev main_v1011 : Ref sig .tc := ⟨.hbm, 1035, rfl⟩
abbrev main_v1012 : Ref sig .tc := ⟨.hbm, 1036, rfl⟩
abbrev main_v1013 : Ref sig .tc := ⟨.hbm, 1037, rfl⟩
abbrev main_v1014 : Ref sig .tc := ⟨.hbm, 1038, rfl⟩
abbrev main_v1015 : Ref sig .tc := ⟨.hbm, 1039, rfl⟩
abbrev main_v1016 : Ref sig .tc := ⟨.hbm, 1040, rfl⟩
abbrev main_v1017 : Ref sig .tc := ⟨.hbm, 1041, rfl⟩
abbrev main_v1018 : Ref sig .tc := ⟨.hbm, 1042, rfl⟩
abbrev main_v1019 : Ref sig .tc := ⟨.hbm, 1043, rfl⟩
abbrev main_v1020 : Ref sig .tc := ⟨.hbm, 1044, rfl⟩
abbrev main_v1021 : Ref sig .tc := ⟨.hbm, 1045, rfl⟩
abbrev main_v1022 : Ref sig .tc := ⟨.hbm, 1046, rfl⟩
abbrev main_v1023 : Ref sig .tc := ⟨.hbm, 1047, rfl⟩
abbrev main_v1024 : Ref sig .tc := ⟨.hbm, 1048, rfl⟩
abbrev main_v1025 : Ref sig .tc := ⟨.hbm, 1049, rfl⟩
abbrev main_v1026 : Ref sig .tc := ⟨.hbm, 1050, rfl⟩
abbrev main_v1027 : Ref sig .tc := ⟨.hbm, 1051, rfl⟩
abbrev main_v1028 : Ref sig .tc := ⟨.hbm, 1052, rfl⟩
abbrev main_v1029 : Ref sig .tc := ⟨.hbm, 1053, rfl⟩
abbrev main_v1030 : Ref sig .tc := ⟨.hbm, 1054, rfl⟩
abbrev main_v1031 : Ref sig .tc := ⟨.hbm, 1055, rfl⟩
abbrev main_v1032 : Ref sig .tc := ⟨.hbm, 1056, rfl⟩
abbrev main_v1033 : Ref sig .tc := ⟨.hbm, 1057, rfl⟩
abbrev main_v1034 : Ref sig .tc := ⟨.hbm, 1058, rfl⟩
abbrev main_v1035 : Ref sig .tc := ⟨.hbm, 1059, rfl⟩
abbrev main_v1036 : Ref sig .tc := ⟨.hbm, 1060, rfl⟩
abbrev main_v1037 : Ref sig .tc := ⟨.hbm, 1061, rfl⟩
abbrev main_v1038 : Ref sig .tc := ⟨.hbm, 1062, rfl⟩
abbrev main_v1039 : Ref sig .tc := ⟨.hbm, 1063, rfl⟩
abbrev main_v1040 : Ref sig .tc := ⟨.hbm, 1064, rfl⟩
abbrev main_v1041 : Ref sig .tc := ⟨.hbm, 1065, rfl⟩
abbrev main_v1042 : Ref sig .tc := ⟨.hbm, 1066, rfl⟩
abbrev main_v1043 : Ref sig .tc := ⟨.hbm, 1067, rfl⟩
abbrev main_v1044 : Ref sig .tc := ⟨.hbm, 1068, rfl⟩
abbrev main_v1045 : Ref sig .tc := ⟨.hbm, 1069, rfl⟩
abbrev main_v1046 : Ref sig .tc := ⟨.hbm, 1070, rfl⟩
abbrev main_v1047 : Ref sig .tc := ⟨.hbm, 1071, rfl⟩
abbrev main_v1048 : Ref sig .tc := ⟨.hbm, 1072, rfl⟩
abbrev main_v1049 : Ref sig .tc := ⟨.hbm, 1073, rfl⟩
abbrev main_v1050 : Ref sig .tc := ⟨.hbm, 1074, rfl⟩
abbrev main_v1051 : Ref sig .tc := ⟨.hbm, 1075, rfl⟩
abbrev main_v1052 : Ref sig .tc := ⟨.hbm, 1076, rfl⟩
abbrev main_v1053 : Ref sig .tc := ⟨.hbm, 1077, rfl⟩
abbrev main_v1054 : Ref sig .tc := ⟨.hbm, 1078, rfl⟩
abbrev main_v1055 : Ref sig .tc := ⟨.hbm, 1079, rfl⟩
abbrev main_v1056 : Ref sig .tc := ⟨.hbm, 1080, rfl⟩
abbrev main_v1057 : Ref sig .tc := ⟨.hbm, 1081, rfl⟩
abbrev main_v1058 : Ref sig .tc := ⟨.hbm, 1082, rfl⟩
abbrev main_v1059 : Ref sig .tc := ⟨.hbm, 1083, rfl⟩
abbrev main_v1060 : Ref sig .tc := ⟨.hbm, 1084, rfl⟩
abbrev main_v1061 : Ref sig .tc := ⟨.hbm, 1085, rfl⟩
abbrev main_v1062 : Ref sig .tc := ⟨.hbm, 1086, rfl⟩
abbrev main_v1063 : Ref sig .tc := ⟨.hbm, 1087, rfl⟩
abbrev main_v1064 : Ref sig .tc := ⟨.hbm, 1088, rfl⟩
abbrev main_v1065 : Ref sig .tc := ⟨.hbm, 1089, rfl⟩
abbrev main_v1066 : Ref sig .tc := ⟨.hbm, 1090, rfl⟩
abbrev main_v1067 : Ref sig .tc := ⟨.hbm, 1091, rfl⟩
abbrev main_v1068 : Ref sig .tc := ⟨.hbm, 1092, rfl⟩
abbrev main_v1069 : Ref sig .tc := ⟨.hbm, 1093, rfl⟩
abbrev main_v1070 : Ref sig .tc := ⟨.hbm, 1094, rfl⟩
abbrev main_v1071 : Ref sig .tc := ⟨.hbm, 1095, rfl⟩
abbrev main_v1072 : Ref sig .tc := ⟨.hbm, 1096, rfl⟩
abbrev main_v1073 : Ref sig .tc := ⟨.hbm, 1097, rfl⟩
abbrev main_v1074 : Ref sig .tc := ⟨.hbm, 1098, rfl⟩
abbrev main_v1075 : Ref sig .tc := ⟨.hbm, 1099, rfl⟩
abbrev main_v1076 : Ref sig .tc := ⟨.hbm, 1100, rfl⟩
abbrev main_v1077 : Ref sig .tc := ⟨.hbm, 1101, rfl⟩
abbrev main_v1078 : Ref sig .tc := ⟨.hbm, 1102, rfl⟩
abbrev main_v1079 : Ref sig .tc := ⟨.hbm, 1103, rfl⟩
abbrev main_v1080 : Ref sig .tc := ⟨.hbm, 1104, rfl⟩
abbrev main_v1081 : Ref sig .tc := ⟨.hbm, 1105, rfl⟩
abbrev main_v1082 : Ref sig .tc := ⟨.hbm, 1106, rfl⟩
abbrev main_v1083 : Ref sig .tc := ⟨.hbm, 1107, rfl⟩
abbrev main_v1084 : Ref sig .tc := ⟨.hbm, 1108, rfl⟩
abbrev main_v1085 : Ref sig .tc := ⟨.hbm, 1109, rfl⟩
abbrev main_v1086 : Ref sig .tc := ⟨.hbm, 1110, rfl⟩
abbrev main_v1087 : Ref sig .tc := ⟨.hbm, 1111, rfl⟩
abbrev main_v1088 : Ref sig .tc := ⟨.hbm, 1112, rfl⟩
abbrev main_v1089 : Ref sig .tc := ⟨.hbm, 1113, rfl⟩
abbrev main_v1090 : Ref sig .tc := ⟨.hbm, 1114, rfl⟩
abbrev main_v1091 : Ref sig .tc := ⟨.hbm, 1115, rfl⟩
abbrev main_v1092 : Ref sig .tc := ⟨.hbm, 1116, rfl⟩
abbrev main_v1093 : Ref sig .tc := ⟨.hbm, 1117, rfl⟩
abbrev main_v1094 : Ref sig .tc := ⟨.hbm, 1118, rfl⟩
abbrev main_v1095 : Ref sig .tc := ⟨.hbm, 1119, rfl⟩
abbrev main_v1096 : Ref sig .tc := ⟨.hbm, 1120, rfl⟩
abbrev main_v1097 : Ref sig .tc := ⟨.hbm, 1121, rfl⟩
abbrev main_v1098 : Ref sig .tc := ⟨.hbm, 1122, rfl⟩
abbrev main_v1099 : Ref sig .tc := ⟨.hbm, 1123, rfl⟩
abbrev main_v1100 : Ref sig .tc := ⟨.hbm, 1124, rfl⟩
abbrev main_v1101 : Ref sig .tc := ⟨.hbm, 1125, rfl⟩
abbrev main_v1102 : Ref sig .tc := ⟨.hbm, 1126, rfl⟩
abbrev main_v1103 : Ref sig .tc := ⟨.hbm, 1127, rfl⟩
abbrev main_v1104 : Ref sig .tc := ⟨.hbm, 1128, rfl⟩
abbrev main_v1105 : Ref sig .tc := ⟨.hbm, 1129, rfl⟩
abbrev main_v1106 : Ref sig .tc := ⟨.hbm, 1130, rfl⟩
abbrev main_v1107 : Ref sig .tc := ⟨.hbm, 1131, rfl⟩
abbrev main_v1108 : Ref sig .tc := ⟨.hbm, 1132, rfl⟩
abbrev main_v1109 : Ref sig .tc := ⟨.hbm, 1133, rfl⟩
abbrev main_v1110 : Ref sig .tc := ⟨.hbm, 1134, rfl⟩
abbrev main_v1111 : Ref sig .tc := ⟨.hbm, 1135, rfl⟩
abbrev main_v1112 : Ref sig .tc := ⟨.hbm, 1136, rfl⟩
abbrev main_v1113 : Ref sig .tc := ⟨.hbm, 1137, rfl⟩
abbrev main_v1114 : Ref sig .tc := ⟨.hbm, 1138, rfl⟩
abbrev main_v1115 : Ref sig .tc := ⟨.hbm, 1139, rfl⟩
abbrev main_v1116 : Ref sig .tc := ⟨.hbm, 1140, rfl⟩
abbrev main_v1117 : Ref sig .tc := ⟨.hbm, 1141, rfl⟩
abbrev main_v1118 : Ref sig .tc := ⟨.hbm, 1142, rfl⟩
abbrev main_v1119 : Ref sig .tc := ⟨.hbm, 1143, rfl⟩
abbrev main_v1120 : Ref sig .tc := ⟨.hbm, 1144, rfl⟩
abbrev main_v1121 : Ref sig .tc := ⟨.hbm, 1145, rfl⟩
abbrev main_v1122 : Ref sig .tc := ⟨.hbm, 1146, rfl⟩
abbrev main_v1123 : Ref sig .tc := ⟨.hbm, 1147, rfl⟩
abbrev main_v1124 : Ref sig .tc := ⟨.hbm, 1148, rfl⟩
abbrev main_v1125 : Ref sig .tc := ⟨.hbm, 1149, rfl⟩
abbrev main_v1126 : Ref sig .tc := ⟨.hbm, 1150, rfl⟩
abbrev main_v1127 : Ref sig .tc := ⟨.hbm, 1151, rfl⟩
abbrev main_v1128 : Ref sig .tc := ⟨.hbm, 1152, rfl⟩
abbrev main_v1129 : Ref sig .tc := ⟨.hbm, 1153, rfl⟩
abbrev main_v1130 : Ref sig .tc := ⟨.hbm, 1154, rfl⟩
abbrev main_v1131 : Ref sig .tc := ⟨.hbm, 1155, rfl⟩
abbrev main_v1132 : Ref sig .tc := ⟨.hbm, 1156, rfl⟩
abbrev main_v1133 : Ref sig .tc := ⟨.hbm, 1157, rfl⟩
abbrev main_v1134 : Ref sig .tc := ⟨.hbm, 1158, rfl⟩
abbrev main_v1135 : Ref sig .tc := ⟨.hbm, 1159, rfl⟩
abbrev main_v1136 : Ref sig .tc := ⟨.hbm, 1160, rfl⟩
abbrev main_v1137 : Ref sig .tc := ⟨.hbm, 1161, rfl⟩
abbrev main_v1138 : Ref sig .tc := ⟨.hbm, 1162, rfl⟩
abbrev main_v1139 : Ref sig .tc := ⟨.hbm, 1163, rfl⟩
abbrev main_v1140 : Ref sig .tc := ⟨.hbm, 1164, rfl⟩
abbrev main_v1141 : Ref sig .tc := ⟨.hbm, 1165, rfl⟩
abbrev main_v1142 : Ref sig .tc := ⟨.hbm, 1166, rfl⟩
abbrev main_v1143 : Ref sig .tc := ⟨.hbm, 1167, rfl⟩
abbrev main_v1144 : Ref sig .tc := ⟨.hbm, 1168, rfl⟩
abbrev main_v1145 : Ref sig .tc := ⟨.hbm, 1169, rfl⟩
abbrev main_v1146 : Ref sig .tc := ⟨.hbm, 1170, rfl⟩
abbrev main_v1147 : Ref sig .tc := ⟨.hbm, 1171, rfl⟩
abbrev main_v1148 : Ref sig .tc := ⟨.hbm, 1172, rfl⟩
abbrev main_v1149 : Ref sig .tc := ⟨.hbm, 1173, rfl⟩
abbrev main_v1150 : Ref sig .tc := ⟨.hbm, 1174, rfl⟩
abbrev main_v1151 : Ref sig .tc := ⟨.hbm, 1175, rfl⟩
abbrev main_v1152 : Ref sig .tc := ⟨.hbm, 1176, rfl⟩
abbrev main_v1153 : Ref sig .tc := ⟨.hbm, 1177, rfl⟩
abbrev main_v1154 : Ref sig .tc := ⟨.hbm, 1178, rfl⟩
abbrev main_v1155 : Ref sig .tc := ⟨.hbm, 1179, rfl⟩
abbrev main_v1156 : Ref sig .tc := ⟨.hbm, 1180, rfl⟩
abbrev main_v1157 : Ref sig .tc := ⟨.hbm, 1181, rfl⟩
abbrev main_v1158 : Ref sig .tc := ⟨.hbm, 1182, rfl⟩
abbrev main_v1159 : Ref sig .tc := ⟨.hbm, 1183, rfl⟩
abbrev main_v1160 : Ref sig .tc := ⟨.hbm, 1184, rfl⟩
abbrev main_v1161 : Ref sig .tc := ⟨.hbm, 1185, rfl⟩
abbrev main_v1162 : Ref sig .tc := ⟨.hbm, 1186, rfl⟩
abbrev main_v1163 : Ref sig .tc := ⟨.hbm, 1187, rfl⟩
abbrev main_v1164 : Ref sig .tc := ⟨.hbm, 1188, rfl⟩
abbrev main_v1165 : Ref sig .tc := ⟨.hbm, 1189, rfl⟩
abbrev main_v1166 : Ref sig .tc := ⟨.hbm, 1190, rfl⟩
abbrev main_v1167 : Ref sig .tc := ⟨.hbm, 1191, rfl⟩
abbrev main_v1168 : Ref sig .tc := ⟨.hbm, 1192, rfl⟩
abbrev main_v1169 : Ref sig .tc := ⟨.hbm, 1193, rfl⟩
abbrev main_v1170 : Ref sig .tc := ⟨.hbm, 1194, rfl⟩
abbrev main_v1171 : Ref sig .tc := ⟨.hbm, 1195, rfl⟩
abbrev main_v1172 : Ref sig .tc := ⟨.hbm, 1196, rfl⟩
abbrev main_v1173 : Ref sig .tc := ⟨.hbm, 1197, rfl⟩
abbrev main_v1174 : Ref sig .tc := ⟨.hbm, 1198, rfl⟩
abbrev main_v1175 : Ref sig .tc := ⟨.hbm, 1199, rfl⟩
abbrev main_v1176 : Ref sig .tc := ⟨.hbm, 1200, rfl⟩
abbrev main_v1177 : Ref sig .tc := ⟨.hbm, 1201, rfl⟩
abbrev main_v1178 : Ref sig .tc := ⟨.hbm, 1202, rfl⟩
abbrev main_v1179 : Ref sig .tc := ⟨.hbm, 1203, rfl⟩
abbrev main_v1180 : Ref sig .tc := ⟨.hbm, 1204, rfl⟩
abbrev main_v1181 : Ref sig .tc := ⟨.hbm, 1205, rfl⟩
abbrev main_v1182 : Ref sig .tc := ⟨.hbm, 1206, rfl⟩
abbrev main_v1183 : Ref sig .tc := ⟨.hbm, 1207, rfl⟩
abbrev main_v1184 : Ref sig .tc := ⟨.hbm, 1208, rfl⟩
abbrev main_v1185 : Ref sig .tc := ⟨.hbm, 1209, rfl⟩
abbrev main_v1186 : Ref sig .tc := ⟨.hbm, 1210, rfl⟩
abbrev main_v1187 : Ref sig .tc := ⟨.hbm, 1211, rfl⟩
abbrev main_v1188 : Ref sig .tc := ⟨.hbm, 1212, rfl⟩
abbrev main_v1189 : Ref sig .tc := ⟨.hbm, 1213, rfl⟩
abbrev main_v1190 : Ref sig .tc := ⟨.hbm, 1214, rfl⟩
abbrev main_v1191 : Ref sig .tc := ⟨.hbm, 1215, rfl⟩
abbrev main_v1192 : Ref sig .tc := ⟨.hbm, 1216, rfl⟩
abbrev main_v1193 : Ref sig .tc := ⟨.hbm, 1217, rfl⟩
abbrev main_v1194 : Ref sig .tc := ⟨.hbm, 1218, rfl⟩
abbrev main_v1195 : Ref sig .tc := ⟨.hbm, 1219, rfl⟩
abbrev main_v1196 : Ref sig .tc := ⟨.hbm, 1220, rfl⟩
abbrev main_v1197 : Ref sig .tc := ⟨.hbm, 1221, rfl⟩
abbrev main_v1198 : Ref sig .tc := ⟨.hbm, 1222, rfl⟩
abbrev main_v1199 : Ref sig .tc := ⟨.hbm, 1223, rfl⟩
abbrev main_v1200 : Ref sig .tc := ⟨.hbm, 1224, rfl⟩
abbrev main_v1201 : Ref sig .tc := ⟨.hbm, 1225, rfl⟩
abbrev main_v1202 : Ref sig .tc := ⟨.hbm, 1226, rfl⟩
abbrev main_v1203 : Ref sig .tc := ⟨.hbm, 1227, rfl⟩
abbrev main_v1204 : Ref sig .tc := ⟨.hbm, 1228, rfl⟩
abbrev main_v1205 : Ref sig .tc := ⟨.hbm, 1229, rfl⟩
abbrev main_v1206 : Ref sig .tc := ⟨.hbm, 1230, rfl⟩
abbrev main_v1207 : Ref sig .tc := ⟨.hbm, 1231, rfl⟩
abbrev main_v1208 : Ref sig .tc := ⟨.hbm, 1232, rfl⟩
abbrev main_v1209 : Ref sig .tc := ⟨.hbm, 1233, rfl⟩
abbrev main_v1210 : Ref sig .tc := ⟨.hbm, 1234, rfl⟩
abbrev main_v1211 : Ref sig .tc := ⟨.hbm, 1235, rfl⟩
abbrev main_v1212 : Ref sig .tc := ⟨.hbm, 1236, rfl⟩
abbrev main_v1213 : Ref sig .tc := ⟨.hbm, 1237, rfl⟩
abbrev main_v1214 : Ref sig .tc := ⟨.hbm, 1238, rfl⟩
abbrev main_v1215 : Ref sig .tc := ⟨.hbm, 1239, rfl⟩
abbrev main_v1216 : Ref sig .tc := ⟨.hbm, 1240, rfl⟩
abbrev main_v1217 : Ref sig .tc := ⟨.hbm, 1241, rfl⟩
abbrev main_v1218 : Ref sig .tc := ⟨.hbm, 1242, rfl⟩
abbrev main_v1219 : Ref sig .tc := ⟨.hbm, 1243, rfl⟩
abbrev main_v1220 : Ref sig .tc := ⟨.hbm, 1244, rfl⟩
abbrev main_v1221 : Ref sig .tc := ⟨.hbm, 1245, rfl⟩
abbrev main_v1222 : Ref sig .tc := ⟨.hbm, 1246, rfl⟩
abbrev main_v1223 : Ref sig .tc := ⟨.hbm, 1247, rfl⟩
abbrev main_v1224 : Ref sig .tc := ⟨.hbm, 1248, rfl⟩
abbrev main_v1225 : Ref sig .tc := ⟨.hbm, 1249, rfl⟩
abbrev main_v1226 : Ref sig .tc := ⟨.hbm, 1250, rfl⟩
abbrev main_v1227 : Ref sig .tc := ⟨.hbm, 1251, rfl⟩
abbrev main_v1228 : Ref sig .tc := ⟨.hbm, 1252, rfl⟩
abbrev main_v1229 : Ref sig .tc := ⟨.hbm, 1253, rfl⟩
abbrev main_v1230 : Ref sig .tc := ⟨.hbm, 1254, rfl⟩
abbrev main_v1231 : Ref sig .tc := ⟨.hbm, 1255, rfl⟩
abbrev main_v1232 : Ref sig .tc := ⟨.hbm, 1256, rfl⟩
abbrev main_v1233 : Ref sig .tc := ⟨.hbm, 1257, rfl⟩
abbrev main_v1234 : Ref sig .tc := ⟨.hbm, 1258, rfl⟩
abbrev main_v1235 : Ref sig .tc := ⟨.hbm, 1259, rfl⟩
abbrev main_v1236 : Ref sig .tc := ⟨.hbm, 1260, rfl⟩
abbrev main_v1237 : Ref sig .tc := ⟨.hbm, 1261, rfl⟩
abbrev main_v1238 : Ref sig .tc := ⟨.hbm, 1262, rfl⟩
abbrev main_v1239 : Ref sig .tc := ⟨.hbm, 1263, rfl⟩
abbrev main_v1240 : Ref sig .tc := ⟨.hbm, 1264, rfl⟩
abbrev main_v1241 : Ref sig .tc := ⟨.hbm, 1265, rfl⟩
abbrev main_v1242 : Ref sig .tc := ⟨.hbm, 1266, rfl⟩
abbrev main_v1243 : Ref sig .tc := ⟨.hbm, 1267, rfl⟩
abbrev main_v1244 : Ref sig .tc := ⟨.hbm, 1268, rfl⟩
abbrev main_v1245 : Ref sig .tc := ⟨.hbm, 1269, rfl⟩
abbrev main_v1246 : Ref sig .tc := ⟨.hbm, 1270, rfl⟩
abbrev main_v1247 : Ref sig .tc := ⟨.hbm, 1271, rfl⟩
abbrev main_v1248 : Ref sig .tc := ⟨.hbm, 1272, rfl⟩
abbrev main_v1249 : Ref sig .tc := ⟨.hbm, 1273, rfl⟩
abbrev main_v1250 : Ref sig .tc := ⟨.hbm, 1274, rfl⟩
abbrev main_v1251 : Ref sig .tc := ⟨.hbm, 1275, rfl⟩
abbrev main_v1252 : Ref sig .tc := ⟨.hbm, 1276, rfl⟩
abbrev main_v1253 : Ref sig .tc := ⟨.hbm, 1277, rfl⟩
abbrev main_v1254 : Ref sig .tc := ⟨.hbm, 1278, rfl⟩
abbrev main_v1255 : Ref sig .tc := ⟨.hbm, 1279, rfl⟩
abbrev main_v1256 : Ref sig .tc := ⟨.hbm, 1280, rfl⟩
abbrev main_v1257 : Ref sig .tc := ⟨.hbm, 1281, rfl⟩
abbrev main_v1258 : Ref sig .tc := ⟨.hbm, 1282, rfl⟩
abbrev main_v1259 : Ref sig .tc := ⟨.hbm, 1283, rfl⟩
abbrev main_v1260 : Ref sig .tc := ⟨.hbm, 1284, rfl⟩
abbrev main_v1261 : Ref sig .tc := ⟨.hbm, 1285, rfl⟩
abbrev main_v1262 : Ref sig .tc := ⟨.hbm, 1286, rfl⟩
abbrev main_v1263 : Ref sig .tc := ⟨.hbm, 1287, rfl⟩
abbrev main_v1264 : Ref sig .tc := ⟨.hbm, 1288, rfl⟩
abbrev main_v1265 : Ref sig .tc := ⟨.hbm, 1289, rfl⟩
abbrev main_v1266 : Ref sig .tc := ⟨.hbm, 1290, rfl⟩
abbrev main_v1267 : Ref sig .tc := ⟨.hbm, 1291, rfl⟩
abbrev main_v1268 : Ref sig .tc := ⟨.hbm, 1292, rfl⟩
abbrev main_v1269 : Ref sig .tc := ⟨.hbm, 1293, rfl⟩
abbrev main_v1270 : Ref sig .tc := ⟨.hbm, 1294, rfl⟩
abbrev main_v1271 : Ref sig .tc := ⟨.hbm, 1295, rfl⟩
abbrev main_v1272 : Ref sig .tc := ⟨.hbm, 1296, rfl⟩
abbrev main_v1273 : Ref sig .tc := ⟨.hbm, 1297, rfl⟩
abbrev main_v1274 : Ref sig .tc := ⟨.hbm, 1298, rfl⟩
abbrev main_v1275 : Ref sig .tc := ⟨.hbm, 1299, rfl⟩
abbrev main_v1276 : Ref sig .tc := ⟨.hbm, 1300, rfl⟩
abbrev main_v1277 : Ref sig .tc := ⟨.hbm, 1301, rfl⟩
abbrev main_v1278 : Ref sig .tc := ⟨.hbm, 1302, rfl⟩
abbrev main_v1279 : Ref sig .tc := ⟨.hbm, 1303, rfl⟩
abbrev main_v1280 : Ref sig .tc := ⟨.hbm, 1304, rfl⟩
abbrev main_v1281 : Ref sig .tc := ⟨.hbm, 1305, rfl⟩
abbrev main_v1282 : Ref sig .tc := ⟨.hbm, 1306, rfl⟩
abbrev main_v1283 : Ref sig .tc := ⟨.hbm, 1307, rfl⟩
abbrev main_v1284 : Ref sig .tc := ⟨.hbm, 1308, rfl⟩
abbrev main_v1285 : Ref sig .tc := ⟨.hbm, 1309, rfl⟩
abbrev main_v1286 : Ref sig .tc := ⟨.hbm, 1310, rfl⟩
abbrev main_v1287 : Ref sig .tc := ⟨.hbm, 1311, rfl⟩
abbrev main_v1288 : Ref sig .tc := ⟨.hbm, 1312, rfl⟩
abbrev main_v1289 : Ref sig .tc := ⟨.hbm, 1313, rfl⟩
abbrev main_v1290 : Ref sig .tc := ⟨.hbm, 1314, rfl⟩
abbrev main_v1291 : Ref sig .tc := ⟨.hbm, 1315, rfl⟩
abbrev main_v1292 : Ref sig .tc := ⟨.hbm, 1316, rfl⟩
abbrev main_v1293 : Ref sig .tc := ⟨.hbm, 1317, rfl⟩
abbrev main_v1294 : Ref sig .tc := ⟨.hbm, 1318, rfl⟩
abbrev main_v1295 : Ref sig .tc := ⟨.hbm, 1319, rfl⟩
abbrev main_v1296 : Ref sig .tc := ⟨.hbm, 1320, rfl⟩
abbrev main_v1297 : Ref sig .tc := ⟨.hbm, 1321, rfl⟩
abbrev main_v1298 : Ref sig .tc := ⟨.hbm, 1322, rfl⟩
abbrev main_v1299 : Ref sig .tc := ⟨.hbm, 1323, rfl⟩
abbrev main_v1300 : Ref sig .tc := ⟨.hbm, 1324, rfl⟩
abbrev main_v1301 : Ref sig .tc := ⟨.hbm, 1325, rfl⟩
abbrev main_v1302 : Ref sig .tc := ⟨.hbm, 1326, rfl⟩
abbrev main_v1303 : Ref sig .tc := ⟨.hbm, 1327, rfl⟩
abbrev main_v1304 : Ref sig .tc := ⟨.hbm, 1328, rfl⟩
abbrev main_v1305 : Ref sig .tc := ⟨.hbm, 1329, rfl⟩
abbrev main_v1306 : Ref sig .tc := ⟨.hbm, 1330, rfl⟩
abbrev main_v1307 : Ref sig .tc := ⟨.hbm, 1331, rfl⟩
abbrev main_v1308 : Ref sig .tc := ⟨.hbm, 1332, rfl⟩
abbrev main_v1309 : Ref sig .tc := ⟨.hbm, 1333, rfl⟩
abbrev main_v1310 : Ref sig .tc := ⟨.hbm, 1334, rfl⟩
abbrev main_v1311 : Ref sig .tc := ⟨.hbm, 1335, rfl⟩
abbrev main_v1312 : Ref sig .tc := ⟨.hbm, 1336, rfl⟩
abbrev main_v1313 : Ref sig .tc := ⟨.hbm, 1337, rfl⟩
abbrev main_v1314 : Ref sig .tc := ⟨.hbm, 1338, rfl⟩
abbrev main_v1315 : Ref sig .tc := ⟨.hbm, 1339, rfl⟩
abbrev main_v1316 : Ref sig .tc := ⟨.hbm, 1340, rfl⟩
abbrev main_v1317 : Ref sig .tc := ⟨.hbm, 1341, rfl⟩
abbrev main_v1318 : Ref sig .tc := ⟨.hbm, 1342, rfl⟩
abbrev main_v1319 : Ref sig .tc := ⟨.hbm, 1343, rfl⟩
abbrev main_v1320 : Ref sig .tc := ⟨.hbm, 1344, rfl⟩
abbrev main_v1321 : Ref sig .tc := ⟨.hbm, 1345, rfl⟩
abbrev main_v1322 : Ref sig .tc := ⟨.hbm, 1346, rfl⟩
abbrev main_v1323 : Ref sig .tc := ⟨.hbm, 1347, rfl⟩
abbrev main_v1324 : Ref sig .tc := ⟨.hbm, 1348, rfl⟩
abbrev main_v1325 : Ref sig .tc := ⟨.hbm, 1349, rfl⟩
abbrev main_v1326 : Ref sig .tc := ⟨.hbm, 1350, rfl⟩
abbrev main_v1327 : Ref sig .tc := ⟨.hbm, 1351, rfl⟩
abbrev main_v1328 : Ref sig .tc := ⟨.hbm, 1352, rfl⟩
abbrev main_v1329 : Ref sig .tc := ⟨.hbm, 1353, rfl⟩
abbrev main_v1330 : Ref sig .tc := ⟨.hbm, 1354, rfl⟩
abbrev main_v1331 : Ref sig .tc := ⟨.hbm, 1355, rfl⟩
abbrev main_v1332 : Ref sig .tc := ⟨.hbm, 1356, rfl⟩
abbrev main_v1333 : Ref sig .tc := ⟨.hbm, 1357, rfl⟩
abbrev main_v1334 : Ref sig .tc := ⟨.hbm, 1358, rfl⟩
abbrev main_v1335 : Ref sig .tc := ⟨.hbm, 1359, rfl⟩
abbrev main_v1336 : Ref sig .tc := ⟨.hbm, 1360, rfl⟩
abbrev main_v1337 : Ref sig .tc := ⟨.hbm, 1361, rfl⟩
abbrev main_v1338 : Ref sig .tc := ⟨.hbm, 1362, rfl⟩
abbrev main_v1339 : Ref sig .tc := ⟨.hbm, 1363, rfl⟩
abbrev main_v1340 : Ref sig .tc := ⟨.hbm, 1364, rfl⟩
abbrev main_v1341 : Ref sig .tc := ⟨.hbm, 1365, rfl⟩
abbrev main_v1342 : Ref sig .tc := ⟨.hbm, 1366, rfl⟩
abbrev main_v1343 : Ref sig .tc := ⟨.hbm, 1367, rfl⟩
abbrev main_v1344 : Ref sig .tc := ⟨.hbm, 1368, rfl⟩
abbrev main_v1345 : Ref sig .tc := ⟨.hbm, 1369, rfl⟩
abbrev main_v1346 : Ref sig .tc := ⟨.hbm, 1370, rfl⟩
abbrev main_v1347 : Ref sig .tc := ⟨.hbm, 1371, rfl⟩
abbrev main_v1348 : Ref sig .tc := ⟨.hbm, 1372, rfl⟩
abbrev main_v1349 : Ref sig .tc := ⟨.hbm, 1373, rfl⟩
abbrev main_v1350 : Ref sig .tc := ⟨.hbm, 1374, rfl⟩
abbrev main_v1351 : Ref sig .tc := ⟨.hbm, 1375, rfl⟩
abbrev main_v1352 : Ref sig .tc := ⟨.hbm, 1376, rfl⟩
abbrev main_v1353 : Ref sig .tc := ⟨.hbm, 1377, rfl⟩
abbrev main_v1354 : Ref sig .tc := ⟨.hbm, 1378, rfl⟩
abbrev main_v1355 : Ref sig .tc := ⟨.hbm, 1379, rfl⟩
abbrev main_v1356 : Ref sig .tc := ⟨.hbm, 1380, rfl⟩
abbrev main_v1357 : Ref sig .tc := ⟨.hbm, 1381, rfl⟩
abbrev main_v1358 : Ref sig .tc := ⟨.hbm, 1382, rfl⟩
abbrev main_v1359 : Ref sig .tc := ⟨.hbm, 1383, rfl⟩
abbrev main_v1360 : Ref sig .tc := ⟨.hbm, 1384, rfl⟩
abbrev main_v1361 : Ref sig .tc := ⟨.hbm, 1385, rfl⟩
abbrev main_v1362 : Ref sig .tc := ⟨.hbm, 1386, rfl⟩
abbrev main_v1363 : Ref sig .tc := ⟨.hbm, 1387, rfl⟩
abbrev main_v1364 : Ref sig .tc := ⟨.hbm, 1388, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  reducesTo_S8192x10_S8192_d1 : S8192x10.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  slices_S8192x10_S8192x1_0_0 : S8192x10.Slices ![0, 0] S8192x1
  shapeCasts_S8192x1_S8192 : S8192x1.ShapeCasts S8192
  slices_S8192x10_S8192x1_0_1 : S8192x10.Slices ![0, 1] S8192x1
  slices_S8192x10_S8192x1_0_2 : S8192x10.Slices ![0, 2] S8192x1
  slices_S8192x10_S8192x1_0_3 : S8192x10.Slices ![0, 3] S8192x1
  slices_S8192x10_S8192x1_0_4 : S8192x10.Slices ![0, 4] S8192x1
  slices_S8192x10_S8192x1_0_5 : S8192x10.Slices ![0, 5] S8192x1
  slices_S8192x10_S8192x1_0_6 : S8192x10.Slices ![0, 6] S8192x1
  slices_S8192x10_S8192x1_0_7 : S8192x10.Slices ![0, 7] S8192x1
  slices_S8192x10_S8192x1_0_8 : S8192x10.Slices ![0, 8] S8192x1
  slices_S8192x10_S8192x1_0_9 : S8192x10.Slices ![0, 9] S8192x1
  dot_S8192x784_S784x4096_S8192x4096_1_0_0_1_n_n_wf : DotDims.WF S8192x784 S784x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x10_S8192x10_1_0_0_1_n_n_wf : DotDims.WF S8192x4096 S4096x10 S8192x10 [1] [0] [0] [1] [] []

variable [Facts₀]

def dot_S8192x784_S784x4096_S8192x4096_1_0_0_1_n_n : DotDims S8192x784 S784x4096 S8192x4096 where
  lhsContracting := [1]
  rhsContracting := [0]
  lhsNonContracting := [0]
  rhsNonContracting := [1]
  lhsBatch := []
  rhsBatch := []
  wf := dot_S8192x784_S784x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x10_S8192x10_1_0_0_1_n_n : DotDims S8192x4096 S4096x10 S8192x10 where
  lhsContracting := [1]
  rhsContracting := [0]
  lhsNonContracting := [0]
  rhsNonContracting := [1]
  lhsBatch := []
  rhsBatch := []
  wf := dot_S8192x4096_S4096x10_S8192x10_1_0_0_1_n_n_wf

class Facts : Prop extends Facts₀ where

variable [Facts]
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.KernelLayers.lean ====
/-
  The idealized kernel's three bodies, each read at an index of its output block as a function of the blocks it loads.
  Layers 1 and 2 store, at row p and column q of the block, the larger of zero and the sum over k of x(p, k) · w(k, q)
  plus b(q): the casts to and from bf16 are the identity on extended reals, the matrix unit's product into a zero
  accumulator is that sum, and the bias vector is cast to one row and broadcast down the rows.
-/
import proofs.«112867_j20074677141979_2_alg».proof.Proof.Gen.KernelIdeal.Skeleton
import proofs.«112867_j20074677141979_2_alg».proof.Proof.LibDense

noncomputable section

namespace Cert.KernelIdeal.Layers

open Cert.KernelIdeal Cert.KernelIdeal.Gen Idealize.ShloMosaic Idealize.ShloMosaic.ValueIdx Cert.LibDense

/-! ## Which operand coordinate each matrix product takes from where -/

theorem d0_l0 (i : S512x4096.Idx) (c : dot_S512x784_S784x4096_S512x4096_1_0_0_1_n_n.contr.Idx) : (dot_S512x784_S784x4096_S512x4096_1_0_0_1_n_n.lhsIdx i c 0).val = (i 0).val := by
  unfold DotDims.lhsIdx
  rw [dif_neg (show ¬(0 : Fin S512x784.rank) ∈ dot_S512x784_S784x4096_S512x4096_1_0_0_1_n_n.lhsBatch by decide), dif_pos (show (0 : Fin S512x784.rank) ∈ dot_S512x784_S784x4096_S512x4096_1_0_0_1_n_n.lhsNonContracting by decide)]
  rfl
theorem d0_l1 (i : S512x4096.Idx) (c : dot_S512x784_S784x4096_S512x4096_1_0_0_1_n_n.contr.Idx) : (dot_S512x784_S784x4096_S512x4096_1_0_0_1_n_n.lhsIdx i c 1).val = (c ⟨0, by decide⟩).val :=
  dot_S512x784_S784x4096_S512x4096_1_0_0_1_n_n.lhsIdx_val_of_single rfl i c
theorem d0_r0 (i : S512x4096.Idx) (c : dot_S512x784_S784x4096_S512x4096_1_0_0_1_n_n.contr.Idx) : (dot_S512x784_S784x4096_S512x4096_1_0_0_1_n_n.rhsIdx i c 0).val = (c ⟨0, by decide⟩).val :=
  dot_S512x784_S784x4096_S512x4096_1_0_0_1_n_n.rhsIdx_val_of_single rfl i c
theorem d0_r1 (i : S512x4096.Idx) (c : dot_S512x784_S784x4096_S512x4096_1_0_0_1_n_n.contr.Idx) : (dot_S512x784_S784x4096_S512x4096_1_0_0_1_n_n.rhsIdx i c 1).val = (i 1).val := by
  unfold DotDims.rhsIdx
  rw [dif_neg (show ¬(1 : Fin S784x4096.rank) ∈ dot_S512x784_S784x4096_S512x4096_1_0_0_1_n_n.rhsBatch by decide), dif_pos (show (1 : Fin S784x4096.rank) ∈ dot_S512x784_S784x4096_S512x4096_1_0_0_1_n_n.rhsNonContracting by decide)]
  rfl

theorem d1_l0 (i : S128x4096.Idx) (c : dot_S128x4096_S4096x4096_S128x4096_1_0_0_1_n_n.contr.Idx) : (dot_S128x4096_S4096x4096_S128x4096_1_0_0_1_n_n.lhsIdx i c 0).val = (i 0).val := by
  unfold DotDims.lhsIdx
  rw [dif_neg (show ¬(0 : Fin S128x4096.rank) ∈ dot_S128x4096_S4096x4096_S128x4096_1_0_0_1_n_n.lhsBatch by decide), dif_pos (show (0 : Fin S128x4096.rank) ∈ dot_S128x4096_S4096x4096_S128x4096_1_0_0_1_n_n.lhsNonContracting by decide)]
  rfl
theorem d1_l1 (i : S128x4096.Idx) (c : dot_S128x4096_S4096x4096_S128x4096_1_0_0_1_n_n.contr.Idx) : (dot_S128x4096_S4096x4096_S128x4096_1_0_0_1_n_n.lhsIdx i c 1).val = (c ⟨0, by decide⟩).val :=
  dot_S128x4096_S4096x4096_S128x4096_1_0_0_1_n_n.lhsIdx_val_of_single rfl i c
theorem d1_r0 (i : S128x4096.Idx) (c : dot_S128x4096_S4096x4096_S128x4096_1_0_0_1_n_n.contr.Idx) : (dot_S128x4096_S4096x4096_S128x4096_1_0_0_1_n_n.rhsIdx i c 0).val = (c ⟨0, by decide⟩).val :=
  dot_S128x4096_S4096x4096_S128x4096_1_0_0_1_n_n.rhsIdx_val_of_single rfl i c
theorem d1_r1 (i : S128x4096.Idx) (c : dot_S128x4096_S4096x4096_S128x4096_1_0_0_1_n_n.contr.Idx) : (dot_S128x4096_S4096x4096_S128x4096_1_0_0_1_n_n.rhsIdx i c 1).val = (i 1).val := by
  unfold DotDims.rhsIdx
  rw [dif_neg (show ¬(1 : Fin S4096x4096.rank) ∈ dot_S128x4096_S4096x4096_S128x4096_1_0_0_1_n_n.rhsBatch by decide), dif_pos (show (1 : Fin S4096x4096.rank) ∈ dot_S128x4096_S4096x4096_S128x4096_1_0_0_1_n_n.rhsNonContracting by decide)]
  rfl

theorem d2_l0 (i : S256x10.Idx) (c : dot_S256x4096_S4096x10_S256x10_1_0_0_1_n_n.contr.Idx) : (dot_S256x4096_S4096x10_S256x10_1_0_0_1_n_n.lhsIdx i c 0).val = (i 0).val := by
  unfold DotDims.lhsIdx
  rw [dif_neg (show ¬(0 : Fin S256x4096.rank) ∈ dot_S256x4096_S4096x10_S256x10_1_0_0_1_n_n.lhsBatch by decide), dif_pos (show (0 : Fin S256x4096.rank) ∈ dot_S256x4096_S4096x10_S256x10_1_0_0_1_n_n.lhsNonContracting by decide)]
  rfl
theorem d2_l1 (i : S256x10.Idx) (c : dot_S256x4096_S4096x10_S256x10_1_0_0_1_n_n.contr.Idx) : (dot_S256x4096_S4096x10_S256x10_1_0_0_1_n_n.lhsIdx i c 1).val = (c ⟨0, by decide⟩).val :=
  dot_S256x4096_S4096x10_S256x10_1_0_0_1_n_n.lhsIdx_val_of_single rfl i c
theorem d2_r0 (i : S256x10.Idx) (c : dot_S256x4096_S4096x10_S256x10_1_0_0_1_n_n.contr.Idx) : (dot_S256x4096_S4096x10_S256x10_1_0_0_1_n_n.rhsIdx i c 0).val = (c ⟨0, by decide⟩).val :=
  dot_S256x4096_S4096x10_S256x10_1_0_0_1_n_n.rhsIdx_val_of_single rfl i c
theorem d2_r1 (i : S256x10.Idx) (c : dot_S256x4096_S4096x10_S256x10_1_0_0_1_n_n.contr.Idx) : (dot_S256x4096_S4096x10_S256x10_1_0_0_1_n_n.rhsIdx i c 1).val = (i 1).val := by
  unfold DotDims.rhsIdx
  rw [dif_neg (show ¬(1 : Fin S4096x10.rank) ∈ dot_S256x4096_S4096x10_S256x10_1_0_0_1_n_n.rhsBatch by decide), dif_pos (show (1 : Fin S4096x10.rank) ∈ dot_S256x4096_S4096x10_S256x10_1_0_0_1_n_n.rhsNonContracting by decide)]
  rfl

/-! ## Layer 1's body -/

/-- Layer 1's stored block at (p, q): the dense layer of the loaded x block, W1 and b1 there. -/
theorem pay_layer1 (x0 : FVec Ideal S512x784 .bf16) (x1 : FVec Ideal S784x4096 .bf16) (x2 : FVec Ideal S4096 .f32)
    (p : Fin 512) (q : Fin 4096) :
    k0_pay1 (F := Ideal) x0 x1 x2 (ix2 p q) = layer (M := 512) (K := 784) (N := 4096) x0 x1 x2 (ix2 p q) := by
  unfold k0_pay1
  simp only [shapeCast_self]
  show max (matmul dot_S512x784_S784x4096_S512x4096_1_0_0_1_n_n none x0 x1 (constant S512x4096 .f32 0x00000000#32) (ix2 p q)
      + broadcastTo S512x4096 (shapeCast S1x4096 x2 shapeCasts_S4096_S1x4096) broadcasts_S1x4096_S512x4096 (ix2 p q)) zeroWord = _
  rw [layer_apply]
  refine congrArg (fun z => max z zeroWord) ?_
  refine congrArg₂ (· + ·) ?_ ?_
  · exact matmul_zero_rc dot_S512x784_S784x4096_S512x4096_1_0_0_1_n_n rfl rfl d0_l0 d0_l1 d0_r0 d0_r1 none x0 x1 p q
  · exact rowBroadcast_rc x2 shapeCasts_S4096_S1x4096 broadcasts_S1x4096_S512x4096 p q

/-! ## Layer 2's body -/

/-- Layer 2's stored block at (p, q): the dense layer of the loaded h1 block, W2 and b2 there. -/
theorem pay_layer2 (x0 : FVec Ideal S128x4096 .bf16) (x1 : FVec Ideal S4096x4096 .bf16) (x2 : FVec Ideal S4096 .f32)
    (p : Fin 128) (q : Fin 4096) :
    k1_pay1 (F := Ideal) x0 x1 x2 (ix2 p q) = layer (M := 128) (K := 4096) (N := 4096) x0 x1 x2 (ix2 p q) := by
  unfold k1_pay1
  simp only [shapeCast_self]
  show max (matmul dot_S128x4096_S4096x4096_S128x4096_1_0_0_1_n_n none x0 x1 (constant S128x4096 .f32 0x00000000#32) (ix2 p q)
      + broadcastTo S128x4096 (shapeCast S1x4096 x2 shapeCasts_S4096_S1x4096) broadcasts_S1x4096_S128x4096 (ix2 p q)) zeroWord = _
  rw [layer_apply]
  refine congrArg (fun z => max z zeroWord) ?_
  refine congrArg₂ (· + ·) ?_ ?_
  · exact matmul_zero_rc dot_S128x4096_S4096x4096_S128x4096_1_0_0_1_n_n rfl rfl d1_l0 d1_l1 d1_r0 d1_r1 none x0 x1 p q
  · exact rowBroadcast_rc x2 shapeCasts_S4096_S1x4096 broadcasts_S1x4096_S128x4096 p q

/-! ## Layer 3's softmax block

The body forms the logits block (h2 block · W3 + b3), takes each row's largest entry, subtracts it, exponentiates,
sums each row, and divides: a softmax row by row. The pieces are named below in the order the body computes them. -/

/-- The logits block: the matrix product of the loaded h2 block by W3 into a zero accumulator, plus the bias row. -/
def logitsBlk (x0 : FVec Ideal S256x4096 .bf16) (x1 : FVec Ideal S4096x10 .bf16) (x2 : FVec Ideal S10 .f32) : FVec Ideal S256x10 .f32 :=
  addf (matmul dot_S256x4096_S4096x10_S256x10_1_0_0_1_n_n none x0 x1 (constant S256x10 .f32 0x00000000#32))
    (broadcastTo S256x10 (shapeCast S1x10 x2 shapeCasts_S10_S1x10) broadcasts_S1x10_S256x10)

/-- Each row's largest entry, as a column broadcast along the row. -/
def topCol (l : FVec Ideal S256x10 .f32) : FVec Ideal S256x10 .f32 :=
  broadcastTo S256x10 (shapeCast S256x1 (maximumf (broadcast S256 (Scalar.ofBits .f32 0xFF800000#32))
    (multiReduction .maximumf [1] S256 l 0xFF800000#32 reduces_S256x10_S256 (.inl rfl) rfl)) shapeCasts_S256_S256x1) broadcasts_S256x1_S256x10

/-- The exponentials of the entries less their row's largest. -/
def expBlk (l : FVec Ideal S256x10 .f32) : FVec Ideal S256x10 .f32 := exp (subf l (topCol l))

/-- Each row's sum of exponentials, as a column broadcast along the row. -/
def sumCol (l : FVec Ideal S256x10 .f32) : FVec Ideal S256x10 .f32 :=
  broadcastTo S256x10 (shapeCast S256x1 (multiReduction .add [1] S256 (expBlk l) 0x00000000#32 reduces_S256x10_S256 (.inl rfl) rfl)
    shapeCasts_S256_S256x1) broadcasts_S256x1_S256x10

theorem logitsBlk_apply (x0 : FVec Ideal S256x4096 .bf16) (x1 : FVec Ideal S4096x10 .bf16) (x2 : FVec Ideal S10 .f32)
    (p : Fin 256) (v : Fin 10) :
    logitsBlk x0 x1 x2 (ix2 p v) = affine (M := 256) (K := 4096) (N := 10) x0 x1 x2 (ix2 p v) := by
  rw [affine_apply]
  exact congrArg₂ (· + ·) (matmul_zero_rc dot_S256x4096_S4096x10_S256x10_1_0_0_1_n_n rfl rfl d2_l0 d2_l1 d2_r0 d2_r1 none x0 x1 p v)
    (rowBroadcast_rc x2 shapeCasts_S10_S1x10 broadcasts_S1x10_S256x10 p v)

theorem topCol_apply (l : FVec Ideal S256x10 .f32) (p : Fin 256) (v : Fin 10) :
    topCol l (ix2 p v) = rowTop (fun u => l (ix2 p u)) := by
  unfold topCol
  refine (colBroadcast_rc _ shapeCasts_S256_S256x1 broadcasts_S256x1_S256x10 p v).trans ?_
  show max negInfWord (multiReduction .maximumf [1] S256 l 0xFF800000#32 reduces_S256x10_S256 (.inl rfl) rfl (ix1 p)) = _
  exact congrArg (max negInfWord) (rowMax_apply l reduces_S256x10_S256 (.inl rfl) rfl p)

theorem expBlk_apply (l : FVec Ideal S256x10 .f32) (p : Fin 256) (v : Fin 10) :
    expBlk l (ix2 p v) = Ideal.exp (l (ix2 p v) - rowTop (fun u => l (ix2 p u))) := by
  show Ideal.exp (l (ix2 p v) - topCol l (ix2 p v)) = _
  rw [topCol_apply]

theorem sumCol_apply (l : FVec Ideal S256x10 .f32) (p : Fin 256) (v : Fin 10) :
    sumCol l (ix2 p v) = ∑ u : Fin 10, Ideal.exp (l (ix2 p u) - rowTop (fun u' => l (ix2 p u'))) := by
  unfold sumCol
  refine (colBroadcast_rc _ shapeCasts_S256_S256x1 broadcasts_S256x1_S256x10 p v).trans ?_
  refine (rowSum_apply (expBlk l) reduces_S256x10_S256 (.inl rfl) rfl p).trans ?_
  exact Finset.sum_congr rfl fun u _ => expBlk_apply l p u

/-- The body's probability block is the quotient of the exponentials by their row sums (the payload with its pieces named). -/
theorem k2_pay5_eq (x0 : FVec Ideal S256x4096 .bf16) (x1 : FVec Ideal S4096x10 .bf16) (x2 : FVec Ideal S10 .f32) :
    k2_pay5 (F := Ideal) x0 x1 x2
      = divf (expBlk (logitsBlk (shapeCast S256x4096 x0 shapeCasts_S256x4096_S256x4096) (shapeCast S4096x10 x1 shapeCasts_S4096x10_S4096x10) x2))
          (sumCol (logitsBlk (shapeCast S256x4096 x0 shapeCasts_S256x4096_S256x4096) (shapeCast S4096x10 x1 shapeCasts_S4096x10_S4096x10) x2)) := rfl

/-- The probability block at row p and class v: the softmax of row p of the logits (h2 block · W3 + b3) at v. -/
theorem pay_probs (x0 : FVec Ideal S256x4096 .bf16) (x1 : FVec Ideal S4096x10 .bf16) (x2 : FVec Ideal S10 .f32)
    (p : Fin 256) (v : Fin 10) :
    k2_pay5 (F := Ideal) x0 x1 x2 (ix2 p v)
      = softmaxRow (fun u => affine (M := 256) (K := 4096) (N := 10) x0 x1 x2 (ix2 p u)) v := by
  rw [k2_pay5_eq, shapeCast_self, shapeCast_self]
  show Ideal.div (expBlk (logitsBlk x0 x1 x2) (ix2 p v)) (sumCol (logitsBlk x0 x1 x2) (ix2 p v)) = _
  rw [expBlk_apply, sumCol_apply]
  have hl : (fun u => logitsBlk x0 x1 x2 (ix2 p u)) = fun u => affine (M := 256) (K := 4096) (N := 10) x0 x1 x2 (ix2 p u) :=
    funext fun u => logitsBlk_apply x0 x1 x2 p u
  show softmaxRow (fun u => logitsBlk x0 x1 x2 (ix2 p u)) v = _
  rw [hl]

end Cert.KernelIdeal.Layers

end
-- ==== Proof.KernelArrays.lean ====
/-
  From blocks to arrays, region by region, at the exact instance. Each pallas_call walks a one-dimensional grid; at
  point t it stages rows [R·t, R·t + R) of its first operand (R = 512, 128, 256 for the three calls), the whole weight
  matrix and the whole bias vector, and writes back rows [R·t, R·t + R) of its result. A block's coordinate inside
  its array is always (block index) × (block size) + (coordinate inside the block). So what point t writes back is
  block t of ONE function of the three input arrays, the blocks cover the result array, and the result array after
  the region is that function.
-/
import proofs.«112867_j20074677141979_2_alg».proof.Proof.Gen.KernelIdeal.Frame
import proofs.«112867_j20074677141979_2_alg».proof.Proof.KernelLayers
import Idealize.ShloMosaic.Lib.Pipeline.Value

set_option maxRecDepth 16384

noncomputable section

namespace Cert.KernelIdeal.Arrays

open Cert.KernelIdeal Cert.KernelIdeal.Gen Cert.KernelIdeal.Layers Cert.LibDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Region 0: h1 = the dense layer of x, W1, b1 -/

/-- The printed index maps over the 16 points: the x block and the result block are at row-block t, the weight matrix
    and the bias at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- What point t writes back is block t of the dense layer of the three arrays the region finds. -/
theorem flushed0_eq (c : Dev nD) (A0 : FVec Ideal S8192x784 .bf16) (A1 : FVec Ideal S784x4096 .bf16) (A2 : FVec Ideal S4096 .f32)
    (h0 : V c (Pipeline.arrRef spec0 0) = A0) (h1 : V c (Pipeline.arrRef spec0 1) = A1) (h2 : V c (Pipeline.arrRef spec0 2) = A2)
    (t : Fin cfg0.N) :
    (dat0 V c).flushed 3 t = ((cfg0.win 3).blk t).view.read (Elt Ideal) (layer (M := 8192) (K := 784) (N := 4096) A0 A1 A2) := by
  show (cfg0.win 3).cut (grid0.coords t) ((dat0 V c).after 3 t) = _
  rw [after0_3]
  unfold out0_3
  rw [View.canon_unit_zero hz2]
  simp only [View.ld_unit_zero (S := S512x784) hz2, View.ld_unit_zero (S := S784x4096) hz2, View.ld_unit_zero (S := S4096) hz1]
  obtain ⟨e00, e01, e10, e11, e20, e30, e31⟩ := idx0 t
  have hN : cfg0.N = 16 := N_0
  have ht : t.val < 16 := by have := t.isLt; omega
  refine funext fun (j : S512x4096.Idx) => ?_
  obtain ⟨p, q, rfl⟩ : ∃ (p : Fin 512) (q : Fin 4096), j = ix2 p q := ⟨j 0, j 1, eq_ix2 j⟩
  show k0_pay1 (iblk0 V c 0 t) (iblk0 V c 1 t) (iblk0 V c 2 t) (ix2 p q)
    = layer (M := 8192) (K := 784) (N := 4096) A0 A1 A2 (((cfg0.win 3).blk t).view.emb (ix2 p q))
  refine (pay_layer1 (iblk0 V c 0 t) (iblk0 V c 1 t) (iblk0 V c 2 t) p q).trans ?_
  have he : ((cfg0.win 3).blk t).view.emb (ix2 p q) = ix2 (n0 := 8192) (n1 := 4096) ⟨512 * t.val + p.val, by omega⟩ q := by
    funext a; apply Fin.ext
    match a with
    | ⟨0, _⟩ => show win0_3.index t (0 : Fin 2) * 512 + 1 * p.val = 512 * t.val + p.val; omega
    | ⟨1, _⟩ => show win0_3.index t (1 : Fin 2) * 4096 + 1 * q.val = q.val; omega
  rw [he, layer_apply, layer_apply]
  have b0 : ∀ k : Fin 784, iblk0 V c 0 t (ix2 p k) = A0 (ix2 (n0 := 8192) (n1 := 784) ⟨512 * t.val + p.val, by omega⟩ k) := fun k => by
    show V c (Pipeline.arrRef spec0 0) (((cfg0.win 0).blk t).view.emb (ix2 p k)) = _
    rw [h0]
    refine congrArg A0 (funext fun a => Fin.ext ?_)
    match a with
    | ⟨0, _⟩ => show win0_0.index t (0 : Fin 2) * 512 + 1 * p.val = 512 * t.val + p.val; omega
    | ⟨1, _⟩ => show win0_0.index t (1 : Fin 2) * 784 + 1 * k.val = k.val; omega
  have b1 : ∀ k : Fin 784, iblk0 V c 1 t (ix2 k q) = A1 (ix2 k q) := fun k => by
    show V c (Pipeline.arrRef spec0 1) (((cfg0.win 1).blk t).view.emb (ix2 k q)) = _
    rw [h1]
    refine congrArg A1 (funext fun a => Fin.ext ?_)
    match a with
    | ⟨0, _⟩ => show win0_1.index t (0 : Fin 2) * 784 + 1 * k.val = k.val; omega
    | ⟨1, _⟩ => show win0_1.index t (1 : Fin 2) * 4096 + 1 * q.val = q.val; omega
  have b2 : iblk0 V c 2 t (ix1 q) = A2 (ix1 q) := by
    show V c (Pipeline.arrRef spec0 2) (((cfg0.win 2).blk t).view.emb (ix1 q)) = _
    rw [h2]
    refine congrArg A2 (funext fun a => Fin.ext ?_)
    match a with
    | ⟨0, _⟩ => show win0_2.index t (0 : Fin 1) * 4096 + 1 * q.val = q.val; omega
  rw [b2]
  refine congrArg (fun z => max (z + A2 (ix1 q)) zeroWord) ?_
  exact Finset.sum_congr rfl fun k _ => by rw [b0 k, b1 k]

/-- An index of the result array is in point t's block iff its row is one of the block's 512 rows. -/
theorem mem_blk0 (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v4).slice (win0_3.rect t)).set ↔ _
  rw [View.set_slice_whole, Rect.mem_set_unit]
  exact Iff.rfl

/-- Every index of the result array is in the block of the point its row falls in. -/
theorem cover0 (i : S8192x4096.Idx) : ∃ t : Fin cfg0.N, (cfg0.win 3).flush t = true ∧ i ∈ ((cfg0.win 3).blk t).view.set := by
  have hN : cfg0.N = 16 := N_0
  have hi0 : (i 0).val < 8192 := (i 0).isLt
  have hi1 : (i 1).val < 4096 := (i 1).isLt
  let t : Fin cfg0.N := ⟨(i 0).val / 512, by omega⟩
  obtain ⟨e00, e01, e10, e11, e20, e30, e31⟩ := idx0 t
  have htv : t.val = (i 0).val / 512 := rfl
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- The result array after region 0 is the dense layer of the three arrays the region finds. -/
theorem final0 (c : Dev nD) (A0 : FVec Ideal S8192x784 .bf16) (A1 : FVec Ideal S784x4096 .bf16) (A2 : FVec Ideal S4096 .f32)
    (h0 : V c (Pipeline.arrRef spec0 0) = A0) (h1 : V c (Pipeline.arrRef spec0 1) = A1) (h2 : V c (Pipeline.arrRef spec0 2) = A2) :
    (dat0 V c).arrAt 3 cfg0.N = layer (M := 8192) (K := 784) (N := 4096) A0 A1 A2 :=
  (dat0 V c).arrAt_eq_of_cover 3 (layer (M := 8192) (K := 784) (N := 4096) A0 A1 A2)
    (fun t _ => flushed0_eq V c A0 A1 A2 h0 h1 h2 t) cover0

/-! ## Region 1: h2 = the dense layer of h1, W2, b2 -/

/-- The printed index maps over the 64 points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- What point t writes back is block t of the dense layer of the three arrays the region finds. -/
theorem flushed1_eq (c : Dev nD) (A0 : FVec Ideal S8192x4096 .bf16) (A1 : FVec Ideal S4096x4096 .bf16) (A2 : FVec Ideal S4096 .f32)
    (h0 : V c (Pipeline.arrRef spec1 0) = A0) (h1 : V c (Pipeline.arrRef spec1 1) = A1) (h2 : V c (Pipeline.arrRef spec1 2) = A2)
    (t : Fin cfg1.N) :
    (dat1 V c).flushed 3 t = ((cfg1.win 3).blk t).view.read (Elt Ideal) (layer (M := 8192) (K := 4096) (N := 4096) A0 A1 A2) := by
  show (cfg1.win 3).cut (grid1.coords t) ((dat1 V c).after 3 t) = _
  rw [after1_3]
  unfold out1_3
  rw [View.canon_unit_zero hz2]
  simp only [View.ld_unit_zero (S := S128x4096) hz2, View.ld_unit_zero (S := S4096x4096) hz2, View.ld_unit_zero (S := S4096) hz1]
  obtain ⟨e00, e01, e10, e11, e20, e30, e31⟩ := idx1 t
  have hN : cfg1.N = 64 := N_1
  have ht : t.val < 64 := by have := t.isLt; omega
  refine funext fun (j : S128x4096.Idx) => ?_
  obtain ⟨p, q, rfl⟩ : ∃ (p : Fin 128) (q : Fin 4096), j = ix2 p q := ⟨j 0, j 1, eq_ix2 j⟩
  show k1_pay1 (iblk1 V c 0 t) (iblk1 V c 1 t) (iblk1 V c 2 t) (ix2 p q)
    = layer (M := 8192) (K := 4096) (N := 4096) A0 A1 A2 (((cfg1.win 3).blk t).view.emb (ix2 p q))
  refine (pay_layer2 (iblk1 V c 0 t) (iblk1 V c 1 t) (iblk1 V c 2 t) p q).trans ?_
  have he : ((cfg1.win 3).blk t).view.emb (ix2 p q) = ix2 (n0 := 8192) (n1 := 4096) ⟨128 * t.val + p.val, by omega⟩ q := by
    funext a; apply Fin.ext
    match a with
    | ⟨0, _⟩ => show win1_3.index t (0 : Fin 2) * 128 + 1 * p.val = 128 * t.val + p.val; omega
    | ⟨1, _⟩ => show win1_3.index t (1 : Fin 2) * 4096 + 1 * q.val = q.val; omega
  rw [he, layer_apply, layer_apply]
  have b0 : ∀ k : Fin 4096, iblk1 V c 0 t (ix2 p k) = A0 (ix2 (n0 := 8192) (n1 := 4096) ⟨128 * t.val + p.val, by omega⟩ k) := fun k => by
    show V c (Pipeline.arrRef spec1 0) (((cfg1.win 0).blk t).view.emb (ix2 p k)) = _
    rw [h0]
    refine congrArg A0 (funext fun a => Fin.ext ?_)
    match a with
    | ⟨0, _⟩ => show win1_0.index t (0 : Fin 2) * 128 + 1 * p.val = 128 * t.val + p.val; omega
    | ⟨1, _⟩ => show win1_0.index t (1 : Fin 2) * 4096 + 1 * k.val = k.val; omega
  have b1 : ∀ k : Fin 4096, iblk1 V c 1 t (ix2 k q) = A1 (ix2 k q) := fun k => by
    show V c (Pipeline.arrRef spec1 1) (((cfg1.win 1).blk t).view.emb (ix2 k q)) = _
    rw [h1]
    refine congrArg A1 (funext fun a => Fin.ext ?_)
    match a with
    | ⟨0, _⟩ => show win1_1.index t (0 : Fin 2) * 4096 + 1 * k.val = k.val; omega
    | ⟨1, _⟩ => show win1_1.index t (1 : Fin 2) * 4096 + 1 * q.val = q.val; omega
  have b2 : iblk1 V c 2 t (ix1 q) = A2 (ix1 q) := by
    show V c (Pipeline.arrRef spec1 2) (((cfg1.win 2).blk t).view.emb (ix1 q)) = _
    rw [h2]
    refine congrArg A2 (funext fun a => Fin.ext ?_)
    match a with
    | ⟨0, _⟩ => show win1_2.index t (0 : Fin 1) * 4096 + 1 * q.val = q.val; omega
  rw [b2]
  refine congrArg (fun z => max (z + A2 (ix1 q)) zeroWord) ?_
  exact Finset.sum_congr rfl fun k _ => by rw [b0 k, b1 k]

/-- An index of the result array is in point t's block iff its row is one of the block's 128 rows. -/
theorem mem_blk1 (t : Fin cfg1.N) (i : S8192x4096.Idx) :
    i ∈ ((cfg1.win 3).blk t).view.set ↔ ∀ a : Fin 2, win1_3.index t a * S128x4096.size a ≤ (i a).val ∧ (i a).val < win1_3.index t a * S128x4096.size a + S128x4096.size a := by
  show i ∈ ((View.whole main_v5).slice (win1_3.rect t)).set ↔ _
  rw [View.set_slice_whole, Rect.mem_set_unit]
  exact Iff.rfl

/-- Every index of the result array is in the block of the point its row falls in. -/
theorem cover1 (i : S8192x4096.Idx) : ∃ t : Fin cfg1.N, (cfg1.win 3).flush t = true ∧ i ∈ ((cfg1.win 3).blk t).view.set := by
  have hN : cfg1.N = 64 := N_1
  have hi0 : (i 0).val < 8192 := (i 0).isLt
  have hi1 : (i 1).val < 4096 := (i 1).isLt
  let t : Fin cfg1.N := ⟨(i 0).val / 128, by omega⟩
  obtain ⟨e00, e01, e10, e11, e20, e30, e31⟩ := idx1 t
  have htv : t.val = (i 0).val / 128 := rfl
  refine ⟨t, flush1_3 t, ?_⟩
  rw [mem_blk1]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 4096 ≤ (i 1).val ∧ (i 1).val < win1_3.index t (1 : Fin 2) * 4096 + 4096; omega

/-- The result array after region 1 is the dense layer of the three arrays the region finds. -/
theorem final1 (c : Dev nD) (A0 : FVec Ideal S8192x4096 .bf16) (A1 : FVec Ideal S4096x4096 .bf16) (A2 : FVec Ideal S4096 .f32)
    (h0 : V c (Pipeline.arrRef spec1 0) = A0) (h1 : V c (Pipeline.arrRef spec1 1) = A1) (h2 : V c (Pipeline.arrRef spec1 2) = A2) :
    (dat1 V c).arrAt 3 cfg1.N = layer (M := 8192) (K := 4096) (N := 4096) A0 A1 A2 :=
  (dat1 V c).arrAt_eq_of_cover 3 (layer (M := 8192) (K := 4096) (N := 4096) A0 A1 A2)
    (fun t _ => flushed1_eq V c A0 A1 A2 h0 h1 h2 t) cover1

/-! ## Region 2: the probability block, and the cover of the result vector -/

/-- The printed index maps over the 32 points. -/
theorem idx2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 1) = t.val :=
  (by decide +kernel : ∀ t : Fin grid2.N, _)

/-- The body's probability block at row r and class v is the softmax, at v, of row 256·t + r of the logits
    h2 · W3 + b3 formed from the arrays the region finds. -/
theorem probs_blk (c : Dev nD) (A0 : FVec Ideal S8192x4096 .bf16) (A1 : FVec Ideal S4096x10 .bf16) (A2 : FVec Ideal S10 .f32)
    (h0 : V c (Pipeline.arrRef spec2 0) = A0) (h1 : V c (Pipeline.arrRef spec2 1) = A1) (h2 : V c (Pipeline.arrRef spec2 2) = A2)
    (t : Fin cfg2.N) (r : Fin 256) (hI : 256 * t.val + r.val < 8192) (v : Fin 10) :
    k2_pay5 (F := Ideal) (iblk2 V c 0 t) (iblk2 V c 1 t) (iblk2 V c 2 t) (ix2 r v)
      = softmaxRow (fun u => affine (M := 8192) (K := 4096) (N := 10) A0 A1 A2 (ix2 ⟨256 * t.val + r.val, hI⟩ u)) v := by
  obtain ⟨e00, e01, e10, e11, e20, e30⟩ := idx2 t
  refine (pay_probs (iblk2 V c 0 t) (iblk2 V c 1 t) (iblk2 V c 2 t) r v).trans ?_
  refine congrArg (fun l => softmaxRow l v) (funext fun u => ?_)
  rw [affine_apply, affine_apply]
  have b0 : ∀ k : Fin 4096, iblk2 V c 0 t (ix2 r k) = A0 (ix2 (n0 := 8192) (n1 := 4096) ⟨256 * t.val + r.val, hI⟩ k) := fun k => by
    show V c (Pipeline.arrRef spec2 0) (((cfg2.win 0).blk t).view.emb (ix2 r k)) = _
    rw [h0]
    refine congrArg A0 (funext fun a => Fin.ext ?_)
    match a with
    | ⟨0, _⟩ => show win2_0.index t (0 : Fin 2) * 256 + 1 * r.val = 256 * t.val + r.val; omega
    | ⟨1, _⟩ => show win2_0.index t (1 : Fin 2) * 4096 + 1 * k.val = k.val; omega
  have b1 : ∀ k : Fin 4096, iblk2 V c 1 t (ix2 k u) = A1 (ix2 k u) := fun k => by
    show V c (Pipeline.arrRef spec2 1) (((cfg2.win 1).blk t).view.emb (ix2 k u)) = _
    rw [h1]
    refine congrArg A1 (funext fun a => Fin.ext ?_)
    match a with
    | ⟨0, _⟩ => show win2_1.index t (0 : Fin 2) * 4096 + 1 * k.val = k.val; omega
    | ⟨1, _⟩ => show win2_1.index t (1 : Fin 2) * 10 + 1 * u.val = u.val; omega
  have b2 : iblk2 V c 2 t (ix1 u) = A2 (ix1 u) := by
    show V c (Pipeline.arrRef spec2 2) (((cfg2.win 2).blk t).view.emb (ix1 u)) = _
    rw [h2]
    refine congrArg A2 (funext fun a => Fin.ext ?_)
    match a with
    | ⟨0, _⟩ => show win2_2.index t (0 : Fin 1) * 10 + 1 * u.val = u.val; omega
  rw [b2]
  refine congrArg (fun z => z + A2 (ix1 u)) ?_
  exact Finset.sum_congr rfl fun k _ => by rw [b0 k, b1 k]

/-- An index of the result vector is in point t's block iff it is one of the block's 256 entries. -/
theorem mem_blk2 (t : Fin cfg2.N) (i : S8192.Idx) :
    i ∈ ((cfg2.win 3).blk t).view.set ↔ ∀ a : Fin 1, win2_3.index t a * S256.size a ≤ (i a).val ∧ (i a).val < win2_3.index t a * S256.size a + S256.size a := by
  show i ∈ ((View.whole main_v6).slice (win2_3.rect t)).set ↔ _
  rw [View.set_slice_whole, Rect.mem_set_unit]
  exact Iff.rfl

/-- Every index of the result vector is in the block of the point it falls in. -/
theorem cover2 (i : S8192.Idx) : ∃ t : Fin cfg2.N, (cfg2.win 3).flush t = true ∧ i ∈ ((cfg2.win 3).blk t).view.set := by
  have hN : cfg2.N = 32 := N_2
  have hi0 : (i 0).val < 8192 := (i 0).isLt
  let t : Fin cfg2.N := ⟨(i 0).val / 256, by omega⟩
  obtain ⟨e00, e01, e10, e11, e20, e30⟩ := idx2 t
  have htv : t.val = (i 0).val / 256 := rfl
  refine ⟨t, flush2_3 t, ?_⟩
  rw [mem_blk2]
  intro a
  match a with
  | ⟨0, _⟩ => show win2_3.index t (0 : Fin 1) * 256 ≤ (i 0).val ∧ (i 0).val < win2_3.index t (0 : Fin 1) * 256 + 256; omega

end Cert.KernelIdeal.Arrays

end
-- ==== Proof.KernelChain.lean ====
/-
  What each region finds in its input arrays, at the exact instance. The host casts of x, W1, W2, W3 to bf16 are the
  identity on extended reals, so region 0 finds x, W1 and b1 themselves and leaves h1 = the dense layer of them; no
  later segment writes the weight and bias buffers, so region 1 finds h1, W2, b2 and leaves h2 = the dense layer of
  those; and region 2 finds h2, W3, b3.
-/
import proofs.«112867_j20074677141979_2_alg».proof.Proof.KernelArrays
import Idealize.ShloMosaic.Lib.StableHlo.Run

set_option maxRecDepth 16384

noncomputable section

namespace Cert.KernelIdeal.Chain

open Cert.KernelIdeal Cert.KernelIdeal.Gen Cert.KernelIdeal.Arrays Cert.LibDense
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The seven argument arrays as launched. -/
abbrev X0 (c : Dev nD) : FVec Ideal S8192x784 .f32 := m ((c.tc : Thread nD τ).loc main_arg0)
abbrev X1 (c : Dev nD) : FVec Ideal S784x4096 .f32 := m ((c.tc : Thread nD τ).loc main_arg1)
abbrev X2 (c : Dev nD) : FVec Ideal S4096 .f32 := m ((c.tc : Thread nD τ).loc main_arg2)
abbrev X3 (c : Dev nD) : FVec Ideal S4096x4096 .f32 := m ((c.tc : Thread nD τ).loc main_arg3)
abbrev X4 (c : Dev nD) : FVec Ideal S4096 .f32 := m ((c.tc : Thread nD τ).loc main_arg4)
abbrev X5 (c : Dev nD) : FVec Ideal S4096x10 .f32 := m ((c.tc : Thread nD τ).loc main_arg5)
abbrev X6 (c : Dev nD) : FVec Ideal S10 .f32 := m ((c.tc : Thread nD τ).loc main_arg6)

/-! ## After the host casts -/

theorem W1_v0 (c : Dev nD) : W1 m ρ c (Proc.devRef .tc main_v0) = X0 m c := by
  show StableHlo.after hostOps0 (W0 m ρ c) (Proc.devRef .tc main_v0) = _
  after_results
  rfl
theorem W1_v1 (c : Dev nD) : W1 m ρ c (Proc.devRef .tc main_v1) = X1 m c := by
  show StableHlo.after hostOps0 (W0 m ρ c) (Proc.devRef .tc main_v1) = _
  after_results
  rfl
theorem W1_v2 (c : Dev nD) : W1 m ρ c (Proc.devRef .tc main_v2) = X3 m c := by
  show StableHlo.after hostOps0 (W0 m ρ c) (Proc.devRef .tc main_v2) = _
  after_results
  rfl
theorem W1_v3 (c : Dev nD) : W1 m ρ c (Proc.devRef .tc main_v3) = X5 m c := by
  show StableHlo.after hostOps0 (W0 m ρ c) (Proc.devRef .tc main_v3) = _
  after_results
  rfl
theorem W1_arg2 (c : Dev nD) : W1 m ρ c (Proc.devRef .tc main_arg2) = X2 m c := by
  show StableHlo.after hostOps0 (W0 m ρ c) (Proc.devRef .tc main_arg2) = _
  after_results
theorem W1_arg4 (c : Dev nD) : W1 m ρ c (Proc.devRef .tc main_arg4) = X4 m c := by
  show StableHlo.after hostOps0 (W0 m ρ c) (Proc.devRef .tc main_arg4) = _
  after_results
theorem W1_arg6 (c : Dev nD) : W1 m ρ c (Proc.devRef .tc main_arg6) = X6 m c := by
  show StableHlo.after hostOps0 (W0 m ρ c) (Proc.devRef .tc main_arg6) = _
  after_results

/-! ## Region 0 leaves h1 -/

/-- The first hidden layer as an array: the dense layer of x, W1, b1. -/
abbrev H1 (c : Dev nD) : (⟨2, ![8192, 4096]⟩ : Shape).Idx → EReal :=
  layer (M := 8192) (K := 784) (N := 4096) (X0 m c) (X1 m c) (X2 m c)

theorem W2_v4 (c : Dev nD) : W2 m ρ c (Proc.devRef .tc main_v4) = H1 m c :=
  (W2_arr m ρ c 3).trans (final0 (V1 m ρ) c (X0 m c) (X1 m c) (X2 m c) (W1_v0 m ρ c) (W1_v1 m ρ c) (W1_arg2 m ρ c))

theorem W2_v2 (c : Dev nD) : W2 m ρ c (Proc.devRef .tc main_v2) = X3 m c :=
  (W2_of_ne m ρ c main_v2 (by decide)).trans (W1_v2 m ρ c)
theorem W2_arg4 (c : Dev nD) : W2 m ρ c (Proc.devRef .tc main_arg4) = X4 m c :=
  (W2_of_ne m ρ c main_arg4 (by decide)).trans (W1_arg4 m ρ c)
theorem W2_v3 (c : Dev nD) : W2 m ρ c (Proc.devRef .tc main_v3) = X5 m c :=
  (W2_of_ne m ρ c main_v3 (by decide)).trans (W1_v3 m ρ c)
theorem W2_arg6 (c : Dev nD) : W2 m ρ c (Proc.devRef .tc main_arg6) = X6 m c :=
  (W2_of_ne m ρ c main_arg6 (by decide)).trans (W1_arg6 m ρ c)

/-! ## Region 1 leaves h2 -/

/-- The second hidden layer as an array: the dense layer of h1, W2, b2. -/
abbrev H2 (c : Dev nD) : (⟨2, ![8192, 4096]⟩ : Shape).Idx → EReal :=
  layer (M := 8192) (K := 4096) (N := 4096) (H1 m c) (X3 m c) (X4 m c)

theorem W3_v5 (c : Dev nD) : W3 m ρ c (Proc.devRef .tc main_v5) = H2 m c :=
  (W3_arr m ρ c 3).trans (final1 (V2 m ρ) c (H1 m c) (X3 m c) (X4 m c) (W2_v4 m ρ c) (W2_v2 m ρ c) (W2_arg4 m ρ c))

theorem W3_v3 (c : Dev nD) : W3 m ρ c (Proc.devRef .tc main_v3) = X5 m c :=
  (W3_of_ne m ρ c main_v3 (by decide)).trans (W2_v3 m ρ c)
theorem W3_arg6 (c : Dev nD) : W3 m ρ c (Proc.devRef .tc main_arg6) = X6 m c :=
  (W3_of_ne m ρ c main_arg6 (by decide)).trans (W2_arg6 m ρ c)

end Cert.KernelIdeal.Chain

end
-- ==== Proof.KernelRun.lean ====
/-
  The idealized kernel's run with its RESULT named. The program is a stretch of host operations (the four casts of
  x, W1, W2, W3 to bf16) followed by three pallas_calls; the buffer contents at the segment boundaries are the fold
  W0 → W1 → W2 → W3 → W4 of the frame module, and the last thread state holds every unscoped buffer at W4. So every
  weakly fair execution ends with the result buffer at W4's value there, and with the seven arguments as launched.
-/
import proofs.«112867_j20074677141979_2_alg».proof.Proof.Gen.KernelIdeal.Frame

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; the result buffer ends at the
    last boundary's contents `W4`, and the arguments end as launched. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Result

end
-- ==== Proof.KernelValue.lean ====
/-
  The idealized kernel's result, at the exact instance, is the reference's last stage of the same seven arguments.
  Region 2's body computes, per row of its 256-row block, the ten softmax probabilities p_v, their complements
  1 - p_v, and then a fixed sum-product circuit over those twenty numbers: every node is p_a·s + p_b·s' + p_c·s'' with
  s, s', s'' earlier nodes or leaves, all operations pointwise in the row. The reference evaluates the same circuit on
  whole columns. Read at a row, the kernel's payload tree and the reference's stages are the same tree of products
  and sums over the same twenty leaves; the leaves agree because both programs' probabilities are the softmax of
  the same logits row (h2·W3 + b3), h2 being the same dense layers of the same arguments.
-/
import proofs.«112867_j20074677141979_2_alg».proof.Proof.KernelChain
import proofs.«112867_j20074677141979_2_alg».proof.Proof.KernelRun
import proofs.«112867_j20074677141979_2_alg».proof.Proof.RefRead

set_option maxRecDepth 65536

noncomputable section

namespace Cert.KernelIdeal.Value

open Cert.KernelIdeal Cert.KernelIdeal.Gen Cert.KernelIdeal.Layers Cert.KernelIdeal.Arrays Cert.KernelIdeal.Chain Cert.LibDense
open Idealize.ShloMosaic Idealize.ShloMosaic.TcCoe Idealize.ShloMosaic.ValueIdx Idealize.SL.Sem
open Idealize.ShloMosaic.Pipeline (Dat)

/-- The f32 word of 1.0, as an extended real. -/
abbrev oneWord : EReal := Ideal.ofBits .f32 0x3F800000#32

/-- What the kernel side uses of the reference's stages, for given arguments: its probability stage at (i, v) is the
    softmax of row i of the logits built from the two dense layers; its twenty circuit leaves at row i are the
    probabilities p_v and the complements 1 - p_v. -/
structure RefFacts (Y0 : FVec Ideal S8192x784 .f32) (Y1 : FVec Ideal S784x4096 .f32) (Y2 : FVec Ideal S4096 .f32) (Y3 : FVec Ideal S4096x4096 .f32) (Y4 : FVec Ideal S4096 .f32) (Y5 : FVec Ideal S4096x10 .f32) (Y6 : FVec Ideal S10 .f32) : Prop where
  probs : ∀ (i : Fin 8192) (v : Fin 10), Cert.ReferenceIdeal.Read.val_main_v24 (F := Ideal) Y0 Y1 Y2 Y3 Y4 Y5 Y6 (ix2 i v)
    = softmaxRow (fun u => affine (M := 8192) (K := 4096) (N := 10)
        (layer (M := 8192) (K := 4096) (N := 4096) (layer (M := 8192) (K := 784) (N := 4096) Y0 Y1 Y2) Y3 Y4) Y5 Y6 (ix2 i u)) v
  p0 : ∀ i : Fin 8192, Cert.ReferenceIdeal.Read.val_main_v26 (F := Ideal) Y0 Y1 Y2 Y3 Y4 Y5 Y6 (ix1 i) = Cert.ReferenceIdeal.Read.val_main_v24 (F := Ideal) Y0 Y1 Y2 Y3 Y4 Y5 Y6 (ix2 i (0 : Fin 10))
  p1 : ∀ i : Fin 8192, Cert.ReferenceIdeal.Read.val_main_v28 (F := Ideal) Y0 Y1 Y2 Y3 Y4 Y5 Y6 (ix1 i) = Cert.ReferenceIdeal.Read.val_main_v24 (F := Ideal) Y0 Y1 Y2 Y3 Y4 Y5 Y6 (ix2 i (1 : Fin 10))
  p2 : ∀ i : Fin 8192, Cert.ReferenceIdeal.Read.val_main_v30 (F := Ideal) Y0 Y1 Y2 Y3 Y4 Y5 Y6 (ix1 i) = Cert.ReferenceIdeal.Read.val_main_v24 (F := Ideal) Y0 Y1 Y2 Y3 Y4 Y5 Y6 (ix2 i (2 : Fin 10))
  p3 : ∀ i : Fin 8192, Cert.ReferenceIdeal.Read.val_main_v32 (F := Ideal) Y0 Y1 Y2 Y3 Y4 Y5 Y6 (ix1 i) = Cert.ReferenceIdeal.Read.val_main_v24 (F := Ideal) Y0 Y1 Y2 Y3 Y4 Y5 Y6 (ix2 i (3 : Fin 10))
  p4 : ∀ i : Fin 8192, Cert.ReferenceIdeal.Read.val_main_v34 (F := Ideal) Y0 Y1 Y2 Y3 Y4 Y5 Y6 (ix1 i) = Cert.ReferenceIdeal.Read.val_main_v24 (F := Ideal) Y0 Y1 Y2 Y3 Y4 Y5 Y6 (ix2 i (4 : Fin 10))
  p5 : ∀ i : Fin 8192, Cert.ReferenceIdeal.Read.val_main_v36 (F := Ideal) Y0 Y1 Y2 Y3 Y4 Y5 Y6 (ix1 i) = Cert.ReferenceIdeal.Read.val_main_v24 (F := Ideal) Y0 Y1 Y2 Y3 Y4 Y5 Y6 (ix2 i (5 : Fin 10))
  p6 : ∀ i : Fin 8192, Cert.ReferenceIdeal.Read.val_main_v38 (F := Ideal) Y0 Y1 Y2 Y3 Y4 Y5 Y6 (ix1 i) = Cert.ReferenceIdeal.Read.val_main_v24 (F := Ideal) Y0 Y1 Y2 Y3 Y4 Y5 Y6 (ix2 i (6 : Fin 10))
  p7 : ∀ i : Fin 8192, Cert.ReferenceIdeal.Read.val_main_v40 (F := Ideal) Y0 Y1 Y2 Y3 Y4 Y5 Y6 (ix1 i) = Cert.ReferenceIdeal.Read.val_main_v24 (F := Ideal) Y0 Y1 Y2 Y3 Y4 Y5 Y6 (ix2 i (7 : Fin 10))
  p8 : ∀ i : Fin 8192, Cert.ReferenceIdeal.Read.val_main_v42 (F := Ideal) Y0 Y1 Y2 Y3 Y4 Y5 Y6 (ix1 i) = Cert.ReferenceIdeal.Read.val_main_v24 (F := Ideal) Y0 Y1 Y2 Y3 Y4 Y5 Y6 (ix2 i (8 : Fin 10))
  p9 : ∀ i : Fin 8192, Cert.ReferenceIdeal.Read.val_main_v44 (F := Ideal) Y0 Y1 Y2 Y3 Y4 Y5 Y6 (ix1 i) = Cert.ReferenceIdeal.Read.val_main_v24 (F := Ideal) Y0 Y1 Y2 Y3 Y4 Y5 Y6 (ix2 i (9 : Fin 10))
  n0 : ∀ i : Fin 8192, Cert.ReferenceIdeal.Read.val_main_v48 (F := Ideal) Y0 Y1 Y2 Y3 Y4 Y5 Y6 (ix1 i) = oneWord - Cert.ReferenceIdeal.Read.val_main_v24 (F := Ideal) Y0 Y1 Y2 Y3 Y4 Y5 Y6 (ix2 i (0 : Fin 10))
  n1 : ∀ i : Fin 8192, Cert.ReferenceIdeal.Read.val_main_v52 (F := Ideal) Y0 Y1 Y2 Y3 Y4 Y5 Y6 (ix1 i) = oneWord - Cert.ReferenceIdeal.Read.val_main_v24 (F := Ideal) Y0 Y1 Y2 Y3 Y4 Y5 Y6 (ix2 i (1 : Fin 10))
  n2 : ∀ i : Fin 8192, Cert.ReferenceIdeal.Read.val_main_v56 (F := Ideal) Y0 Y1 Y2 Y3 Y4 Y5 Y6 (ix1 i) = oneWord - Cert.ReferenceIdeal.Read.val_main_v24 (F := Ideal) Y0 Y1 Y2 Y3 Y4 Y5 Y6 (ix2 i (2 : Fin 10))
  n3 : ∀ i : Fin 8192, Cert.ReferenceIdeal.Read.val_main_v60 (F := Ideal) Y0 Y1 Y2 Y3 Y4 Y5 Y6 (ix1 i) = oneWord - Cert.ReferenceIdeal.Read.val_main_v24 (F := Ideal) Y0 Y1 Y2 Y3 Y4 Y5 Y6 (ix2 i (3 : Fin 10))
  n4 : ∀ i : Fin 8192, Cert.ReferenceIdeal.Read.val_main_v64 (F := Ideal) Y0 Y1 Y2 Y3 Y4 Y5 Y6 (ix1 i) = oneWord - Cert.ReferenceIdeal.Read.val_main_v24 (F := Ideal) Y0 Y1 Y2 Y3 Y4 Y5 Y6 (ix2 i (4 : Fin 10))
  n5 : ∀ i : Fin 8192, Cert.ReferenceIdeal.Read.val_main_v68 (F := Ideal) Y0 Y1 Y2 Y3 Y4 Y5 Y6 (ix1 i) = oneWord - Cert.ReferenceIdeal.Read.val_main_v24 (F := Ideal) Y0 Y1 Y2 Y3 Y4 Y5 Y6 (ix2 i (5 : Fin 10))
  n6 : ∀ i : Fin 8192, Cert.ReferenceIdeal.Read.val_main_v72 (F := Ideal) Y0 Y1 Y2 Y3 Y4 Y5 Y6 (ix1 i) = oneWord - Cert.ReferenceIdeal.Read.val_main_v24 (F := Ideal) Y0 Y1 Y2 Y3 Y4 Y5 Y6 (ix2 i (6 : Fin 10))
  n7 : ∀ i : Fin 8192, Cert.ReferenceIdeal.Read.val_main_v76 (F := Ideal) Y0 Y1 Y2 Y3 Y4 Y5 Y6 (ix1 i) = oneWord - Cert.ReferenceIdeal.Read.val_main_v24 (F := Ideal) Y0 Y1 Y2 Y3 Y4 Y5 Y6 (ix2 i (7 : Fin 10))
  n8 : ∀ i : Fin 8192, Cert.ReferenceIdeal.Read.val_main_v80 (F := Ideal) Y0 Y1 Y2 Y3 Y4 Y5 Y6 (ix1 i) = oneWord - Cert.ReferenceIdeal.Read.val_main_v24 (F := Ideal) Y0 Y1 Y2 Y3 Y4 Y5 Y6 (ix2 i (8 : Fin 10))
  n9 : ∀ i : Fin 8192, Cert.ReferenceIdeal.Read.val_main_v84 (F := Ideal) Y0 Y1 Y2 Y3 Y4 Y5 Y6 (ix1 i) = oneWord - Cert.ReferenceIdeal.Read.val_main_v24 (F := Ideal) Y0 Y1 Y2 Y3 Y4 Y5 Y6 (ix2 i (9 : Fin 10))

theorem mulf_at {s : Shape} {φ : FTy} (a b : FVec Ideal s φ) (i : s.Idx) : mulf a b i = FloatOps.mulf (a i) (b i) := rfl
theorem addf_at {s : Shape} {φ : FTy} (a b : FVec Ideal s φ) (i : s.Idx) : addf a b i = FloatOps.addf (a i) (b i) := rfl

set_option maxHeartbeats 4000000 in
/-- The circuit, read at a row: once the twenty leaves of the kernel's block at row r are the reference's leaf stages
    at row I, the body's stored value at r is the reference's last stage at I — the two are one tree of products and
    sums (the payloads unfold to it on the left, the stages on the right). -/
theorem circuit_eq (x0 : FVec Ideal S256x4096 .bf16) (x1 : FVec Ideal S4096x10 .bf16) (x2 : FVec Ideal S10 .f32) (r : Fin 256) (I : Fin 8192)
    (Y0 : FVec Ideal S8192x784 .f32) (Y1 : FVec Ideal S784x4096 .f32) (Y2 : FVec Ideal S4096 .f32) (Y3 : FVec Ideal S4096x4096 .f32) (Y4 : FVec Ideal S4096 .f32) (Y5 : FVec Ideal S4096x10 .f32) (Y6 : FVec Ideal S10 .f32)
    (lp0 : k2_pay6 (F := Ideal) x0 x1 x2 (ix2 r (0 : Fin 1)) = Cert.ReferenceIdeal.Read.val_main_v26 (F := Ideal) Y0 Y1 Y2 Y3 Y4 Y5 Y6 (ix1 I))
    (lp1 : k2_pay7 (F := Ideal) x0 x1 x2 (ix2 r (0 : Fin 1)) = Cert.ReferenceIdeal.Read.val_main_v28 (F := Ideal) Y0 Y1 Y2 Y3 Y4 Y5 Y6 (ix1 I))
    (lp2 : k2_pay8 (F := Ideal) x0 x1 x2 (ix2 r (0 : Fin 1)) = Cert.ReferenceIdeal.Read.val_main_v30 (F := Ideal) Y0 Y1 Y2 Y3 Y4 Y5 Y6 (ix1 I))
    (lp3 : k2_pay9 (F := Ideal) x0 x1 x2 (ix2 r (0 : Fin 1)) = Cert.ReferenceIdeal.Read.val_main_v32 (F := Ideal) Y0 Y1 Y2 Y3 Y4 Y5 Y6 (ix1 I))
    (lp4 : k2_pay10 (F := Ideal) x0 x1 x2 (ix2 r (0 : Fin 1)) = Cert.ReferenceIdeal.Read.val_main_v34 (F := Ideal) Y0 Y1 Y2 Y3 Y4 Y5 Y6 (ix1 I))
    (lp5 : k2_pay11 (F := Ideal) x0 x1 x2 (ix2 r (0 : Fin 1)) = Cert.ReferenceIdeal.Read.val_main_v36 (F := Ideal) Y0 Y1 Y2 Y3 Y4 Y5 Y6 (ix1 I))
    (lp6 : k2_pay12 (F := Ideal) x0 x1 x2 (ix2 r (0 : Fin 1)) = Cert.ReferenceIdeal.Read.val_main_v38 (F := Ideal) Y0 Y1 Y2 Y3 Y4 Y5 Y6 (ix1 I))
    (lp7 : k2_pay13 (F := Ideal) x0 x1 x2 (ix2 r (0 : Fin 1)) = Cert.ReferenceIdeal.Read.val_main_v40 (F := Ideal) Y0 Y1 Y2 Y3 Y4 Y5 Y6 (ix1 I))
    (lp8 : k2_pay14 (F := Ideal) x0 x1 x2 (ix2 r (0 : Fin 1)) = Cert.ReferenceIdeal.Read.val_main_v42 (F := Ideal) Y0 Y1 Y2 Y3 Y4 Y5 Y6 (ix1 I))
    (lp9 : k2_pay15 (F := Ideal) x0 x1 x2 (ix2 r (0 : Fin 1)) = Cert.ReferenceIdeal.Read.val_main_v44 (F := Ideal) Y0 Y1 Y2 Y3 Y4 Y5 Y6 (ix1 I))
    (ln0 : k2_pay16 (F := Ideal) x0 x1 x2 (ix2 r (0 : Fin 1)) = Cert.ReferenceIdeal.Read.val_main_v48 (F := Ideal) Y0 Y1 Y2 Y3 Y4 Y5 Y6 (ix1 I))
    (ln1 : k2_pay17 (F := Ideal) x0 x1 x2 (ix2 r (0 : Fin 1)) = Cert.ReferenceIdeal.Read.val_main_v52 (F := Ideal) Y0 Y1 Y2 Y3 Y4 Y5 Y6 (ix1 I))
    (ln2 : k2_pay18 (F := Ideal) x0 x1 x2 (ix2 r (0 : Fin 1)) = Cert.ReferenceIdeal.Read.val_main_v56 (F := Ideal) Y0 Y1 Y2 Y3 Y4 Y5 Y6 (ix1 I))
    (ln3 : k2_pay19 (F := Ideal) x0 x1 x2 (ix2 r (0 : Fin 1)) = Cert.ReferenceIdeal.Read.val_main_v60 (F := Ideal) Y0 Y1 Y2 Y3 Y4 Y5 Y6 (ix1 I))
    (ln4 : k2_pay20 (F := Ideal) x0 x1 x2 (ix2 r (0 : Fin 1)) = Cert.ReferenceIdeal.Read.val_main_v64 (F := Ideal) Y0 Y1 Y2 Y3 Y4 Y5 Y6 (ix1 I))
    (ln5 : k2_pay21 (F := Ideal) (k2_pay5 (F := Ideal) x0 x1 x2) (ix2 r (0 : Fin 1)) = Cert.ReferenceIdeal.Read.val_main_v68 (F := Ideal) Y0 Y1 Y2 Y3 Y4 Y5 Y6 (ix1 I))
    (ln6 : k2_pay22 (F := Ideal) (k2_pay5 (F := Ideal) x0 x1 x2) (ix2 r (0 : Fin 1)) = Cert.ReferenceIdeal.Read.val_main_v72 (F := Ideal) Y0 Y1 Y2 Y3 Y4 Y5 Y6 (ix1 I))
    (ln7 : k2_pay23 (F := Ideal) (k2_pay5 (F := Ideal) x0 x1 x2) (ix2 r (0 : Fin 1)) = Cert.ReferenceIdeal.Read.val_main_v76 (F := Ideal) Y0 Y1 Y2 Y3 Y4 Y5 Y6 (ix1 I))
    (ln8 : k2_pay24 (F := Ideal) (k2_pay5 (F := Ideal) x0 x1 x2) (ix2 r (0 : Fin 1)) = Cert.ReferenceIdeal.Read.val_main_v80 (F := Ideal) Y0 Y1 Y2 Y3 Y4 Y5 Y6 (ix1 I))
    (ln9 : k2_pay25 (F := Ideal) (k2_pay5 (F := Ideal) x0 x1 x2) (ix2 r (0 : Fin 1)) = Cert.ReferenceIdeal.Read.val_main_v84 (F := Ideal) Y0 Y1 Y2 Y3 Y4 Y5 Y6 (ix1 I)) :
    out2_3 (F := Ideal) x0 x1 x2 (ix1 r) = Cert.ReferenceIdeal.Read.val_main_v1364 (F := Ideal) Y0 Y1 Y2 Y3 Y4 Y5 Y6 (ix1 I) := by
  unfold out2_3
  rw [View.canon_unit_zero hz1]
  simp only [View.ld_unit_zero (S := S256x4096) hz2, View.ld_unit_zero (S := S4096x10) hz2, View.ld_unit_zero (S := S10) hz1]
  simp only [k2_pay1, k2_pay2, k2_pay3, k2_pay4, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay64, k2_pay65, k2_pay66, k2_pay67, k2_pay68, k2_pay69, k2_pay70, shapeCast_a1_a_apply, mulf_at, addf_at,
    lp0, lp1, lp2, lp3, lp4, lp5, lp6, lp7, lp8, lp9, ln0, ln1, ln2, ln3, ln4, ln5, ln6, ln7, ln8, ln9]
  rfl

variable (V : (c : Dev nD) → (b : Ref sig .tc) → Buf (Elt Ideal) ((c : Thread nD τ).loc b))

/-- What point t of region 2 writes back is block t of the reference's last stage, when the region finds h2, W3, b3 in
    its arrays. -/
theorem flushed2_eq (c : Dev nD) (Y0 : FVec Ideal S8192x784 .f32) (Y1 : FVec Ideal S784x4096 .f32) (Y2 : FVec Ideal S4096 .f32) (Y3 : FVec Ideal S4096x4096 .f32) (Y4 : FVec Ideal S4096 .f32) (Y5 : FVec Ideal S4096x10 .f32) (Y6 : FVec Ideal S10 .f32) (hR : RefFacts Y0 Y1 Y2 Y3 Y4 Y5 Y6)
    (h0 : V c (Pipeline.arrRef spec2 0) = layer (M := 8192) (K := 4096) (N := 4096) (layer (M := 8192) (K := 784) (N := 4096) Y0 Y1 Y2) Y3 Y4)
    (h1 : V c (Pipeline.arrRef spec2 1) = Y5) (h2 : V c (Pipeline.arrRef spec2 2) = Y6) (t : Fin cfg2.N) :
    (dat2 V c).flushed 3 t = ((cfg2.win 3).blk t).view.read (Elt Ideal) (Cert.ReferenceIdeal.Read.val_main_v1364 (F := Ideal) Y0 Y1 Y2 Y3 Y4 Y5 Y6) := by
  show (cfg2.win 3).cut (grid2.coords t) ((dat2 V c).after 3 t) = _
  rw [after2_3]
  obtain ⟨e00, e01, e10, e11, e20, e30⟩ := idx2 t
  have hN : cfg2.N = 32 := N_2
  have ht : t.val < 32 := by have := t.isLt; omega
  refine funext fun (j : S256.Idx) => ?_
  obtain ⟨r, rfl⟩ : ∃ r : Fin 256, j = ix1 r := ⟨j 0, eq_ix1 j⟩
  have hI : 256 * t.val + r.val < 8192 := by have := r.isLt; omega
  have he : ((cfg2.win 3).blk t).view.emb (ix1 r) = ix1 (n := 8192) ⟨256 * t.val + r.val, hI⟩ := by
    funext a; apply Fin.ext
    match a with
    | ⟨0, _⟩ => show win2_3.index t (0 : Fin 1) * 256 + 1 * r.val = 256 * t.val + r.val; omega
  show out2_3 (F := Ideal) (iblk2 V c 0 t) (iblk2 V c 1 t) (iblk2 V c 2 t) (ix1 r)
    = Cert.ReferenceIdeal.Read.val_main_v1364 (F := Ideal) Y0 Y1 Y2 Y3 Y4 Y5 Y6 (((cfg2.win 3).blk t).view.emb (ix1 r))
  rw [he]
  -- the probability block at row r is the reference's probability stage at row 256·t + r
  have hp : ∀ v : Fin 10, k2_pay5 (F := Ideal) (iblk2 V c 0 t) (iblk2 V c 1 t) (iblk2 V c 2 t) (ix2 r v)
      = Cert.ReferenceIdeal.Read.val_main_v24 (F := Ideal) Y0 Y1 Y2 Y3 Y4 Y5 Y6 (ix2 ⟨256 * t.val + r.val, hI⟩ v) := fun v =>
    (probs_blk V c _ Y5 Y6 h0 h1 h2 t r hI v).trans (hR.probs ⟨256 * t.val + r.val, hI⟩ v).symm
  -- a column slice of the probability block at (r, 0) is the block at (r, v)
  have sl : ∀ (o : Nat) (h : S256x10.Slices ![0, o] S256x1) (v : Fin 10) (hv : v.val = o + (0 : Fin 1).val),
      extractStridedSlice S256x1 ![0, o] (k2_pay5 (F := Ideal) (iblk2 V c 0 t) (iblk2 V c 1 t) (iblk2 V c 2 t)) h (ix2 r (0 : Fin 1))
        = Cert.ReferenceIdeal.Read.val_main_v24 (F := Ideal) Y0 Y1 Y2 Y3 Y4 Y5 Y6 (ix2 ⟨256 * t.val + r.val, hI⟩ v) := fun o h v hv =>
    (slice2_axis1_apply o _ h r (0 : Fin 1) v hv).trans (hp v)
  have ng : ∀ (o : Nat) (h : S256x10.Slices ![0, o] S256x1) (v : Fin 10) (hv : v.val = o + (0 : Fin 1).val),
      oneWord - extractStridedSlice S256x1 ![0, o] (k2_pay5 (F := Ideal) (iblk2 V c 0 t) (iblk2 V c 1 t) (iblk2 V c 2 t)) h (ix2 r (0 : Fin 1))
        = oneWord - Cert.ReferenceIdeal.Read.val_main_v24 (F := Ideal) Y0 Y1 Y2 Y3 Y4 Y5 Y6 (ix2 ⟨256 * t.val + r.val, hI⟩ v) := fun o h v hv =>
    congrArg (fun z => oneWord - z) (sl o h v hv)
  exact circuit_eq (iblk2 V c 0 t) (iblk2 V c 1 t) (iblk2 V c 2 t) r ⟨256 * t.val + r.val, hI⟩ Y0 Y1 Y2 Y3 Y4 Y5 Y6
    ((sl 0 slices_S256x10_o0_0_S256x1 0 rfl).trans (hR.p0 _).symm)
    ((sl 1 slices_S256x10_o0_1_S256x1 1 rfl).trans (hR.p1 _).symm)
    ((sl 2 slices_S256x10_o0_2_S256x1 2 rfl).trans (hR.p2 _).symm)
    ((sl 3 slices_S256x10_o0_3_S256x1 3 rfl).trans (hR.p3 _).symm)
    ((sl 4 slices_S256x10_o0_4_S256x1 4 rfl).trans (hR.p4 _).symm)
    ((sl 5 slices_S256x10_o0_5_S256x1 5 rfl).trans (hR.p5 _).symm)
    ((sl 6 slices_S256x10_o0_6_S256x1 6 rfl).trans (hR.p6 _).symm)
    ((sl 7 slices_S256x10_o0_7_S256x1 7 rfl).trans (hR.p7 _).symm)
    ((sl 8 slices_S256x10_o0_8_S256x1 8 rfl).trans (hR.p8 _).symm)
    ((sl 9 slices_S256x10_o0_9_S256x1 9 rfl).trans (hR.p9 _).symm)
    ((ng 0 slices_S256x10_o0_0_S256x1 0 rfl).trans (hR.n0 _).symm)
    ((ng 1 slices_S256x10_o0_1_S256x1 1 rfl).trans (hR.n1 _).symm)
    ((ng 2 slices_S256x10_o0_2_S256x1 2 rfl).trans (hR.n2 _).symm)
    ((ng 3 slices_S256x10_o0_3_S256x1 3 rfl).trans (hR.n3 _).symm)
    ((ng 4 slices_S256x10_o0_4_S256x1 4 rfl).trans (hR.n4 _).symm)
    ((ng 5 slices_S256x10_o0_5_S256x1 5 rfl).trans (hR.n5 _).symm)
    ((ng 6 slices_S256x10_o0_6_S256x1 6 rfl).trans (hR.n6 _).symm)
    ((ng 7 slices_S256x10_o0_7_S256x1 7 rfl).trans (hR.n7 _).symm)
    ((ng 8 slices_S256x10_o0_8_S256x1 8 rfl).trans (hR.n8 _).symm)
    ((ng 9 slices_S256x10_o0_9_S256x1 9 rfl).trans (hR.n9 _).symm)

/-- The result vector after region 2 is the reference's last stage. -/
theorem final2 (c : Dev nD) (Y0 : FVec Ideal S8192x784 .f32) (Y1 : FVec Ideal S784x4096 .f32) (Y2 : FVec Ideal S4096 .f32) (Y3 : FVec Ideal S4096x4096 .f32) (Y4 : FVec Ideal S4096 .f32) (Y5 : FVec Ideal S4096x10 .f32) (Y6 : FVec Ideal S10 .f32) (hR : RefFacts Y0 Y1 Y2 Y3 Y4 Y5 Y6)
    (h0 : V c (Pipeline.arrRef spec2 0) = layer (M := 8192) (K := 4096) (N := 4096) (layer (M := 8192) (K := 784) (N := 4096) Y0 Y1 Y2) Y3 Y4)
    (h1 : V c (Pipeline.arrRef spec2 1) = Y5) (h2 : V c (Pipeline.arrRef spec2 2) = Y6) :
    (dat2 V c).arrAt 3 cfg2.N = Cert.ReferenceIdeal.Read.val_main_v1364 (F := Ideal) Y0 Y1 Y2 Y3 Y4 Y5 Y6 :=
  (dat2 V c).arrAt_eq_of_cover 3 (Cert.ReferenceIdeal.Read.val_main_v1364 (F := Ideal) Y0 Y1 Y2 Y3 Y4 Y5 Y6)
    (fun t _ => flushed2_eq V c Y0 Y1 Y2 Y3 Y4 Y5 Y6 hR h0 h1 h2 t) cover2

variable (m : (ℓ : Loc nD τ sig) → Buf (Elt Ideal) ℓ) (ρ : Dev nD → PrngReg)

/-- The last boundary's contents at the result buffer: the reference's last stage of the launched arguments. -/
theorem result_eq (c : Dev nD) (hR : RefFacts (X0 m c) (X1 m c) (X2 m c) (X3 m c) (X4 m c) (X5 m c) (X6 m c)) :
    W4 m ρ c (Proc.devRef .tc main_v6)
      = Cert.ReferenceIdeal.Read.val_main_v1364 (F := Ideal) (X0 m c) (X1 m c) (X2 m c) (X3 m c) (X4 m c) (X5 m c) (X6 m c) :=
  (W4_arr m ρ c 3).trans (final2 (V3 m ρ) c (X0 m c) (X1 m c) (X2 m c) (X3 m c) (X4 m c) (X5 m c) (X6 m c) hR
    (W3_v5 m ρ c) (W3_v3 m ρ c) (W3_arg6 m ρ c))

/-- The idealized kernel's run, read: the result is the reference's last stage of the launched arguments, and the
    arguments end as launched. -/
theorem run (hR : ∀ c : Dev nD, RefFacts (X0 m c) (X1 m c) (X2 m c) (X3 m c) (X4 m c) (X5 m c) (X6 m c)) :
    θ_run defs (onTc (τ := τ) (main (F := Ideal))) ⟨m, fun _ => 0, ρ⟩ (fun r => ∀ c : Dev nD,
      r.2.mem ((c.tc : Thread nD τ).loc main_v6)
        = Cert.ReferenceIdeal.Read.val_main_v1364 (F := Ideal) (X0 m c) (X1 m c) (X2 m c) (X3 m c) (X4 m c) (X5 m c) (X6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c (hR c)), (h c).2⟩) (Cert.KernelIdeal.Result.run m ρ)

end Cert.KernelIdeal.Value

end
-- ==== Proof.RefValue.lean ====
/-
  The reference program's stages read as mathematics, at the exact instance (floats as extended reals):
  the two hidden layers are dense layers with the rectifier; the probabilities are the row softmax of the third
  affine map's rows; the twenty leaves of the circuit are the ten probabilities of a row and their complements to one.
-/
import proofs.«112867_j20074677141979_2_alg».proof.Proof.RefRead
import proofs.«112867_j20074677141979_2_alg».proof.Proof.LibDense

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibDense

variable (X0 : (⟨S8192x784, .f32⟩ : BufTy).Contents (Elt Ideal)) (X1 : (⟨S784x4096, .f32⟩ : BufTy).Contents (Elt Ideal))
  (X2 : (⟨S4096, .f32⟩ : BufTy).Contents (Elt Ideal)) (X3 : (⟨S4096x4096, .f32⟩ : BufTy).Contents (Elt Ideal))
  (X4 : (⟨S4096, .f32⟩ : BufTy).Contents (Elt Ideal)) (X5 : (⟨S4096x10, .f32⟩ : BufTy).Contents (Elt Ideal))
  (X6 : (⟨S10, .f32⟩ : BufTy).Contents (Elt Ideal))

/-! ## The two hidden layers -/

/-- The first hidden layer at (p, q): the larger of the affine map's entry and the zero word's value. -/
theorem v4_apply (p : Fin 8192) (q : Fin 4096) :
    Read.val_main_v4 (F := Ideal) X0 X1 X2 (ix2 p q)
      = max (∑ k : Fin 784, X0 (ix2 p k) * X1 (ix2 k q) + X2 (ix1 q)) zeroWord := by
  rw [Read.val_main_v4_apply, Read.val_main_v3_apply, Read.val_main_v0_apply, Read.val_main_v2_apply, Read.val_main_v1_apply,
    Read.val_main_call0_v0_apply, Read.val_main_call0_cst_apply]
  have e1 : Read.idx_main_v1 (Read.idx_main_v2 (ix2 p q)) = ix1 q :=
    funext fun a => Fin.ext (by match a with | ⟨0, _⟩ => rfl)
  have el : ∀ k : Fin 784, Read.lidx_main_v0 (ix2 p q) k = ix2 p k :=
    fun k => funext fun a => Fin.ext (by match a with | ⟨0, _⟩ => rfl | ⟨1, _⟩ => rfl)
  have er : ∀ k : Fin 784, Read.ridx_main_v0 (ix2 p q) k = ix2 k q :=
    fun k => funext fun a => Fin.ext (by match a with | ⟨0, _⟩ => rfl | ⟨1, _⟩ => rfl)
  rw [e1]
  simp only [el, er]
  rfl

theorem h1_eq :
    Read.val_main_v4 (F := Ideal) X0 X1 X2 = Cert.LibDense.layer (M := 8192) (K := 784) (N := 4096) X0 X1 X2 := by
  funext i
  rw [eq_ix2 i]
  exact v4_apply X0 X1 X2 (i 0) (i 1)

/-- The second hidden layer at (p, q), over the first layer's values. -/
theorem v9_apply (p : Fin 8192) (q : Fin 4096) :
    Read.val_main_v9 (F := Ideal) X0 X1 X2 X3 X4 (ix2 p q)
      = max (∑ k : Fin 4096, Read.val_main_v4 (F := Ideal) X0 X1 X2 (ix2 p k) * X3 (ix2 k q) + X4 (ix1 q)) zeroWord := by
  rw [Read.val_main_v9_apply, Read.val_main_v8_apply, Read.val_main_v5_apply, Read.val_main_v7_apply, Read.val_main_v6_apply,
    Read.val_main_call1_v0_apply, Read.val_main_call1_cst_apply]
  have e1 : Read.idx_main_v6 (Read.idx_main_v7 (ix2 p q)) = ix1 q :=
    funext fun a => Fin.ext (by match a with | ⟨0, _⟩ => rfl)
  have el : ∀ k : Fin 4096, Read.lidx_main_v5 (ix2 p q) k = ix2 p k :=
    fun k => funext fun a => Fin.ext (by match a with | ⟨0, _⟩ => rfl | ⟨1, _⟩ => rfl)
  have er : ∀ k : Fin 4096, Read.ridx_main_v5 (ix2 p q) k = ix2 k q :=
    fun k => funext fun a => Fin.ext (by match a with | ⟨0, _⟩ => rfl | ⟨1, _⟩ => rfl)
  rw [e1]
  simp only [el, er]
  rfl

theorem h2_eq :
    Read.val_main_v9 (F := Ideal) X0 X1 X2 X3 X4
      = Cert.LibDense.layer (M := 8192) (K := 4096) (N := 4096) (Read.val_main_v4 (F := Ideal) X0 X1 X2) X3 X4 := by
  funext i
  rw [eq_ix2 i]
  exact v9_apply X0 X1 X2 X3 X4 (i 0) (i 1)

/-! ## The logits and the row softmax -/

/-- The logits at (i, u): the third affine map's entry over the second layer's values. -/
theorem v13_apply (i : Fin 8192) (u : Fin 10) :
    Read.val_main_v13 (F := Ideal) X0 X1 X2 X3 X4 X5 X6 (ix2 i u)
      = affine (M := 8192) (K := 4096) (N := 10) (Read.val_main_v9 (F := Ideal) X0 X1 X2 X3 X4) X5 X6 (ix2 i u) := by
  rw [Read.val_main_v13_apply, Read.val_main_v10_apply, Read.val_main_v12_apply, Read.val_main_v11_apply, affine_apply]
  have e1 : Read.idx_main_v11 (Read.idx_main_v12 (ix2 i u)) = ix1 u :=
    funext fun a => Fin.ext (by match a with | ⟨0, _⟩ => rfl)
  have el : ∀ k : Fin 4096, Read.lidx_main_v10 (ix2 i u) k = ix2 i k :=
    fun k => funext fun a => Fin.ext (by match a with | ⟨0, _⟩ => rfl | ⟨1, _⟩ => rfl)
  have er : ∀ k : Fin 4096, Read.ridx_main_v10 (ix2 i u) k = ix2 k u :=
    fun k => funext fun a => Fin.ext (by match a with | ⟨0, _⟩ => rfl | ⟨1, _⟩ => rfl)
  rw [e1]
  simp only [el, er]
  rfl

/-- The row's largest logit as the program takes it. -/
theorem v16_apply (i : Fin 8192) :
    Read.val_main_v16 (F := Ideal) X0 X1 X2 X3 X4 X5 X6 (ix1 i)
      = rowTop fun u : Fin 10 => Read.val_main_v13 (F := Ideal) X0 X1 X2 X3 X4 X5 X6 (ix2 i u) := by
  rw [Read.val_main_v16_apply, Read.val_main_v15_apply, Read.val_main_cst_0_apply]
  have h14 : Read.val_main_v14 (F := Ideal) X0 X1 X2 X3 X4 X5 X6 (ix1 i)
      = (Finset.univ : Finset (Fin 10)).fold max (Read.val_main_cst (F := Ideal) (Shape.Idx.first h_S_))
          (fun k => Read.val_main_v13 (F := Ideal) X0 X1 X2 X3 X4 X5 X6 (ix2 i k)) :=
    hostRowMax_apply (M := 8192) (N := 10) _ _ reducesTo_S8192x10_S8192_d1 (by decide) h_S_ i
  rw [h14, Read.val_main_cst_apply]
  rfl

/-- The exponentials at (i, u): of the logit less the row's largest. -/
theorem v20_apply (i : Fin 8192) (u : Fin 10) :
    Read.val_main_v20 (F := Ideal) X0 X1 X2 X3 X4 X5 X6 (ix2 i u)
      = Ideal.exp (Read.val_main_v13 (F := Ideal) X0 X1 X2 X3 X4 X5 X6 (ix2 i u)
          - Read.val_main_v16 (F := Ideal) X0 X1 X2 X3 X4 X5 X6 (ix1 i)) := by
  rw [Read.val_main_v20_apply, Read.val_main_v19_apply, Read.val_main_v18_apply, Read.val_main_v17_apply]
  have e1 : Read.idx_main_v17 (Read.idx_main_v18 (ix2 i u)) = ix1 i :=
    funext fun a => Fin.ext (by match a with | ⟨0, _⟩ => rfl)
  rw [e1]
  rfl

/-- The denominators at (i, v): the sum of the row's exponentials. -/
theorem v23_apply (i : Fin 8192) (v : Fin 10) :
    Read.val_main_v23 (F := Ideal) X0 X1 X2 X3 X4 X5 X6 (ix2 i v)
      = ∑ u : Fin 10, Read.val_main_v20 (F := Ideal) X0 X1 X2 X3 X4 X5 X6 (ix2 i u) := by
  rw [Read.val_main_v23_apply, Read.val_main_v22_apply]
  have e1 : Read.idx_main_v22 (Read.idx_main_v23 (ix2 i v)) = ix1 i :=
    funext fun a => Fin.ext (by match a with | ⟨0, _⟩ => rfl)
  rw [e1, Read.val_main_v21_apply, Read.val_main_cst_1_apply]
  have e2 : ∀ k : Fin 10, Read.idx_main_v21 (ix1 i) k = ix2 i k :=
    fun k => funext fun a => Fin.ext (by match a with | ⟨0, _⟩ => rfl | ⟨1, _⟩ => rfl)
  simp only [e2]
  rw [Ideal.ofBits_def, Ideal.ofBits_zero_f32, zero_add]

/-- The probabilities at (i, v): the row softmax of the logits. -/
theorem probs_eq (i : Fin 8192) (v : Fin 10) :
    Read.val_main_v24 (F := Ideal) X0 X1 X2 X3 X4 X5 X6 (ix2 i v)
      = softmaxRow (fun u => affine (M := 8192) (K := 4096) (N := 10) (Read.val_main_v9 (F := Ideal) X0 X1 X2 X3 X4) X5 X6 (ix2 i u)) v := by
  rw [Read.val_main_v24_apply, v23_apply, v20_apply]
  simp only [v20_apply, v16_apply, v13_apply]
  rfl

/-! ## The circuit's leaves: the ten probabilities of a row and their complements to one -/

theorem leafP_0 (i : Fin 8192) :
    Read.val_main_v26 (F := Ideal) X0 X1 X2 X3 X4 X5 X6 (ix1 i) = Read.val_main_v24 (F := Ideal) X0 X1 X2 X3 X4 X5 X6 (ix2 i (0 : Fin 10)) := by
  rw [Read.val_main_v26_apply, Read.val_main_v25_apply]
  exact congrArg _ (funext fun a => Fin.ext (by
    match a with
    | ⟨0, _⟩ => exact Nat.div_one _
    | ⟨1, _⟩ => rfl))

theorem leafP_1 (i : Fin 8192) :
    Read.val_main_v28 (F := Ideal) X0 X1 X2 X3 X4 X5 X6 (ix1 i) = Read.val_main_v24 (F := Ideal) X0 X1 X2 X3 X4 X5 X6 (ix2 i (1 : Fin 10)) := by
  rw [Read.val_main_v28_apply, Read.val_main_v27_apply]
  exact congrArg _ (funext fun a => Fin.ext (by
    match a with
    | ⟨0, _⟩ => exact Nat.div_one _
    | ⟨1, _⟩ => rfl))

theorem leafP_2 (i : Fin 8192) :
    Read.val_main_v30 (F := Ideal) X0 X1 X2 X3 X4 X5 X6 (ix1 i) = Read.val_main_v24 (F := Ideal) X0 X1 X2 X3 X4 X5 X6 (ix2 i (2 : Fin 10)) := by
  rw [Read.val_main_v30_apply, Read.val_main_v29_apply]
  exact congrArg _ (funext fun a => Fin.ext (by
    match a with
    | ⟨0, _⟩ => exact Nat.div_one _
    | ⟨1, _⟩ => rfl))

theorem leafP_3 (i : Fin 8192) :
    Read.val_main_v32 (F := Ideal) X0 X1 X2 X3 X4 X5 X6 (ix1 i) = Read.val_main_v24 (F := Ideal) X0 X1 X2 X3 X4 X5 X6 (ix2 i (3 : Fin 10)) := by
  rw [Read.val_main_v32_apply, Read.val_main_v31_apply]
  exact congrArg _ (funext fun a => Fin.ext (by
    match a with
    | ⟨0, _⟩ => exact Nat.div_one _
    | ⟨1, _⟩ => rfl))

theorem leafP_4 (i : Fin 8192) :
    Read.val_main_v34 (F := Ideal) X0 X1 X2 X3 X4 X5 X6 (ix1 i) = Read.val_main_v24 (F := Ideal) X0 X1 X2 X3 X4 X5 X6 (ix2 i (4 : Fin 10)) := by
  rw [Read.val_main_v34_apply, Read.val_main_v33_apply]
  exact congrArg _ (funext fun a => Fin.ext (by
    match a with
    | ⟨0, _⟩ => exact Nat.div_one _
    | ⟨1, _⟩ => rfl))

theorem leafP_5 (i : Fin 8192) :
    Read.val_main_v36 (F := Ideal) X0 X1 X2 X3 X4 X5 X6 (ix1 i) = Read.val_main_v24 (F := Ideal) X0 X1 X2 X3 X4 X5 X6 (ix2 i (5 : Fin 10)) := by
  rw [Read.val_main_v36_apply, Read.val_main_v35_apply]
  exact congrArg _ (funext fun a => Fin.ext (by
    match a with
    | ⟨0, _⟩ => exact Nat.div_one _
    | ⟨1, _⟩ => rfl))

theorem leafP_6 (i : Fin 8192) :
    Read.val_main_v38 (F := Ideal) X0 X1 X2 X3 X4 X5 X6 (ix1 i) = Read.val_main_v24 (F := Ideal) X0 X1 X2 X3 X4 X5 X6 (ix2 i (6 : Fin 10)) := by
  rw [Read.val_main_v38_apply, Read.val_main_v37_apply]
  exact congrArg _ (funext fun a => Fin.ext (by
    match a with
    | ⟨0, _⟩ => exact Nat.div_one _
    | ⟨1, _⟩ => rfl))

theorem leafP_7 (i : Fin 8192) :
    Read.val_main_v40 (F := Ideal) X0 X1 X2 X3 X4 X5 X6 (ix1 i) = Read.val_main_v24 (F := Ideal) X0 X1 X2 X3 X4 X5 X6 (ix2 i (7 : Fin 10)) := by
  rw [Read.val_main_v40_apply, Read.val_main_v39_apply]
  exact congrArg _ (funext fun a => Fin.ext (by
    match a with
    | ⟨0, _⟩ => exact Nat.div_one _
    | ⟨1, _⟩ => rfl))

theorem leafP_8 (i : Fin 8192) :
    Read.val_main_v42 (F := Ideal) X0 X1 X2 X3 X4 X5 X6 (ix1 i) = Read.val_main_v24 (F := Ideal) X0 X1 X2 X3 X4 X5 X6 (ix2 i (8 : Fin 10)) := by
  rw [Read.val_main_v42_apply, Read.val_main_v41_apply]
  exact congrArg _ (funext fun a => Fin.ext (by
    match a with
    | ⟨0, _⟩ => exact Nat.div_one _
    | ⟨1, _⟩ => rfl))

theorem leafP_9 (i : Fin 8192) :
    Read.val_main_v44 (F := Ideal) X0 X1 X2 X3 X4 X5 X6 (ix1 i) = Read.val_main_v24 (F := Ideal) X0 X1 X2 X3 X4 X5 X6 (ix2 i (9 : Fin 10)) := by
  rw [Read.val_main_v44_apply, Read.val_main_v43_apply]
  exact congrArg _ (funext fun a => Fin.ext (by
    match a with
    | ⟨0, _⟩ => exact Nat.div_one _
    | ⟨1, _⟩ => rfl))

theorem leafQ_0 (i : Fin 8192) :
    Read.val_main_v48 (F := Ideal) X0 X1 X2 X3 X4 X5 X6 (ix1 i)
      = Ideal.ofBits .f32 0x3F800000#32 - Read.val_main_v24 (F := Ideal) X0 X1 X2 X3 X4 X5 X6 (ix2 i (0 : Fin 10)) := by
  rw [Read.val_main_v48_apply, Read.val_main_v47_apply, Read.val_main_cst_2_apply, Read.val_main_v46_apply, Read.val_main_v45_apply]
  refine congrArg (Ideal.ofBits .f32 0x3F800000#32 - ·) (congrArg _ (funext fun a => Fin.ext (by
    match a with
    | ⟨0, _⟩ => exact Nat.div_one _
    | ⟨1, _⟩ => rfl)))

theorem leafQ_1 (i : Fin 8192) :
    Read.val_main_v52 (F := Ideal) X0 X1 X2 X3 X4 X5 X6 (ix1 i)
      = Ideal.ofBits .f32 0x3F800000#32 - Read.val_main_v24 (F := Ideal) X0 X1 X2 X3 X4 X5 X6 (ix2 i (1 : Fin 10)) := by
  rw [Read.val_main_v52_apply, Read.val_main_v51_apply, Read.val_main_cst_3_apply, Read.val_main_v50_apply, Read.val_main_v49_apply]
  refine congrArg (Ideal.ofBits .f32 0x3F800000#32 - ·) (congrArg _ (funext fun a => Fin.ext (by
    match a with
    | ⟨0, _⟩ => exact Nat.div_one _
    | ⟨1, _⟩ => rfl)))

theorem leafQ_2 (i : Fin 8192) :
    Read.val_main_v56 (F := Ideal) X0 X1 X2 X3 X4 X5 X6 (ix1 i)
      = Ideal.ofBits .f32 0x3F800000#32 - Read.val_main_v24 (F := Ideal) X0 X1 X2 X3 X4 X5 X6 (ix2 i (2 : Fin 10)) := by
  rw [Read.val_main_v56_apply, Read.val_main_v55_apply, Read.val_main_cst_4_apply, Read.val_main_v54_apply, Read.val_main_v53_apply]
  refine congrArg (Ideal.ofBits .f32 0x3F800000#32 - ·) (congrArg _ (funext fun a => Fin.ext (by
    match a with
    | ⟨0, _⟩ => exact Nat.div_one _
    | ⟨1, _⟩ => rfl)))

theorem leafQ_3 (i : Fin 8192) :
    Read.val_main_v60 (F := Ideal) X0 X1 X2 X3 X4 X5 X6 (ix1 i)
      = Ideal.ofBits .f32 0x3F800000#32 - Read.val_main_v24 (F := Ideal) X0 X1 X2 X3 X4 X5 X6 (ix2 i (3 : Fin 10)) := by
  rw [Read.val_main_v60_apply, Read.val_main_v59_apply, Read.val_main_cst_5_apply, Read.val_main_v58_apply, Read.val_main_v57_apply]
  refine congrArg (Ideal.ofBits .f32 0x3F800000#32 - ·) (congrArg _ (funext fun a => Fin.ext (by
    match a with
    | ⟨0, _⟩ => exact Nat.div_one _
    | ⟨1, _⟩ => rfl)))

theorem leafQ_4 (i : Fin 8192) :
    Read.val_main_v64 (F := Ideal) X0 X1 X2 X3 X4 X5 X6 (ix1 i)
      = Ideal.ofBits .f32 0x3F800000#32 - Read.val_main_v24 (F := Ideal) X0 X1 X2 X3 X4 X5 X6 (ix2 i (4 : Fin 10)) := by
  rw [Read.val_main_v64_apply, Read.val_main_v63_apply, Read.val_main_cst_6_apply, Read.val_main_v62_apply, Read.val_main_v61_apply]
  refine congrArg (Ideal.ofBits .f32 0x3F800000#32 - ·) (congrArg _ (funext fun a => Fin.ext (by
    match a with
    | ⟨0, _⟩ => exact Nat.div_one _
    | ⟨1, _⟩ => rfl)))

theorem leafQ_5 (i : Fin 8192) :
    Read.val_main_v68 (F := Ideal) X0 X1 X2 X3 X4 X5 X6 (ix1 i)
      = Ideal.ofBits .f32 0x3F800000#32 - Read.val_main_v24 (F := Ideal) X0 X1 X2 X3 X4 X5 X6 (ix2 i (5 : Fin 10)) := by
  rw [Read.val_main_v68_apply, Read.val_main_v67_apply, Read.val_main_cst_7_apply, Read.val_main_v66_apply, Read.val_main_v65_apply]
  refine congrArg (Ideal.ofBits .f32 0x3F800000#32 - ·) (congrArg _ (funext fun a => Fin.ext (by
    match a with
    | ⟨0, _⟩ => exact Nat.div_one _
    | ⟨1, _⟩ => rfl)))

theorem leafQ_6 (i : Fin 8192) :
    Read.val_main_v72 (F := Ideal) X0 X1 X2 X3 X4 X5 X6 (ix1 i)
      = Ideal.ofBits .f32 0x3F800000#32 - Read.val_main_v24 (F := Ideal) X0 X1 X2 X3 X4 X5 X6 (ix2 i (6 : Fin 10)) := by
  rw [Read.val_main_v72_apply, Read.val_main_v71_apply, Read.val_main_cst_8_apply, Read.val_main_v70_apply, Read.val_main_v69_apply]
  refine congrArg (Ideal.ofBits .f32 0x3F800000#32 - ·) (congrArg _ (funext fun a => Fin.ext (by
    match a with
    | ⟨0, _⟩ => exact Nat.div_one _
    | ⟨1, _⟩ => rfl)))

theorem leafQ_7 (i : Fin 8192) :
    Read.val_main_v76 (F := Ideal) X0 X1 X2 X3 X4 X5 X6 (ix1 i)
      = Ideal.ofBits .f32 0x3F800000#32 - Read.val_main_v24 (F := Ideal) X0 X1 X2 X3 X4 X5 X6 (ix2 i (7 : Fin 10)) := by
  rw [Read.val_main_v76_apply, Read.val_main_v75_apply, Read.val_main_cst_9_apply, Read.val_main_v74_apply, Read.val_main_v73_apply]
  refine congrArg (Ideal.ofBits .f32 0x3F800000#32 - ·) (congrArg _ (funext fun a => Fin.ext (by
    match a with
    | ⟨0, _⟩ => exact Nat.div_one _
    | ⟨1, _⟩ => rfl)))

theorem leafQ_8 (i : Fin 8192) :
    Read.val_main_v80 (F := Ideal) X0 X1 X2 X3 X4 X5 X6 (ix1 i)
      = Ideal.ofBits .f32 0x3F800000#32 - Read.val_main_v24 (F := Ideal) X0 X1 X2 X3 X4 X5 X6 (ix2 i (8 : Fin 10)) := by
  rw [Read.val_main_v80_apply, Read.val_main_v79_apply, Read.val_main_cst_10_apply, Read.val_main_v78_apply, Read.val_main_v77_apply]
  refine congrArg (Ideal.ofBits .f32 0x3F800000#32 - ·) (congrArg _ (funext fun a => Fin.ext (by
    match a with
    | ⟨0, _⟩ => exact Nat.div_one _
    | ⟨1, _⟩ => rfl)))

theorem leafQ_9 (i : Fin 8192) :
    Read.val_main_v84 (F := Ideal) X0 X1 X2 X3 X4 X5 X6 (ix1 i)
      = Ideal.ofBits .f32 0x3F800000#32 - Read.val_main_v24 (F := Ideal) X0 X1 X2 X3 X4 X5 X6 (ix2 i (9 : Fin 10)) := by
  rw [Read.val_main_v84_apply, Read.val_main_v83_apply, Read.val_main_cst_11_apply, Read.val_main_v82_apply, Read.val_main_v81_apply]
  refine congrArg (Ideal.ofBits .f32 0x3F800000#32 - ·) (congrArg _ (funext fun a => Fin.ext (by
    match a with
    | ⟨0, _⟩ => exact Nat.div_one _
    | ⟨1, _⟩ => rfl)))

end Cert.ReferenceIdeal.RefValue

end
-- ==== Proof.Bridge.lean ====
/-
  The reference's stages, read as mathematics, are exactly what the kernel side uses of them: the probability stage is
  the softmax of the rows of (the second dense layer of the first dense layer of x) · W3 + b3, and the circuit's
  twenty leaves are the row's probabilities and their complements.
-/
import proofs.«112867_j20074677141979_2_alg».proof.Proof.KernelValue
import proofs.«112867_j20074677141979_2_alg».proof.Proof.RefValue

noncomputable section

namespace Cert.Proof.Bridge

open Idealize.ShloMosaic Idealize.ShloMosaic.ValueIdx Cert.LibDense

theorem refFacts (Y0 : FVec Ideal Cert.KernelIdeal.S8192x784 .f32) (Y1 : FVec Ideal Cert.KernelIdeal.S784x4096 .f32)
    (Y2 : FVec Ideal Cert.KernelIdeal.S4096 .f32) (Y3 : FVec Ideal Cert.KernelIdeal.S4096x4096 .f32)
    (Y4 : FVec Ideal Cert.KernelIdeal.S4096 .f32) (Y5 : FVec Ideal Cert.KernelIdeal.S4096x10 .f32)
    (Y6 : FVec Ideal Cert.KernelIdeal.S10 .f32) : Cert.KernelIdeal.Value.RefFacts Y0 Y1 Y2 Y3 Y4 Y5 Y6 where
  probs := fun i v => by
    rw [Cert.ReferenceIdeal.RefValue.probs_eq Y0 Y1 Y2 Y3 Y4 Y5 Y6 i v, Cert.ReferenceIdeal.RefValue.h2_eq Y0 Y1 Y2 Y3 Y4, Cert.ReferenceIdeal.RefValue.h1_eq Y0 Y1 Y2]
  p0 := Cert.ReferenceIdeal.RefValue.leafP_0 Y0 Y1 Y2 Y3 Y4 Y5 Y6
  p1 := Cert.ReferenceIdeal.RefValue.leafP_1 Y0 Y1 Y2 Y3 Y4 Y5 Y6
  p2 := Cert.ReferenceIdeal.RefValue.leafP_2 Y0 Y1 Y2 Y3 Y4 Y5 Y6
  p3 := Cert.ReferenceIdeal.RefValue.leafP_3 Y0 Y1 Y2 Y3 Y4 Y5 Y6
  p4 := Cert.ReferenceIdeal.RefValue.leafP_4 Y0 Y1 Y2 Y3 Y4 Y5 Y6
  p5 := Cert.ReferenceIdeal.RefValue.leafP_5 Y0 Y1 Y2 Y3 Y4 Y5 Y6
  p6 := Cert.ReferenceIdeal.RefValue.leafP_6 Y0 Y1 Y2 Y3 Y4 Y5 Y6
  p7 := Cert.ReferenceIdeal.RefValue.leafP_7 Y0 Y1 Y2 Y3 Y4 Y5 Y6
  p8 := Cert.ReferenceIdeal.RefValue.leafP_8 Y0 Y1 Y2 Y3 Y4 Y5 Y6
  p9 := Cert.ReferenceIdeal.RefValue.leafP_9 Y0 Y1 Y2 Y3 Y4 Y5 Y6
  n0 := Cert.ReferenceIdeal.RefValue.leafQ_0 Y0 Y1 Y2 Y3 Y4 Y5 Y6
  n1 := Cert.ReferenceIdeal.RefValue.leafQ_1 Y0 Y1 Y2 Y3 Y4 Y5 Y6
  n2 := Cert.ReferenceIdeal.RefValue.leafQ_2 Y0 Y1 Y2 Y3 Y4 Y5 Y6
  n3 := Cert.ReferenceIdeal.RefValue.leafQ_3 Y0 Y1 Y2 Y3 Y4 Y5 Y6
  n4 := Cert.ReferenceIdeal.RefValue.leafQ_4 Y0 Y1 Y2 Y3 Y4 Y5 Y6
  n5 := Cert.ReferenceIdeal.RefValue.leafQ_5 Y0 Y1 Y2 Y3 Y4 Y5 Y6
  n6 := Cert.ReferenceIdeal.RefValue.leafQ_6 Y0 Y1 Y2 Y3 Y4 Y5 Y6
  n7 := Cert.ReferenceIdeal.RefValue.leafQ_7 Y0 Y1 Y2 Y3 Y4 Y5 Y6
  n8 := Cert.ReferenceIdeal.RefValue.leafQ_8 Y0 Y1 Y2 Y3 Y4 Y5 Y6
  n9 := Cert.ReferenceIdeal.RefValue.leafQ_9 Y0 Y1 Y2 Y3 Y4 Y5 Y6

end Cert.Proof.Bridge

end
-- ==== Proof.RefRunValue.lean ====
/-
  The reference program's run, read stage by stage.

  A straight line of operations in which every operation writes one buffer that no earlier operation wrote, reading only
  the arguments and buffers written before it, ends with every written buffer at its STAGE: the operation's function
  applied to its operands' stages. The proof carries a table of (buffer, contents) pairs known to hold of the current
  buffer contents: an operation whose operands are in the table adds its own result to it, and no entry of the table is
  lost, because buffers are numbered in the order they are written and an operation writes only the next number.
  The reference's 1382 operations are taken in the 23 windows in which the program states them; at the end the table
  holds the returned buffer at the last stage and the seven arguments at their launch contents.
-/
import proofs.«112867_j20074677141979_2_alg».proof.Proof.RefRun
import proofs.«112867_j20074677141979_2_alg».proof.Proof.RefRead

noncomputable section

namespace Cert.ReferenceIdeal.RefRunValue

open Cert.ReferenceIdeal Cert.ReferenceIdeal.Gen Idealize.ShloMosaic Idealize.ShloMosaic.TcCoe Idealize.SL.Sem Idealize.ShloMosaic.StableHlo
open Cert.ReferenceIdeal.Value

/-! ## A straight line of operations, in general -/

section General

variable {τ' : Topo} {sig' : RefSig} {Val : EltTy → Type}

/-- Running two lines one after the other is running their concatenation. -/
theorem after_append (l₁ l₂ : List (HloOp τ' sig' Val)) (V : Valuation τ' sig' Val) :
    after (l₁ ++ l₂) V = after l₂ (after l₁ V) := by
  induction l₁ generalizing V with
  | nil => rfl
  | cons op l ih => exact ih (op.result V)

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- A buffer of the TensorCore with contents of its type. -/
abbrev Entry (sig' : RefSig) (Val : EltTy → Type) : Type := Σ r : Ref sig' .tc, r.ty.Contents Val

/-- Every entry of the table holds of the buffer contents W, and every buffer in it is numbered below n. -/
def Good (W : Valuation τ' sig' Val) (tbl : List (Entry sig' Val)) (n : Nat) : Prop :=
  ∀ p ∈ tbl, W (Proc.devRef .tc p.1) = p.2 ∧ p.1.idx.val < n

/-- The operation writes exactly the buffer of the entry p, which is numbered n, and from any contents of which the
    table holds it leaves p's contents there. -/
structure StepOK (tbl : List (Entry sig' Val)) (n : Nat) (op : HloOp τ' sig' Val) (p : Entry sig' Val) : Prop where
  wr : op.writes = {Proc.devRef .tc p.1}
  num : p.1.idx.val = n
  val : ∀ W : Valuation τ' sig' Val, (∀ q ∈ tbl, W (Proc.devRef .tc q.1) = q.2) → op.result W (Proc.devRef .tc p.1) = p.2

/-- Such an operation extends the table by its own entry. -/
theorem Good.step {W : Valuation τ' sig' Val} {tbl : List (Entry sig' Val)} {n : Nat} {op : HloOp τ' sig' Val}
    {p : Entry sig' Val} (hg : Good W tbl n) (hs : StepOK tbl n op p) : Good (op.result W) (p :: tbl) (n + 1) := by
  intro q hq
  rcases List.mem_cons.mp hq with rfl | hq
  · exact ⟨hs.val W fun q hq => (hg q hq).1, by rw [hs.num]; exact Nat.lt_succ_self n⟩
  · have hlt := (hg q hq).2
    have hne : q.1 ≠ p.1 := fun e => by rw [e, hs.num] at hlt; exact Nat.lt_irrefl _ hlt
    refine ⟨?_, Nat.lt_succ_of_lt hlt⟩
    rw [op.result_of_not_mem W (by rw [hs.wr, Finset.mem_singleton]; exact devRef_ne_of_ne hne)]
    exact (hg q hq).1

/-- The operations of a line write the listed entries, one each, in order, numbered from n on. -/
def Chain : (tbl : List (Entry sig' Val)) → Nat → List (HloOp τ' sig' Val) → List (Entry sig' Val) → Prop
  | _, _, [], [] => True
  | tbl, n, op :: ops, p :: ps => StepOK tbl n op p ∧ Chain (p :: tbl) (n + 1) ops ps
  | _, _, [], _ :: _ => False
  | _, _, _ :: _, [] => False

/-- After such a line the table holds with the line's entries added, the newest first. -/
theorem Good.after : ∀ (ops : List (HloOp τ' sig' Val)) (ps : List (Entry sig' Val)) (tbl : List (Entry sig' Val)) (n : Nat)
    (W : Valuation τ' sig' Val), Good W tbl n → Chain tbl n ops ps → Good (after ops W) (ps.reverse ++ tbl) (n + ps.length)
  | [], [], tbl, n, W, hg, _ => hg
  | op :: ops, p :: ps, tbl, n, W, hg, hc => by
    have h := Good.after ops ps (p :: tbl) (n + 1) (op.result W) (hg.step hc.1) hc.2
    rw [List.reverse_cons, List.append_assoc, List.length_cons, Nat.add_comm ps.length 1, ← Nat.add_assoc]
    exact h
  | [], _ :: _, _, _, _, _, hc => hc.elim
  | _ :: _, [], _, _, _, _, hc => hc.elim

end General

variable {F : FTy → Type} [FloatOps F]
variable (X0 : (⟨S8192x784, .f32⟩ : BufTy).Contents (Elt F)) (X1 : (⟨S784x4096, .f32⟩ : BufTy).Contents (Elt F))
  (X2 : (⟨S4096, .f32⟩ : BufTy).Contents (Elt F)) (X3 : (⟨S4096x4096, .f32⟩ : BufTy).Contents (Elt F))
  (X4 : (⟨S4096, .f32⟩ : BufTy).Contents (Elt F)) (X5 : (⟨S4096x10, .f32⟩ : BufTy).Contents (Elt F))
  (X6 : (⟨S10, .f32⟩ : BufTy).Contents (Elt F))

/-! ## The windows: each window's operations are its part of @main, determine their results, and write the stages
    in order (the tables below list, per operation, the stage it writes and where its operands' entries sit in the
    table of stages known before it) -/

/-- The arguments' entries, the last argument first. -/
abbrev tbl_in : List (Entry sig (Elt F)) :=
  [⟨main_arg6, X6⟩, ⟨main_arg5, X5⟩, ⟨main_arg4, X4⟩, ⟨main_arg3, X3⟩, ⟨main_arg2, X2⟩, ⟨main_arg1, X1⟩, ⟨main_arg0, X0⟩]
theorem in_in (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (tbl_in X0 X1 X2 X3 X4 X5 X6)[j]? = some e) : e ∈ tbl_in X0 X1 X2 X3 X4 X5 X6 := List.mem_of_getElem? h

theorem part_eq_0 (c : Dev nD) : main_part0 (F := F) c = seq ops_0 := rfl
theorem fresh_0 : (ops_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 0's operations write, in order. -/
abbrev ps_0 : List (Entry sig (Elt F)) :=
  [ ⟨main_v0, Read.val_main_v0 (F := F) X0 X1⟩,
    ⟨main_v1, Read.val_main_v1 (F := F) X2⟩,
    ⟨main_v2, Read.val_main_v2 (F := F) X2⟩,
    ⟨main_v3, Read.val_main_v3 (F := F) X0 X1 X2⟩,
    ⟨main_call0_cst, Read.val_main_call0_cst (F := F)⟩,
    ⟨main_call0_v0, Read.val_main_call0_v0 (F := F)⟩,
    ⟨main_v4, Read.val_main_v4 (F := F) X0 X1 X2⟩,
    ⟨main_v5, Read.val_main_v5 (F := F) X0 X1 X2 X3⟩,
    ⟨main_v6, Read.val_main_v6 (F := F) X4⟩,
    ⟨main_v7, Read.val_main_v7 (F := F) X4⟩,
    ⟨main_v8, Read.val_main_v8 (F := F) X0 X1 X2 X3 X4⟩,
    ⟨main_call1_cst, Read.val_main_call1_cst (F := F)⟩,
    ⟨main_call1_v0, Read.val_main_call1_v0 (F := F)⟩,
    ⟨main_v9, Read.val_main_v9 (F := F) X0 X1 X2 X3 X4⟩,
    ⟨main_v10, Read.val_main_v10 (F := F) X0 X1 X2 X3 X4 X5⟩,
    ⟨main_v11, Read.val_main_v11 (F := F) X6⟩,
    ⟨main_v12, Read.val_main_v12 (F := F) X6⟩,
    ⟨main_v13, Read.val_main_v13 (F := F) X0 X1 X2 X3 X4 X5 X6⟩,
    ⟨main_cst, Read.val_main_cst (F := F)⟩,
    ⟨main_v14, Read.val_main_v14 (F := F) X0 X1 X2 X3 X4 X5 X6⟩,
    ⟨main_cst_0, Read.val_main_cst_0 (F := F)⟩,
    ⟨main_v15, Read.val_main_v15 (F := F)⟩,
    ⟨main_v16, Read.val_main_v16 (F := F) X0 X1 X2 X3 X4 X5 X6⟩,
    ⟨main_v17, Read.val_main_v17 (F := F) X0 X1 X2 X3 X4 X5 X6⟩,
    ⟨main_v18, Read.val_main_v18 (F := F) X0 X1 X2 X3 X4 X5 X6⟩,
    ⟨main_v19, Read.val_main_v19 (F := F) X0 X1 X2 X3 X4 X5 X6⟩,
    ⟨main_v20, Read.val_main_v20 (F := F) X0 X1 X2 X3 X4 X5 X6⟩,
    ⟨main_cst_1, Read.val_main_cst_1 (F := F)⟩,
    ⟨main_v21, Read.val_main_v21 (F := F) X0 X1 X2 X3 X4 X5 X6⟩,
    ⟨main_v22, Read.val_main_v22 (F := F) X0 X1 X2 X3 X4 X5 X6⟩,
    ⟨main_v23, Read.val_main_v23 (F := F) X0 X1 X2 X3 X4 X5 X6⟩,
    ⟨main_v24, Read.val_main_v24 (F := F) X0 X1 X2 X3 X4 X5 X6⟩,
    ⟨main_v25, Read.val_main_v25 (F := F) X0 X1 X2 X3 X4 X5 X6⟩,
    ⟨main_v26, Read.val_main_v26 (F := F) X0 X1 X2 X3 X4 X5 X6⟩,
    ⟨main_v27, Read.val_main_v27 (F := F) X0 X1 X2 X3 X4 X5 X6⟩,
    ⟨main_v28, Read.val_main_v28 (F := F) X0 X1 X2 X3 X4 X5 X6⟩,
    ⟨main_v29, Read.val_main_v29 (F := F) X0 X1 X2 X3 X4 X5 X6⟩,
    ⟨main_v30, Read.val_main_v30 (F := F) X0 X1 X2 X3 X4 X5 X6⟩,
    ⟨main_v31, Read.val_main_v31 (F := F) X0 X1 X2 X3 X4 X5 X6⟩,
    ⟨main_v32, Read.val_main_v32 (F := F) X0 X1 X2 X3 X4 X5 X6⟩,
    ⟨main_v33, Read.val_main_v33 (F := F) X0 X1 X2 X3 X4 X5 X6⟩,
    ⟨main_v34, Read.val_main_v34 (F := F) X0 X1 X2 X3 X4 X5 X6⟩,
    ⟨main_v35, Read.val_main_v35 (F := F) X0 X1 X2 X3 X4 X5 X6⟩,
    ⟨main_v36, Read.val_main_v36 (F := F) X0 X1 X2 X3 X4 X5 X6⟩,
    ⟨main_v37, Read.val_main_v37 (F := F) X0 X1 X2 X3 X4 X5 X6⟩,
    ⟨main_v38, Read.val_main_v38 (F := F) X0 X1 X2 X3 X4 X5 X6⟩,
    ⟨main_v39, Read.val_main_v39 (F := F) X0 X1 X2 X3 X4 X5 X6⟩,
    ⟨main_v40, Read.val_main_v40 (F := F) X0 X1 X2 X3 X4 X5 X6⟩,
    ⟨main_v41, Read.val_main_v41 (F := F) X0 X1 X2 X3 X4 X5 X6⟩,
    ⟨main_v42, Read.val_main_v42 (F := F) X0 X1 X2 X3 X4 X5 X6⟩,
    ⟨main_v43, Read.val_main_v43 (F := F) X0 X1 X2 X3 X4 X5 X6⟩,
    ⟨main_v44, Read.val_main_v44 (F := F) X0 X1 X2 X3 X4 X5 X6⟩,
    ⟨main_v45, Read.val_main_v45 (F := F) X0 X1 X2 X3 X4 X5 X6⟩,
    ⟨main_v46, Read.val_main_v46 (F := F) X0 X1 X2 X3 X4 X5 X6⟩,
    ⟨main_cst_2, Read.val_main_cst_2 (F := F)⟩,
    ⟨main_v47, Read.val_main_v47 (F := F)⟩,
    ⟨main_v48, Read.val_main_v48 (F := F) X0 X1 X2 X3 X4 X5 X6⟩,
    ⟨main_v49, Read.val_main_v49 (F := F) X0 X1 X2 X3 X4 X5 X6⟩,
    ⟨main_v50, Read.val_main_v50 (F := F) X0 X1 X2 X3 X4 X5 X6⟩,
    ⟨main_cst_3, Read.val_main_cst_3 (F := F)⟩,
    ⟨main_v51, Read.val_main_v51 (F := F)⟩,
    ⟨main_v52, Read.val_main_v52 (F := F) X0 X1 X2 X3 X4 X5 X6⟩,
    ⟨main_v53, Read.val_main_v53 (F := F) X0 X1 X2 X3 X4 X5 X6⟩,
    ⟨main_v54, Read.val_main_v54 (F := F) X0 X1 X2 X3 X4 X5 X6⟩ ]
/-- The stages known after window 0, the newest first. -/
abbrev tbl_0 : List (Entry sig (Elt F)) := (ps_0 X0 X1 X2 X3 X4 X5 X6).reverse ++ tbl_in X0 X1 X2 X3 X4 X5 X6
theorem up_0 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_in X0 X1 X2 X3 X4 X5 X6) : e ∈ tbl_0 X0 X1 X2 X3 X4 X5 X6 := List.mem_append_right _ h
theorem in_0 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_0 X0 X1 X2 X3 X4 X5 X6).reverse[j]? = some e) : e ∈ tbl_0 X0 X1 X2 X3 X4 X5 X6 :=
  List.mem_append_left _ (List.mem_of_getElem? h)
set_option maxRecDepth 1000000 in
set_option maxHeartbeats 4000000 in
theorem chain_0 : Chain (tbl_in X0 X1 X2 X3 X4 X5 X6) (7 + 0) (ops_0 (F := F)) (ps_0 X0 X1 X2 X3 X4 X5 X6) :=
  ⟨⟨rfl, rfl, fun W hg => (binary_result main_arg0 main_arg1 main_v0 ((fun l r => Host.dotGeneral dot_S8192x784_S784x4096_S8192x4096_1_0_0_1_n_n none l r) : (⟨S8192x784, .f32⟩ : BufTy).Contents (Elt F) → (⟨S784x4096, .f32⟩ : BufTy).Contents (Elt F) → (⟨S8192x4096, .f32⟩ : BufTy).Contents (Elt F)) _ _ _ W).trans (congrArg₂ ((fun l r => Host.dotGeneral dot_S8192x784_S784x4096_S8192x4096_1_0_0_1_n_n none l r) : (⟨S8192x784, .f32⟩ : BufTy).Contents (Elt F) → (⟨S784x4096, .f32⟩ : BufTy).Contents (Elt F) → (⟨S8192x4096, .f32⟩ : BufTy).Contents (Elt F)) (hg ⟨main_arg0, X0⟩ (List.mem_of_mem_drop (i := 0) (in_in X0 X1 X2 X3 X4 X5 X6 (j := 6) rfl))) (hg ⟨main_arg1, X1⟩ (List.mem_of_mem_drop (i := 0) (in_in X0 X1 X2 X3 X4 X5 X6 (j := 5) rfl))))⟩,
   ⟨rfl, rfl, fun W hg => (unary_result main_arg2 main_v1 (broadcastInDim S1x4096 ![1] bcast_S4096_S1x4096_1 : (⟨S4096, .f32⟩ : BufTy).Contents (Elt F) → (⟨S1x4096, .f32⟩ : BufTy).Contents (Elt F)) _ _ W).trans (congrArg (broadcastInDim S1x4096 ![1] bcast_S4096_S1x4096_1 : (⟨S4096, .f32⟩ : BufTy).Contents (Elt F) → (⟨S1x4096, .f32⟩ : BufTy).Contents (Elt F)) (hg ⟨main_arg2, X2⟩ (List.mem_of_mem_drop (i := 1) (in_in X0 X1 X2 X3 X4 X5 X6 (j := 4) rfl))))⟩,
   ⟨rfl, rfl, fun W hg => (unary_result main_v1 main_v2 (broadcastInDim S8192x4096 ![0, 1] bcast_S1x4096_S8192x4096_0_1 : (⟨S1x4096, .f32⟩ : BufTy).Contents (Elt F) → (⟨S8192x4096, .f32⟩ : BufTy).Contents (Elt F)) _ _ W).trans (congrArg (broadcastInDim S8192x4096 ![0, 1] bcast_S1x4096_S8192x4096_0_1 : (⟨S1x4096, .f32⟩ : BufTy).Contents (Elt F) → (⟨S8192x4096, .f32⟩ : BufTy).Contents (Elt F)) (hg ⟨main_v1, Read.val_main_v1 (F := F) X2⟩ (List.mem_of_getElem? (i := 0) rfl)))⟩,
   ⟨rfl, rfl, fun W hg => (binary_result main_v0 main_v2 main_v3 (addf : (⟨S8192x4096, .f32⟩ : BufTy).Contents (Elt F) → (⟨S8192x4096, .f32⟩ : BufTy).Contents (Elt F) → (⟨S8192x4096, .f32⟩ : BufTy).Contents (Elt F)) _ _ _ W).trans (congrArg₂ (addf : (⟨S8192x4096, .f32⟩ : BufTy).Contents (Elt F) → (⟨S8192x4096, .f32⟩ : BufTy).Contents (Elt F) → (⟨S8192x4096, .f32⟩ : BufTy).Contents (Elt F)) (hg ⟨main_v0, Read.val_main_v0 (F := F) X0 X1⟩ (List.mem_of_getElem? (i := 2) rfl)) (hg ⟨main_v2, Read.val_main_v2 (F := F) X2⟩ (List.mem_of_getElem? (i := 0) rfl)))⟩,
   ⟨rfl, rfl, fun W _ => nullary_result main_call0_cst _ _ W⟩,
   ⟨rfl, rfl, fun W hg => (unary_result main_call0_cst main_call0_v0 _ _ _ W).trans (by rw [(hg ⟨main_call0_cst, Read.val_main_call0_cst (F := F)⟩ (List.mem_of_getElem? (i := 0) rfl) : W (Proc.devRef .tc main_call0_cst) = Read.val_main_call0_cst (F := F))]; rfl)⟩,
   ⟨rfl, rfl, fun W hg => (binary_result main_v3 main_call0_v0 main_v4 _ _ _ _ W).trans (by rw [(hg ⟨main_v3, Read.val_main_v3 (F := F) X0 X1 X2⟩ (List.mem_of_getElem? (i := 2) rfl) : W (Proc.devRef .tc main_v3) = Read.val_main_v3 (F := F) X0 X1 X2), (hg ⟨main_call0_v0, Read.val_main_call0_v0 (F := F)⟩ (List.mem_of_getElem? (i := 0) rfl) : W (Proc.devRef .tc main_call0_v0) = Read.val_main_call0_v0 (F := F))]; rfl)⟩,
   ⟨rfl, rfl, fun W hg => (binary_result main_v4 main_arg3 main_v5 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)) _ _ _ W).trans (congrArg₂ ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)) (hg ⟨main_v4, Read.val_main_v4 (F := F) X0 X1 X2⟩ (List.mem_of_getElem? (i := 0) rfl)) (hg ⟨main_arg3, X3⟩ (List.mem_of_mem_drop (i := 7) (in_in X0 X1 X2 X3 X4 X5 X6 (j := 3) rfl))))⟩,
   ⟨rfl, rfl, fun W hg => (unary_result main_arg4 main_v6 (broadcastInDim S1x4096 ![1] bcast_S4096_S1x4096_1 : (⟨S4096, .f32⟩ : BufTy).Contents (Elt F) → (⟨S1x4096, .f32⟩ : BufTy).Contents (Elt F)) _ _ W).trans (congrArg (broadcastInDim S1x4096 ![1] bcast_S4096_S1x4096_1 : (⟨S4096, .f32⟩ : BufTy).Contents (Elt F) → (⟨S1x4096, .f32⟩ : BufTy).Contents (Elt F)) (hg ⟨main_arg4, X4⟩ (List.mem_of_mem_drop (i := 8) (in_in X0 X1 X2 X3 X4 X5 X6 (j := 2) rfl))))⟩,
   ⟨rfl, rfl, fun W hg => (unary_result main_v6 main_v7 (broadcastInDim S8192x4096 ![0, 1] bcast_S1x4096_S8192x4096_0_1 : (⟨S1x4096, .f32⟩ : BufTy).Contents (Elt F) → (⟨S8192x4096, .f32⟩ : BufTy).Contents (Elt F)) _ _ W).trans (congrArg (broadcastInDim S8192x4096 ![0, 1] bcast_S1x4096_S8192x4096_0_1 : (⟨S1x4096, .f32⟩ : BufTy).Contents (Elt F) → (⟨S8192x4096, .f32⟩ : BufTy).Contents (Elt F)) (hg ⟨main_v6, Read.val_main_v6 (F := F) X4⟩ (List.mem_of_getElem? (i := 0) rfl)))⟩,
   ⟨rfl, rfl, fun W hg => (binary_result main_v5 main_v7 main_v8 (addf : (⟨S8192x4096, .f32⟩ : BufTy).Contents (Elt F) → (⟨S8192x4096, .f32⟩ : BufTy).Contents (Elt F) → (⟨S8192x4096, .f32⟩ : BufTy).Contents (Elt F)) _ _ _ W).trans (congrArg₂ (addf : (⟨S8192x4096, .f32⟩ : BufTy).Contents (Elt F) → (⟨S8192x4096, .f32⟩ : BufTy).Contents (Elt F) → (⟨S8192x4096, .f32⟩ : BufTy).Contents (Elt F)) (hg ⟨main_v5, Read.val_main_v5 (F := F) X0 X1 X2 X3⟩ (List.mem_of_getElem? (i := 2) rfl)) (hg ⟨main_v7, Read.val_main_v7 (F := F) X4⟩ (List.mem_of_getElem? (i := 0) rfl)))⟩,
   ⟨rfl, rfl, fun W _ => nullary_result main_call1_cst _ _ W⟩,
   ⟨rfl, rfl, fun W hg => (unary_result main_call1_cst main_call1_v0 _ _ _ W).trans (by rw [(hg ⟨main_call1_cst, Read.val_main_call1_cst (F := F)⟩ (List.mem_of_getElem? (i := 0) rfl) : W (Proc.devRef .tc main_call1_cst) = Read.val_main_call1_cst (F := F))]; rfl)⟩,
   ⟨rfl, rfl, fun W hg => (binary_result main_v8 main_call1_v0 main_v9 _ _ _ _ W).trans (by rw [(hg ⟨main_v8, Read.val_main_v8 (F := F) X0 X1 X2 X3 X4⟩ (List.mem_of_getElem? (i := 2) rfl) : W (Proc.devRef .tc main_v8) = Read.val_main_v8 (F := F) X0 X1 X2 X3 X4), (hg ⟨main_call1_v0, Read.val_main_call1_v0 (F := F)⟩ (List.mem_of_getElem? (i := 0) rfl) : W (Proc.devRef .tc main_call1_v0) = Read.val_main_call1_v0 (F := F))]; rfl)⟩,
   ⟨rfl, rfl, fun W hg => (binary_result main_v9 main_arg5 main_v10 ((fun l r => Host.dotGeneral dot_S8192x4096_S4096x10_S8192x10_1_0_0_1_n_n none l r) : (⟨S8192x4096, .f32⟩ : BufTy).Contents (Elt F) → (⟨S4096x10, .f32⟩ : BufTy).Contents (Elt F) → (⟨S8192x10, .f32⟩ : BufTy).Contents (Elt F)) _ _ _ W).trans (congrArg₂ ((fun l r => Host.dotGeneral dot_S8192x4096_S4096x10_S8192x10_1_0_0_1_n_n none l r) : (⟨S8192x4096, .f32⟩ : BufTy).Contents (Elt F) → (⟨S4096x10, .f32⟩ : BufTy).Contents (Elt F) → (⟨S8192x10, .f32⟩ : BufTy).Contents (Elt F)) (hg ⟨main_v9, Read.val_main_v9 (F := F) X0 X1 X2 X3 X4⟩ (List.mem_of_getElem? (i := 0) rfl)) (hg ⟨main_arg5, X5⟩ (List.mem_of_mem_drop (i := 14) (in_in X0 X1 X2 X3 X4 X5 X6 (j := 1) rfl))))⟩,
   ⟨rfl, rfl, fun W hg => (unary_result main_arg6 main_v11 (broadcastInDim S1x10 ![1] bcast_S10_S1x10_1 : (⟨S10, .f32⟩ : BufTy).Contents (Elt F) → (⟨S1x10, .f32⟩ : BufTy).Contents (Elt F)) _ _ W).trans (congrArg (broadcastInDim S1x10 ![1] bcast_S10_S1x10_1 : (⟨S10, .f32⟩ : BufTy).Contents (Elt F) → (⟨S1x10, .f32⟩ : BufTy).Contents (Elt F)) (hg ⟨main_arg6, X6⟩ (List.mem_of_mem_drop (i := 15) (in_in X0 X1 X2 X3 X4 X5 X6 (j := 0) rfl))))⟩,
   ⟨rfl, rfl, fun W hg => (unary_result main_v11 main_v12 (broadcastInDim S8192x10 ![0, 1] bcast_S1x10_S8192x10_0_1 : (⟨S1x10, .f32⟩ : BufTy).Contents (Elt F) → (⟨S8192x10, .f32⟩ : BufTy).Contents (Elt F)) _ _ W).trans (congrArg (broadcastInDim S8192x10 ![0, 1] bcast_S1x10_S8192x10_0_1 : (⟨S1x10, .f32⟩ : BufTy).Contents (Elt F) → (⟨S8192x10, .f32⟩ : BufTy).Contents (Elt F)) (hg ⟨main_v11, Read.val_main_v11 (F := F) X6⟩ (List.mem_of_getElem? (i := 0) rfl)))⟩,
   ⟨rfl, rfl, fun W hg => (binary_result main_v10 main_v12 main_v13 (addf : (⟨S8192x10, .f32⟩ : BufTy).Contents (Elt F) → (⟨S8192x10, .f32⟩ : BufTy).Contents (Elt F) → (⟨S8192x10, .f32⟩ : BufTy).Contents (Elt F)) _ _ _ W).trans (congrArg₂ (addf : (⟨S8192x10, .f32⟩ : BufTy).Contents (Elt F) → (⟨S8192x10, .f32⟩ : BufTy).Contents (Elt F) → (⟨S8192x10, .f32⟩ : BufTy).Contents (Elt F)) (hg ⟨main_v10, Read.val_main_v10 (F := F) X0 X1 X2 X3 X4 X5⟩ (List.mem_of_getElem? (i := 2) rfl)) (hg ⟨main_v12, Read.val_main_v12 (F := F) X6⟩ (List.mem_of_getElem? (i := 0) rfl)))⟩,
   ⟨rfl, rfl, fun W _ => nullary_result main_cst _ _ W⟩,
   ⟨rfl, rfl, fun W hg => (binary_result main_v13 main_cst main_v14 _ _ _ _ W).trans (by rw [(hg ⟨main_v13, Read.val_main_v13 (F := F) X0 X1 X2 X3 X4 X5 X6⟩ (List.mem_of_getElem? (i := 1) rfl) : W (Proc.devRef .tc main_v13) = Read.val_main_v13 (F := F) X0 X1 X2 X3 X4 X5 X6), (hg ⟨main_cst, Read.val_main_cst (F := F)⟩ (List.mem_of_getElem? (i := 0) rfl) : W (Proc.devRef .tc main_cst) = Read.val_main_cst (F := F))]; delta Read.val_main_v14; with_reducible rfl)⟩,
   ⟨rfl, rfl, fun W _ => nullary_result main_cst_0 _ _ W⟩,
   ⟨rfl, rfl, fun W hg => (unary_result main_cst_0 main_v15 (broadcastInDim S8192 ![] bcast_S_S8192 : (⟨S_, .f32⟩ : BufTy).Contents (Elt F) → (⟨S8192, .f32⟩ : BufTy).Contents (Elt F)) _ _ W).trans (congrArg (broadcastInDim S8192 ![] bcast_S_S8192 : (⟨S_, .f32⟩ : BufTy).Contents (Elt F) → (⟨S8192, .f32⟩ : BufTy).Contents (Elt F)) (hg ⟨main_cst_0, Read.val_main_cst_0 (F := F)⟩ (List.mem_of_getElem? (i := 0) rfl)))⟩,
   ⟨rfl, rfl, fun W hg => (binary_result main_v15 main_v14 main_v16 (maximumf : (⟨S8192, .f32⟩ : BufTy).Contents (Elt F) → (⟨S8192, .f32⟩ : BufTy).Contents (Elt F) → (⟨S8192, .f32⟩ : BufTy).Contents (Elt F)) _ _ _ W).trans (congrArg₂ (maximumf : (⟨S8192, .f32⟩ : BufTy).Contents (Elt F) → (⟨S8192, .f32⟩ : BufTy).Contents (Elt F) → (⟨S8192, .f32⟩ : BufTy).Contents (Elt F)) (hg ⟨main_v15, Read.val_main_v15 (F := F)⟩ (List.mem_of_getElem? (i := 0) rfl)) (hg ⟨main_v14, Read.val_main_v14 (F := F) X0 X1 X2 X3 X4 X5 X6⟩ (List.mem_of_getElem? (i := 2) rfl)))⟩,
   ⟨rfl, rfl, fun W hg => (unary_result main_v16 main_v17 (broadcastInDim S8192x1 ![0] bcast_S8192_S8192x1_0 : (⟨S8192, .f32⟩ : BufTy).Contents (Elt F) → (⟨S8192x1, .f32⟩ : BufTy).Contents (Elt F)) _ _ W).trans (congrArg (broadcastInDim S8192x1 ![0] bcast_S8192_S8192x1_0 : (⟨S8192, .f32⟩ : BufTy).Contents (Elt F) → (⟨S8192x1, .f32⟩ : BufTy).Contents (Elt F)) (hg ⟨main_v16, Read.val_main_v16 (F := F) X0 X1 X2 X3 X4 X5 X6⟩ (List.mem_of_getElem? (i := 0) rfl)))⟩,
   ⟨rfl, rfl, fun W hg => (unary_result main_v17 main_v18 (broadcastInDim S8192x10 ![0, 1] bcast_S8192x1_S8192x10_0_1 : (⟨S8192x1, .f32⟩ : BufTy).Contents (Elt F) → (⟨S8192x10, .f32⟩ : BufTy).Contents (Elt F)) _ _ W).trans (congrArg (broadcastInDim S8192x10 ![0, 1] bcast_S8192x1_S8192x10_0_1 : (⟨S8192x1, .f32⟩ : BufTy).Contents (Elt F) → (⟨S8192x10, .f32⟩ : BufTy).Contents (Elt F)) (hg ⟨main_v17, Read.val_main_v17 (F := F) X0 X1 X2 X3 X4 X5 X6⟩ (List.mem_of_getElem? (i := 0) rfl)))⟩,
   ⟨rfl, rfl, fun W hg => (binary_result main_v13 main_v18 main_v19 (subf : (⟨S8192x10, .f32⟩ : BufTy).Contents (Elt F) → (⟨S8192x10, .f32⟩ : BufTy).Contents (Elt F) → (⟨S8192x10, .f32⟩ : BufTy).Contents (Elt F)) _ _ _ W).trans (congrArg₂ (subf : (⟨S8192x10, .f32⟩ : BufTy).Contents (Elt F) → (⟨S8192x10, .f32⟩ : BufTy).Contents (Elt F) → (⟨S8192x10, .f32⟩ : BufTy).Contents (Elt F)) (hg ⟨main_v13, Read.val_main_v13 (F := F) X0 X1 X2 X3 X4 X5 X6⟩ (List.mem_of_getElem? (i := 7) rfl)) (hg ⟨main_v18, Read.val_main_v18 (F := F) X0 X1 X2 X3 X4 X5 X6⟩ (List.mem_of_getElem? (i := 0) rfl)))⟩,
   ⟨rfl, rfl, fun W hg => (unary_result main_v19 main_v20 (Host.exp : (⟨S8192x10, .f32⟩ : BufTy).Contents (Elt F) → (⟨S8192x10, .f32⟩ : BufTy).Contents (Elt F)) _ _ W).trans (congrArg (Host.exp : (⟨S8192x10, .f32⟩ : BufTy).Contents (Elt F) → (⟨S8192x10, .f32⟩ : BufTy).Contents (Elt F)) (hg ⟨main_v19, Read.val_main_v19 (F := F) X0 X1 X2 X3 X4 X5 X6⟩ (List.mem_of_getElem? (i := 0) rfl)))⟩,
   ⟨rfl, rfl, fun W _ => nullary_result main_cst_1 _ _ W⟩,
   ⟨rfl, rfl, fun W hg => (binary_result main_v20 main_cst_1 main_v21 _ _ _ _ W).trans (by rw [(hg ⟨main_v20, Read.val_main_v20 (F := F) X0 X1 X2 X3 X4 X5 X6⟩ (List.mem_of_getElem? (i := 1) rfl) : W (Proc.devRef .tc main_v20) = Read.val_main_v20 (F := F) X0 X1 X2 X3 X4 X5 X6), (hg ⟨main_cst_1, Read.val_main_cst_1 (F := F)⟩ (List.mem_of_getElem? (i := 0) rfl) : W (Proc.devRef .tc main_cst_1) = Read.val_main_cst_1 (F := F))]; delta Read.val_main_v21; with_reducible rfl)⟩,
   ⟨rfl, rfl, fun W hg => (unary_result main_v21 main_v22 (broadcastInDim S8192x1 ![0] bcast_S8192_S8192x1_0 : (⟨S8192, .f32⟩ : BufTy).Contents (Elt F) → (⟨S8192x1, .f32⟩ : BufTy).Contents (Elt F)) _ _ W).trans (congrArg (broadcastInDim S8192x1 ![0] bcast_S8192_S8192x1_0 : (⟨S8192, .f32⟩ : BufTy).Contents (Elt F) → (⟨S8192x1, .f32⟩ : BufTy).Contents (Elt F)) (hg ⟨main_v21, Read.val_main_v21 (F := F) X0 X1 X2 X3 X4 X5 X6⟩ (List.mem_of_getElem? (i := 0) rfl)))⟩,
   ⟨rfl, rfl, fun W hg => (unary_result main_v22 main_v23 (broadcastInDim S8192x10 ![0, 1] bcast_S8192x1_S8192x10_0_1 : (⟨S8192x1, .f32⟩ : BufTy).Contents (Elt F) → (⟨S8192x10, .f32⟩ : BufTy).Contents (Elt F)) _ _ W).trans (congrArg (broadcastInDim S8192x10 ![0, 1] bcast_S8192x1_S8192x10_0_1 : (⟨S8192x1, .f32⟩ : BufTy).Contents (Elt F) → (⟨S8192x10, .f32⟩ : BufTy).Contents (Elt F)) (hg ⟨main_v22, Read.val_main_v22 (F := F) X0 X1 X2 X3 X4 X5 X6⟩ (List.mem_of_getElem? (i := 0) rfl)))⟩,
   ⟨rfl, rfl, fun W hg => (binary_result main_v20 main_v23 main_v24 (Host.divf : (⟨S8192x10, .f32⟩ : BufTy).Contents (Elt F) → (⟨S8192x10, .f32⟩ : BufTy).Contents (Elt F) → (⟨S8192x10, .f32⟩ : BufTy).Contents (Elt F)) _ _ _ W).trans (congrArg₂ (Host.divf : (⟨S8192x10, .f32⟩ : BufTy).Contents (Elt F) → (⟨S8192x10, .f32⟩ : BufTy).Contents (Elt F) → (⟨S8192x10, .f32⟩ : BufTy).Contents (Elt F)) (hg ⟨main_v20, Read.val_main_v20 (F := F) X0 X1 X2 X3 X4 X5 X6⟩ (List.mem_of_getElem? (i := 4) rfl)) (hg ⟨main_v23, Read.val_main_v23 (F := F) X0 X1 X2 X3 X4 X5 X6⟩ (List.mem_of_getElem? (i := 0) rfl)))⟩,
   ⟨rfl, rfl, fun W hg => (unary_result main_v24 main_v25 ((extractStridedSlice S8192x1 ![0, 0] · slices_S8192x10_S8192x1_0_0) : (⟨S8192x10, .f32⟩ : BufTy).Contents (Elt F) → (⟨S8192x1, .f32⟩ : BufTy).Contents (Elt F)) _ _ W).trans (congrArg ((extractStridedSlice S8192x1 ![0, 0] · slices_S8192x10_S8192x1_0_0) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 0) rfl)))⟩,
   ⟨rfl, rfl, fun W hg => (reshape_result main_v25 main_v26 _ _ _ _ W).trans (by rw [(hg ⟨main_v25, Read.val_main_v25 (F := F) X0 X1 X2 X3 X4 X5 X6⟩ (List.mem_of_getElem? (i := 0) rfl) : W (Proc.devRef .tc main_v25) = Read.val_main_v25 (F := F) X0 X1 X2 X3 X4 X5 X6)]; rfl)⟩,
   ⟨rfl, rfl, fun W hg => (unary_result main_v24 main_v27 ((extractStridedSlice S8192x1 ![0, 1] · slices_S8192x10_S8192x1_0_1) : (⟨S8192x10, .f32⟩ : BufTy).Contents (Elt F) → (⟨S8192x1, .f32⟩ : BufTy).Contents (Elt F)) _ _ W).trans (congrArg ((extractStridedSlice S8192x1 ![0, 1] · slices_S8192x10_S8192x1_0_1) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 2) rfl)))⟩,
   ⟨rfl, rfl, fun W hg => (reshape_result main_v27 main_v28 _ _ _ _ W).trans (by rw [(hg ⟨main_v27, Read.val_main_v27 (F := F) X0 X1 X2 X3 X4 X5 X6⟩ (List.mem_of_getElem? (i := 0) rfl) : W (Proc.devRef .tc main_v27) = Read.val_main_v27 (F := F) X0 X1 X2 X3 X4 X5 X6)]; rfl)⟩,
   ⟨rfl, rfl, fun W hg => (unary_result main_v24 main_v29 ((extractStridedSlice S8192x1 ![0, 2] · slices_S8192x10_S8192x1_0_2) : (⟨S8192x10, .f32⟩ : BufTy).Contents (Elt F) → (⟨S8192x1, .f32⟩ : BufTy).Contents (Elt F)) _ _ W).trans (congrArg ((extractStridedSlice S8192x1 ![0, 2] · slices_S8192x10_S8192x1_0_2) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 4) rfl)))⟩,
   ⟨rfl, rfl, fun W hg => (reshape_result main_v29 main_v30 _ _ _ _ W).trans (by rw [(hg ⟨main_v29, Read.val_main_v29 (F := F) X0 X1 X2 X3 X4 X5 X6⟩ (List.mem_of_getElem? (i := 0) rfl) : W (Proc.devRef .tc main_v29) = Read.val_main_v29 (F := F) X0 X1 X2 X3 X4 X5 X6)]; rfl)⟩,
   ⟨rfl, rfl, fun W hg => (unary_result main_v24 main_v31 ((extractStridedSlice S8192x1 ![0, 3] · slices_S8192x10_S8192x1_0_3) : (⟨S8192x10, .f32⟩ : BufTy).Contents (Elt F) → (⟨S8192x1, .f32⟩ : BufTy).Contents (Elt F)) _ _ W).trans (congrArg ((extractStridedSlice S8192x1 ![0, 3] · slices_S8192x10_S8192x1_0_3) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 6) rfl)))⟩,
   ⟨rfl, rfl, fun W hg => (reshape_result main_v31 main_v32 _ _ _ _ W).trans (by rw [(hg ⟨main_v31, Read.val_main_v31 (F := F) X0 X1 X2 X3 X4 X5 X6⟩ (List.mem_of_getElem? (i := 0) rfl) : W (Proc.devRef .tc main_v31) = Read.val_main_v31 (F := F) X0 X1 X2 X3 X4 X5 X6)]; rfl)⟩,
   ⟨rfl, rfl, fun W hg => (unary_result main_v24 main_v33 ((extractStridedSlice S8192x1 ![0, 4] · slices_S8192x10_S8192x1_0_4) : (⟨S8192x10, .f32⟩ : BufTy).Contents (Elt F) → (⟨S8192x1, .f32⟩ : BufTy).Contents (Elt F)) _ _ W).trans (congrArg ((extractStridedSlice S8192x1 ![0, 4] · slices_S8192x10_S8192x1_0_4) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 8) rfl)))⟩,
   ⟨rfl, rfl, fun W hg => (reshape_result main_v33 main_v34 _ _ _ _ W).trans (by rw [(hg ⟨main_v33, Read.val_main_v33 (F := F) X0 X1 X2 X3 X4 X5 X6⟩ (List.mem_of_getElem? (i := 0) rfl) : W (Proc.devRef .tc main_v33) = Read.val_main_v33 (F := F) X0 X1 X2 X3 X4 X5 X6)]; rfl)⟩,
   ⟨rfl, rfl, fun W hg => (unary_result main_v24 main_v35 ((extractStridedSlice S8192x1 ![0, 5] · slices_S8192x10_S8192x1_0_5) : (⟨S8192x10, .f32⟩ : BufTy).Contents (Elt F) → (⟨S8192x1, .f32⟩ : BufTy).Contents (Elt F)) _ _ W).trans (congrArg ((extractStridedSlice S8192x1 ![0, 5] · slices_S8192x10_S8192x1_0_5) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 10) rfl)))⟩,
   ⟨rfl, rfl, fun W hg => (reshape_result main_v35 main_v36 _ _ _ _ W).trans (by rw [(hg ⟨main_v35, Read.val_main_v35 (F := F) X0 X1 X2 X3 X4 X5 X6⟩ (List.mem_of_getElem? (i := 0) rfl) : W (Proc.devRef .tc main_v35) = Read.val_main_v35 (F := F) X0 X1 X2 X3 X4 X5 X6)]; rfl)⟩,
   ⟨rfl, rfl, fun W hg => (unary_result main_v24 main_v37 ((extractStridedSlice S8192x1 ![0, 6] · slices_S8192x10_S8192x1_0_6) : (⟨S8192x10, .f32⟩ : BufTy).Contents (Elt F) → (⟨S8192x1, .f32⟩ : BufTy).Contents (Elt F)) _ _ W).trans (congrArg ((extractStridedSlice S8192x1 ![0, 6] · slices_S8192x10_S8192x1_0_6) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 12) rfl)))⟩,
   ⟨rfl, rfl, fun W hg => (reshape_result main_v37 main_v38 _ _ _ _ W).trans (by rw [(hg ⟨main_v37, Read.val_main_v37 (F := F) X0 X1 X2 X3 X4 X5 X6⟩ (List.mem_of_getElem? (i := 0) rfl) : W (Proc.devRef .tc main_v37) = Read.val_main_v37 (F := F) X0 X1 X2 X3 X4 X5 X6)]; rfl)⟩,
   ⟨rfl, rfl, fun W hg => (unary_result main_v24 main_v39 ((extractStridedSlice S8192x1 ![0, 7] · slices_S8192x10_S8192x1_0_7) : (⟨S8192x10, .f32⟩ : BufTy).Contents (Elt F) → (⟨S8192x1, .f32⟩ : BufTy).Contents (Elt F)) _ _ W).trans (congrArg ((extractStridedSlice S8192x1 ![0, 7] · slices_S8192x10_S8192x1_0_7) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 14) rfl)))⟩,
   ⟨rfl, rfl, fun W hg => (reshape_result main_v39 main_v40 _ _ _ _ W).trans (by rw [(hg ⟨main_v39, Read.val_main_v39 (F := F) X0 X1 X2 X3 X4 X5 X6⟩ (List.mem_of_getElem? (i := 0) rfl) : W (Proc.devRef .tc main_v39) = Read.val_main_v39 (F := F) X0 X1 X2 X3 X4 X5 X6)]; rfl)⟩,
   ⟨rfl, rfl, fun W hg => (unary_result main_v24 main_v41 ((extractStridedSlice S8192x1 ![0, 8] · slices_S8192x10_S8192x1_0_8) : (⟨S8192x10, .f32⟩ : BufTy).Contents (Elt F) → (⟨S8192x1, .f32⟩ : BufTy).Contents (Elt F)) _ _ W).trans (congrArg ((extractStridedSlice S8192x1 ![0, 8] · slices_S8192x10_S8192x1_0_8) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 16) rfl)))⟩,
   ⟨rfl, rfl, fun W hg => (reshape_result main_v41 main_v42 _ _ _ _ W).trans (by rw [(hg ⟨main_v41, Read.val_main_v41 (F := F) X0 X1 X2 X3 X4 X5 X6⟩ (List.mem_of_getElem? (i := 0) rfl) : W (Proc.devRef .tc main_v41) = Read.val_main_v41 (F := F) X0 X1 X2 X3 X4 X5 X6)]; rfl)⟩,
   ⟨rfl, rfl, fun W hg => (unary_result main_v24 main_v43 ((extractStridedSlice S8192x1 ![0, 9] · slices_S8192x10_S8192x1_0_9) : (⟨S8192x10, .f32⟩ : BufTy).Contents (Elt F) → (⟨S8192x1, .f32⟩ : BufTy).Contents (Elt F)) _ _ W).trans (congrArg ((extractStridedSlice S8192x1 ![0, 9] · slices_S8192x10_S8192x1_0_9) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 18) rfl)))⟩,
   ⟨rfl, rfl, fun W hg => (reshape_result main_v43 main_v44 _ _ _ _ W).trans (by rw [(hg ⟨main_v43, Read.val_main_v43 (F := F) X0 X1 X2 X3 X4 X5 X6⟩ (List.mem_of_getElem? (i := 0) rfl) : W (Proc.devRef .tc main_v43) = Read.val_main_v43 (F := F) X0 X1 X2 X3 X4 X5 X6)]; rfl)⟩,
   ⟨rfl, rfl, fun W hg => (unary_result main_v24 main_v45 ((extractStridedSlice S8192x1 ![0, 0] · slices_S8192x10_S8192x1_0_0) : (⟨S8192x10, .f32⟩ : BufTy).Contents (Elt F) → (⟨S8192x1, .f32⟩ : BufTy).Contents (Elt F)) _ _ W).trans (congrArg ((extractStridedSlice S8192x1 ![0, 0] · slices_S8192x10_S8192x1_0_0) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 20) rfl)))⟩,
   ⟨rfl, rfl, fun W hg => (reshape_result main_v45 main_v46 _ _ _ _ W).trans (by rw [(hg ⟨main_v45, Read.val_main_v45 (F := F) X0 X1 X2 X3 X4 X5 X6⟩ (List.mem_of_getElem? (i := 0) rfl) : W (Proc.devRef .tc main_v45) = Read.val_main_v45 (F := F) X0 X1 X2 X3 X4 X5 X6)]; rfl)⟩,
   ⟨rfl, rfl, fun W _ => nullary_result main_cst_2 _ _ W⟩,
   ⟨rfl, rfl, fun W hg => (unary_result main_cst_2 main_v47 (broadcastInDim S8192 ![] bcast_S_S8192 : (⟨S_, .f32⟩ : BufTy).Contents (Elt F) → (⟨S8192, .f32⟩ : BufTy).Contents (Elt F)) _ _ W).trans (congrArg (broadcastInDim S8192 ![] bcast_S_S8192 : (⟨S_, .f32⟩ : BufTy).Contents (Elt F) → (⟨S8192, .f32⟩ : BufTy).Contents (Elt F)) (hg ⟨main_cst_2, Read.val_main_cst_2 (F := F)⟩ (List.mem_of_getElem? (i := 0) rfl)))⟩,
   ⟨rfl, rfl, fun W hg => (binary_result main_v47 main_v46 main_v48 (subf : (⟨S8192, .f32⟩ : BufTy).Contents (Elt F) → (⟨S8192, .f32⟩ : BufTy).Contents (Elt F) → (⟨S8192, .f32⟩ : BufTy).Contents (Elt F)) _ _ _ W).trans (congrArg₂ (subf : (⟨S8192, .f32⟩ : BufTy).Contents (Elt F) → (⟨S8192, .f32⟩ : BufTy).Contents (Elt F) → (⟨S8192, .f32⟩ : BufTy).Contents (Elt F)) (hg ⟨main_v47, Read.val_main_v47 (F := F)⟩ (List.mem_of_getElem? (i := 0) rfl)) (hg ⟨main_v46, Read.val_main_v46 (F := F) X0 X1 X2 X3 X4 X5 X6⟩ (List.mem_of_getElem? (i := 2) rfl)))⟩,
   ⟨rfl, rfl, fun W hg => (unary_result main_v24 main_v49 ((extractStridedSlice S8192x1 ![0, 1] · slices_S8192x10_S8192x1_0_1) : (⟨S8192x10, .f32⟩ : BufTy).Contents (Elt F) → (⟨S8192x1, .f32⟩ : BufTy).Contents (Elt F)) _ _ W).trans (congrArg ((extractStridedSlice S8192x1 ![0, 1] · slices_S8192x10_S8192x1_0_1) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 25) rfl)))⟩,
   ⟨rfl, rfl, fun W hg => (reshape_result main_v49 main_v50 _ _ _ _ W).trans (by rw [(hg ⟨main_v49, Read.val_main_v49 (F := F) X0 X1 X2 X3 X4 X5 X6⟩ (List.mem_of_getElem? (i := 0) rfl) : W (Proc.devRef .tc main_v49) = Read.val_main_v49 (F := F) X0 X1 X2 X3 X4 X5 X6)]; rfl)⟩,
   ⟨rfl, rfl, fun W _ => nullary_result main_cst_3 _ _ W⟩,
   ⟨rfl, rfl, fun W hg => (unary_result main_cst_3 main_v51 (broadcastInDim S8192 ![] bcast_S_S8192 : (⟨S_, .f32⟩ : BufTy).Contents (Elt F) → (⟨S8192, .f32⟩ : BufTy).Contents (Elt F)) _ _ W).trans (congrArg (broadcastInDim S8192 ![] bcast_S_S8192 : (⟨S_, .f32⟩ : BufTy).Contents (Elt F) → (⟨S8192, .f32⟩ : BufTy).Contents (Elt F)) (hg ⟨main_cst_3, Read.val_main_cst_3 (F := F)⟩ (List.mem_of_getElem? (i := 0) rfl)))⟩,
   ⟨rfl, rfl, fun W hg => (binary_result main_v51 main_v50 main_v52 (subf : (⟨S8192, .f32⟩ : BufTy).Contents (Elt F) → (⟨S8192, .f32⟩ : BufTy).Contents (Elt F) → (⟨S8192, .f32⟩ : BufTy).Contents (Elt F)) _ _ _ W).trans (congrArg₂ (subf : (⟨S8192, .f32⟩ : BufTy).Contents (Elt F) → (⟨S8192, .f32⟩ : BufTy).Contents (Elt F) → (⟨S8192, .f32⟩ : BufTy).Contents (Elt F)) (hg ⟨main_v51, Read.val_main_v51 (F := F)⟩ (List.mem_of_getElem? (i := 0) rfl)) (hg ⟨main_v50, Read.val_main_v50 (F := F) X0 X1 X2 X3 X4 X5 X6⟩ (List.mem_of_getElem? (i := 2) rfl)))⟩,
   ⟨rfl, rfl, fun W hg => (unary_result main_v24 main_v53 ((extractStridedSlice S8192x1 ![0, 2] · slices_S8192x10_S8192x1_0_2) : (⟨S8192x10, .f32⟩ : BufTy).Contents (Elt F) → (⟨S8192x1, .f32⟩ : BufTy).Contents (Elt F)) _ _ W).trans (congrArg ((extractStridedSlice S8192x1 ![0, 2] · slices_S8192x10_S8192x1_0_2) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_getElem? (i := 30) rfl)))⟩,
   ⟨rfl, rfl, fun W hg => (reshape_result main_v53 main_v54 _ _ _ _ W).trans (by rw [(hg ⟨main_v53, Read.val_main_v53 (F := F) X0 X1 X2 X3 X4 X5 X6⟩ (List.mem_of_getElem? (i := 0) rfl) : W (Proc.devRef .tc main_v53) = Read.val_main_v53 (F := F) X0 X1 X2 X3 X4 X5 X6)]; rfl)⟩,
   trivial⟩
theorem good_0 (W : Valuation τ sig (Elt F)) (hg : Good W (tbl_in X0 X1 X2 X3 X4 X5 X6) (7 + 0)) :
    Good (after ops_0 W) (tbl_0 X0 X1 X2 X3 X4 X5 X6) (7 + 64) :=
  Good.after _ _ _ _ W hg (chain_0 X0 X1 X2 X3 X4 X5 X6)

theorem part_eq_1 (c : Dev nD) : main_part1 (F := F) c = seq ops_1 := rfl
theorem fresh_1 : (ops_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 1's operations write, in order. -/
abbrev ps_1 : List (Entry sig (Elt F)) :=
  [ ⟨main_cst_4, Read.val_main_cst_4 (F := F)⟩,
    ⟨main_v55, Read.val_main_v55 (F := F)⟩,
    ⟨main_v56, Read.val_main_v56 (F := F) X0 X1 X2 X3 X4 X5 X6⟩,
    ⟨main_v57, Read.val_main_v57 (F := F) X0 X1 X2 X3 X4 X5 X6⟩,
    ⟨main_v58, Read.val_main_v58 (F := F) X0 X1 X2 X3 X4 X5 X6⟩,
    ⟨main_cst_5, Read.val_main_cst_5 (F := F)⟩,
    ⟨main_v59, Read.val_main_v59 (F := F)⟩,
    ⟨main_v60, Read.val_main_v60 (F := F) X0 X1 X2 X3 X4 X5 X6⟩,
    ⟨main_v61, Read.val_main_v61 (F := F) X0 X1 X2 X3 X4 X5 X6⟩,
    ⟨main_v62, Read.val_main_v62 (F := F) X0 X1 X2 X3 X4 X5 X6⟩,
    ⟨main_cst_6, Read.val_main_cst_6 (F := F)⟩,
    ⟨main_v63, Read.val_main_v63 (F := F)⟩,
    ⟨main_v64, Read.val_main_v64 (F := F) X0 X1 X2 X3 X4 X5 X6⟩,
    ⟨main_v65, Read.val_main_v65 (F := F) X0 X1 X2 X3 X4 X5 X6⟩,
    ⟨main_v66, Read.val_main_v66 (F := F) X0 X1 X2 X3 X4 X5 X6⟩,
    ⟨main_cst_7, Read.val_main_cst_7 (F := F)⟩,
    ⟨main_v67, Read.val_main_v67 (F := F)⟩,
    ⟨main_v68, Read.val_main_v68 (F := F) X0 X1 X2 X3 X4 X5 X6⟩,
    ⟨main_v69, Read.val_main_v69 (F := F) X0 X1 X2 X3 X4 X5 X6⟩,
    ⟨main_v70, Read.val_main_v70 (F := F) X0 X1 X2 X3 X4 X5 X6⟩,
    ⟨main_cst_8, Read.val_main_cst_8 (F := F)⟩,
    ⟨main_v71, Read.val_main_v71 (F := F)⟩,
    ⟨main_v72, Read.val_main_v72 (F := F) X0 X1 X2 X3 X4 X5 X6⟩,
    ⟨main_v73, Read.val_main_v73 (F := F) X0 X1 X2 X3 X4 X5 X6⟩,
    ⟨main_v74, Read.val_main_v74 (F := F) X0 X1 X2 X3 X4 X5 X6⟩,
    ⟨main_cst_9, Read.val_main_cst_9 (F := F)⟩,
    ⟨main_v75, Read.val_main_v75 (F := F)⟩,
    ⟨main_v76, Read.val_main_v76 (F := F) X0 X1 X2 X3 X4 X5 X6⟩,
    ⟨main_v77, Read.val_main_v77 (F := F) X0 X1 X2 X3 X4 X5 X6⟩,
    ⟨main_v78, Read.val_main_v78 (F := F) X0 X1 X2 X3 X4 X5 X6⟩,
    ⟨main_cst_10, Read.val_main_cst_10 (F := F)⟩,
    ⟨main_v79, Read.val_main_v79 (F := F)⟩,
    ⟨main_v80, Read.val_main_v80 (F := F) X0 X1 X2 X3 X4 X5 X6⟩,
    ⟨main_v81, Read.val_main_v81 (F := F) X0 X1 X2 X3 X4 X5 X6⟩,
    ⟨main_v82, Read.val_main_v82 (F := F) X0 X1 X2 X3 X4 X5 X6⟩,
    ⟨main_cst_11, Read.val_main_cst_11 (F := F)⟩,
    ⟨main_v83, Read.val_main_v83 (F := F)⟩,
    ⟨main_v84, Read.val_main_v84 (F := F) X0 X1 X2 X3 X4 X5 X6⟩,
    ⟨main_v85, Read.val_main_v85 (F := F) X0 X1 X2 X3 X4 X5 X6⟩,
    ⟨main_v86, Read.val_main_v86 (F := F) X0 X1 X2 X3 X4 X5 X6⟩,
    ⟨main_v87, Read.val_main_v87 (F := F) X0 X1 X2 X3 X4 X5 X6⟩,
    ⟨main_v88, Read.val_main_v88 (F := F) X0 X1 X2 X3 X4 X5 X6⟩,
    ⟨main_v89, Read.val_main_v89 (F := F) X0 X1 X2 X3 X4 X5 X6⟩,
    ⟨main_v90, Read.val_main_v90 (F := F) X0 X1 X2 X3 X4 X5 X6⟩,
    ⟨main_v91, Read.val_main_v91 (F := F) X0 X1 X2 X3 X4 X5 X6⟩,
    ⟨main_v92, Read.val_main_v92 (F := F) X0 X1 X2 X3 X4 X5 X6⟩,
    ⟨main_v93, Read.val_main_v93 (F := F) X0 X1 X2 X3 X4 X5 X6⟩,
    ⟨main_v94, Read.val_main_v94 (F := F) X0 X1 X2 X3 X4 X5 X6⟩,
    ⟨main_v95, Read.val_main_v95 (F := F) X0 X1 X2 X3 X4 X5 X6⟩,
    ⟨main_v96, Read.val_main_v96 (F := F) X0 X1 X2 X3 X4 X5 X6⟩,
    ⟨main_v97, Read.val_main_v97 (F := F) X0 X1 X2 X3 X4 X5 X6⟩,
    ⟨main_v98, Read.val_main_v98 (F := F) X0 X1 X2 X3 X4 X5 X6⟩,
    ⟨main_v99, Read.val_main_v99 (F := F) X0 X1 X2 X3 X4 X5 X6⟩,
    ⟨main_v100, Read.val_main_v100 (F := F) X0 X1 X2 X3 X4 X5 X6⟩,
    ⟨main_v101, Read.val_main_v101 (F := F) X0 X1 X2 X3 X4 X5 X6⟩,
    ⟨main_v102, Read.val_main_v102 (F := F) X0 X1 X2 X3 X4 X5 X6⟩,
    ⟨main_v103, Read.val_main_v103 (F := F) X0 X1 X2 X3 X4 X5 X6⟩,
    ⟨main_v104, Read.val_main_v104 (F := F) X0 X1 X2 X3 X4 X5 X6⟩,
    ⟨main_v105, Read.val_main_v105 (F := F) X0 X1 X2 X3 X4 X5 X6⟩,
    ⟨main_v106, Read.val_main_v106 (F := F) X0 X1 X2 X3 X4 X5 X6⟩ ]
/-- The stages known after window 1, the newest first. -/
abbrev tbl_1 : List (Entry sig (Elt F)) := (ps_1 X0 X1 X2 X3 X4 X5 X6).reverse ++ tbl_0 X0 X1 X2 X3 X4 X5 X6
theorem up_1 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_0 X0 X1 X2 X3 X4 X5 X6) : e ∈ tbl_1 X0 X1 X2 X3 X4 X5 X6 := List.mem_append_right _ h
theorem in_1 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_1 X0 X1 X2 X3 X4 X5 X6).reverse[j]? = some e) : e ∈ tbl_1 X0 X1 X2 X3 X4 X5 X6 :=
  List.mem_append_left _ (List.mem_of_getElem? h)
set_option maxRecDepth 1000000 in
set_option maxHeartbeats 4000000 in
theorem chain_1 : Chain (tbl_0 X0 X1 X2 X3 X4 X5 X6) (7 + 64) (ops_1 (F := F)) (ps_1 X0 X1 X2 X3 X4 X5 X6) :=
  ⟨⟨rfl, rfl, fun W _ => nullary_result main_cst_4 _ _ W⟩,
   ⟨rfl, rfl, fun W hg => (unary_result main_cst_4 main_v55 (broadcastInDim S8192 ![] bcast_S_S8192 : (⟨S_, .f32⟩ : BufTy).Contents (Elt F) → (⟨S8192, .f32⟩ : BufTy).Contents (Elt F)) _ _ W).trans (congrArg (broadcastInDim S8192 ![] bcast_S_S8192 : (⟨S_, .f32⟩ : BufTy).Contents (Elt F) → (⟨S8192, .f32⟩ : BufTy).Contents (Elt F)) (hg ⟨main_cst_4, Read.val_main_cst_4 (F := F)⟩ (List.mem_of_getElem? (i := 0) rfl)))⟩,
   ⟨rfl, rfl, fun W hg => (binary_result main_v55 main_v54 main_v56 (subf : (⟨S8192, .f32⟩ : BufTy).Contents (Elt F) → (⟨S8192, .f32⟩ : BufTy).Contents (Elt F) → (⟨S8192, .f32⟩ : BufTy).Contents (Elt F)) _ _ _ W).trans (congrArg₂ (subf : (⟨S8192, .f32⟩ : BufTy).Contents (Elt F) → (⟨S8192, .f32⟩ : BufTy).Contents (Elt F) → (⟨S8192, .f32⟩ : BufTy).Contents (Elt F)) (hg ⟨main_v55, Read.val_main_v55 (F := F)⟩ (List.mem_of_getElem? (i := 0) rfl)) (hg ⟨main_v54, Read.val_main_v54 (F := F) X0 X1 X2 X3 X4 X5 X6⟩ (List.mem_of_mem_drop (i := 2) (in_0 X0 X1 X2 X3 X4 X5 X6 (j := 0) rfl))))⟩,
   ⟨rfl, rfl, fun W hg => (unary_result main_v24 main_v57 ((extractStridedSlice S8192x1 ![0, 3] · slices_S8192x10_S8192x1_0_3) : (⟨S8192x10, .f32⟩ : BufTy).Contents (Elt F) → (⟨S8192x1, .f32⟩ : BufTy).Contents (Elt F)) _ _ W).trans (congrArg ((extractStridedSlice S8192x1 ![0, 3] · slices_S8192x10_S8192x1_0_3) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_mem_drop (i := 3) (in_0 X0 X1 X2 X3 X4 X5 X6 (j := 32) rfl))))⟩,
   ⟨rfl, rfl, fun W hg => (reshape_result main_v57 main_v58 _ _ _ _ W).trans (by rw [(hg ⟨main_v57, Read.val_main_v57 (F := F) X0 X1 X2 X3 X4 X5 X6⟩ (List.mem_of_getElem? (i := 0) rfl) : W (Proc.devRef .tc main_v57) = Read.val_main_v57 (F := F) X0 X1 X2 X3 X4 X5 X6)]; rfl)⟩,
   ⟨rfl, rfl, fun W _ => nullary_result main_cst_5 _ _ W⟩,
   ⟨rfl, rfl, fun W hg => (unary_result main_cst_5 main_v59 (broadcastInDim S8192 ![] bcast_S_S8192 : (⟨S_, .f32⟩ : BufTy).Contents (Elt F) → (⟨S8192, .f32⟩ : BufTy).Contents (Elt F)) _ _ W).trans (congrArg (broadcastInDim S8192 ![] bcast_S_S8192 : (⟨S_, .f32⟩ : BufTy).Contents (Elt F) → (⟨S8192, .f32⟩ : BufTy).Contents (Elt F)) (hg ⟨main_cst_5, Read.val_main_cst_5 (F := F)⟩ (List.mem_of_getElem? (i := 0) rfl)))⟩,
   ⟨rfl, rfl, fun W hg => (binary_result main_v59 main_v58 main_v60 (subf : (⟨S8192, .f32⟩ : BufTy).Contents (Elt F) → (⟨S8192, .f32⟩ : BufTy).Contents (Elt F) → (⟨S8192, .f32⟩ : BufTy).Contents (Elt F)) _ _ _ W).trans (congrArg₂ (subf : (⟨S8192, .f32⟩ : BufTy).Contents (Elt F) → (⟨S8192, .f32⟩ : BufTy).Contents (Elt F) → (⟨S8192, .f32⟩ : BufTy).Contents (Elt F)) (hg ⟨main_v59, Read.val_main_v59 (F := F)⟩ (List.mem_of_getElem? (i := 0) rfl)) (hg ⟨main_v58, Read.val_main_v58 (F := F) X0 X1 X2 X3 X4 X5 X6⟩ (List.mem_of_getElem? (i := 2) rfl)))⟩,
   ⟨rfl, rfl, fun W hg => (unary_result main_v24 main_v61 ((extractStridedSlice S8192x1 ![0, 4] · slices_S8192x10_S8192x1_0_4) : (⟨S8192x10, .f32⟩ : BufTy).Contents (Elt F) → (⟨S8192x1, .f32⟩ : BufTy).Contents (Elt F)) _ _ W).trans (congrArg ((extractStridedSlice S8192x1 ![0, 4] · slices_S8192x10_S8192x1_0_4) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_mem_drop (i := 8) (in_0 X0 X1 X2 X3 X4 X5 X6 (j := 32) rfl))))⟩,
   ⟨rfl, rfl, fun W hg => (reshape_result main_v61 main_v62 _ _ _ _ W).trans (by rw [(hg ⟨main_v61, Read.val_main_v61 (F := F) X0 X1 X2 X3 X4 X5 X6⟩ (List.mem_of_getElem? (i := 0) rfl) : W (Proc.devRef .tc main_v61) = Read.val_main_v61 (F := F) X0 X1 X2 X3 X4 X5 X6)]; rfl)⟩,
   ⟨rfl, rfl, fun W _ => nullary_result main_cst_6 _ _ W⟩,
   ⟨rfl, rfl, fun W hg => (unary_result main_cst_6 main_v63 (broadcastInDim S8192 ![] bcast_S_S8192 : (⟨S_, .f32⟩ : BufTy).Contents (Elt F) → (⟨S8192, .f32⟩ : BufTy).Contents (Elt F)) _ _ W).trans (congrArg (broadcastInDim S8192 ![] bcast_S_S8192 : (⟨S_, .f32⟩ : BufTy).Contents (Elt F) → (⟨S8192, .f32⟩ : BufTy).Contents (Elt F)) (hg ⟨main_cst_6, Read.val_main_cst_6 (F := F)⟩ (List.mem_of_getElem? (i := 0) rfl)))⟩,
   ⟨rfl, rfl, fun W hg => (binary_result main_v63 main_v62 main_v64 (subf : (⟨S8192, .f32⟩ : BufTy).Contents (Elt F) → (⟨S8192, .f32⟩ : BufTy).Contents (Elt F) → (⟨S8192, .f32⟩ : BufTy).Contents (Elt F)) _ _ _ W).trans (congrArg₂ (subf : (⟨S8192, .f32⟩ : BufTy).Contents (Elt F) → (⟨S8192, .f32⟩ : BufTy).Contents (Elt F) → (⟨S8192, .f32⟩ : BufTy).Contents (Elt F)) (hg ⟨main_v63, Read.val_main_v63 (F := F)⟩ (List.mem_of_getElem? (i := 0) rfl)) (hg ⟨main_v62, Read.val_main_v62 (F := F) X0 X1 X2 X3 X4 X5 X6⟩ (List.mem_of_getElem? (i := 2) rfl)))⟩,
   ⟨rfl, rfl, fun W hg => (unary_result main_v24 main_v65 ((extractStridedSlice S8192x1 ![0, 5] · slices_S8192x10_S8192x1_0_5) : (⟨S8192x10, .f32⟩ : BufTy).Contents (Elt F) → (⟨S8192x1, .f32⟩ : BufTy).Contents (Elt F)) _ _ W).trans (congrArg ((extractStridedSlice S8192x1 ![0, 5] · slices_S8192x10_S8192x1_0_5) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_mem_drop (i := 13) (in_0 X0 X1 X2 X3 X4 X5 X6 (j := 32) rfl))))⟩,
   ⟨rfl, rfl, fun W hg => (reshape_result main_v65 main_v66 _ _ _ _ W).trans (by rw [(hg ⟨main_v65, Read.val_main_v65 (F := F) X0 X1 X2 X3 X4 X5 X6⟩ (List.mem_of_getElem? (i := 0) rfl) : W (Proc.devRef .tc main_v65) = Read.val_main_v65 (F := F) X0 X1 X2 X3 X4 X5 X6)]; rfl)⟩,
   ⟨rfl, rfl, fun W _ => nullary_result main_cst_7 _ _ W⟩,
   ⟨rfl, rfl, fun W hg => (unary_result main_cst_7 main_v67 (broadcastInDim S8192 ![] bcast_S_S8192 : (⟨S_, .f32⟩ : BufTy).Contents (Elt F) → (⟨S8192, .f32⟩ : BufTy).Contents (Elt F)) _ _ W).trans (congrArg (broadcastInDim S8192 ![] bcast_S_S8192 : (⟨S_, .f32⟩ : BufTy).Contents (Elt F) → (⟨S8192, .f32⟩ : BufTy).Contents (Elt F)) (hg ⟨main_cst_7, Read.val_main_cst_7 (F := F)⟩ (List.mem_of_getElem? (i := 0) rfl)))⟩,
   ⟨rfl, rfl, fun W hg => (binary_result main_v67 main_v66 main_v68 (subf : (⟨S8192, .f32⟩ : BufTy).Contents (Elt F) → (⟨S8192, .f32⟩ : BufTy).Contents (Elt F) → (⟨S8192, .f32⟩ : BufTy).Contents (Elt F)) _ _ _ W).trans (congrArg₂ (subf : (⟨S8192, .f32⟩ : BufTy).Contents (Elt F) → (⟨S8192, .f32⟩ : BufTy).Contents (Elt F) → (⟨S8192, .f32⟩ : BufTy).Contents (Elt F)) (hg ⟨main_v67, Read.val_main_v67 (F := F)⟩ (List.mem_of_getElem? (i := 0) rfl)) (hg ⟨main_v66, Read.val_main_v66 (F := F) X0 X1 X2 X3 X4 X5 X6⟩ (List.mem_of_getElem? (i := 2) rfl)))⟩,
   ⟨rfl, rfl, fun W hg => (unary_result main_v24 main_v69 ((extractStridedSlice S8192x1 ![0, 6] · slices_S8192x10_S8192x1_0_6) : (⟨S8192x10, .f32⟩ : BufTy).Contents (Elt F) → (⟨S8192x1, .f32⟩ : BufTy).Contents (Elt F)) _ _ W).trans (congrArg ((extractStridedSlice S8192x1 ![0, 6] · slices_S8192x10_S8192x1_0_6) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_mem_drop (i := 18) (in_0 X0 X1 X2 X3 X4 X5 X6 (j := 32) rfl))))⟩,
   ⟨rfl, rfl, fun W hg => (reshape_result main_v69 main_v70 _ _ _ _ W).trans (by rw [(hg ⟨main_v69, Read.val_main_v69 (F := F) X0 X1 X2 X3 X4 X5 X6⟩ (List.mem_of_getElem? (i := 0) rfl) : W (Proc.devRef .tc main_v69) = Read.val_main_v69 (F := F) X0 X1 X2 X3 X4 X5 X6)]; rfl)⟩,
   ⟨rfl, rfl, fun W _ => nullary_result main_cst_8 _ _ W⟩,
   ⟨rfl, rfl, fun W hg => (unary_result main_cst_8 main_v71 (broadcastInDim S8192 ![] bcast_S_S8192 : (⟨S_, .f32⟩ : BufTy).Contents (Elt F) → (⟨S8192, .f32⟩ : BufTy).Contents (Elt F)) _ _ W).trans (congrArg (broadcastInDim S8192 ![] bcast_S_S8192 : (⟨S_, .f32⟩ : BufTy).Contents (Elt F) → (⟨S8192, .f32⟩ : BufTy).Contents (Elt F)) (hg ⟨main_cst_8, Read.val_main_cst_8 (F := F)⟩ (List.mem_of_getElem? (i := 0) rfl)))⟩,
   ⟨rfl, rfl, fun W hg => (binary_result main_v71 main_v70 main_v72 (subf : (⟨S8192, .f32⟩ : BufTy).Contents (Elt F) → (⟨S8192, .f32⟩ : BufTy).Contents (Elt F) → (⟨S8192, .f32⟩ : BufTy).Contents (Elt F)) _ _ _ W).trans (congrArg₂ (subf : (⟨S8192, .f32⟩ : BufTy).Contents (Elt F) → (⟨S8192, .f32⟩ : BufTy).Contents (Elt F) → (⟨S8192, .f32⟩ : BufTy).Contents (Elt F)) (hg ⟨main_v71, Read.val_main_v71 (F := F)⟩ (List.mem_of_getElem? (i := 0) rfl)) (hg ⟨main_v70, Read.val_main_v70 (F := F) X0 X1 X2 X3 X4 X5 X6⟩ (List.mem_of_getElem? (i := 2) rfl)))⟩,
   ⟨rfl, rfl, fun W hg => (unary_result main_v24 main_v73 ((extractStridedSlice S8192x1 ![0, 7] · slices_S8192x10_S8192x1_0_7) : (⟨S8192x10, .f32⟩ : BufTy).Contents (Elt F) → (⟨S8192x1, .f32⟩ : BufTy).Contents (Elt F)) _ _ W).trans (congrArg ((extractStridedSlice S8192x1 ![0, 7] · slices_S8192x10_S8192x1_0_7) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_mem_drop (i := 23) (in_0 X0 X1 X2 X3 X4 X5 X6 (j := 32) rfl))))⟩,
   ⟨rfl, rfl, fun W hg => (reshape_result main_v73 main_v74 _ _ _ _ W).trans (by rw [(hg ⟨main_v73, Read.val_main_v73 (F := F) X0 X1 X2 X3 X4 X5 X6⟩ (List.mem_of_getElem? (i := 0) rfl) : W (Proc.devRef .tc main_v73) = Read.val_main_v73 (F := F) X0 X1 X2 X3 X4 X5 X6)]; rfl)⟩,
   ⟨rfl, rfl, fun W _ => nullary_result main_cst_9 _ _ W⟩,
   ⟨rfl, rfl, fun W hg => (unary_result main_cst_9 main_v75 (broadcastInDim S8192 ![] bcast_S_S8192 : (⟨S_, .f32⟩ : BufTy).Contents (Elt F) → (⟨S8192, .f32⟩ : BufTy).Contents (Elt F)) _ _ W).trans (congrArg (broadcastInDim S8192 ![] bcast_S_S8192 : (⟨S_, .f32⟩ : BufTy).Contents (Elt F) → (⟨S8192, .f32⟩ : BufTy).Contents (Elt F)) (hg ⟨main_cst_9, Read.val_main_cst_9 (F := F)⟩ (List.mem_of_getElem? (i := 0) rfl)))⟩,
   ⟨rfl, rfl, fun W hg => (binary_result main_v75 main_v74 main_v76 (subf : (⟨S8192, .f32⟩ : BufTy).Contents (Elt F) → (⟨S8192, .f32⟩ : BufTy).Contents (Elt F) → (⟨S8192, .f32⟩ : BufTy).Contents (Elt F)) _ _ _ W).trans (congrArg₂ (subf : (⟨S8192, .f32⟩ : BufTy).Contents (Elt F) → (⟨S8192, .f32⟩ : BufTy).Contents (Elt F) → (⟨S8192, .f32⟩ : BufTy).Contents (Elt F)) (hg ⟨main_v75, Read.val_main_v75 (F := F)⟩ (List.mem_of_getElem? (i := 0) rfl)) (hg ⟨main_v74, Read.val_main_v74 (F := F) X0 X1 X2 X3 X4 X5 X6⟩ (List.mem_of_getElem? (i := 2) rfl)))⟩,
   ⟨rfl, rfl, fun W hg => (unary_result main_v24 main_v77 ((extractStridedSlice S8192x1 ![0, 8] · slices_S8192x10_S8192x1_0_8) : (⟨S8192x10, .f32⟩ : BufTy).Contents (Elt F) → (⟨S8192x1, .f32⟩ : BufTy).Contents (Elt F)) _ _ W).trans (congrArg ((extractStridedSlice S8192x1 ![0, 8] · slices_S8192x10_S8192x1_0_8) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_mem_drop (i := 28) (in_0 X0 X1 X2 X3 X4 X5 X6 (j := 32) rfl))))⟩,
   ⟨rfl, rfl, fun W hg => (reshape_result main_v77 main_v78 _ _ _ _ W).trans (by rw [(hg ⟨main_v77, Read.val_main_v77 (F := F) X0 X1 X2 X3 X4 X5 X6⟩ (List.mem_of_getElem? (i := 0) rfl) : W (Proc.devRef .tc main_v77) = Read.val_main_v77 (F := F) X0 X1 X2 X3 X4 X5 X6)]; rfl)⟩,
   ⟨rfl, rfl, fun W _ => nullary_result main_cst_10 _ _ W⟩,
   ⟨rfl, rfl, fun W hg => (unary_result main_cst_10 main_v79 (broadcastInDim S8192 ![] bcast_S_S8192 : (⟨S_, .f32⟩ : BufTy).Contents (Elt F) → (⟨S8192, .f32⟩ : BufTy).Contents (Elt F)) _ _ W).trans (congrArg (broadcastInDim S8192 ![] bcast_S_S8192 : (⟨S_, .f32⟩ : BufTy).Contents (Elt F) → (⟨S8192, .f32⟩ : BufTy).Contents (Elt F)) (hg ⟨main_cst_10, Read.val_main_cst_10 (F := F)⟩ (List.mem_of_getElem? (i := 0) rfl)))⟩,
   ⟨rfl, rfl, fun W hg => (binary_result main_v79 main_v78 main_v80 (subf : (⟨S8192, .f32⟩ : BufTy).Contents (Elt F) → (⟨S8192, .f32⟩ : BufTy).Contents (Elt F) → (⟨S8192, .f32⟩ : BufTy).Contents (Elt F)) _ _ _ W).trans (congrArg₂ (subf : (⟨S8192, .f32⟩ : BufTy).Contents (Elt F) → (⟨S8192, .f32⟩ : BufTy).Contents (Elt F) → (⟨S8192, .f32⟩ : BufTy).Contents (Elt F)) (hg ⟨main_v79, Read.val_main_v79 (F := F)⟩ (List.mem_of_getElem? (i := 0) rfl)) (hg ⟨main_v78, Read.val_main_v78 (F := F) X0 X1 X2 X3 X4 X5 X6⟩ (List.mem_of_getElem? (i := 2) rfl)))⟩,
   ⟨rfl, rfl, fun W hg => (unary_result main_v24 main_v81 ((extractStridedSlice S8192x1 ![0, 9] · slices_S8192x10_S8192x1_0_9) : (⟨S8192x10, .f32⟩ : BufTy).Contents (Elt F) → (⟨S8192x1, .f32⟩ : BufTy).Contents (Elt F)) _ _ W).trans (congrArg ((extractStridedSlice S8192x1 ![0, 9] · slices_S8192x10_S8192x1_0_9) : (⟨S8192x10, .f32⟩ : BufTy).Contents (Elt F) → (⟨S8192x1, .f32⟩ : BufTy).Contents (Elt F)) (hg ⟨main_v24, Read.val_main_v24 (F := F) X0 X1 X2 X3 X4 X5 X6⟩ (List.mem_of_mem_drop (i := 33) (in_0 X0 X1 X2 X3 X4 X5 X6 (j := 32) rfl))))⟩,
   ⟨rfl, rfl, fun W hg => (reshape_result main_v81 main_v82 _ _ _ _ W).trans (by rw [(hg ⟨main_v81, Read.val_main_v81 (F := F) X0 X1 X2 X3 X4 X5 X6⟩ (List.mem_of_getElem? (i := 0) rfl) : W (Proc.devRef .tc main_v81) = Read.val_main_v81 (F := F) X0 X1 X2 X3 X4 X5 X6)]; rfl)⟩,
   ⟨rfl, rfl, fun W _ => nullary_result main_cst_11 _ _ W⟩,
   ⟨rfl, rfl, fun W hg => (unary_result main_cst_11 main_v83 (broadcastInDim S8192 ![] bcast_S_S8192 : (⟨S_, .f32⟩ : BufTy).Contents (Elt F) → (⟨S8192, .f32⟩ : BufTy).Contents (Elt F)) _ _ W).trans (congrArg (broadcastInDim S8192 ![] bcast_S_S8192 : (⟨S_, .f32⟩ : BufTy).Contents (Elt F) → (⟨S8192, .f32⟩ : BufTy).Contents (Elt F)) (hg ⟨main_cst_11, Read.val_main_cst_11 (F := F)⟩ (List.mem_of_getElem? (i := 0) rfl)))⟩,
   ⟨rfl, rfl, fun W hg => (binary_result main_v83 main_v82 main_v84 (subf : (⟨S8192, .f32⟩ : BufTy).Contents (Elt F) → (⟨S8192, .f32⟩ : BufTy).Contents (Elt F) → (⟨S8192, .f32⟩ : BufTy).Contents (Elt F)) _ _ _ W).trans (congrArg₂ (subf : (⟨S8192, .f32⟩ : BufTy).Contents (Elt F) → (⟨S8192, .f32⟩ : BufTy).Contents (Elt F) → (⟨S8192, .f32⟩ : BufTy).Contents (Elt F)) (hg ⟨main_v83, Read.val_main_v83 (F := F)⟩ (List.mem_of_getElem? (i := 0) rfl)) (hg ⟨main_v82, Read.val_main_v82 (F := F) X0 X1 X2 X3 X4 X5 X6⟩ (List.mem_of_getElem? (i := 2) rfl)))⟩,
   ⟨rfl, rfl, fun W hg => (binary_result main_v30 main_v34 main_v85 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 38) (in_0 X0 X1 X2 X3 X4 X5 X6 (j := 26) rfl))) (hg ⟨main_v34, Read.val_main_v34 (F := F) X0 X1 X2 X3 X4 X5 X6⟩ (List.mem_of_mem_drop (i := 38) (in_0 X0 X1 X2 X3 X4 X5 X6 (j := 22) rfl))))⟩,
   ⟨rfl, rfl, fun W hg => (binary_result main_v42 main_v38 main_v86 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 39) (in_0 X0 X1 X2 X3 X4 X5 X6 (j := 14) rfl))) (hg ⟨main_v38, Read.val_main_v38 (F := F) X0 X1 X2 X3 X4 X5 X6⟩ (List.mem_of_mem_drop (i := 39) (in_0 X0 X1 X2 X3 X4 X5 X6 (j := 18) rfl))))⟩,
   ⟨rfl, rfl, fun W hg => (binary_result main_v85 main_v86 main_v87 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v85, Read.val_main_v85 (F := F) X0 X1 X2 X3 X4 X5 X6⟩ (List.mem_of_getElem? (i := 1) rfl)) (hg ⟨main_v86, Read.val_main_v86 (F := F) X0 X1 X2 X3 X4 X5 X6⟩ (List.mem_of_getElem? (i := 0) rfl)))⟩,
   ⟨rfl, rfl, fun W hg => (binary_result main_v34 main_v56 main_v88 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 41) (in_0 X0 X1 X2 X3 X4 X5 X6 (j := 22) rfl))) (hg ⟨main_v56, Read.val_main_v56 (F := F) X0 X1 X2 X3 X4 X5 X6⟩ (List.mem_of_getElem? (i := 38) rfl)))⟩,
   ⟨rfl, rfl, fun W hg => (binary_result main_v87 main_v88 main_v89 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v87, Read.val_main_v87 (F := F) X0 X1 X2 X3 X4 X5 X6⟩ (List.mem_of_getElem? (i := 1) rfl)) (hg ⟨main_v88, Read.val_main_v88 (F := F) X0 X1 X2 X3 X4 X5 X6⟩ (List.mem_of_getElem? (i := 0) rfl)))⟩,
   ⟨rfl, rfl, fun W hg => (binary_result main_v36 main_v42 main_v90 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 43) (in_0 X0 X1 X2 X3 X4 X5 X6 (j := 20) rfl))) (hg ⟨main_v42, Read.val_main_v42 (F := F) X0 X1 X2 X3 X4 X5 X6⟩ (List.mem_of_mem_drop (i := 43) (in_0 X0 X1 X2 X3 X4 X5 X6 (j := 14) rfl))))⟩,
   ⟨rfl, rfl, fun W hg => (binary_result main_v30 main_v44 main_v91 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 44) (in_0 X0 X1 X2 X3 X4 X5 X6 (j := 26) rfl))) (hg ⟨main_v44, Read.val_main_v44 (F := F) X0 X1 X2 X3 X4 X5 X6⟩ (List.mem_of_mem_drop (i := 44) (in_0 X0 X1 X2 X3 X4 X5 X6 (j := 12) rfl))))⟩,
   ⟨rfl, rfl, fun W hg => (binary_result main_v90 main_v91 main_v92 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v90, Read.val_main_v90 (F := F) X0 X1 X2 X3 X4 X5 X6⟩ (List.mem_of_getElem? (i := 1) rfl)) (hg ⟨main_v91, Read.val_main_v91 (F := F) X0 X1 X2 X3 X4 X5 X6⟩ (List.mem_of_getElem? (i := 0) rfl)))⟩,
   ⟨rfl, rfl, fun W hg => (binary_result main_v32 main_v89 main_v93 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 46) (in_0 X0 X1 X2 X3 X4 X5 X6 (j := 24) rfl))) (hg ⟨main_v89, Read.val_main_v89 (F := F) X0 X1 X2 X3 X4 X5 X6⟩ (List.mem_of_getElem? (i := 3) rfl)))⟩,
   ⟨rfl, rfl, fun W hg => (binary_result main_v92 main_v93 main_v94 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v92, Read.val_main_v92 (F := F) X0 X1 X2 X3 X4 X5 X6⟩ (List.mem_of_getElem? (i := 1) rfl)) (hg ⟨main_v93, Read.val_main_v93 (F := F) X0 X1 X2 X3 X4 X5 X6⟩ (List.mem_of_getElem? (i := 0) rfl)))⟩,
   ⟨rfl, rfl, fun W hg => (binary_result main_v34 main_v84 main_v95 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 48) (in_0 X0 X1 X2 X3 X4 X5 X6 (j := 22) rfl))) (hg ⟨main_v84, Read.val_main_v84 (F := F) X0 X1 X2 X3 X4 X5 X6⟩ (List.mem_of_getElem? (i := 10) rfl)))⟩,
   ⟨rfl, rfl, fun W hg => (binary_result main_v28 main_v84 main_v96 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 49) (in_0 X0 X1 X2 X3 X4 X5 X6 (j := 28) rfl))) (hg ⟨main_v84, Read.val_main_v84 (F := F) X0 X1 X2 X3 X4 X5 X6⟩ (List.mem_of_getElem? (i := 11) rfl)))⟩,
   ⟨rfl, rfl, fun W hg => (binary_result main_v95 main_v96 main_v97 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v95, Read.val_main_v95 (F := F) X0 X1 X2 X3 X4 X5 X6⟩ (List.mem_of_getElem? (i := 1) rfl)) (hg ⟨main_v96, Read.val_main_v96 (F := F) X0 X1 X2 X3 X4 X5 X6⟩ (List.mem_of_getElem? (i := 0) rfl)))⟩,
   ⟨rfl, rfl, fun W hg => (binary_result main_v38 main_v84 main_v98 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 51) (in_0 X0 X1 X2 X3 X4 X5 X6 (j := 18) rfl))) (hg ⟨main_v84, Read.val_main_v84 (F := F) X0 X1 X2 X3 X4 X5 X6⟩ (List.mem_of_getElem? (i := 13) rfl)))⟩,
   ⟨rfl, rfl, fun W hg => (binary_result main_v97 main_v98 main_v99 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v97, Read.val_main_v97 (F := F) X0 X1 X2 X3 X4 X5 X6⟩ (List.mem_of_getElem? (i := 1) rfl)) (hg ⟨main_v98, Read.val_main_v98 (F := F) X0 X1 X2 X3 X4 X5 X6⟩ (List.mem_of_getElem? (i := 0) rfl)))⟩,
   ⟨rfl, rfl, fun W hg => (binary_result main_v36 main_v32 main_v100 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 53) (in_0 X0 X1 X2 X3 X4 X5 X6 (j := 20) rfl))) (hg ⟨main_v32, Read.val_main_v32 (F := F) X0 X1 X2 X3 X4 X5 X6⟩ (List.mem_of_mem_drop (i := 53) (in_0 X0 X1 X2 X3 X4 X5 X6 (j := 24) rfl))))⟩,
   ⟨rfl, rfl, fun W hg => (binary_result main_v34 main_v52 main_v101 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 54) (in_0 X0 X1 X2 X3 X4 X5 X6 (j := 22) rfl))) (hg ⟨main_v52, Read.val_main_v52 (F := F) X0 X1 X2 X3 X4 X5 X6⟩ (List.mem_of_mem_drop (i := 54) (in_0 X0 X1 X2 X3 X4 X5 X6 (j := 2) rfl))))⟩,
   ⟨rfl, rfl, fun W hg => (binary_result main_v100 main_v101 main_v102 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v100, Read.val_main_v100 (F := F) X0 X1 X2 X3 X4 X5 X6⟩ (List.mem_of_getElem? (i := 1) rfl)) (hg ⟨main_v101, Read.val_main_v101 (F := F) X0 X1 X2 X3 X4 X5 X6⟩ (List.mem_of_getElem? (i := 0) rfl)))⟩,
   ⟨rfl, rfl, fun W hg => (binary_result main_v30 main_v80 main_v103 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 56) (in_0 X0 X1 X2 X3 X4 X5 X6 (j := 26) rfl))) (hg ⟨main_v80, Read.val_main_v80 (F := F) X0 X1 X2 X3 X4 X5 X6⟩ (List.mem_of_getElem? (i := 23) rfl)))⟩,
   ⟨rfl, rfl, fun W hg => (binary_result main_v102 main_v103 main_v104 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v102, Read.val_main_v102 (F := F) X0 X1 X2 X3 X4 X5 X6⟩ (List.mem_of_getElem? (i := 1) rfl)) (hg ⟨main_v103, Read.val_main_v103 (F := F) X0 X1 X2 X3 X4 X5 X6⟩ (List.mem_of_getElem? (i := 0) rfl)))⟩,
   ⟨rfl, rfl, fun W hg => (binary_result main_v32 main_v34 main_v105 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 58) (in_0 X0 X1 X2 X3 X4 X5 X6 (j := 24) rfl))) (hg ⟨main_v34, Read.val_main_v34 (F := F) X0 X1 X2 X3 X4 X5 X6⟩ (List.mem_of_mem_drop (i := 58) (in_0 X0 X1 X2 X3 X4 X5 X6 (j := 22) rfl))))⟩,
   ⟨rfl, rfl, fun W hg => (binary_result main_v42 main_v44 main_v106 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 59) (in_0 X0 X1 X2 X3 X4 X5 X6 (j := 14) rfl))) (hg ⟨main_v44, Read.val_main_v44 (F := F) X0 X1 X2 X3 X4 X5 X6⟩ (List.mem_of_mem_drop (i := 59) (in_0 X0 X1 X2 X3 X4 X5 X6 (j := 12) rfl))))⟩,
   trivial⟩
theorem good_1 (W : Valuation τ sig (Elt F)) (hg : Good W (tbl_0 X0 X1 X2 X3 X4 X5 X6) (7 + 64)) :
    Good (after ops_1 W) (tbl_1 X0 X1 X2 X3 X4 X5 X6) (7 + 124) :=
  Good.after _ _ _ _ W hg (chain_1 X0 X1 X2 X3 X4 X5 X6)

theorem part_eq_2 (c : Dev nD) : main_part2 (F := F) c = seq ops_2 := rfl
theorem fresh_2 : (ops_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 2's operations write, in order. -/
abbrev ps_2 : List (Entry sig (Elt F)) :=
  [ ⟨main_v107, Read.val_main_v107 (F := F) X0 X1 X2 X3 X4 X5 X6⟩,
    ⟨main_v108, Read.val_main_v108 (F := F) X0 X1 X2 X3 X4 X5 X6⟩,
    ⟨main_v109, Read.val_main_v109 (F := F) X0 X1 X2 X3 X4 X5 X6⟩,
    ⟨main_v110, Read.val_main_v110 (F := F) X0 X1 X2 X3 X4 X5 X6⟩,
    ⟨main_v111, Read.val_main_v111 (F := F) X0 X1 X2 X3 X4 X5 X6⟩,
    ⟨main_v112, Read.val_main_v112 (F := F) X0 X1 X2 X3 X4 X5 X6⟩,
    ⟨main_v113, Read.val_main_v113 (F := F) X0 X1 X2 X3 X4 X5 X6⟩,
    ⟨main_v114, Read.val_main_v114 (F := F) X0 X1 X2 X3 X4 X5 X6⟩,
    ⟨main_v115, Read.val_main_v115 (F := F) X0 X1 X2 X3 X4 X5 X6⟩,
    ⟨main_v116, Read.val_main_v116 (F := F) X0 X1 X2 X3 X4 X5 X6⟩,
    ⟨main_v117, Read.val_main_v117 (F := F) X0 X1 X2 X3 X4 X5 X6⟩,
    ⟨main_v118, Read.val_main_v118 (F := F) X0 X1 X2 X3 X4 X5 X6⟩,
    ⟨main_v119, Read.val_main_v119 (F := F) X0 X1 X2 X3 X4 X5 X6⟩,
    ⟨main_v120, Read.val_main_v120 (F := F) X0 X1 X2 X3 X4 X5 X6⟩,
    ⟨main_v121, Read.val_main_v121 (F := F) X0 X1 X2 X3 X4 X5 X6⟩,
    ⟨main_v122, Read.val_main_v122 (F := F) X0 X1 X2 X3 X4 X5 X6⟩,
    ⟨main_v123, Read.val_main_v123 (F := F) X0 X1 X2 X3 X4 X5 X6⟩,
    ⟨main_v124, Read.val_main_v124 (F := F) X0 X1 X2 X3 X4 X5 X6⟩,
    ⟨main_v125, Read.val_main_v125 (F := F) X0 X1 X2 X3 X4 X5 X6⟩,
    ⟨main_v126, Read.val_main_v126 (F := F) X0 X1 X2 X3 X4 X5 X6⟩,
    ⟨main_v127, Read.val_main_v127 (F := F) X0 X1 X2 X3 X4 X5 X6⟩,
    ⟨main_v128, Read.val_main_v128 (F := F) X0 X1 X2 X3 X4 X5 X6⟩,
    ⟨main_v129, Read.val_main_v129 (F := F) X0 X1 X2 X3 X4 X5 X6⟩,
    ⟨main_v130, Read.val_main_v130 (F := F) X0 X1 X2 X3 X4 X5 X6⟩,
    ⟨main_v131, Read.val_main_v131 (F := F) X0 X1 X2 X3 X4 X5 X6⟩,
    ⟨main_v132, Read.val_main_v132 (F := F) X0 X1 X2 X3 X4 X5 X6⟩,
    ⟨main_v133, Read.val_main_v133 (F := F) X0 X1 X2 X3 X4 X5 X6⟩,
    ⟨main_v134, Read.val_main_v134 (F := F) X0 X1 X2 X3 X4 X5 X6⟩,
    ⟨main_v135, Read.val_main_v135 (F := F) X0 X1 X2 X3 X4 X5 X6⟩,
    ⟨main_v136, Read.val_main_v136 (F := F) X0 X1 X2 X3 X4 X5 X6⟩,
    ⟨main_v137, Read.val_main_v137 (F := F) X0 X1 X2 X3 X4 X5 X6⟩,
    ⟨main_v138, Read.val_main_v138 (F := F) X0 X1 X2 X3 X4 X5 X6⟩,
    ⟨main_v139, Read.val_main_v139 (F := F) X0 X1 X2 X3 X4 X5 X6⟩,
    ⟨main_v140, Read.val_main_v140 (F := F) X0 X1 X2 X3 X4 X5 X6⟩,
    ⟨main_v141, Read.val_main_v141 (F := F) X0 X1 X2 X3 X4 X5 X6⟩,
    ⟨main_v142, Read.val_main_v142 (F := F) X0 X1 X2 X3 X4 X5 X6⟩,
    ⟨main_v143, Read.val_main_v143 (F := F) X0 X1 X2 X3 X4 X5 X6⟩,
    ⟨main_v144, Read.val_main_v144 (F := F) X0 X1 X2 X3 X4 X5 X6⟩,
    ⟨main_v145, Read.val_main_v145 (F := F) X0 X1 X2 X3 X4 X5 X6⟩,
    ⟨main_v146, Read.val_main_v146 (F := F) X0 X1 X2 X3 X4 X5 X6⟩,
    ⟨main_v147, Read.val_main_v147 (F := F) X0 X1 X2 X3 X4 X5 X6⟩,
    ⟨main_v148, Read.val_main_v148 (F := F) X0 X1 X2 X3 X4 X5 X6⟩,
    ⟨main_v149, Read.val_main_v149 (F := F) X0 X1 X2 X3 X4 X5 X6⟩,
    ⟨main_v150, Read.val_main_v150 (F := F) X0 X1 X2 X3 X4 X5 X6⟩,
    ⟨main_v151, Read.val_main_v151 (F := F) X0 X1 X2 X3 X4 X5 X6⟩,
    ⟨main_v152, Read.val_main_v152 (F := F) X0 X1 X2 X3 X4 X5 X6⟩,
    ⟨main_v153, Read.val_main_v153 (F := F) X0 X1 X2 X3 X4 X5 X6⟩,
    ⟨main_v154, Read.val_main_v154 (F := F) X0 X1 X2 X3 X4 X5 X6⟩,
    ⟨main_v155, Read.val_main_v155 (F := F) X0 X1 X2 X3 X4 X5 X6⟩,
    ⟨main_v156, Read.val_main_v156 (F := F) X0 X1 X2 X3 X4 X5 X6⟩,
    ⟨main_v157, Read.val_main_v157 (F := F) X0 X1 X2 X3 X4 X5 X6⟩,
    ⟨main_v158, Read.val_main_v158 (F := F) X0 X1 X2 X3 X4 X5 X6⟩,
    ⟨main_v159, Read.val_main_v159 (F := F) X0 X1 X2 X3 X4 X5 X6⟩,
    ⟨main_v160, Read.val_main_v160 (F := F) X0 X1 X2 X3 X4 X5 X6⟩,
    ⟨main_v161, Read.val_main_v161 (F := F) X0 X1 X2 X3 X4 X5 X6⟩,
    ⟨main_v162, Read.val_main_v162 (F := F) X0 X1 X2 X3 X4 X5 X6⟩,
    ⟨main_v163, Read.val_main_v163 (F := F) X0 X1 X2 X3 X4 X5 X6⟩,
    ⟨main_v164, Read.val_main_v164 (F := F) X0 X1 X2 X3 X4 X5 X6⟩,
    ⟨main_v165, Read.val_main_v165 (F := F) X0 X1 X2 X3 X4 X5 X6⟩,
    ⟨main_v166, Read.val_main_v166 (F := F) X0 X1 X2 X3 X4 X5 X6⟩ ]
/-- The stages known after window 2, the newest first. -/
abbrev tbl_2 : List (Entry sig (Elt F)) := (ps_2 X0 X1 X2 X3 X4 X5 X6).reverse ++ tbl_1 X0 X1 X2 X3 X4 X5 X6
theorem up_2 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_1 X0 X1 X2 X3 X4 X5 X6) : e ∈ tbl_2 X0 X1 X2 X3 X4 X5 X6 := List.mem_append_right _ h
theorem in_2 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_2 X0 X1 X2 X3 X4 X5 X6).reverse[j]? = some e) : e ∈ tbl_2 X0 X1 X2 X3 X4 X5 X6 :=
  List.mem_append_left _ (List.mem_of_getElem? h)
set_option maxRecDepth 1000000 in
set_option maxHeartbeats 4000000 in
theorem chain_2 : Chain (tbl_1 X0 X1 X2 X3 X4 X5 X6) (7 + 124) (ops_2 (F := F)) (ps_2 X0 X1 X2 X3 X4 X5 X6) :=
  ⟨⟨rfl, rfl, fun W hg => (binary_result main_v105 main_v106 main_v107 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v105, Read.val_main_v105 (F := F) X0 X1 X2 X3 X4 X5 X6⟩ (List.mem_of_mem_drop (i := 0) (in_1 X0 X1 X2 X3 X4 X5 X6 (j := 1) rfl))) (hg ⟨main_v106, Read.val_main_v106 (F := F) X0 X1 X2 X3 X4 X5 X6⟩ (List.mem_of_mem_drop (i := 0) (in_1 X0 X1 X2 X3 X4 X5 X6 (j := 0) rfl))))⟩,
   ⟨rfl, rfl, fun W hg => (binary_result main_v28 main_v48 main_v108 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 1) (up_1 X0 X1 X2 X3 X4 X5 X6 (in_0 X0 X1 X2 X3 X4 X5 X6 (j := 28) rfl)))) (hg ⟨main_v48, Read.val_main_v48 (F := F) X0 X1 X2 X3 X4 X5 X6⟩ (List.mem_of_mem_drop (i := 1) (up_1 X0 X1 X2 X3 X4 X5 X6 (in_0 X0 X1 X2 X3 X4 X5 X6 (j := 7) rfl)))))⟩,
   ⟨rfl, rfl, fun W hg => (binary_result main_v107 main_v108 main_v109 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v107, Read.val_main_v107 (F := F) X0 X1 X2 X3 X4 X5 X6⟩ (List.mem_of_getElem? (i := 1) rfl)) (hg ⟨main_v108, Read.val_main_v108 (F := F) X0 X1 X2 X3 X4 X5 X6⟩ (List.mem_of_getElem? (i := 0) rfl)))⟩,
   ⟨rfl, rfl, fun W hg => (binary_result main_v36 main_v26 main_v110 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 3) (up_1 X0 X1 X2 X3 X4 X5 X6 (in_0 X0 X1 X2 X3 X4 X5 X6 (j := 20) rfl)))) (hg ⟨main_v26, Read.val_main_v26 (F := F) X0 X1 X2 X3 X4 X5 X6⟩ (List.mem_of_mem_drop (i := 3) (up_1 X0 X1 X2 X3 X4 X5 X6 (in_0 X0 X1 X2 X3 X4 X5 X6 (j := 30) rfl)))))⟩,
   ⟨rfl, rfl, fun W hg => (binary_result main_v26 main_v64 main_v111 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 4) (up_1 X0 X1 X2 X3 X4 X5 X6 (in_0 X0 X1 X2 X3 X4 X5 X6 (j := 30) rfl)))) (hg ⟨main_v64, Read.val_main_v64 (F := F) X0 X1 X2 X3 X4 X5 X6⟩ (List.mem_of_mem_drop (i := 4) (in_1 X0 X1 X2 X3 X4 X5 X6 (j := 47) rfl))))⟩,
   ⟨rfl, rfl, fun W hg => (binary_result main_v110 main_v111 main_v112 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v110, Read.val_main_v110 (F := F) X0 X1 X2 X3 X4 X5 X6⟩ (List.mem_of_getElem? (i := 1) rfl)) (hg ⟨main_v111, Read.val_main_v111 (F := F) X0 X1 X2 X3 X4 X5 X6⟩ (List.mem_of_getElem? (i := 0) rfl)))⟩,
   ⟨rfl, rfl, fun W hg => (binary_result main_v34 main_v32 main_v113 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 6) (up_1 X0 X1 X2 X3 X4 X5 X6 (in_0 X0 X1 X2 X3 X4 X5 X6 (j := 22) rfl)))) (hg ⟨main_v32, Read.val_main_v32 (F := F) X0 X1 X2 X3 X4 X5 X6⟩ (List.mem_of_mem_drop (i := 6) (up_1 X0 X1 X2 X3 X4 X5 X6 (in_0 X0 X1 X2 X3 X4 X5 X6 (j := 24) rfl)))))⟩,
   ⟨rfl, rfl, fun W hg => (binary_result main_v112 main_v113 main_v114 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v112, Read.val_main_v112 (F := F) X0 X1 X2 X3 X4 X5 X6⟩ (List.mem_of_getElem? (i := 1) rfl)) (hg ⟨main_v113, Read.val_main_v113 (F := F) X0 X1 X2 X3 X4 X5 X6⟩ (List.mem_of_getElem? (i := 0) rfl)))⟩,
   ⟨rfl, rfl, fun W hg => (binary_result main_v28 main_v89 main_v115 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 8) (up_1 X0 X1 X2 X3 X4 X5 X6 (in_0 X0 X1 X2 X3 X4 X5 X6 (j := 28) rfl)))) (hg ⟨main_v89, Read.val_main_v89 (F := F) X0 X1 X2 X3 X4 X5 X6⟩ (List.mem_of_mem_drop (i := 8) (in_1 X0 X1 X2 X3 X4 X5 X6 (j := 17) rfl))))⟩,
   ⟨rfl, rfl, fun W hg => (binary_result main_v30 main_v42 main_v116 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 9) (up_1 X0 X1 X2 X3 X4 X5 X6 (in_0 X0 X1 X2 X3 X4 X5 X6 (j := 26) rfl)))) (hg ⟨main_v42, Read.val_main_v42 (F := F) X0 X1 X2 X3 X4 X5 X6⟩ (List.mem_of_mem_drop (i := 9) (up_1 X0 X1 X2 X3 X4 X5 X6 (in_0 X0 X1 X2 X3 X4 X5 X6 (j := 14) rfl)))))⟩,
   ⟨rfl, rfl, fun W hg => (binary_result main_v115 main_v116 main_v117 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v115, Read.val_main_v115 (F := F) X0 X1 X2 X3 X4 X5 X6⟩ (List.mem_of_getElem? (i := 1) rfl)) (hg ⟨main_v116, Read.val_main_v116 (F := F) X0 X1 X2 X3 X4 X5 X6⟩ (List.mem_of_getElem? (i := 0) rfl)))⟩,
   ⟨rfl, rfl, fun W hg => (binary_result main_v26 main_v64 main_v118 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 11) (up_1 X0 X1 X2 X3 X4 X5 X6 (in_0 X0 X1 X2 X3 X4 X5 X6 (j := 30) rfl)))) (hg ⟨main_v64, Read.val_main_v64 (F := F) X0 X1 X2 X3 X4 X5 X6⟩ (List.mem_of_mem_drop (i := 11) (in_1 X0 X1 X2 X3 X4 X5 X6 (j := 47) rfl))))⟩,
   ⟨rfl, rfl, fun W hg => (binary_result main_v117 main_v118 main_v119 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v117, Read.val_main_v117 (F := F) X0 X1 X2 X3 X4 X5 X6⟩ (List.mem_of_getElem? (i := 1) rfl)) (hg ⟨main_v118, Read.val_main_v118 (F := F) X0 X1 X2 X3 X4 X5 X6⟩ (List.mem_of_getElem? (i := 0) rfl)))⟩,
   ⟨rfl, rfl, fun W hg => (binary_result main_v44 main_v32 main_v120 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 13) (up_1 X0 X1 X2 X3 X4 X5 X6 (in_0 X0 X1 X2 X3 X4 X5 X6 (j := 12) rfl)))) (hg ⟨main_v32, Read.val_main_v32 (F := F) X0 X1 X2 X3 X4 X5 X6⟩ (List.mem_of_mem_drop (i := 13) (up_1 X0 X1 X2 X3 X4 X5 X6 (in_0 X0 X1 X2 X3 X4 X5 X6 (j := 24) rfl)))))⟩,
   ⟨rfl, rfl, fun W hg => (binary_result main_v40 main_v26 main_v121 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 14) (up_1 X0 X1 X2 X3 X4 X5 X6 (in_0 X0 X1 X2 X3 X4 X5 X6 (j := 16) rfl)))) (hg ⟨main_v26, Read.val_main_v26 (F := F) X0 X1 X2 X3 X4 X5 X6⟩ (List.mem_of_mem_drop (i := 14) (up_1 X0 X1 X2 X3 X4 X5 X6 (in_0 X0 X1 X2 X3 X4 X5 X6 (j := 30) rfl)))))⟩,
   ⟨rfl, rfl, fun W hg => (binary_result main_v120 main_v121 main_v122 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v120, Read.val_main_v120 (F := F) X0 X1 X2 X3 X4 X5 X6⟩ (List.mem_of_getElem? (i := 1) rfl)) (hg ⟨main_v121, Read.val_main_v121 (F := F) X0 X1 X2 X3 X4 X5 X6⟩ (List.mem_of_getElem? (i := 0) rfl)))⟩,
   ⟨rfl, rfl, fun W hg => (binary_result main_v42 main_v36 main_v123 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 16) (up_1 X0 X1 X2 X3 X4 X5 X6 (in_0 X0 X1 X2 X3 X4 X5 X6 (j := 14) rfl)))) (hg ⟨main_v36, Read.val_main_v36 (F := F) X0 X1 X2 X3 X4 X5 X6⟩ (List.mem_of_mem_drop (i := 16) (up_1 X0 X1 X2 X3 X4 X5 X6 (in_0 X0 X1 X2 X3 X4 X5 X6 (j := 20) rfl)))))⟩,
   ⟨rfl, rfl, fun W hg => (binary_result main_v122 main_v123 main_v124 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v122, Read.val_main_v122 (F := F) X0 X1 X2 X3 X4 X5 X6⟩ (List.mem_of_getElem? (i := 1) rfl)) (hg ⟨main_v123, Read.val_main_v123 (F := F) X0 X1 X2 X3 X4 X5 X6⟩ (List.mem_of_getElem? (i := 0) rfl)))⟩,
   ⟨rfl, rfl, fun W hg => (binary_result main_v32 main_v60 main_v125 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 18) (up_1 X0 X1 X2 X3 X4 X5 X6 (in_0 X0 X1 X2 X3 X4 X5 X6 (j := 24) rfl)))) (hg ⟨main_v60, Read.val_main_v60 (F := F) X0 X1 X2 X3 X4 X5 X6⟩ (List.mem_of_mem_drop (i := 18) (in_1 X0 X1 X2 X3 X4 X5 X6 (j := 52) rfl))))⟩,
   ⟨rfl, rfl, fun W hg => (binary_result main_v38 main_v72 main_v126 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 19) (up_1 X0 X1 X2 X3 X4 X5 X6 (in_0 X0 X1 X2 X3 X4 X5 X6 (j := 18) rfl)))) (hg ⟨main_v72, Read.val_main_v72 (F := F) X0 X1 X2 X3 X4 X5 X6⟩ (List.mem_of_mem_drop (i := 19) (in_1 X0 X1 X2 X3 X4 X5 X6 (j := 37) rfl))))⟩,
   ⟨rfl, rfl, fun W hg => (binary_result main_v125 main_v126 main_v127 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v125, Read.val_main_v125 (F := F) X0 X1 X2 X3 X4 X5 X6⟩ (List.mem_of_getElem? (i := 1) rfl)) (hg ⟨main_v126, Read.val_main_v126 (F := F) X0 X1 X2 X3 X4 X5 X6⟩ (List.mem_of_getElem? (i := 0) rfl)))⟩,
   ⟨rfl, rfl, fun W hg => (binary_result main_v36 main_v40 main_v128 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 21) (up_1 X0 X1 X2 X3 X4 X5 X6 (in_0 X0 X1 X2 X3 X4 X5 X6 (j := 20) rfl)))) (hg ⟨main_v40, Read.val_main_v40 (F := F) X0 X1 X2 X3 X4 X5 X6⟩ (List.mem_of_mem_drop (i := 21) (up_1 X0 X1 X2 X3 X4 X5 X6 (in_0 X0 X1 X2 X3 X4 X5 X6 (j := 16) rfl)))))⟩,
   ⟨rfl, rfl, fun W hg => (binary_result main_v127 main_v128 main_v129 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v127, Read.val_main_v127 (F := F) X0 X1 X2 X3 X4 X5 X6⟩ (List.mem_of_getElem? (i := 1) rfl)) (hg ⟨main_v128, Read.val_main_v128 (F := F) X0 X1 X2 X3 X4 X5 X6⟩ (List.mem_of_getElem? (i := 0) rfl)))⟩,
   ⟨rfl, rfl, fun W hg => (binary_result main_v42 main_v30 main_v130 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 23) (up_1 X0 X1 X2 X3 X4 X5 X6 (in_0 X0 X1 X2 X3 X4 X5 X6 (j := 14) rfl)))) (hg ⟨main_v30, Read.val_main_v30 (F := F) X0 X1 X2 X3 X4 X5 X6⟩ (List.mem_of_mem_drop (i := 23) (up_1 X0 X1 X2 X3 X4 X5 X6 (in_0 X0 X1 X2 X3 X4 X5 X6 (j := 26) rfl)))))⟩,
   ⟨rfl, rfl, fun W hg => (binary_result main_v28 main_v32 main_v131 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 24) (up_1 X0 X1 X2 X3 X4 X5 X6 (in_0 X0 X1 X2 X3 X4 X5 X6 (j := 28) rfl)))) (hg ⟨main_v32, Read.val_main_v32 (F := F) X0 X1 X2 X3 X4 X5 X6⟩ (List.mem_of_mem_drop (i := 24) (up_1 X0 X1 X2 X3 X4 X5 X6 (in_0 X0 X1 X2 X3 X4 X5 X6 (j := 24) rfl)))))⟩,
   ⟨rfl, rfl, fun W hg => (binary_result main_v130 main_v131 main_v132 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v130, Read.val_main_v130 (F := F) X0 X1 X2 X3 X4 X5 X6⟩ (List.mem_of_getElem? (i := 1) rfl)) (hg ⟨main_v131, Read.val_main_v131 (F := F) X0 X1 X2 X3 X4 X5 X6⟩ (List.mem_of_getElem? (i := 0) rfl)))⟩,
   ⟨rfl, rfl, fun W hg => (binary_result main_v34 main_v124 main_v133 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 26) (up_1 X0 X1 X2 X3 X4 X5 X6 (in_0 X0 X1 X2 X3 X4 X5 X6 (j := 22) rfl)))) (hg ⟨main_v124, Read.val_main_v124 (F := F) X0 X1 X2 X3 X4 X5 X6⟩ (List.mem_of_getElem? (i := 8) rfl)))⟩,
   ⟨rfl, rfl, fun W hg => (binary_result main_v132 main_v133 main_v134 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v132, Read.val_main_v132 (F := F) X0 X1 X2 X3 X4 X5 X6⟩ (List.mem_of_getElem? (i := 1) rfl)) (hg ⟨main_v133, Read.val_main_v133 (F := F) X0 X1 X2 X3 X4 X5 X6⟩ (List.mem_of_getElem? (i := 0) rfl)))⟩,
   ⟨rfl, rfl, fun W hg => (binary_result main_v26 main_v119 main_v135 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 28) (up_1 X0 X1 X2 X3 X4 X5 X6 (in_0 X0 X1 X2 X3 X4 X5 X6 (j := 30) rfl)))) (hg ⟨main_v119, Read.val_main_v119 (F := F) X0 X1 X2 X3 X4 X5 X6⟩ (List.mem_of_getElem? (i := 15) rfl)))⟩,
   ⟨rfl, rfl, fun W hg => (binary_result main_v36 main_v28 main_v136 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 29) (up_1 X0 X1 X2 X3 X4 X5 X6 (in_0 X0 X1 X2 X3 X4 X5 X6 (j := 20) rfl)))) (hg ⟨main_v28, Read.val_main_v28 (F := F) X0 X1 X2 X3 X4 X5 X6⟩ (List.mem_of_mem_drop (i := 29) (up_1 X0 X1 X2 X3 X4 X5 X6 (in_0 X0 X1 X2 X3 X4 X5 X6 (j := 28) rfl)))))⟩,
   ⟨rfl, rfl, fun W hg => (binary_result main_v135 main_v136 main_v137 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v135, Read.val_main_v135 (F := F) X0 X1 X2 X3 X4 X5 X6⟩ (List.mem_of_getElem? (i := 1) rfl)) (hg ⟨main_v136, Read.val_main_v136 (F := F) X0 X1 X2 X3 X4 X5 X6⟩ (List.mem_of_getElem? (i := 0) rfl)))⟩,
   ⟨rfl, rfl, fun W hg => (binary_result main_v40 main_v34 main_v138 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 31) (up_1 X0 X1 X2 X3 X4 X5 X6 (in_0 X0 X1 X2 X3 X4 X5 X6 (j := 16) rfl)))) (hg ⟨main_v34, Read.val_main_v34 (F := F) X0 X1 X2 X3 X4 X5 X6⟩ (List.mem_of_mem_drop (i := 31) (up_1 X0 X1 X2 X3 X4 X5 X6 (in_0 X0 X1 X2 X3 X4 X5 X6 (j := 22) rfl)))))⟩,
   ⟨rfl, rfl, fun W hg => (binary_result main_v137 main_v138 main_v139 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v137, Read.val_main_v137 (F := F) X0 X1 X2 X3 X4 X5 X6⟩ (List.mem_of_getElem? (i := 1) rfl)) (hg ⟨main_v138, Read.val_main_v138 (F := F) X0 X1 X2 X3 X4 X5 X6⟩ (List.mem_of_getElem? (i := 0) rfl)))⟩,
   ⟨rfl, rfl, fun W hg => (binary_result main_v28 main_v38 main_v140 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 33) (up_1 X0 X1 X2 X3 X4 X5 X6 (in_0 X0 X1 X2 X3 X4 X5 X6 (j := 28) rfl)))) (hg ⟨main_v38, Read.val_main_v38 (F := F) X0 X1 X2 X3 X4 X5 X6⟩ (List.mem_of_mem_drop (i := 33) (up_1 X0 X1 X2 X3 X4 X5 X6 (in_0 X0 X1 X2 X3 X4 X5 X6 (j := 18) rfl)))))⟩,
   ⟨rfl, rfl, fun W hg => (binary_result main_v36 main_v84 main_v141 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 34) (up_1 X0 X1 X2 X3 X4 X5 X6 (in_0 X0 X1 X2 X3 X4 X5 X6 (j := 20) rfl)))) (hg ⟨main_v84, Read.val_main_v84 (F := F) X0 X1 X2 X3 X4 X5 X6⟩ (List.mem_of_mem_drop (i := 34) (in_1 X0 X1 X2 X3 X4 X5 X6 (j := 22) rfl))))⟩,
   ⟨rfl, rfl, fun W hg => (binary_result main_v140 main_v141 main_v142 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v140, Read.val_main_v140 (F := F) X0 X1 X2 X3 X4 X5 X6⟩ (List.mem_of_getElem? (i := 1) rfl)) (hg ⟨main_v141, Read.val_main_v141 (F := F) X0 X1 X2 X3 X4 X5 X6⟩ (List.mem_of_getElem? (i := 0) rfl)))⟩,
   ⟨rfl, rfl, fun W hg => (binary_result main_v44 main_v64 main_v143 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 36) (up_1 X0 X1 X2 X3 X4 X5 X6 (in_0 X0 X1 X2 X3 X4 X5 X6 (j := 12) rfl)))) (hg ⟨main_v64, Read.val_main_v64 (F := F) X0 X1 X2 X3 X4 X5 X6⟩ (List.mem_of_mem_drop (i := 36) (in_1 X0 X1 X2 X3 X4 X5 X6 (j := 47) rfl))))⟩,
   ⟨rfl, rfl, fun W hg => (binary_result main_v142 main_v143 main_v144 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v142, Read.val_main_v142 (F := F) X0 X1 X2 X3 X4 X5 X6⟩ (List.mem_of_getElem? (i := 1) rfl)) (hg ⟨main_v143, Read.val_main_v143 (F := F) X0 X1 X2 X3 X4 X5 X6⟩ (List.mem_of_getElem? (i := 0) rfl)))⟩,
   ⟨rfl, rfl, fun W hg => (binary_result main_v40 main_v139 main_v145 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 38) (up_1 X0 X1 X2 X3 X4 X5 X6 (in_0 X0 X1 X2 X3 X4 X5 X6 (j := 16) rfl)))) (hg ⟨main_v139, Read.val_main_v139 (F := F) X0 X1 X2 X3 X4 X5 X6⟩ (List.mem_of_getElem? (i := 5) rfl)))⟩,
   ⟨rfl, rfl, fun W hg => (binary_result main_v44 main_v30 main_v146 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 39) (up_1 X0 X1 X2 X3 X4 X5 X6 (in_0 X0 X1 X2 X3 X4 X5 X6 (j := 12) rfl)))) (hg ⟨main_v30, Read.val_main_v30 (F := F) X0 X1 X2 X3 X4 X5 X6⟩ (List.mem_of_mem_drop (i := 39) (up_1 X0 X1 X2 X3 X4 X5 X6 (in_0 X0 X1 X2 X3 X4 X5 X6 (j := 26) rfl)))))⟩,
   ⟨rfl, rfl, fun W hg => (binary_result main_v145 main_v146 main_v147 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v145, Read.val_main_v145 (F := F) X0 X1 X2 X3 X4 X5 X6⟩ (List.mem_of_getElem? (i := 1) rfl)) (hg ⟨main_v146, Read.val_main_v146 (F := F) X0 X1 X2 X3 X4 X5 X6⟩ (List.mem_of_getElem? (i := 0) rfl)))⟩,
   ⟨rfl, rfl, fun W hg => (binary_result main_v30 main_v52 main_v148 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 41) (up_1 X0 X1 X2 X3 X4 X5 X6 (in_0 X0 X1 X2 X3 X4 X5 X6 (j := 26) rfl)))) (hg ⟨main_v52, Read.val_main_v52 (F := F) X0 X1 X2 X3 X4 X5 X6⟩ (List.mem_of_mem_drop (i := 41) (up_1 X0 X1 X2 X3 X4 X5 X6 (in_0 X0 X1 X2 X3 X4 X5 X6 (j := 2) rfl)))))⟩,
   ⟨rfl, rfl, fun W hg => (binary_result main_v147 main_v148 main_v149 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v147, Read.val_main_v147 (F := F) X0 X1 X2 X3 X4 X5 X6⟩ (List.mem_of_getElem? (i := 1) rfl)) (hg ⟨main_v148, Read.val_main_v148 (F := F) X0 X1 X2 X3 X4 X5 X6⟩ (List.mem_of_getElem? (i := 0) rfl)))⟩,
   ⟨rfl, rfl, fun W hg => (binary_result main_v28 main_v32 main_v150 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 43) (up_1 X0 X1 X2 X3 X4 X5 X6 (in_0 X0 X1 X2 X3 X4 X5 X6 (j := 28) rfl)))) (hg ⟨main_v32, Read.val_main_v32 (F := F) X0 X1 X2 X3 X4 X5 X6⟩ (List.mem_of_mem_drop (i := 43) (up_1 X0 X1 X2 X3 X4 X5 X6 (in_0 X0 X1 X2 X3 X4 X5 X6 (j := 24) rfl)))))⟩,
   ⟨rfl, rfl, fun W hg => (binary_result main_v38 main_v64 main_v151 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 44) (up_1 X0 X1 X2 X3 X4 X5 X6 (in_0 X0 X1 X2 X3 X4 X5 X6 (j := 18) rfl)))) (hg ⟨main_v64, Read.val_main_v64 (F := F) X0 X1 X2 X3 X4 X5 X6⟩ (List.mem_of_mem_drop (i := 44) (in_1 X0 X1 X2 X3 X4 X5 X6 (j := 47) rfl))))⟩,
   ⟨rfl, rfl, fun W hg => (binary_result main_v150 main_v151 main_v152 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v150, Read.val_main_v150 (F := F) X0 X1 X2 X3 X4 X5 X6⟩ (List.mem_of_getElem? (i := 1) rfl)) (hg ⟨main_v151, Read.val_main_v151 (F := F) X0 X1 X2 X3 X4 X5 X6⟩ (List.mem_of_getElem? (i := 0) rfl)))⟩,
   ⟨rfl, rfl, fun W hg => (binary_result main_v36 main_v149 main_v153 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 46) (up_1 X0 X1 X2 X3 X4 X5 X6 (in_0 X0 X1 X2 X3 X4 X5 X6 (j := 20) rfl)))) (hg ⟨main_v149, Read.val_main_v149 (F := F) X0 X1 X2 X3 X4 X5 X6⟩ (List.mem_of_getElem? (i := 3) rfl)))⟩,
   ⟨rfl, rfl, fun W hg => (binary_result main_v152 main_v153 main_v154 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v152, Read.val_main_v152 (F := F) X0 X1 X2 X3 X4 X5 X6⟩ (List.mem_of_getElem? (i := 1) rfl)) (hg ⟨main_v153, Read.val_main_v153 (F := F) X0 X1 X2 X3 X4 X5 X6⟩ (List.mem_of_getElem? (i := 0) rfl)))⟩,
   ⟨rfl, rfl, fun W hg => (binary_result main_v38 main_v109 main_v155 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 48) (up_1 X0 X1 X2 X3 X4 X5 X6 (in_0 X0 X1 X2 X3 X4 X5 X6 (j := 18) rfl)))) (hg ⟨main_v109, Read.val_main_v109 (F := F) X0 X1 X2 X3 X4 X5 X6⟩ (List.mem_of_getElem? (i := 45) rfl)))⟩,
   ⟨rfl, rfl, fun W hg => (binary_result main_v30 main_v134 main_v156 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 49) (up_1 X0 X1 X2 X3 X4 X5 X6 (in_0 X0 X1 X2 X3 X4 X5 X6 (j := 26) rfl)))) (hg ⟨main_v134, Read.val_main_v134 (F := F) X0 X1 X2 X3 X4 X5 X6⟩ (List.mem_of_getElem? (i := 21) rfl)))⟩,
   ⟨rfl, rfl, fun W hg => (binary_result main_v155 main_v156 main_v157 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v155, Read.val_main_v155 (F := F) X0 X1 X2 X3 X4 X5 X6⟩ (List.mem_of_getElem? (i := 1) rfl)) (hg ⟨main_v156, Read.val_main_v156 (F := F) X0 X1 X2 X3 X4 X5 X6⟩ (List.mem_of_getElem? (i := 0) rfl)))⟩,
   ⟨rfl, rfl, fun W hg => (binary_result main_v26 main_v94 main_v158 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 51) (up_1 X0 X1 X2 X3 X4 X5 X6 (in_0 X0 X1 X2 X3 X4 X5 X6 (j := 30) rfl)))) (hg ⟨main_v94, Read.val_main_v94 (F := F) X0 X1 X2 X3 X4 X5 X6⟩ (List.mem_of_mem_drop (i := 51) (in_1 X0 X1 X2 X3 X4 X5 X6 (j := 12) rfl))))⟩,
   ⟨rfl, rfl, fun W hg => (binary_result main_v157 main_v158 main_v159 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v157, Read.val_main_v157 (F := F) X0 X1 X2 X3 X4 X5 X6⟩ (List.mem_of_getElem? (i := 1) rfl)) (hg ⟨main_v158, Read.val_main_v158 (F := F) X0 X1 X2 X3 X4 X5 X6⟩ (List.mem_of_getElem? (i := 0) rfl)))⟩,
   ⟨rfl, rfl, fun W hg => (binary_result main_v40 main_v38 main_v160 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 53) (up_1 X0 X1 X2 X3 X4 X5 X6 (in_0 X0 X1 X2 X3 X4 X5 X6 (j := 16) rfl)))) (hg ⟨main_v38, Read.val_main_v38 (F := F) X0 X1 X2 X3 X4 X5 X6⟩ (List.mem_of_mem_drop (i := 53) (up_1 X0 X1 X2 X3 X4 X5 X6 (in_0 X0 X1 X2 X3 X4 X5 X6 (j := 18) rfl)))))⟩,
   ⟨rfl, rfl, fun W hg => (binary_result main_v30 main_v94 main_v161 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 54) (up_1 X0 X1 X2 X3 X4 X5 X6 (in_0 X0 X1 X2 X3 X4 X5 X6 (j := 26) rfl)))) (hg ⟨main_v94, Read.val_main_v94 (F := F) X0 X1 X2 X3 X4 X5 X6⟩ (List.mem_of_mem_drop (i := 54) (in_1 X0 X1 X2 X3 X4 X5 X6 (j := 12) rfl))))⟩,
   ⟨rfl, rfl, fun W hg => (binary_result main_v160 main_v161 main_v162 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v160, Read.val_main_v160 (F := F) X0 X1 X2 X3 X4 X5 X6⟩ (List.mem_of_getElem? (i := 1) rfl)) (hg ⟨main_v161, Read.val_main_v161 (F := F) X0 X1 X2 X3 X4 X5 X6⟩ (List.mem_of_getElem? (i := 0) rfl)))⟩,
   ⟨rfl, rfl, fun W hg => (binary_result main_v42 main_v144 main_v163 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 56) (up_1 X0 X1 X2 X3 X4 X5 X6 (in_0 X0 X1 X2 X3 X4 X5 X6 (j := 14) rfl)))) (hg ⟨main_v144, Read.val_main_v144 (F := F) X0 X1 X2 X3 X4 X5 X6⟩ (List.mem_of_getElem? (i := 18) rfl)))⟩,
   ⟨rfl, rfl, fun W hg => (binary_result main_v162 main_v163 main_v164 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v162, Read.val_main_v162 (F := F) X0 X1 X2 X3 X4 X5 X6⟩ (List.mem_of_getElem? (i := 1) rfl)) (hg ⟨main_v163, Read.val_main_v163 (F := F) X0 X1 X2 X3 X4 X5 X6⟩ (List.mem_of_getElem? (i := 0) rfl)))⟩,
   ⟨rfl, rfl, fun W hg => (binary_result main_v34 main_v134 main_v165 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 58) (up_1 X0 X1 X2 X3 X4 X5 X6 (in_0 X0 X1 X2 X3 X4 X5 X6 (j := 22) rfl)))) (hg ⟨main_v134, Read.val_main_v134 (F := F) X0 X1 X2 X3 X4 X5 X6⟩ (List.mem_of_getElem? (i := 30) rfl)))⟩,
   ⟨rfl, rfl, fun W hg => (binary_result main_v38 main_v28 main_v166 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 59) (up_1 X0 X1 X2 X3 X4 X5 X6 (in_0 X0 X1 X2 X3 X4 X5 X6 (j := 18) rfl)))) (hg ⟨main_v28, Read.val_main_v28 (F := F) X0 X1 X2 X3 X4 X5 X6⟩ (List.mem_of_mem_drop (i := 59) (up_1 X0 X1 X2 X3 X4 X5 X6 (in_0 X0 X1 X2 X3 X4 X5 X6 (j := 28) rfl)))))⟩,
   trivial⟩
theorem good_2 (W : Valuation τ sig (Elt F)) (hg : Good W (tbl_1 X0 X1 X2 X3 X4 X5 X6) (7 + 124)) :
    Good (after ops_2 W) (tbl_2 X0 X1 X2 X3 X4 X5 X6) (7 + 184) :=
  Good.after _ _ _ _ W hg (chain_2 X0 X1 X2 X3 X4 X5 X6)

theorem part_eq_3 (c : Dev nD) : main_part3 (F := F) c = seq ops_3 := rfl
theorem fresh_3 : (ops_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 3's operations write, in order. -/
abbrev ps_3 : List (Entry sig (Elt F)) :=
  [ ⟨main_v167, Read.val_main_v167 (F := F) X0 X1 X2 X3 X4 X5 X6⟩,
    ⟨main_v168, Read.val_main_v168 (F := F) X0 X1 X2 X3 X4 X5 X6⟩,
    ⟨main_v169, Read.val_main_v169 (F := F) X0 X1 X2 X3 X4 X5 X6⟩,
    ⟨main_v170, Read.val_main_v170 (F := F) X0 X1 X2 X3 X4 X5 X6⟩,
    ⟨main_v171, Read.val_main_v171 (F := F) X0 X1 X2 X3 X4 X5 X6⟩,
    ⟨main_v172, Read.val_main_v172 (F := F) X0 X1 X2 X3 X4 X5 X6⟩,
    ⟨main_v173, Read.val_main_v173 (F := F) X0 X1 X2 X3 X4 X5 X6⟩,
    ⟨main_v174, Read.val_main_v174 (F := F) X0 X1 X2 X3 X4 X5 X6⟩,
    ⟨main_v175, Read.val_main_v175 (F := F) X0 X1 X2 X3 X4 X5 X6⟩,
    ⟨main_v176, Read.val_main_v176 (F := F) X0 X1 X2 X3 X4 X5 X6⟩,
    ⟨main_v177, Read.val_main_v177 (F := F) X0 X1 X2 X3 X4 X5 X6⟩,
    ⟨main_v178, Read.val_main_v178 (F := F) X0 X1 X2 X3 X4 X5 X6⟩,
    ⟨main_v179, Read.val_main_v179 (F := F) X0 X1 X2 X3 X4 X5 X6⟩,
    ⟨main_v180, Read.val_main_v180 (F := F) X0 X1 X2 X3 X4 X5 X6⟩,
    ⟨main_v181, Read.val_main_v181 (F := F) X0 X1 X2 X3 X4 X5 X6⟩,
    ⟨main_v182, Read.val_main_v182 (F := F) X0 X1 X2 X3 X4 X5 X6⟩,
    ⟨main_v183, Read.val_main_v183 (F := F) X0 X1 X2 X3 X4 X5 X6⟩,
    ⟨main_v184, Read.val_main_v184 (F := F) X0 X1 X2 X3 X4 X5 X6⟩,
    ⟨main_v185, Read.val_main_v185 (F := F) X0 X1 X2 X3 X4 X5 X6⟩,
    ⟨main_v186, Read.val_main_v186 (F := F) X0 X1 X2 X3 X4 X5 X6⟩,
    ⟨main_v187, Read.val_main_v187 (F := F) X0 X1 X2 X3 X4 X5 X6⟩,
    ⟨main_v188, Read.val_main_v188 (F := F) X0 X1 X2 X3 X4 X5 X6⟩,
    ⟨main_v189, Read.val_main_v189 (F := F) X0 X1 X2 X3 X4 X5 X6⟩,
    ⟨main_v190, Read.val_main_v190 (F := F) X0 X1 X2 X3 X4 X5 X6⟩,
    ⟨main_v191, Read.val_main_v191 (F := F) X0 X1 X2 X3 X4 X5 X6⟩,
    ⟨main_v192, Read.val_main_v192 (F := F) X0 X1 X2 X3 X4 X5 X6⟩,
    ⟨main_v193, Read.val_main_v193 (F := F) X0 X1 X2 X3 X4 X5 X6⟩,
    ⟨main_v194, Read.val_main_v194 (F := F) X0 X1 X2 X3 X4 X5 X6⟩,
    ⟨main_v195, Read.val_main_v195 (F := F) X0 X1 X2 X3 X4 X5 X6⟩,
    ⟨main_v196, Read.val_main_v196 (F := F) X0 X1 X2 X3 X4 X5 X6⟩,
    ⟨main_v197, Read.val_main_v197 (F := F) X0 X1 X2 X3 X4 X5 X6⟩,
    ⟨main_v198, Read.val_main_v198 (F := F) X0 X1 X2 X3 X4 X5 X6⟩,
    ⟨main_v199, Read.val_main_v199 (F := F) X0 X1 X2 X3 X4 X5 X6⟩,
    ⟨main_v200, Read.val_main_v200 (F := F) X0 X1 X2 X3 X4 X5 X6⟩,
    ⟨main_v201, Read.val_main_v201 (F := F) X0 X1 X2 X3 X4 X5 X6⟩,
    ⟨main_v202, Read.val_main_v202 (F := F) X0 X1 X2 X3 X4 X5 X6⟩,
    ⟨main_v203, Read.val_main_v203 (F := F) X0 X1 X2 X3 X4 X5 X6⟩,
    ⟨main_v204, Read.val_main_v204 (F := F) X0 X1 X2 X3 X4 X5 X6⟩,
    ⟨main_v205, Read.val_main_v205 (F := F) X0 X1 X2 X3 X4 X5 X6⟩,
    ⟨main_v206, Read.val_main_v206 (F := F) X0 X1 X2 X3 X4 X5 X6⟩,
    ⟨main_v207, Read.val_main_v207 (F := F) X0 X1 X2 X3 X4 X5 X6⟩,
    ⟨main_v208, Read.val_main_v208 (F := F) X0 X1 X2 X3 X4 X5 X6⟩,
    ⟨main_v209, Read.val_main_v209 (F := F) X0 X1 X2 X3 X4 X5 X6⟩,
    ⟨main_v210, Read.val_main_v210 (F := F) X0 X1 X2 X3 X4 X5 X6⟩,
    ⟨main_v211, Read.val_main_v211 (F := F) X0 X1 X2 X3 X4 X5 X6⟩,
    ⟨main_v212, Read.val_main_v212 (F := F) X0 X1 X2 X3 X4 X5 X6⟩,
    ⟨main_v213, Read.val_main_v213 (F := F) X0 X1 X2 X3 X4 X5 X6⟩,
    ⟨main_v214, Read.val_main_v214 (F := F) X0 X1 X2 X3 X4 X5 X6⟩,
    ⟨main_v215, Read.val_main_v215 (F := F) X0 X1 X2 X3 X4 X5 X6⟩,
    ⟨main_v216, Read.val_main_v216 (F := F) X0 X1 X2 X3 X4 X5 X6⟩,
    ⟨main_v217, Read.val_main_v217 (F := F) X0 X1 X2 X3 X4 X5 X6⟩,
    ⟨main_v218, Read.val_main_v218 (F := F) X0 X1 X2 X3 X4 X5 X6⟩,
    ⟨main_v219, Read.val_main_v219 (F := F) X0 X1 X2 X3 X4 X5 X6⟩,
    ⟨main_v220, Read.val_main_v220 (F := F) X0 X1 X2 X3 X4 X5 X6⟩,
    ⟨main_v221, Read.val_main_v221 (F := F) X0 X1 X2 X3 X4 X5 X6⟩,
    ⟨main_v222, Read.val_main_v222 (F := F) X0 X1 X2 X3 X4 X5 X6⟩,
    ⟨main_v223, Read.val_main_v223 (F := F) X0 X1 X2 X3 X4 X5 X6⟩,
    ⟨main_v224, Read.val_main_v224 (F := F) X0 X1 X2 X3 X4 X5 X6⟩,
    ⟨main_v225, Read.val_main_v225 (F := F) X0 X1 X2 X3 X4 X5 X6⟩,
    ⟨main_v226, Read.val_main_v226 (F := F) X0 X1 X2 X3 X4 X5 X6⟩ ]
/-- The stages known after window 3, the newest first. -/
abbrev tbl_3 : List (Entry sig (Elt F)) := (ps_3 X0 X1 X2 X3 X4 X5 X6).reverse ++ tbl_2 X0 X1 X2 X3 X4 X5 X6
theorem up_3 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_2 X0 X1 X2 X3 X4 X5 X6) : e ∈ tbl_3 X0 X1 X2 X3 X4 X5 X6 := List.mem_append_right _ h
theorem in_3 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_3 X0 X1 X2 X3 X4 X5 X6).reverse[j]? = some e) : e ∈ tbl_3 X0 X1 X2 X3 X4 X5 X6 :=
  List.mem_append_left _ (List.mem_of_getElem? h)
set_option maxRecDepth 1000000 in
set_option maxHeartbeats 4000000 in
theorem chain_3 : Chain (tbl_2 X0 X1 X2 X3 X4 X5 X6) (7 + 184) (ops_3 (F := F)) (ps_3 X0 X1 X2 X3 X4 X5 X6) :=
  ⟨⟨rfl, rfl, fun W hg => (binary_result main_v165 main_v166 main_v167 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v165, Read.val_main_v165 (F := F) X0 X1 X2 X3 X4 X5 X6⟩ (List.mem_of_mem_drop (i := 0) (in_2 X0 X1 X2 X3 X4 X5 X6 (j := 1) rfl))) (hg ⟨main_v166, Read.val_main_v166 (F := F) X0 X1 X2 X3 X4 X5 X6⟩ (List.mem_of_mem_drop (i := 0) (in_2 X0 X1 X2 X3 X4 X5 X6 (j := 0) rfl))))⟩,
   ⟨rfl, rfl, fun W hg => (binary_result main_v32 main_v144 main_v168 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 1) (up_2 X0 X1 X2 X3 X4 X5 X6 (up_1 X0 X1 X2 X3 X4 X5 X6 (in_0 X0 X1 X2 X3 X4 X5 X6 (j := 24) rfl))))) (hg ⟨main_v144, Read.val_main_v144 (F := F) X0 X1 X2 X3 X4 X5 X6⟩ (List.mem_of_mem_drop (i := 1) (in_2 X0 X1 X2 X3 X4 X5 X6 (j := 22) rfl))))⟩,
   ⟨rfl, rfl, fun W hg => (binary_result main_v167 main_v168 main_v169 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v167, Read.val_main_v167 (F := F) X0 X1 X2 X3 X4 X5 X6⟩ (List.mem_of_getElem? (i := 1) rfl)) (hg ⟨main_v168, Read.val_main_v168 (F := F) X0 X1 X2 X3 X4 X5 X6⟩ (List.mem_of_getElem? (i := 0) rfl)))⟩,
   ⟨rfl, rfl, fun W hg => (binary_result main_v28 main_v164 main_v170 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 3) (up_2 X0 X1 X2 X3 X4 X5 X6 (up_1 X0 X1 X2 X3 X4 X5 X6 (in_0 X0 X1 X2 X3 X4 X5 X6 (j := 28) rfl))))) (hg ⟨main_v164, Read.val_main_v164 (F := F) X0 X1 X2 X3 X4 X5 X6⟩ (List.mem_of_mem_drop (i := 3) (in_2 X0 X1 X2 X3 X4 X5 X6 (j := 2) rfl))))⟩,
   ⟨rfl, rfl, fun W hg => (binary_result main_v44 main_v99 main_v171 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 4) (up_2 X0 X1 X2 X3 X4 X5 X6 (up_1 X0 X1 X2 X3 X4 X5 X6 (in_0 X0 X1 X2 X3 X4 X5 X6 (j := 12) rfl))))) (hg ⟨main_v99, Read.val_main_v99 (F := F) X0 X1 X2 X3 X4 X5 X6⟩ (List.mem_of_mem_drop (i := 4) (up_2 X0 X1 X2 X3 X4 X5 X6 (in_1 X0 X1 X2 X3 X4 X5 X6 (j := 7) rfl)))))⟩,
   ⟨rfl, rfl, fun W hg => (binary_result main_v170 main_v171 main_v172 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v170, Read.val_main_v170 (F := F) X0 X1 X2 X3 X4 X5 X6⟩ (List.mem_of_getElem? (i := 1) rfl)) (hg ⟨main_v171, Read.val_main_v171 (F := F) X0 X1 X2 X3 X4 X5 X6⟩ (List.mem_of_getElem? (i := 0) rfl)))⟩,
   ⟨rfl, rfl, fun W hg => (binary_result main_v34 main_v36 main_v173 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 6) (up_2 X0 X1 X2 X3 X4 X5 X6 (up_1 X0 X1 X2 X3 X4 X5 X6 (in_0 X0 X1 X2 X3 X4 X5 X6 (j := 22) rfl))))) (hg ⟨main_v36, Read.val_main_v36 (F := F) X0 X1 X2 X3 X4 X5 X6⟩ (List.mem_of_mem_drop (i := 6) (up_2 X0 X1 X2 X3 X4 X5 X6 (up_1 X0 X1 X2 X3 X4 X5 X6 (in_0 X0 X1 X2 X3 X4 X5 X6 (j := 20) rfl))))))⟩,
   ⟨rfl, rfl, fun W hg => (binary_result main_v172 main_v173 main_v174 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v172, Read.val_main_v172 (F := F) X0 X1 X2 X3 X4 X5 X6⟩ (List.mem_of_getElem? (i := 1) rfl)) (hg ⟨main_v173, Read.val_main_v173 (F := F) X0 X1 X2 X3 X4 X5 X6⟩ (List.mem_of_getElem? (i := 0) rfl)))⟩,
   ⟨rfl, rfl, fun W hg => (binary_result main_v38 main_v129 main_v175 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 8) (up_2 X0 X1 X2 X3 X4 X5 X6 (up_1 X0 X1 X2 X3 X4 X5 X6 (in_0 X0 X1 X2 X3 X4 X5 X6 (j := 18) rfl))))) (hg ⟨main_v129, Read.val_main_v129 (F := F) X0 X1 X2 X3 X4 X5 X6⟩ (List.mem_of_mem_drop (i := 8) (in_2 X0 X1 X2 X3 X4 X5 X6 (j := 37) rfl))))⟩,
   ⟨rfl, rfl, fun W hg => (binary_result main_v44 main_v30 main_v176 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 9) (up_2 X0 X1 X2 X3 X4 X5 X6 (up_1 X0 X1 X2 X3 X4 X5 X6 (in_0 X0 X1 X2 X3 X4 X5 X6 (j := 12) rfl))))) (hg ⟨main_v30, Read.val_main_v30 (F := F) X0 X1 X2 X3 X4 X5 X6⟩ (List.mem_of_mem_drop (i := 9) (up_2 X0 X1 X2 X3 X4 X5 X6 (up_1 X0 X1 X2 X3 X4 X5 X6 (in_0 X0 X1 X2 X3 X4 X5 X6 (j := 26) rfl))))))⟩,
   ⟨rfl, rfl, fun W hg => (binary_result main_v175 main_v176 main_v177 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v175, Read.val_main_v175 (F := F) X0 X1 X2 X3 X4 X5 X6⟩ (List.mem_of_getElem? (i := 1) rfl)) (hg ⟨main_v176, Read.val_main_v176 (F := F) X0 X1 X2 X3 X4 X5 X6⟩ (List.mem_of_getElem? (i := 0) rfl)))⟩,
   ⟨rfl, rfl, fun W hg => (binary_result main_v28 main_v124 main_v178 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 11) (up_2 X0 X1 X2 X3 X4 X5 X6 (up_1 X0 X1 X2 X3 X4 X5 X6 (in_0 X0 X1 X2 X3 X4 X5 X6 (j := 28) rfl))))) (hg ⟨main_v124, Read.val_main_v124 (F := F) X0 X1 X2 X3 X4 X5 X6⟩ (List.mem_of_mem_drop (i := 11) (in_2 X0 X1 X2 X3 X4 X5 X6 (j := 42) rfl))))⟩,
   ⟨rfl, rfl, fun W hg => (binary_result main_v177 main_v178 main_v179 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v177, Read.val_main_v177 (F := F) X0 X1 X2 X3 X4 X5 X6⟩ (List.mem_of_getElem? (i := 1) rfl)) (hg ⟨main_v178, Read.val_main_v178 (F := F) X0 X1 X2 X3 X4 X5 X6⟩ (List.mem_of_getElem? (i := 0) rfl)))⟩,
   ⟨rfl, rfl, fun W hg => (binary_result main_v26 main_v104 main_v180 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 13) (up_2 X0 X1 X2 X3 X4 X5 X6 (up_1 X0 X1 X2 X3 X4 X5 X6 (in_0 X0 X1 X2 X3 X4 X5 X6 (j := 30) rfl))))) (hg ⟨main_v104, Read.val_main_v104 (F := F) X0 X1 X2 X3 X4 X5 X6⟩ (List.mem_of_mem_drop (i := 13) (up_2 X0 X1 X2 X3 X4 X5 X6 (in_1 X0 X1 X2 X3 X4 X5 X6 (j := 2) rfl)))))⟩,
   ⟨rfl, rfl, fun W hg => (binary_result main_v30 main_v32 main_v181 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 14) (up_2 X0 X1 X2 X3 X4 X5 X6 (up_1 X0 X1 X2 X3 X4 X5 X6 (in_0 X0 X1 X2 X3 X4 X5 X6 (j := 26) rfl))))) (hg ⟨main_v32, Read.val_main_v32 (F := F) X0 X1 X2 X3 X4 X5 X6⟩ (List.mem_of_mem_drop (i := 14) (up_2 X0 X1 X2 X3 X4 X5 X6 (up_1 X0 X1 X2 X3 X4 X5 X6 (in_0 X0 X1 X2 X3 X4 X5 X6 (j := 24) rfl))))))⟩,
   ⟨rfl, rfl, fun W hg => (binary_result main_v180 main_v181 main_v182 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v180, Read.val_main_v180 (F := F) X0 X1 X2 X3 X4 X5 X6⟩ (List.mem_of_getElem? (i := 1) rfl)) (hg ⟨main_v181, Read.val_main_v181 (F := F) X0 X1 X2 X3 X4 X5 X6⟩ (List.mem_of_getElem? (i := 0) rfl)))⟩,
   ⟨rfl, rfl, fun W hg => (binary_result main_v28 main_v119 main_v183 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 16) (up_2 X0 X1 X2 X3 X4 X5 X6 (up_1 X0 X1 X2 X3 X4 X5 X6 (in_0 X0 X1 X2 X3 X4 X5 X6 (j := 28) rfl))))) (hg ⟨main_v119, Read.val_main_v119 (F := F) X0 X1 X2 X3 X4 X5 X6⟩ (List.mem_of_mem_drop (i := 16) (in_2 X0 X1 X2 X3 X4 X5 X6 (j := 47) rfl))))⟩,
   ⟨rfl, rfl, fun W hg => (binary_result main_v182 main_v183 main_v184 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v182, Read.val_main_v182 (F := F) X0 X1 X2 X3 X4 X5 X6⟩ (List.mem_of_getElem? (i := 1) rfl)) (hg ⟨main_v183, Read.val_main_v183 (F := F) X0 X1 X2 X3 X4 X5 X6⟩ (List.mem_of_getElem? (i := 0) rfl)))⟩,
   ⟨rfl, rfl, fun W hg => (binary_result main_v26 main_v154 main_v185 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 18) (up_2 X0 X1 X2 X3 X4 X5 X6 (up_1 X0 X1 X2 X3 X4 X5 X6 (in_0 X0 X1 X2 X3 X4 X5 X6 (j := 30) rfl))))) (hg ⟨main_v154, Read.val_main_v154 (F := F) X0 X1 X2 X3 X4 X5 X6⟩ (List.mem_of_mem_drop (i := 18) (in_2 X0 X1 X2 X3 X4 X5 X6 (j := 12) rfl))))⟩,
   ⟨rfl, rfl, fun W hg => (binary_result main_v36 main_v159 main_v186 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 19) (up_2 X0 X1 X2 X3 X4 X5 X6 (up_1 X0 X1 X2 X3 X4 X5 X6 (in_0 X0 X1 X2 X3 X4 X5 X6 (j := 20) rfl))))) (hg ⟨main_v159, Read.val_main_v159 (F := F) X0 X1 X2 X3 X4 X5 X6⟩ (List.mem_of_mem_drop (i := 19) (in_2 X0 X1 X2 X3 X4 X5 X6 (j := 7) rfl))))⟩,
   ⟨rfl, rfl, fun W hg => (binary_result main_v185 main_v186 main_v187 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v185, Read.val_main_v185 (F := F) X0 X1 X2 X3 X4 X5 X6⟩ (List.mem_of_getElem? (i := 1) rfl)) (hg ⟨main_v186, Read.val_main_v186 (F := F) X0 X1 X2 X3 X4 X5 X6⟩ (List.mem_of_getElem? (i := 0) rfl)))⟩,
   ⟨rfl, rfl, fun W hg => (binary_result main_v34 main_v159 main_v188 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 21) (up_2 X0 X1 X2 X3 X4 X5 X6 (up_1 X0 X1 X2 X3 X4 X5 X6 (in_0 X0 X1 X2 X3 X4 X5 X6 (j := 22) rfl))))) (hg ⟨main_v159, Read.val_main_v159 (F := F) X0 X1 X2 X3 X4 X5 X6⟩ (List.mem_of_mem_drop (i := 21) (in_2 X0 X1 X2 X3 X4 X5 X6 (j := 7) rfl))))⟩,
   ⟨rfl, rfl, fun W hg => (binary_result main_v187 main_v188 main_v189 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v187, Read.val_main_v187 (F := F) X0 X1 X2 X3 X4 X5 X6⟩ (List.mem_of_getElem? (i := 1) rfl)) (hg ⟨main_v188, Read.val_main_v188 (F := F) X0 X1 X2 X3 X4 X5 X6⟩ (List.mem_of_getElem? (i := 0) rfl)))⟩,
   ⟨rfl, rfl, fun W hg => (binary_result main_v40 main_v72 main_v190 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 23) (up_2 X0 X1 X2 X3 X4 X5 X6 (up_1 X0 X1 X2 X3 X4 X5 X6 (in_0 X0 X1 X2 X3 X4 X5 X6 (j := 16) rfl))))) (hg ⟨main_v72, Read.val_main_v72 (F := F) X0 X1 X2 X3 X4 X5 X6⟩ (List.mem_of_mem_drop (i := 23) (up_2 X0 X1 X2 X3 X4 X5 X6 (in_1 X0 X1 X2 X3 X4 X5 X6 (j := 37) rfl)))))⟩,
   ⟨rfl, rfl, fun W hg => (binary_result main_v44 main_v42 main_v191 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 24) (up_2 X0 X1 X2 X3 X4 X5 X6 (up_1 X0 X1 X2 X3 X4 X5 X6 (in_0 X0 X1 X2 X3 X4 X5 X6 (j := 12) rfl))))) (hg ⟨main_v42, Read.val_main_v42 (F := F) X0 X1 X2 X3 X4 X5 X6⟩ (List.mem_of_mem_drop (i := 24) (up_2 X0 X1 X2 X3 X4 X5 X6 (up_1 X0 X1 X2 X3 X4 X5 X6 (in_0 X0 X1 X2 X3 X4 X5 X6 (j := 14) rfl))))))⟩,
   ⟨rfl, rfl, fun W hg => (binary_result main_v190 main_v191 main_v192 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v190, Read.val_main_v190 (F := F) X0 X1 X2 X3 X4 X5 X6⟩ (List.mem_of_getElem? (i := 1) rfl)) (hg ⟨main_v191, Read.val_main_v191 (F := F) X0 X1 X2 X3 X4 X5 X6⟩ (List.mem_of_getElem? (i := 0) rfl)))⟩,
   ⟨rfl, rfl, fun W hg => (binary_result main_v30 main_v28 main_v193 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 26) (up_2 X0 X1 X2 X3 X4 X5 X6 (up_1 X0 X1 X2 X3 X4 X5 X6 (in_0 X0 X1 X2 X3 X4 X5 X6 (j := 26) rfl))))) (hg ⟨main_v28, Read.val_main_v28 (F := F) X0 X1 X2 X3 X4 X5 X6⟩ (List.mem_of_mem_drop (i := 26) (up_2 X0 X1 X2 X3 X4 X5 X6 (up_1 X0 X1 X2 X3 X4 X5 X6 (in_0 X0 X1 X2 X3 X4 X5 X6 (j := 28) rfl))))))⟩,
   ⟨rfl, rfl, fun W hg => (binary_result main_v192 main_v193 main_v194 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v192, Read.val_main_v192 (F := F) X0 X1 X2 X3 X4 X5 X6⟩ (List.mem_of_getElem? (i := 1) rfl)) (hg ⟨main_v193, Read.val_main_v193 (F := F) X0 X1 X2 X3 X4 X5 X6⟩ (List.mem_of_getElem? (i := 0) rfl)))⟩,
   ⟨rfl, rfl, fun W hg => (binary_result main_v44 main_v114 main_v195 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 28) (up_2 X0 X1 X2 X3 X4 X5 X6 (up_1 X0 X1 X2 X3 X4 X5 X6 (in_0 X0 X1 X2 X3 X4 X5 X6 (j := 12) rfl))))) (hg ⟨main_v114, Read.val_main_v114 (F := F) X0 X1 X2 X3 X4 X5 X6⟩ (List.mem_of_mem_drop (i := 28) (in_2 X0 X1 X2 X3 X4 X5 X6 (j := 52) rfl))))⟩,
   ⟨rfl, rfl, fun W hg => (binary_result main_v30 main_v32 main_v196 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 29) (up_2 X0 X1 X2 X3 X4 X5 X6 (up_1 X0 X1 X2 X3 X4 X5 X6 (in_0 X0 X1 X2 X3 X4 X5 X6 (j := 26) rfl))))) (hg ⟨main_v32, Read.val_main_v32 (F := F) X0 X1 X2 X3 X4 X5 X6⟩ (List.mem_of_mem_drop (i := 29) (up_2 X0 X1 X2 X3 X4 X5 X6 (up_1 X0 X1 X2 X3 X4 X5 X6 (in_0 X0 X1 X2 X3 X4 X5 X6 (j := 24) rfl))))))⟩,
   ⟨rfl, rfl, fun W hg => (binary_result main_v195 main_v196 main_v197 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v195, Read.val_main_v195 (F := F) X0 X1 X2 X3 X4 X5 X6⟩ (List.mem_of_getElem? (i := 1) rfl)) (hg ⟨main_v196, Read.val_main_v196 (F := F) X0 X1 X2 X3 X4 X5 X6⟩ (List.mem_of_getElem? (i := 0) rfl)))⟩,
   ⟨rfl, rfl, fun W hg => (binary_result main_v36 main_v184 main_v198 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 31) (up_2 X0 X1 X2 X3 X4 X5 X6 (up_1 X0 X1 X2 X3 X4 X5 X6 (in_0 X0 X1 X2 X3 X4 X5 X6 (j := 20) rfl))))) (hg ⟨main_v184, Read.val_main_v184 (F := F) X0 X1 X2 X3 X4 X5 X6⟩ (List.mem_of_getElem? (i := 13) rfl)))⟩,
   ⟨rfl, rfl, fun W hg => (binary_result main_v197 main_v198 main_v199 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v197, Read.val_main_v197 (F := F) X0 X1 X2 X3 X4 X5 X6⟩ (List.mem_of_getElem? (i := 1) rfl)) (hg ⟨main_v198, Read.val_main_v198 (F := F) X0 X1 X2 X3 X4 X5 X6⟩ (List.mem_of_getElem? (i := 0) rfl)))⟩,
   ⟨rfl, rfl, fun W hg => (binary_result main_v26 main_v89 main_v200 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 33) (up_2 X0 X1 X2 X3 X4 X5 X6 (up_1 X0 X1 X2 X3 X4 X5 X6 (in_0 X0 X1 X2 X3 X4 X5 X6 (j := 30) rfl))))) (hg ⟨main_v89, Read.val_main_v89 (F := F) X0 X1 X2 X3 X4 X5 X6⟩ (List.mem_of_mem_drop (i := 33) (up_2 X0 X1 X2 X3 X4 X5 X6 (in_1 X0 X1 X2 X3 X4 X5 X6 (j := 17) rfl)))))⟩,
   ⟨rfl, rfl, fun W hg => (binary_result main_v44 main_v30 main_v201 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 34) (up_2 X0 X1 X2 X3 X4 X5 X6 (up_1 X0 X1 X2 X3 X4 X5 X6 (in_0 X0 X1 X2 X3 X4 X5 X6 (j := 12) rfl))))) (hg ⟨main_v30, Read.val_main_v30 (F := F) X0 X1 X2 X3 X4 X5 X6⟩ (List.mem_of_mem_drop (i := 34) (up_2 X0 X1 X2 X3 X4 X5 X6 (up_1 X0 X1 X2 X3 X4 X5 X6 (in_0 X0 X1 X2 X3 X4 X5 X6 (j := 26) rfl))))))⟩,
   ⟨rfl, rfl, fun W hg => (binary_result main_v200 main_v201 main_v202 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v200, Read.val_main_v200 (F := F) X0 X1 X2 X3 X4 X5 X6⟩ (List.mem_of_getElem? (i := 1) rfl)) (hg ⟨main_v201, Read.val_main_v201 (F := F) X0 X1 X2 X3 X4 X5 X6⟩ (List.mem_of_getElem? (i := 0) rfl)))⟩,
   ⟨rfl, rfl, fun W hg => (binary_result main_v34 main_v36 main_v203 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 36) (up_2 X0 X1 X2 X3 X4 X5 X6 (up_1 X0 X1 X2 X3 X4 X5 X6 (in_0 X0 X1 X2 X3 X4 X5 X6 (j := 22) rfl))))) (hg ⟨main_v36, Read.val_main_v36 (F := F) X0 X1 X2 X3 X4 X5 X6⟩ (List.mem_of_mem_drop (i := 36) (up_2 X0 X1 X2 X3 X4 X5 X6 (up_1 X0 X1 X2 X3 X4 X5 X6 (in_0 X0 X1 X2 X3 X4 X5 X6 (j := 20) rfl))))))⟩,
   ⟨rfl, rfl, fun W hg => (binary_result main_v202 main_v203 main_v204 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v202, Read.val_main_v202 (F := F) X0 X1 X2 X3 X4 X5 X6⟩ (List.mem_of_getElem? (i := 1) rfl)) (hg ⟨main_v203, Read.val_main_v203 (F := F) X0 X1 X2 X3 X4 X5 X6⟩ (List.mem_of_getElem? (i := 0) rfl)))⟩,
   ⟨rfl, rfl, fun W hg => (binary_result main_v26 main_v38 main_v205 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 38) (up_2 X0 X1 X2 X3 X4 X5 X6 (up_1 X0 X1 X2 X3 X4 X5 X6 (in_0 X0 X1 X2 X3 X4 X5 X6 (j := 30) rfl))))) (hg ⟨main_v38, Read.val_main_v38 (F := F) X0 X1 X2 X3 X4 X5 X6⟩ (List.mem_of_mem_drop (i := 38) (up_2 X0 X1 X2 X3 X4 X5 X6 (up_1 X0 X1 X2 X3 X4 X5 X6 (in_0 X0 X1 X2 X3 X4 X5 X6 (j := 18) rfl))))))⟩,
   ⟨rfl, rfl, fun W hg => (binary_result main_v28 main_v40 main_v206 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 39) (up_2 X0 X1 X2 X3 X4 X5 X6 (up_1 X0 X1 X2 X3 X4 X5 X6 (in_0 X0 X1 X2 X3 X4 X5 X6 (j := 28) rfl))))) (hg ⟨main_v40, Read.val_main_v40 (F := F) X0 X1 X2 X3 X4 X5 X6⟩ (List.mem_of_mem_drop (i := 39) (up_2 X0 X1 X2 X3 X4 X5 X6 (up_1 X0 X1 X2 X3 X4 X5 X6 (in_0 X0 X1 X2 X3 X4 X5 X6 (j := 16) rfl))))))⟩,
   ⟨rfl, rfl, fun W hg => (binary_result main_v205 main_v206 main_v207 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v205, Read.val_main_v205 (F := F) X0 X1 X2 X3 X4 X5 X6⟩ (List.mem_of_getElem? (i := 1) rfl)) (hg ⟨main_v206, Read.val_main_v206 (F := F) X0 X1 X2 X3 X4 X5 X6⟩ (List.mem_of_getElem? (i := 0) rfl)))⟩,
   ⟨rfl, rfl, fun W hg => (binary_result main_v34 main_v80 main_v208 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 41) (up_2 X0 X1 X2 X3 X4 X5 X6 (up_1 X0 X1 X2 X3 X4 X5 X6 (in_0 X0 X1 X2 X3 X4 X5 X6 (j := 22) rfl))))) (hg ⟨main_v80, Read.val_main_v80 (F := F) X0 X1 X2 X3 X4 X5 X6⟩ (List.mem_of_mem_drop (i := 41) (up_2 X0 X1 X2 X3 X4 X5 X6 (in_1 X0 X1 X2 X3 X4 X5 X6 (j := 27) rfl)))))⟩,
   ⟨rfl, rfl, fun W hg => (binary_result main_v207 main_v208 main_v209 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v207, Read.val_main_v207 (F := F) X0 X1 X2 X3 X4 X5 X6⟩ (List.mem_of_getElem? (i := 1) rfl)) (hg ⟨main_v208, Read.val_main_v208 (F := F) X0 X1 X2 X3 X4 X5 X6⟩ (List.mem_of_getElem? (i := 0) rfl)))⟩,
   ⟨rfl, rfl, fun W hg => (binary_result main_v44 main_v124 main_v210 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 43) (up_2 X0 X1 X2 X3 X4 X5 X6 (up_1 X0 X1 X2 X3 X4 X5 X6 (in_0 X0 X1 X2 X3 X4 X5 X6 (j := 12) rfl))))) (hg ⟨main_v124, Read.val_main_v124 (F := F) X0 X1 X2 X3 X4 X5 X6⟩ (List.mem_of_mem_drop (i := 43) (in_2 X0 X1 X2 X3 X4 X5 X6 (j := 42) rfl))))⟩,
   ⟨rfl, rfl, fun W hg => (binary_result main_v26 main_v44 main_v211 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 44) (up_2 X0 X1 X2 X3 X4 X5 X6 (up_1 X0 X1 X2 X3 X4 X5 X6 (in_0 X0 X1 X2 X3 X4 X5 X6 (j := 30) rfl))))) (hg ⟨main_v44, Read.val_main_v44 (F := F) X0 X1 X2 X3 X4 X5 X6⟩ (List.mem_of_mem_drop (i := 44) (up_2 X0 X1 X2 X3 X4 X5 X6 (up_1 X0 X1 X2 X3 X4 X5 X6 (in_0 X0 X1 X2 X3 X4 X5 X6 (j := 12) rfl))))))⟩,
   ⟨rfl, rfl, fun W hg => (binary_result main_v210 main_v211 main_v212 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v210, Read.val_main_v210 (F := F) X0 X1 X2 X3 X4 X5 X6⟩ (List.mem_of_getElem? (i := 1) rfl)) (hg ⟨main_v211, Read.val_main_v211 (F := F) X0 X1 X2 X3 X4 X5 X6⟩ (List.mem_of_getElem? (i := 0) rfl)))⟩,
   ⟨rfl, rfl, fun W hg => (binary_result main_v30 main_v129 main_v213 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 46) (up_2 X0 X1 X2 X3 X4 X5 X6 (up_1 X0 X1 X2 X3 X4 X5 X6 (in_0 X0 X1 X2 X3 X4 X5 X6 (j := 26) rfl))))) (hg ⟨main_v129, Read.val_main_v129 (F := F) X0 X1 X2 X3 X4 X5 X6⟩ (List.mem_of_mem_drop (i := 46) (in_2 X0 X1 X2 X3 X4 X5 X6 (j := 37) rfl))))⟩,
   ⟨rfl, rfl, fun W hg => (binary_result main_v212 main_v213 main_v214 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v212, Read.val_main_v212 (F := F) X0 X1 X2 X3 X4 X5 X6⟩ (List.mem_of_getElem? (i := 1) rfl)) (hg ⟨main_v213, Read.val_main_v213 (F := F) X0 X1 X2 X3 X4 X5 X6⟩ (List.mem_of_getElem? (i := 0) rfl)))⟩,
   ⟨rfl, rfl, fun W hg => (binary_result main_v44 main_v32 main_v215 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 48) (up_2 X0 X1 X2 X3 X4 X5 X6 (up_1 X0 X1 X2 X3 X4 X5 X6 (in_0 X0 X1 X2 X3 X4 X5 X6 (j := 12) rfl))))) (hg ⟨main_v32, Read.val_main_v32 (F := F) X0 X1 X2 X3 X4 X5 X6⟩ (List.mem_of_mem_drop (i := 48) (up_2 X0 X1 X2 X3 X4 X5 X6 (up_1 X0 X1 X2 X3 X4 X5 X6 (in_0 X0 X1 X2 X3 X4 X5 X6 (j := 24) rfl))))))⟩,
   ⟨rfl, rfl, fun W hg => (binary_result main_v32 main_v42 main_v216 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 49) (up_2 X0 X1 X2 X3 X4 X5 X6 (up_1 X0 X1 X2 X3 X4 X5 X6 (in_0 X0 X1 X2 X3 X4 X5 X6 (j := 24) rfl))))) (hg ⟨main_v42, Read.val_main_v42 (F := F) X0 X1 X2 X3 X4 X5 X6⟩ (List.mem_of_mem_drop (i := 49) (up_2 X0 X1 X2 X3 X4 X5 X6 (up_1 X0 X1 X2 X3 X4 X5 X6 (in_0 X0 X1 X2 X3 X4 X5 X6 (j := 14) rfl))))))⟩,
   ⟨rfl, rfl, fun W hg => (binary_result main_v215 main_v216 main_v217 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v215, Read.val_main_v215 (F := F) X0 X1 X2 X3 X4 X5 X6⟩ (List.mem_of_getElem? (i := 1) rfl)) (hg ⟨main_v216, Read.val_main_v216 (F := F) X0 X1 X2 X3 X4 X5 X6⟩ (List.mem_of_getElem? (i := 0) rfl)))⟩,
   ⟨rfl, rfl, fun W hg => (binary_result main_v40 main_v124 main_v218 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 51) (up_2 X0 X1 X2 X3 X4 X5 X6 (up_1 X0 X1 X2 X3 X4 X5 X6 (in_0 X0 X1 X2 X3 X4 X5 X6 (j := 16) rfl))))) (hg ⟨main_v124, Read.val_main_v124 (F := F) X0 X1 X2 X3 X4 X5 X6⟩ (List.mem_of_mem_drop (i := 51) (in_2 X0 X1 X2 X3 X4 X5 X6 (j := 42) rfl))))⟩,
   ⟨rfl, rfl, fun W hg => (binary_result main_v217 main_v218 main_v219 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v217, Read.val_main_v217 (F := F) X0 X1 X2 X3 X4 X5 X6⟩ (List.mem_of_getElem? (i := 1) rfl)) (hg ⟨main_v218, Read.val_main_v218 (F := F) X0 X1 X2 X3 X4 X5 X6⟩ (List.mem_of_getElem? (i := 0) rfl)))⟩,
   ⟨rfl, rfl, fun W hg => (binary_result main_v44 main_v26 main_v220 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 53) (up_2 X0 X1 X2 X3 X4 X5 X6 (up_1 X0 X1 X2 X3 X4 X5 X6 (in_0 X0 X1 X2 X3 X4 X5 X6 (j := 12) rfl))))) (hg ⟨main_v26, Read.val_main_v26 (F := F) X0 X1 X2 X3 X4 X5 X6⟩ (List.mem_of_mem_drop (i := 53) (up_2 X0 X1 X2 X3 X4 X5 X6 (up_1 X0 X1 X2 X3 X4 X5 X6 (in_0 X0 X1 X2 X3 X4 X5 X6 (j := 30) rfl))))))⟩,
   ⟨rfl, rfl, fun W hg => (binary_result main_v34 main_v52 main_v221 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 54) (up_2 X0 X1 X2 X3 X4 X5 X6 (up_1 X0 X1 X2 X3 X4 X5 X6 (in_0 X0 X1 X2 X3 X4 X5 X6 (j := 22) rfl))))) (hg ⟨main_v52, Read.val_main_v52 (F := F) X0 X1 X2 X3 X4 X5 X6⟩ (List.mem_of_mem_drop (i := 54) (up_2 X0 X1 X2 X3 X4 X5 X6 (up_1 X0 X1 X2 X3 X4 X5 X6 (in_0 X0 X1 X2 X3 X4 X5 X6 (j := 2) rfl))))))⟩,
   ⟨rfl, rfl, fun W hg => (binary_result main_v220 main_v221 main_v222 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v220, Read.val_main_v220 (F := F) X0 X1 X2 X3 X4 X5 X6⟩ (List.mem_of_getElem? (i := 1) rfl)) (hg ⟨main_v221, Read.val_main_v221 (F := F) X0 X1 X2 X3 X4 X5 X6⟩ (List.mem_of_getElem? (i := 0) rfl)))⟩,
   ⟨rfl, rfl, fun W hg => (binary_result main_v38 main_v129 main_v223 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 56) (up_2 X0 X1 X2 X3 X4 X5 X6 (up_1 X0 X1 X2 X3 X4 X5 X6 (in_0 X0 X1 X2 X3 X4 X5 X6 (j := 18) rfl))))) (hg ⟨main_v129, Read.val_main_v129 (F := F) X0 X1 X2 X3 X4 X5 X6⟩ (List.mem_of_mem_drop (i := 56) (in_2 X0 X1 X2 X3 X4 X5 X6 (j := 37) rfl))))⟩,
   ⟨rfl, rfl, fun W hg => (binary_result main_v222 main_v223 main_v224 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v222, Read.val_main_v222 (F := F) X0 X1 X2 X3 X4 X5 X6⟩ (List.mem_of_getElem? (i := 1) rfl)) (hg ⟨main_v223, Read.val_main_v223 (F := F) X0 X1 X2 X3 X4 X5 X6⟩ (List.mem_of_getElem? (i := 0) rfl)))⟩,
   ⟨rfl, rfl, fun W hg => (binary_result main_v28 main_v164 main_v225 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 58) (up_2 X0 X1 X2 X3 X4 X5 X6 (up_1 X0 X1 X2 X3 X4 X5 X6 (in_0 X0 X1 X2 X3 X4 X5 X6 (j := 28) rfl))))) (hg ⟨main_v164, Read.val_main_v164 (F := F) X0 X1 X2 X3 X4 X5 X6⟩ (List.mem_of_mem_drop (i := 58) (in_2 X0 X1 X2 X3 X4 X5 X6 (j := 2) rfl))))⟩,
   ⟨rfl, rfl, fun W hg => (binary_result main_v32 main_v84 main_v226 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 59) (up_2 X0 X1 X2 X3 X4 X5 X6 (up_1 X0 X1 X2 X3 X4 X5 X6 (in_0 X0 X1 X2 X3 X4 X5 X6 (j := 24) rfl))))) (hg ⟨main_v84, Read.val_main_v84 (F := F) X0 X1 X2 X3 X4 X5 X6⟩ (List.mem_of_mem_drop (i := 59) (up_2 X0 X1 X2 X3 X4 X5 X6 (in_1 X0 X1 X2 X3 X4 X5 X6 (j := 22) rfl)))))⟩,
   trivial⟩
theorem good_3 (W : Valuation τ sig (Elt F)) (hg : Good W (tbl_2 X0 X1 X2 X3 X4 X5 X6) (7 + 184)) :
    Good (after ops_3 W) (tbl_3 X0 X1 X2 X3 X4 X5 X6) (7 + 244) :=
  Good.after _ _ _ _ W hg (chain_3 X0 X1 X2 X3 X4 X5 X6)

theorem part_eq_4 (c : Dev nD) : main_part4 (F := F) c = seq ops_4 := rfl
theorem fresh_4 : (ops_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 4's operations write, in order. -/
abbrev ps_4 : List (Entry sig (Elt F)) :=
  [ ⟨main_v227, Read.val_main_v227 (F := F) X0 X1 X2 X3 X4 X5 X6⟩,
    ⟨main_v228, Read.val_main_v228 (F := F) X0 X1 X2 X3 X4 X5 X6⟩,
    ⟨main_v229, Read.val_main_v229 (F := F) X0 X1 X2 X3 X4 X5 X6⟩,
    ⟨main_v230, Read.val_main_v230 (F := F) X0 X1 X2 X3 X4 X5 X6⟩,
    ⟨main_v231, Read.val_main_v231 (F := F) X0 X1 X2 X3 X4 X5 X6⟩,
    ⟨main_v232, Read.val_main_v232 (F := F) X0 X1 X2 X3 X4 X5 X6⟩,
    ⟨main_v233, Read.val_main_v233 (F := F) X0 X1 X2 X3 X4 X5 X6⟩,
    ⟨main_v234, Read.val_main_v234 (F := F) X0 X1 X2 X3 X4 X5 X6⟩,
    ⟨main_v235, Read.val_main_v235 (F := F) X0 X1 X2 X3 X4 X5 X6⟩,
    ⟨main_v236, Read.val_main_v236 (F := F) X0 X1 X2 X3 X4 X5 X6⟩,
    ⟨main_v237, Read.val_main_v237 (F := F) X0 X1 X2 X3 X4 X5 X6⟩,
    ⟨main_v238, Read.val_main_v238 (F := F) X0 X1 X2 X3 X4 X5 X6⟩,
    ⟨main_v239, Read.val_main_v239 (F := F) X0 X1 X2 X3 X4 X5 X6⟩,
    ⟨main_v240, Read.val_main_v240 (F := F) X0 X1 X2 X3 X4 X5 X6⟩,
    ⟨main_v241, Read.val_main_v241 (F := F) X0 X1 X2 X3 X4 X5 X6⟩,
    ⟨main_v242, Read.val_main_v242 (F := F) X0 X1 X2 X3 X4 X5 X6⟩,
    ⟨main_v243, Read.val_main_v243 (F := F) X0 X1 X2 X3 X4 X5 X6⟩,
    ⟨main_v244, Read.val_main_v244 (F := F) X0 X1 X2 X3 X4 X5 X6⟩,
    ⟨main_v245, Read.val_main_v245 (F := F) X0 X1 X2 X3 X4 X5 X6⟩,
    ⟨main_v246, Read.val_main_v246 (F := F) X0 X1 X2 X3 X4 X5 X6⟩,
    ⟨main_v247, Read.val_main_v247 (F := F) X0 X1 X2 X3 X4 X5 X6⟩,
    ⟨main_v248, Read.val_main_v248 (F := F) X0 X1 X2 X3 X4 X5 X6⟩,
    ⟨main_v249, Read.val_main_v249 (F := F) X0 X1 X2 X3 X4 X5 X6⟩,
    ⟨main_v250, Read.val_main_v250 (F := F) X0 X1 X2 X3 X4 X5 X6⟩,
    ⟨main_v251, Read.val_main_v251 (F := F) X0 X1 X2 X3 X4 X5 X6⟩,
    ⟨main_v252, Read.val_main_v252 (F := F) X0 X1 X2 X3 X4 X5 X6⟩,
    ⟨main_v253, Read.val_main_v253 (F := F) X0 X1 X2 X3 X4 X5 X6⟩,
    ⟨main_v254, Read.val_main_v254 (F := F) X0 X1 X2 X3 X4 X5 X6⟩,
    ⟨main_v255, Read.val_main_v255 (F := F) X0 X1 X2 X3 X4 X5 X6⟩,
    ⟨main_v256, Read.val_main_v256 (F := F) X0 X1 X2 X3 X4 X5 X6⟩,
    ⟨main_v257, Read.val_main_v257 (F := F) X0 X1 X2 X3 X4 X5 X6⟩,
    ⟨main_v258, Read.val_main_v258 (F := F) X0 X1 X2 X3 X4 X5 X6⟩,
    ⟨main_v259, Read.val_main_v259 (F := F) X0 X1 X2 X3 X4 X5 X6⟩,
    ⟨main_v260, Read.val_main_v260 (F := F) X0 X1 X2 X3 X4 X5 X6⟩,
    ⟨main_v261, Read.val_main_v261 (F := F) X0 X1 X2 X3 X4 X5 X6⟩,
    ⟨main_v262, Read.val_main_v262 (F := F) X0 X1 X2 X3 X4 X5 X6⟩,
    ⟨main_v263, Read.val_main_v263 (F := F) X0 X1 X2 X3 X4 X5 X6⟩,
    ⟨main_v264, Read.val_main_v264 (F := F) X0 X1 X2 X3 X4 X5 X6⟩,
    ⟨main_v265, Read.val_main_v265 (F := F) X0 X1 X2 X3 X4 X5 X6⟩,
    ⟨main_v266, Read.val_main_v266 (F := F) X0 X1 X2 X3 X4 X5 X6⟩,
    ⟨main_v267, Read.val_main_v267 (F := F) X0 X1 X2 X3 X4 X5 X6⟩,
    ⟨main_v268, Read.val_main_v268 (F := F) X0 X1 X2 X3 X4 X5 X6⟩,
    ⟨main_v269, Read.val_main_v269 (F := F) X0 X1 X2 X3 X4 X5 X6⟩,
    ⟨main_v270, Read.val_main_v270 (F := F) X0 X1 X2 X3 X4 X5 X6⟩,
    ⟨main_v271, Read.val_main_v271 (F := F) X0 X1 X2 X3 X4 X5 X6⟩,
    ⟨main_v272, Read.val_main_v272 (F := F) X0 X1 X2 X3 X4 X5 X6⟩,
    ⟨main_v273, Read.val_main_v273 (F := F) X0 X1 X2 X3 X4 X5 X6⟩,
    ⟨main_v274, Read.val_main_v274 (F := F) X0 X1 X2 X3 X4 X5 X6⟩,
    ⟨main_v275, Read.val_main_v275 (F := F) X0 X1 X2 X3 X4 X5 X6⟩,
    ⟨main_v276, Read.val_main_v276 (F := F) X0 X1 X2 X3 X4 X5 X6⟩,
    ⟨main_v277, Read.val_main_v277 (F := F) X0 X1 X2 X3 X4 X5 X6⟩,
    ⟨main_v278, Read.val_main_v278 (F := F) X0 X1 X2 X3 X4 X5 X6⟩,
    ⟨main_v279, Read.val_main_v279 (F := F) X0 X1 X2 X3 X4 X5 X6⟩,
    ⟨main_v280, Read.val_main_v280 (F := F) X0 X1 X2 X3 X4 X5 X6⟩,
    ⟨main_v281, Read.val_main_v281 (F := F) X0 X1 X2 X3 X4 X5 X6⟩,
    ⟨main_v282, Read.val_main_v282 (F := F) X0 X1 X2 X3 X4 X5 X6⟩,
    ⟨main_v283, Read.val_main_v283 (F := F) X0 X1 X2 X3 X4 X5 X6⟩,
    ⟨main_v284, Read.val_main_v284 (F := F) X0 X1 X2 X3 X4 X5 X6⟩,
    ⟨main_v285, Read.val_main_v285 (F := F) X0 X1 X2 X3 X4 X5 X6⟩,
    ⟨main_v286, Read.val_main_v286 (F := F) X0 X1 X2 X3 X4 X5 X6⟩ ]
/-- The stages known after window 4, the newest first. -/
abbrev tbl_4 : List (Entry sig (Elt F)) := (ps_4 X0 X1 X2 X3 X4 X5 X6).reverse ++ tbl_3 X0 X1 X2 X3 X4 X5 X6
theorem up_4 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_3 X0 X1 X2 X3 X4 X5 X6) : e ∈ tbl_4 X0 X1 X2 X3 X4 X5 X6 := List.mem_append_right _ h
theorem in_4 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_4 X0 X1 X2 X3 X4 X5 X6).reverse[j]? = some e) : e ∈ tbl_4 X0 X1 X2 X3 X4 X5 X6 :=
  List.mem_append_left _ (List.mem_of_getElem? h)
set_option maxRecDepth 1000000 in
set_option maxHeartbeats 4000000 in
theorem chain_4 : Chain (tbl_3 X0 X1 X2 X3 X4 X5 X6) (7 + 244) (ops_4 (F := F)) (ps_4 X0 X1 X2 X3 X4 X5 X6) :=
  ⟨⟨rfl, rfl, fun W hg => (binary_result main_v225 main_v226 main_v227 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v225, Read.val_main_v225 (F := F) X0 X1 X2 X3 X4 X5 X6⟩ (List.mem_of_mem_drop (i := 0) (in_3 X0 X1 X2 X3 X4 X5 X6 (j := 1) rfl))) (hg ⟨main_v226, Read.val_main_v226 (F := F) X0 X1 X2 X3 X4 X5 X6⟩ (List.mem_of_mem_drop (i := 0) (in_3 X0 X1 X2 X3 X4 X5 X6 (j := 0) rfl))))⟩,
   ⟨rfl, rfl, fun W hg => (binary_result main_v42 main_v40 main_v228 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 1) (up_3 X0 X1 X2 X3 X4 X5 X6 (up_2 X0 X1 X2 X3 X4 X5 X6 (up_1 X0 X1 X2 X3 X4 X5 X6 (in_0 X0 X1 X2 X3 X4 X5 X6 (j := 14) rfl)))))) (hg ⟨main_v40, Read.val_main_v40 (F := F) X0 X1 X2 X3 X4 X5 X6⟩ (List.mem_of_mem_drop (i := 1) (up_3 X0 X1 X2 X3 X4 X5 X6 (up_2 X0 X1 X2 X3 X4 X5 X6 (up_1 X0 X1 X2 X3 X4 X5 X6 (in_0 X0 X1 X2 X3 X4 X5 X6 (j := 16) rfl)))))))⟩,
   ⟨rfl, rfl, fun W hg => (binary_result main_v227 main_v228 main_v229 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v227, Read.val_main_v227 (F := F) X0 X1 X2 X3 X4 X5 X6⟩ (List.mem_of_getElem? (i := 1) rfl)) (hg ⟨main_v228, Read.val_main_v228 (F := F) X0 X1 X2 X3 X4 X5 X6⟩ (List.mem_of_getElem? (i := 0) rfl)))⟩,
   ⟨rfl, rfl, fun W hg => (binary_result main_v30 main_v119 main_v230 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 3) (up_3 X0 X1 X2 X3 X4 X5 X6 (up_2 X0 X1 X2 X3 X4 X5 X6 (up_1 X0 X1 X2 X3 X4 X5 X6 (in_0 X0 X1 X2 X3 X4 X5 X6 (j := 26) rfl)))))) (hg ⟨main_v119, Read.val_main_v119 (F := F) X0 X1 X2 X3 X4 X5 X6⟩ (List.mem_of_mem_drop (i := 3) (up_3 X0 X1 X2 X3 X4 X5 X6 (in_2 X0 X1 X2 X3 X4 X5 X6 (j := 47) rfl)))))⟩,
   ⟨rfl, rfl, fun W hg => (binary_result main_v28 main_v48 main_v231 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 4) (up_3 X0 X1 X2 X3 X4 X5 X6 (up_2 X0 X1 X2 X3 X4 X5 X6 (up_1 X0 X1 X2 X3 X4 X5 X6 (in_0 X0 X1 X2 X3 X4 X5 X6 (j := 28) rfl)))))) (hg ⟨main_v48, Read.val_main_v48 (F := F) X0 X1 X2 X3 X4 X5 X6⟩ (List.mem_of_mem_drop (i := 4) (up_3 X0 X1 X2 X3 X4 X5 X6 (up_2 X0 X1 X2 X3 X4 X5 X6 (up_1 X0 X1 X2 X3 X4 X5 X6 (in_0 X0 X1 X2 X3 X4 X5 X6 (j := 7) rfl)))))))⟩,
   ⟨rfl, rfl, fun W hg => (binary_result main_v230 main_v231 main_v232 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v230, Read.val_main_v230 (F := F) X0 X1 X2 X3 X4 X5 X6⟩ (List.mem_of_getElem? (i := 1) rfl)) (hg ⟨main_v231, Read.val_main_v231 (F := F) X0 X1 X2 X3 X4 X5 X6⟩ (List.mem_of_getElem? (i := 0) rfl)))⟩,
   ⟨rfl, rfl, fun W hg => (binary_result main_v34 main_v219 main_v233 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 6) (up_3 X0 X1 X2 X3 X4 X5 X6 (up_2 X0 X1 X2 X3 X4 X5 X6 (up_1 X0 X1 X2 X3 X4 X5 X6 (in_0 X0 X1 X2 X3 X4 X5 X6 (j := 22) rfl)))))) (hg ⟨main_v219, Read.val_main_v219 (F := F) X0 X1 X2 X3 X4 X5 X6⟩ (List.mem_of_mem_drop (i := 6) (in_3 X0 X1 X2 X3 X4 X5 X6 (j := 7) rfl))))⟩,
   ⟨rfl, rfl, fun W hg => (binary_result main_v232 main_v233 main_v234 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v232, Read.val_main_v232 (F := F) X0 X1 X2 X3 X4 X5 X6⟩ (List.mem_of_getElem? (i := 1) rfl)) (hg ⟨main_v233, Read.val_main_v233 (F := F) X0 X1 X2 X3 X4 X5 X6⟩ (List.mem_of_getElem? (i := 0) rfl)))⟩,
   ⟨rfl, rfl, fun W hg => (binary_result main_v26 main_v204 main_v235 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 8) (up_3 X0 X1 X2 X3 X4 X5 X6 (up_2 X0 X1 X2 X3 X4 X5 X6 (up_1 X0 X1 X2 X3 X4 X5 X6 (in_0 X0 X1 X2 X3 X4 X5 X6 (j := 30) rfl)))))) (hg ⟨main_v204, Read.val_main_v204 (F := F) X0 X1 X2 X3 X4 X5 X6⟩ (List.mem_of_mem_drop (i := 8) (in_3 X0 X1 X2 X3 X4 X5 X6 (j := 22) rfl))))⟩,
   ⟨rfl, rfl, fun W hg => (binary_result main_v38 main_v80 main_v236 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 9) (up_3 X0 X1 X2 X3 X4 X5 X6 (up_2 X0 X1 X2 X3 X4 X5 X6 (up_1 X0 X1 X2 X3 X4 X5 X6 (in_0 X0 X1 X2 X3 X4 X5 X6 (j := 18) rfl)))))) (hg ⟨main_v80, Read.val_main_v80 (F := F) X0 X1 X2 X3 X4 X5 X6⟩ (List.mem_of_mem_drop (i := 9) (up_3 X0 X1 X2 X3 X4 X5 X6 (up_2 X0 X1 X2 X3 X4 X5 X6 (in_1 X0 X1 X2 X3 X4 X5 X6 (j := 27) rfl))))))⟩,
   ⟨rfl, rfl, fun W hg => (binary_result main_v235 main_v236 main_v237 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v235, Read.val_main_v235 (F := F) X0 X1 X2 X3 X4 X5 X6⟩ (List.mem_of_getElem? (i := 1) rfl)) (hg ⟨main_v236, Read.val_main_v236 (F := F) X0 X1 X2 X3 X4 X5 X6⟩ (List.mem_of_getElem? (i := 0) rfl)))⟩,
   ⟨rfl, rfl, fun W hg => (binary_result main_v34 main_v214 main_v238 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 11) (up_3 X0 X1 X2 X3 X4 X5 X6 (up_2 X0 X1 X2 X3 X4 X5 X6 (up_1 X0 X1 X2 X3 X4 X5 X6 (in_0 X0 X1 X2 X3 X4 X5 X6 (j := 22) rfl)))))) (hg ⟨main_v214, Read.val_main_v214 (F := F) X0 X1 X2 X3 X4 X5 X6⟩ (List.mem_of_mem_drop (i := 11) (in_3 X0 X1 X2 X3 X4 X5 X6 (j := 12) rfl))))⟩,
   ⟨rfl, rfl, fun W hg => (binary_result main_v237 main_v238 main_v239 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v237, Read.val_main_v237 (F := F) X0 X1 X2 X3 X4 X5 X6⟩ (List.mem_of_getElem? (i := 1) rfl)) (hg ⟨main_v238, Read.val_main_v238 (F := F) X0 X1 X2 X3 X4 X5 X6⟩ (List.mem_of_getElem? (i := 0) rfl)))⟩,
   ⟨rfl, rfl, fun W hg => (binary_result main_v42 main_v164 main_v240 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 13) (up_3 X0 X1 X2 X3 X4 X5 X6 (up_2 X0 X1 X2 X3 X4 X5 X6 (up_1 X0 X1 X2 X3 X4 X5 X6 (in_0 X0 X1 X2 X3 X4 X5 X6 (j := 14) rfl)))))) (hg ⟨main_v164, Read.val_main_v164 (F := F) X0 X1 X2 X3 X4 X5 X6⟩ (List.mem_of_mem_drop (i := 13) (up_3 X0 X1 X2 X3 X4 X5 X6 (in_2 X0 X1 X2 X3 X4 X5 X6 (j := 2) rfl)))))⟩,
   ⟨rfl, rfl, fun W hg => (binary_result main_v32 main_v234 main_v241 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 14) (up_3 X0 X1 X2 X3 X4 X5 X6 (up_2 X0 X1 X2 X3 X4 X5 X6 (up_1 X0 X1 X2 X3 X4 X5 X6 (in_0 X0 X1 X2 X3 X4 X5 X6 (j := 24) rfl)))))) (hg ⟨main_v234, Read.val_main_v234 (F := F) X0 X1 X2 X3 X4 X5 X6⟩ (List.mem_of_getElem? (i := 6) rfl)))⟩,
   ⟨rfl, rfl, fun W hg => (binary_result main_v240 main_v241 main_v242 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v240, Read.val_main_v240 (F := F) X0 X1 X2 X3 X4 X5 X6⟩ (List.mem_of_getElem? (i := 1) rfl)) (hg ⟨main_v241, Read.val_main_v241 (F := F) X0 X1 X2 X3 X4 X5 X6⟩ (List.mem_of_getElem? (i := 0) rfl)))⟩,
   ⟨rfl, rfl, fun W hg => (binary_result main_v34 main_v199 main_v243 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 16) (up_3 X0 X1 X2 X3 X4 X5 X6 (up_2 X0 X1 X2 X3 X4 X5 X6 (up_1 X0 X1 X2 X3 X4 X5 X6 (in_0 X0 X1 X2 X3 X4 X5 X6 (j := 22) rfl)))))) (hg ⟨main_v199, Read.val_main_v199 (F := F) X0 X1 X2 X3 X4 X5 X6⟩ (List.mem_of_mem_drop (i := 16) (in_3 X0 X1 X2 X3 X4 X5 X6 (j := 27) rfl))))⟩,
   ⟨rfl, rfl, fun W hg => (binary_result main_v242 main_v243 main_v244 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v242, Read.val_main_v242 (F := F) X0 X1 X2 X3 X4 X5 X6⟩ (List.mem_of_getElem? (i := 1) rfl)) (hg ⟨main_v243, Read.val_main_v243 (F := F) X0 X1 X2 X3 X4 X5 X6⟩ (List.mem_of_getElem? (i := 0) rfl)))⟩,
   ⟨rfl, rfl, fun W hg => (binary_result main_v28 main_v99 main_v245 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 18) (up_3 X0 X1 X2 X3 X4 X5 X6 (up_2 X0 X1 X2 X3 X4 X5 X6 (up_1 X0 X1 X2 X3 X4 X5 X6 (in_0 X0 X1 X2 X3 X4 X5 X6 (j := 28) rfl)))))) (hg ⟨main_v99, Read.val_main_v99 (F := F) X0 X1 X2 X3 X4 X5 X6⟩ (List.mem_of_mem_drop (i := 18) (up_3 X0 X1 X2 X3 X4 X5 X6 (up_2 X0 X1 X2 X3 X4 X5 X6 (in_1 X0 X1 X2 X3 X4 X5 X6 (j := 7) rfl))))))⟩,
   ⟨rfl, rfl, fun W hg => (binary_result main_v30 main_v68 main_v246 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 19) (up_3 X0 X1 X2 X3 X4 X5 X6 (up_2 X0 X1 X2 X3 X4 X5 X6 (up_1 X0 X1 X2 X3 X4 X5 X6 (in_0 X0 X1 X2 X3 X4 X5 X6 (j := 26) rfl)))))) (hg ⟨main_v68, Read.val_main_v68 (F := F) X0 X1 X2 X3 X4 X5 X6⟩ (List.mem_of_mem_drop (i := 19) (up_3 X0 X1 X2 X3 X4 X5 X6 (up_2 X0 X1 X2 X3 X4 X5 X6 (in_1 X0 X1 X2 X3 X4 X5 X6 (j := 42) rfl))))))⟩,
   ⟨rfl, rfl, fun W hg => (binary_result main_v245 main_v246 main_v247 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v245, Read.val_main_v245 (F := F) X0 X1 X2 X3 X4 X5 X6⟩ (List.mem_of_getElem? (i := 1) rfl)) (hg ⟨main_v246, Read.val_main_v246 (F := F) X0 X1 X2 X3 X4 X5 X6⟩ (List.mem_of_getElem? (i := 0) rfl)))⟩,
   ⟨rfl, rfl, fun W hg => (binary_result main_v34 main_v114 main_v248 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 21) (up_3 X0 X1 X2 X3 X4 X5 X6 (up_2 X0 X1 X2 X3 X4 X5 X6 (up_1 X0 X1 X2 X3 X4 X5 X6 (in_0 X0 X1 X2 X3 X4 X5 X6 (j := 22) rfl)))))) (hg ⟨main_v114, Read.val_main_v114 (F := F) X0 X1 X2 X3 X4 X5 X6⟩ (List.mem_of_mem_drop (i := 21) (up_3 X0 X1 X2 X3 X4 X5 X6 (in_2 X0 X1 X2 X3 X4 X5 X6 (j := 52) rfl)))))⟩,
   ⟨rfl, rfl, fun W hg => (binary_result main_v247 main_v248 main_v249 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v247, Read.val_main_v247 (F := F) X0 X1 X2 X3 X4 X5 X6⟩ (List.mem_of_getElem? (i := 1) rfl)) (hg ⟨main_v248, Read.val_main_v248 (F := F) X0 X1 X2 X3 X4 X5 X6⟩ (List.mem_of_getElem? (i := 0) rfl)))⟩,
   ⟨rfl, rfl, fun W hg => (binary_result main_v36 main_v239 main_v250 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 23) (up_3 X0 X1 X2 X3 X4 X5 X6 (up_2 X0 X1 X2 X3 X4 X5 X6 (up_1 X0 X1 X2 X3 X4 X5 X6 (in_0 X0 X1 X2 X3 X4 X5 X6 (j := 20) rfl)))))) (hg ⟨main_v239, Read.val_main_v239 (F := F) X0 X1 X2 X3 X4 X5 X6⟩ (List.mem_of_getElem? (i := 10) rfl)))⟩,
   ⟨rfl, rfl, fun W hg => (binary_result main_v44 main_v214 main_v251 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 24) (up_3 X0 X1 X2 X3 X4 X5 X6 (up_2 X0 X1 X2 X3 X4 X5 X6 (up_1 X0 X1 X2 X3 X4 X5 X6 (in_0 X0 X1 X2 X3 X4 X5 X6 (j := 12) rfl)))))) (hg ⟨main_v214, Read.val_main_v214 (F := F) X0 X1 X2 X3 X4 X5 X6⟩ (List.mem_of_mem_drop (i := 24) (in_3 X0 X1 X2 X3 X4 X5 X6 (j := 12) rfl))))⟩,
   ⟨rfl, rfl, fun W hg => (binary_result main_v250 main_v251 main_v252 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v250, Read.val_main_v250 (F := F) X0 X1 X2 X3 X4 X5 X6⟩ (List.mem_of_getElem? (i := 1) rfl)) (hg ⟨main_v251, Read.val_main_v251 (F := F) X0 X1 X2 X3 X4 X5 X6⟩ (List.mem_of_getElem? (i := 0) rfl)))⟩,
   ⟨rfl, rfl, fun W hg => (binary_result main_v26 main_v104 main_v253 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 26) (up_3 X0 X1 X2 X3 X4 X5 X6 (up_2 X0 X1 X2 X3 X4 X5 X6 (up_1 X0 X1 X2 X3 X4 X5 X6 (in_0 X0 X1 X2 X3 X4 X5 X6 (j := 30) rfl)))))) (hg ⟨main_v104, Read.val_main_v104 (F := F) X0 X1 X2 X3 X4 X5 X6⟩ (List.mem_of_mem_drop (i := 26) (up_3 X0 X1 X2 X3 X4 X5 X6 (up_2 X0 X1 X2 X3 X4 X5 X6 (in_1 X0 X1 X2 X3 X4 X5 X6 (j := 2) rfl))))))⟩,
   ⟨rfl, rfl, fun W hg => (binary_result main_v252 main_v253 main_v254 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v252, Read.val_main_v252 (F := F) X0 X1 X2 X3 X4 X5 X6⟩ (List.mem_of_getElem? (i := 1) rfl)) (hg ⟨main_v253, Read.val_main_v253 (F := F) X0 X1 X2 X3 X4 X5 X6⟩ (List.mem_of_getElem? (i := 0) rfl)))⟩,
   ⟨rfl, rfl, fun W hg => (binary_result main_v32 main_v104 main_v255 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 28) (up_3 X0 X1 X2 X3 X4 X5 X6 (up_2 X0 X1 X2 X3 X4 X5 X6 (up_1 X0 X1 X2 X3 X4 X5 X6 (in_0 X0 X1 X2 X3 X4 X5 X6 (j := 24) rfl)))))) (hg ⟨main_v104, Read.val_main_v104 (F := F) X0 X1 X2 X3 X4 X5 X6⟩ (List.mem_of_mem_drop (i := 28) (up_3 X0 X1 X2 X3 X4 X5 X6 (up_2 X0 X1 X2 X3 X4 X5 X6 (in_1 X0 X1 X2 X3 X4 X5 X6 (j := 2) rfl))))))⟩,
   ⟨rfl, rfl, fun W hg => (binary_result main_v30 main_v124 main_v256 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 29) (up_3 X0 X1 X2 X3 X4 X5 X6 (up_2 X0 X1 X2 X3 X4 X5 X6 (up_1 X0 X1 X2 X3 X4 X5 X6 (in_0 X0 X1 X2 X3 X4 X5 X6 (j := 26) rfl)))))) (hg ⟨main_v124, Read.val_main_v124 (F := F) X0 X1 X2 X3 X4 X5 X6⟩ (List.mem_of_mem_drop (i := 29) (up_3 X0 X1 X2 X3 X4 X5 X6 (in_2 X0 X1 X2 X3 X4 X5 X6 (j := 42) rfl)))))⟩,
   ⟨rfl, rfl, fun W hg => (binary_result main_v255 main_v256 main_v257 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v255, Read.val_main_v255 (F := F) X0 X1 X2 X3 X4 X5 X6⟩ (List.mem_of_getElem? (i := 1) rfl)) (hg ⟨main_v256, Read.val_main_v256 (F := F) X0 X1 X2 X3 X4 X5 X6⟩ (List.mem_of_getElem? (i := 0) rfl)))⟩,
   ⟨rfl, rfl, fun W hg => (binary_result main_v38 main_v134 main_v258 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 31) (up_3 X0 X1 X2 X3 X4 X5 X6 (up_2 X0 X1 X2 X3 X4 X5 X6 (up_1 X0 X1 X2 X3 X4 X5 X6 (in_0 X0 X1 X2 X3 X4 X5 X6 (j := 18) rfl)))))) (hg ⟨main_v134, Read.val_main_v134 (F := F) X0 X1 X2 X3 X4 X5 X6⟩ (List.mem_of_mem_drop (i := 31) (up_3 X0 X1 X2 X3 X4 X5 X6 (in_2 X0 X1 X2 X3 X4 X5 X6 (j := 32) rfl)))))⟩,
   ⟨rfl, rfl, fun W hg => (binary_result main_v257 main_v258 main_v259 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v257, Read.val_main_v257 (F := F) X0 X1 X2 X3 X4 X5 X6⟩ (List.mem_of_getElem? (i := 1) rfl)) (hg ⟨main_v258, Read.val_main_v258 (F := F) X0 X1 X2 X3 X4 X5 X6⟩ (List.mem_of_getElem? (i := 0) rfl)))⟩,
   ⟨rfl, rfl, fun W hg => (binary_result main_v38 main_v84 main_v260 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 33) (up_3 X0 X1 X2 X3 X4 X5 X6 (up_2 X0 X1 X2 X3 X4 X5 X6 (up_1 X0 X1 X2 X3 X4 X5 X6 (in_0 X0 X1 X2 X3 X4 X5 X6 (j := 18) rfl)))))) (hg ⟨main_v84, Read.val_main_v84 (F := F) X0 X1 X2 X3 X4 X5 X6⟩ (List.mem_of_mem_drop (i := 33) (up_3 X0 X1 X2 X3 X4 X5 X6 (up_2 X0 X1 X2 X3 X4 X5 X6 (in_1 X0 X1 X2 X3 X4 X5 X6 (j := 22) rfl))))))⟩,
   ⟨rfl, rfl, fun W hg => (binary_result main_v26 main_v169 main_v261 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 34) (up_3 X0 X1 X2 X3 X4 X5 X6 (up_2 X0 X1 X2 X3 X4 X5 X6 (up_1 X0 X1 X2 X3 X4 X5 X6 (in_0 X0 X1 X2 X3 X4 X5 X6 (j := 30) rfl)))))) (hg ⟨main_v169, Read.val_main_v169 (F := F) X0 X1 X2 X3 X4 X5 X6⟩ (List.mem_of_mem_drop (i := 34) (in_3 X0 X1 X2 X3 X4 X5 X6 (j := 57) rfl))))⟩,
   ⟨rfl, rfl, fun W hg => (binary_result main_v260 main_v261 main_v262 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v260, Read.val_main_v260 (F := F) X0 X1 X2 X3 X4 X5 X6⟩ (List.mem_of_getElem? (i := 1) rfl)) (hg ⟨main_v261, Read.val_main_v261 (F := F) X0 X1 X2 X3 X4 X5 X6⟩ (List.mem_of_getElem? (i := 0) rfl)))⟩,
   ⟨rfl, rfl, fun W hg => (binary_result main_v30 main_v76 main_v263 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 36) (up_3 X0 X1 X2 X3 X4 X5 X6 (up_2 X0 X1 X2 X3 X4 X5 X6 (up_1 X0 X1 X2 X3 X4 X5 X6 (in_0 X0 X1 X2 X3 X4 X5 X6 (j := 26) rfl)))))) (hg ⟨main_v76, Read.val_main_v76 (F := F) X0 X1 X2 X3 X4 X5 X6⟩ (List.mem_of_mem_drop (i := 36) (up_3 X0 X1 X2 X3 X4 X5 X6 (up_2 X0 X1 X2 X3 X4 X5 X6 (in_1 X0 X1 X2 X3 X4 X5 X6 (j := 32) rfl))))))⟩,
   ⟨rfl, rfl, fun W hg => (binary_result main_v262 main_v263 main_v264 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v262, Read.val_main_v262 (F := F) X0 X1 X2 X3 X4 X5 X6⟩ (List.mem_of_getElem? (i := 1) rfl)) (hg ⟨main_v263, Read.val_main_v263 (F := F) X0 X1 X2 X3 X4 X5 X6⟩ (List.mem_of_getElem? (i := 0) rfl)))⟩,
   ⟨rfl, rfl, fun W hg => (binary_result main_v44 main_v72 main_v265 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 38) (up_3 X0 X1 X2 X3 X4 X5 X6 (up_2 X0 X1 X2 X3 X4 X5 X6 (up_1 X0 X1 X2 X3 X4 X5 X6 (in_0 X0 X1 X2 X3 X4 X5 X6 (j := 12) rfl)))))) (hg ⟨main_v72, Read.val_main_v72 (F := F) X0 X1 X2 X3 X4 X5 X6⟩ (List.mem_of_mem_drop (i := 38) (up_3 X0 X1 X2 X3 X4 X5 X6 (up_2 X0 X1 X2 X3 X4 X5 X6 (in_1 X0 X1 X2 X3 X4 X5 X6 (j := 37) rfl))))))⟩,
   ⟨rfl, rfl, fun W hg => (binary_result main_v42 main_v229 main_v266 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 39) (up_3 X0 X1 X2 X3 X4 X5 X6 (up_2 X0 X1 X2 X3 X4 X5 X6 (up_1 X0 X1 X2 X3 X4 X5 X6 (in_0 X0 X1 X2 X3 X4 X5 X6 (j := 14) rfl)))))) (hg ⟨main_v229, Read.val_main_v229 (F := F) X0 X1 X2 X3 X4 X5 X6⟩ (List.mem_of_getElem? (i := 36) rfl)))⟩,
   ⟨rfl, rfl, fun W hg => (binary_result main_v265 main_v266 main_v267 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v265, Read.val_main_v265 (F := F) X0 X1 X2 X3 X4 X5 X6⟩ (List.mem_of_getElem? (i := 1) rfl)) (hg ⟨main_v266, Read.val_main_v266 (F := F) X0 X1 X2 X3 X4 X5 X6⟩ (List.mem_of_getElem? (i := 0) rfl)))⟩,
   ⟨rfl, rfl, fun W hg => (binary_result main_v38 main_v224 main_v268 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 41) (up_3 X0 X1 X2 X3 X4 X5 X6 (up_2 X0 X1 X2 X3 X4 X5 X6 (up_1 X0 X1 X2 X3 X4 X5 X6 (in_0 X0 X1 X2 X3 X4 X5 X6 (j := 18) rfl)))))) (hg ⟨main_v224, Read.val_main_v224 (F := F) X0 X1 X2 X3 X4 X5 X6⟩ (List.mem_of_mem_drop (i := 41) (in_3 X0 X1 X2 X3 X4 X5 X6 (j := 2) rfl))))⟩,
   ⟨rfl, rfl, fun W hg => (binary_result main_v267 main_v268 main_v269 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v267, Read.val_main_v267 (F := F) X0 X1 X2 X3 X4 X5 X6⟩ (List.mem_of_getElem? (i := 1) rfl)) (hg ⟨main_v268, Read.val_main_v268 (F := F) X0 X1 X2 X3 X4 X5 X6⟩ (List.mem_of_getElem? (i := 0) rfl)))⟩,
   ⟨rfl, rfl, fun W hg => (binary_result main_v40 main_v234 main_v270 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 43) (up_3 X0 X1 X2 X3 X4 X5 X6 (up_2 X0 X1 X2 X3 X4 X5 X6 (up_1 X0 X1 X2 X3 X4 X5 X6 (in_0 X0 X1 X2 X3 X4 X5 X6 (j := 16) rfl)))))) (hg ⟨main_v234, Read.val_main_v234 (F := F) X0 X1 X2 X3 X4 X5 X6⟩ (List.mem_of_getElem? (i := 35) rfl)))⟩,
   ⟨rfl, rfl, fun W hg => (binary_result main_v30 main_v48 main_v271 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 44) (up_3 X0 X1 X2 X3 X4 X5 X6 (up_2 X0 X1 X2 X3 X4 X5 X6 (up_1 X0 X1 X2 X3 X4 X5 X6 (in_0 X0 X1 X2 X3 X4 X5 X6 (j := 26) rfl)))))) (hg ⟨main_v48, Read.val_main_v48 (F := F) X0 X1 X2 X3 X4 X5 X6⟩ (List.mem_of_mem_drop (i := 44) (up_3 X0 X1 X2 X3 X4 X5 X6 (up_2 X0 X1 X2 X3 X4 X5 X6 (up_1 X0 X1 X2 X3 X4 X5 X6 (in_0 X0 X1 X2 X3 X4 X5 X6 (j := 7) rfl)))))))⟩,
   ⟨rfl, rfl, fun W hg => (binary_result main_v270 main_v271 main_v272 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v270, Read.val_main_v270 (F := F) X0 X1 X2 X3 X4 X5 X6⟩ (List.mem_of_getElem? (i := 1) rfl)) (hg ⟨main_v271, Read.val_main_v271 (F := F) X0 X1 X2 X3 X4 X5 X6⟩ (List.mem_of_getElem? (i := 0) rfl)))⟩,
   ⟨rfl, rfl, fun W hg => (binary_result main_v26 main_v159 main_v273 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 46) (up_3 X0 X1 X2 X3 X4 X5 X6 (up_2 X0 X1 X2 X3 X4 X5 X6 (up_1 X0 X1 X2 X3 X4 X5 X6 (in_0 X0 X1 X2 X3 X4 X5 X6 (j := 30) rfl)))))) (hg ⟨main_v159, Read.val_main_v159 (F := F) X0 X1 X2 X3 X4 X5 X6⟩ (List.mem_of_mem_drop (i := 46) (up_3 X0 X1 X2 X3 X4 X5 X6 (in_2 X0 X1 X2 X3 X4 X5 X6 (j := 7) rfl)))))⟩,
   ⟨rfl, rfl, fun W hg => (binary_result main_v272 main_v273 main_v274 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v272, Read.val_main_v272 (F := F) X0 X1 X2 X3 X4 X5 X6⟩ (List.mem_of_getElem? (i := 1) rfl)) (hg ⟨main_v273, Read.val_main_v273 (F := F) X0 X1 X2 X3 X4 X5 X6⟩ (List.mem_of_getElem? (i := 0) rfl)))⟩,
   ⟨rfl, rfl, fun W hg => (binary_result main_v36 main_v109 main_v275 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 48) (up_3 X0 X1 X2 X3 X4 X5 X6 (up_2 X0 X1 X2 X3 X4 X5 X6 (up_1 X0 X1 X2 X3 X4 X5 X6 (in_0 X0 X1 X2 X3 X4 X5 X6 (j := 20) rfl)))))) (hg ⟨main_v109, Read.val_main_v109 (F := F) X0 X1 X2 X3 X4 X5 X6⟩ (List.mem_of_mem_drop (i := 48) (up_3 X0 X1 X2 X3 X4 X5 X6 (in_2 X0 X1 X2 X3 X4 X5 X6 (j := 57) rfl)))))⟩,
   ⟨rfl, rfl, fun W hg => (binary_result main_v42 main_v169 main_v276 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 49) (up_3 X0 X1 X2 X3 X4 X5 X6 (up_2 X0 X1 X2 X3 X4 X5 X6 (up_1 X0 X1 X2 X3 X4 X5 X6 (in_0 X0 X1 X2 X3 X4 X5 X6 (j := 14) rfl)))))) (hg ⟨main_v169, Read.val_main_v169 (F := F) X0 X1 X2 X3 X4 X5 X6⟩ (List.mem_of_mem_drop (i := 49) (in_3 X0 X1 X2 X3 X4 X5 X6 (j := 57) rfl))))⟩,
   ⟨rfl, rfl, fun W hg => (binary_result main_v275 main_v276 main_v277 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v275, Read.val_main_v275 (F := F) X0 X1 X2 X3 X4 X5 X6⟩ (List.mem_of_getElem? (i := 1) rfl)) (hg ⟨main_v276, Read.val_main_v276 (F := F) X0 X1 X2 X3 X4 X5 X6⟩ (List.mem_of_getElem? (i := 0) rfl)))⟩,
   ⟨rfl, rfl, fun W hg => (binary_result main_v26 main_v164 main_v278 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 51) (up_3 X0 X1 X2 X3 X4 X5 X6 (up_2 X0 X1 X2 X3 X4 X5 X6 (up_1 X0 X1 X2 X3 X4 X5 X6 (in_0 X0 X1 X2 X3 X4 X5 X6 (j := 30) rfl)))))) (hg ⟨main_v164, Read.val_main_v164 (F := F) X0 X1 X2 X3 X4 X5 X6⟩ (List.mem_of_mem_drop (i := 51) (up_3 X0 X1 X2 X3 X4 X5 X6 (in_2 X0 X1 X2 X3 X4 X5 X6 (j := 2) rfl)))))⟩,
   ⟨rfl, rfl, fun W hg => (binary_result main_v277 main_v278 main_v279 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v277, Read.val_main_v277 (F := F) X0 X1 X2 X3 X4 X5 X6⟩ (List.mem_of_getElem? (i := 1) rfl)) (hg ⟨main_v278, Read.val_main_v278 (F := F) X0 X1 X2 X3 X4 X5 X6⟩ (List.mem_of_getElem? (i := 0) rfl)))⟩,
   ⟨rfl, rfl, fun W hg => (binary_result main_v42 main_v34 main_v280 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 53) (up_3 X0 X1 X2 X3 X4 X5 X6 (up_2 X0 X1 X2 X3 X4 X5 X6 (up_1 X0 X1 X2 X3 X4 X5 X6 (in_0 X0 X1 X2 X3 X4 X5 X6 (j := 14) rfl)))))) (hg ⟨main_v34, Read.val_main_v34 (F := F) X0 X1 X2 X3 X4 X5 X6⟩ (List.mem_of_mem_drop (i := 53) (up_3 X0 X1 X2 X3 X4 X5 X6 (up_2 X0 X1 X2 X3 X4 X5 X6 (up_1 X0 X1 X2 X3 X4 X5 X6 (in_0 X0 X1 X2 X3 X4 X5 X6 (j := 22) rfl)))))))⟩,
   ⟨rfl, rfl, fun W hg => (binary_result main_v40 main_v119 main_v281 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 54) (up_3 X0 X1 X2 X3 X4 X5 X6 (up_2 X0 X1 X2 X3 X4 X5 X6 (up_1 X0 X1 X2 X3 X4 X5 X6 (in_0 X0 X1 X2 X3 X4 X5 X6 (j := 16) rfl)))))) (hg ⟨main_v119, Read.val_main_v119 (F := F) X0 X1 X2 X3 X4 X5 X6⟩ (List.mem_of_mem_drop (i := 54) (up_3 X0 X1 X2 X3 X4 X5 X6 (in_2 X0 X1 X2 X3 X4 X5 X6 (j := 47) rfl)))))⟩,
   ⟨rfl, rfl, fun W hg => (binary_result main_v280 main_v281 main_v282 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v280, Read.val_main_v280 (F := F) X0 X1 X2 X3 X4 X5 X6⟩ (List.mem_of_getElem? (i := 1) rfl)) (hg ⟨main_v281, Read.val_main_v281 (F := F) X0 X1 X2 X3 X4 X5 X6⟩ (List.mem_of_getElem? (i := 0) rfl)))⟩,
   ⟨rfl, rfl, fun W hg => (binary_result main_v44 main_v149 main_v283 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 56) (up_3 X0 X1 X2 X3 X4 X5 X6 (up_2 X0 X1 X2 X3 X4 X5 X6 (up_1 X0 X1 X2 X3 X4 X5 X6 (in_0 X0 X1 X2 X3 X4 X5 X6 (j := 12) rfl)))))) (hg ⟨main_v149, Read.val_main_v149 (F := F) X0 X1 X2 X3 X4 X5 X6⟩ (List.mem_of_mem_drop (i := 56) (up_3 X0 X1 X2 X3 X4 X5 X6 (in_2 X0 X1 X2 X3 X4 X5 X6 (j := 17) rfl)))))⟩,
   ⟨rfl, rfl, fun W hg => (binary_result main_v282 main_v283 main_v284 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v282, Read.val_main_v282 (F := F) X0 X1 X2 X3 X4 X5 X6⟩ (List.mem_of_getElem? (i := 1) rfl)) (hg ⟨main_v283, Read.val_main_v283 (F := F) X0 X1 X2 X3 X4 X5 X6⟩ (List.mem_of_getElem? (i := 0) rfl)))⟩,
   ⟨rfl, rfl, fun W hg => (binary_result main_v30 main_v42 main_v285 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 58) (up_3 X0 X1 X2 X3 X4 X5 X6 (up_2 X0 X1 X2 X3 X4 X5 X6 (up_1 X0 X1 X2 X3 X4 X5 X6 (in_0 X0 X1 X2 X3 X4 X5 X6 (j := 26) rfl)))))) (hg ⟨main_v42, Read.val_main_v42 (F := F) X0 X1 X2 X3 X4 X5 X6⟩ (List.mem_of_mem_drop (i := 58) (up_3 X0 X1 X2 X3 X4 X5 X6 (up_2 X0 X1 X2 X3 X4 X5 X6 (up_1 X0 X1 X2 X3 X4 X5 X6 (in_0 X0 X1 X2 X3 X4 X5 X6 (j := 14) rfl)))))))⟩,
   ⟨rfl, rfl, fun W hg => (binary_result main_v26 main_v259 main_v286 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 59) (up_3 X0 X1 X2 X3 X4 X5 X6 (up_2 X0 X1 X2 X3 X4 X5 X6 (up_1 X0 X1 X2 X3 X4 X5 X6 (in_0 X0 X1 X2 X3 X4 X5 X6 (j := 30) rfl)))))) (hg ⟨main_v259, Read.val_main_v259 (F := F) X0 X1 X2 X3 X4 X5 X6⟩ (List.mem_of_getElem? (i := 26) rfl)))⟩,
   trivial⟩
theorem good_4 (W : Valuation τ sig (Elt F)) (hg : Good W (tbl_3 X0 X1 X2 X3 X4 X5 X6) (7 + 244)) :
    Good (after ops_4 W) (tbl_4 X0 X1 X2 X3 X4 X5 X6) (7 + 304) :=
  Good.after _ _ _ _ W hg (chain_4 X0 X1 X2 X3 X4 X5 X6)

theorem part_eq_5 (c : Dev nD) : main_part5 (F := F) c = seq ops_5 := rfl
theorem fresh_5 : (ops_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 5's operations write, in order. -/
abbrev ps_5 : List (Entry sig (Elt F)) :=
  [ ⟨main_v287, Read.val_main_v287 (F := F) X0 X1 X2 X3 X4 X5 X6⟩,
    ⟨main_v288, Read.val_main_v288 (F := F) X0 X1 X2 X3 X4 X5 X6⟩,
    ⟨main_v289, Read.val_main_v289 (F := F) X0 X1 X2 X3 X4 X5 X6⟩,
    ⟨main_v290, Read.val_main_v290 (F := F) X0 X1 X2 X3 X4 X5 X6⟩,
    ⟨main_v291, Read.val_main_v291 (F := F) X0 X1 X2 X3 X4 X5 X6⟩,
    ⟨main_v292, Read.val_main_v292 (F := F) X0 X1 X2 X3 X4 X5 X6⟩,
    ⟨main_v293, Read.val_main_v293 (F := F) X0 X1 X2 X3 X4 X5 X6⟩,
    ⟨main_v294, Read.val_main_v294 (F := F) X0 X1 X2 X3 X4 X5 X6⟩,
    ⟨main_v295, Read.val_main_v295 (F := F) X0 X1 X2 X3 X4 X5 X6⟩,
    ⟨main_v296, Read.val_main_v296 (F := F) X0 X1 X2 X3 X4 X5 X6⟩,
    ⟨main_v297, Read.val_main_v297 (F := F) X0 X1 X2 X3 X4 X5 X6⟩,
    ⟨main_v298, Read.val_main_v298 (F := F) X0 X1 X2 X3 X4 X5 X6⟩,
    ⟨main_v299, Read.val_main_v299 (F := F) X0 X1 X2 X3 X4 X5 X6⟩,
    ⟨main_v300, Read.val_main_v300 (F := F) X0 X1 X2 X3 X4 X5 X6⟩,
    ⟨main_v301, Read.val_main_v301 (F := F) X0 X1 X2 X3 X4 X5 X6⟩,
    ⟨main_v302, Read.val_main_v302 (F := F) X0 X1 X2 X3 X4 X5 X6⟩,
    ⟨main_v303, Read.val_main_v303 (F := F) X0 X1 X2 X3 X4 X5 X6⟩,
    ⟨main_v304, Read.val_main_v304 (F := F) X0 X1 X2 X3 X4 X5 X6⟩,
    ⟨main_v305, Read.val_main_v305 (F := F) X0 X1 X2 X3 X4 X5 X6⟩,
    ⟨main_v306, Read.val_main_v306 (F := F) X0 X1 X2 X3 X4 X5 X6⟩,
    ⟨main_v307, Read.val_main_v307 (F := F) X0 X1 X2 X3 X4 X5 X6⟩,
    ⟨main_v308, Read.val_main_v308 (F := F) X0 X1 X2 X3 X4 X5 X6⟩,
    ⟨main_v309, Read.val_main_v309 (F := F) X0 X1 X2 X3 X4 X5 X6⟩,
    ⟨main_v310, Read.val_main_v310 (F := F) X0 X1 X2 X3 X4 X5 X6⟩,
    ⟨main_v311, Read.val_main_v311 (F := F) X0 X1 X2 X3 X4 X5 X6⟩,
    ⟨main_v312, Read.val_main_v312 (F := F) X0 X1 X2 X3 X4 X5 X6⟩,
    ⟨main_v313, Read.val_main_v313 (F := F) X0 X1 X2 X3 X4 X5 X6⟩,
    ⟨main_v314, Read.val_main_v314 (F := F) X0 X1 X2 X3 X4 X5 X6⟩,
    ⟨main_v315, Read.val_main_v315 (F := F) X0 X1 X2 X3 X4 X5 X6⟩,
    ⟨main_v316, Read.val_main_v316 (F := F) X0 X1 X2 X3 X4 X5 X6⟩,
    ⟨main_v317, Read.val_main_v317 (F := F) X0 X1 X2 X3 X4 X5 X6⟩,
    ⟨main_v318, Read.val_main_v318 (F := F) X0 X1 X2 X3 X4 X5 X6⟩,
    ⟨main_v319, Read.val_main_v319 (F := F) X0 X1 X2 X3 X4 X5 X6⟩,
    ⟨main_v320, Read.val_main_v320 (F := F) X0 X1 X2 X3 X4 X5 X6⟩,
    ⟨main_v321, Read.val_main_v321 (F := F) X0 X1 X2 X3 X4 X5 X6⟩,
    ⟨main_v322, Read.val_main_v322 (F := F) X0 X1 X2 X3 X4 X5 X6⟩,
    ⟨main_v323, Read.val_main_v323 (F := F) X0 X1 X2 X3 X4 X5 X6⟩,
    ⟨main_v324, Read.val_main_v324 (F := F) X0 X1 X2 X3 X4 X5 X6⟩,
    ⟨main_v325, Read.val_main_v325 (F := F) X0 X1 X2 X3 X4 X5 X6⟩,
    ⟨main_v326, Read.val_main_v326 (F := F) X0 X1 X2 X3 X4 X5 X6⟩,
    ⟨main_v327, Read.val_main_v327 (F := F) X0 X1 X2 X3 X4 X5 X6⟩,
    ⟨main_v328, Read.val_main_v328 (F := F) X0 X1 X2 X3 X4 X5 X6⟩,
    ⟨main_v329, Read.val_main_v329 (F := F) X0 X1 X2 X3 X4 X5 X6⟩,
    ⟨main_v330, Read.val_main_v330 (F := F) X0 X1 X2 X3 X4 X5 X6⟩,
    ⟨main_v331, Read.val_main_v331 (F := F) X0 X1 X2 X3 X4 X5 X6⟩,
    ⟨main_v332, Read.val_main_v332 (F := F) X0 X1 X2 X3 X4 X5 X6⟩,
    ⟨main_v333, Read.val_main_v333 (F := F) X0 X1 X2 X3 X4 X5 X6⟩,
    ⟨main_v334, Read.val_main_v334 (F := F) X0 X1 X2 X3 X4 X5 X6⟩,
    ⟨main_v335, Read.val_main_v335 (F := F) X0 X1 X2 X3 X4 X5 X6⟩,
    ⟨main_v336, Read.val_main_v336 (F := F) X0 X1 X2 X3 X4 X5 X6⟩,
    ⟨main_v337, Read.val_main_v337 (F := F) X0 X1 X2 X3 X4 X5 X6⟩,
    ⟨main_v338, Read.val_main_v338 (F := F) X0 X1 X2 X3 X4 X5 X6⟩,
    ⟨main_v339, Read.val_main_v339 (F := F) X0 X1 X2 X3 X4 X5 X6⟩,
    ⟨main_v340, Read.val_main_v340 (F := F) X0 X1 X2 X3 X4 X5 X6⟩,
    ⟨main_v341, Read.val_main_v341 (F := F) X0 X1 X2 X3 X4 X5 X6⟩,
    ⟨main_v342, Read.val_main_v342 (F := F) X0 X1 X2 X3 X4 X5 X6⟩,
    ⟨main_v343, Read.val_main_v343 (F := F) X0 X1 X2 X3 X4 X5 X6⟩,
    ⟨main_v344, Read.val_main_v344 (F := F) X0 X1 X2 X3 X4 X5 X6⟩,
    ⟨main_v345, Read.val_main_v345 (F := F) X0 X1 X2 X3 X4 X5 X6⟩,
    ⟨main_v346, Read.val_main_v346 (F := F) X0 X1 X2 X3 X4 X5 X6⟩ ]
/-- The stages known after window 5, the newest first. -/
abbrev tbl_5 : List (Entry sig (Elt F)) := (ps_5 X0 X1 X2 X3 X4 X5 X6).reverse ++ tbl_4 X0 X1 X2 X3 X4 X5 X6
theorem up_5 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_4 X0 X1 X2 X3 X4 X5 X6) : e ∈ tbl_5 X0 X1 X2 X3 X4 X5 X6 := List.mem_append_right _ h
theorem in_5 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_5 X0 X1 X2 X3 X4 X5 X6).reverse[j]? = some e) : e ∈ tbl_5 X0 X1 X2 X3 X4 X5 X6 :=
  List.mem_append_left _ (List.mem_of_getElem? h)
set_option maxRecDepth 1000000 in
set_option maxHeartbeats 4000000 in
theorem chain_5 : Chain (tbl_4 X0 X1 X2 X3 X4 X5 X6) (7 + 304) (ops_5 (F := F)) (ps_5 X0 X1 X2 X3 X4 X5 X6) :=
  ⟨⟨rfl, rfl, fun W hg => (binary_result main_v285 main_v286 main_v287 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v285, Read.val_main_v285 (F := F) X0 X1 X2 X3 X4 X5 X6⟩ (List.mem_of_mem_drop (i := 0) (in_4 X0 X1 X2 X3 X4 X5 X6 (j := 1) rfl))) (hg ⟨main_v286, Read.val_main_v286 (F := F) X0 X1 X2 X3 X4 X5 X6⟩ (List.mem_of_mem_drop (i := 0) (in_4 X0 X1 X2 X3 X4 X5 X6 (j := 0) rfl))))⟩,
   ⟨rfl, rfl, fun W hg => (binary_result main_v34 main_v89 main_v288 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 1) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))) (hg ⟨main_v89, Read.val_main_v89 (F := F) X0 X1 X2 X3 X4 X5 X6⟩ (List.mem_of_mem_drop (i := 1) (up_4 X0 X1 X2 X3 X4 X5 X6 (up_3 X0 X1 X2 X3 X4 X5 X6 (up_2 X0 X1 X2 X3 X4 X5 X6 (in_1 X0 X1 X2 X3 X4 X5 X6 (j := 17) rfl)))))))⟩,
   ⟨rfl, rfl, fun W hg => (binary_result main_v287 main_v288 main_v289 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v287, Read.val_main_v287 (F := F) X0 X1 X2 X3 X4 X5 X6⟩ (List.mem_of_getElem? (i := 1) rfl)) (hg ⟨main_v288, Read.val_main_v288 (F := F) X0 X1 X2 X3 X4 X5 X6⟩ (List.mem_of_getElem? (i := 0) rfl)))⟩,
   ⟨rfl, rfl, fun W hg => (binary_result main_v44 main_v84 main_v290 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 3) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))) (hg ⟨main_v84, Read.val_main_v84 (F := F) X0 X1 X2 X3 X4 X5 X6⟩ (List.mem_of_mem_drop (i := 3) (up_4 X0 X1 X2 X3 X4 X5 X6 (up_3 X0 X1 X2 X3 X4 X5 X6 (up_2 X0 X1 X2 X3 X4 X5 X6 (in_1 X0 X1 X2 X3 X4 X5 X6 (j := 22) rfl)))))))⟩,
   ⟨rfl, rfl, fun W hg => (binary_result main_v28 main_v144 main_v291 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 4) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))) (hg ⟨main_v144, Read.val_main_v144 (F := F) X0 X1 X2 X3 X4 X5 X6⟩ (List.mem_of_mem_drop (i := 4) (up_4 X0 X1 X2 X3 X4 X5 X6 (up_3 X0 X1 X2 X3 X4 X5 X6 (in_2 X0 X1 X2 X3 X4 X5 X6 (j := 22) rfl))))))⟩,
   ⟨rfl, rfl, fun W hg => (binary_result main_v290 main_v291 main_v292 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v290, Read.val_main_v290 (F := F) X0 X1 X2 X3 X4 X5 X6⟩ (List.mem_of_getElem? (i := 1) rfl)) (hg ⟨main_v291, Read.val_main_v291 (F := F) X0 X1 X2 X3 X4 X5 X6⟩ (List.mem_of_getElem? (i := 0) rfl)))⟩,
   ⟨rfl, rfl, fun W hg => (binary_result main_v26 main_v26 main_v293 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 6) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))) (hg ⟨main_v26, Read.val_main_v26 (F := F) X0 X1 X2 X3 X4 X5 X6⟩ (List.mem_of_mem_drop (i := 6) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))⟩,
   ⟨rfl, rfl, fun W hg => (binary_result main_v292 main_v293 main_v294 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v292, Read.val_main_v292 (F := F) X0 X1 X2 X3 X4 X5 X6⟩ (List.mem_of_getElem? (i := 1) rfl)) (hg ⟨main_v293, Read.val_main_v293 (F := F) X0 X1 X2 X3 X4 X5 X6⟩ (List.mem_of_getElem? (i := 0) rfl)))⟩,
   ⟨rfl, rfl, fun W hg => (binary_result main_v28 main_v189 main_v295 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 8) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))) (hg ⟨main_v189, Read.val_main_v189 (F := F) X0 X1 X2 X3 X4 X5 X6⟩ (List.mem_of_mem_drop (i := 8) (up_4 X0 X1 X2 X3 X4 X5 X6 (in_3 X0 X1 X2 X3 X4 X5 X6 (j := 37) rfl)))))⟩,
   ⟨rfl, rfl, fun W hg => (binary_result main_v42 main_v244 main_v296 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 9) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))) (hg ⟨main_v244, Read.val_main_v244 (F := F) X0 X1 X2 X3 X4 X5 X6⟩ (List.mem_of_mem_drop (i := 9) (in_4 X0 X1 X2 X3 X4 X5 X6 (j := 42) rfl))))⟩,
   ⟨rfl, rfl, fun W hg => (binary_result main_v295 main_v296 main_v297 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v295, Read.val_main_v295 (F := F) X0 X1 X2 X3 X4 X5 X6⟩ (List.mem_of_getElem? (i := 1) rfl)) (hg ⟨main_v296, Read.val_main_v296 (F := F) X0 X1 X2 X3 X4 X5 X6⟩ (List.mem_of_getElem? (i := 0) rfl)))⟩,
   ⟨rfl, rfl, fun W hg => (binary_result main_v30 main_v179 main_v298 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 11) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))) (hg ⟨main_v179, Read.val_main_v179 (F := F) X0 X1 X2 X3 X4 X5 X6⟩ (List.mem_of_mem_drop (i := 11) (up_4 X0 X1 X2 X3 X4 X5 X6 (in_3 X0 X1 X2 X3 X4 X5 X6 (j := 47) rfl)))))⟩,
   ⟨rfl, rfl, fun W hg => (binary_result main_v297 main_v298 main_v299 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v297, Read.val_main_v297 (F := F) X0 X1 X2 X3 X4 X5 X6⟩ (List.mem_of_getElem? (i := 1) rfl)) (hg ⟨main_v298, Read.val_main_v298 (F := F) X0 X1 X2 X3 X4 X5 X6⟩ (List.mem_of_getElem? (i := 0) rfl)))⟩,
   ⟨rfl, rfl, fun W hg => (binary_result main_v28 main_v244 main_v300 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 13) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))) (hg ⟨main_v244, Read.val_main_v244 (F := F) X0 X1 X2 X3 X4 X5 X6⟩ (List.mem_of_mem_drop (i := 13) (in_4 X0 X1 X2 X3 X4 X5 X6 (j := 42) rfl))))⟩,
   ⟨rfl, rfl, fun W hg => (binary_result main_v36 main_v38 main_v301 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 14) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))) (hg ⟨main_v38, Read.val_main_v38 (F := F) X0 X1 X2 X3 X4 X5 X6⟩ (List.mem_of_mem_drop (i := 14) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))⟩,
   ⟨rfl, rfl, fun W hg => (binary_result main_v300 main_v301 main_v302 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v300, Read.val_main_v300 (F := F) X0 X1 X2 X3 X4 X5 X6⟩ (List.mem_of_getElem? (i := 1) rfl)) (hg ⟨main_v301, Read.val_main_v301 (F := F) X0 X1 X2 X3 X4 X5 X6⟩ (List.mem_of_getElem? (i := 0) rfl)))⟩,
   ⟨rfl, rfl, fun W hg => (binary_result main_v34 main_v154 main_v303 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 16) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))) (hg ⟨main_v154, Read.val_main_v154 (F := F) X0 X1 X2 X3 X4 X5 X6⟩ (List.mem_of_mem_drop (i := 16) (up_4 X0 X1 X2 X3 X4 X5 X6 (up_3 X0 X1 X2 X3 X4 X5 X6 (in_2 X0 X1 X2 X3 X4 X5 X6 (j := 12) rfl))))))⟩,
   ⟨rfl, rfl, fun W hg => (binary_result main_v302 main_v303 main_v304 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v302, Read.val_main_v302 (F := F) X0 X1 X2 X3 X4 X5 X6⟩ (List.mem_of_getElem? (i := 1) rfl)) (hg ⟨main_v303, Read.val_main_v303 (F := F) X0 X1 X2 X3 X4 X5 X6⟩ (List.mem_of_getElem? (i := 0) rfl)))⟩,
   ⟨rfl, rfl, fun W hg => (binary_result main_v26 main_v30 main_v305 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 18) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))) (hg ⟨main_v30, Read.val_main_v30 (F := F) X0 X1 X2 X3 X4 X5 X6⟩ (List.mem_of_mem_drop (i := 18) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))⟩,
   ⟨rfl, rfl, fun W hg => (binary_result main_v42 main_v89 main_v306 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 19) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))) (hg ⟨main_v89, Read.val_main_v89 (F := F) X0 X1 X2 X3 X4 X5 X6⟩ (List.mem_of_mem_drop (i := 19) (up_4 X0 X1 X2 X3 X4 X5 X6 (up_3 X0 X1 X2 X3 X4 X5 X6 (up_2 X0 X1 X2 X3 X4 X5 X6 (in_1 X0 X1 X2 X3 X4 X5 X6 (j := 17) rfl)))))))⟩,
   ⟨rfl, rfl, fun W hg => (binary_result main_v305 main_v306 main_v307 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v305, Read.val_main_v305 (F := F) X0 X1 X2 X3 X4 X5 X6⟩ (List.mem_of_getElem? (i := 1) rfl)) (hg ⟨main_v306, Read.val_main_v306 (F := F) X0 X1 X2 X3 X4 X5 X6⟩ (List.mem_of_getElem? (i := 0) rfl)))⟩,
   ⟨rfl, rfl, fun W hg => (binary_result main_v32 main_v214 main_v308 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 21) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))) (hg ⟨main_v214, Read.val_main_v214 (F := F) X0 X1 X2 X3 X4 X5 X6⟩ (List.mem_of_mem_drop (i := 21) (up_4 X0 X1 X2 X3 X4 X5 X6 (in_3 X0 X1 X2 X3 X4 X5 X6 (j := 12) rfl)))))⟩,
   ⟨rfl, rfl, fun W hg => (binary_result main_v307 main_v308 main_v309 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v307, Read.val_main_v307 (F := F) X0 X1 X2 X3 X4 X5 X6⟩ (List.mem_of_getElem? (i := 1) rfl)) (hg ⟨main_v308, Read.val_main_v308 (F := F) X0 X1 X2 X3 X4 X5 X6⟩ (List.mem_of_getElem? (i := 0) rfl)))⟩,
   ⟨rfl, rfl, fun W hg => (binary_result main_v32 main_v164 main_v310 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 23) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))) (hg ⟨main_v164, Read.val_main_v164 (F := F) X0 X1 X2 X3 X4 X5 X6⟩ (List.mem_of_mem_drop (i := 23) (up_4 X0 X1 X2 X3 X4 X5 X6 (up_3 X0 X1 X2 X3 X4 X5 X6 (in_2 X0 X1 X2 X3 X4 X5 X6 (j := 2) rfl))))))⟩,
   ⟨rfl, rfl, fun W hg => (binary_result main_v26 main_v264 main_v311 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 24) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))) (hg ⟨main_v264, Read.val_main_v264 (F := F) X0 X1 X2 X3 X4 X5 X6⟩ (List.mem_of_mem_drop (i := 24) (in_4 X0 X1 X2 X3 X4 X5 X6 (j := 22) rfl))))⟩,
   ⟨rfl, rfl, fun W hg => (binary_result main_v310 main_v311 main_v312 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v310, Read.val_main_v310 (F := F) X0 X1 X2 X3 X4 X5 X6⟩ (List.mem_of_getElem? (i := 1) rfl)) (hg ⟨main_v311, Read.val_main_v311 (F := F) X0 X1 X2 X3 X4 X5 X6⟩ (List.mem_of_getElem? (i := 0) rfl)))⟩,
   ⟨rfl, rfl, fun W hg => (binary_result main_v36 main_v119 main_v313 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 26) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))) (hg ⟨main_v119, Read.val_main_v119 (F := F) X0 X1 X2 X3 X4 X5 X6⟩ (List.mem_of_mem_drop (i := 26) (up_4 X0 X1 X2 X3 X4 X5 X6 (up_3 X0 X1 X2 X3 X4 X5 X6 (in_2 X0 X1 X2 X3 X4 X5 X6 (j := 47) rfl))))))⟩,
   ⟨rfl, rfl, fun W hg => (binary_result main_v312 main_v313 main_v314 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v312, Read.val_main_v312 (F := F) X0 X1 X2 X3 X4 X5 X6⟩ (List.mem_of_getElem? (i := 1) rfl)) (hg ⟨main_v313, Read.val_main_v313 (F := F) X0 X1 X2 X3 X4 X5 X6⟩ (List.mem_of_getElem? (i := 0) rfl)))⟩,
   ⟨rfl, rfl, fun W hg => (binary_result main_v28 main_v294 main_v315 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 28) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))) (hg ⟨main_v294, Read.val_main_v294 (F := F) X0 X1 X2 X3 X4 X5 X6⟩ (List.mem_of_getElem? (i := 20) rfl)))⟩,
   ⟨rfl, rfl, fun W hg => (binary_result main_v26 main_v289 main_v316 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 29) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))) (hg ⟨main_v289, Read.val_main_v289 (F := F) X0 X1 X2 X3 X4 X5 X6⟩ (List.mem_of_getElem? (i := 26) rfl)))⟩,
   ⟨rfl, rfl, fun W hg => (binary_result main_v315 main_v316 main_v317 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v315, Read.val_main_v315 (F := F) X0 X1 X2 X3 X4 X5 X6⟩ (List.mem_of_getElem? (i := 1) rfl)) (hg ⟨main_v316, Read.val_main_v316 (F := F) X0 X1 X2 X3 X4 X5 X6⟩ (List.mem_of_getElem? (i := 0) rfl)))⟩,
   ⟨rfl, rfl, fun W hg => (binary_result main_v40 main_v224 main_v318 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 31) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))) (hg ⟨main_v224, Read.val_main_v224 (F := F) X0 X1 X2 X3 X4 X5 X6⟩ (List.mem_of_mem_drop (i := 31) (up_4 X0 X1 X2 X3 X4 X5 X6 (in_3 X0 X1 X2 X3 X4 X5 X6 (j := 2) rfl)))))⟩,
   ⟨rfl, rfl, fun W hg => (binary_result main_v317 main_v318 main_v319 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v317, Read.val_main_v317 (F := F) X0 X1 X2 X3 X4 X5 X6⟩ (List.mem_of_getElem? (i := 1) rfl)) (hg ⟨main_v318, Read.val_main_v318 (F := F) X0 X1 X2 X3 X4 X5 X6⟩ (List.mem_of_getElem? (i := 0) rfl)))⟩,
   ⟨rfl, rfl, fun W hg => (binary_result main_v44 main_v40 main_v320 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 33) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))) (hg ⟨main_v40, Read.val_main_v40 (F := F) X0 X1 X2 X3 X4 X5 X6⟩ (List.mem_of_mem_drop (i := 33) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))⟩,
   ⟨rfl, rfl, fun W hg => (binary_result main_v38 main_v314 main_v321 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 34) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))) (hg ⟨main_v314, Read.val_main_v314 (F := F) X0 X1 X2 X3 X4 X5 X6⟩ (List.mem_of_getElem? (i := 6) rfl)))⟩,
   ⟨rfl, rfl, fun W hg => (binary_result main_v320 main_v321 main_v322 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v320, Read.val_main_v320 (F := F) X0 X1 X2 X3 X4 X5 X6⟩ (List.mem_of_getElem? (i := 1) rfl)) (hg ⟨main_v321, Read.val_main_v321 (F := F) X0 X1 X2 X3 X4 X5 X6⟩ (List.mem_of_getElem? (i := 0) rfl)))⟩,
   ⟨rfl, rfl, fun W hg => (binary_result main_v34 main_v194 main_v323 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 36) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))) (hg ⟨main_v194, Read.val_main_v194 (F := F) X0 X1 X2 X3 X4 X5 X6⟩ (List.mem_of_mem_drop (i := 36) (up_4 X0 X1 X2 X3 X4 X5 X6 (in_3 X0 X1 X2 X3 X4 X5 X6 (j := 32) rfl)))))⟩,
   ⟨rfl, rfl, fun W hg => (binary_result main_v322 main_v323 main_v324 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v322, Read.val_main_v322 (F := F) X0 X1 X2 X3 X4 X5 X6⟩ (List.mem_of_getElem? (i := 1) rfl)) (hg ⟨main_v323, Read.val_main_v323 (F := F) X0 X1 X2 X3 X4 X5 X6⟩ (List.mem_of_getElem? (i := 0) rfl)))⟩,
   ⟨rfl, rfl, fun W hg => (binary_result main_v40 main_v239 main_v325 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 38) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))) (hg ⟨main_v239, Read.val_main_v239 (F := F) X0 X1 X2 X3 X4 X5 X6⟩ (List.mem_of_mem_drop (i := 38) (in_4 X0 X1 X2 X3 X4 X5 X6 (j := 47) rfl))))⟩,
   ⟨rfl, rfl, fun W hg => (binary_result main_v28 main_v219 main_v326 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 39) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))) (hg ⟨main_v219, Read.val_main_v219 (F := F) X0 X1 X2 X3 X4 X5 X6⟩ (List.mem_of_mem_drop (i := 39) (up_4 X0 X1 X2 X3 X4 X5 X6 (in_3 X0 X1 X2 X3 X4 X5 X6 (j := 7) rfl)))))⟩,
   ⟨rfl, rfl, fun W hg => (binary_result main_v325 main_v326 main_v327 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v325, Read.val_main_v325 (F := F) X0 X1 X2 X3 X4 X5 X6⟩ (List.mem_of_getElem? (i := 1) rfl)) (hg ⟨main_v326, Read.val_main_v326 (F := F) X0 X1 X2 X3 X4 X5 X6⟩ (List.mem_of_getElem? (i := 0) rfl)))⟩,
   ⟨rfl, rfl, fun W hg => (binary_result main_v26 main_v154 main_v328 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 41) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))) (hg ⟨main_v154, Read.val_main_v154 (F := F) X0 X1 X2 X3 X4 X5 X6⟩ (List.mem_of_mem_drop (i := 41) (up_4 X0 X1 X2 X3 X4 X5 X6 (up_3 X0 X1 X2 X3 X4 X5 X6 (in_2 X0 X1 X2 X3 X4 X5 X6 (j := 12) rfl))))))⟩,
   ⟨rfl, rfl, fun W hg => (binary_result main_v327 main_v328 main_v329 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v327, Read.val_main_v327 (F := F) X0 X1 X2 X3 X4 X5 X6⟩ (List.mem_of_getElem? (i := 1) rfl)) (hg ⟨main_v328, Read.val_main_v328 (F := F) X0 X1 X2 X3 X4 X5 X6⟩ (List.mem_of_getElem? (i := 0) rfl)))⟩,
   ⟨rfl, rfl, fun W hg => (binary_result main_v36 main_v269 main_v330 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 43) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))) (hg ⟨main_v269, Read.val_main_v269 (F := F) X0 X1 X2 X3 X4 X5 X6⟩ (List.mem_of_mem_drop (i := 43) (in_4 X0 X1 X2 X3 X4 X5 X6 (j := 17) rfl))))⟩,
   ⟨rfl, rfl, fun W hg => (binary_result main_v28 main_v314 main_v331 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 44) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))) (hg ⟨main_v314, Read.val_main_v314 (F := F) X0 X1 X2 X3 X4 X5 X6⟩ (List.mem_of_getElem? (i := 16) rfl)))⟩,
   ⟨rfl, rfl, fun W hg => (binary_result main_v330 main_v331 main_v332 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v330, Read.val_main_v330 (F := F) X0 X1 X2 X3 X4 X5 X6⟩ (List.mem_of_getElem? (i := 1) rfl)) (hg ⟨main_v331, Read.val_main_v331 (F := F) X0 X1 X2 X3 X4 X5 X6⟩ (List.mem_of_getElem? (i := 0) rfl)))⟩,
   ⟨rfl, rfl, fun W hg => (binary_result main_v34 main_v309 main_v333 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 46) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))) (hg ⟨main_v309, Read.val_main_v309 (F := F) X0 X1 X2 X3 X4 X5 X6⟩ (List.mem_of_getElem? (i := 23) rfl)))⟩,
   ⟨rfl, rfl, fun W hg => (binary_result main_v332 main_v333 main_v334 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v332, Read.val_main_v332 (F := F) X0 X1 X2 X3 X4 X5 X6⟩ (List.mem_of_getElem? (i := 1) rfl)) (hg ⟨main_v333, Read.val_main_v333 (F := F) X0 X1 X2 X3 X4 X5 X6⟩ (List.mem_of_getElem? (i := 0) rfl)))⟩,
   ⟨rfl, rfl, fun W hg => (binary_result main_v28 main_v89 main_v335 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 48) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))) (hg ⟨main_v89, Read.val_main_v89 (F := F) X0 X1 X2 X3 X4 X5 X6⟩ (List.mem_of_mem_drop (i := 48) (up_4 X0 X1 X2 X3 X4 X5 X6 (up_3 X0 X1 X2 X3 X4 X5 X6 (up_2 X0 X1 X2 X3 X4 X5 X6 (in_1 X0 X1 X2 X3 X4 X5 X6 (j := 17) rfl)))))))⟩,
   ⟨rfl, rfl, fun W hg => (binary_result main_v40 main_v38 main_v336 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 49) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))) (hg ⟨main_v38, Read.val_main_v38 (F := F) X0 X1 X2 X3 X4 X5 X6⟩ (List.mem_of_mem_drop (i := 49) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))⟩,
   ⟨rfl, rfl, fun W hg => (binary_result main_v335 main_v336 main_v337 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v335, Read.val_main_v335 (F := F) X0 X1 X2 X3 X4 X5 X6⟩ (List.mem_of_getElem? (i := 1) rfl)) (hg ⟨main_v336, Read.val_main_v336 (F := F) X0 X1 X2 X3 X4 X5 X6⟩ (List.mem_of_getElem? (i := 0) rfl)))⟩,
   ⟨rfl, rfl, fun W hg => (binary_result main_v26 main_v129 main_v338 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 51) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))) (hg ⟨main_v129, Read.val_main_v129 (F := F) X0 X1 X2 X3 X4 X5 X6⟩ (List.mem_of_mem_drop (i := 51) (up_4 X0 X1 X2 X3 X4 X5 X6 (up_3 X0 X1 X2 X3 X4 X5 X6 (in_2 X0 X1 X2 X3 X4 X5 X6 (j := 37) rfl))))))⟩,
   ⟨rfl, rfl, fun W hg => (binary_result main_v337 main_v338 main_v339 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v337, Read.val_main_v337 (F := F) X0 X1 X2 X3 X4 X5 X6⟩ (List.mem_of_getElem? (i := 1) rfl)) (hg ⟨main_v338, Read.val_main_v338 (F := F) X0 X1 X2 X3 X4 X5 X6⟩ (List.mem_of_getElem? (i := 0) rfl)))⟩,
   ⟨rfl, rfl, fun W hg => (binary_result main_v26 main_v259 main_v340 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 53) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))) (hg ⟨main_v259, Read.val_main_v259 (F := F) X0 X1 X2 X3 X4 X5 X6⟩ (List.mem_of_mem_drop (i := 53) (in_4 X0 X1 X2 X3 X4 X5 X6 (j := 27) rfl))))⟩,
   ⟨rfl, rfl, fun W hg => (binary_result main_v40 main_v94 main_v341 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 54) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))) (hg ⟨main_v94, Read.val_main_v94 (F := F) X0 X1 X2 X3 X4 X5 X6⟩ (List.mem_of_mem_drop (i := 54) (up_4 X0 X1 X2 X3 X4 X5 X6 (up_3 X0 X1 X2 X3 X4 X5 X6 (up_2 X0 X1 X2 X3 X4 X5 X6 (in_1 X0 X1 X2 X3 X4 X5 X6 (j := 12) rfl)))))))⟩,
   ⟨rfl, rfl, fun W hg => (binary_result main_v340 main_v341 main_v342 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v340, Read.val_main_v340 (F := F) X0 X1 X2 X3 X4 X5 X6⟩ (List.mem_of_getElem? (i := 1) rfl)) (hg ⟨main_v341, Read.val_main_v341 (F := F) X0 X1 X2 X3 X4 X5 X6⟩ (List.mem_of_getElem? (i := 0) rfl)))⟩,
   ⟨rfl, rfl, fun W hg => (binary_result main_v36 main_v144 main_v343 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 56) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))) (hg ⟨main_v144, Read.val_main_v144 (F := F) X0 X1 X2 X3 X4 X5 X6⟩ (List.mem_of_mem_drop (i := 56) (up_4 X0 X1 X2 X3 X4 X5 X6 (up_3 X0 X1 X2 X3 X4 X5 X6 (in_2 X0 X1 X2 X3 X4 X5 X6 (j := 22) rfl))))))⟩,
   ⟨rfl, rfl, fun W hg => (binary_result main_v342 main_v343 main_v344 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v342, Read.val_main_v342 (F := F) X0 X1 X2 X3 X4 X5 X6⟩ (List.mem_of_getElem? (i := 1) rfl)) (hg ⟨main_v343, Read.val_main_v343 (F := F) X0 X1 X2 X3 X4 X5 X6⟩ (List.mem_of_getElem? (i := 0) rfl)))⟩,
   ⟨rfl, rfl, fun W hg => (binary_result main_v34 main_v214 main_v345 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 58) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))) (hg ⟨main_v214, Read.val_main_v214 (F := F) X0 X1 X2 X3 X4 X5 X6⟩ (List.mem_of_mem_drop (i := 58) (up_4 X0 X1 X2 X3 X4 X5 X6 (in_3 X0 X1 X2 X3 X4 X5 X6 (j := 12) rfl)))))⟩,
   ⟨rfl, rfl, fun W hg => (binary_result main_v38 main_v72 main_v346 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 59) (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))) (hg ⟨main_v72, Read.val_main_v72 (F := F) X0 X1 X2 X3 X4 X5 X6⟩ (List.mem_of_mem_drop (i := 59) (up_4 X0 X1 X2 X3 X4 X5 X6 (up_3 X0 X1 X2 X3 X4 X5 X6 (up_2 X0 X1 X2 X3 X4 X5 X6 (in_1 X0 X1 X2 X3 X4 X5 X6 (j := 37) rfl)))))))⟩,
   trivial⟩
theorem good_5 (W : Valuation τ sig (Elt F)) (hg : Good W (tbl_4 X0 X1 X2 X3 X4 X5 X6) (7 + 304)) :
    Good (after ops_5 W) (tbl_5 X0 X1 X2 X3 X4 X5 X6) (7 + 364) :=
  Good.after _ _ _ _ W hg (chain_5 X0 X1 X2 X3 X4 X5 X6)

theorem part_eq_6 (c : Dev nD) : main_part6 (F := F) c = seq ops_6 := rfl
theorem fresh_6 : (ops_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 6's operations write, in order. -/
abbrev ps_6 : List (Entry sig (Elt F)) :=
  [ ⟨main_v347, Read.val_main_v347 (F := F) X0 X1 X2 X3 X4 X5 X6⟩,
    ⟨main_v348, Read.val_main_v348 (F := F) X0 X1 X2 X3 X4 X5 X6⟩,
    ⟨main_v349, Read.val_main_v349 (F := F) X0 X1 X2 X3 X4 X5 X6⟩,
    ⟨main_v350, Read.val_main_v350 (F := F) X0 X1 X2 X3 X4 X5 X6⟩,
    ⟨main_v351, Read.val_main_v351 (F := F) X0 X1 X2 X3 X4 X5 X6⟩,
    ⟨main_v352, Read.val_main_v352 (F := F) X0 X1 X2 X3 X4 X5 X6⟩,
    ⟨main_v353, Read.val_main_v353 (F := F) X0 X1 X2 X3 X4 X5 X6⟩,
    ⟨main_v354, Read.val_main_v354 (F := F) X0 X1 X2 X3 X4 X5 X6⟩,
    ⟨main_v355, Read.val_main_v355 (F := F) X0 X1 X2 X3 X4 X5 X6⟩,
    ⟨main_v356, Read.val_main_v356 (F := F) X0 X1 X2 X3 X4 X5 X6⟩,
    ⟨main_v357, Read.val_main_v357 (F := F) X0 X1 X2 X3 X4 X5 X6⟩,
    ⟨main_v358, Read.val_main_v358 (F := F) X0 X1 X2 X3 X4 X5 X6⟩,
    ⟨main_v359, Read.val_main_v359 (F := F) X0 X1 X2 X3 X4 X5 X6⟩,
    ⟨main_v360, Read.val_main_v360 (F := F) X0 X1 X2 X3 X4 X5 X6⟩,
    ⟨main_v361, Read.val_main_v361 (F := F) X0 X1 X2 X3 X4 X5 X6⟩,
    ⟨main_v362, Read.val_main_v362 (F := F) X0 X1 X2 X3 X4 X5 X6⟩,
    ⟨main_v363, Read.val_main_v363 (F := F) X0 X1 X2 X3 X4 X5 X6⟩,
    ⟨main_v364, Read.val_main_v364 (F := F) X0 X1 X2 X3 X4 X5 X6⟩,
    ⟨main_v365, Read.val_main_v365 (F := F) X0 X1 X2 X3 X4 X5 X6⟩,
    ⟨main_v366, Read.val_main_v366 (F := F) X0 X1 X2 X3 X4 X5 X6⟩,
    ⟨main_v367, Read.val_main_v367 (F := F) X0 X1 X2 X3 X4 X5 X6⟩,
    ⟨main_v368, Read.val_main_v368 (F := F) X0 X1 X2 X3 X4 X5 X6⟩,
    ⟨main_v369, Read.val_main_v369 (F := F) X0 X1 X2 X3 X4 X5 X6⟩,
    ⟨main_v370, Read.val_main_v370 (F := F) X0 X1 X2 X3 X4 X5 X6⟩,
    ⟨main_v371, Read.val_main_v371 (F := F) X0 X1 X2 X3 X4 X5 X6⟩,
    ⟨main_v372, Read.val_main_v372 (F := F) X0 X1 X2 X3 X4 X5 X6⟩,
    ⟨main_v373, Read.val_main_v373 (F := F) X0 X1 X2 X3 X4 X5 X6⟩,
    ⟨main_v374, Read.val_main_v374 (F := F) X0 X1 X2 X3 X4 X5 X6⟩,
    ⟨main_v375, Read.val_main_v375 (F := F) X0 X1 X2 X3 X4 X5 X6⟩,
    ⟨main_v376, Read.val_main_v376 (F := F) X0 X1 X2 X3 X4 X5 X6⟩,
    ⟨main_v377, Read.val_main_v377 (F := F) X0 X1 X2 X3 X4 X5 X6⟩,
    ⟨main_v378, Read.val_main_v378 (F := F) X0 X1 X2 X3 X4 X5 X6⟩,
    ⟨main_v379, Read.val_main_v379 (F := F) X0 X1 X2 X3 X4 X5 X6⟩,
    ⟨main_v380, Read.val_main_v380 (F := F) X0 X1 X2 X3 X4 X5 X6⟩,
    ⟨main_v381, Read.val_main_v381 (F := F) X0 X1 X2 X3 X4 X5 X6⟩,
    ⟨main_v382, Read.val_main_v382 (F := F) X0 X1 X2 X3 X4 X5 X6⟩,
    ⟨main_v383, Read.val_main_v383 (F := F) X0 X1 X2 X3 X4 X5 X6⟩,
    ⟨main_v384, Read.val_main_v384 (F := F) X0 X1 X2 X3 X4 X5 X6⟩,
    ⟨main_v385, Read.val_main_v385 (F := F) X0 X1 X2 X3 X4 X5 X6⟩,
    ⟨main_v386, Read.val_main_v386 (F := F) X0 X1 X2 X3 X4 X5 X6⟩,
    ⟨main_v387, Read.val_main_v387 (F := F) X0 X1 X2 X3 X4 X5 X6⟩,
    ⟨main_v388, Read.val_main_v388 (F := F) X0 X1 X2 X3 X4 X5 X6⟩,
    ⟨main_v389, Read.val_main_v389 (F := F) X0 X1 X2 X3 X4 X5 X6⟩,
    ⟨main_v390, Read.val_main_v390 (F := F) X0 X1 X2 X3 X4 X5 X6⟩,
    ⟨main_v391, Read.val_main_v391 (F := F) X0 X1 X2 X3 X4 X5 X6⟩,
    ⟨main_v392, Read.val_main_v392 (F := F) X0 X1 X2 X3 X4 X5 X6⟩,
    ⟨main_v393, Read.val_main_v393 (F := F) X0 X1 X2 X3 X4 X5 X6⟩,
    ⟨main_v394, Read.val_main_v394 (F := F) X0 X1 X2 X3 X4 X5 X6⟩,
    ⟨main_v395, Read.val_main_v395 (F := F) X0 X1 X2 X3 X4 X5 X6⟩,
    ⟨main_v396, Read.val_main_v396 (F := F) X0 X1 X2 X3 X4 X5 X6⟩,
    ⟨main_v397, Read.val_main_v397 (F := F) X0 X1 X2 X3 X4 X5 X6⟩,
    ⟨main_v398, Read.val_main_v398 (F := F) X0 X1 X2 X3 X4 X5 X6⟩,
    ⟨main_v399, Read.val_main_v399 (F := F) X0 X1 X2 X3 X4 X5 X6⟩,
    ⟨main_v400, Read.val_main_v400 (F := F) X0 X1 X2 X3 X4 X5 X6⟩,
    ⟨main_v401, Read.val_main_v401 (F := F) X0 X1 X2 X3 X4 X5 X6⟩,
    ⟨main_v402, Read.val_main_v402 (F := F) X0 X1 X2 X3 X4 X5 X6⟩,
    ⟨main_v403, Read.val_main_v403 (F := F) X0 X1 X2 X3 X4 X5 X6⟩,
    ⟨main_v404, Read.val_main_v404 (F := F) X0 X1 X2 X3 X4 X5 X6⟩,
    ⟨main_v405, Read.val_main_v405 (F := F) X0 X1 X2 X3 X4 X5 X6⟩,
    ⟨main_v406, Read.val_main_v406 (F := F) X0 X1 X2 X3 X4 X5 X6⟩ ]
/-- The stages known after window 6, the newest first. -/
abbrev tbl_6 : List (Entry sig (Elt F)) := (ps_6 X0 X1 X2 X3 X4 X5 X6).reverse ++ tbl_5 X0 X1 X2 X3 X4 X5 X6
theorem up_6 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_5 X0 X1 X2 X3 X4 X5 X6) : e ∈ tbl_6 X0 X1 X2 X3 X4 X5 X6 := List.mem_append_right _ h
theorem in_6 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_6 X0 X1 X2 X3 X4 X5 X6).reverse[j]? = some e) : e ∈ tbl_6 X0 X1 X2 X3 X4 X5 X6 :=
  List.mem_append_left _ (List.mem_of_getElem? h)
set_option maxRecDepth 1000000 in
set_option maxHeartbeats 4000000 in
theorem chain_6 : Chain (tbl_5 X0 X1 X2 X3 X4 X5 X6) (7 + 364) (ops_6 (F := F)) (ps_6 X0 X1 X2 X3 X4 X5 X6) :=
  ⟨⟨rfl, rfl, fun W hg => (binary_result main_v345 main_v346 main_v347 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v345, Read.val_main_v345 (F := F) X0 X1 X2 X3 X4 X5 X6⟩ (List.mem_of_mem_drop (i := 0) (in_5 X0 X1 X2 X3 X4 X5 X6 (j := 1) rfl))) (hg ⟨main_v346, Read.val_main_v346 (F := F) X0 X1 X2 X3 X4 X5 X6⟩ (List.mem_of_mem_drop (i := 0) (in_5 X0 X1 X2 X3 X4 X5 X6 (j := 0) rfl))))⟩,
   ⟨rfl, rfl, fun W hg => (binary_result main_v44 main_v114 main_v348 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 1) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))) (hg ⟨main_v114, Read.val_main_v114 (F := F) X0 X1 X2 X3 X4 X5 X6⟩ (List.mem_of_mem_drop (i := 1) (up_5 X0 X1 X2 X3 X4 X5 X6 (up_4 X0 X1 X2 X3 X4 X5 X6 (up_3 X0 X1 X2 X3 X4 X5 X6 (in_2 X0 X1 X2 X3 X4 X5 X6 (j := 52) rfl)))))))⟩,
   ⟨rfl, rfl, fun W hg => (binary_result main_v347 main_v348 main_v349 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v347, Read.val_main_v347 (F := F) X0 X1 X2 X3 X4 X5 X6⟩ (List.mem_of_getElem? (i := 1) rfl)) (hg ⟨main_v348, Read.val_main_v348 (F := F) X0 X1 X2 X3 X4 X5 X6⟩ (List.mem_of_getElem? (i := 0) rfl)))⟩,
   ⟨rfl, rfl, fun W hg => (binary_result main_v26 main_v259 main_v350 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 3) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))) (hg ⟨main_v259, Read.val_main_v259 (F := F) X0 X1 X2 X3 X4 X5 X6⟩ (List.mem_of_mem_drop (i := 3) (up_5 X0 X1 X2 X3 X4 X5 X6 (in_4 X0 X1 X2 X3 X4 X5 X6 (j := 27) rfl)))))⟩,
   ⟨rfl, rfl, fun W hg => (binary_result main_v38 main_v299 main_v351 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 4) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))) (hg ⟨main_v299, Read.val_main_v299 (F := F) X0 X1 X2 X3 X4 X5 X6⟩ (List.mem_of_mem_drop (i := 4) (in_5 X0 X1 X2 X3 X4 X5 X6 (j := 47) rfl))))⟩,
   ⟨rfl, rfl, fun W hg => (binary_result main_v350 main_v351 main_v352 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v350, Read.val_main_v350 (F := F) X0 X1 X2 X3 X4 X5 X6⟩ (List.mem_of_getElem? (i := 1) rfl)) (hg ⟨main_v351, Read.val_main_v351 (F := F) X0 X1 X2 X3 X4 X5 X6⟩ (List.mem_of_getElem? (i := 0) rfl)))⟩,
   ⟨rfl, rfl, fun W hg => (binary_result main_v32 main_v349 main_v353 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 6) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))) (hg ⟨main_v349, Read.val_main_v349 (F := F) X0 X1 X2 X3 X4 X5 X6⟩ (List.mem_of_getElem? (i := 3) rfl)))⟩,
   ⟨rfl, rfl, fun W hg => (binary_result main_v352 main_v353 main_v354 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v352, Read.val_main_v352 (F := F) X0 X1 X2 X3 X4 X5 X6⟩ (List.mem_of_getElem? (i := 1) rfl)) (hg ⟨main_v353, Read.val_main_v353 (F := F) X0 X1 X2 X3 X4 X5 X6⟩ (List.mem_of_getElem? (i := 0) rfl)))⟩,
   ⟨rfl, rfl, fun W hg => (binary_result main_v26 main_v32 main_v355 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 8) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))) (hg ⟨main_v32, Read.val_main_v32 (F := F) X0 X1 X2 X3 X4 X5 X6⟩ (List.mem_of_mem_drop (i := 8) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))⟩,
   ⟨rfl, rfl, fun W hg => (binary_result main_v28 main_v334 main_v356 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 9) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))) (hg ⟨main_v334, Read.val_main_v334 (F := F) X0 X1 X2 X3 X4 X5 X6⟩ (List.mem_of_mem_drop (i := 9) (in_5 X0 X1 X2 X3 X4 X5 X6 (j := 12) rfl))))⟩,
   ⟨rfl, rfl, fun W hg => (binary_result main_v355 main_v356 main_v357 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v355, Read.val_main_v355 (F := F) X0 X1 X2 X3 X4 X5 X6⟩ (List.mem_of_getElem? (i := 1) rfl)) (hg ⟨main_v356, Read.val_main_v356 (F := F) X0 X1 X2 X3 X4 X5 X6⟩ (List.mem_of_getElem? (i := 0) rfl)))⟩,
   ⟨rfl, rfl, fun W hg => (binary_result main_v34 main_v279 main_v358 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 11) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))) (hg ⟨main_v279, Read.val_main_v279 (F := F) X0 X1 X2 X3 X4 X5 X6⟩ (List.mem_of_mem_drop (i := 11) (up_5 X0 X1 X2 X3 X4 X5 X6 (in_4 X0 X1 X2 X3 X4 X5 X6 (j := 7) rfl)))))⟩,
   ⟨rfl, rfl, fun W hg => (binary_result main_v357 main_v358 main_v359 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v357, Read.val_main_v357 (F := F) X0 X1 X2 X3 X4 X5 X6⟩ (List.mem_of_getElem? (i := 1) rfl)) (hg ⟨main_v358, Read.val_main_v358 (F := F) X0 X1 X2 X3 X4 X5 X6⟩ (List.mem_of_getElem? (i := 0) rfl)))⟩,
   ⟨rfl, rfl, fun W hg => (binary_result main_v44 main_v279 main_v360 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 13) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))) (hg ⟨main_v279, Read.val_main_v279 (F := F) X0 X1 X2 X3 X4 X5 X6⟩ (List.mem_of_mem_drop (i := 13) (up_5 X0 X1 X2 X3 X4 X5 X6 (in_4 X0 X1 X2 X3 X4 X5 X6 (j := 7) rfl)))))⟩,
   ⟨rfl, rfl, fun W hg => (binary_result main_v30 main_v234 main_v361 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 14) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))) (hg ⟨main_v234, Read.val_main_v234 (F := F) X0 X1 X2 X3 X4 X5 X6⟩ (List.mem_of_mem_drop (i := 14) (up_5 X0 X1 X2 X3 X4 X5 X6 (in_4 X0 X1 X2 X3 X4 X5 X6 (j := 52) rfl)))))⟩,
   ⟨rfl, rfl, fun W hg => (binary_result main_v360 main_v361 main_v362 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v360, Read.val_main_v360 (F := F) X0 X1 X2 X3 X4 X5 X6⟩ (List.mem_of_getElem? (i := 1) rfl)) (hg ⟨main_v361, Read.val_main_v361 (F := F) X0 X1 X2 X3 X4 X5 X6⟩ (List.mem_of_getElem? (i := 0) rfl)))⟩,
   ⟨rfl, rfl, fun W hg => (binary_result main_v40 main_v264 main_v363 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 16) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))) (hg ⟨main_v264, Read.val_main_v264 (F := F) X0 X1 X2 X3 X4 X5 X6⟩ (List.mem_of_mem_drop (i := 16) (up_5 X0 X1 X2 X3 X4 X5 X6 (in_4 X0 X1 X2 X3 X4 X5 X6 (j := 22) rfl)))))⟩,
   ⟨rfl, rfl, fun W hg => (binary_result main_v362 main_v363 main_v364 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v362, Read.val_main_v362 (F := F) X0 X1 X2 X3 X4 X5 X6⟩ (List.mem_of_getElem? (i := 1) rfl)) (hg ⟨main_v363, Read.val_main_v363 (F := F) X0 X1 X2 X3 X4 X5 X6⟩ (List.mem_of_getElem? (i := 0) rfl)))⟩,
   ⟨rfl, rfl, fun W hg => (binary_result main_v36 main_v154 main_v365 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 18) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))) (hg ⟨main_v154, Read.val_main_v154 (F := F) X0 X1 X2 X3 X4 X5 X6⟩ (List.mem_of_mem_drop (i := 18) (up_5 X0 X1 X2 X3 X4 X5 X6 (up_4 X0 X1 X2 X3 X4 X5 X6 (up_3 X0 X1 X2 X3 X4 X5 X6 (in_2 X0 X1 X2 X3 X4 X5 X6 (j := 12) rfl)))))))⟩,
   ⟨rfl, rfl, fun W hg => (binary_result main_v34 main_v134 main_v366 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 19) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))) (hg ⟨main_v134, Read.val_main_v134 (F := F) X0 X1 X2 X3 X4 X5 X6⟩ (List.mem_of_mem_drop (i := 19) (up_5 X0 X1 X2 X3 X4 X5 X6 (up_4 X0 X1 X2 X3 X4 X5 X6 (up_3 X0 X1 X2 X3 X4 X5 X6 (in_2 X0 X1 X2 X3 X4 X5 X6 (j := 32) rfl)))))))⟩,
   ⟨rfl, rfl, fun W hg => (binary_result main_v365 main_v366 main_v367 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v365, Read.val_main_v365 (F := F) X0 X1 X2 X3 X4 X5 X6⟩ (List.mem_of_getElem? (i := 1) rfl)) (hg ⟨main_v366, Read.val_main_v366 (F := F) X0 X1 X2 X3 X4 X5 X6⟩ (List.mem_of_getElem? (i := 0) rfl)))⟩,
   ⟨rfl, rfl, fun W hg => (binary_result main_v26 main_v56 main_v368 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 21) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))) (hg ⟨main_v56, Read.val_main_v56 (F := F) X0 X1 X2 X3 X4 X5 X6⟩ (List.mem_of_mem_drop (i := 21) (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 57) rfl))))))))⟩,
   ⟨rfl, rfl, fun W hg => (binary_result main_v367 main_v368 main_v369 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v367, Read.val_main_v367 (F := F) X0 X1 X2 X3 X4 X5 X6⟩ (List.mem_of_getElem? (i := 1) rfl)) (hg ⟨main_v368, Read.val_main_v368 (F := F) X0 X1 X2 X3 X4 X5 X6⟩ (List.mem_of_getElem? (i := 0) rfl)))⟩,
   ⟨rfl, rfl, fun W hg => (binary_result main_v36 main_v249 main_v370 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 23) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))) (hg ⟨main_v249, Read.val_main_v249 (F := F) X0 X1 X2 X3 X4 X5 X6⟩ (List.mem_of_mem_drop (i := 23) (up_5 X0 X1 X2 X3 X4 X5 X6 (in_4 X0 X1 X2 X3 X4 X5 X6 (j := 37) rfl)))))⟩,
   ⟨rfl, rfl, fun W hg => (binary_result main_v40 main_v309 main_v371 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 24) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))) (hg ⟨main_v309, Read.val_main_v309 (F := F) X0 X1 X2 X3 X4 X5 X6⟩ (List.mem_of_mem_drop (i := 24) (in_5 X0 X1 X2 X3 X4 X5 X6 (j := 37) rfl))))⟩,
   ⟨rfl, rfl, fun W hg => (binary_result main_v370 main_v371 main_v372 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v370, Read.val_main_v370 (F := F) X0 X1 X2 X3 X4 X5 X6⟩ (List.mem_of_getElem? (i := 1) rfl)) (hg ⟨main_v371, Read.val_main_v371 (F := F) X0 X1 X2 X3 X4 X5 X6⟩ (List.mem_of_getElem? (i := 0) rfl)))⟩,
   ⟨rfl, rfl, fun W hg => (binary_result main_v42 main_v369 main_v373 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 26) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))) (hg ⟨main_v369, Read.val_main_v369 (F := F) X0 X1 X2 X3 X4 X5 X6⟩ (List.mem_of_getElem? (i := 3) rfl)))⟩,
   ⟨rfl, rfl, fun W hg => (binary_result main_v372 main_v373 main_v374 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v372, Read.val_main_v372 (F := F) X0 X1 X2 X3 X4 X5 X6⟩ (List.mem_of_getElem? (i := 1) rfl)) (hg ⟨main_v373, Read.val_main_v373 (F := F) X0 X1 X2 X3 X4 X5 X6⟩ (List.mem_of_getElem? (i := 0) rfl)))⟩,
   ⟨rfl, rfl, fun W hg => (binary_result main_v42 main_v229 main_v375 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 28) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))) (hg ⟨main_v229, Read.val_main_v229 (F := F) X0 X1 X2 X3 X4 X5 X6⟩ (List.mem_of_mem_drop (i := 28) (up_5 X0 X1 X2 X3 X4 X5 X6 (in_4 X0 X1 X2 X3 X4 X5 X6 (j := 57) rfl)))))⟩,
   ⟨rfl, rfl, fun W hg => (binary_result main_v44 main_v244 main_v376 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 29) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))) (hg ⟨main_v244, Read.val_main_v244 (F := F) X0 X1 X2 X3 X4 X5 X6⟩ (List.mem_of_mem_drop (i := 29) (up_5 X0 X1 X2 X3 X4 X5 X6 (in_4 X0 X1 X2 X3 X4 X5 X6 (j := 42) rfl)))))⟩,
   ⟨rfl, rfl, fun W hg => (binary_result main_v375 main_v376 main_v377 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v375, Read.val_main_v375 (F := F) X0 X1 X2 X3 X4 X5 X6⟩ (List.mem_of_getElem? (i := 1) rfl)) (hg ⟨main_v376, Read.val_main_v376 (F := F) X0 X1 X2 X3 X4 X5 X6⟩ (List.mem_of_getElem? (i := 0) rfl)))⟩,
   ⟨rfl, rfl, fun W hg => (binary_result main_v36 main_v234 main_v378 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 31) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))) (hg ⟨main_v234, Read.val_main_v234 (F := F) X0 X1 X2 X3 X4 X5 X6⟩ (List.mem_of_mem_drop (i := 31) (up_5 X0 X1 X2 X3 X4 X5 X6 (in_4 X0 X1 X2 X3 X4 X5 X6 (j := 52) rfl)))))⟩,
   ⟨rfl, rfl, fun W hg => (binary_result main_v377 main_v378 main_v379 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v377, Read.val_main_v377 (F := F) X0 X1 X2 X3 X4 X5 X6⟩ (List.mem_of_getElem? (i := 1) rfl)) (hg ⟨main_v378, Read.val_main_v378 (F := F) X0 X1 X2 X3 X4 X5 X6⟩ (List.mem_of_getElem? (i := 0) rfl)))⟩,
   ⟨rfl, rfl, fun W hg => (binary_result main_v44 main_v89 main_v380 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 33) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))) (hg ⟨main_v89, Read.val_main_v89 (F := F) X0 X1 X2 X3 X4 X5 X6⟩ (List.mem_of_mem_drop (i := 33) (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 17) rfl))))))))⟩,
   ⟨rfl, rfl, fun W hg => (binary_result main_v42 main_v199 main_v381 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 34) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))) (hg ⟨main_v199, Read.val_main_v199 (F := F) X0 X1 X2 X3 X4 X5 X6⟩ (List.mem_of_mem_drop (i := 34) (up_5 X0 X1 X2 X3 X4 X5 X6 (up_4 X0 X1 X2 X3 X4 X5 X6 (in_3 X0 X1 X2 X3 X4 X5 X6 (j := 27) rfl))))))⟩,
   ⟨rfl, rfl, fun W hg => (binary_result main_v380 main_v381 main_v382 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v380, Read.val_main_v380 (F := F) X0 X1 X2 X3 X4 X5 X6⟩ (List.mem_of_getElem? (i := 1) rfl)) (hg ⟨main_v381, Read.val_main_v381 (F := F) X0 X1 X2 X3 X4 X5 X6⟩ (List.mem_of_getElem? (i := 0) rfl)))⟩,
   ⟨rfl, rfl, fun W hg => (binary_result main_v34 main_v129 main_v383 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 36) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))) (hg ⟨main_v129, Read.val_main_v129 (F := F) X0 X1 X2 X3 X4 X5 X6⟩ (List.mem_of_mem_drop (i := 36) (up_5 X0 X1 X2 X3 X4 X5 X6 (up_4 X0 X1 X2 X3 X4 X5 X6 (up_3 X0 X1 X2 X3 X4 X5 X6 (in_2 X0 X1 X2 X3 X4 X5 X6 (j := 37) rfl)))))))⟩,
   ⟨rfl, rfl, fun W hg => (binary_result main_v382 main_v383 main_v384 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v382, Read.val_main_v382 (F := F) X0 X1 X2 X3 X4 X5 X6⟩ (List.mem_of_getElem? (i := 1) rfl)) (hg ⟨main_v383, Read.val_main_v383 (F := F) X0 X1 X2 X3 X4 X5 X6⟩ (List.mem_of_getElem? (i := 0) rfl)))⟩,
   ⟨rfl, rfl, fun W hg => (binary_result main_v42 main_v329 main_v385 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 38) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))) (hg ⟨main_v329, Read.val_main_v329 (F := F) X0 X1 X2 X3 X4 X5 X6⟩ (List.mem_of_mem_drop (i := 38) (in_5 X0 X1 X2 X3 X4 X5 X6 (j := 17) rfl))))⟩,
   ⟨rfl, rfl, fun W hg => (binary_result main_v36 main_v48 main_v386 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 39) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))) (hg ⟨main_v48, Read.val_main_v48 (F := F) X0 X1 X2 X3 X4 X5 X6⟩ (List.mem_of_mem_drop (i := 39) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 7) rfl)))))))))⟩,
   ⟨rfl, rfl, fun W hg => (binary_result main_v385 main_v386 main_v387 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v385, Read.val_main_v385 (F := F) X0 X1 X2 X3 X4 X5 X6⟩ (List.mem_of_getElem? (i := 1) rfl)) (hg ⟨main_v386, Read.val_main_v386 (F := F) X0 X1 X2 X3 X4 X5 X6⟩ (List.mem_of_getElem? (i := 0) rfl)))⟩,
   ⟨rfl, rfl, fun W hg => (binary_result main_v32 main_v56 main_v388 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 41) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))) (hg ⟨main_v56, Read.val_main_v56 (F := F) X0 X1 X2 X3 X4 X5 X6⟩ (List.mem_of_mem_drop (i := 41) (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 57) rfl))))))))⟩,
   ⟨rfl, rfl, fun W hg => (binary_result main_v387 main_v388 main_v389 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v387, Read.val_main_v387 (F := F) X0 X1 X2 X3 X4 X5 X6⟩ (List.mem_of_getElem? (i := 1) rfl)) (hg ⟨main_v388, Read.val_main_v388 (F := F) X0 X1 X2 X3 X4 X5 X6⟩ (List.mem_of_getElem? (i := 0) rfl)))⟩,
   ⟨rfl, rfl, fun W hg => (binary_result main_v32 main_v89 main_v390 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 43) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))) (hg ⟨main_v89, Read.val_main_v89 (F := F) X0 X1 X2 X3 X4 X5 X6⟩ (List.mem_of_mem_drop (i := 43) (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 17) rfl))))))))⟩,
   ⟨rfl, rfl, fun W hg => (binary_result main_v38 main_v129 main_v391 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 44) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))) (hg ⟨main_v129, Read.val_main_v129 (F := F) X0 X1 X2 X3 X4 X5 X6⟩ (List.mem_of_mem_drop (i := 44) (up_5 X0 X1 X2 X3 X4 X5 X6 (up_4 X0 X1 X2 X3 X4 X5 X6 (up_3 X0 X1 X2 X3 X4 X5 X6 (in_2 X0 X1 X2 X3 X4 X5 X6 (j := 37) rfl)))))))⟩,
   ⟨rfl, rfl, fun W hg => (binary_result main_v390 main_v391 main_v392 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v390, Read.val_main_v390 (F := F) X0 X1 X2 X3 X4 X5 X6⟩ (List.mem_of_getElem? (i := 1) rfl)) (hg ⟨main_v391, Read.val_main_v391 (F := F) X0 X1 X2 X3 X4 X5 X6⟩ (List.mem_of_getElem? (i := 0) rfl)))⟩,
   ⟨rfl, rfl, fun W hg => (binary_result main_v34 main_v349 main_v393 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 46) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))) (hg ⟨main_v349, Read.val_main_v349 (F := F) X0 X1 X2 X3 X4 X5 X6⟩ (List.mem_of_getElem? (i := 43) rfl)))⟩,
   ⟨rfl, rfl, fun W hg => (binary_result main_v392 main_v393 main_v394 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v392, Read.val_main_v392 (F := F) X0 X1 X2 X3 X4 X5 X6⟩ (List.mem_of_getElem? (i := 1) rfl)) (hg ⟨main_v393, Read.val_main_v393 (F := F) X0 X1 X2 X3 X4 X5 X6⟩ (List.mem_of_getElem? (i := 0) rfl)))⟩,
   ⟨rfl, rfl, fun W hg => (binary_result main_v36 main_v209 main_v395 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 48) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))) (hg ⟨main_v209, Read.val_main_v209 (F := F) X0 X1 X2 X3 X4 X5 X6⟩ (List.mem_of_mem_drop (i := 48) (up_5 X0 X1 X2 X3 X4 X5 X6 (up_4 X0 X1 X2 X3 X4 X5 X6 (in_3 X0 X1 X2 X3 X4 X5 X6 (j := 17) rfl))))))⟩,
   ⟨rfl, rfl, fun W hg => (binary_result main_v28 main_v214 main_v396 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 49) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))) (hg ⟨main_v214, Read.val_main_v214 (F := F) X0 X1 X2 X3 X4 X5 X6⟩ (List.mem_of_mem_drop (i := 49) (up_5 X0 X1 X2 X3 X4 X5 X6 (up_4 X0 X1 X2 X3 X4 X5 X6 (in_3 X0 X1 X2 X3 X4 X5 X6 (j := 12) rfl))))))⟩,
   ⟨rfl, rfl, fun W hg => (binary_result main_v395 main_v396 main_v397 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v395, Read.val_main_v395 (F := F) X0 X1 X2 X3 X4 X5 X6⟩ (List.mem_of_getElem? (i := 1) rfl)) (hg ⟨main_v396, Read.val_main_v396 (F := F) X0 X1 X2 X3 X4 X5 X6⟩ (List.mem_of_getElem? (i := 0) rfl)))⟩,
   ⟨rfl, rfl, fun W hg => (binary_result main_v38 main_v259 main_v398 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 51) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))) (hg ⟨main_v259, Read.val_main_v259 (F := F) X0 X1 X2 X3 X4 X5 X6⟩ (List.mem_of_mem_drop (i := 51) (up_5 X0 X1 X2 X3 X4 X5 X6 (in_4 X0 X1 X2 X3 X4 X5 X6 (j := 27) rfl)))))⟩,
   ⟨rfl, rfl, fun W hg => (binary_result main_v397 main_v398 main_v399 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v397, Read.val_main_v397 (F := F) X0 X1 X2 X3 X4 X5 X6⟩ (List.mem_of_getElem? (i := 1) rfl)) (hg ⟨main_v398, Read.val_main_v398 (F := F) X0 X1 X2 X3 X4 X5 X6⟩ (List.mem_of_getElem? (i := 0) rfl)))⟩,
   ⟨rfl, rfl, fun W hg => (binary_result main_v34 main_v89 main_v400 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 53) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))) (hg ⟨main_v89, Read.val_main_v89 (F := F) X0 X1 X2 X3 X4 X5 X6⟩ (List.mem_of_mem_drop (i := 53) (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 17) rfl))))))))⟩,
   ⟨rfl, rfl, fun W hg => (binary_result main_v44 main_v204 main_v401 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 54) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))) (hg ⟨main_v204, Read.val_main_v204 (F := F) X0 X1 X2 X3 X4 X5 X6⟩ (List.mem_of_mem_drop (i := 54) (up_5 X0 X1 X2 X3 X4 X5 X6 (up_4 X0 X1 X2 X3 X4 X5 X6 (in_3 X0 X1 X2 X3 X4 X5 X6 (j := 22) rfl))))))⟩,
   ⟨rfl, rfl, fun W hg => (binary_result main_v400 main_v401 main_v402 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v400, Read.val_main_v400 (F := F) X0 X1 X2 X3 X4 X5 X6⟩ (List.mem_of_getElem? (i := 1) rfl)) (hg ⟨main_v401, Read.val_main_v401 (F := F) X0 X1 X2 X3 X4 X5 X6⟩ (List.mem_of_getElem? (i := 0) rfl)))⟩,
   ⟨rfl, rfl, fun W hg => (binary_result main_v36 main_v26 main_v403 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 56) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))) (hg ⟨main_v26, Read.val_main_v26 (F := F) X0 X1 X2 X3 X4 X5 X6⟩ (List.mem_of_mem_drop (i := 56) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))⟩,
   ⟨rfl, rfl, fun W hg => (binary_result main_v402 main_v403 main_v404 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v402, Read.val_main_v402 (F := F) X0 X1 X2 X3 X4 X5 X6⟩ (List.mem_of_getElem? (i := 1) rfl)) (hg ⟨main_v403, Read.val_main_v403 (F := F) X0 X1 X2 X3 X4 X5 X6⟩ (List.mem_of_getElem? (i := 0) rfl)))⟩,
   ⟨rfl, rfl, fun W hg => (binary_result main_v26 main_v48 main_v405 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 58) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))) (hg ⟨main_v48, Read.val_main_v48 (F := F) X0 X1 X2 X3 X4 X5 X6⟩ (List.mem_of_mem_drop (i := 58) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 7) rfl)))))))))⟩,
   ⟨rfl, rfl, fun W hg => (binary_result main_v32 main_v38 main_v406 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 59) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))) (hg ⟨main_v38, Read.val_main_v38 (F := F) X0 X1 X2 X3 X4 X5 X6⟩ (List.mem_of_mem_drop (i := 59) (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))⟩,
   trivial⟩
theorem good_6 (W : Valuation τ sig (Elt F)) (hg : Good W (tbl_5 X0 X1 X2 X3 X4 X5 X6) (7 + 364)) :
    Good (after ops_6 W) (tbl_6 X0 X1 X2 X3 X4 X5 X6) (7 + 424) :=
  Good.after _ _ _ _ W hg (chain_6 X0 X1 X2 X3 X4 X5 X6)

theorem part_eq_7 (c : Dev nD) : main_part7 (F := F) c = seq ops_7 := rfl
theorem fresh_7 : (ops_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 7's operations write, in order. -/
abbrev ps_7 : List (Entry sig (Elt F)) :=
  [ ⟨main_v407, Read.val_main_v407 (F := F) X0 X1 X2 X3 X4 X5 X6⟩,
    ⟨main_v408, Read.val_main_v408 (F := F) X0 X1 X2 X3 X4 X5 X6⟩,
    ⟨main_v409, Read.val_main_v409 (F := F) X0 X1 X2 X3 X4 X5 X6⟩,
    ⟨main_v410, Read.val_main_v410 (F := F) X0 X1 X2 X3 X4 X5 X6⟩,
    ⟨main_v411, Read.val_main_v411 (F := F) X0 X1 X2 X3 X4 X5 X6⟩,
    ⟨main_v412, Read.val_main_v412 (F := F) X0 X1 X2 X3 X4 X5 X6⟩,
    ⟨main_v413, Read.val_main_v413 (F := F) X0 X1 X2 X3 X4 X5 X6⟩,
    ⟨main_v414, Read.val_main_v414 (F := F) X0 X1 X2 X3 X4 X5 X6⟩,
    ⟨main_v415, Read.val_main_v415 (F := F) X0 X1 X2 X3 X4 X5 X6⟩,
    ⟨main_v416, Read.val_main_v416 (F := F) X0 X1 X2 X3 X4 X5 X6⟩,
    ⟨main_v417, Read.val_main_v417 (F := F) X0 X1 X2 X3 X4 X5 X6⟩,
    ⟨main_v418, Read.val_main_v418 (F := F) X0 X1 X2 X3 X4 X5 X6⟩,
    ⟨main_v419, Read.val_main_v419 (F := F) X0 X1 X2 X3 X4 X5 X6⟩,
    ⟨main_v420, Read.val_main_v420 (F := F) X0 X1 X2 X3 X4 X5 X6⟩,
    ⟨main_v421, Read.val_main_v421 (F := F) X0 X1 X2 X3 X4 X5 X6⟩,
    ⟨main_v422, Read.val_main_v422 (F := F) X0 X1 X2 X3 X4 X5 X6⟩,
    ⟨main_v423, Read.val_main_v423 (F := F) X0 X1 X2 X3 X4 X5 X6⟩,
    ⟨main_v424, Read.val_main_v424 (F := F) X0 X1 X2 X3 X4 X5 X6⟩,
    ⟨main_v425, Read.val_main_v425 (F := F) X0 X1 X2 X3 X4 X5 X6⟩,
    ⟨main_v426, Read.val_main_v426 (F := F) X0 X1 X2 X3 X4 X5 X6⟩,
    ⟨main_v427, Read.val_main_v427 (F := F) X0 X1 X2 X3 X4 X5 X6⟩,
    ⟨main_v428, Read.val_main_v428 (F := F) X0 X1 X2 X3 X4 X5 X6⟩,
    ⟨main_v429, Read.val_main_v429 (F := F) X0 X1 X2 X3 X4 X5 X6⟩,
    ⟨main_v430, Read.val_main_v430 (F := F) X0 X1 X2 X3 X4 X5 X6⟩,
    ⟨main_v431, Read.val_main_v431 (F := F) X0 X1 X2 X3 X4 X5 X6⟩,
    ⟨main_v432, Read.val_main_v432 (F := F) X0 X1 X2 X3 X4 X5 X6⟩,
    ⟨main_v433, Read.val_main_v433 (F := F) X0 X1 X2 X3 X4 X5 X6⟩,
    ⟨main_v434, Read.val_main_v434 (F := F) X0 X1 X2 X3 X4 X5 X6⟩,
    ⟨main_v435, Read.val_main_v435 (F := F) X0 X1 X2 X3 X4 X5 X6⟩,
    ⟨main_v436, Read.val_main_v436 (F := F) X0 X1 X2 X3 X4 X5 X6⟩,
    ⟨main_v437, Read.val_main_v437 (F := F) X0 X1 X2 X3 X4 X5 X6⟩,
    ⟨main_v438, Read.val_main_v438 (F := F) X0 X1 X2 X3 X4 X5 X6⟩,
    ⟨main_v439, Read.val_main_v439 (F := F) X0 X1 X2 X3 X4 X5 X6⟩,
    ⟨main_v440, Read.val_main_v440 (F := F) X0 X1 X2 X3 X4 X5 X6⟩,
    ⟨main_v441, Read.val_main_v441 (F := F) X0 X1 X2 X3 X4 X5 X6⟩,
    ⟨main_v442, Read.val_main_v442 (F := F) X0 X1 X2 X3 X4 X5 X6⟩,
    ⟨main_v443, Read.val_main_v443 (F := F) X0 X1 X2 X3 X4 X5 X6⟩,
    ⟨main_v444, Read.val_main_v444 (F := F) X0 X1 X2 X3 X4 X5 X6⟩,
    ⟨main_v445, Read.val_main_v445 (F := F) X0 X1 X2 X3 X4 X5 X6⟩,
    ⟨main_v446, Read.val_main_v446 (F := F) X0 X1 X2 X3 X4 X5 X6⟩,
    ⟨main_v447, Read.val_main_v447 (F := F) X0 X1 X2 X3 X4 X5 X6⟩,
    ⟨main_v448, Read.val_main_v448 (F := F) X0 X1 X2 X3 X4 X5 X6⟩,
    ⟨main_v449, Read.val_main_v449 (F := F) X0 X1 X2 X3 X4 X5 X6⟩,
    ⟨main_v450, Read.val_main_v450 (F := F) X0 X1 X2 X3 X4 X5 X6⟩,
    ⟨main_v451, Read.val_main_v451 (F := F) X0 X1 X2 X3 X4 X5 X6⟩,
    ⟨main_v452, Read.val_main_v452 (F := F) X0 X1 X2 X3 X4 X5 X6⟩,
    ⟨main_v453, Read.val_main_v453 (F := F) X0 X1 X2 X3 X4 X5 X6⟩,
    ⟨main_v454, Read.val_main_v454 (F := F) X0 X1 X2 X3 X4 X5 X6⟩,
    ⟨main_v455, Read.val_main_v455 (F := F) X0 X1 X2 X3 X4 X5 X6⟩,
    ⟨main_v456, Read.val_main_v456 (F := F) X0 X1 X2 X3 X4 X5 X6⟩,
    ⟨main_v457, Read.val_main_v457 (F := F) X0 X1 X2 X3 X4 X5 X6⟩,
    ⟨main_v458, Read.val_main_v458 (F := F) X0 X1 X2 X3 X4 X5 X6⟩,
    ⟨main_v459, Read.val_main_v459 (F := F) X0 X1 X2 X3 X4 X5 X6⟩,
    ⟨main_v460, Read.val_main_v460 (F := F) X0 X1 X2 X3 X4 X5 X6⟩,
    ⟨main_v461, Read.val_main_v461 (F := F) X0 X1 X2 X3 X4 X5 X6⟩,
    ⟨main_v462, Read.val_main_v462 (F := F) X0 X1 X2 X3 X4 X5 X6⟩,
    ⟨main_v463, Read.val_main_v463 (F := F) X0 X1 X2 X3 X4 X5 X6⟩,
    ⟨main_v464, Read.val_main_v464 (F := F) X0 X1 X2 X3 X4 X5 X6⟩,
    ⟨main_v465, Read.val_main_v465 (F := F) X0 X1 X2 X3 X4 X5 X6⟩,
    ⟨main_v466, Read.val_main_v466 (F := F) X0 X1 X2 X3 X4 X5 X6⟩ ]
/-- The stages known after window 7, the newest first. -/
abbrev tbl_7 : List (Entry sig (Elt F)) := (ps_7 X0 X1 X2 X3 X4 X5 X6).reverse ++ tbl_6 X0 X1 X2 X3 X4 X5 X6
theorem up_7 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_6 X0 X1 X2 X3 X4 X5 X6) : e ∈ tbl_7 X0 X1 X2 X3 X4 X5 X6 := List.mem_append_right _ h
theorem in_7 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_7 X0 X1 X2 X3 X4 X5 X6).reverse[j]? = some e) : e ∈ tbl_7 X0 X1 X2 X3 X4 X5 X6 :=
  List.mem_append_left _ (List.mem_of_getElem? h)
set_option maxRecDepth 1000000 in
set_option maxHeartbeats 4000000 in
theorem chain_7 : Chain (tbl_6 X0 X1 X2 X3 X4 X5 X6) (7 + 424) (ops_7 (F := F)) (ps_7 X0 X1 X2 X3 X4 X5 X6) :=
  ⟨⟨rfl, rfl, fun W hg => (binary_result main_v405 main_v406 main_v407 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v405, Read.val_main_v405 (F := F) X0 X1 X2 X3 X4 X5 X6⟩ (List.mem_of_mem_drop (i := 0) (in_6 X0 X1 X2 X3 X4 X5 X6 (j := 1) rfl))) (hg ⟨main_v406, Read.val_main_v406 (F := F) X0 X1 X2 X3 X4 X5 X6⟩ (List.mem_of_mem_drop (i := 0) (in_6 X0 X1 X2 X3 X4 X5 X6 (j := 0) rfl))))⟩,
   ⟨rfl, rfl, fun W hg => (binary_result main_v42 main_v38 main_v408 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 1) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))) (hg ⟨main_v38, Read.val_main_v38 (F := F) X0 X1 X2 X3 X4 X5 X6⟩ (List.mem_of_mem_drop (i := 1) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))⟩,
   ⟨rfl, rfl, fun W hg => (binary_result main_v407 main_v408 main_v409 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v407, Read.val_main_v407 (F := F) X0 X1 X2 X3 X4 X5 X6⟩ (List.mem_of_getElem? (i := 1) rfl)) (hg ⟨main_v408, Read.val_main_v408 (F := F) X0 X1 X2 X3 X4 X5 X6⟩ (List.mem_of_getElem? (i := 0) rfl)))⟩,
   ⟨rfl, rfl, fun W hg => (binary_result main_v28 main_v134 main_v410 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 3) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))) (hg ⟨main_v134, Read.val_main_v134 (F := F) X0 X1 X2 X3 X4 X5 X6⟩ (List.mem_of_mem_drop (i := 3) (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 32) rfl))))))))⟩,
   ⟨rfl, rfl, fun W hg => (binary_result main_v26 main_v44 main_v411 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 4) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))) (hg ⟨main_v44, Read.val_main_v44 (F := F) X0 X1 X2 X3 X4 X5 X6⟩ (List.mem_of_mem_drop (i := 4) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))⟩,
   ⟨rfl, rfl, fun W hg => (binary_result main_v410 main_v411 main_v412 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v410, Read.val_main_v410 (F := F) X0 X1 X2 X3 X4 X5 X6⟩ (List.mem_of_getElem? (i := 1) rfl)) (hg ⟨main_v411, Read.val_main_v411 (F := F) X0 X1 X2 X3 X4 X5 X6⟩ (List.mem_of_getElem? (i := 0) rfl)))⟩,
   ⟨rfl, rfl, fun W hg => (binary_result main_v40 main_v349 main_v413 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 6) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))) (hg ⟨main_v349, Read.val_main_v349 (F := F) X0 X1 X2 X3 X4 X5 X6⟩ (List.mem_of_mem_drop (i := 6) (in_6 X0 X1 X2 X3 X4 X5 X6 (j := 57) rfl))))⟩,
   ⟨rfl, rfl, fun W hg => (binary_result main_v412 main_v413 main_v414 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v412, Read.val_main_v412 (F := F) X0 X1 X2 X3 X4 X5 X6⟩ (List.mem_of_getElem? (i := 1) rfl)) (hg ⟨main_v413, Read.val_main_v413 (F := F) X0 X1 X2 X3 X4 X5 X6⟩ (List.mem_of_getElem? (i := 0) rfl)))⟩,
   ⟨rfl, rfl, fun W hg => (binary_result main_v40 main_v224 main_v415 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 8) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))) (hg ⟨main_v224, Read.val_main_v224 (F := F) X0 X1 X2 X3 X4 X5 X6⟩ (List.mem_of_mem_drop (i := 8) (up_6 X0 X1 X2 X3 X4 X5 X6 (up_5 X0 X1 X2 X3 X4 X5 X6 (up_4 X0 X1 X2 X3 X4 X5 X6 (in_3 X0 X1 X2 X3 X4 X5 X6 (j := 2) rfl)))))))⟩,
   ⟨rfl, rfl, fun W hg => (binary_result main_v26 main_v369 main_v416 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 9) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))) (hg ⟨main_v369, Read.val_main_v369 (F := F) X0 X1 X2 X3 X4 X5 X6⟩ (List.mem_of_mem_drop (i := 9) (in_6 X0 X1 X2 X3 X4 X5 X6 (j := 37) rfl))))⟩,
   ⟨rfl, rfl, fun W hg => (binary_result main_v415 main_v416 main_v417 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v415, Read.val_main_v415 (F := F) X0 X1 X2 X3 X4 X5 X6⟩ (List.mem_of_getElem? (i := 1) rfl)) (hg ⟨main_v416, Read.val_main_v416 (F := F) X0 X1 X2 X3 X4 X5 X6⟩ (List.mem_of_getElem? (i := 0) rfl)))⟩,
   ⟨rfl, rfl, fun W hg => (binary_result main_v30 main_v94 main_v418 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 11) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))) (hg ⟨main_v94, Read.val_main_v94 (F := F) X0 X1 X2 X3 X4 X5 X6⟩ (List.mem_of_mem_drop (i := 11) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 12) rfl)))))))))⟩,
   ⟨rfl, rfl, fun W hg => (binary_result main_v417 main_v418 main_v419 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v417, Read.val_main_v417 (F := F) X0 X1 X2 X3 X4 X5 X6⟩ (List.mem_of_getElem? (i := 1) rfl)) (hg ⟨main_v418, Read.val_main_v418 (F := F) X0 X1 X2 X3 X4 X5 X6⟩ (List.mem_of_getElem? (i := 0) rfl)))⟩,
   ⟨rfl, rfl, fun W hg => (binary_result main_v44 main_v229 main_v420 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 13) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))) (hg ⟨main_v229, Read.val_main_v229 (F := F) X0 X1 X2 X3 X4 X5 X6⟩ (List.mem_of_mem_drop (i := 13) (up_6 X0 X1 X2 X3 X4 X5 X6 (up_5 X0 X1 X2 X3 X4 X5 X6 (in_4 X0 X1 X2 X3 X4 X5 X6 (j := 57) rfl))))))⟩,
   ⟨rfl, rfl, fun W hg => (binary_result main_v26 main_v189 main_v421 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 14) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))) (hg ⟨main_v189, Read.val_main_v189 (F := F) X0 X1 X2 X3 X4 X5 X6⟩ (List.mem_of_mem_drop (i := 14) (up_6 X0 X1 X2 X3 X4 X5 X6 (up_5 X0 X1 X2 X3 X4 X5 X6 (up_4 X0 X1 X2 X3 X4 X5 X6 (in_3 X0 X1 X2 X3 X4 X5 X6 (j := 37) rfl)))))))⟩,
   ⟨rfl, rfl, fun W hg => (binary_result main_v420 main_v421 main_v422 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v420, Read.val_main_v420 (F := F) X0 X1 X2 X3 X4 X5 X6⟩ (List.mem_of_getElem? (i := 1) rfl)) (hg ⟨main_v421, Read.val_main_v421 (F := F) X0 X1 X2 X3 X4 X5 X6⟩ (List.mem_of_getElem? (i := 0) rfl)))⟩,
   ⟨rfl, rfl, fun W hg => (binary_result main_v32 main_v119 main_v423 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 16) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))) (hg ⟨main_v119, Read.val_main_v119 (F := F) X0 X1 X2 X3 X4 X5 X6⟩ (List.mem_of_mem_drop (i := 16) (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 47) rfl))))))))⟩,
   ⟨rfl, rfl, fun W hg => (binary_result main_v422 main_v423 main_v424 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v422, Read.val_main_v422 (F := F) X0 X1 X2 X3 X4 X5 X6⟩ (List.mem_of_getElem? (i := 1) rfl)) (hg ⟨main_v423, Read.val_main_v423 (F := F) X0 X1 X2 X3 X4 X5 X6⟩ (List.mem_of_getElem? (i := 0) rfl)))⟩,
   ⟨rfl, rfl, fun W hg => (binary_result main_v40 main_v299 main_v425 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 18) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))) (hg ⟨main_v299, Read.val_main_v299 (F := F) X0 X1 X2 X3 X4 X5 X6⟩ (List.mem_of_mem_drop (i := 18) (up_6 X0 X1 X2 X3 X4 X5 X6 (in_5 X0 X1 X2 X3 X4 X5 X6 (j := 47) rfl)))))⟩,
   ⟨rfl, rfl, fun W hg => (binary_result main_v30 main_v48 main_v426 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 19) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))) (hg ⟨main_v48, Read.val_main_v48 (F := F) X0 X1 X2 X3 X4 X5 X6⟩ (List.mem_of_mem_drop (i := 19) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 7) rfl))))))))))⟩,
   ⟨rfl, rfl, fun W hg => (binary_result main_v425 main_v426 main_v427 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v425, Read.val_main_v425 (F := F) X0 X1 X2 X3 X4 X5 X6⟩ (List.mem_of_getElem? (i := 1) rfl)) (hg ⟨main_v426, Read.val_main_v426 (F := F) X0 X1 X2 X3 X4 X5 X6⟩ (List.mem_of_getElem? (i := 0) rfl)))⟩,
   ⟨rfl, rfl, fun W hg => (binary_result main_v38 main_v56 main_v428 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 21) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))) (hg ⟨main_v56, Read.val_main_v56 (F := F) X0 X1 X2 X3 X4 X5 X6⟩ (List.mem_of_mem_drop (i := 21) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 57) rfl)))))))))⟩,
   ⟨rfl, rfl, fun W hg => (binary_result main_v427 main_v428 main_v429 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v427, Read.val_main_v427 (F := F) X0 X1 X2 X3 X4 X5 X6⟩ (List.mem_of_getElem? (i := 1) rfl)) (hg ⟨main_v428, Read.val_main_v428 (F := F) X0 X1 X2 X3 X4 X5 X6⟩ (List.mem_of_getElem? (i := 0) rfl)))⟩,
   ⟨rfl, rfl, fun W hg => (binary_result main_v30 main_v369 main_v430 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 23) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))) (hg ⟨main_v369, Read.val_main_v369 (F := F) X0 X1 X2 X3 X4 X5 X6⟩ (List.mem_of_mem_drop (i := 23) (in_6 X0 X1 X2 X3 X4 X5 X6 (j := 37) rfl))))⟩,
   ⟨rfl, rfl, fun W hg => (binary_result main_v28 main_v119 main_v431 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 24) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))) (hg ⟨main_v119, Read.val_main_v119 (F := F) X0 X1 X2 X3 X4 X5 X6⟩ (List.mem_of_mem_drop (i := 24) (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 47) rfl))))))))⟩,
   ⟨rfl, rfl, fun W hg => (binary_result main_v430 main_v431 main_v432 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v430, Read.val_main_v430 (F := F) X0 X1 X2 X3 X4 X5 X6⟩ (List.mem_of_getElem? (i := 1) rfl)) (hg ⟨main_v431, Read.val_main_v431 (F := F) X0 X1 X2 X3 X4 X5 X6⟩ (List.mem_of_getElem? (i := 0) rfl)))⟩,
   ⟨rfl, rfl, fun W hg => (binary_result main_v44 main_v404 main_v433 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 26) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))) (hg ⟨main_v404, Read.val_main_v404 (F := F) X0 X1 X2 X3 X4 X5 X6⟩ (List.mem_of_mem_drop (i := 26) (in_6 X0 X1 X2 X3 X4 X5 X6 (j := 2) rfl))))⟩,
   ⟨rfl, rfl, fun W hg => (binary_result main_v432 main_v433 main_v434 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v432, Read.val_main_v432 (F := F) X0 X1 X2 X3 X4 X5 X6⟩ (List.mem_of_getElem? (i := 1) rfl)) (hg ⟨main_v433, Read.val_main_v433 (F := F) X0 X1 X2 X3 X4 X5 X6⟩ (List.mem_of_getElem? (i := 0) rfl)))⟩,
   ⟨rfl, rfl, fun W hg => (binary_result main_v28 main_v32 main_v435 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 28) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))) (hg ⟨main_v32, Read.val_main_v32 (F := F) X0 X1 X2 X3 X4 X5 X6⟩ (List.mem_of_mem_drop (i := 28) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))⟩,
   ⟨rfl, rfl, fun W hg => (binary_result main_v42 main_v294 main_v436 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 29) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))) (hg ⟨main_v294, Read.val_main_v294 (F := F) X0 X1 X2 X3 X4 X5 X6⟩ (List.mem_of_mem_drop (i := 29) (up_6 X0 X1 X2 X3 X4 X5 X6 (in_5 X0 X1 X2 X3 X4 X5 X6 (j := 52) rfl)))))⟩,
   ⟨rfl, rfl, fun W hg => (binary_result main_v435 main_v436 main_v437 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v435, Read.val_main_v435 (F := F) X0 X1 X2 X3 X4 X5 X6⟩ (List.mem_of_getElem? (i := 1) rfl)) (hg ⟨main_v436, Read.val_main_v436 (F := F) X0 X1 X2 X3 X4 X5 X6⟩ (List.mem_of_getElem? (i := 0) rfl)))⟩,
   ⟨rfl, rfl, fun W hg => (binary_result main_v30 main_v324 main_v438 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 31) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))) (hg ⟨main_v324, Read.val_main_v324 (F := F) X0 X1 X2 X3 X4 X5 X6⟩ (List.mem_of_mem_drop (i := 31) (up_6 X0 X1 X2 X3 X4 X5 X6 (in_5 X0 X1 X2 X3 X4 X5 X6 (j := 22) rfl)))))⟩,
   ⟨rfl, rfl, fun W hg => (binary_result main_v437 main_v438 main_v439 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v437, Read.val_main_v437 (F := F) X0 X1 X2 X3 X4 X5 X6⟩ (List.mem_of_getElem? (i := 1) rfl)) (hg ⟨main_v438, Read.val_main_v438 (F := F) X0 X1 X2 X3 X4 X5 X6⟩ (List.mem_of_getElem? (i := 0) rfl)))⟩,
   ⟨rfl, rfl, fun W hg => (binary_result main_v40 main_v76 main_v440 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 33) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))) (hg ⟨main_v76, Read.val_main_v76 (F := F) X0 X1 X2 X3 X4 X5 X6⟩ (List.mem_of_mem_drop (i := 33) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 32) rfl)))))))))⟩,
   ⟨rfl, rfl, fun W hg => (binary_result main_v32 main_v274 main_v441 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 34) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))) (hg ⟨main_v274, Read.val_main_v274 (F := F) X0 X1 X2 X3 X4 X5 X6⟩ (List.mem_of_mem_drop (i := 34) (up_6 X0 X1 X2 X3 X4 X5 X6 (up_5 X0 X1 X2 X3 X4 X5 X6 (in_4 X0 X1 X2 X3 X4 X5 X6 (j := 12) rfl))))))⟩,
   ⟨rfl, rfl, fun W hg => (binary_result main_v440 main_v441 main_v442 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v440, Read.val_main_v440 (F := F) X0 X1 X2 X3 X4 X5 X6⟩ (List.mem_of_getElem? (i := 1) rfl)) (hg ⟨main_v441, Read.val_main_v441 (F := F) X0 X1 X2 X3 X4 X5 X6⟩ (List.mem_of_getElem? (i := 0) rfl)))⟩,
   ⟨rfl, rfl, fun W hg => (binary_result main_v36 main_v44 main_v443 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 36) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))) (hg ⟨main_v44, Read.val_main_v44 (F := F) X0 X1 X2 X3 X4 X5 X6⟩ (List.mem_of_mem_drop (i := 36) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))⟩,
   ⟨rfl, rfl, fun W hg => (binary_result main_v442 main_v443 main_v444 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v442, Read.val_main_v442 (F := F) X0 X1 X2 X3 X4 X5 X6⟩ (List.mem_of_getElem? (i := 1) rfl)) (hg ⟨main_v443, Read.val_main_v443 (F := F) X0 X1 X2 X3 X4 X5 X6⟩ (List.mem_of_getElem? (i := 0) rfl)))⟩,
   ⟨rfl, rfl, fun W hg => (binary_result main_v36 main_v139 main_v445 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 38) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))) (hg ⟨main_v139, Read.val_main_v139 (F := F) X0 X1 X2 X3 X4 X5 X6⟩ (List.mem_of_mem_drop (i := 38) (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 27) rfl))))))))⟩,
   ⟨rfl, rfl, fun W hg => (binary_result main_v44 main_v389 main_v446 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 39) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))) (hg ⟨main_v389, Read.val_main_v389 (F := F) X0 X1 X2 X3 X4 X5 X6⟩ (List.mem_of_mem_drop (i := 39) (in_6 X0 X1 X2 X3 X4 X5 X6 (j := 17) rfl))))⟩,
   ⟨rfl, rfl, fun W hg => (binary_result main_v445 main_v446 main_v447 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v445, Read.val_main_v445 (F := F) X0 X1 X2 X3 X4 X5 X6⟩ (List.mem_of_getElem? (i := 1) rfl)) (hg ⟨main_v446, Read.val_main_v446 (F := F) X0 X1 X2 X3 X4 X5 X6⟩ (List.mem_of_getElem? (i := 0) rfl)))⟩,
   ⟨rfl, rfl, fun W hg => (binary_result main_v42 main_v124 main_v448 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 41) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))) (hg ⟨main_v124, Read.val_main_v124 (F := F) X0 X1 X2 X3 X4 X5 X6⟩ (List.mem_of_mem_drop (i := 41) (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 42) rfl))))))))⟩,
   ⟨rfl, rfl, fun W hg => (binary_result main_v447 main_v448 main_v449 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v447, Read.val_main_v447 (F := F) X0 X1 X2 X3 X4 X5 X6⟩ (List.mem_of_getElem? (i := 1) rfl)) (hg ⟨main_v448, Read.val_main_v448 (F := F) X0 X1 X2 X3 X4 X5 X6⟩ (List.mem_of_getElem? (i := 0) rfl)))⟩,
   ⟨rfl, rfl, fun W hg => (binary_result main_v26 main_v344 main_v450 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 43) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))) (hg ⟨main_v344, Read.val_main_v344 (F := F) X0 X1 X2 X3 X4 X5 X6⟩ (List.mem_of_mem_drop (i := 43) (up_6 X0 X1 X2 X3 X4 X5 X6 (in_5 X0 X1 X2 X3 X4 X5 X6 (j := 2) rfl)))))⟩,
   ⟨rfl, rfl, fun W hg => (binary_result main_v32 main_v284 main_v451 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 44) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))) (hg ⟨main_v284, Read.val_main_v284 (F := F) X0 X1 X2 X3 X4 X5 X6⟩ (List.mem_of_mem_drop (i := 44) (up_6 X0 X1 X2 X3 X4 X5 X6 (up_5 X0 X1 X2 X3 X4 X5 X6 (in_4 X0 X1 X2 X3 X4 X5 X6 (j := 2) rfl))))))⟩,
   ⟨rfl, rfl, fun W hg => (binary_result main_v450 main_v451 main_v452 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v450, Read.val_main_v450 (F := F) X0 X1 X2 X3 X4 X5 X6⟩ (List.mem_of_getElem? (i := 1) rfl)) (hg ⟨main_v451, Read.val_main_v451 (F := F) X0 X1 X2 X3 X4 X5 X6⟩ (List.mem_of_getElem? (i := 0) rfl)))⟩,
   ⟨rfl, rfl, fun W hg => (binary_result main_v28 main_v174 main_v453 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 46) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))) (hg ⟨main_v174, Read.val_main_v174 (F := F) X0 X1 X2 X3 X4 X5 X6⟩ (List.mem_of_mem_drop (i := 46) (up_6 X0 X1 X2 X3 X4 X5 X6 (up_5 X0 X1 X2 X3 X4 X5 X6 (up_4 X0 X1 X2 X3 X4 X5 X6 (in_3 X0 X1 X2 X3 X4 X5 X6 (j := 52) rfl)))))))⟩,
   ⟨rfl, rfl, fun W hg => (binary_result main_v452 main_v453 main_v454 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v452, Read.val_main_v452 (F := F) X0 X1 X2 X3 X4 X5 X6⟩ (List.mem_of_getElem? (i := 1) rfl)) (hg ⟨main_v453, Read.val_main_v453 (F := F) X0 X1 X2 X3 X4 X5 X6⟩ (List.mem_of_getElem? (i := 0) rfl)))⟩,
   ⟨rfl, rfl, fun W hg => (binary_result main_v30 main_v334 main_v455 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 48) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))) (hg ⟨main_v334, Read.val_main_v334 (F := F) X0 X1 X2 X3 X4 X5 X6⟩ (List.mem_of_mem_drop (i := 48) (up_6 X0 X1 X2 X3 X4 X5 X6 (in_5 X0 X1 X2 X3 X4 X5 X6 (j := 12) rfl)))))⟩,
   ⟨rfl, rfl, fun W hg => (binary_result main_v28 main_v28 main_v456 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 49) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))) (hg ⟨main_v28, Read.val_main_v28 (F := F) X0 X1 X2 X3 X4 X5 X6⟩ (List.mem_of_mem_drop (i := 49) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))⟩,
   ⟨rfl, rfl, fun W hg => (binary_result main_v455 main_v456 main_v457 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v455, Read.val_main_v455 (F := F) X0 X1 X2 X3 X4 X5 X6⟩ (List.mem_of_getElem? (i := 1) rfl)) (hg ⟨main_v456, Read.val_main_v456 (F := F) X0 X1 X2 X3 X4 X5 X6⟩ (List.mem_of_getElem? (i := 0) rfl)))⟩,
   ⟨rfl, rfl, fun W hg => (binary_result main_v44 main_v134 main_v458 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 51) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))) (hg ⟨main_v134, Read.val_main_v134 (F := F) X0 X1 X2 X3 X4 X5 X6⟩ (List.mem_of_mem_drop (i := 51) (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 32) rfl))))))))⟩,
   ⟨rfl, rfl, fun W hg => (binary_result main_v457 main_v458 main_v459 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v457, Read.val_main_v457 (F := F) X0 X1 X2 X3 X4 X5 X6⟩ (List.mem_of_getElem? (i := 1) rfl)) (hg ⟨main_v458, Read.val_main_v458 (F := F) X0 X1 X2 X3 X4 X5 X6⟩ (List.mem_of_getElem? (i := 0) rfl)))⟩,
   ⟨rfl, rfl, fun W hg => (binary_result main_v28 main_v359 main_v460 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 53) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))) (hg ⟨main_v359, Read.val_main_v359 (F := F) X0 X1 X2 X3 X4 X5 X6⟩ (List.mem_of_mem_drop (i := 53) (in_6 X0 X1 X2 X3 X4 X5 X6 (j := 47) rfl))))⟩,
   ⟨rfl, rfl, fun W hg => (binary_result main_v30 main_v324 main_v461 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 54) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))) (hg ⟨main_v324, Read.val_main_v324 (F := F) X0 X1 X2 X3 X4 X5 X6⟩ (List.mem_of_mem_drop (i := 54) (up_6 X0 X1 X2 X3 X4 X5 X6 (in_5 X0 X1 X2 X3 X4 X5 X6 (j := 22) rfl)))))⟩,
   ⟨rfl, rfl, fun W hg => (binary_result main_v460 main_v461 main_v462 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v460, Read.val_main_v460 (F := F) X0 X1 X2 X3 X4 X5 X6⟩ (List.mem_of_getElem? (i := 1) rfl)) (hg ⟨main_v461, Read.val_main_v461 (F := F) X0 X1 X2 X3 X4 X5 X6⟩ (List.mem_of_getElem? (i := 0) rfl)))⟩,
   ⟨rfl, rfl, fun W hg => (binary_result main_v34 main_v419 main_v463 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 56) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))) (hg ⟨main_v419, Read.val_main_v419 (F := F) X0 X1 X2 X3 X4 X5 X6⟩ (List.mem_of_getElem? (i := 43) rfl)))⟩,
   ⟨rfl, rfl, fun W hg => (binary_result main_v462 main_v463 main_v464 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v462, Read.val_main_v462 (F := F) X0 X1 X2 X3 X4 X5 X6⟩ (List.mem_of_getElem? (i := 1) rfl)) (hg ⟨main_v463, Read.val_main_v463 (F := F) X0 X1 X2 X3 X4 X5 X6⟩ (List.mem_of_getElem? (i := 0) rfl)))⟩,
   ⟨rfl, rfl, fun W hg => (binary_result main_v38 main_v134 main_v465 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 58) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))) (hg ⟨main_v134, Read.val_main_v134 (F := F) X0 X1 X2 X3 X4 X5 X6⟩ (List.mem_of_mem_drop (i := 58) (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 32) rfl))))))))⟩,
   ⟨rfl, rfl, fun W hg => (binary_result main_v40 main_v459 main_v466 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 59) (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))) (hg ⟨main_v459, Read.val_main_v459 (F := F) X0 X1 X2 X3 X4 X5 X6⟩ (List.mem_of_getElem? (i := 6) rfl)))⟩,
   trivial⟩
theorem good_7 (W : Valuation τ sig (Elt F)) (hg : Good W (tbl_6 X0 X1 X2 X3 X4 X5 X6) (7 + 424)) :
    Good (after ops_7 W) (tbl_7 X0 X1 X2 X3 X4 X5 X6) (7 + 484) :=
  Good.after _ _ _ _ W hg (chain_7 X0 X1 X2 X3 X4 X5 X6)

theorem part_eq_8 (c : Dev nD) : main_part8 (F := F) c = seq ops_8 := rfl
theorem fresh_8 : (ops_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 8's operations write, in order. -/
abbrev ps_8 : List (Entry sig (Elt F)) :=
  [ ⟨main_v467, Read.val_main_v467 (F := F) X0 X1 X2 X3 X4 X5 X6⟩,
    ⟨main_v468, Read.val_main_v468 (F := F) X0 X1 X2 X3 X4 X5 X6⟩,
    ⟨main_v469, Read.val_main_v469 (F := F) X0 X1 X2 X3 X4 X5 X6⟩,
    ⟨main_v470, Read.val_main_v470 (F := F) X0 X1 X2 X3 X4 X5 X6⟩,
    ⟨main_v471, Read.val_main_v471 (F := F) X0 X1 X2 X3 X4 X5 X6⟩,
    ⟨main_v472, Read.val_main_v472 (F := F) X0 X1 X2 X3 X4 X5 X6⟩,
    ⟨main_v473, Read.val_main_v473 (F := F) X0 X1 X2 X3 X4 X5 X6⟩,
    ⟨main_v474, Read.val_main_v474 (F := F) X0 X1 X2 X3 X4 X5 X6⟩,
    ⟨main_v475, Read.val_main_v475 (F := F) X0 X1 X2 X3 X4 X5 X6⟩,
    ⟨main_v476, Read.val_main_v476 (F := F) X0 X1 X2 X3 X4 X5 X6⟩,
    ⟨main_v477, Read.val_main_v477 (F := F) X0 X1 X2 X3 X4 X5 X6⟩,
    ⟨main_v478, Read.val_main_v478 (F := F) X0 X1 X2 X3 X4 X5 X6⟩,
    ⟨main_v479, Read.val_main_v479 (F := F) X0 X1 X2 X3 X4 X5 X6⟩,
    ⟨main_v480, Read.val_main_v480 (F := F) X0 X1 X2 X3 X4 X5 X6⟩,
    ⟨main_v481, Read.val_main_v481 (F := F) X0 X1 X2 X3 X4 X5 X6⟩,
    ⟨main_v482, Read.val_main_v482 (F := F) X0 X1 X2 X3 X4 X5 X6⟩,
    ⟨main_v483, Read.val_main_v483 (F := F) X0 X1 X2 X3 X4 X5 X6⟩,
    ⟨main_v484, Read.val_main_v484 (F := F) X0 X1 X2 X3 X4 X5 X6⟩,
    ⟨main_v485, Read.val_main_v485 (F := F) X0 X1 X2 X3 X4 X5 X6⟩,
    ⟨main_v486, Read.val_main_v486 (F := F) X0 X1 X2 X3 X4 X5 X6⟩,
    ⟨main_v487, Read.val_main_v487 (F := F) X0 X1 X2 X3 X4 X5 X6⟩,
    ⟨main_v488, Read.val_main_v488 (F := F) X0 X1 X2 X3 X4 X5 X6⟩,
    ⟨main_v489, Read.val_main_v489 (F := F) X0 X1 X2 X3 X4 X5 X6⟩,
    ⟨main_v490, Read.val_main_v490 (F := F) X0 X1 X2 X3 X4 X5 X6⟩,
    ⟨main_v491, Read.val_main_v491 (F := F) X0 X1 X2 X3 X4 X5 X6⟩,
    ⟨main_v492, Read.val_main_v492 (F := F) X0 X1 X2 X3 X4 X5 X6⟩,
    ⟨main_v493, Read.val_main_v493 (F := F) X0 X1 X2 X3 X4 X5 X6⟩,
    ⟨main_v494, Read.val_main_v494 (F := F) X0 X1 X2 X3 X4 X5 X6⟩,
    ⟨main_v495, Read.val_main_v495 (F := F) X0 X1 X2 X3 X4 X5 X6⟩,
    ⟨main_v496, Read.val_main_v496 (F := F) X0 X1 X2 X3 X4 X5 X6⟩,
    ⟨main_v497, Read.val_main_v497 (F := F) X0 X1 X2 X3 X4 X5 X6⟩,
    ⟨main_v498, Read.val_main_v498 (F := F) X0 X1 X2 X3 X4 X5 X6⟩,
    ⟨main_v499, Read.val_main_v499 (F := F) X0 X1 X2 X3 X4 X5 X6⟩,
    ⟨main_v500, Read.val_main_v500 (F := F) X0 X1 X2 X3 X4 X5 X6⟩,
    ⟨main_v501, Read.val_main_v501 (F := F) X0 X1 X2 X3 X4 X5 X6⟩,
    ⟨main_v502, Read.val_main_v502 (F := F) X0 X1 X2 X3 X4 X5 X6⟩,
    ⟨main_v503, Read.val_main_v503 (F := F) X0 X1 X2 X3 X4 X5 X6⟩,
    ⟨main_v504, Read.val_main_v504 (F := F) X0 X1 X2 X3 X4 X5 X6⟩,
    ⟨main_v505, Read.val_main_v505 (F := F) X0 X1 X2 X3 X4 X5 X6⟩,
    ⟨main_v506, Read.val_main_v506 (F := F) X0 X1 X2 X3 X4 X5 X6⟩,
    ⟨main_v507, Read.val_main_v507 (F := F) X0 X1 X2 X3 X4 X5 X6⟩,
    ⟨main_v508, Read.val_main_v508 (F := F) X0 X1 X2 X3 X4 X5 X6⟩,
    ⟨main_v509, Read.val_main_v509 (F := F) X0 X1 X2 X3 X4 X5 X6⟩,
    ⟨main_v510, Read.val_main_v510 (F := F) X0 X1 X2 X3 X4 X5 X6⟩,
    ⟨main_v511, Read.val_main_v511 (F := F) X0 X1 X2 X3 X4 X5 X6⟩,
    ⟨main_v512, Read.val_main_v512 (F := F) X0 X1 X2 X3 X4 X5 X6⟩,
    ⟨main_v513, Read.val_main_v513 (F := F) X0 X1 X2 X3 X4 X5 X6⟩,
    ⟨main_v514, Read.val_main_v514 (F := F) X0 X1 X2 X3 X4 X5 X6⟩,
    ⟨main_v515, Read.val_main_v515 (F := F) X0 X1 X2 X3 X4 X5 X6⟩,
    ⟨main_v516, Read.val_main_v516 (F := F) X0 X1 X2 X3 X4 X5 X6⟩,
    ⟨main_v517, Read.val_main_v517 (F := F) X0 X1 X2 X3 X4 X5 X6⟩,
    ⟨main_v518, Read.val_main_v518 (F := F) X0 X1 X2 X3 X4 X5 X6⟩,
    ⟨main_v519, Read.val_main_v519 (F := F) X0 X1 X2 X3 X4 X5 X6⟩,
    ⟨main_v520, Read.val_main_v520 (F := F) X0 X1 X2 X3 X4 X5 X6⟩,
    ⟨main_v521, Read.val_main_v521 (F := F) X0 X1 X2 X3 X4 X5 X6⟩,
    ⟨main_v522, Read.val_main_v522 (F := F) X0 X1 X2 X3 X4 X5 X6⟩,
    ⟨main_v523, Read.val_main_v523 (F := F) X0 X1 X2 X3 X4 X5 X6⟩,
    ⟨main_v524, Read.val_main_v524 (F := F) X0 X1 X2 X3 X4 X5 X6⟩,
    ⟨main_v525, Read.val_main_v525 (F := F) X0 X1 X2 X3 X4 X5 X6⟩,
    ⟨main_v526, Read.val_main_v526 (F := F) X0 X1 X2 X3 X4 X5 X6⟩ ]
/-- The stages known after window 8, the newest first. -/
abbrev tbl_8 : List (Entry sig (Elt F)) := (ps_8 X0 X1 X2 X3 X4 X5 X6).reverse ++ tbl_7 X0 X1 X2 X3 X4 X5 X6
theorem up_8 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_7 X0 X1 X2 X3 X4 X5 X6) : e ∈ tbl_8 X0 X1 X2 X3 X4 X5 X6 := List.mem_append_right _ h
theorem in_8 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_8 X0 X1 X2 X3 X4 X5 X6).reverse[j]? = some e) : e ∈ tbl_8 X0 X1 X2 X3 X4 X5 X6 :=
  List.mem_append_left _ (List.mem_of_getElem? h)
set_option maxRecDepth 1000000 in
set_option maxHeartbeats 4000000 in
theorem chain_8 : Chain (tbl_7 X0 X1 X2 X3 X4 X5 X6) (7 + 484) (ops_8 (F := F)) (ps_8 X0 X1 X2 X3 X4 X5 X6) :=
  ⟨⟨rfl, rfl, fun W hg => (binary_result main_v465 main_v466 main_v467 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v465, Read.val_main_v465 (F := F) X0 X1 X2 X3 X4 X5 X6⟩ (List.mem_of_mem_drop (i := 0) (in_7 X0 X1 X2 X3 X4 X5 X6 (j := 1) rfl))) (hg ⟨main_v466, Read.val_main_v466 (F := F) X0 X1 X2 X3 X4 X5 X6⟩ (List.mem_of_mem_drop (i := 0) (in_7 X0 X1 X2 X3 X4 X5 X6 (j := 0) rfl))))⟩,
   ⟨rfl, rfl, fun W hg => (binary_result main_v30 main_v174 main_v468 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 1) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))) (hg ⟨main_v174, Read.val_main_v174 (F := F) X0 X1 X2 X3 X4 X5 X6⟩ (List.mem_of_mem_drop (i := 1) (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 52) rfl))))))))⟩,
   ⟨rfl, rfl, fun W hg => (binary_result main_v467 main_v468 main_v469 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v467, Read.val_main_v467 (F := F) X0 X1 X2 X3 X4 X5 X6⟩ (List.mem_of_getElem? (i := 1) rfl)) (hg ⟨main_v468, Read.val_main_v468 (F := F) X0 X1 X2 X3 X4 X5 X6⟩ (List.mem_of_getElem? (i := 0) rfl)))⟩,
   ⟨rfl, rfl, fun W hg => (binary_result main_v38 main_v424 main_v470 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 3) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))) (hg ⟨main_v424, Read.val_main_v424 (F := F) X0 X1 X2 X3 X4 X5 X6⟩ (List.mem_of_mem_drop (i := 3) (in_7 X0 X1 X2 X3 X4 X5 X6 (j := 42) rfl))))⟩,
   ⟨rfl, rfl, fun W hg => (binary_result main_v30 main_v174 main_v471 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 4) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))) (hg ⟨main_v174, Read.val_main_v174 (F := F) X0 X1 X2 X3 X4 X5 X6⟩ (List.mem_of_mem_drop (i := 4) (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 52) rfl))))))))⟩,
   ⟨rfl, rfl, fun W hg => (binary_result main_v470 main_v471 main_v472 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v470, Read.val_main_v470 (F := F) X0 X1 X2 X3 X4 X5 X6⟩ (List.mem_of_getElem? (i := 1) rfl)) (hg ⟨main_v471, Read.val_main_v471 (F := F) X0 X1 X2 X3 X4 X5 X6⟩ (List.mem_of_getElem? (i := 0) rfl)))⟩,
   ⟨rfl, rfl, fun W hg => (binary_result main_v44 main_v304 main_v473 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 6) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))) (hg ⟨main_v304, Read.val_main_v304 (F := F) X0 X1 X2 X3 X4 X5 X6⟩ (List.mem_of_mem_drop (i := 6) (up_7 X0 X1 X2 X3 X4 X5 X6 (up_6 X0 X1 X2 X3 X4 X5 X6 (in_5 X0 X1 X2 X3 X4 X5 X6 (j := 42) rfl))))))⟩,
   ⟨rfl, rfl, fun W hg => (binary_result main_v472 main_v473 main_v474 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v472, Read.val_main_v472 (F := F) X0 X1 X2 X3 X4 X5 X6⟩ (List.mem_of_getElem? (i := 1) rfl)) (hg ⟨main_v473, Read.val_main_v473 (F := F) X0 X1 X2 X3 X4 X5 X6⟩ (List.mem_of_getElem? (i := 0) rfl)))⟩,
   ⟨rfl, rfl, fun W hg => (binary_result main_v30 main_v334 main_v475 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 8) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))) (hg ⟨main_v334, Read.val_main_v334 (F := F) X0 X1 X2 X3 X4 X5 X6⟩ (List.mem_of_mem_drop (i := 8) (up_7 X0 X1 X2 X3 X4 X5 X6 (up_6 X0 X1 X2 X3 X4 X5 X6 (in_5 X0 X1 X2 X3 X4 X5 X6 (j := 12) rfl))))))⟩,
   ⟨rfl, rfl, fun W hg => (binary_result main_v34 main_v84 main_v476 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 9) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))) (hg ⟨main_v84, Read.val_main_v84 (F := F) X0 X1 X2 X3 X4 X5 X6⟩ (List.mem_of_mem_drop (i := 9) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 22) rfl))))))))))⟩,
   ⟨rfl, rfl, fun W hg => (binary_result main_v475 main_v476 main_v477 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v475, Read.val_main_v475 (F := F) X0 X1 X2 X3 X4 X5 X6⟩ (List.mem_of_getElem? (i := 1) rfl)) (hg ⟨main_v476, Read.val_main_v476 (F := F) X0 X1 X2 X3 X4 X5 X6⟩ (List.mem_of_getElem? (i := 0) rfl)))⟩,
   ⟨rfl, rfl, fun W hg => (binary_result main_v32 main_v99 main_v478 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 11) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))) (hg ⟨main_v99, Read.val_main_v99 (F := F) X0 X1 X2 X3 X4 X5 X6⟩ (List.mem_of_mem_drop (i := 11) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 7) rfl))))))))))⟩,
   ⟨rfl, rfl, fun W hg => (binary_result main_v477 main_v478 main_v479 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v477, Read.val_main_v477 (F := F) X0 X1 X2 X3 X4 X5 X6⟩ (List.mem_of_getElem? (i := 1) rfl)) (hg ⟨main_v478, Read.val_main_v478 (F := F) X0 X1 X2 X3 X4 X5 X6⟩ (List.mem_of_getElem? (i := 0) rfl)))⟩,
   ⟨rfl, rfl, fun W hg => (binary_result main_v32 main_v94 main_v480 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 13) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))) (hg ⟨main_v94, Read.val_main_v94 (F := F) X0 X1 X2 X3 X4 X5 X6⟩ (List.mem_of_mem_drop (i := 13) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 12) rfl))))))))))⟩,
   ⟨rfl, rfl, fun W hg => (binary_result main_v44 main_v30 main_v481 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 14) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))) (hg ⟨main_v30, Read.val_main_v30 (F := F) X0 X1 X2 X3 X4 X5 X6⟩ (List.mem_of_mem_drop (i := 14) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))⟩,
   ⟨rfl, rfl, fun W hg => (binary_result main_v480 main_v481 main_v482 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v480, Read.val_main_v480 (F := F) X0 X1 X2 X3 X4 X5 X6⟩ (List.mem_of_getElem? (i := 1) rfl)) (hg ⟨main_v481, Read.val_main_v481 (F := F) X0 X1 X2 X3 X4 X5 X6⟩ (List.mem_of_getElem? (i := 0) rfl)))⟩,
   ⟨rfl, rfl, fun W hg => (binary_result main_v38 main_v42 main_v483 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 16) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))) (hg ⟨main_v42, Read.val_main_v42 (F := F) X0 X1 X2 X3 X4 X5 X6⟩ (List.mem_of_mem_drop (i := 16) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))⟩,
   ⟨rfl, rfl, fun W hg => (binary_result main_v482 main_v483 main_v484 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v482, Read.val_main_v482 (F := F) X0 X1 X2 X3 X4 X5 X6⟩ (List.mem_of_getElem? (i := 1) rfl)) (hg ⟨main_v483, Read.val_main_v483 (F := F) X0 X1 X2 X3 X4 X5 X6⟩ (List.mem_of_getElem? (i := 0) rfl)))⟩,
   ⟨rfl, rfl, fun W hg => (binary_result main_v40 main_v179 main_v485 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 18) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))) (hg ⟨main_v179, Read.val_main_v179 (F := F) X0 X1 X2 X3 X4 X5 X6⟩ (List.mem_of_mem_drop (i := 18) (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 47) rfl))))))))⟩,
   ⟨rfl, rfl, fun W hg => (binary_result main_v30 main_v164 main_v486 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 19) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))) (hg ⟨main_v164, Read.val_main_v164 (F := F) X0 X1 X2 X3 X4 X5 X6⟩ (List.mem_of_mem_drop (i := 19) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 2) rfl)))))))))⟩,
   ⟨rfl, rfl, fun W hg => (binary_result main_v485 main_v486 main_v487 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v485, Read.val_main_v485 (F := F) X0 X1 X2 X3 X4 X5 X6⟩ (List.mem_of_getElem? (i := 1) rfl)) (hg ⟨main_v486, Read.val_main_v486 (F := F) X0 X1 X2 X3 X4 X5 X6⟩ (List.mem_of_getElem? (i := 0) rfl)))⟩,
   ⟨rfl, rfl, fun W hg => (binary_result main_v44 main_v429 main_v488 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 21) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))) (hg ⟨main_v429, Read.val_main_v429 (F := F) X0 X1 X2 X3 X4 X5 X6⟩ (List.mem_of_mem_drop (i := 21) (in_7 X0 X1 X2 X3 X4 X5 X6 (j := 37) rfl))))⟩,
   ⟨rfl, rfl, fun W hg => (binary_result main_v487 main_v488 main_v489 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v487, Read.val_main_v487 (F := F) X0 X1 X2 X3 X4 X5 X6⟩ (List.mem_of_getElem? (i := 1) rfl)) (hg ⟨main_v488, Read.val_main_v488 (F := F) X0 X1 X2 X3 X4 X5 X6⟩ (List.mem_of_getElem? (i := 0) rfl)))⟩,
   ⟨rfl, rfl, fun W hg => (binary_result main_v36 main_v404 main_v490 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 23) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))) (hg ⟨main_v404, Read.val_main_v404 (F := F) X0 X1 X2 X3 X4 X5 X6⟩ (List.mem_of_mem_drop (i := 23) (up_7 X0 X1 X2 X3 X4 X5 X6 (in_6 X0 X1 X2 X3 X4 X5 X6 (j := 2) rfl)))))⟩,
   ⟨rfl, rfl, fun W hg => (binary_result main_v32 main_v32 main_v491 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 24) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))) (hg ⟨main_v32, Read.val_main_v32 (F := F) X0 X1 X2 X3 X4 X5 X6⟩ (List.mem_of_mem_drop (i := 24) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))⟩,
   ⟨rfl, rfl, fun W hg => (binary_result main_v490 main_v491 main_v492 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v490, Read.val_main_v490 (F := F) X0 X1 X2 X3 X4 X5 X6⟩ (List.mem_of_getElem? (i := 1) rfl)) (hg ⟨main_v491, Read.val_main_v491 (F := F) X0 X1 X2 X3 X4 X5 X6⟩ (List.mem_of_getElem? (i := 0) rfl)))⟩,
   ⟨rfl, rfl, fun W hg => (binary_result main_v40 main_v374 main_v493 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 26) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))) (hg ⟨main_v374, Read.val_main_v374 (F := F) X0 X1 X2 X3 X4 X5 X6⟩ (List.mem_of_mem_drop (i := 26) (up_7 X0 X1 X2 X3 X4 X5 X6 (in_6 X0 X1 X2 X3 X4 X5 X6 (j := 32) rfl)))))⟩,
   ⟨rfl, rfl, fun W hg => (binary_result main_v492 main_v493 main_v494 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v492, Read.val_main_v492 (F := F) X0 X1 X2 X3 X4 X5 X6⟩ (List.mem_of_getElem? (i := 1) rfl)) (hg ⟨main_v493, Read.val_main_v493 (F := F) X0 X1 X2 X3 X4 X5 X6⟩ (List.mem_of_getElem? (i := 0) rfl)))⟩,
   ⟨rfl, rfl, fun W hg => (binary_result main_v26 main_v76 main_v495 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 28) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))) (hg ⟨main_v76, Read.val_main_v76 (F := F) X0 X1 X2 X3 X4 X5 X6⟩ (List.mem_of_mem_drop (i := 28) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 32) rfl))))))))))⟩,
   ⟨rfl, rfl, fun W hg => (binary_result main_v42 main_v494 main_v496 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 29) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))) (hg ⟨main_v494, Read.val_main_v494 (F := F) X0 X1 X2 X3 X4 X5 X6⟩ (List.mem_of_getElem? (i := 1) rfl)))⟩,
   ⟨rfl, rfl, fun W hg => (binary_result main_v495 main_v496 main_v497 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v495, Read.val_main_v495 (F := F) X0 X1 X2 X3 X4 X5 X6⟩ (List.mem_of_getElem? (i := 1) rfl)) (hg ⟨main_v496, Read.val_main_v496 (F := F) X0 X1 X2 X3 X4 X5 X6⟩ (List.mem_of_getElem? (i := 0) rfl)))⟩,
   ⟨rfl, rfl, fun W hg => (binary_result main_v32 main_v434 main_v498 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 31) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))) (hg ⟨main_v434, Read.val_main_v434 (F := F) X0 X1 X2 X3 X4 X5 X6⟩ (List.mem_of_mem_drop (i := 31) (in_7 X0 X1 X2 X3 X4 X5 X6 (j := 32) rfl))))⟩,
   ⟨rfl, rfl, fun W hg => (binary_result main_v497 main_v498 main_v499 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v497, Read.val_main_v497 (F := F) X0 X1 X2 X3 X4 X5 X6⟩ (List.mem_of_getElem? (i := 1) rfl)) (hg ⟨main_v498, Read.val_main_v498 (F := F) X0 X1 X2 X3 X4 X5 X6⟩ (List.mem_of_getElem? (i := 0) rfl)))⟩,
   ⟨rfl, rfl, fun W hg => (binary_result main_v26 main_v84 main_v500 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 33) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))) (hg ⟨main_v84, Read.val_main_v84 (F := F) X0 X1 X2 X3 X4 X5 X6⟩ (List.mem_of_mem_drop (i := 33) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 22) rfl))))))))))⟩,
   ⟨rfl, rfl, fun W hg => (binary_result main_v28 main_v52 main_v501 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 34) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))) (hg ⟨main_v52, Read.val_main_v52 (F := F) X0 X1 X2 X3 X4 X5 X6⟩ (List.mem_of_mem_drop (i := 34) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 2) rfl)))))))))))⟩,
   ⟨rfl, rfl, fun W hg => (binary_result main_v500 main_v501 main_v502 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v500, Read.val_main_v500 (F := F) X0 X1 X2 X3 X4 X5 X6⟩ (List.mem_of_getElem? (i := 1) rfl)) (hg ⟨main_v501, Read.val_main_v501 (F := F) X0 X1 X2 X3 X4 X5 X6⟩ (List.mem_of_getElem? (i := 0) rfl)))⟩,
   ⟨rfl, rfl, fun W hg => (binary_result main_v42 main_v474 main_v503 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 36) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))) (hg ⟨main_v474, Read.val_main_v474 (F := F) X0 X1 X2 X3 X4 X5 X6⟩ (List.mem_of_getElem? (i := 28) rfl)))⟩,
   ⟨rfl, rfl, fun W hg => (binary_result main_v502 main_v503 main_v504 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v502, Read.val_main_v502 (F := F) X0 X1 X2 X3 X4 X5 X6⟩ (List.mem_of_getElem? (i := 1) rfl)) (hg ⟨main_v503, Read.val_main_v503 (F := F) X0 X1 X2 X3 X4 X5 X6⟩ (List.mem_of_getElem? (i := 0) rfl)))⟩,
   ⟨rfl, rfl, fun W hg => (binary_result main_v34 main_v72 main_v505 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 38) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))) (hg ⟨main_v72, Read.val_main_v72 (F := F) X0 X1 X2 X3 X4 X5 X6⟩ (List.mem_of_mem_drop (i := 38) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 37) rfl))))))))))⟩,
   ⟨rfl, rfl, fun W hg => (binary_result main_v32 main_v104 main_v506 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 39) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))) (hg ⟨main_v104, Read.val_main_v104 (F := F) X0 X1 X2 X3 X4 X5 X6⟩ (List.mem_of_mem_drop (i := 39) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 2) rfl))))))))))⟩,
   ⟨rfl, rfl, fun W hg => (binary_result main_v505 main_v506 main_v507 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v505, Read.val_main_v505 (F := F) X0 X1 X2 X3 X4 X5 X6⟩ (List.mem_of_getElem? (i := 1) rfl)) (hg ⟨main_v506, Read.val_main_v506 (F := F) X0 X1 X2 X3 X4 X5 X6⟩ (List.mem_of_getElem? (i := 0) rfl)))⟩,
   ⟨rfl, rfl, fun W hg => (binary_result main_v30 main_v439 main_v508 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 41) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))) (hg ⟨main_v439, Read.val_main_v439 (F := F) X0 X1 X2 X3 X4 X5 X6⟩ (List.mem_of_mem_drop (i := 41) (in_7 X0 X1 X2 X3 X4 X5 X6 (j := 27) rfl))))⟩,
   ⟨rfl, rfl, fun W hg => (binary_result main_v507 main_v508 main_v509 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v507, Read.val_main_v507 (F := F) X0 X1 X2 X3 X4 X5 X6⟩ (List.mem_of_getElem? (i := 1) rfl)) (hg ⟨main_v508, Read.val_main_v508 (F := F) X0 X1 X2 X3 X4 X5 X6⟩ (List.mem_of_getElem? (i := 0) rfl)))⟩,
   ⟨rfl, rfl, fun W hg => (binary_result main_v26 main_v244 main_v510 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 43) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))) (hg ⟨main_v244, Read.val_main_v244 (F := F) X0 X1 X2 X3 X4 X5 X6⟩ (List.mem_of_mem_drop (i := 43) (up_7 X0 X1 X2 X3 X4 X5 X6 (up_6 X0 X1 X2 X3 X4 X5 X6 (up_5 X0 X1 X2 X3 X4 X5 X6 (in_4 X0 X1 X2 X3 X4 X5 X6 (j := 42) rfl)))))))⟩,
   ⟨rfl, rfl, fun W hg => (binary_result main_v38 main_v499 main_v511 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 44) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))) (hg ⟨main_v499, Read.val_main_v499 (F := F) X0 X1 X2 X3 X4 X5 X6⟩ (List.mem_of_getElem? (i := 11) rfl)))⟩,
   ⟨rfl, rfl, fun W hg => (binary_result main_v510 main_v511 main_v512 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v510, Read.val_main_v510 (F := F) X0 X1 X2 X3 X4 X5 X6⟩ (List.mem_of_getElem? (i := 1) rfl)) (hg ⟨main_v511, Read.val_main_v511 (F := F) X0 X1 X2 X3 X4 X5 X6⟩ (List.mem_of_getElem? (i := 0) rfl)))⟩,
   ⟨rfl, rfl, fun W hg => (binary_result main_v42 main_v244 main_v513 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 46) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))) (hg ⟨main_v244, Read.val_main_v244 (F := F) X0 X1 X2 X3 X4 X5 X6⟩ (List.mem_of_mem_drop (i := 46) (up_7 X0 X1 X2 X3 X4 X5 X6 (up_6 X0 X1 X2 X3 X4 X5 X6 (up_5 X0 X1 X2 X3 X4 X5 X6 (in_4 X0 X1 X2 X3 X4 X5 X6 (j := 42) rfl)))))))⟩,
   ⟨rfl, rfl, fun W hg => (binary_result main_v512 main_v513 main_v514 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v512, Read.val_main_v512 (F := F) X0 X1 X2 X3 X4 X5 X6⟩ (List.mem_of_getElem? (i := 1) rfl)) (hg ⟨main_v513, Read.val_main_v513 (F := F) X0 X1 X2 X3 X4 X5 X6⟩ (List.mem_of_getElem? (i := 0) rfl)))⟩,
   ⟨rfl, rfl, fun W hg => (binary_result main_v34 main_v329 main_v515 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 48) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))) (hg ⟨main_v329, Read.val_main_v329 (F := F) X0 X1 X2 X3 X4 X5 X6⟩ (List.mem_of_mem_drop (i := 48) (up_7 X0 X1 X2 X3 X4 X5 X6 (up_6 X0 X1 X2 X3 X4 X5 X6 (in_5 X0 X1 X2 X3 X4 X5 X6 (j := 17) rfl))))))⟩,
   ⟨rfl, rfl, fun W hg => (binary_result main_v42 main_v419 main_v516 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 49) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))) (hg ⟨main_v419, Read.val_main_v419 (F := F) X0 X1 X2 X3 X4 X5 X6⟩ (List.mem_of_mem_drop (i := 49) (in_7 X0 X1 X2 X3 X4 X5 X6 (j := 47) rfl))))⟩,
   ⟨rfl, rfl, fun W hg => (binary_result main_v515 main_v516 main_v517 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v515, Read.val_main_v515 (F := F) X0 X1 X2 X3 X4 X5 X6⟩ (List.mem_of_getElem? (i := 1) rfl)) (hg ⟨main_v516, Read.val_main_v516 (F := F) X0 X1 X2 X3 X4 X5 X6⟩ (List.mem_of_getElem? (i := 0) rfl)))⟩,
   ⟨rfl, rfl, fun W hg => (binary_result main_v26 main_v274 main_v518 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 51) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))) (hg ⟨main_v274, Read.val_main_v274 (F := F) X0 X1 X2 X3 X4 X5 X6⟩ (List.mem_of_mem_drop (i := 51) (up_7 X0 X1 X2 X3 X4 X5 X6 (up_6 X0 X1 X2 X3 X4 X5 X6 (up_5 X0 X1 X2 X3 X4 X5 X6 (in_4 X0 X1 X2 X3 X4 X5 X6 (j := 12) rfl)))))))⟩,
   ⟨rfl, rfl, fun W hg => (binary_result main_v517 main_v518 main_v519 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v517, Read.val_main_v517 (F := F) X0 X1 X2 X3 X4 X5 X6⟩ (List.mem_of_getElem? (i := 1) rfl)) (hg ⟨main_v518, Read.val_main_v518 (F := F) X0 X1 X2 X3 X4 X5 X6⟩ (List.mem_of_getElem? (i := 0) rfl)))⟩,
   ⟨rfl, rfl, fun W hg => (binary_result main_v44 main_v504 main_v520 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 53) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))) (hg ⟨main_v504, Read.val_main_v504 (F := F) X0 X1 X2 X3 X4 X5 X6⟩ (List.mem_of_getElem? (i := 15) rfl)))⟩,
   ⟨rfl, rfl, fun W hg => (binary_result main_v42 main_v304 main_v521 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 54) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))) (hg ⟨main_v304, Read.val_main_v304 (F := F) X0 X1 X2 X3 X4 X5 X6⟩ (List.mem_of_mem_drop (i := 54) (up_7 X0 X1 X2 X3 X4 X5 X6 (up_6 X0 X1 X2 X3 X4 X5 X6 (in_5 X0 X1 X2 X3 X4 X5 X6 (j := 42) rfl))))))⟩,
   ⟨rfl, rfl, fun W hg => (binary_result main_v520 main_v521 main_v522 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v520, Read.val_main_v520 (F := F) X0 X1 X2 X3 X4 X5 X6⟩ (List.mem_of_getElem? (i := 1) rfl)) (hg ⟨main_v521, Read.val_main_v521 (F := F) X0 X1 X2 X3 X4 X5 X6⟩ (List.mem_of_getElem? (i := 0) rfl)))⟩,
   ⟨rfl, rfl, fun W hg => (binary_result main_v26 main_v284 main_v523 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 56) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))) (hg ⟨main_v284, Read.val_main_v284 (F := F) X0 X1 X2 X3 X4 X5 X6⟩ (List.mem_of_mem_drop (i := 56) (up_7 X0 X1 X2 X3 X4 X5 X6 (up_6 X0 X1 X2 X3 X4 X5 X6 (up_5 X0 X1 X2 X3 X4 X5 X6 (in_4 X0 X1 X2 X3 X4 X5 X6 (j := 2) rfl)))))))⟩,
   ⟨rfl, rfl, fun W hg => (binary_result main_v522 main_v523 main_v524 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v522, Read.val_main_v522 (F := F) X0 X1 X2 X3 X4 X5 X6⟩ (List.mem_of_getElem? (i := 1) rfl)) (hg ⟨main_v523, Read.val_main_v523 (F := F) X0 X1 X2 X3 X4 X5 X6⟩ (List.mem_of_getElem? (i := 0) rfl)))⟩,
   ⟨rfl, rfl, fun W hg => (binary_result main_v32 main_v52 main_v525 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 58) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))) (hg ⟨main_v52, Read.val_main_v52 (F := F) X0 X1 X2 X3 X4 X5 X6⟩ (List.mem_of_mem_drop (i := 58) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 2) rfl)))))))))))⟩,
   ⟨rfl, rfl, fun W hg => (binary_result main_v42 main_v449 main_v526 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 59) (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))) (hg ⟨main_v449, Read.val_main_v449 (F := F) X0 X1 X2 X3 X4 X5 X6⟩ (List.mem_of_mem_drop (i := 59) (in_7 X0 X1 X2 X3 X4 X5 X6 (j := 17) rfl))))⟩,
   trivial⟩
theorem good_8 (W : Valuation τ sig (Elt F)) (hg : Good W (tbl_7 X0 X1 X2 X3 X4 X5 X6) (7 + 484)) :
    Good (after ops_8 W) (tbl_8 X0 X1 X2 X3 X4 X5 X6) (7 + 544) :=
  Good.after _ _ _ _ W hg (chain_8 X0 X1 X2 X3 X4 X5 X6)

theorem part_eq_9 (c : Dev nD) : main_part9 (F := F) c = seq ops_9 := rfl
theorem fresh_9 : (ops_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 9's operations write, in order. -/
abbrev ps_9 : List (Entry sig (Elt F)) :=
  [ ⟨main_v527, Read.val_main_v527 (F := F) X0 X1 X2 X3 X4 X5 X6⟩,
    ⟨main_v528, Read.val_main_v528 (F := F) X0 X1 X2 X3 X4 X5 X6⟩,
    ⟨main_v529, Read.val_main_v529 (F := F) X0 X1 X2 X3 X4 X5 X6⟩,
    ⟨main_v530, Read.val_main_v530 (F := F) X0 X1 X2 X3 X4 X5 X6⟩,
    ⟨main_v531, Read.val_main_v531 (F := F) X0 X1 X2 X3 X4 X5 X6⟩,
    ⟨main_v532, Read.val_main_v532 (F := F) X0 X1 X2 X3 X4 X5 X6⟩,
    ⟨main_v533, Read.val_main_v533 (F := F) X0 X1 X2 X3 X4 X5 X6⟩,
    ⟨main_v534, Read.val_main_v534 (F := F) X0 X1 X2 X3 X4 X5 X6⟩,
    ⟨main_v535, Read.val_main_v535 (F := F) X0 X1 X2 X3 X4 X5 X6⟩,
    ⟨main_v536, Read.val_main_v536 (F := F) X0 X1 X2 X3 X4 X5 X6⟩,
    ⟨main_v537, Read.val_main_v537 (F := F) X0 X1 X2 X3 X4 X5 X6⟩,
    ⟨main_v538, Read.val_main_v538 (F := F) X0 X1 X2 X3 X4 X5 X6⟩,
    ⟨main_v539, Read.val_main_v539 (F := F) X0 X1 X2 X3 X4 X5 X6⟩,
    ⟨main_v540, Read.val_main_v540 (F := F) X0 X1 X2 X3 X4 X5 X6⟩,
    ⟨main_v541, Read.val_main_v541 (F := F) X0 X1 X2 X3 X4 X5 X6⟩,
    ⟨main_v542, Read.val_main_v542 (F := F) X0 X1 X2 X3 X4 X5 X6⟩,
    ⟨main_v543, Read.val_main_v543 (F := F) X0 X1 X2 X3 X4 X5 X6⟩,
    ⟨main_v544, Read.val_main_v544 (F := F) X0 X1 X2 X3 X4 X5 X6⟩,
    ⟨main_v545, Read.val_main_v545 (F := F) X0 X1 X2 X3 X4 X5 X6⟩,
    ⟨main_v546, Read.val_main_v546 (F := F) X0 X1 X2 X3 X4 X5 X6⟩,
    ⟨main_v547, Read.val_main_v547 (F := F) X0 X1 X2 X3 X4 X5 X6⟩,
    ⟨main_v548, Read.val_main_v548 (F := F) X0 X1 X2 X3 X4 X5 X6⟩,
    ⟨main_v549, Read.val_main_v549 (F := F) X0 X1 X2 X3 X4 X5 X6⟩,
    ⟨main_v550, Read.val_main_v550 (F := F) X0 X1 X2 X3 X4 X5 X6⟩,
    ⟨main_v551, Read.val_main_v551 (F := F) X0 X1 X2 X3 X4 X5 X6⟩,
    ⟨main_v552, Read.val_main_v552 (F := F) X0 X1 X2 X3 X4 X5 X6⟩,
    ⟨main_v553, Read.val_main_v553 (F := F) X0 X1 X2 X3 X4 X5 X6⟩,
    ⟨main_v554, Read.val_main_v554 (F := F) X0 X1 X2 X3 X4 X5 X6⟩,
    ⟨main_v555, Read.val_main_v555 (F := F) X0 X1 X2 X3 X4 X5 X6⟩,
    ⟨main_v556, Read.val_main_v556 (F := F) X0 X1 X2 X3 X4 X5 X6⟩,
    ⟨main_v557, Read.val_main_v557 (F := F) X0 X1 X2 X3 X4 X5 X6⟩,
    ⟨main_v558, Read.val_main_v558 (F := F) X0 X1 X2 X3 X4 X5 X6⟩,
    ⟨main_v559, Read.val_main_v559 (F := F) X0 X1 X2 X3 X4 X5 X6⟩,
    ⟨main_v560, Read.val_main_v560 (F := F) X0 X1 X2 X3 X4 X5 X6⟩,
    ⟨main_v561, Read.val_main_v561 (F := F) X0 X1 X2 X3 X4 X5 X6⟩,
    ⟨main_v562, Read.val_main_v562 (F := F) X0 X1 X2 X3 X4 X5 X6⟩,
    ⟨main_v563, Read.val_main_v563 (F := F) X0 X1 X2 X3 X4 X5 X6⟩,
    ⟨main_v564, Read.val_main_v564 (F := F) X0 X1 X2 X3 X4 X5 X6⟩,
    ⟨main_v565, Read.val_main_v565 (F := F) X0 X1 X2 X3 X4 X5 X6⟩,
    ⟨main_v566, Read.val_main_v566 (F := F) X0 X1 X2 X3 X4 X5 X6⟩,
    ⟨main_v567, Read.val_main_v567 (F := F) X0 X1 X2 X3 X4 X5 X6⟩,
    ⟨main_v568, Read.val_main_v568 (F := F) X0 X1 X2 X3 X4 X5 X6⟩,
    ⟨main_v569, Read.val_main_v569 (F := F) X0 X1 X2 X3 X4 X5 X6⟩,
    ⟨main_v570, Read.val_main_v570 (F := F) X0 X1 X2 X3 X4 X5 X6⟩,
    ⟨main_v571, Read.val_main_v571 (F := F) X0 X1 X2 X3 X4 X5 X6⟩,
    ⟨main_v572, Read.val_main_v572 (F := F) X0 X1 X2 X3 X4 X5 X6⟩,
    ⟨main_v573, Read.val_main_v573 (F := F) X0 X1 X2 X3 X4 X5 X6⟩,
    ⟨main_v574, Read.val_main_v574 (F := F) X0 X1 X2 X3 X4 X5 X6⟩,
    ⟨main_v575, Read.val_main_v575 (F := F) X0 X1 X2 X3 X4 X5 X6⟩,
    ⟨main_v576, Read.val_main_v576 (F := F) X0 X1 X2 X3 X4 X5 X6⟩,
    ⟨main_v577, Read.val_main_v577 (F := F) X0 X1 X2 X3 X4 X5 X6⟩,
    ⟨main_v578, Read.val_main_v578 (F := F) X0 X1 X2 X3 X4 X5 X6⟩,
    ⟨main_v579, Read.val_main_v579 (F := F) X0 X1 X2 X3 X4 X5 X6⟩,
    ⟨main_v580, Read.val_main_v580 (F := F) X0 X1 X2 X3 X4 X5 X6⟩,
    ⟨main_v581, Read.val_main_v581 (F := F) X0 X1 X2 X3 X4 X5 X6⟩,
    ⟨main_v582, Read.val_main_v582 (F := F) X0 X1 X2 X3 X4 X5 X6⟩,
    ⟨main_v583, Read.val_main_v583 (F := F) X0 X1 X2 X3 X4 X5 X6⟩,
    ⟨main_v584, Read.val_main_v584 (F := F) X0 X1 X2 X3 X4 X5 X6⟩,
    ⟨main_v585, Read.val_main_v585 (F := F) X0 X1 X2 X3 X4 X5 X6⟩,
    ⟨main_v586, Read.val_main_v586 (F := F) X0 X1 X2 X3 X4 X5 X6⟩ ]
/-- The stages known after window 9, the newest first. -/
abbrev tbl_9 : List (Entry sig (Elt F)) := (ps_9 X0 X1 X2 X3 X4 X5 X6).reverse ++ tbl_8 X0 X1 X2 X3 X4 X5 X6
theorem up_9 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_8 X0 X1 X2 X3 X4 X5 X6) : e ∈ tbl_9 X0 X1 X2 X3 X4 X5 X6 := List.mem_append_right _ h
theorem in_9 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_9 X0 X1 X2 X3 X4 X5 X6).reverse[j]? = some e) : e ∈ tbl_9 X0 X1 X2 X3 X4 X5 X6 :=
  List.mem_append_left _ (List.mem_of_getElem? h)
set_option maxRecDepth 1000000 in
set_option maxHeartbeats 4000000 in
theorem chain_9 : Chain (tbl_8 X0 X1 X2 X3 X4 X5 X6) (7 + 544) (ops_9 (F := F)) (ps_9 X0 X1 X2 X3 X4 X5 X6) :=
  ⟨⟨rfl, rfl, fun W hg => (binary_result main_v525 main_v526 main_v527 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v525, Read.val_main_v525 (F := F) X0 X1 X2 X3 X4 X5 X6⟩ (List.mem_of_mem_drop (i := 0) (in_8 X0 X1 X2 X3 X4 X5 X6 (j := 1) rfl))) (hg ⟨main_v526, Read.val_main_v526 (F := F) X0 X1 X2 X3 X4 X5 X6⟩ (List.mem_of_mem_drop (i := 0) (in_8 X0 X1 X2 X3 X4 X5 X6 (j := 0) rfl))))⟩,
   ⟨rfl, rfl, fun W hg => (binary_result main_v38 main_v244 main_v528 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 1) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))) (hg ⟨main_v244, Read.val_main_v244 (F := F) X0 X1 X2 X3 X4 X5 X6⟩ (List.mem_of_mem_drop (i := 1) (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 42) rfl))))))))⟩,
   ⟨rfl, rfl, fun W hg => (binary_result main_v527 main_v528 main_v529 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v527, Read.val_main_v527 (F := F) X0 X1 X2 X3 X4 X5 X6⟩ (List.mem_of_getElem? (i := 1) rfl)) (hg ⟨main_v528, Read.val_main_v528 (F := F) X0 X1 X2 X3 X4 X5 X6⟩ (List.mem_of_getElem? (i := 0) rfl)))⟩,
   ⟨rfl, rfl, fun W hg => (binary_result main_v38 main_v414 main_v530 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 3) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))) (hg ⟨main_v414, Read.val_main_v414 (F := F) X0 X1 X2 X3 X4 X5 X6⟩ (List.mem_of_mem_drop (i := 3) (up_8 X0 X1 X2 X3 X4 X5 X6 (in_7 X0 X1 X2 X3 X4 X5 X6 (j := 52) rfl)))))⟩,
   ⟨rfl, rfl, fun W hg => (binary_result main_v36 main_v379 main_v531 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 4) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))) (hg ⟨main_v379, Read.val_main_v379 (F := F) X0 X1 X2 X3 X4 X5 X6⟩ (List.mem_of_mem_drop (i := 4) (up_8 X0 X1 X2 X3 X4 X5 X6 (up_7 X0 X1 X2 X3 X4 X5 X6 (in_6 X0 X1 X2 X3 X4 X5 X6 (j := 27) rfl))))))⟩,
   ⟨rfl, rfl, fun W hg => (binary_result main_v530 main_v531 main_v532 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v530, Read.val_main_v530 (F := F) X0 X1 X2 X3 X4 X5 X6⟩ (List.mem_of_getElem? (i := 1) rfl)) (hg ⟨main_v531, Read.val_main_v531 (F := F) X0 X1 X2 X3 X4 X5 X6⟩ (List.mem_of_getElem? (i := 0) rfl)))⟩,
   ⟨rfl, rfl, fun W hg => (binary_result main_v34 main_v314 main_v533 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 6) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))) (hg ⟨main_v314, Read.val_main_v314 (F := F) X0 X1 X2 X3 X4 X5 X6⟩ (List.mem_of_mem_drop (i := 6) (up_8 X0 X1 X2 X3 X4 X5 X6 (up_7 X0 X1 X2 X3 X4 X5 X6 (up_6 X0 X1 X2 X3 X4 X5 X6 (in_5 X0 X1 X2 X3 X4 X5 X6 (j := 32) rfl)))))))⟩,
   ⟨rfl, rfl, fun W hg => (binary_result main_v532 main_v533 main_v534 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v532, Read.val_main_v532 (F := F) X0 X1 X2 X3 X4 X5 X6⟩ (List.mem_of_getElem? (i := 1) rfl)) (hg ⟨main_v533, Read.val_main_v533 (F := F) X0 X1 X2 X3 X4 X5 X6⟩ (List.mem_of_getElem? (i := 0) rfl)))⟩,
   ⟨rfl, rfl, fun W hg => (binary_result main_v42 main_v28 main_v535 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 8) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))) (hg ⟨main_v28, Read.val_main_v28 (F := F) X0 X1 X2 X3 X4 X5 X6⟩ (List.mem_of_mem_drop (i := 8) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))⟩,
   ⟨rfl, rfl, fun W hg => (binary_result main_v26 main_v72 main_v536 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 9) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))) (hg ⟨main_v72, Read.val_main_v72 (F := F) X0 X1 X2 X3 X4 X5 X6⟩ (List.mem_of_mem_drop (i := 9) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 37) rfl)))))))))))⟩,
   ⟨rfl, rfl, fun W hg => (binary_result main_v535 main_v536 main_v537 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v535, Read.val_main_v535 (F := F) X0 X1 X2 X3 X4 X5 X6⟩ (List.mem_of_getElem? (i := 1) rfl)) (hg ⟨main_v536, Read.val_main_v536 (F := F) X0 X1 X2 X3 X4 X5 X6⟩ (List.mem_of_getElem? (i := 0) rfl)))⟩,
   ⟨rfl, rfl, fun W hg => (binary_result main_v34 main_v154 main_v538 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 11) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))) (hg ⟨main_v154, Read.val_main_v154 (F := F) X0 X1 X2 X3 X4 X5 X6⟩ (List.mem_of_mem_drop (i := 11) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 12) rfl))))))))))⟩,
   ⟨rfl, rfl, fun W hg => (binary_result main_v537 main_v538 main_v539 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v537, Read.val_main_v537 (F := F) X0 X1 X2 X3 X4 X5 X6⟩ (List.mem_of_getElem? (i := 1) rfl)) (hg ⟨main_v538, Read.val_main_v538 (F := F) X0 X1 X2 X3 X4 X5 X6⟩ (List.mem_of_getElem? (i := 0) rfl)))⟩,
   ⟨rfl, rfl, fun W hg => (binary_result main_v44 main_v104 main_v540 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 13) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))) (hg ⟨main_v104, Read.val_main_v104 (F := F) X0 X1 X2 X3 X4 X5 X6⟩ (List.mem_of_mem_drop (i := 13) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 2) rfl)))))))))))⟩,
   ⟨rfl, rfl, fun W hg => (binary_result main_v42 main_v329 main_v541 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 14) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))) (hg ⟨main_v329, Read.val_main_v329 (F := F) X0 X1 X2 X3 X4 X5 X6⟩ (List.mem_of_mem_drop (i := 14) (up_8 X0 X1 X2 X3 X4 X5 X6 (up_7 X0 X1 X2 X3 X4 X5 X6 (up_6 X0 X1 X2 X3 X4 X5 X6 (in_5 X0 X1 X2 X3 X4 X5 X6 (j := 17) rfl)))))))⟩,
   ⟨rfl, rfl, fun W hg => (binary_result main_v540 main_v541 main_v542 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v540, Read.val_main_v540 (F := F) X0 X1 X2 X3 X4 X5 X6⟩ (List.mem_of_getElem? (i := 1) rfl)) (hg ⟨main_v541, Read.val_main_v541 (F := F) X0 X1 X2 X3 X4 X5 X6⟩ (List.mem_of_getElem? (i := 0) rfl)))⟩,
   ⟨rfl, rfl, fun W hg => (binary_result main_v34 main_v144 main_v543 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 16) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))) (hg ⟨main_v144, Read.val_main_v144 (F := F) X0 X1 X2 X3 X4 X5 X6⟩ (List.mem_of_mem_drop (i := 16) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 22) rfl))))))))))⟩,
   ⟨rfl, rfl, fun W hg => (binary_result main_v542 main_v543 main_v544 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v542, Read.val_main_v542 (F := F) X0 X1 X2 X3 X4 X5 X6⟩ (List.mem_of_getElem? (i := 1) rfl)) (hg ⟨main_v543, Read.val_main_v543 (F := F) X0 X1 X2 X3 X4 X5 X6⟩ (List.mem_of_getElem? (i := 0) rfl)))⟩,
   ⟨rfl, rfl, fun W hg => (binary_result main_v30 main_v514 main_v545 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 18) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))) (hg ⟨main_v514, Read.val_main_v514 (F := F) X0 X1 X2 X3 X4 X5 X6⟩ (List.mem_of_mem_drop (i := 18) (in_8 X0 X1 X2 X3 X4 X5 X6 (j := 12) rfl))))⟩,
   ⟨rfl, rfl, fun W hg => (binary_result main_v40 main_v389 main_v546 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 19) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))) (hg ⟨main_v389, Read.val_main_v389 (F := F) X0 X1 X2 X3 X4 X5 X6⟩ (List.mem_of_mem_drop (i := 19) (up_8 X0 X1 X2 X3 X4 X5 X6 (up_7 X0 X1 X2 X3 X4 X5 X6 (in_6 X0 X1 X2 X3 X4 X5 X6 (j := 17) rfl))))))⟩,
   ⟨rfl, rfl, fun W hg => (binary_result main_v545 main_v546 main_v547 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v545, Read.val_main_v545 (F := F) X0 X1 X2 X3 X4 X5 X6⟩ (List.mem_of_getElem? (i := 1) rfl)) (hg ⟨main_v546, Read.val_main_v546 (F := F) X0 X1 X2 X3 X4 X5 X6⟩ (List.mem_of_getElem? (i := 0) rfl)))⟩,
   ⟨rfl, rfl, fun W hg => (binary_result main_v34 main_v339 main_v548 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 21) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))) (hg ⟨main_v339, Read.val_main_v339 (F := F) X0 X1 X2 X3 X4 X5 X6⟩ (List.mem_of_mem_drop (i := 21) (up_8 X0 X1 X2 X3 X4 X5 X6 (up_7 X0 X1 X2 X3 X4 X5 X6 (up_6 X0 X1 X2 X3 X4 X5 X6 (in_5 X0 X1 X2 X3 X4 X5 X6 (j := 7) rfl)))))))⟩,
   ⟨rfl, rfl, fun W hg => (binary_result main_v547 main_v548 main_v549 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v547, Read.val_main_v547 (F := F) X0 X1 X2 X3 X4 X5 X6⟩ (List.mem_of_getElem? (i := 1) rfl)) (hg ⟨main_v548, Read.val_main_v548 (F := F) X0 X1 X2 X3 X4 X5 X6⟩ (List.mem_of_getElem? (i := 0) rfl)))⟩,
   ⟨rfl, rfl, fun W hg => (binary_result main_v44 main_v274 main_v550 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 23) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))) (hg ⟨main_v274, Read.val_main_v274 (F := F) X0 X1 X2 X3 X4 X5 X6⟩ (List.mem_of_mem_drop (i := 23) (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 12) rfl))))))))⟩,
   ⟨rfl, rfl, fun W hg => (binary_result main_v42 main_v99 main_v551 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 24) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))) (hg ⟨main_v99, Read.val_main_v99 (F := F) X0 X1 X2 X3 X4 X5 X6⟩ (List.mem_of_mem_drop (i := 24) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 7) rfl)))))))))))⟩,
   ⟨rfl, rfl, fun W hg => (binary_result main_v550 main_v551 main_v552 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v550, Read.val_main_v550 (F := F) X0 X1 X2 X3 X4 X5 X6⟩ (List.mem_of_getElem? (i := 1) rfl)) (hg ⟨main_v551, Read.val_main_v551 (F := F) X0 X1 X2 X3 X4 X5 X6⟩ (List.mem_of_getElem? (i := 0) rfl)))⟩,
   ⟨rfl, rfl, fun W hg => (binary_result main_v34 main_v68 main_v553 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 26) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))) (hg ⟨main_v68, Read.val_main_v68 (F := F) X0 X1 X2 X3 X4 X5 X6⟩ (List.mem_of_mem_drop (i := 26) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 42) rfl)))))))))))⟩,
   ⟨rfl, rfl, fun W hg => (binary_result main_v552 main_v553 main_v554 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v552, Read.val_main_v552 (F := F) X0 X1 X2 X3 X4 X5 X6⟩ (List.mem_of_getElem? (i := 1) rfl)) (hg ⟨main_v553, Read.val_main_v553 (F := F) X0 X1 X2 X3 X4 X5 X6⟩ (List.mem_of_getElem? (i := 0) rfl)))⟩,
   ⟨rfl, rfl, fun W hg => (binary_result main_v32 main_v379 main_v555 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 28) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))) (hg ⟨main_v379, Read.val_main_v379 (F := F) X0 X1 X2 X3 X4 X5 X6⟩ (List.mem_of_mem_drop (i := 28) (up_8 X0 X1 X2 X3 X4 X5 X6 (up_7 X0 X1 X2 X3 X4 X5 X6 (in_6 X0 X1 X2 X3 X4 X5 X6 (j := 27) rfl))))))⟩,
   ⟨rfl, rfl, fun W hg => (binary_result main_v36 main_v89 main_v556 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 29) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))) (hg ⟨main_v89, Read.val_main_v89 (F := F) X0 X1 X2 X3 X4 X5 X6⟩ (List.mem_of_mem_drop (i := 29) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 17) rfl)))))))))))⟩,
   ⟨rfl, rfl, fun W hg => (binary_result main_v555 main_v556 main_v557 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v555, Read.val_main_v555 (F := F) X0 X1 X2 X3 X4 X5 X6⟩ (List.mem_of_getElem? (i := 1) rfl)) (hg ⟨main_v556, Read.val_main_v556 (F := F) X0 X1 X2 X3 X4 X5 X6⟩ (List.mem_of_getElem? (i := 0) rfl)))⟩,
   ⟨rfl, rfl, fun W hg => (binary_result main_v38 main_v344 main_v558 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 31) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))) (hg ⟨main_v344, Read.val_main_v344 (F := F) X0 X1 X2 X3 X4 X5 X6⟩ (List.mem_of_mem_drop (i := 31) (up_8 X0 X1 X2 X3 X4 X5 X6 (up_7 X0 X1 X2 X3 X4 X5 X6 (up_6 X0 X1 X2 X3 X4 X5 X6 (in_5 X0 X1 X2 X3 X4 X5 X6 (j := 2) rfl)))))))⟩,
   ⟨rfl, rfl, fun W hg => (binary_result main_v557 main_v558 main_v559 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v557, Read.val_main_v557 (F := F) X0 X1 X2 X3 X4 X5 X6⟩ (List.mem_of_getElem? (i := 1) rfl)) (hg ⟨main_v558, Read.val_main_v558 (F := F) X0 X1 X2 X3 X4 X5 X6⟩ (List.mem_of_getElem? (i := 0) rfl)))⟩,
   ⟨rfl, rfl, fun W hg => (binary_result main_v26 main_v464 main_v560 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 33) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))) (hg ⟨main_v464, Read.val_main_v464 (F := F) X0 X1 X2 X3 X4 X5 X6⟩ (List.mem_of_mem_drop (i := 33) (up_8 X0 X1 X2 X3 X4 X5 X6 (in_7 X0 X1 X2 X3 X4 X5 X6 (j := 2) rfl)))))⟩,
   ⟨rfl, rfl, fun W hg => (binary_result main_v38 main_v539 main_v561 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 34) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))) (hg ⟨main_v539, Read.val_main_v539 (F := F) X0 X1 X2 X3 X4 X5 X6⟩ (List.mem_of_getElem? (i := 21) rfl)))⟩,
   ⟨rfl, rfl, fun W hg => (binary_result main_v560 main_v561 main_v562 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v560, Read.val_main_v560 (F := F) X0 X1 X2 X3 X4 X5 X6⟩ (List.mem_of_getElem? (i := 1) rfl)) (hg ⟨main_v561, Read.val_main_v561 (F := F) X0 X1 X2 X3 X4 X5 X6⟩ (List.mem_of_getElem? (i := 0) rfl)))⟩,
   ⟨rfl, rfl, fun W hg => (binary_result main_v30 main_v399 main_v563 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 36) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))) (hg ⟨main_v399, Read.val_main_v399 (F := F) X0 X1 X2 X3 X4 X5 X6⟩ (List.mem_of_mem_drop (i := 36) (up_8 X0 X1 X2 X3 X4 X5 X6 (up_7 X0 X1 X2 X3 X4 X5 X6 (in_6 X0 X1 X2 X3 X4 X5 X6 (j := 7) rfl))))))⟩,
   ⟨rfl, rfl, fun W hg => (binary_result main_v562 main_v563 main_v564 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v562, Read.val_main_v562 (F := F) X0 X1 X2 X3 X4 X5 X6⟩ (List.mem_of_getElem? (i := 1) rfl)) (hg ⟨main_v563, Read.val_main_v563 (F := F) X0 X1 X2 X3 X4 X5 X6⟩ (List.mem_of_getElem? (i := 0) rfl)))⟩,
   ⟨rfl, rfl, fun W hg => (binary_result main_v32 main_v319 main_v565 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 38) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))) (hg ⟨main_v319, Read.val_main_v319 (F := F) X0 X1 X2 X3 X4 X5 X6⟩ (List.mem_of_mem_drop (i := 38) (up_8 X0 X1 X2 X3 X4 X5 X6 (up_7 X0 X1 X2 X3 X4 X5 X6 (up_6 X0 X1 X2 X3 X4 X5 X6 (in_5 X0 X1 X2 X3 X4 X5 X6 (j := 27) rfl)))))))⟩,
   ⟨rfl, rfl, fun W hg => (binary_result main_v44 main_v224 main_v566 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 39) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))) (hg ⟨main_v224, Read.val_main_v224 (F := F) X0 X1 X2 X3 X4 X5 X6⟩ (List.mem_of_mem_drop (i := 39) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 2) rfl)))))))))⟩,
   ⟨rfl, rfl, fun W hg => (binary_result main_v565 main_v566 main_v567 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v565, Read.val_main_v565 (F := F) X0 X1 X2 X3 X4 X5 X6⟩ (List.mem_of_getElem? (i := 1) rfl)) (hg ⟨main_v566, Read.val_main_v566 (F := F) X0 X1 X2 X3 X4 X5 X6⟩ (List.mem_of_getElem? (i := 0) rfl)))⟩,
   ⟨rfl, rfl, fun W hg => (binary_result main_v30 main_v76 main_v568 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 41) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))) (hg ⟨main_v76, Read.val_main_v76 (F := F) X0 X1 X2 X3 X4 X5 X6⟩ (List.mem_of_mem_drop (i := 41) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 32) rfl)))))))))))⟩,
   ⟨rfl, rfl, fun W hg => (binary_result main_v567 main_v568 main_v569 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v567, Read.val_main_v567 (F := F) X0 X1 X2 X3 X4 X5 X6⟩ (List.mem_of_getElem? (i := 1) rfl)) (hg ⟨main_v568, Read.val_main_v568 (F := F) X0 X1 X2 X3 X4 X5 X6⟩ (List.mem_of_getElem? (i := 0) rfl)))⟩,
   ⟨rfl, rfl, fun W hg => (binary_result main_v28 main_v94 main_v570 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 43) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))) (hg ⟨main_v94, Read.val_main_v94 (F := F) X0 X1 X2 X3 X4 X5 X6⟩ (List.mem_of_mem_drop (i := 43) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 12) rfl)))))))))))⟩,
   ⟨rfl, rfl, fun W hg => (binary_result main_v32 main_v159 main_v571 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 44) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))) (hg ⟨main_v159, Read.val_main_v159 (F := F) X0 X1 X2 X3 X4 X5 X6⟩ (List.mem_of_mem_drop (i := 44) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 7) rfl))))))))))⟩,
   ⟨rfl, rfl, fun W hg => (binary_result main_v570 main_v571 main_v572 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v570, Read.val_main_v570 (F := F) X0 X1 X2 X3 X4 X5 X6⟩ (List.mem_of_getElem? (i := 1) rfl)) (hg ⟨main_v571, Read.val_main_v571 (F := F) X0 X1 X2 X3 X4 X5 X6⟩ (List.mem_of_getElem? (i := 0) rfl)))⟩,
   ⟨rfl, rfl, fun W hg => (binary_result main_v40 main_v149 main_v573 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 46) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))) (hg ⟨main_v149, Read.val_main_v149 (F := F) X0 X1 X2 X3 X4 X5 X6⟩ (List.mem_of_mem_drop (i := 46) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 17) rfl))))))))))⟩,
   ⟨rfl, rfl, fun W hg => (binary_result main_v572 main_v573 main_v574 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v572, Read.val_main_v572 (F := F) X0 X1 X2 X3 X4 X5 X6⟩ (List.mem_of_getElem? (i := 1) rfl)) (hg ⟨main_v573, Read.val_main_v573 (F := F) X0 X1 X2 X3 X4 X5 X6⟩ (List.mem_of_getElem? (i := 0) rfl)))⟩,
   ⟨rfl, rfl, fun W hg => (binary_result main_v38 main_v494 main_v575 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 48) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))) (hg ⟨main_v494, Read.val_main_v494 (F := F) X0 X1 X2 X3 X4 X5 X6⟩ (List.mem_of_mem_drop (i := 48) (in_8 X0 X1 X2 X3 X4 X5 X6 (j := 32) rfl))))⟩,
   ⟨rfl, rfl, fun W hg => (binary_result main_v34 main_v459 main_v576 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 49) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))) (hg ⟨main_v459, Read.val_main_v459 (F := F) X0 X1 X2 X3 X4 X5 X6⟩ (List.mem_of_mem_drop (i := 49) (up_8 X0 X1 X2 X3 X4 X5 X6 (in_7 X0 X1 X2 X3 X4 X5 X6 (j := 7) rfl)))))⟩,
   ⟨rfl, rfl, fun W hg => (binary_result main_v575 main_v576 main_v577 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v575, Read.val_main_v575 (F := F) X0 X1 X2 X3 X4 X5 X6⟩ (List.mem_of_getElem? (i := 1) rfl)) (hg ⟨main_v576, Read.val_main_v576 (F := F) X0 X1 X2 X3 X4 X5 X6⟩ (List.mem_of_getElem? (i := 0) rfl)))⟩,
   ⟨rfl, rfl, fun W hg => (binary_result main_v28 main_v424 main_v578 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 51) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))) (hg ⟨main_v424, Read.val_main_v424 (F := F) X0 X1 X2 X3 X4 X5 X6⟩ (List.mem_of_mem_drop (i := 51) (up_8 X0 X1 X2 X3 X4 X5 X6 (in_7 X0 X1 X2 X3 X4 X5 X6 (j := 42) rfl)))))⟩,
   ⟨rfl, rfl, fun W hg => (binary_result main_v577 main_v578 main_v579 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v577, Read.val_main_v577 (F := F) X0 X1 X2 X3 X4 X5 X6⟩ (List.mem_of_getElem? (i := 1) rfl)) (hg ⟨main_v578, Read.val_main_v578 (F := F) X0 X1 X2 X3 X4 X5 X6⟩ (List.mem_of_getElem? (i := 0) rfl)))⟩,
   ⟨rfl, rfl, fun W hg => (binary_result main_v40 main_v76 main_v580 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 53) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))) (hg ⟨main_v76, Read.val_main_v76 (F := F) X0 X1 X2 X3 X4 X5 X6⟩ (List.mem_of_mem_drop (i := 53) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 32) rfl)))))))))))⟩,
   ⟨rfl, rfl, fun W hg => (binary_result main_v42 main_v189 main_v581 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 54) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))) (hg ⟨main_v189, Read.val_main_v189 (F := F) X0 X1 X2 X3 X4 X5 X6⟩ (List.mem_of_mem_drop (i := 54) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 37) rfl)))))))))⟩,
   ⟨rfl, rfl, fun W hg => (binary_result main_v580 main_v581 main_v582 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v580, Read.val_main_v580 (F := F) X0 X1 X2 X3 X4 X5 X6⟩ (List.mem_of_getElem? (i := 1) rfl)) (hg ⟨main_v581, Read.val_main_v581 (F := F) X0 X1 X2 X3 X4 X5 X6⟩ (List.mem_of_getElem? (i := 0) rfl)))⟩,
   ⟨rfl, rfl, fun W hg => (binary_result main_v26 main_v564 main_v583 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 56) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))) (hg ⟨main_v564, Read.val_main_v564 (F := F) X0 X1 X2 X3 X4 X5 X6⟩ (List.mem_of_getElem? (i := 18) rfl)))⟩,
   ⟨rfl, rfl, fun W hg => (binary_result main_v582 main_v583 main_v584 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v582, Read.val_main_v582 (F := F) X0 X1 X2 X3 X4 X5 X6⟩ (List.mem_of_getElem? (i := 1) rfl)) (hg ⟨main_v583, Read.val_main_v583 (F := F) X0 X1 X2 X3 X4 X5 X6⟩ (List.mem_of_getElem? (i := 0) rfl)))⟩,
   ⟨rfl, rfl, fun W hg => (binary_result main_v42 main_v324 main_v585 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 58) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))) (hg ⟨main_v324, Read.val_main_v324 (F := F) X0 X1 X2 X3 X4 X5 X6⟩ (List.mem_of_mem_drop (i := 58) (up_8 X0 X1 X2 X3 X4 X5 X6 (up_7 X0 X1 X2 X3 X4 X5 X6 (up_6 X0 X1 X2 X3 X4 X5 X6 (in_5 X0 X1 X2 X3 X4 X5 X6 (j := 22) rfl)))))))⟩,
   ⟨rfl, rfl, fun W hg => (binary_result main_v38 main_v344 main_v586 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 59) (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))) (hg ⟨main_v344, Read.val_main_v344 (F := F) X0 X1 X2 X3 X4 X5 X6⟩ (List.mem_of_mem_drop (i := 59) (up_8 X0 X1 X2 X3 X4 X5 X6 (up_7 X0 X1 X2 X3 X4 X5 X6 (up_6 X0 X1 X2 X3 X4 X5 X6 (in_5 X0 X1 X2 X3 X4 X5 X6 (j := 2) rfl)))))))⟩,
   trivial⟩
theorem good_9 (W : Valuation τ sig (Elt F)) (hg : Good W (tbl_8 X0 X1 X2 X3 X4 X5 X6) (7 + 544)) :
    Good (after ops_9 W) (tbl_9 X0 X1 X2 X3 X4 X5 X6) (7 + 604) :=
  Good.after _ _ _ _ W hg (chain_9 X0 X1 X2 X3 X4 X5 X6)

theorem part_eq_10 (c : Dev nD) : main_part10 (F := F) c = seq ops_10 := rfl
theorem fresh_10 : (ops_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 10's operations write, in order. -/
abbrev ps_10 : List (Entry sig (Elt F)) :=
  [ ⟨main_v587, Read.val_main_v587 (F := F) X0 X1 X2 X3 X4 X5 X6⟩,
    ⟨main_v588, Read.val_main_v588 (F := F) X0 X1 X2 X3 X4 X5 X6⟩,
    ⟨main_v589, Read.val_main_v589 (F := F) X0 X1 X2 X3 X4 X5 X6⟩,
    ⟨main_v590, Read.val_main_v590 (F := F) X0 X1 X2 X3 X4 X5 X6⟩,
    ⟨main_v591, Read.val_main_v591 (F := F) X0 X1 X2 X3 X4 X5 X6⟩,
    ⟨main_v592, Read.val_main_v592 (F := F) X0 X1 X2 X3 X4 X5 X6⟩,
    ⟨main_v593, Read.val_main_v593 (F := F) X0 X1 X2 X3 X4 X5 X6⟩,
    ⟨main_v594, Read.val_main_v594 (F := F) X0 X1 X2 X3 X4 X5 X6⟩,
    ⟨main_v595, Read.val_main_v595 (F := F) X0 X1 X2 X3 X4 X5 X6⟩,
    ⟨main_v596, Read.val_main_v596 (F := F) X0 X1 X2 X3 X4 X5 X6⟩,
    ⟨main_v597, Read.val_main_v597 (F := F) X0 X1 X2 X3 X4 X5 X6⟩,
    ⟨main_v598, Read.val_main_v598 (F := F) X0 X1 X2 X3 X4 X5 X6⟩,
    ⟨main_v599, Read.val_main_v599 (F := F) X0 X1 X2 X3 X4 X5 X6⟩,
    ⟨main_v600, Read.val_main_v600 (F := F) X0 X1 X2 X3 X4 X5 X6⟩,
    ⟨main_v601, Read.val_main_v601 (F := F) X0 X1 X2 X3 X4 X5 X6⟩,
    ⟨main_v602, Read.val_main_v602 (F := F) X0 X1 X2 X3 X4 X5 X6⟩,
    ⟨main_v603, Read.val_main_v603 (F := F) X0 X1 X2 X3 X4 X5 X6⟩,
    ⟨main_v604, Read.val_main_v604 (F := F) X0 X1 X2 X3 X4 X5 X6⟩,
    ⟨main_v605, Read.val_main_v605 (F := F) X0 X1 X2 X3 X4 X5 X6⟩,
    ⟨main_v606, Read.val_main_v606 (F := F) X0 X1 X2 X3 X4 X5 X6⟩,
    ⟨main_v607, Read.val_main_v607 (F := F) X0 X1 X2 X3 X4 X5 X6⟩,
    ⟨main_v608, Read.val_main_v608 (F := F) X0 X1 X2 X3 X4 X5 X6⟩,
    ⟨main_v609, Read.val_main_v609 (F := F) X0 X1 X2 X3 X4 X5 X6⟩,
    ⟨main_v610, Read.val_main_v610 (F := F) X0 X1 X2 X3 X4 X5 X6⟩,
    ⟨main_v611, Read.val_main_v611 (F := F) X0 X1 X2 X3 X4 X5 X6⟩,
    ⟨main_v612, Read.val_main_v612 (F := F) X0 X1 X2 X3 X4 X5 X6⟩,
    ⟨main_v613, Read.val_main_v613 (F := F) X0 X1 X2 X3 X4 X5 X6⟩,
    ⟨main_v614, Read.val_main_v614 (F := F) X0 X1 X2 X3 X4 X5 X6⟩,
    ⟨main_v615, Read.val_main_v615 (F := F) X0 X1 X2 X3 X4 X5 X6⟩,
    ⟨main_v616, Read.val_main_v616 (F := F) X0 X1 X2 X3 X4 X5 X6⟩,
    ⟨main_v617, Read.val_main_v617 (F := F) X0 X1 X2 X3 X4 X5 X6⟩,
    ⟨main_v618, Read.val_main_v618 (F := F) X0 X1 X2 X3 X4 X5 X6⟩,
    ⟨main_v619, Read.val_main_v619 (F := F) X0 X1 X2 X3 X4 X5 X6⟩,
    ⟨main_v620, Read.val_main_v620 (F := F) X0 X1 X2 X3 X4 X5 X6⟩,
    ⟨main_v621, Read.val_main_v621 (F := F) X0 X1 X2 X3 X4 X5 X6⟩,
    ⟨main_v622, Read.val_main_v622 (F := F) X0 X1 X2 X3 X4 X5 X6⟩,
    ⟨main_v623, Read.val_main_v623 (F := F) X0 X1 X2 X3 X4 X5 X6⟩,
    ⟨main_v624, Read.val_main_v624 (F := F) X0 X1 X2 X3 X4 X5 X6⟩,
    ⟨main_v625, Read.val_main_v625 (F := F) X0 X1 X2 X3 X4 X5 X6⟩,
    ⟨main_v626, Read.val_main_v626 (F := F) X0 X1 X2 X3 X4 X5 X6⟩,
    ⟨main_v627, Read.val_main_v627 (F := F) X0 X1 X2 X3 X4 X5 X6⟩,
    ⟨main_v628, Read.val_main_v628 (F := F) X0 X1 X2 X3 X4 X5 X6⟩,
    ⟨main_v629, Read.val_main_v629 (F := F) X0 X1 X2 X3 X4 X5 X6⟩,
    ⟨main_v630, Read.val_main_v630 (F := F) X0 X1 X2 X3 X4 X5 X6⟩,
    ⟨main_v631, Read.val_main_v631 (F := F) X0 X1 X2 X3 X4 X5 X6⟩,
    ⟨main_v632, Read.val_main_v632 (F := F) X0 X1 X2 X3 X4 X5 X6⟩,
    ⟨main_v633, Read.val_main_v633 (F := F) X0 X1 X2 X3 X4 X5 X6⟩,
    ⟨main_v634, Read.val_main_v634 (F := F) X0 X1 X2 X3 X4 X5 X6⟩,
    ⟨main_v635, Read.val_main_v635 (F := F) X0 X1 X2 X3 X4 X5 X6⟩,
    ⟨main_v636, Read.val_main_v636 (F := F) X0 X1 X2 X3 X4 X5 X6⟩,
    ⟨main_v637, Read.val_main_v637 (F := F) X0 X1 X2 X3 X4 X5 X6⟩,
    ⟨main_v638, Read.val_main_v638 (F := F) X0 X1 X2 X3 X4 X5 X6⟩,
    ⟨main_v639, Read.val_main_v639 (F := F) X0 X1 X2 X3 X4 X5 X6⟩,
    ⟨main_v640, Read.val_main_v640 (F := F) X0 X1 X2 X3 X4 X5 X6⟩,
    ⟨main_v641, Read.val_main_v641 (F := F) X0 X1 X2 X3 X4 X5 X6⟩,
    ⟨main_v642, Read.val_main_v642 (F := F) X0 X1 X2 X3 X4 X5 X6⟩,
    ⟨main_v643, Read.val_main_v643 (F := F) X0 X1 X2 X3 X4 X5 X6⟩,
    ⟨main_v644, Read.val_main_v644 (F := F) X0 X1 X2 X3 X4 X5 X6⟩,
    ⟨main_v645, Read.val_main_v645 (F := F) X0 X1 X2 X3 X4 X5 X6⟩,
    ⟨main_v646, Read.val_main_v646 (F := F) X0 X1 X2 X3 X4 X5 X6⟩ ]
/-- The stages known after window 10, the newest first. -/
abbrev tbl_10 : List (Entry sig (Elt F)) := (ps_10 X0 X1 X2 X3 X4 X5 X6).reverse ++ tbl_9 X0 X1 X2 X3 X4 X5 X6
theorem up_10 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_9 X0 X1 X2 X3 X4 X5 X6) : e ∈ tbl_10 X0 X1 X2 X3 X4 X5 X6 := List.mem_append_right _ h
theorem in_10 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_10 X0 X1 X2 X3 X4 X5 X6).reverse[j]? = some e) : e ∈ tbl_10 X0 X1 X2 X3 X4 X5 X6 :=
  List.mem_append_left _ (List.mem_of_getElem? h)
set_option maxRecDepth 1000000 in
set_option maxHeartbeats 4000000 in
theorem chain_10 : Chain (tbl_9 X0 X1 X2 X3 X4 X5 X6) (7 + 604) (ops_10 (F := F)) (ps_10 X0 X1 X2 X3 X4 X5 X6) :=
  ⟨⟨rfl, rfl, fun W hg => (binary_result main_v585 main_v586 main_v587 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v585, Read.val_main_v585 (F := F) X0 X1 X2 X3 X4 X5 X6⟩ (List.mem_of_mem_drop (i := 0) (in_9 X0 X1 X2 X3 X4 X5 X6 (j := 1) rfl))) (hg ⟨main_v586, Read.val_main_v586 (F := F) X0 X1 X2 X3 X4 X5 X6⟩ (List.mem_of_mem_drop (i := 0) (in_9 X0 X1 X2 X3 X4 X5 X6 (j := 0) rfl))))⟩,
   ⟨rfl, rfl, fun W hg => (binary_result main_v44 main_v389 main_v588 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 1) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))) (hg ⟨main_v389, Read.val_main_v389 (F := F) X0 X1 X2 X3 X4 X5 X6⟩ (List.mem_of_mem_drop (i := 1) (up_9 X0 X1 X2 X3 X4 X5 X6 (up_8 X0 X1 X2 X3 X4 X5 X6 (up_7 X0 X1 X2 X3 X4 X5 X6 (in_6 X0 X1 X2 X3 X4 X5 X6 (j := 17) rfl)))))))⟩,
   ⟨rfl, rfl, fun W hg => (binary_result main_v587 main_v588 main_v589 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v587, Read.val_main_v587 (F := F) X0 X1 X2 X3 X4 X5 X6⟩ (List.mem_of_getElem? (i := 1) rfl)) (hg ⟨main_v588, Read.val_main_v588 (F := F) X0 X1 X2 X3 X4 X5 X6⟩ (List.mem_of_getElem? (i := 0) rfl)))⟩,
   ⟨rfl, rfl, fun W hg => (binary_result main_v40 main_v174 main_v590 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 3) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))) (hg ⟨main_v174, Read.val_main_v174 (F := F) X0 X1 X2 X3 X4 X5 X6⟩ (List.mem_of_mem_drop (i := 3) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 52) rfl))))))))))⟩,
   ⟨rfl, rfl, fun W hg => (binary_result main_v32 main_v584 main_v591 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 4) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))) (hg ⟨main_v584, Read.val_main_v584 (F := F) X0 X1 X2 X3 X4 X5 X6⟩ (List.mem_of_mem_drop (i := 4) (in_9 X0 X1 X2 X3 X4 X5 X6 (j := 2) rfl))))⟩,
   ⟨rfl, rfl, fun W hg => (binary_result main_v590 main_v591 main_v592 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v590, Read.val_main_v590 (F := F) X0 X1 X2 X3 X4 X5 X6⟩ (List.mem_of_getElem? (i := 1) rfl)) (hg ⟨main_v591, Read.val_main_v591 (F := F) X0 X1 X2 X3 X4 X5 X6⟩ (List.mem_of_getElem? (i := 0) rfl)))⟩,
   ⟨rfl, rfl, fun W hg => (binary_result main_v38 main_v124 main_v593 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 6) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))) (hg ⟨main_v124, Read.val_main_v124 (F := F) X0 X1 X2 X3 X4 X5 X6⟩ (List.mem_of_mem_drop (i := 6) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 42) rfl)))))))))))⟩,
   ⟨rfl, rfl, fun W hg => (binary_result main_v592 main_v593 main_v594 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v592, Read.val_main_v592 (F := F) X0 X1 X2 X3 X4 X5 X6⟩ (List.mem_of_getElem? (i := 1) rfl)) (hg ⟨main_v593, Read.val_main_v593 (F := F) X0 X1 X2 X3 X4 X5 X6⟩ (List.mem_of_getElem? (i := 0) rfl)))⟩,
   ⟨rfl, rfl, fun W hg => (binary_result main_v28 main_v394 main_v595 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 8) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))) (hg ⟨main_v394, Read.val_main_v394 (F := F) X0 X1 X2 X3 X4 X5 X6⟩ (List.mem_of_mem_drop (i := 8) (up_9 X0 X1 X2 X3 X4 X5 X6 (up_8 X0 X1 X2 X3 X4 X5 X6 (up_7 X0 X1 X2 X3 X4 X5 X6 (in_6 X0 X1 X2 X3 X4 X5 X6 (j := 12) rfl)))))))⟩,
   ⟨rfl, rfl, fun W hg => (binary_result main_v36 main_v449 main_v596 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 9) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))) (hg ⟨main_v449, Read.val_main_v449 (F := F) X0 X1 X2 X3 X4 X5 X6⟩ (List.mem_of_mem_drop (i := 9) (up_9 X0 X1 X2 X3 X4 X5 X6 (up_8 X0 X1 X2 X3 X4 X5 X6 (in_7 X0 X1 X2 X3 X4 X5 X6 (j := 17) rfl))))))⟩,
   ⟨rfl, rfl, fun W hg => (binary_result main_v595 main_v596 main_v597 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v595, Read.val_main_v595 (F := F) X0 X1 X2 X3 X4 X5 X6⟩ (List.mem_of_getElem? (i := 1) rfl)) (hg ⟨main_v596, Read.val_main_v596 (F := F) X0 X1 X2 X3 X4 X5 X6⟩ (List.mem_of_getElem? (i := 0) rfl)))⟩,
   ⟨rfl, rfl, fun W hg => (binary_result main_v30 main_v544 main_v598 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 11) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))) (hg ⟨main_v544, Read.val_main_v544 (F := F) X0 X1 X2 X3 X4 X5 X6⟩ (List.mem_of_mem_drop (i := 11) (in_9 X0 X1 X2 X3 X4 X5 X6 (j := 42) rfl))))⟩,
   ⟨rfl, rfl, fun W hg => (binary_result main_v597 main_v598 main_v599 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v597, Read.val_main_v597 (F := F) X0 X1 X2 X3 X4 X5 X6⟩ (List.mem_of_getElem? (i := 1) rfl)) (hg ⟨main_v598, Read.val_main_v598 (F := F) X0 X1 X2 X3 X4 X5 X6⟩ (List.mem_of_getElem? (i := 0) rfl)))⟩,
   ⟨rfl, rfl, fun W hg => (binary_result main_v30 main_v26 main_v600 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 13) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))) (hg ⟨main_v26, Read.val_main_v26 (F := F) X0 X1 X2 X3 X4 X5 X6⟩ (List.mem_of_mem_drop (i := 13) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))⟩,
   ⟨rfl, rfl, fun W hg => (binary_result main_v40 main_v409 main_v601 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 14) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))) (hg ⟨main_v409, Read.val_main_v409 (F := F) X0 X1 X2 X3 X4 X5 X6⟩ (List.mem_of_mem_drop (i := 14) (up_9 X0 X1 X2 X3 X4 X5 X6 (up_8 X0 X1 X2 X3 X4 X5 X6 (in_7 X0 X1 X2 X3 X4 X5 X6 (j := 57) rfl))))))⟩,
   ⟨rfl, rfl, fun W hg => (binary_result main_v600 main_v601 main_v602 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v600, Read.val_main_v600 (F := F) X0 X1 X2 X3 X4 X5 X6⟩ (List.mem_of_getElem? (i := 1) rfl)) (hg ⟨main_v601, Read.val_main_v601 (F := F) X0 X1 X2 X3 X4 X5 X6⟩ (List.mem_of_getElem? (i := 0) rfl)))⟩,
   ⟨rfl, rfl, fun W hg => (binary_result main_v28 main_v534 main_v603 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 16) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))) (hg ⟨main_v534, Read.val_main_v534 (F := F) X0 X1 X2 X3 X4 X5 X6⟩ (List.mem_of_mem_drop (i := 16) (in_9 X0 X1 X2 X3 X4 X5 X6 (j := 52) rfl))))⟩,
   ⟨rfl, rfl, fun W hg => (binary_result main_v602 main_v603 main_v604 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v602, Read.val_main_v602 (F := F) X0 X1 X2 X3 X4 X5 X6⟩ (List.mem_of_getElem? (i := 1) rfl)) (hg ⟨main_v603, Read.val_main_v603 (F := F) X0 X1 X2 X3 X4 X5 X6⟩ (List.mem_of_getElem? (i := 0) rfl)))⟩,
   ⟨rfl, rfl, fun W hg => (binary_result main_v42 main_v34 main_v605 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 18) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))) (hg ⟨main_v34, Read.val_main_v34 (F := F) X0 X1 X2 X3 X4 X5 X6⟩ (List.mem_of_mem_drop (i := 18) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))⟩,
   ⟨rfl, rfl, fun W hg => (binary_result main_v26 main_v514 main_v606 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 19) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))) (hg ⟨main_v514, Read.val_main_v514 (F := F) X0 X1 X2 X3 X4 X5 X6⟩ (List.mem_of_mem_drop (i := 19) (up_9 X0 X1 X2 X3 X4 X5 X6 (in_8 X0 X1 X2 X3 X4 X5 X6 (j := 12) rfl)))))⟩,
   ⟨rfl, rfl, fun W hg => (binary_result main_v605 main_v606 main_v607 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v605, Read.val_main_v605 (F := F) X0 X1 X2 X3 X4 X5 X6⟩ (List.mem_of_getElem? (i := 1) rfl)) (hg ⟨main_v606, Read.val_main_v606 (F := F) X0 X1 X2 X3 X4 X5 X6⟩ (List.mem_of_getElem? (i := 0) rfl)))⟩,
   ⟨rfl, rfl, fun W hg => (binary_result main_v44 main_v169 main_v608 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 21) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))) (hg ⟨main_v169, Read.val_main_v169 (F := F) X0 X1 X2 X3 X4 X5 X6⟩ (List.mem_of_mem_drop (i := 21) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 57) rfl))))))))))⟩,
   ⟨rfl, rfl, fun W hg => (binary_result main_v607 main_v608 main_v609 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v607, Read.val_main_v607 (F := F) X0 X1 X2 X3 X4 X5 X6⟩ (List.mem_of_getElem? (i := 1) rfl)) (hg ⟨main_v608, Read.val_main_v608 (F := F) X0 X1 X2 X3 X4 X5 X6⟩ (List.mem_of_getElem? (i := 0) rfl)))⟩,
   ⟨rfl, rfl, fun W hg => (binary_result main_v42 main_v274 main_v610 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 23) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))) (hg ⟨main_v274, Read.val_main_v274 (F := F) X0 X1 X2 X3 X4 X5 X6⟩ (List.mem_of_mem_drop (i := 23) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 12) rfl)))))))))⟩,
   ⟨rfl, rfl, fun W hg => (binary_result main_v28 main_v44 main_v611 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 24) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))) (hg ⟨main_v44, Read.val_main_v44 (F := F) X0 X1 X2 X3 X4 X5 X6⟩ (List.mem_of_mem_drop (i := 24) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))⟩,
   ⟨rfl, rfl, fun W hg => (binary_result main_v610 main_v611 main_v612 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v610, Read.val_main_v610 (F := F) X0 X1 X2 X3 X4 X5 X6⟩ (List.mem_of_getElem? (i := 1) rfl)) (hg ⟨main_v611, Read.val_main_v611 (F := F) X0 X1 X2 X3 X4 X5 X6⟩ (List.mem_of_getElem? (i := 0) rfl)))⟩,
   ⟨rfl, rfl, fun W hg => (binary_result main_v34 main_v239 main_v613 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 26) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))) (hg ⟨main_v239, Read.val_main_v239 (F := F) X0 X1 X2 X3 X4 X5 X6⟩ (List.mem_of_mem_drop (i := 26) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 47) rfl)))))))))⟩,
   ⟨rfl, rfl, fun W hg => (binary_result main_v612 main_v613 main_v614 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v612, Read.val_main_v612 (F := F) X0 X1 X2 X3 X4 X5 X6⟩ (List.mem_of_getElem? (i := 1) rfl)) (hg ⟨main_v613, Read.val_main_v613 (F := F) X0 X1 X2 X3 X4 X5 X6⟩ (List.mem_of_getElem? (i := 0) rfl)))⟩,
   ⟨rfl, rfl, fun W hg => (binary_result main_v40 main_v139 main_v615 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 28) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))) (hg ⟨main_v139, Read.val_main_v139 (F := F) X0 X1 X2 X3 X4 X5 X6⟩ (List.mem_of_mem_drop (i := 28) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 27) rfl)))))))))))⟩,
   ⟨rfl, rfl, fun W hg => (binary_result main_v36 main_v559 main_v616 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 29) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))) (hg ⟨main_v559, Read.val_main_v559 (F := F) X0 X1 X2 X3 X4 X5 X6⟩ (List.mem_of_mem_drop (i := 29) (in_9 X0 X1 X2 X3 X4 X5 X6 (j := 27) rfl))))⟩,
   ⟨rfl, rfl, fun W hg => (binary_result main_v615 main_v616 main_v617 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v615, Read.val_main_v615 (F := F) X0 X1 X2 X3 X4 X5 X6⟩ (List.mem_of_getElem? (i := 1) rfl)) (hg ⟨main_v616, Read.val_main_v616 (F := F) X0 X1 X2 X3 X4 X5 X6⟩ (List.mem_of_getElem? (i := 0) rfl)))⟩,
   ⟨rfl, rfl, fun W hg => (binary_result main_v30 main_v84 main_v618 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 31) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))) (hg ⟨main_v84, Read.val_main_v84 (F := F) X0 X1 X2 X3 X4 X5 X6⟩ (List.mem_of_mem_drop (i := 31) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 22) rfl))))))))))))⟩,
   ⟨rfl, rfl, fun W hg => (binary_result main_v617 main_v618 main_v619 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v617, Read.val_main_v617 (F := F) X0 X1 X2 X3 X4 X5 X6⟩ (List.mem_of_getElem? (i := 1) rfl)) (hg ⟨main_v618, Read.val_main_v618 (F := F) X0 X1 X2 X3 X4 X5 X6⟩ (List.mem_of_getElem? (i := 0) rfl)))⟩,
   ⟨rfl, rfl, fun W hg => (binary_result main_v40 main_v134 main_v620 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 33) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))) (hg ⟨main_v134, Read.val_main_v134 (F := F) X0 X1 X2 X3 X4 X5 X6⟩ (List.mem_of_mem_drop (i := 33) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 32) rfl)))))))))))⟩,
   ⟨rfl, rfl, fun W hg => (binary_result main_v30 main_v124 main_v621 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 34) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))) (hg ⟨main_v124, Read.val_main_v124 (F := F) X0 X1 X2 X3 X4 X5 X6⟩ (List.mem_of_mem_drop (i := 34) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 42) rfl)))))))))))⟩,
   ⟨rfl, rfl, fun W hg => (binary_result main_v620 main_v621 main_v622 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v620, Read.val_main_v620 (F := F) X0 X1 X2 X3 X4 X5 X6⟩ (List.mem_of_getElem? (i := 1) rfl)) (hg ⟨main_v621, Read.val_main_v621 (F := F) X0 X1 X2 X3 X4 X5 X6⟩ (List.mem_of_getElem? (i := 0) rfl)))⟩,
   ⟨rfl, rfl, fun W hg => (binary_result main_v28 main_v32 main_v623 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 36) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))) (hg ⟨main_v32, Read.val_main_v32 (F := F) X0 X1 X2 X3 X4 X5 X6⟩ (List.mem_of_mem_drop (i := 36) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))⟩,
   ⟨rfl, rfl, fun W hg => (binary_result main_v622 main_v623 main_v624 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v622, Read.val_main_v622 (F := F) X0 X1 X2 X3 X4 X5 X6⟩ (List.mem_of_getElem? (i := 1) rfl)) (hg ⟨main_v623, Read.val_main_v623 (F := F) X0 X1 X2 X3 X4 X5 X6⟩ (List.mem_of_getElem? (i := 0) rfl)))⟩,
   ⟨rfl, rfl, fun W hg => (binary_result main_v42 main_v519 main_v625 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 38) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))) (hg ⟨main_v519, Read.val_main_v519 (F := F) X0 X1 X2 X3 X4 X5 X6⟩ (List.mem_of_mem_drop (i := 38) (up_9 X0 X1 X2 X3 X4 X5 X6 (in_8 X0 X1 X2 X3 X4 X5 X6 (j := 7) rfl)))))⟩,
   ⟨rfl, rfl, fun W hg => (binary_result main_v30 main_v359 main_v626 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 39) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))) (hg ⟨main_v359, Read.val_main_v359 (F := F) X0 X1 X2 X3 X4 X5 X6⟩ (List.mem_of_mem_drop (i := 39) (up_9 X0 X1 X2 X3 X4 X5 X6 (up_8 X0 X1 X2 X3 X4 X5 X6 (up_7 X0 X1 X2 X3 X4 X5 X6 (in_6 X0 X1 X2 X3 X4 X5 X6 (j := 47) rfl)))))))⟩,
   ⟨rfl, rfl, fun W hg => (binary_result main_v625 main_v626 main_v627 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v625, Read.val_main_v625 (F := F) X0 X1 X2 X3 X4 X5 X6⟩ (List.mem_of_getElem? (i := 1) rfl)) (hg ⟨main_v626, Read.val_main_v626 (F := F) X0 X1 X2 X3 X4 X5 X6⟩ (List.mem_of_getElem? (i := 0) rfl)))⟩,
   ⟨rfl, rfl, fun W hg => (binary_result main_v44 main_v134 main_v628 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 41) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))) (hg ⟨main_v134, Read.val_main_v134 (F := F) X0 X1 X2 X3 X4 X5 X6⟩ (List.mem_of_mem_drop (i := 41) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 32) rfl)))))))))))⟩,
   ⟨rfl, rfl, fun W hg => (binary_result main_v627 main_v628 main_v629 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v627, Read.val_main_v627 (F := F) X0 X1 X2 X3 X4 X5 X6⟩ (List.mem_of_getElem? (i := 1) rfl)) (hg ⟨main_v628, Read.val_main_v628 (F := F) X0 X1 X2 X3 X4 X5 X6⟩ (List.mem_of_getElem? (i := 0) rfl)))⟩,
   ⟨rfl, rfl, fun W hg => (binary_result main_v36 main_v30 main_v630 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 43) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))) (hg ⟨main_v30, Read.val_main_v30 (F := F) X0 X1 X2 X3 X4 X5 X6⟩ (List.mem_of_mem_drop (i := 43) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))⟩,
   ⟨rfl, rfl, fun W hg => (binary_result main_v32 main_v319 main_v631 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 44) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))) (hg ⟨main_v319, Read.val_main_v319 (F := F) X0 X1 X2 X3 X4 X5 X6⟩ (List.mem_of_mem_drop (i := 44) (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 27) rfl))))))))⟩,
   ⟨rfl, rfl, fun W hg => (binary_result main_v630 main_v631 main_v632 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v630, Read.val_main_v630 (F := F) X0 X1 X2 X3 X4 X5 X6⟩ (List.mem_of_getElem? (i := 1) rfl)) (hg ⟨main_v631, Read.val_main_v631 (F := F) X0 X1 X2 X3 X4 X5 X6⟩ (List.mem_of_getElem? (i := 0) rfl)))⟩,
   ⟨rfl, rfl, fun W hg => (binary_result main_v44 main_v184 main_v633 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 46) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))) (hg ⟨main_v184, Read.val_main_v184 (F := F) X0 X1 X2 X3 X4 X5 X6⟩ (List.mem_of_mem_drop (i := 46) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 42) rfl))))))))))⟩,
   ⟨rfl, rfl, fun W hg => (binary_result main_v632 main_v633 main_v634 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v632, Read.val_main_v632 (F := F) X0 X1 X2 X3 X4 X5 X6⟩ (List.mem_of_getElem? (i := 1) rfl)) (hg ⟨main_v633, Read.val_main_v633 (F := F) X0 X1 X2 X3 X4 X5 X6⟩ (List.mem_of_getElem? (i := 0) rfl)))⟩,
   ⟨rfl, rfl, fun W hg => (binary_result main_v40 main_v48 main_v635 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 48) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))) (hg ⟨main_v48, Read.val_main_v48 (F := F) X0 X1 X2 X3 X4 X5 X6⟩ (List.mem_of_mem_drop (i := 48) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 7) rfl)))))))))))))⟩,
   ⟨rfl, rfl, fun W hg => (binary_result main_v38 main_v519 main_v636 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 49) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))) (hg ⟨main_v519, Read.val_main_v519 (F := F) X0 X1 X2 X3 X4 X5 X6⟩ (List.mem_of_mem_drop (i := 49) (up_9 X0 X1 X2 X3 X4 X5 X6 (in_8 X0 X1 X2 X3 X4 X5 X6 (j := 7) rfl)))))⟩,
   ⟨rfl, rfl, fun W hg => (binary_result main_v635 main_v636 main_v637 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v635, Read.val_main_v635 (F := F) X0 X1 X2 X3 X4 X5 X6⟩ (List.mem_of_getElem? (i := 1) rfl)) (hg ⟨main_v636, Read.val_main_v636 (F := F) X0 X1 X2 X3 X4 X5 X6⟩ (List.mem_of_getElem? (i := 0) rfl)))⟩,
   ⟨rfl, rfl, fun W hg => (binary_result main_v44 main_v149 main_v638 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 51) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))) (hg ⟨main_v149, Read.val_main_v149 (F := F) X0 X1 X2 X3 X4 X5 X6⟩ (List.mem_of_mem_drop (i := 51) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 17) rfl)))))))))))⟩,
   ⟨rfl, rfl, fun W hg => (binary_result main_v637 main_v638 main_v639 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v637, Read.val_main_v637 (F := F) X0 X1 X2 X3 X4 X5 X6⟩ (List.mem_of_getElem? (i := 1) rfl)) (hg ⟨main_v638, Read.val_main_v638 (F := F) X0 X1 X2 X3 X4 X5 X6⟩ (List.mem_of_getElem? (i := 0) rfl)))⟩,
   ⟨rfl, rfl, fun W hg => (binary_result main_v44 main_v68 main_v640 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 53) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))) (hg ⟨main_v68, Read.val_main_v68 (F := F) X0 X1 X2 X3 X4 X5 X6⟩ (List.mem_of_mem_drop (i := 53) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 42) rfl))))))))))))⟩,
   ⟨rfl, rfl, fun W hg => (binary_result main_v26 main_v80 main_v641 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 54) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))) (hg ⟨main_v80, Read.val_main_v80 (F := F) X0 X1 X2 X3 X4 X5 X6⟩ (List.mem_of_mem_drop (i := 54) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 27) rfl))))))))))))⟩,
   ⟨rfl, rfl, fun W hg => (binary_result main_v640 main_v641 main_v642 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v640, Read.val_main_v640 (F := F) X0 X1 X2 X3 X4 X5 X6⟩ (List.mem_of_getElem? (i := 1) rfl)) (hg ⟨main_v641, Read.val_main_v641 (F := F) X0 X1 X2 X3 X4 X5 X6⟩ (List.mem_of_getElem? (i := 0) rfl)))⟩,
   ⟨rfl, rfl, fun W hg => (binary_result main_v40 main_v199 main_v643 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 56) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))) (hg ⟨main_v199, Read.val_main_v199 (F := F) X0 X1 X2 X3 X4 X5 X6⟩ (List.mem_of_mem_drop (i := 56) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 27) rfl))))))))))⟩,
   ⟨rfl, rfl, fun W hg => (binary_result main_v642 main_v643 main_v644 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v642, Read.val_main_v642 (F := F) X0 X1 X2 X3 X4 X5 X6⟩ (List.mem_of_getElem? (i := 1) rfl)) (hg ⟨main_v643, Read.val_main_v643 (F := F) X0 X1 X2 X3 X4 X5 X6⟩ (List.mem_of_getElem? (i := 0) rfl)))⟩,
   ⟨rfl, rfl, fun W hg => (binary_result main_v42 main_v484 main_v645 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 58) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))) (hg ⟨main_v484, Read.val_main_v484 (F := F) X0 X1 X2 X3 X4 X5 X6⟩ (List.mem_of_mem_drop (i := 58) (up_9 X0 X1 X2 X3 X4 X5 X6 (in_8 X0 X1 X2 X3 X4 X5 X6 (j := 42) rfl)))))⟩,
   ⟨rfl, rfl, fun W hg => (binary_result main_v38 main_v534 main_v646 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 59) (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))) (hg ⟨main_v534, Read.val_main_v534 (F := F) X0 X1 X2 X3 X4 X5 X6⟩ (List.mem_of_mem_drop (i := 59) (in_9 X0 X1 X2 X3 X4 X5 X6 (j := 52) rfl))))⟩,
   trivial⟩
theorem good_10 (W : Valuation τ sig (Elt F)) (hg : Good W (tbl_9 X0 X1 X2 X3 X4 X5 X6) (7 + 604)) :
    Good (after ops_10 W) (tbl_10 X0 X1 X2 X3 X4 X5 X6) (7 + 664) :=
  Good.after _ _ _ _ W hg (chain_10 X0 X1 X2 X3 X4 X5 X6)

theorem part_eq_11 (c : Dev nD) : main_part11 (F := F) c = seq ops_11 := rfl
theorem fresh_11 : (ops_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 11's operations write, in order. -/
abbrev ps_11 : List (Entry sig (Elt F)) :=
  [ ⟨main_v647, Read.val_main_v647 (F := F) X0 X1 X2 X3 X4 X5 X6⟩,
    ⟨main_v648, Read.val_main_v648 (F := F) X0 X1 X2 X3 X4 X5 X6⟩,
    ⟨main_v649, Read.val_main_v649 (F := F) X0 X1 X2 X3 X4 X5 X6⟩,
    ⟨main_v650, Read.val_main_v650 (F := F) X0 X1 X2 X3 X4 X5 X6⟩,
    ⟨main_v651, Read.val_main_v651 (F := F) X0 X1 X2 X3 X4 X5 X6⟩,
    ⟨main_v652, Read.val_main_v652 (F := F) X0 X1 X2 X3 X4 X5 X6⟩,
    ⟨main_v653, Read.val_main_v653 (F := F) X0 X1 X2 X3 X4 X5 X6⟩,
    ⟨main_v654, Read.val_main_v654 (F := F) X0 X1 X2 X3 X4 X5 X6⟩,
    ⟨main_v655, Read.val_main_v655 (F := F) X0 X1 X2 X3 X4 X5 X6⟩,
    ⟨main_v656, Read.val_main_v656 (F := F) X0 X1 X2 X3 X4 X5 X6⟩,
    ⟨main_v657, Read.val_main_v657 (F := F) X0 X1 X2 X3 X4 X5 X6⟩,
    ⟨main_v658, Read.val_main_v658 (F := F) X0 X1 X2 X3 X4 X5 X6⟩,
    ⟨main_v659, Read.val_main_v659 (F := F) X0 X1 X2 X3 X4 X5 X6⟩,
    ⟨main_v660, Read.val_main_v660 (F := F) X0 X1 X2 X3 X4 X5 X6⟩,
    ⟨main_v661, Read.val_main_v661 (F := F) X0 X1 X2 X3 X4 X5 X6⟩,
    ⟨main_v662, Read.val_main_v662 (F := F) X0 X1 X2 X3 X4 X5 X6⟩,
    ⟨main_v663, Read.val_main_v663 (F := F) X0 X1 X2 X3 X4 X5 X6⟩,
    ⟨main_v664, Read.val_main_v664 (F := F) X0 X1 X2 X3 X4 X5 X6⟩,
    ⟨main_v665, Read.val_main_v665 (F := F) X0 X1 X2 X3 X4 X5 X6⟩,
    ⟨main_v666, Read.val_main_v666 (F := F) X0 X1 X2 X3 X4 X5 X6⟩,
    ⟨main_v667, Read.val_main_v667 (F := F) X0 X1 X2 X3 X4 X5 X6⟩,
    ⟨main_v668, Read.val_main_v668 (F := F) X0 X1 X2 X3 X4 X5 X6⟩,
    ⟨main_v669, Read.val_main_v669 (F := F) X0 X1 X2 X3 X4 X5 X6⟩,
    ⟨main_v670, Read.val_main_v670 (F := F) X0 X1 X2 X3 X4 X5 X6⟩,
    ⟨main_v671, Read.val_main_v671 (F := F) X0 X1 X2 X3 X4 X5 X6⟩,
    ⟨main_v672, Read.val_main_v672 (F := F) X0 X1 X2 X3 X4 X5 X6⟩,
    ⟨main_v673, Read.val_main_v673 (F := F) X0 X1 X2 X3 X4 X5 X6⟩,
    ⟨main_v674, Read.val_main_v674 (F := F) X0 X1 X2 X3 X4 X5 X6⟩,
    ⟨main_v675, Read.val_main_v675 (F := F) X0 X1 X2 X3 X4 X5 X6⟩,
    ⟨main_v676, Read.val_main_v676 (F := F) X0 X1 X2 X3 X4 X5 X6⟩,
    ⟨main_v677, Read.val_main_v677 (F := F) X0 X1 X2 X3 X4 X5 X6⟩,
    ⟨main_v678, Read.val_main_v678 (F := F) X0 X1 X2 X3 X4 X5 X6⟩,
    ⟨main_v679, Read.val_main_v679 (F := F) X0 X1 X2 X3 X4 X5 X6⟩,
    ⟨main_v680, Read.val_main_v680 (F := F) X0 X1 X2 X3 X4 X5 X6⟩,
    ⟨main_v681, Read.val_main_v681 (F := F) X0 X1 X2 X3 X4 X5 X6⟩,
    ⟨main_v682, Read.val_main_v682 (F := F) X0 X1 X2 X3 X4 X5 X6⟩,
    ⟨main_v683, Read.val_main_v683 (F := F) X0 X1 X2 X3 X4 X5 X6⟩,
    ⟨main_v684, Read.val_main_v684 (F := F) X0 X1 X2 X3 X4 X5 X6⟩,
    ⟨main_v685, Read.val_main_v685 (F := F) X0 X1 X2 X3 X4 X5 X6⟩,
    ⟨main_v686, Read.val_main_v686 (F := F) X0 X1 X2 X3 X4 X5 X6⟩,
    ⟨main_v687, Read.val_main_v687 (F := F) X0 X1 X2 X3 X4 X5 X6⟩,
    ⟨main_v688, Read.val_main_v688 (F := F) X0 X1 X2 X3 X4 X5 X6⟩,
    ⟨main_v689, Read.val_main_v689 (F := F) X0 X1 X2 X3 X4 X5 X6⟩,
    ⟨main_v690, Read.val_main_v690 (F := F) X0 X1 X2 X3 X4 X5 X6⟩,
    ⟨main_v691, Read.val_main_v691 (F := F) X0 X1 X2 X3 X4 X5 X6⟩,
    ⟨main_v692, Read.val_main_v692 (F := F) X0 X1 X2 X3 X4 X5 X6⟩,
    ⟨main_v693, Read.val_main_v693 (F := F) X0 X1 X2 X3 X4 X5 X6⟩,
    ⟨main_v694, Read.val_main_v694 (F := F) X0 X1 X2 X3 X4 X5 X6⟩,
    ⟨main_v695, Read.val_main_v695 (F := F) X0 X1 X2 X3 X4 X5 X6⟩,
    ⟨main_v696, Read.val_main_v696 (F := F) X0 X1 X2 X3 X4 X5 X6⟩,
    ⟨main_v697, Read.val_main_v697 (F := F) X0 X1 X2 X3 X4 X5 X6⟩,
    ⟨main_v698, Read.val_main_v698 (F := F) X0 X1 X2 X3 X4 X5 X6⟩,
    ⟨main_v699, Read.val_main_v699 (F := F) X0 X1 X2 X3 X4 X5 X6⟩,
    ⟨main_v700, Read.val_main_v700 (F := F) X0 X1 X2 X3 X4 X5 X6⟩,
    ⟨main_v701, Read.val_main_v701 (F := F) X0 X1 X2 X3 X4 X5 X6⟩,
    ⟨main_v702, Read.val_main_v702 (F := F) X0 X1 X2 X3 X4 X5 X6⟩,
    ⟨main_v703, Read.val_main_v703 (F := F) X0 X1 X2 X3 X4 X5 X6⟩,
    ⟨main_v704, Read.val_main_v704 (F := F) X0 X1 X2 X3 X4 X5 X6⟩,
    ⟨main_v705, Read.val_main_v705 (F := F) X0 X1 X2 X3 X4 X5 X6⟩,
    ⟨main_v706, Read.val_main_v706 (F := F) X0 X1 X2 X3 X4 X5 X6⟩ ]
/-- The stages known after window 11, the newest first. -/
abbrev tbl_11 : List (Entry sig (Elt F)) := (ps_11 X0 X1 X2 X3 X4 X5 X6).reverse ++ tbl_10 X0 X1 X2 X3 X4 X5 X6
theorem up_11 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_10 X0 X1 X2 X3 X4 X5 X6) : e ∈ tbl_11 X0 X1 X2 X3 X4 X5 X6 := List.mem_append_right _ h
theorem in_11 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_11 X0 X1 X2 X3 X4 X5 X6).reverse[j]? = some e) : e ∈ tbl_11 X0 X1 X2 X3 X4 X5 X6 :=
  List.mem_append_left _ (List.mem_of_getElem? h)
set_option maxRecDepth 1000000 in
set_option maxHeartbeats 4000000 in
theorem chain_11 : Chain (tbl_10 X0 X1 X2 X3 X4 X5 X6) (7 + 664) (ops_11 (F := F)) (ps_11 X0 X1 X2 X3 X4 X5 X6) :=
  ⟨⟨rfl, rfl, fun W hg => (binary_result main_v645 main_v646 main_v647 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v645, Read.val_main_v645 (F := F) X0 X1 X2 X3 X4 X5 X6⟩ (List.mem_of_mem_drop (i := 0) (in_10 X0 X1 X2 X3 X4 X5 X6 (j := 1) rfl))) (hg ⟨main_v646, Read.val_main_v646 (F := F) X0 X1 X2 X3 X4 X5 X6⟩ (List.mem_of_mem_drop (i := 0) (in_10 X0 X1 X2 X3 X4 X5 X6 (j := 0) rfl))))⟩,
   ⟨rfl, rfl, fun W hg => (binary_result main_v34 main_v89 main_v648 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 1) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))) (hg ⟨main_v89, Read.val_main_v89 (F := F) X0 X1 X2 X3 X4 X5 X6⟩ (List.mem_of_mem_drop (i := 1) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 17) rfl)))))))))))))⟩,
   ⟨rfl, rfl, fun W hg => (binary_result main_v647 main_v648 main_v649 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v647, Read.val_main_v647 (F := F) X0 X1 X2 X3 X4 X5 X6⟩ (List.mem_of_getElem? (i := 1) rfl)) (hg ⟨main_v648, Read.val_main_v648 (F := F) X0 X1 X2 X3 X4 X5 X6⟩ (List.mem_of_getElem? (i := 0) rfl)))⟩,
   ⟨rfl, rfl, fun W hg => (binary_result main_v44 main_v544 main_v650 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 3) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))) (hg ⟨main_v544, Read.val_main_v544 (F := F) X0 X1 X2 X3 X4 X5 X6⟩ (List.mem_of_mem_drop (i := 3) (up_10 X0 X1 X2 X3 X4 X5 X6 (in_9 X0 X1 X2 X3 X4 X5 X6 (j := 42) rfl)))))⟩,
   ⟨rfl, rfl, fun W hg => (binary_result main_v26 main_v124 main_v651 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 4) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))) (hg ⟨main_v124, Read.val_main_v124 (F := F) X0 X1 X2 X3 X4 X5 X6⟩ (List.mem_of_mem_drop (i := 4) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 42) rfl))))))))))))⟩,
   ⟨rfl, rfl, fun W hg => (binary_result main_v650 main_v651 main_v652 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v650, Read.val_main_v650 (F := F) X0 X1 X2 X3 X4 X5 X6⟩ (List.mem_of_getElem? (i := 1) rfl)) (hg ⟨main_v651, Read.val_main_v651 (F := F) X0 X1 X2 X3 X4 X5 X6⟩ (List.mem_of_getElem? (i := 0) rfl)))⟩,
   ⟨rfl, rfl, fun W hg => (binary_result main_v40 main_v649 main_v653 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 6) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))) (hg ⟨main_v649, Read.val_main_v649 (F := F) X0 X1 X2 X3 X4 X5 X6⟩ (List.mem_of_getElem? (i := 3) rfl)))⟩,
   ⟨rfl, rfl, fun W hg => (binary_result main_v652 main_v653 main_v654 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v652, Read.val_main_v652 (F := F) X0 X1 X2 X3 X4 X5 X6⟩ (List.mem_of_getElem? (i := 1) rfl)) (hg ⟨main_v653, Read.val_main_v653 (F := F) X0 X1 X2 X3 X4 X5 X6⟩ (List.mem_of_getElem? (i := 0) rfl)))⟩,
   ⟨rfl, rfl, fun W hg => (binary_result main_v34 main_v374 main_v655 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 8) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))) (hg ⟨main_v374, Read.val_main_v374 (F := F) X0 X1 X2 X3 X4 X5 X6⟩ (List.mem_of_mem_drop (i := 8) (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 32) rfl))))))))⟩,
   ⟨rfl, rfl, fun W hg => (binary_result main_v28 main_v269 main_v656 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 9) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))) (hg ⟨main_v269, Read.val_main_v269 (F := F) X0 X1 X2 X3 X4 X5 X6⟩ (List.mem_of_mem_drop (i := 9) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 17) rfl))))))))))⟩,
   ⟨rfl, rfl, fun W hg => (binary_result main_v655 main_v656 main_v657 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v655, Read.val_main_v655 (F := F) X0 X1 X2 X3 X4 X5 X6⟩ (List.mem_of_getElem? (i := 1) rfl)) (hg ⟨main_v656, Read.val_main_v656 (F := F) X0 X1 X2 X3 X4 X5 X6⟩ (List.mem_of_getElem? (i := 0) rfl)))⟩,
   ⟨rfl, rfl, fun W hg => (binary_result main_v30 main_v289 main_v658 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 11) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))) (hg ⟨main_v289, Read.val_main_v289 (F := F) X0 X1 X2 X3 X4 X5 X6⟩ (List.mem_of_mem_drop (i := 11) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 57) rfl)))))))))⟩,
   ⟨rfl, rfl, fun W hg => (binary_result main_v657 main_v658 main_v659 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v657, Read.val_main_v657 (F := F) X0 X1 X2 X3 X4 X5 X6⟩ (List.mem_of_getElem? (i := 1) rfl)) (hg ⟨main_v658, Read.val_main_v658 (F := F) X0 X1 X2 X3 X4 X5 X6⟩ (List.mem_of_getElem? (i := 0) rfl)))⟩,
   ⟨rfl, rfl, fun W hg => (binary_result main_v28 main_v219 main_v660 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 13) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))) (hg ⟨main_v219, Read.val_main_v219 (F := F) X0 X1 X2 X3 X4 X5 X6⟩ (List.mem_of_mem_drop (i := 13) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 7) rfl)))))))))))⟩,
   ⟨rfl, rfl, fun W hg => (binary_result main_v32 main_v459 main_v661 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 14) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))) (hg ⟨main_v459, Read.val_main_v459 (F := F) X0 X1 X2 X3 X4 X5 X6⟩ (List.mem_of_mem_drop (i := 14) (up_10 X0 X1 X2 X3 X4 X5 X6 (up_9 X0 X1 X2 X3 X4 X5 X6 (up_8 X0 X1 X2 X3 X4 X5 X6 (in_7 X0 X1 X2 X3 X4 X5 X6 (j := 7) rfl)))))))⟩,
   ⟨rfl, rfl, fun W hg => (binary_result main_v660 main_v661 main_v662 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v660, Read.val_main_v660 (F := F) X0 X1 X2 X3 X4 X5 X6⟩ (List.mem_of_getElem? (i := 1) rfl)) (hg ⟨main_v661, Read.val_main_v661 (F := F) X0 X1 X2 X3 X4 X5 X6⟩ (List.mem_of_getElem? (i := 0) rfl)))⟩,
   ⟨rfl, rfl, fun W hg => (binary_result main_v30 main_v409 main_v663 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 16) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))) (hg ⟨main_v409, Read.val_main_v409 (F := F) X0 X1 X2 X3 X4 X5 X6⟩ (List.mem_of_mem_drop (i := 16) (up_10 X0 X1 X2 X3 X4 X5 X6 (up_9 X0 X1 X2 X3 X4 X5 X6 (up_8 X0 X1 X2 X3 X4 X5 X6 (in_7 X0 X1 X2 X3 X4 X5 X6 (j := 57) rfl)))))))⟩,
   ⟨rfl, rfl, fun W hg => (binary_result main_v662 main_v663 main_v664 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v662, Read.val_main_v662 (F := F) X0 X1 X2 X3 X4 X5 X6⟩ (List.mem_of_getElem? (i := 1) rfl)) (hg ⟨main_v663, Read.val_main_v663 (F := F) X0 X1 X2 X3 X4 X5 X6⟩ (List.mem_of_getElem? (i := 0) rfl)))⟩,
   ⟨rfl, rfl, fun W hg => (binary_result main_v34 main_v459 main_v665 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 18) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))) (hg ⟨main_v459, Read.val_main_v459 (F := F) X0 X1 X2 X3 X4 X5 X6⟩ (List.mem_of_mem_drop (i := 18) (up_10 X0 X1 X2 X3 X4 X5 X6 (up_9 X0 X1 X2 X3 X4 X5 X6 (up_8 X0 X1 X2 X3 X4 X5 X6 (in_7 X0 X1 X2 X3 X4 X5 X6 (j := 7) rfl)))))))⟩,
   ⟨rfl, rfl, fun W hg => (binary_result main_v26 main_v654 main_v666 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 19) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))) (hg ⟨main_v654, Read.val_main_v654 (F := F) X0 X1 X2 X3 X4 X5 X6⟩ (List.mem_of_getElem? (i := 11) rfl)))⟩,
   ⟨rfl, rfl, fun W hg => (binary_result main_v665 main_v666 main_v667 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v665, Read.val_main_v665 (F := F) X0 X1 X2 X3 X4 X5 X6⟩ (List.mem_of_getElem? (i := 1) rfl)) (hg ⟨main_v666, Read.val_main_v666 (F := F) X0 X1 X2 X3 X4 X5 X6⟩ (List.mem_of_getElem? (i := 0) rfl)))⟩,
   ⟨rfl, rfl, fun W hg => (binary_result main_v36 main_v594 main_v668 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 21) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))) (hg ⟨main_v594, Read.val_main_v594 (F := F) X0 X1 X2 X3 X4 X5 X6⟩ (List.mem_of_mem_drop (i := 21) (in_10 X0 X1 X2 X3 X4 X5 X6 (j := 52) rfl))))⟩,
   ⟨rfl, rfl, fun W hg => (binary_result main_v667 main_v668 main_v669 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v667, Read.val_main_v667 (F := F) X0 X1 X2 X3 X4 X5 X6⟩ (List.mem_of_getElem? (i := 1) rfl)) (hg ⟨main_v668, Read.val_main_v668 (F := F) X0 X1 X2 X3 X4 X5 X6⟩ (List.mem_of_getElem? (i := 0) rfl)))⟩,
   ⟨rfl, rfl, fun W hg => (binary_result main_v38 main_v559 main_v670 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 23) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))) (hg ⟨main_v559, Read.val_main_v559 (F := F) X0 X1 X2 X3 X4 X5 X6⟩ (List.mem_of_mem_drop (i := 23) (up_10 X0 X1 X2 X3 X4 X5 X6 (in_9 X0 X1 X2 X3 X4 X5 X6 (j := 27) rfl)))))⟩,
   ⟨rfl, rfl, fun W hg => (binary_result main_v32 main_v579 main_v671 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 24) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))) (hg ⟨main_v579, Read.val_main_v579 (F := F) X0 X1 X2 X3 X4 X5 X6⟩ (List.mem_of_mem_drop (i := 24) (up_10 X0 X1 X2 X3 X4 X5 X6 (in_9 X0 X1 X2 X3 X4 X5 X6 (j := 7) rfl)))))⟩,
   ⟨rfl, rfl, fun W hg => (binary_result main_v670 main_v671 main_v672 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v670, Read.val_main_v670 (F := F) X0 X1 X2 X3 X4 X5 X6⟩ (List.mem_of_getElem? (i := 1) rfl)) (hg ⟨main_v671, Read.val_main_v671 (F := F) X0 X1 X2 X3 X4 X5 X6⟩ (List.mem_of_getElem? (i := 0) rfl)))⟩,
   ⟨rfl, rfl, fun W hg => (binary_result main_v26 main_v229 main_v673 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 26) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))) (hg ⟨main_v229, Read.val_main_v229 (F := F) X0 X1 X2 X3 X4 X5 X6⟩ (List.mem_of_mem_drop (i := 26) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 57) rfl))))))))))⟩,
   ⟨rfl, rfl, fun W hg => (binary_result main_v672 main_v673 main_v674 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v672, Read.val_main_v672 (F := F) X0 X1 X2 X3 X4 X5 X6⟩ (List.mem_of_getElem? (i := 1) rfl)) (hg ⟨main_v673, Read.val_main_v673 (F := F) X0 X1 X2 X3 X4 X5 X6⟩ (List.mem_of_getElem? (i := 0) rfl)))⟩,
   ⟨rfl, rfl, fun W hg => (binary_result main_v30 main_v374 main_v675 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 28) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))) (hg ⟨main_v374, Read.val_main_v374 (F := F) X0 X1 X2 X3 X4 X5 X6⟩ (List.mem_of_mem_drop (i := 28) (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 32) rfl))))))))⟩,
   ⟨rfl, rfl, fun W hg => (binary_result main_v26 main_v529 main_v676 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 29) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))) (hg ⟨main_v529, Read.val_main_v529 (F := F) X0 X1 X2 X3 X4 X5 X6⟩ (List.mem_of_mem_drop (i := 29) (up_10 X0 X1 X2 X3 X4 X5 X6 (in_9 X0 X1 X2 X3 X4 X5 X6 (j := 57) rfl)))))⟩,
   ⟨rfl, rfl, fun W hg => (binary_result main_v675 main_v676 main_v677 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v675, Read.val_main_v675 (F := F) X0 X1 X2 X3 X4 X5 X6⟩ (List.mem_of_getElem? (i := 1) rfl)) (hg ⟨main_v676, Read.val_main_v676 (F := F) X0 X1 X2 X3 X4 X5 X6⟩ (List.mem_of_getElem? (i := 0) rfl)))⟩,
   ⟨rfl, rfl, fun W hg => (binary_result main_v34 main_v469 main_v678 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 31) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))) (hg ⟨main_v469, Read.val_main_v469 (F := F) X0 X1 X2 X3 X4 X5 X6⟩ (List.mem_of_mem_drop (i := 31) (up_10 X0 X1 X2 X3 X4 X5 X6 (up_9 X0 X1 X2 X3 X4 X5 X6 (in_8 X0 X1 X2 X3 X4 X5 X6 (j := 57) rfl))))))⟩,
   ⟨rfl, rfl, fun W hg => (binary_result main_v677 main_v678 main_v679 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v677, Read.val_main_v677 (F := F) X0 X1 X2 X3 X4 X5 X6⟩ (List.mem_of_getElem? (i := 1) rfl)) (hg ⟨main_v678, Read.val_main_v678 (F := F) X0 X1 X2 X3 X4 X5 X6⟩ (List.mem_of_getElem? (i := 0) rfl)))⟩,
   ⟨rfl, rfl, fun W hg => (binary_result main_v38 main_v42 main_v680 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 33) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))) (hg ⟨main_v42, Read.val_main_v42 (F := F) X0 X1 X2 X3 X4 X5 X6⟩ (List.mem_of_mem_drop (i := 33) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))⟩,
   ⟨rfl, rfl, fun W hg => (binary_result main_v44 main_v309 main_v681 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 34) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))) (hg ⟨main_v309, Read.val_main_v309 (F := F) X0 X1 X2 X3 X4 X5 X6⟩ (List.mem_of_mem_drop (i := 34) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 37) rfl)))))))))⟩,
   ⟨rfl, rfl, fun W hg => (binary_result main_v680 main_v681 main_v682 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v680, Read.val_main_v680 (F := F) X0 X1 X2 X3 X4 X5 X6⟩ (List.mem_of_getElem? (i := 1) rfl)) (hg ⟨main_v681, Read.val_main_v681 (F := F) X0 X1 X2 X3 X4 X5 X6⟩ (List.mem_of_getElem? (i := 0) rfl)))⟩,
   ⟨rfl, rfl, fun W hg => (binary_result main_v28 main_v569 main_v683 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 36) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))) (hg ⟨main_v569, Read.val_main_v569 (F := F) X0 X1 X2 X3 X4 X5 X6⟩ (List.mem_of_mem_drop (i := 36) (up_10 X0 X1 X2 X3 X4 X5 X6 (in_9 X0 X1 X2 X3 X4 X5 X6 (j := 17) rfl)))))⟩,
   ⟨rfl, rfl, fun W hg => (binary_result main_v682 main_v683 main_v684 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v682, Read.val_main_v682 (F := F) X0 X1 X2 X3 X4 X5 X6⟩ (List.mem_of_getElem? (i := 1) rfl)) (hg ⟨main_v683, Read.val_main_v683 (F := F) X0 X1 X2 X3 X4 X5 X6⟩ (List.mem_of_getElem? (i := 0) rfl)))⟩,
   ⟨rfl, rfl, fun W hg => (binary_result main_v44 main_v529 main_v685 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 38) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))) (hg ⟨main_v529, Read.val_main_v529 (F := F) X0 X1 X2 X3 X4 X5 X6⟩ (List.mem_of_mem_drop (i := 38) (up_10 X0 X1 X2 X3 X4 X5 X6 (in_9 X0 X1 X2 X3 X4 X5 X6 (j := 57) rfl)))))⟩,
   ⟨rfl, rfl, fun W hg => (binary_result main_v38 main_v129 main_v686 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 39) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))) (hg ⟨main_v129, Read.val_main_v129 (F := F) X0 X1 X2 X3 X4 X5 X6⟩ (List.mem_of_mem_drop (i := 39) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 37) rfl))))))))))))⟩,
   ⟨rfl, rfl, fun W hg => (binary_result main_v685 main_v686 main_v687 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v685, Read.val_main_v685 (F := F) X0 X1 X2 X3 X4 X5 X6⟩ (List.mem_of_getElem? (i := 1) rfl)) (hg ⟨main_v686, Read.val_main_v686 (F := F) X0 X1 X2 X3 X4 X5 X6⟩ (List.mem_of_getElem? (i := 0) rfl)))⟩,
   ⟨rfl, rfl, fun W hg => (binary_result main_v28 main_v579 main_v688 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 41) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))) (hg ⟨main_v579, Read.val_main_v579 (F := F) X0 X1 X2 X3 X4 X5 X6⟩ (List.mem_of_mem_drop (i := 41) (up_10 X0 X1 X2 X3 X4 X5 X6 (in_9 X0 X1 X2 X3 X4 X5 X6 (j := 7) rfl)))))⟩,
   ⟨rfl, rfl, fun W hg => (binary_result main_v687 main_v688 main_v689 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v687, Read.val_main_v687 (F := F) X0 X1 X2 X3 X4 X5 X6⟩ (List.mem_of_getElem? (i := 1) rfl)) (hg ⟨main_v688, Read.val_main_v688 (F := F) X0 X1 X2 X3 X4 X5 X6⟩ (List.mem_of_getElem? (i := 0) rfl)))⟩,
   ⟨rfl, rfl, fun W hg => (binary_result main_v42 main_v584 main_v690 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 43) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))) (hg ⟨main_v584, Read.val_main_v584 (F := F) X0 X1 X2 X3 X4 X5 X6⟩ (List.mem_of_mem_drop (i := 43) (up_10 X0 X1 X2 X3 X4 X5 X6 (in_9 X0 X1 X2 X3 X4 X5 X6 (j := 2) rfl)))))⟩,
   ⟨rfl, rfl, fun W hg => (binary_result main_v34 main_v344 main_v691 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 44) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))) (hg ⟨main_v344, Read.val_main_v344 (F := F) X0 X1 X2 X3 X4 X5 X6⟩ (List.mem_of_mem_drop (i := 44) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 2) rfl)))))))))⟩,
   ⟨rfl, rfl, fun W hg => (binary_result main_v690 main_v691 main_v692 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v690, Read.val_main_v690 (F := F) X0 X1 X2 X3 X4 X5 X6⟩ (List.mem_of_getElem? (i := 1) rfl)) (hg ⟨main_v691, Read.val_main_v691 (F := F) X0 X1 X2 X3 X4 X5 X6⟩ (List.mem_of_getElem? (i := 0) rfl)))⟩,
   ⟨rfl, rfl, fun W hg => (binary_result main_v32 main_v134 main_v693 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 46) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))) (hg ⟨main_v134, Read.val_main_v134 (F := F) X0 X1 X2 X3 X4 X5 X6⟩ (List.mem_of_mem_drop (i := 46) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 32) rfl))))))))))))⟩,
   ⟨rfl, rfl, fun W hg => (binary_result main_v692 main_v693 main_v694 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v692, Read.val_main_v692 (F := F) X0 X1 X2 X3 X4 X5 X6⟩ (List.mem_of_getElem? (i := 1) rfl)) (hg ⟨main_v693, Read.val_main_v693 (F := F) X0 X1 X2 X3 X4 X5 X6⟩ (List.mem_of_getElem? (i := 0) rfl)))⟩,
   ⟨rfl, rfl, fun W hg => (binary_result main_v38 main_v654 main_v695 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 48) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))) (hg ⟨main_v654, Read.val_main_v654 (F := F) X0 X1 X2 X3 X4 X5 X6⟩ (List.mem_of_getElem? (i := 40) rfl)))⟩,
   ⟨rfl, rfl, fun W hg => (binary_result main_v30 main_v244 main_v696 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 49) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))) (hg ⟨main_v244, Read.val_main_v244 (F := F) X0 X1 X2 X3 X4 X5 X6⟩ (List.mem_of_mem_drop (i := 49) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 42) rfl))))))))))⟩,
   ⟨rfl, rfl, fun W hg => (binary_result main_v695 main_v696 main_v697 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v695, Read.val_main_v695 (F := F) X0 X1 X2 X3 X4 X5 X6⟩ (List.mem_of_getElem? (i := 1) rfl)) (hg ⟨main_v696, Read.val_main_v696 (F := F) X0 X1 X2 X3 X4 X5 X6⟩ (List.mem_of_getElem? (i := 0) rfl)))⟩,
   ⟨rfl, rfl, fun W hg => (binary_result main_v34 main_v294 main_v698 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 51) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))) (hg ⟨main_v294, Read.val_main_v294 (F := F) X0 X1 X2 X3 X4 X5 X6⟩ (List.mem_of_mem_drop (i := 51) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 52) rfl)))))))))⟩,
   ⟨rfl, rfl, fun W hg => (binary_result main_v697 main_v698 main_v699 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v697, Read.val_main_v697 (F := F) X0 X1 X2 X3 X4 X5 X6⟩ (List.mem_of_getElem? (i := 1) rfl)) (hg ⟨main_v698, Read.val_main_v698 (F := F) X0 X1 X2 X3 X4 X5 X6⟩ (List.mem_of_getElem? (i := 0) rfl)))⟩,
   ⟨rfl, rfl, fun W hg => (binary_result main_v30 main_v284 main_v700 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 53) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))) (hg ⟨main_v284, Read.val_main_v284 (F := F) X0 X1 X2 X3 X4 X5 X6⟩ (List.mem_of_mem_drop (i := 53) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 2) rfl))))))))))⟩,
   ⟨rfl, rfl, fun W hg => (binary_result main_v44 main_v76 main_v701 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 54) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))) (hg ⟨main_v76, Read.val_main_v76 (F := F) X0 X1 X2 X3 X4 X5 X6⟩ (List.mem_of_mem_drop (i := 54) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 32) rfl)))))))))))))⟩,
   ⟨rfl, rfl, fun W hg => (binary_result main_v700 main_v701 main_v702 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v700, Read.val_main_v700 (F := F) X0 X1 X2 X3 X4 X5 X6⟩ (List.mem_of_getElem? (i := 1) rfl)) (hg ⟨main_v701, Read.val_main_v701 (F := F) X0 X1 X2 X3 X4 X5 X6⟩ (List.mem_of_getElem? (i := 0) rfl)))⟩,
   ⟨rfl, rfl, fun W hg => (binary_result main_v38 main_v289 main_v703 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 56) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))) (hg ⟨main_v289, Read.val_main_v289 (F := F) X0 X1 X2 X3 X4 X5 X6⟩ (List.mem_of_mem_drop (i := 56) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 57) rfl)))))))))⟩,
   ⟨rfl, rfl, fun W hg => (binary_result main_v702 main_v703 main_v704 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v702, Read.val_main_v702 (F := F) X0 X1 X2 X3 X4 X5 X6⟩ (List.mem_of_getElem? (i := 1) rfl)) (hg ⟨main_v703, Read.val_main_v703 (F := F) X0 X1 X2 X3 X4 X5 X6⟩ (List.mem_of_getElem? (i := 0) rfl)))⟩,
   ⟨rfl, rfl, fun W hg => (binary_result main_v32 main_v409 main_v705 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 58) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))) (hg ⟨main_v409, Read.val_main_v409 (F := F) X0 X1 X2 X3 X4 X5 X6⟩ (List.mem_of_mem_drop (i := 58) (up_10 X0 X1 X2 X3 X4 X5 X6 (up_9 X0 X1 X2 X3 X4 X5 X6 (up_8 X0 X1 X2 X3 X4 X5 X6 (in_7 X0 X1 X2 X3 X4 X5 X6 (j := 57) rfl)))))))⟩,
   ⟨rfl, rfl, fun W hg => (binary_result main_v38 main_v419 main_v706 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 59) (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))) (hg ⟨main_v419, Read.val_main_v419 (F := F) X0 X1 X2 X3 X4 X5 X6⟩ (List.mem_of_mem_drop (i := 59) (up_10 X0 X1 X2 X3 X4 X5 X6 (up_9 X0 X1 X2 X3 X4 X5 X6 (up_8 X0 X1 X2 X3 X4 X5 X6 (in_7 X0 X1 X2 X3 X4 X5 X6 (j := 47) rfl)))))))⟩,
   trivial⟩
theorem good_11 (W : Valuation τ sig (Elt F)) (hg : Good W (tbl_10 X0 X1 X2 X3 X4 X5 X6) (7 + 664)) :
    Good (after ops_11 W) (tbl_11 X0 X1 X2 X3 X4 X5 X6) (7 + 724) :=
  Good.after _ _ _ _ W hg (chain_11 X0 X1 X2 X3 X4 X5 X6)

theorem part_eq_12 (c : Dev nD) : main_part12 (F := F) c = seq ops_12 := rfl
theorem fresh_12 : (ops_12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 12's operations write, in order. -/
abbrev ps_12 : List (Entry sig (Elt F)) :=
  [ ⟨main_v707, Read.val_main_v707 (F := F) X0 X1 X2 X3 X4 X5 X6⟩,
    ⟨main_v708, Read.val_main_v708 (F := F) X0 X1 X2 X3 X4 X5 X6⟩,
    ⟨main_v709, Read.val_main_v709 (F := F) X0 X1 X2 X3 X4 X5 X6⟩,
    ⟨main_v710, Read.val_main_v710 (F := F) X0 X1 X2 X3 X4 X5 X6⟩,
    ⟨main_v711, Read.val_main_v711 (F := F) X0 X1 X2 X3 X4 X5 X6⟩,
    ⟨main_v712, Read.val_main_v712 (F := F) X0 X1 X2 X3 X4 X5 X6⟩,
    ⟨main_v713, Read.val_main_v713 (F := F) X0 X1 X2 X3 X4 X5 X6⟩,
    ⟨main_v714, Read.val_main_v714 (F := F) X0 X1 X2 X3 X4 X5 X6⟩,
    ⟨main_v715, Read.val_main_v715 (F := F) X0 X1 X2 X3 X4 X5 X6⟩,
    ⟨main_v716, Read.val_main_v716 (F := F) X0 X1 X2 X3 X4 X5 X6⟩,
    ⟨main_v717, Read.val_main_v717 (F := F) X0 X1 X2 X3 X4 X5 X6⟩,
    ⟨main_v718, Read.val_main_v718 (F := F) X0 X1 X2 X3 X4 X5 X6⟩,
    ⟨main_v719, Read.val_main_v719 (F := F) X0 X1 X2 X3 X4 X5 X6⟩,
    ⟨main_v720, Read.val_main_v720 (F := F) X0 X1 X2 X3 X4 X5 X6⟩,
    ⟨main_v721, Read.val_main_v721 (F := F) X0 X1 X2 X3 X4 X5 X6⟩,
    ⟨main_v722, Read.val_main_v722 (F := F) X0 X1 X2 X3 X4 X5 X6⟩,
    ⟨main_v723, Read.val_main_v723 (F := F) X0 X1 X2 X3 X4 X5 X6⟩,
    ⟨main_v724, Read.val_main_v724 (F := F) X0 X1 X2 X3 X4 X5 X6⟩,
    ⟨main_v725, Read.val_main_v725 (F := F) X0 X1 X2 X3 X4 X5 X6⟩,
    ⟨main_v726, Read.val_main_v726 (F := F) X0 X1 X2 X3 X4 X5 X6⟩,
    ⟨main_v727, Read.val_main_v727 (F := F) X0 X1 X2 X3 X4 X5 X6⟩,
    ⟨main_v728, Read.val_main_v728 (F := F) X0 X1 X2 X3 X4 X5 X6⟩,
    ⟨main_v729, Read.val_main_v729 (F := F) X0 X1 X2 X3 X4 X5 X6⟩,
    ⟨main_v730, Read.val_main_v730 (F := F) X0 X1 X2 X3 X4 X5 X6⟩,
    ⟨main_v731, Read.val_main_v731 (F := F) X0 X1 X2 X3 X4 X5 X6⟩,
    ⟨main_v732, Read.val_main_v732 (F := F) X0 X1 X2 X3 X4 X5 X6⟩,
    ⟨main_v733, Read.val_main_v733 (F := F) X0 X1 X2 X3 X4 X5 X6⟩,
    ⟨main_v734, Read.val_main_v734 (F := F) X0 X1 X2 X3 X4 X5 X6⟩,
    ⟨main_v735, Read.val_main_v735 (F := F) X0 X1 X2 X3 X4 X5 X6⟩,
    ⟨main_v736, Read.val_main_v736 (F := F) X0 X1 X2 X3 X4 X5 X6⟩,
    ⟨main_v737, Read.val_main_v737 (F := F) X0 X1 X2 X3 X4 X5 X6⟩,
    ⟨main_v738, Read.val_main_v738 (F := F) X0 X1 X2 X3 X4 X5 X6⟩,
    ⟨main_v739, Read.val_main_v739 (F := F) X0 X1 X2 X3 X4 X5 X6⟩,
    ⟨main_v740, Read.val_main_v740 (F := F) X0 X1 X2 X3 X4 X5 X6⟩,
    ⟨main_v741, Read.val_main_v741 (F := F) X0 X1 X2 X3 X4 X5 X6⟩,
    ⟨main_v742, Read.val_main_v742 (F := F) X0 X1 X2 X3 X4 X5 X6⟩,
    ⟨main_v743, Read.val_main_v743 (F := F) X0 X1 X2 X3 X4 X5 X6⟩,
    ⟨main_v744, Read.val_main_v744 (F := F) X0 X1 X2 X3 X4 X5 X6⟩,
    ⟨main_v745, Read.val_main_v745 (F := F) X0 X1 X2 X3 X4 X5 X6⟩,
    ⟨main_v746, Read.val_main_v746 (F := F) X0 X1 X2 X3 X4 X5 X6⟩,
    ⟨main_v747, Read.val_main_v747 (F := F) X0 X1 X2 X3 X4 X5 X6⟩,
    ⟨main_v748, Read.val_main_v748 (F := F) X0 X1 X2 X3 X4 X5 X6⟩,
    ⟨main_v749, Read.val_main_v749 (F := F) X0 X1 X2 X3 X4 X5 X6⟩,
    ⟨main_v750, Read.val_main_v750 (F := F) X0 X1 X2 X3 X4 X5 X6⟩,
    ⟨main_v751, Read.val_main_v751 (F := F) X0 X1 X2 X3 X4 X5 X6⟩,
    ⟨main_v752, Read.val_main_v752 (F := F) X0 X1 X2 X3 X4 X5 X6⟩,
    ⟨main_v753, Read.val_main_v753 (F := F) X0 X1 X2 X3 X4 X5 X6⟩,
    ⟨main_v754, Read.val_main_v754 (F := F) X0 X1 X2 X3 X4 X5 X6⟩,
    ⟨main_v755, Read.val_main_v755 (F := F) X0 X1 X2 X3 X4 X5 X6⟩,
    ⟨main_v756, Read.val_main_v756 (F := F) X0 X1 X2 X3 X4 X5 X6⟩,
    ⟨main_v757, Read.val_main_v757 (F := F) X0 X1 X2 X3 X4 X5 X6⟩,
    ⟨main_v758, Read.val_main_v758 (F := F) X0 X1 X2 X3 X4 X5 X6⟩,
    ⟨main_v759, Read.val_main_v759 (F := F) X0 X1 X2 X3 X4 X5 X6⟩,
    ⟨main_v760, Read.val_main_v760 (F := F) X0 X1 X2 X3 X4 X5 X6⟩,
    ⟨main_v761, Read.val_main_v761 (F := F) X0 X1 X2 X3 X4 X5 X6⟩,
    ⟨main_v762, Read.val_main_v762 (F := F) X0 X1 X2 X3 X4 X5 X6⟩,
    ⟨main_v763, Read.val_main_v763 (F := F) X0 X1 X2 X3 X4 X5 X6⟩,
    ⟨main_v764, Read.val_main_v764 (F := F) X0 X1 X2 X3 X4 X5 X6⟩,
    ⟨main_v765, Read.val_main_v765 (F := F) X0 X1 X2 X3 X4 X5 X6⟩,
    ⟨main_v766, Read.val_main_v766 (F := F) X0 X1 X2 X3 X4 X5 X6⟩ ]
/-- The stages known after window 12, the newest first. -/
abbrev tbl_12 : List (Entry sig (Elt F)) := (ps_12 X0 X1 X2 X3 X4 X5 X6).reverse ++ tbl_11 X0 X1 X2 X3 X4 X5 X6
theorem up_12 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_11 X0 X1 X2 X3 X4 X5 X6) : e ∈ tbl_12 X0 X1 X2 X3 X4 X5 X6 := List.mem_append_right _ h
theorem in_12 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_12 X0 X1 X2 X3 X4 X5 X6).reverse[j]? = some e) : e ∈ tbl_12 X0 X1 X2 X3 X4 X5 X6 :=
  List.mem_append_left _ (List.mem_of_getElem? h)
set_option maxRecDepth 1000000 in
set_option maxHeartbeats 4000000 in
theorem chain_12 : Chain (tbl_11 X0 X1 X2 X3 X4 X5 X6) (7 + 724) (ops_12 (F := F)) (ps_12 X0 X1 X2 X3 X4 X5 X6) :=
  ⟨⟨rfl, rfl, fun W hg => (binary_result main_v705 main_v706 main_v707 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v705, Read.val_main_v705 (F := F) X0 X1 X2 X3 X4 X5 X6⟩ (List.mem_of_mem_drop (i := 0) (in_11 X0 X1 X2 X3 X4 X5 X6 (j := 1) rfl))) (hg ⟨main_v706, Read.val_main_v706 (F := F) X0 X1 X2 X3 X4 X5 X6⟩ (List.mem_of_mem_drop (i := 0) (in_11 X0 X1 X2 X3 X4 X5 X6 (j := 0) rfl))))⟩,
   ⟨rfl, rfl, fun W hg => (binary_result main_v26 main_v48 main_v708 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 1) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))) (hg ⟨main_v48, Read.val_main_v48 (F := F) X0 X1 X2 X3 X4 X5 X6⟩ (List.mem_of_mem_drop (i := 1) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 7) rfl)))))))))))))))⟩,
   ⟨rfl, rfl, fun W hg => (binary_result main_v707 main_v708 main_v709 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v707, Read.val_main_v707 (F := F) X0 X1 X2 X3 X4 X5 X6⟩ (List.mem_of_getElem? (i := 1) rfl)) (hg ⟨main_v708, Read.val_main_v708 (F := F) X0 X1 X2 X3 X4 X5 X6⟩ (List.mem_of_getElem? (i := 0) rfl)))⟩,
   ⟨rfl, rfl, fun W hg => (binary_result main_v44 main_v584 main_v710 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 3) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))) (hg ⟨main_v584, Read.val_main_v584 (F := F) X0 X1 X2 X3 X4 X5 X6⟩ (List.mem_of_mem_drop (i := 3) (up_11 X0 X1 X2 X3 X4 X5 X6 (up_10 X0 X1 X2 X3 X4 X5 X6 (in_9 X0 X1 X2 X3 X4 X5 X6 (j := 2) rfl))))))⟩,
   ⟨rfl, rfl, fun W hg => (binary_result main_v30 main_v249 main_v711 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 4) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))) (hg ⟨main_v249, Read.val_main_v249 (F := F) X0 X1 X2 X3 X4 X5 X6⟩ (List.mem_of_mem_drop (i := 4) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 37) rfl)))))))))))⟩,
   ⟨rfl, rfl, fun W hg => (binary_result main_v710 main_v711 main_v712 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v710, Read.val_main_v710 (F := F) X0 X1 X2 X3 X4 X5 X6⟩ (List.mem_of_getElem? (i := 1) rfl)) (hg ⟨main_v711, Read.val_main_v711 (F := F) X0 X1 X2 X3 X4 X5 X6⟩ (List.mem_of_getElem? (i := 0) rfl)))⟩,
   ⟨rfl, rfl, fun W hg => (binary_result main_v34 main_v149 main_v713 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 6) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))) (hg ⟨main_v149, Read.val_main_v149 (F := F) X0 X1 X2 X3 X4 X5 X6⟩ (List.mem_of_mem_drop (i := 6) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 17) rfl)))))))))))))⟩,
   ⟨rfl, rfl, fun W hg => (binary_result main_v712 main_v713 main_v714 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v712, Read.val_main_v712 (F := F) X0 X1 X2 X3 X4 X5 X6⟩ (List.mem_of_getElem? (i := 1) rfl)) (hg ⟨main_v713, Read.val_main_v713 (F := F) X0 X1 X2 X3 X4 X5 X6⟩ (List.mem_of_getElem? (i := 0) rfl)))⟩,
   ⟨rfl, rfl, fun W hg => (binary_result main_v44 main_v654 main_v715 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 8) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))) (hg ⟨main_v654, Read.val_main_v654 (F := F) X0 X1 X2 X3 X4 X5 X6⟩ (List.mem_of_mem_drop (i := 8) (in_11 X0 X1 X2 X3 X4 X5 X6 (j := 52) rfl))))⟩,
   ⟨rfl, rfl, fun W hg => (binary_result main_v38 main_v599 main_v716 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 9) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))) (hg ⟨main_v599, Read.val_main_v599 (F := F) X0 X1 X2 X3 X4 X5 X6⟩ (List.mem_of_mem_drop (i := 9) (up_11 X0 X1 X2 X3 X4 X5 X6 (in_10 X0 X1 X2 X3 X4 X5 X6 (j := 47) rfl)))))⟩,
   ⟨rfl, rfl, fun W hg => (binary_result main_v715 main_v716 main_v717 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v715, Read.val_main_v715 (F := F) X0 X1 X2 X3 X4 X5 X6⟩ (List.mem_of_getElem? (i := 1) rfl)) (hg ⟨main_v716, Read.val_main_v716 (F := F) X0 X1 X2 X3 X4 X5 X6⟩ (List.mem_of_getElem? (i := 0) rfl)))⟩,
   ⟨rfl, rfl, fun W hg => (binary_result main_v42 main_v429 main_v718 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 11) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))) (hg ⟨main_v429, Read.val_main_v429 (F := F) X0 X1 X2 X3 X4 X5 X6⟩ (List.mem_of_mem_drop (i := 11) (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 37) rfl))))))))⟩,
   ⟨rfl, rfl, fun W hg => (binary_result main_v717 main_v718 main_v719 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v717, Read.val_main_v717 (F := F) X0 X1 X2 X3 X4 X5 X6⟩ (List.mem_of_getElem? (i := 1) rfl)) (hg ⟨main_v718, Read.val_main_v718 (F := F) X0 X1 X2 X3 X4 X5 X6⟩ (List.mem_of_getElem? (i := 0) rfl)))⟩,
   ⟨rfl, rfl, fun W hg => (binary_result main_v30 main_v459 main_v720 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 13) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))) (hg ⟨main_v459, Read.val_main_v459 (F := F) X0 X1 X2 X3 X4 X5 X6⟩ (List.mem_of_mem_drop (i := 13) (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 7) rfl))))))))⟩,
   ⟨rfl, rfl, fun W hg => (binary_result main_v32 main_v354 main_v721 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 14) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))) (hg ⟨main_v354, Read.val_main_v354 (F := F) X0 X1 X2 X3 X4 X5 X6⟩ (List.mem_of_mem_drop (i := 14) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 52) rfl)))))))))⟩,
   ⟨rfl, rfl, fun W hg => (binary_result main_v720 main_v721 main_v722 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v720, Read.val_main_v720 (F := F) X0 X1 X2 X3 X4 X5 X6⟩ (List.mem_of_getElem? (i := 1) rfl)) (hg ⟨main_v721, Read.val_main_v721 (F := F) X0 X1 X2 X3 X4 X5 X6⟩ (List.mem_of_getElem? (i := 0) rfl)))⟩,
   ⟨rfl, rfl, fun W hg => (binary_result main_v42 main_v529 main_v723 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 16) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))) (hg ⟨main_v529, Read.val_main_v529 (F := F) X0 X1 X2 X3 X4 X5 X6⟩ (List.mem_of_mem_drop (i := 16) (up_11 X0 X1 X2 X3 X4 X5 X6 (up_10 X0 X1 X2 X3 X4 X5 X6 (in_9 X0 X1 X2 X3 X4 X5 X6 (j := 57) rfl))))))⟩,
   ⟨rfl, rfl, fun W hg => (binary_result main_v722 main_v723 main_v724 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v722, Read.val_main_v722 (F := F) X0 X1 X2 X3 X4 X5 X6⟩ (List.mem_of_getElem? (i := 1) rfl)) (hg ⟨main_v723, Read.val_main_v723 (F := F) X0 X1 X2 X3 X4 X5 X6⟩ (List.mem_of_getElem? (i := 0) rfl)))⟩,
   ⟨rfl, rfl, fun W hg => (binary_result main_v30 main_v474 main_v725 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 18) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))) (hg ⟨main_v474, Read.val_main_v474 (F := F) X0 X1 X2 X3 X4 X5 X6⟩ (List.mem_of_mem_drop (i := 18) (up_11 X0 X1 X2 X3 X4 X5 X6 (up_10 X0 X1 X2 X3 X4 X5 X6 (up_9 X0 X1 X2 X3 X4 X5 X6 (in_8 X0 X1 X2 X3 X4 X5 X6 (j := 52) rfl)))))))⟩,
   ⟨rfl, rfl, fun W hg => (binary_result main_v28 main_v219 main_v726 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 19) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))) (hg ⟨main_v219, Read.val_main_v219 (F := F) X0 X1 X2 X3 X4 X5 X6⟩ (List.mem_of_mem_drop (i := 19) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 7) rfl))))))))))))⟩,
   ⟨rfl, rfl, fun W hg => (binary_result main_v725 main_v726 main_v727 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v725, Read.val_main_v725 (F := F) X0 X1 X2 X3 X4 X5 X6⟩ (List.mem_of_getElem? (i := 1) rfl)) (hg ⟨main_v726, Read.val_main_v726 (F := F) X0 X1 X2 X3 X4 X5 X6⟩ (List.mem_of_getElem? (i := 0) rfl)))⟩,
   ⟨rfl, rfl, fun W hg => (binary_result main_v42 main_v529 main_v728 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 21) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))) (hg ⟨main_v529, Read.val_main_v529 (F := F) X0 X1 X2 X3 X4 X5 X6⟩ (List.mem_of_mem_drop (i := 21) (up_11 X0 X1 X2 X3 X4 X5 X6 (up_10 X0 X1 X2 X3 X4 X5 X6 (in_9 X0 X1 X2 X3 X4 X5 X6 (j := 57) rfl))))))⟩,
   ⟨rfl, rfl, fun W hg => (binary_result main_v727 main_v728 main_v729 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v727, Read.val_main_v727 (F := F) X0 X1 X2 X3 X4 X5 X6⟩ (List.mem_of_getElem? (i := 1) rfl)) (hg ⟨main_v728, Read.val_main_v728 (F := F) X0 X1 X2 X3 X4 X5 X6⟩ (List.mem_of_getElem? (i := 0) rfl)))⟩,
   ⟨rfl, rfl, fun W hg => (binary_result main_v34 main_v454 main_v730 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 23) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))) (hg ⟨main_v454, Read.val_main_v454 (F := F) X0 X1 X2 X3 X4 X5 X6⟩ (List.mem_of_mem_drop (i := 23) (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 12) rfl))))))))⟩,
   ⟨rfl, rfl, fun W hg => (binary_result main_v38 main_v494 main_v731 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 24) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))) (hg ⟨main_v494, Read.val_main_v494 (F := F) X0 X1 X2 X3 X4 X5 X6⟩ (List.mem_of_mem_drop (i := 24) (up_11 X0 X1 X2 X3 X4 X5 X6 (up_10 X0 X1 X2 X3 X4 X5 X6 (up_9 X0 X1 X2 X3 X4 X5 X6 (in_8 X0 X1 X2 X3 X4 X5 X6 (j := 32) rfl)))))))⟩,
   ⟨rfl, rfl, fun W hg => (binary_result main_v730 main_v731 main_v732 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v730, Read.val_main_v730 (F := F) X0 X1 X2 X3 X4 X5 X6⟩ (List.mem_of_getElem? (i := 1) rfl)) (hg ⟨main_v731, Read.val_main_v731 (F := F) X0 X1 X2 X3 X4 X5 X6⟩ (List.mem_of_getElem? (i := 0) rfl)))⟩,
   ⟨rfl, rfl, fun W hg => (binary_result main_v40 main_v589 main_v733 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 26) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))) (hg ⟨main_v589, Read.val_main_v589 (F := F) X0 X1 X2 X3 X4 X5 X6⟩ (List.mem_of_mem_drop (i := 26) (up_11 X0 X1 X2 X3 X4 X5 X6 (in_10 X0 X1 X2 X3 X4 X5 X6 (j := 57) rfl)))))⟩,
   ⟨rfl, rfl, fun W hg => (binary_result main_v732 main_v733 main_v734 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v732, Read.val_main_v732 (F := F) X0 X1 X2 X3 X4 X5 X6⟩ (List.mem_of_getElem? (i := 1) rfl)) (hg ⟨main_v733, Read.val_main_v733 (F := F) X0 X1 X2 X3 X4 X5 X6⟩ (List.mem_of_getElem? (i := 0) rfl)))⟩,
   ⟨rfl, rfl, fun W hg => (binary_result main_v32 main_v119 main_v735 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 28) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))) (hg ⟨main_v119, Read.val_main_v119 (F := F) X0 X1 X2 X3 X4 X5 X6⟩ (List.mem_of_mem_drop (i := 28) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 47) rfl)))))))))))))⟩,
   ⟨rfl, rfl, fun W hg => (binary_result main_v36 main_v544 main_v736 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 29) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))) (hg ⟨main_v544, Read.val_main_v544 (F := F) X0 X1 X2 X3 X4 X5 X6⟩ (List.mem_of_mem_drop (i := 29) (up_11 X0 X1 X2 X3 X4 X5 X6 (up_10 X0 X1 X2 X3 X4 X5 X6 (in_9 X0 X1 X2 X3 X4 X5 X6 (j := 42) rfl))))))⟩,
   ⟨rfl, rfl, fun W hg => (binary_result main_v735 main_v736 main_v737 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v735, Read.val_main_v735 (F := F) X0 X1 X2 X3 X4 X5 X6⟩ (List.mem_of_getElem? (i := 1) rfl)) (hg ⟨main_v736, Read.val_main_v736 (F := F) X0 X1 X2 X3 X4 X5 X6⟩ (List.mem_of_getElem? (i := 0) rfl)))⟩,
   ⟨rfl, rfl, fun W hg => (binary_result main_v44 main_v404 main_v738 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 31) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))) (hg ⟨main_v404, Read.val_main_v404 (F := F) X0 X1 X2 X3 X4 X5 X6⟩ (List.mem_of_mem_drop (i := 31) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 2) rfl)))))))))⟩,
   ⟨rfl, rfl, fun W hg => (binary_result main_v737 main_v738 main_v739 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v737, Read.val_main_v737 (F := F) X0 X1 X2 X3 X4 X5 X6⟩ (List.mem_of_getElem? (i := 1) rfl)) (hg ⟨main_v738, Read.val_main_v738 (F := F) X0 X1 X2 X3 X4 X5 X6⟩ (List.mem_of_getElem? (i := 0) rfl)))⟩,
   ⟨rfl, rfl, fun W hg => (binary_result main_v42 main_v244 main_v740 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 33) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))) (hg ⟨main_v244, Read.val_main_v244 (F := F) X0 X1 X2 X3 X4 X5 X6⟩ (List.mem_of_mem_drop (i := 33) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 42) rfl)))))))))))⟩,
   ⟨rfl, rfl, fun W hg => (binary_result main_v28 main_v234 main_v741 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 34) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))) (hg ⟨main_v234, Read.val_main_v234 (F := F) X0 X1 X2 X3 X4 X5 X6⟩ (List.mem_of_mem_drop (i := 34) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 52) rfl)))))))))))⟩,
   ⟨rfl, rfl, fun W hg => (binary_result main_v740 main_v741 main_v742 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v740, Read.val_main_v740 (F := F) X0 X1 X2 X3 X4 X5 X6⟩ (List.mem_of_getElem? (i := 1) rfl)) (hg ⟨main_v741, Read.val_main_v741 (F := F) X0 X1 X2 X3 X4 X5 X6⟩ (List.mem_of_getElem? (i := 0) rfl)))⟩,
   ⟨rfl, rfl, fun W hg => (binary_result main_v44 main_v144 main_v743 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 36) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))) (hg ⟨main_v144, Read.val_main_v144 (F := F) X0 X1 X2 X3 X4 X5 X6⟩ (List.mem_of_mem_drop (i := 36) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 22) rfl)))))))))))))⟩,
   ⟨rfl, rfl, fun W hg => (binary_result main_v742 main_v743 main_v744 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v742, Read.val_main_v742 (F := F) X0 X1 X2 X3 X4 X5 X6⟩ (List.mem_of_getElem? (i := 1) rfl)) (hg ⟨main_v743, Read.val_main_v743 (F := F) X0 X1 X2 X3 X4 X5 X6⟩ (List.mem_of_getElem? (i := 0) rfl)))⟩,
   ⟨rfl, rfl, fun W hg => (binary_result main_v38 main_v214 main_v745 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 38) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))) (hg ⟨main_v214, Read.val_main_v214 (F := F) X0 X1 X2 X3 X4 X5 X6⟩ (List.mem_of_mem_drop (i := 38) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 12) rfl))))))))))))⟩,
   ⟨rfl, rfl, fun W hg => (binary_result main_v36 main_v624 main_v746 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 39) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))) (hg ⟨main_v624, Read.val_main_v624 (F := F) X0 X1 X2 X3 X4 X5 X6⟩ (List.mem_of_mem_drop (i := 39) (up_11 X0 X1 X2 X3 X4 X5 X6 (in_10 X0 X1 X2 X3 X4 X5 X6 (j := 22) rfl)))))⟩,
   ⟨rfl, rfl, fun W hg => (binary_result main_v745 main_v746 main_v747 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v745, Read.val_main_v745 (F := F) X0 X1 X2 X3 X4 X5 X6⟩ (List.mem_of_getElem? (i := 1) rfl)) (hg ⟨main_v746, Read.val_main_v746 (F := F) X0 X1 X2 X3 X4 X5 X6⟩ (List.mem_of_getElem? (i := 0) rfl)))⟩,
   ⟨rfl, rfl, fun W hg => (binary_result main_v40 main_v34 main_v748 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 41) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))) (hg ⟨main_v34, Read.val_main_v34 (F := F) X0 X1 X2 X3 X4 X5 X6⟩ (List.mem_of_mem_drop (i := 41) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))⟩,
   ⟨rfl, rfl, fun W hg => (binary_result main_v747 main_v748 main_v749 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v747, Read.val_main_v747 (F := F) X0 X1 X2 X3 X4 X5 X6⟩ (List.mem_of_getElem? (i := 1) rfl)) (hg ⟨main_v748, Read.val_main_v748 (F := F) X0 X1 X2 X3 X4 X5 X6⟩ (List.mem_of_getElem? (i := 0) rfl)))⟩,
   ⟨rfl, rfl, fun W hg => (binary_result main_v36 main_v694 main_v750 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 43) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))) (hg ⟨main_v694, Read.val_main_v694 (F := F) X0 X1 X2 X3 X4 X5 X6⟩ (List.mem_of_mem_drop (i := 43) (in_11 X0 X1 X2 X3 X4 X5 X6 (j := 12) rfl))))⟩,
   ⟨rfl, rfl, fun W hg => (binary_result main_v40 main_v34 main_v751 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 44) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))) (hg ⟨main_v34, Read.val_main_v34 (F := F) X0 X1 X2 X3 X4 X5 X6⟩ (List.mem_of_mem_drop (i := 44) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))⟩,
   ⟨rfl, rfl, fun W hg => (binary_result main_v750 main_v751 main_v752 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v750, Read.val_main_v750 (F := F) X0 X1 X2 X3 X4 X5 X6⟩ (List.mem_of_getElem? (i := 1) rfl)) (hg ⟨main_v751, Read.val_main_v751 (F := F) X0 X1 X2 X3 X4 X5 X6⟩ (List.mem_of_getElem? (i := 0) rfl)))⟩,
   ⟨rfl, rfl, fun W hg => (binary_result main_v34 main_v68 main_v753 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 46) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))) (hg ⟨main_v68, Read.val_main_v68 (F := F) X0 X1 X2 X3 X4 X5 X6⟩ (List.mem_of_mem_drop (i := 46) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 42) rfl))))))))))))))⟩,
   ⟨rfl, rfl, fun W hg => (binary_result main_v752 main_v753 main_v754 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v752, Read.val_main_v752 (F := F) X0 X1 X2 X3 X4 X5 X6⟩ (List.mem_of_getElem? (i := 1) rfl)) (hg ⟨main_v753, Read.val_main_v753 (F := F) X0 X1 X2 X3 X4 X5 X6⟩ (List.mem_of_getElem? (i := 0) rfl)))⟩,
   ⟨rfl, rfl, fun W hg => (binary_result main_v36 main_v629 main_v755 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 48) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))) (hg ⟨main_v629, Read.val_main_v629 (F := F) X0 X1 X2 X3 X4 X5 X6⟩ (List.mem_of_mem_drop (i := 48) (up_11 X0 X1 X2 X3 X4 X5 X6 (in_10 X0 X1 X2 X3 X4 X5 X6 (j := 17) rfl)))))⟩,
   ⟨rfl, rfl, fun W hg => (binary_result main_v26 main_v464 main_v756 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 49) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))) (hg ⟨main_v464, Read.val_main_v464 (F := F) X0 X1 X2 X3 X4 X5 X6⟩ (List.mem_of_mem_drop (i := 49) (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 2) rfl))))))))⟩,
   ⟨rfl, rfl, fun W hg => (binary_result main_v755 main_v756 main_v757 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v755, Read.val_main_v755 (F := F) X0 X1 X2 X3 X4 X5 X6⟩ (List.mem_of_getElem? (i := 1) rfl)) (hg ⟨main_v756, Read.val_main_v756 (F := F) X0 X1 X2 X3 X4 X5 X6⟩ (List.mem_of_getElem? (i := 0) rfl)))⟩,
   ⟨rfl, rfl, fun W hg => (binary_result main_v40 main_v539 main_v758 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 51) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))) (hg ⟨main_v539, Read.val_main_v539 (F := F) X0 X1 X2 X3 X4 X5 X6⟩ (List.mem_of_mem_drop (i := 51) (up_11 X0 X1 X2 X3 X4 X5 X6 (up_10 X0 X1 X2 X3 X4 X5 X6 (in_9 X0 X1 X2 X3 X4 X5 X6 (j := 47) rfl))))))⟩,
   ⟨rfl, rfl, fun W hg => (binary_result main_v757 main_v758 main_v759 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v757, Read.val_main_v757 (F := F) X0 X1 X2 X3 X4 X5 X6⟩ (List.mem_of_getElem? (i := 1) rfl)) (hg ⟨main_v758, Read.val_main_v758 (F := F) X0 X1 X2 X3 X4 X5 X6⟩ (List.mem_of_getElem? (i := 0) rfl)))⟩,
   ⟨rfl, rfl, fun W hg => (binary_result main_v36 main_v174 main_v760 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 53) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))) (hg ⟨main_v174, Read.val_main_v174 (F := F) X0 X1 X2 X3 X4 X5 X6⟩ (List.mem_of_mem_drop (i := 53) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 52) rfl))))))))))))⟩,
   ⟨rfl, rfl, fun W hg => (binary_result main_v42 main_v584 main_v761 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 54) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))) (hg ⟨main_v584, Read.val_main_v584 (F := F) X0 X1 X2 X3 X4 X5 X6⟩ (List.mem_of_mem_drop (i := 54) (up_11 X0 X1 X2 X3 X4 X5 X6 (up_10 X0 X1 X2 X3 X4 X5 X6 (in_9 X0 X1 X2 X3 X4 X5 X6 (j := 2) rfl))))))⟩,
   ⟨rfl, rfl, fun W hg => (binary_result main_v760 main_v761 main_v762 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v760, Read.val_main_v760 (F := F) X0 X1 X2 X3 X4 X5 X6⟩ (List.mem_of_getElem? (i := 1) rfl)) (hg ⟨main_v761, Read.val_main_v761 (F := F) X0 X1 X2 X3 X4 X5 X6⟩ (List.mem_of_getElem? (i := 0) rfl)))⟩,
   ⟨rfl, rfl, fun W hg => (binary_result main_v26 main_v284 main_v763 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 56) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))) (hg ⟨main_v284, Read.val_main_v284 (F := F) X0 X1 X2 X3 X4 X5 X6⟩ (List.mem_of_mem_drop (i := 56) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 2) rfl)))))))))))⟩,
   ⟨rfl, rfl, fun W hg => (binary_result main_v762 main_v763 main_v764 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v762, Read.val_main_v762 (F := F) X0 X1 X2 X3 X4 X5 X6⟩ (List.mem_of_getElem? (i := 1) rfl)) (hg ⟨main_v763, Read.val_main_v763 (F := F) X0 X1 X2 X3 X4 X5 X6⟩ (List.mem_of_getElem? (i := 0) rfl)))⟩,
   ⟨rfl, rfl, fun W hg => (binary_result main_v30 main_v249 main_v765 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 58) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))) (hg ⟨main_v249, Read.val_main_v249 (F := F) X0 X1 X2 X3 X4 X5 X6⟩ (List.mem_of_mem_drop (i := 58) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 37) rfl)))))))))))⟩,
   ⟨rfl, rfl, fun W hg => (binary_result main_v38 main_v199 main_v766 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 59) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))) (hg ⟨main_v199, Read.val_main_v199 (F := F) X0 X1 X2 X3 X4 X5 X6⟩ (List.mem_of_mem_drop (i := 59) (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 27) rfl))))))))))))⟩,
   trivial⟩
theorem good_12 (W : Valuation τ sig (Elt F)) (hg : Good W (tbl_11 X0 X1 X2 X3 X4 X5 X6) (7 + 724)) :
    Good (after ops_12 W) (tbl_12 X0 X1 X2 X3 X4 X5 X6) (7 + 784) :=
  Good.after _ _ _ _ W hg (chain_12 X0 X1 X2 X3 X4 X5 X6)

theorem part_eq_13 (c : Dev nD) : main_part13 (F := F) c = seq ops_13 := rfl
theorem fresh_13 : (ops_13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 13's operations write, in order. -/
abbrev ps_13 : List (Entry sig (Elt F)) :=
  [ ⟨main_v767, Read.val_main_v767 (F := F) X0 X1 X2 X3 X4 X5 X6⟩,
    ⟨main_v768, Read.val_main_v768 (F := F) X0 X1 X2 X3 X4 X5 X6⟩,
    ⟨main_v769, Read.val_main_v769 (F := F) X0 X1 X2 X3 X4 X5 X6⟩,
    ⟨main_v770, Read.val_main_v770 (F := F) X0 X1 X2 X3 X4 X5 X6⟩,
    ⟨main_v771, Read.val_main_v771 (F := F) X0 X1 X2 X3 X4 X5 X6⟩,
    ⟨main_v772, Read.val_main_v772 (F := F) X0 X1 X2 X3 X4 X5 X6⟩,
    ⟨main_v773, Read.val_main_v773 (F := F) X0 X1 X2 X3 X4 X5 X6⟩,
    ⟨main_v774, Read.val_main_v774 (F := F) X0 X1 X2 X3 X4 X5 X6⟩,
    ⟨main_v775, Read.val_main_v775 (F := F) X0 X1 X2 X3 X4 X5 X6⟩,
    ⟨main_v776, Read.val_main_v776 (F := F) X0 X1 X2 X3 X4 X5 X6⟩,
    ⟨main_v777, Read.val_main_v777 (F := F) X0 X1 X2 X3 X4 X5 X6⟩,
    ⟨main_v778, Read.val_main_v778 (F := F) X0 X1 X2 X3 X4 X5 X6⟩,
    ⟨main_v779, Read.val_main_v779 (F := F) X0 X1 X2 X3 X4 X5 X6⟩,
    ⟨main_v780, Read.val_main_v780 (F := F) X0 X1 X2 X3 X4 X5 X6⟩,
    ⟨main_v781, Read.val_main_v781 (F := F) X0 X1 X2 X3 X4 X5 X6⟩,
    ⟨main_v782, Read.val_main_v782 (F := F) X0 X1 X2 X3 X4 X5 X6⟩,
    ⟨main_v783, Read.val_main_v783 (F := F) X0 X1 X2 X3 X4 X5 X6⟩,
    ⟨main_v784, Read.val_main_v784 (F := F) X0 X1 X2 X3 X4 X5 X6⟩,
    ⟨main_v785, Read.val_main_v785 (F := F) X0 X1 X2 X3 X4 X5 X6⟩,
    ⟨main_v786, Read.val_main_v786 (F := F) X0 X1 X2 X3 X4 X5 X6⟩,
    ⟨main_v787, Read.val_main_v787 (F := F) X0 X1 X2 X3 X4 X5 X6⟩,
    ⟨main_v788, Read.val_main_v788 (F := F) X0 X1 X2 X3 X4 X5 X6⟩,
    ⟨main_v789, Read.val_main_v789 (F := F) X0 X1 X2 X3 X4 X5 X6⟩,
    ⟨main_v790, Read.val_main_v790 (F := F) X0 X1 X2 X3 X4 X5 X6⟩,
    ⟨main_v791, Read.val_main_v791 (F := F) X0 X1 X2 X3 X4 X5 X6⟩,
    ⟨main_v792, Read.val_main_v792 (F := F) X0 X1 X2 X3 X4 X5 X6⟩,
    ⟨main_v793, Read.val_main_v793 (F := F) X0 X1 X2 X3 X4 X5 X6⟩,
    ⟨main_v794, Read.val_main_v794 (F := F) X0 X1 X2 X3 X4 X5 X6⟩,
    ⟨main_v795, Read.val_main_v795 (F := F) X0 X1 X2 X3 X4 X5 X6⟩,
    ⟨main_v796, Read.val_main_v796 (F := F) X0 X1 X2 X3 X4 X5 X6⟩,
    ⟨main_v797, Read.val_main_v797 (F := F) X0 X1 X2 X3 X4 X5 X6⟩,
    ⟨main_v798, Read.val_main_v798 (F := F) X0 X1 X2 X3 X4 X5 X6⟩,
    ⟨main_v799, Read.val_main_v799 (F := F) X0 X1 X2 X3 X4 X5 X6⟩,
    ⟨main_v800, Read.val_main_v800 (F := F) X0 X1 X2 X3 X4 X5 X6⟩,
    ⟨main_v801, Read.val_main_v801 (F := F) X0 X1 X2 X3 X4 X5 X6⟩,
    ⟨main_v802, Read.val_main_v802 (F := F) X0 X1 X2 X3 X4 X5 X6⟩,
    ⟨main_v803, Read.val_main_v803 (F := F) X0 X1 X2 X3 X4 X5 X6⟩,
    ⟨main_v804, Read.val_main_v804 (F := F) X0 X1 X2 X3 X4 X5 X6⟩,
    ⟨main_v805, Read.val_main_v805 (F := F) X0 X1 X2 X3 X4 X5 X6⟩,
    ⟨main_v806, Read.val_main_v806 (F := F) X0 X1 X2 X3 X4 X5 X6⟩,
    ⟨main_v807, Read.val_main_v807 (F := F) X0 X1 X2 X3 X4 X5 X6⟩,
    ⟨main_v808, Read.val_main_v808 (F := F) X0 X1 X2 X3 X4 X5 X6⟩,
    ⟨main_v809, Read.val_main_v809 (F := F) X0 X1 X2 X3 X4 X5 X6⟩,
    ⟨main_v810, Read.val_main_v810 (F := F) X0 X1 X2 X3 X4 X5 X6⟩,
    ⟨main_v811, Read.val_main_v811 (F := F) X0 X1 X2 X3 X4 X5 X6⟩,
    ⟨main_v812, Read.val_main_v812 (F := F) X0 X1 X2 X3 X4 X5 X6⟩,
    ⟨main_v813, Read.val_main_v813 (F := F) X0 X1 X2 X3 X4 X5 X6⟩,
    ⟨main_v814, Read.val_main_v814 (F := F) X0 X1 X2 X3 X4 X5 X6⟩,
    ⟨main_v815, Read.val_main_v815 (F := F) X0 X1 X2 X3 X4 X5 X6⟩,
    ⟨main_v816, Read.val_main_v816 (F := F) X0 X1 X2 X3 X4 X5 X6⟩,
    ⟨main_v817, Read.val_main_v817 (F := F) X0 X1 X2 X3 X4 X5 X6⟩,
    ⟨main_v818, Read.val_main_v818 (F := F) X0 X1 X2 X3 X4 X5 X6⟩,
    ⟨main_v819, Read.val_main_v819 (F := F) X0 X1 X2 X3 X4 X5 X6⟩,
    ⟨main_v820, Read.val_main_v820 (F := F) X0 X1 X2 X3 X4 X5 X6⟩,
    ⟨main_v821, Read.val_main_v821 (F := F) X0 X1 X2 X3 X4 X5 X6⟩,
    ⟨main_v822, Read.val_main_v822 (F := F) X0 X1 X2 X3 X4 X5 X6⟩,
    ⟨main_v823, Read.val_main_v823 (F := F) X0 X1 X2 X3 X4 X5 X6⟩,
    ⟨main_v824, Read.val_main_v824 (F := F) X0 X1 X2 X3 X4 X5 X6⟩,
    ⟨main_v825, Read.val_main_v825 (F := F) X0 X1 X2 X3 X4 X5 X6⟩,
    ⟨main_v826, Read.val_main_v826 (F := F) X0 X1 X2 X3 X4 X5 X6⟩ ]
/-- The stages known after window 13, the newest first. -/
abbrev tbl_13 : List (Entry sig (Elt F)) := (ps_13 X0 X1 X2 X3 X4 X5 X6).reverse ++ tbl_12 X0 X1 X2 X3 X4 X5 X6
theorem up_13 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_12 X0 X1 X2 X3 X4 X5 X6) : e ∈ tbl_13 X0 X1 X2 X3 X4 X5 X6 := List.mem_append_right _ h
theorem in_13 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_13 X0 X1 X2 X3 X4 X5 X6).reverse[j]? = some e) : e ∈ tbl_13 X0 X1 X2 X3 X4 X5 X6 :=
  List.mem_append_left _ (List.mem_of_getElem? h)
set_option maxRecDepth 1000000 in
set_option maxHeartbeats 4000000 in
theorem chain_13 : Chain (tbl_12 X0 X1 X2 X3 X4 X5 X6) (7 + 784) (ops_13 (F := F)) (ps_13 X0 X1 X2 X3 X4 X5 X6) :=
  ⟨⟨rfl, rfl, fun W hg => (binary_result main_v765 main_v766 main_v767 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v765, Read.val_main_v765 (F := F) X0 X1 X2 X3 X4 X5 X6⟩ (List.mem_of_mem_drop (i := 0) (in_12 X0 X1 X2 X3 X4 X5 X6 (j := 1) rfl))) (hg ⟨main_v766, Read.val_main_v766 (F := F) X0 X1 X2 X3 X4 X5 X6⟩ (List.mem_of_mem_drop (i := 0) (in_12 X0 X1 X2 X3 X4 X5 X6 (j := 0) rfl))))⟩,
   ⟨rfl, rfl, fun W hg => (binary_result main_v34 main_v679 main_v768 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 1) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))) (hg ⟨main_v679, Read.val_main_v679 (F := F) X0 X1 X2 X3 X4 X5 X6⟩ (List.mem_of_mem_drop (i := 1) (up_12 X0 X1 X2 X3 X4 X5 X6 (in_11 X0 X1 X2 X3 X4 X5 X6 (j := 27) rfl)))))⟩,
   ⟨rfl, rfl, fun W hg => (binary_result main_v767 main_v768 main_v769 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v767, Read.val_main_v767 (F := F) X0 X1 X2 X3 X4 X5 X6⟩ (List.mem_of_getElem? (i := 1) rfl)) (hg ⟨main_v768, Read.val_main_v768 (F := F) X0 X1 X2 X3 X4 X5 X6⟩ (List.mem_of_getElem? (i := 0) rfl)))⟩,
   ⟨rfl, rfl, fun W hg => (binary_result main_v32 main_v599 main_v770 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 3) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))) (hg ⟨main_v599, Read.val_main_v599 (F := F) X0 X1 X2 X3 X4 X5 X6⟩ (List.mem_of_mem_drop (i := 3) (up_12 X0 X1 X2 X3 X4 X5 X6 (up_11 X0 X1 X2 X3 X4 X5 X6 (in_10 X0 X1 X2 X3 X4 X5 X6 (j := 47) rfl))))))⟩,
   ⟨rfl, rfl, fun W hg => (binary_result main_v44 main_v99 main_v771 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 4) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))) (hg ⟨main_v99, Read.val_main_v99 (F := F) X0 X1 X2 X3 X4 X5 X6⟩ (List.mem_of_mem_drop (i := 4) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 7) rfl)))))))))))))))⟩,
   ⟨rfl, rfl, fun W hg => (binary_result main_v770 main_v771 main_v772 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v770, Read.val_main_v770 (F := F) X0 X1 X2 X3 X4 X5 X6⟩ (List.mem_of_getElem? (i := 1) rfl)) (hg ⟨main_v771, Read.val_main_v771 (F := F) X0 X1 X2 X3 X4 X5 X6⟩ (List.mem_of_getElem? (i := 0) rfl)))⟩,
   ⟨rfl, rfl, fun W hg => (binary_result main_v36 main_v449 main_v773 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 6) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))) (hg ⟨main_v449, Read.val_main_v449 (F := F) X0 X1 X2 X3 X4 X5 X6⟩ (List.mem_of_mem_drop (i := 6) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 17) rfl)))))))))⟩,
   ⟨rfl, rfl, fun W hg => (binary_result main_v772 main_v773 main_v774 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v772, Read.val_main_v772 (F := F) X0 X1 X2 X3 X4 X5 X6⟩ (List.mem_of_getElem? (i := 1) rfl)) (hg ⟨main_v773, Read.val_main_v773 (F := F) X0 X1 X2 X3 X4 X5 X6⟩ (List.mem_of_getElem? (i := 0) rfl)))⟩,
   ⟨rfl, rfl, fun W hg => (binary_result main_v42 main_v599 main_v775 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 8) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))) (hg ⟨main_v599, Read.val_main_v599 (F := F) X0 X1 X2 X3 X4 X5 X6⟩ (List.mem_of_mem_drop (i := 8) (up_12 X0 X1 X2 X3 X4 X5 X6 (up_11 X0 X1 X2 X3 X4 X5 X6 (in_10 X0 X1 X2 X3 X4 X5 X6 (j := 47) rfl))))))⟩,
   ⟨rfl, rfl, fun W hg => (binary_result main_v34 main_v399 main_v776 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 9) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))) (hg ⟨main_v399, Read.val_main_v399 (F := F) X0 X1 X2 X3 X4 X5 X6⟩ (List.mem_of_mem_drop (i := 9) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 7) rfl))))))))))⟩,
   ⟨rfl, rfl, fun W hg => (binary_result main_v775 main_v776 main_v777 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v775, Read.val_main_v775 (F := F) X0 X1 X2 X3 X4 X5 X6⟩ (List.mem_of_getElem? (i := 1) rfl)) (hg ⟨main_v776, Read.val_main_v776 (F := F) X0 X1 X2 X3 X4 X5 X6⟩ (List.mem_of_getElem? (i := 0) rfl)))⟩,
   ⟨rfl, rfl, fun W hg => (binary_result main_v38 main_v499 main_v778 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 11) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))) (hg ⟨main_v499, Read.val_main_v499 (F := F) X0 X1 X2 X3 X4 X5 X6⟩ (List.mem_of_mem_drop (i := 11) (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 27) rfl))))))))⟩,
   ⟨rfl, rfl, fun W hg => (binary_result main_v777 main_v778 main_v779 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v777, Read.val_main_v777 (F := F) X0 X1 X2 X3 X4 X5 X6⟩ (List.mem_of_getElem? (i := 1) rfl)) (hg ⟨main_v778, Read.val_main_v778 (F := F) X0 X1 X2 X3 X4 X5 X6⟩ (List.mem_of_getElem? (i := 0) rfl)))⟩,
   ⟨rfl, rfl, fun W hg => (binary_result main_v26 main_v309 main_v780 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 13) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))) (hg ⟨main_v309, Read.val_main_v309 (F := F) X0 X1 X2 X3 X4 X5 X6⟩ (List.mem_of_mem_drop (i := 13) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 37) rfl)))))))))))⟩,
   ⟨rfl, rfl, fun W hg => (binary_result main_v30 main_v324 main_v781 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 14) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))) (hg ⟨main_v324, Read.val_main_v324 (F := F) X0 X1 X2 X3 X4 X5 X6⟩ (List.mem_of_mem_drop (i := 14) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 22) rfl)))))))))))⟩,
   ⟨rfl, rfl, fun W hg => (binary_result main_v780 main_v781 main_v782 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v780, Read.val_main_v780 (F := F) X0 X1 X2 X3 X4 X5 X6⟩ (List.mem_of_getElem? (i := 1) rfl)) (hg ⟨main_v781, Read.val_main_v781 (F := F) X0 X1 X2 X3 X4 X5 X6⟩ (List.mem_of_getElem? (i := 0) rfl)))⟩,
   ⟨rfl, rfl, fun W hg => (binary_result main_v34 main_v259 main_v783 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 16) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))) (hg ⟨main_v259, Read.val_main_v259 (F := F) X0 X1 X2 X3 X4 X5 X6⟩ (List.mem_of_mem_drop (i := 16) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 27) rfl))))))))))))⟩,
   ⟨rfl, rfl, fun W hg => (binary_result main_v782 main_v783 main_v784 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v782, Read.val_main_v782 (F := F) X0 X1 X2 X3 X4 X5 X6⟩ (List.mem_of_getElem? (i := 1) rfl)) (hg ⟨main_v783, Read.val_main_v783 (F := F) X0 X1 X2 X3 X4 X5 X6⟩ (List.mem_of_getElem? (i := 0) rfl)))⟩,
   ⟨rfl, rfl, fun W hg => (binary_result main_v40 main_v709 main_v785 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 18) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))) (hg ⟨main_v709, Read.val_main_v709 (F := F) X0 X1 X2 X3 X4 X5 X6⟩ (List.mem_of_mem_drop (i := 18) (in_12 X0 X1 X2 X3 X4 X5 X6 (j := 57) rfl))))⟩,
   ⟨rfl, rfl, fun W hg => (binary_result main_v26 main_v654 main_v786 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 19) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))) (hg ⟨main_v654, Read.val_main_v654 (F := F) X0 X1 X2 X3 X4 X5 X6⟩ (List.mem_of_mem_drop (i := 19) (up_12 X0 X1 X2 X3 X4 X5 X6 (in_11 X0 X1 X2 X3 X4 X5 X6 (j := 52) rfl)))))⟩,
   ⟨rfl, rfl, fun W hg => (binary_result main_v785 main_v786 main_v787 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v785, Read.val_main_v785 (F := F) X0 X1 X2 X3 X4 X5 X6⟩ (List.mem_of_getElem? (i := 1) rfl)) (hg ⟨main_v786, Read.val_main_v786 (F := F) X0 X1 X2 X3 X4 X5 X6⟩ (List.mem_of_getElem? (i := 0) rfl)))⟩,
   ⟨rfl, rfl, fun W hg => (binary_result main_v30 main_v469 main_v788 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 21) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))) (hg ⟨main_v469, Read.val_main_v469 (F := F) X0 X1 X2 X3 X4 X5 X6⟩ (List.mem_of_mem_drop (i := 21) (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 57) rfl))))))))⟩,
   ⟨rfl, rfl, fun W hg => (binary_result main_v787 main_v788 main_v789 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v787, Read.val_main_v787 (F := F) X0 X1 X2 X3 X4 X5 X6⟩ (List.mem_of_getElem? (i := 1) rfl)) (hg ⟨main_v788, Read.val_main_v788 (F := F) X0 X1 X2 X3 X4 X5 X6⟩ (List.mem_of_getElem? (i := 0) rfl)))⟩,
   ⟨rfl, rfl, fun W hg => (binary_result main_v36 main_v464 main_v790 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 23) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))) (hg ⟨main_v464, Read.val_main_v464 (F := F) X0 X1 X2 X3 X4 X5 X6⟩ (List.mem_of_mem_drop (i := 23) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 2) rfl)))))))))⟩,
   ⟨rfl, rfl, fun W hg => (binary_result main_v40 main_v529 main_v791 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 24) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))) (hg ⟨main_v529, Read.val_main_v529 (F := F) X0 X1 X2 X3 X4 X5 X6⟩ (List.mem_of_mem_drop (i := 24) (up_12 X0 X1 X2 X3 X4 X5 X6 (up_11 X0 X1 X2 X3 X4 X5 X6 (up_10 X0 X1 X2 X3 X4 X5 X6 (in_9 X0 X1 X2 X3 X4 X5 X6 (j := 57) rfl)))))))⟩,
   ⟨rfl, rfl, fun W hg => (binary_result main_v790 main_v791 main_v792 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v790, Read.val_main_v790 (F := F) X0 X1 X2 X3 X4 X5 X6⟩ (List.mem_of_getElem? (i := 1) rfl)) (hg ⟨main_v791, Read.val_main_v791 (F := F) X0 X1 X2 X3 X4 X5 X6⟩ (List.mem_of_getElem? (i := 0) rfl)))⟩,
   ⟨rfl, rfl, fun W hg => (binary_result main_v42 main_v684 main_v793 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 26) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))) (hg ⟨main_v684, Read.val_main_v684 (F := F) X0 X1 X2 X3 X4 X5 X6⟩ (List.mem_of_mem_drop (i := 26) (up_12 X0 X1 X2 X3 X4 X5 X6 (in_11 X0 X1 X2 X3 X4 X5 X6 (j := 22) rfl)))))⟩,
   ⟨rfl, rfl, fun W hg => (binary_result main_v792 main_v793 main_v794 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v792, Read.val_main_v792 (F := F) X0 X1 X2 X3 X4 X5 X6⟩ (List.mem_of_getElem? (i := 1) rfl)) (hg ⟨main_v793, Read.val_main_v793 (F := F) X0 X1 X2 X3 X4 X5 X6⟩ (List.mem_of_getElem? (i := 0) rfl)))⟩,
   ⟨rfl, rfl, fun W hg => (binary_result main_v34 main_v284 main_v795 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 28) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))) (hg ⟨main_v284, Read.val_main_v284 (F := F) X0 X1 X2 X3 X4 X5 X6⟩ (List.mem_of_mem_drop (i := 28) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 2) rfl))))))))))))⟩,
   ⟨rfl, rfl, fun W hg => (binary_result main_v36 main_v68 main_v796 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 29) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))) (hg ⟨main_v68, Read.val_main_v68 (F := F) X0 X1 X2 X3 X4 X5 X6⟩ (List.mem_of_mem_drop (i := 29) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 42) rfl)))))))))))))))⟩,
   ⟨rfl, rfl, fun W hg => (binary_result main_v795 main_v796 main_v797 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v795, Read.val_main_v795 (F := F) X0 X1 X2 X3 X4 X5 X6⟩ (List.mem_of_getElem? (i := 1) rfl)) (hg ⟨main_v796, Read.val_main_v796 (F := F) X0 X1 X2 X3 X4 X5 X6⟩ (List.mem_of_getElem? (i := 0) rfl)))⟩,
   ⟨rfl, rfl, fun W hg => (binary_result main_v32 main_v34 main_v798 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 31) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))) (hg ⟨main_v34, Read.val_main_v34 (F := F) X0 X1 X2 X3 X4 X5 X6⟩ (List.mem_of_mem_drop (i := 31) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))⟩,
   ⟨rfl, rfl, fun W hg => (binary_result main_v797 main_v798 main_v799 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v797, Read.val_main_v797 (F := F) X0 X1 X2 X3 X4 X5 X6⟩ (List.mem_of_getElem? (i := 1) rfl)) (hg ⟨main_v798, Read.val_main_v798 (F := F) X0 X1 X2 X3 X4 X5 X6⟩ (List.mem_of_getElem? (i := 0) rfl)))⟩,
   ⟨rfl, rfl, fun W hg => (binary_result main_v44 main_v724 main_v800 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 33) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))) (hg ⟨main_v724, Read.val_main_v724 (F := F) X0 X1 X2 X3 X4 X5 X6⟩ (List.mem_of_mem_drop (i := 33) (in_12 X0 X1 X2 X3 X4 X5 X6 (j := 42) rfl))))⟩,
   ⟨rfl, rfl, fun W hg => (binary_result main_v32 main_v299 main_v801 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 34) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))) (hg ⟨main_v299, Read.val_main_v299 (F := F) X0 X1 X2 X3 X4 X5 X6⟩ (List.mem_of_mem_drop (i := 34) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 47) rfl)))))))))))⟩,
   ⟨rfl, rfl, fun W hg => (binary_result main_v800 main_v801 main_v802 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v800, Read.val_main_v800 (F := F) X0 X1 X2 X3 X4 X5 X6⟩ (List.mem_of_getElem? (i := 1) rfl)) (hg ⟨main_v801, Read.val_main_v801 (F := F) X0 X1 X2 X3 X4 X5 X6⟩ (List.mem_of_getElem? (i := 0) rfl)))⟩,
   ⟨rfl, rfl, fun W hg => (binary_result main_v40 main_v134 main_v803 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 36) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))) (hg ⟨main_v134, Read.val_main_v134 (F := F) X0 X1 X2 X3 X4 X5 X6⟩ (List.mem_of_mem_drop (i := 36) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 32) rfl))))))))))))))⟩,
   ⟨rfl, rfl, fun W hg => (binary_result main_v802 main_v803 main_v804 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v802, Read.val_main_v802 (F := F) X0 X1 X2 X3 X4 X5 X6⟩ (List.mem_of_getElem? (i := 1) rfl)) (hg ⟨main_v803, Read.val_main_v803 (F := F) X0 X1 X2 X3 X4 X5 X6⟩ (List.mem_of_getElem? (i := 0) rfl)))⟩,
   ⟨rfl, rfl, fun W hg => (binary_result main_v36 main_v264 main_v805 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 38) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))) (hg ⟨main_v264, Read.val_main_v264 (F := F) X0 X1 X2 X3 X4 X5 X6⟩ (List.mem_of_mem_drop (i := 38) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 22) rfl))))))))))))⟩,
   ⟨rfl, rfl, fun W hg => (binary_result main_v34 main_v48 main_v806 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 39) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))) (hg ⟨main_v48, Read.val_main_v48 (F := F) X0 X1 X2 X3 X4 X5 X6⟩ (List.mem_of_mem_drop (i := 39) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 7) rfl))))))))))))))))⟩,
   ⟨rfl, rfl, fun W hg => (binary_result main_v805 main_v806 main_v807 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v805, Read.val_main_v805 (F := F) X0 X1 X2 X3 X4 X5 X6⟩ (List.mem_of_getElem? (i := 1) rfl)) (hg ⟨main_v806, Read.val_main_v806 (F := F) X0 X1 X2 X3 X4 X5 X6⟩ (List.mem_of_getElem? (i := 0) rfl)))⟩,
   ⟨rfl, rfl, fun W hg => (binary_result main_v38 main_v109 main_v808 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 41) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))) (hg ⟨main_v109, Read.val_main_v109 (F := F) X0 X1 X2 X3 X4 X5 X6⟩ (List.mem_of_mem_drop (i := 41) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 57) rfl))))))))))))))⟩,
   ⟨rfl, rfl, fun W hg => (binary_result main_v807 main_v808 main_v809 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v807, Read.val_main_v807 (F := F) X0 X1 X2 X3 X4 X5 X6⟩ (List.mem_of_getElem? (i := 1) rfl)) (hg ⟨main_v808, Read.val_main_v808 (F := F) X0 X1 X2 X3 X4 X5 X6⟩ (List.mem_of_getElem? (i := 0) rfl)))⟩,
   ⟨rfl, rfl, fun W hg => (binary_result main_v38 main_v749 main_v810 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 43) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))) (hg ⟨main_v749, Read.val_main_v749 (F := F) X0 X1 X2 X3 X4 X5 X6⟩ (List.mem_of_mem_drop (i := 43) (in_12 X0 X1 X2 X3 X4 X5 X6 (j := 17) rfl))))⟩,
   ⟨rfl, rfl, fun W hg => (binary_result main_v34 main_v394 main_v811 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 44) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))) (hg ⟨main_v394, Read.val_main_v394 (F := F) X0 X1 X2 X3 X4 X5 X6⟩ (List.mem_of_mem_drop (i := 44) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 12) rfl))))))))))⟩,
   ⟨rfl, rfl, fun W hg => (binary_result main_v810 main_v811 main_v812 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v810, Read.val_main_v810 (F := F) X0 X1 X2 X3 X4 X5 X6⟩ (List.mem_of_getElem? (i := 1) rfl)) (hg ⟨main_v811, Read.val_main_v811 (F := F) X0 X1 X2 X3 X4 X5 X6⟩ (List.mem_of_getElem? (i := 0) rfl)))⟩,
   ⟨rfl, rfl, fun W hg => (binary_result main_v26 main_v94 main_v813 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 46) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))) (hg ⟨main_v94, Read.val_main_v94 (F := F) X0 X1 X2 X3 X4 X5 X6⟩ (List.mem_of_mem_drop (i := 46) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 12) rfl)))))))))))))))⟩,
   ⟨rfl, rfl, fun W hg => (binary_result main_v812 main_v813 main_v814 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v812, Read.val_main_v812 (F := F) X0 X1 X2 X3 X4 X5 X6⟩ (List.mem_of_getElem? (i := 1) rfl)) (hg ⟨main_v813, Read.val_main_v813 (F := F) X0 X1 X2 X3 X4 X5 X6⟩ (List.mem_of_getElem? (i := 0) rfl)))⟩,
   ⟨rfl, rfl, fun W hg => (binary_result main_v34 main_v699 main_v815 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 48) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))) (hg ⟨main_v699, Read.val_main_v699 (F := F) X0 X1 X2 X3 X4 X5 X6⟩ (List.mem_of_mem_drop (i := 48) (up_12 X0 X1 X2 X3 X4 X5 X6 (in_11 X0 X1 X2 X3 X4 X5 X6 (j := 7) rfl)))))⟩,
   ⟨rfl, rfl, fun W hg => (binary_result main_v42 main_v149 main_v816 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 49) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))) (hg ⟨main_v149, Read.val_main_v149 (F := F) X0 X1 X2 X3 X4 X5 X6⟩ (List.mem_of_mem_drop (i := 49) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 17) rfl))))))))))))))⟩,
   ⟨rfl, rfl, fun W hg => (binary_result main_v815 main_v816 main_v817 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v815, Read.val_main_v815 (F := F) X0 X1 X2 X3 X4 X5 X6⟩ (List.mem_of_getElem? (i := 1) rfl)) (hg ⟨main_v816, Read.val_main_v816 (F := F) X0 X1 X2 X3 X4 X5 X6⟩ (List.mem_of_getElem? (i := 0) rfl)))⟩,
   ⟨rfl, rfl, fun W hg => (binary_result main_v38 main_v594 main_v818 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 51) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))) (hg ⟨main_v594, Read.val_main_v594 (F := F) X0 X1 X2 X3 X4 X5 X6⟩ (List.mem_of_mem_drop (i := 51) (up_12 X0 X1 X2 X3 X4 X5 X6 (up_11 X0 X1 X2 X3 X4 X5 X6 (in_10 X0 X1 X2 X3 X4 X5 X6 (j := 52) rfl))))))⟩,
   ⟨rfl, rfl, fun W hg => (binary_result main_v817 main_v818 main_v819 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v817, Read.val_main_v817 (F := F) X0 X1 X2 X3 X4 X5 X6⟩ (List.mem_of_getElem? (i := 1) rfl)) (hg ⟨main_v818, Read.val_main_v818 (F := F) X0 X1 X2 X3 X4 X5 X6⟩ (List.mem_of_getElem? (i := 0) rfl)))⟩,
   ⟨rfl, rfl, fun W hg => (binary_result main_v44 main_v749 main_v820 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 53) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))) (hg ⟨main_v749, Read.val_main_v749 (F := F) X0 X1 X2 X3 X4 X5 X6⟩ (List.mem_of_mem_drop (i := 53) (in_12 X0 X1 X2 X3 X4 X5 X6 (j := 17) rfl))))⟩,
   ⟨rfl, rfl, fun W hg => (binary_result main_v32 main_v724 main_v821 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 54) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))) (hg ⟨main_v724, Read.val_main_v724 (F := F) X0 X1 X2 X3 X4 X5 X6⟩ (List.mem_of_mem_drop (i := 54) (in_12 X0 X1 X2 X3 X4 X5 X6 (j := 42) rfl))))⟩,
   ⟨rfl, rfl, fun W hg => (binary_result main_v820 main_v821 main_v822 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v820, Read.val_main_v820 (F := F) X0 X1 X2 X3 X4 X5 X6⟩ (List.mem_of_getElem? (i := 1) rfl)) (hg ⟨main_v821, Read.val_main_v821 (F := F) X0 X1 X2 X3 X4 X5 X6⟩ (List.mem_of_getElem? (i := 0) rfl)))⟩,
   ⟨rfl, rfl, fun W hg => (binary_result main_v38 main_v679 main_v823 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 56) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))) (hg ⟨main_v679, Read.val_main_v679 (F := F) X0 X1 X2 X3 X4 X5 X6⟩ (List.mem_of_mem_drop (i := 56) (up_12 X0 X1 X2 X3 X4 X5 X6 (in_11 X0 X1 X2 X3 X4 X5 X6 (j := 27) rfl)))))⟩,
   ⟨rfl, rfl, fun W hg => (binary_result main_v822 main_v823 main_v824 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v822, Read.val_main_v822 (F := F) X0 X1 X2 X3 X4 X5 X6⟩ (List.mem_of_getElem? (i := 1) rfl)) (hg ⟨main_v823, Read.val_main_v823 (F := F) X0 X1 X2 X3 X4 X5 X6⟩ (List.mem_of_getElem? (i := 0) rfl)))⟩,
   ⟨rfl, rfl, fun W hg => (binary_result main_v36 main_v294 main_v825 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 58) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))) (hg ⟨main_v294, Read.val_main_v294 (F := F) X0 X1 X2 X3 X4 X5 X6⟩ (List.mem_of_mem_drop (i := 58) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 52) rfl)))))))))))⟩,
   ⟨rfl, rfl, fun W hg => (binary_result main_v30 main_v574 main_v826 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 59) (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))) (hg ⟨main_v574, Read.val_main_v574 (F := F) X0 X1 X2 X3 X4 X5 X6⟩ (List.mem_of_mem_drop (i := 59) (up_12 X0 X1 X2 X3 X4 X5 X6 (up_11 X0 X1 X2 X3 X4 X5 X6 (up_10 X0 X1 X2 X3 X4 X5 X6 (in_9 X0 X1 X2 X3 X4 X5 X6 (j := 12) rfl)))))))⟩,
   trivial⟩
theorem good_13 (W : Valuation τ sig (Elt F)) (hg : Good W (tbl_12 X0 X1 X2 X3 X4 X5 X6) (7 + 784)) :
    Good (after ops_13 W) (tbl_13 X0 X1 X2 X3 X4 X5 X6) (7 + 844) :=
  Good.after _ _ _ _ W hg (chain_13 X0 X1 X2 X3 X4 X5 X6)

theorem part_eq_14 (c : Dev nD) : main_part14 (F := F) c = seq ops_14 := rfl
theorem fresh_14 : (ops_14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 14's operations write, in order. -/
abbrev ps_14 : List (Entry sig (Elt F)) :=
  [ ⟨main_v827, Read.val_main_v827 (F := F) X0 X1 X2 X3 X4 X5 X6⟩,
    ⟨main_v828, Read.val_main_v828 (F := F) X0 X1 X2 X3 X4 X5 X6⟩,
    ⟨main_v829, Read.val_main_v829 (F := F) X0 X1 X2 X3 X4 X5 X6⟩,
    ⟨main_v830, Read.val_main_v830 (F := F) X0 X1 X2 X3 X4 X5 X6⟩,
    ⟨main_v831, Read.val_main_v831 (F := F) X0 X1 X2 X3 X4 X5 X6⟩,
    ⟨main_v832, Read.val_main_v832 (F := F) X0 X1 X2 X3 X4 X5 X6⟩,
    ⟨main_v833, Read.val_main_v833 (F := F) X0 X1 X2 X3 X4 X5 X6⟩,
    ⟨main_v834, Read.val_main_v834 (F := F) X0 X1 X2 X3 X4 X5 X6⟩,
    ⟨main_v835, Read.val_main_v835 (F := F) X0 X1 X2 X3 X4 X5 X6⟩,
    ⟨main_v836, Read.val_main_v836 (F := F) X0 X1 X2 X3 X4 X5 X6⟩,
    ⟨main_v837, Read.val_main_v837 (F := F) X0 X1 X2 X3 X4 X5 X6⟩,
    ⟨main_v838, Read.val_main_v838 (F := F) X0 X1 X2 X3 X4 X5 X6⟩,
    ⟨main_v839, Read.val_main_v839 (F := F) X0 X1 X2 X3 X4 X5 X6⟩,
    ⟨main_v840, Read.val_main_v840 (F := F) X0 X1 X2 X3 X4 X5 X6⟩,
    ⟨main_v841, Read.val_main_v841 (F := F) X0 X1 X2 X3 X4 X5 X6⟩,
    ⟨main_v842, Read.val_main_v842 (F := F) X0 X1 X2 X3 X4 X5 X6⟩,
    ⟨main_v843, Read.val_main_v843 (F := F) X0 X1 X2 X3 X4 X5 X6⟩,
    ⟨main_v844, Read.val_main_v844 (F := F) X0 X1 X2 X3 X4 X5 X6⟩,
    ⟨main_v845, Read.val_main_v845 (F := F) X0 X1 X2 X3 X4 X5 X6⟩,
    ⟨main_v846, Read.val_main_v846 (F := F) X0 X1 X2 X3 X4 X5 X6⟩,
    ⟨main_v847, Read.val_main_v847 (F := F) X0 X1 X2 X3 X4 X5 X6⟩,
    ⟨main_v848, Read.val_main_v848 (F := F) X0 X1 X2 X3 X4 X5 X6⟩,
    ⟨main_v849, Read.val_main_v849 (F := F) X0 X1 X2 X3 X4 X5 X6⟩,
    ⟨main_v850, Read.val_main_v850 (F := F) X0 X1 X2 X3 X4 X5 X6⟩,
    ⟨main_v851, Read.val_main_v851 (F := F) X0 X1 X2 X3 X4 X5 X6⟩,
    ⟨main_v852, Read.val_main_v852 (F := F) X0 X1 X2 X3 X4 X5 X6⟩,
    ⟨main_v853, Read.val_main_v853 (F := F) X0 X1 X2 X3 X4 X5 X6⟩,
    ⟨main_v854, Read.val_main_v854 (F := F) X0 X1 X2 X3 X4 X5 X6⟩,
    ⟨main_v855, Read.val_main_v855 (F := F) X0 X1 X2 X3 X4 X5 X6⟩,
    ⟨main_v856, Read.val_main_v856 (F := F) X0 X1 X2 X3 X4 X5 X6⟩,
    ⟨main_v857, Read.val_main_v857 (F := F) X0 X1 X2 X3 X4 X5 X6⟩,
    ⟨main_v858, Read.val_main_v858 (F := F) X0 X1 X2 X3 X4 X5 X6⟩,
    ⟨main_v859, Read.val_main_v859 (F := F) X0 X1 X2 X3 X4 X5 X6⟩,
    ⟨main_v860, Read.val_main_v860 (F := F) X0 X1 X2 X3 X4 X5 X6⟩,
    ⟨main_v861, Read.val_main_v861 (F := F) X0 X1 X2 X3 X4 X5 X6⟩,
    ⟨main_v862, Read.val_main_v862 (F := F) X0 X1 X2 X3 X4 X5 X6⟩,
    ⟨main_v863, Read.val_main_v863 (F := F) X0 X1 X2 X3 X4 X5 X6⟩,
    ⟨main_v864, Read.val_main_v864 (F := F) X0 X1 X2 X3 X4 X5 X6⟩,
    ⟨main_v865, Read.val_main_v865 (F := F) X0 X1 X2 X3 X4 X5 X6⟩,
    ⟨main_v866, Read.val_main_v866 (F := F) X0 X1 X2 X3 X4 X5 X6⟩,
    ⟨main_v867, Read.val_main_v867 (F := F) X0 X1 X2 X3 X4 X5 X6⟩,
    ⟨main_v868, Read.val_main_v868 (F := F) X0 X1 X2 X3 X4 X5 X6⟩,
    ⟨main_v869, Read.val_main_v869 (F := F) X0 X1 X2 X3 X4 X5 X6⟩,
    ⟨main_v870, Read.val_main_v870 (F := F) X0 X1 X2 X3 X4 X5 X6⟩,
    ⟨main_v871, Read.val_main_v871 (F := F) X0 X1 X2 X3 X4 X5 X6⟩,
    ⟨main_v872, Read.val_main_v872 (F := F) X0 X1 X2 X3 X4 X5 X6⟩,
    ⟨main_v873, Read.val_main_v873 (F := F) X0 X1 X2 X3 X4 X5 X6⟩,
    ⟨main_v874, Read.val_main_v874 (F := F) X0 X1 X2 X3 X4 X5 X6⟩,
    ⟨main_v875, Read.val_main_v875 (F := F) X0 X1 X2 X3 X4 X5 X6⟩,
    ⟨main_v876, Read.val_main_v876 (F := F) X0 X1 X2 X3 X4 X5 X6⟩,
    ⟨main_v877, Read.val_main_v877 (F := F) X0 X1 X2 X3 X4 X5 X6⟩,
    ⟨main_v878, Read.val_main_v878 (F := F) X0 X1 X2 X3 X4 X5 X6⟩,
    ⟨main_v879, Read.val_main_v879 (F := F) X0 X1 X2 X3 X4 X5 X6⟩,
    ⟨main_v880, Read.val_main_v880 (F := F) X0 X1 X2 X3 X4 X5 X6⟩,
    ⟨main_v881, Read.val_main_v881 (F := F) X0 X1 X2 X3 X4 X5 X6⟩,
    ⟨main_v882, Read.val_main_v882 (F := F) X0 X1 X2 X3 X4 X5 X6⟩,
    ⟨main_v883, Read.val_main_v883 (F := F) X0 X1 X2 X3 X4 X5 X6⟩,
    ⟨main_v884, Read.val_main_v884 (F := F) X0 X1 X2 X3 X4 X5 X6⟩,
    ⟨main_v885, Read.val_main_v885 (F := F) X0 X1 X2 X3 X4 X5 X6⟩,
    ⟨main_v886, Read.val_main_v886 (F := F) X0 X1 X2 X3 X4 X5 X6⟩ ]
/-- The stages known after window 14, the newest first. -/
abbrev tbl_14 : List (Entry sig (Elt F)) := (ps_14 X0 X1 X2 X3 X4 X5 X6).reverse ++ tbl_13 X0 X1 X2 X3 X4 X5 X6
theorem up_14 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_13 X0 X1 X2 X3 X4 X5 X6) : e ∈ tbl_14 X0 X1 X2 X3 X4 X5 X6 := List.mem_append_right _ h
theorem in_14 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_14 X0 X1 X2 X3 X4 X5 X6).reverse[j]? = some e) : e ∈ tbl_14 X0 X1 X2 X3 X4 X5 X6 :=
  List.mem_append_left _ (List.mem_of_getElem? h)
set_option maxRecDepth 1000000 in
set_option maxHeartbeats 4000000 in
theorem chain_14 : Chain (tbl_13 X0 X1 X2 X3 X4 X5 X6) (7 + 844) (ops_14 (F := F)) (ps_14 X0 X1 X2 X3 X4 X5 X6) :=
  ⟨⟨rfl, rfl, fun W hg => (binary_result main_v825 main_v826 main_v827 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v825, Read.val_main_v825 (F := F) X0 X1 X2 X3 X4 X5 X6⟩ (List.mem_of_mem_drop (i := 0) (in_13 X0 X1 X2 X3 X4 X5 X6 (j := 1) rfl))) (hg ⟨main_v826, Read.val_main_v826 (F := F) X0 X1 X2 X3 X4 X5 X6⟩ (List.mem_of_mem_drop (i := 0) (in_13 X0 X1 X2 X3 X4 X5 X6 (j := 0) rfl))))⟩,
   ⟨rfl, rfl, fun W hg => (binary_result main_v28 main_v56 main_v828 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 1) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))) (hg ⟨main_v56, Read.val_main_v56 (F := F) X0 X1 X2 X3 X4 X5 X6⟩ (List.mem_of_mem_drop (i := 1) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 57) rfl))))))))))))))))⟩,
   ⟨rfl, rfl, fun W hg => (binary_result main_v827 main_v828 main_v829 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v827, Read.val_main_v827 (F := F) X0 X1 X2 X3 X4 X5 X6⟩ (List.mem_of_getElem? (i := 1) rfl)) (hg ⟨main_v828, Read.val_main_v828 (F := F) X0 X1 X2 X3 X4 X5 X6⟩ (List.mem_of_getElem? (i := 0) rfl)))⟩,
   ⟨rfl, rfl, fun W hg => (binary_result main_v42 main_v434 main_v830 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 3) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))) (hg ⟨main_v434, Read.val_main_v434 (F := F) X0 X1 X2 X3 X4 X5 X6⟩ (List.mem_of_mem_drop (i := 3) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 32) rfl))))))))))⟩,
   ⟨rfl, rfl, fun W hg => (binary_result main_v26 main_v494 main_v831 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 4) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))) (hg ⟨main_v494, Read.val_main_v494 (F := F) X0 X1 X2 X3 X4 X5 X6⟩ (List.mem_of_mem_drop (i := 4) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 32) rfl)))))))))⟩,
   ⟨rfl, rfl, fun W hg => (binary_result main_v830 main_v831 main_v832 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v830, Read.val_main_v830 (F := F) X0 X1 X2 X3 X4 X5 X6⟩ (List.mem_of_getElem? (i := 1) rfl)) (hg ⟨main_v831, Read.val_main_v831 (F := F) X0 X1 X2 X3 X4 X5 X6⟩ (List.mem_of_getElem? (i := 0) rfl)))⟩,
   ⟨rfl, rfl, fun W hg => (binary_result main_v34 main_v589 main_v833 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 6) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))) (hg ⟨main_v589, Read.val_main_v589 (F := F) X0 X1 X2 X3 X4 X5 X6⟩ (List.mem_of_mem_drop (i := 6) (up_13 X0 X1 X2 X3 X4 X5 X6 (up_12 X0 X1 X2 X3 X4 X5 X6 (up_11 X0 X1 X2 X3 X4 X5 X6 (in_10 X0 X1 X2 X3 X4 X5 X6 (j := 57) rfl)))))))⟩,
   ⟨rfl, rfl, fun W hg => (binary_result main_v832 main_v833 main_v834 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v832, Read.val_main_v832 (F := F) X0 X1 X2 X3 X4 X5 X6⟩ (List.mem_of_getElem? (i := 1) rfl)) (hg ⟨main_v833, Read.val_main_v833 (F := F) X0 X1 X2 X3 X4 X5 X6⟩ (List.mem_of_getElem? (i := 0) rfl)))⟩,
   ⟨rfl, rfl, fun W hg => (binary_result main_v28 main_v619 main_v835 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 8) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))) (hg ⟨main_v619, Read.val_main_v619 (F := F) X0 X1 X2 X3 X4 X5 X6⟩ (List.mem_of_mem_drop (i := 8) (up_13 X0 X1 X2 X3 X4 X5 X6 (up_12 X0 X1 X2 X3 X4 X5 X6 (up_11 X0 X1 X2 X3 X4 X5 X6 (in_10 X0 X1 X2 X3 X4 X5 X6 (j := 27) rfl)))))))⟩,
   ⟨rfl, rfl, fun W hg => (binary_result main_v36 main_v229 main_v836 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 9) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))) (hg ⟨main_v229, Read.val_main_v229 (F := F) X0 X1 X2 X3 X4 X5 X6⟩ (List.mem_of_mem_drop (i := 9) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 57) rfl)))))))))))))⟩,
   ⟨rfl, rfl, fun W hg => (binary_result main_v835 main_v836 main_v837 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v835, Read.val_main_v835 (F := F) X0 X1 X2 X3 X4 X5 X6⟩ (List.mem_of_getElem? (i := 1) rfl)) (hg ⟨main_v836, Read.val_main_v836 (F := F) X0 X1 X2 X3 X4 X5 X6⟩ (List.mem_of_getElem? (i := 0) rfl)))⟩,
   ⟨rfl, rfl, fun W hg => (binary_result main_v34 main_v359 main_v838 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 11) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))) (hg ⟨main_v359, Read.val_main_v359 (F := F) X0 X1 X2 X3 X4 X5 X6⟩ (List.mem_of_mem_drop (i := 11) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 47) rfl)))))))))))⟩,
   ⟨rfl, rfl, fun W hg => (binary_result main_v837 main_v838 main_v839 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v837, Read.val_main_v837 (F := F) X0 X1 X2 X3 X4 X5 X6⟩ (List.mem_of_getElem? (i := 1) rfl)) (hg ⟨main_v838, Read.val_main_v838 (F := F) X0 X1 X2 X3 X4 X5 X6⟩ (List.mem_of_getElem? (i := 0) rfl)))⟩,
   ⟨rfl, rfl, fun W hg => (binary_result main_v38 main_v834 main_v840 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 13) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))) (hg ⟨main_v834, Read.val_main_v834 (F := F) X0 X1 X2 X3 X4 X5 X6⟩ (List.mem_of_getElem? (i := 5) rfl)))⟩,
   ⟨rfl, rfl, fun W hg => (binary_result main_v32 main_v444 main_v841 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 14) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))) (hg ⟨main_v444, Read.val_main_v444 (F := F) X0 X1 X2 X3 X4 X5 X6⟩ (List.mem_of_mem_drop (i := 14) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 22) rfl))))))))))⟩,
   ⟨rfl, rfl, fun W hg => (binary_result main_v840 main_v841 main_v842 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v840, Read.val_main_v840 (F := F) X0 X1 X2 X3 X4 X5 X6⟩ (List.mem_of_getElem? (i := 1) rfl)) (hg ⟨main_v841, Read.val_main_v841 (F := F) X0 X1 X2 X3 X4 X5 X6⟩ (List.mem_of_getElem? (i := 0) rfl)))⟩,
   ⟨rfl, rfl, fun W hg => (binary_result main_v34 main_v644 main_v843 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 16) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))) (hg ⟨main_v644, Read.val_main_v644 (F := F) X0 X1 X2 X3 X4 X5 X6⟩ (List.mem_of_mem_drop (i := 16) (up_13 X0 X1 X2 X3 X4 X5 X6 (up_12 X0 X1 X2 X3 X4 X5 X6 (up_11 X0 X1 X2 X3 X4 X5 X6 (in_10 X0 X1 X2 X3 X4 X5 X6 (j := 2) rfl)))))))⟩,
   ⟨rfl, rfl, fun W hg => (binary_result main_v842 main_v843 main_v844 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v842, Read.val_main_v842 (F := F) X0 X1 X2 X3 X4 X5 X6⟩ (List.mem_of_getElem? (i := 1) rfl)) (hg ⟨main_v843, Read.val_main_v843 (F := F) X0 X1 X2 X3 X4 X5 X6⟩ (List.mem_of_getElem? (i := 0) rfl)))⟩,
   ⟨rfl, rfl, fun W hg => (binary_result main_v30 main_v619 main_v845 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 18) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))) (hg ⟨main_v619, Read.val_main_v619 (F := F) X0 X1 X2 X3 X4 X5 X6⟩ (List.mem_of_mem_drop (i := 18) (up_13 X0 X1 X2 X3 X4 X5 X6 (up_12 X0 X1 X2 X3 X4 X5 X6 (up_11 X0 X1 X2 X3 X4 X5 X6 (in_10 X0 X1 X2 X3 X4 X5 X6 (j := 27) rfl)))))))⟩,
   ⟨rfl, rfl, fun W hg => (binary_result main_v42 main_v344 main_v846 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 19) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))) (hg ⟨main_v344, Read.val_main_v344 (F := F) X0 X1 X2 X3 X4 X5 X6⟩ (List.mem_of_mem_drop (i := 19) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 2) rfl))))))))))))⟩,
   ⟨rfl, rfl, fun W hg => (binary_result main_v845 main_v846 main_v847 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v845, Read.val_main_v845 (F := F) X0 X1 X2 X3 X4 X5 X6⟩ (List.mem_of_getElem? (i := 1) rfl)) (hg ⟨main_v846, Read.val_main_v846 (F := F) X0 X1 X2 X3 X4 X5 X6⟩ (List.mem_of_getElem? (i := 0) rfl)))⟩,
   ⟨rfl, rfl, fun W hg => (binary_result main_v28 main_v749 main_v848 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 21) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))) (hg ⟨main_v749, Read.val_main_v749 (F := F) X0 X1 X2 X3 X4 X5 X6⟩ (List.mem_of_mem_drop (i := 21) (up_13 X0 X1 X2 X3 X4 X5 X6 (in_12 X0 X1 X2 X3 X4 X5 X6 (j := 17) rfl)))))⟩,
   ⟨rfl, rfl, fun W hg => (binary_result main_v847 main_v848 main_v849 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v847, Read.val_main_v847 (F := F) X0 X1 X2 X3 X4 X5 X6⟩ (List.mem_of_getElem? (i := 1) rfl)) (hg ⟨main_v848, Read.val_main_v848 (F := F) X0 X1 X2 X3 X4 X5 X6⟩ (List.mem_of_getElem? (i := 0) rfl)))⟩,
   ⟨rfl, rfl, fun W hg => (binary_result main_v42 main_v734 main_v850 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 23) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))) (hg ⟨main_v734, Read.val_main_v734 (F := F) X0 X1 X2 X3 X4 X5 X6⟩ (List.mem_of_mem_drop (i := 23) (up_13 X0 X1 X2 X3 X4 X5 X6 (in_12 X0 X1 X2 X3 X4 X5 X6 (j := 32) rfl)))))⟩,
   ⟨rfl, rfl, fun W hg => (binary_result main_v32 main_v34 main_v851 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 24) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))) (hg ⟨main_v34, Read.val_main_v34 (F := F) X0 X1 X2 X3 X4 X5 X6⟩ (List.mem_of_mem_drop (i := 24) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))))⟩,
   ⟨rfl, rfl, fun W hg => (binary_result main_v850 main_v851 main_v852 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v850, Read.val_main_v850 (F := F) X0 X1 X2 X3 X4 X5 X6⟩ (List.mem_of_getElem? (i := 1) rfl)) (hg ⟨main_v851, Read.val_main_v851 (F := F) X0 X1 X2 X3 X4 X5 X6⟩ (List.mem_of_getElem? (i := 0) rfl)))⟩,
   ⟨rfl, rfl, fun W hg => (binary_result main_v44 main_v784 main_v853 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 26) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))) (hg ⟨main_v784, Read.val_main_v784 (F := F) X0 X1 X2 X3 X4 X5 X6⟩ (List.mem_of_mem_drop (i := 26) (in_13 X0 X1 X2 X3 X4 X5 X6 (j := 42) rfl))))⟩,
   ⟨rfl, rfl, fun W hg => (binary_result main_v852 main_v853 main_v854 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v852, Read.val_main_v852 (F := F) X0 X1 X2 X3 X4 X5 X6⟩ (List.mem_of_getElem? (i := 1) rfl)) (hg ⟨main_v853, Read.val_main_v853 (F := F) X0 X1 X2 X3 X4 X5 X6⟩ (List.mem_of_getElem? (i := 0) rfl)))⟩,
   ⟨rfl, rfl, fun W hg => (binary_result main_v26 main_v564 main_v855 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 28) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))) (hg ⟨main_v564, Read.val_main_v564 (F := F) X0 X1 X2 X3 X4 X5 X6⟩ (List.mem_of_mem_drop (i := 28) (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 22) rfl))))))))⟩,
   ⟨rfl, rfl, fun W hg => (binary_result main_v28 main_v399 main_v856 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 29) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))) (hg ⟨main_v399, Read.val_main_v399 (F := F) X0 X1 X2 X3 X4 X5 X6⟩ (List.mem_of_mem_drop (i := 29) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 7) rfl)))))))))))⟩,
   ⟨rfl, rfl, fun W hg => (binary_result main_v855 main_v856 main_v857 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v855, Read.val_main_v855 (F := F) X0 X1 X2 X3 X4 X5 X6⟩ (List.mem_of_getElem? (i := 1) rfl)) (hg ⟨main_v856, Read.val_main_v856 (F := F) X0 X1 X2 X3 X4 X5 X6⟩ (List.mem_of_getElem? (i := 0) rfl)))⟩,
   ⟨rfl, rfl, fun W hg => (binary_result main_v42 main_v104 main_v858 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 31) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))) (hg ⟨main_v104, Read.val_main_v104 (F := F) X0 X1 X2 X3 X4 X5 X6⟩ (List.mem_of_mem_drop (i := 31) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 2) rfl))))))))))))))))⟩,
   ⟨rfl, rfl, fun W hg => (binary_result main_v857 main_v858 main_v859 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v857, Read.val_main_v857 (F := F) X0 X1 X2 X3 X4 X5 X6⟩ (List.mem_of_getElem? (i := 1) rfl)) (hg ⟨main_v858, Read.val_main_v858 (F := F) X0 X1 X2 X3 X4 X5 X6⟩ (List.mem_of_getElem? (i := 0) rfl)))⟩,
   ⟨rfl, rfl, fun W hg => (binary_result main_v40 main_v589 main_v860 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 33) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))) (hg ⟨main_v589, Read.val_main_v589 (F := F) X0 X1 X2 X3 X4 X5 X6⟩ (List.mem_of_mem_drop (i := 33) (up_13 X0 X1 X2 X3 X4 X5 X6 (up_12 X0 X1 X2 X3 X4 X5 X6 (up_11 X0 X1 X2 X3 X4 X5 X6 (in_10 X0 X1 X2 X3 X4 X5 X6 (j := 57) rfl)))))))⟩,
   ⟨rfl, rfl, fun W hg => (binary_result main_v30 main_v574 main_v861 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 34) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))) (hg ⟨main_v574, Read.val_main_v574 (F := F) X0 X1 X2 X3 X4 X5 X6⟩ (List.mem_of_mem_drop (i := 34) (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 12) rfl))))))))⟩,
   ⟨rfl, rfl, fun W hg => (binary_result main_v860 main_v861 main_v862 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v860, Read.val_main_v860 (F := F) X0 X1 X2 X3 X4 X5 X6⟩ (List.mem_of_getElem? (i := 1) rfl)) (hg ⟨main_v861, Read.val_main_v861 (F := F) X0 X1 X2 X3 X4 X5 X6⟩ (List.mem_of_getElem? (i := 0) rfl)))⟩,
   ⟨rfl, rfl, fun W hg => (binary_result main_v38 main_v844 main_v863 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 36) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))) (hg ⟨main_v844, Read.val_main_v844 (F := F) X0 X1 X2 X3 X4 X5 X6⟩ (List.mem_of_getElem? (i := 18) rfl)))⟩,
   ⟨rfl, rfl, fun W hg => (binary_result main_v862 main_v863 main_v864 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v862, Read.val_main_v862 (F := F) X0 X1 X2 X3 X4 X5 X6⟩ (List.mem_of_getElem? (i := 1) rfl)) (hg ⟨main_v863, Read.val_main_v863 (F := F) X0 X1 X2 X3 X4 X5 X6⟩ (List.mem_of_getElem? (i := 0) rfl)))⟩,
   ⟨rfl, rfl, fun W hg => (binary_result main_v32 main_v579 main_v865 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 38) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))) (hg ⟨main_v579, Read.val_main_v579 (F := F) X0 X1 X2 X3 X4 X5 X6⟩ (List.mem_of_mem_drop (i := 38) (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 7) rfl))))))))⟩,
   ⟨rfl, rfl, fun W hg => (binary_result main_v34 main_v844 main_v866 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 39) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))) (hg ⟨main_v844, Read.val_main_v844 (F := F) X0 X1 X2 X3 X4 X5 X6⟩ (List.mem_of_getElem? (i := 21) rfl)))⟩,
   ⟨rfl, rfl, fun W hg => (binary_result main_v865 main_v866 main_v867 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v865, Read.val_main_v865 (F := F) X0 X1 X2 X3 X4 X5 X6⟩ (List.mem_of_getElem? (i := 1) rfl)) (hg ⟨main_v866, Read.val_main_v866 (F := F) X0 X1 X2 X3 X4 X5 X6⟩ (List.mem_of_getElem? (i := 0) rfl)))⟩,
   ⟨rfl, rfl, fun W hg => (binary_result main_v36 main_v68 main_v868 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 41) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))) (hg ⟨main_v68, Read.val_main_v68 (F := F) X0 X1 X2 X3 X4 X5 X6⟩ (List.mem_of_mem_drop (i := 41) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 42) rfl))))))))))))))))⟩,
   ⟨rfl, rfl, fun W hg => (binary_result main_v867 main_v868 main_v869 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v867, Read.val_main_v867 (F := F) X0 X1 X2 X3 X4 X5 X6⟩ (List.mem_of_getElem? (i := 1) rfl)) (hg ⟨main_v868, Read.val_main_v868 (F := F) X0 X1 X2 X3 X4 X5 X6⟩ (List.mem_of_getElem? (i := 0) rfl)))⟩,
   ⟨rfl, rfl, fun W hg => (binary_result main_v42 main_v204 main_v870 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 43) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))) (hg ⟨main_v204, Read.val_main_v204 (F := F) X0 X1 X2 X3 X4 X5 X6⟩ (List.mem_of_mem_drop (i := 43) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 22) rfl))))))))))))))⟩,
   ⟨rfl, rfl, fun W hg => (binary_result main_v44 main_v614 main_v871 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 44) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))) (hg ⟨main_v614, Read.val_main_v614 (F := F) X0 X1 X2 X3 X4 X5 X6⟩ (List.mem_of_mem_drop (i := 44) (up_13 X0 X1 X2 X3 X4 X5 X6 (up_12 X0 X1 X2 X3 X4 X5 X6 (up_11 X0 X1 X2 X3 X4 X5 X6 (in_10 X0 X1 X2 X3 X4 X5 X6 (j := 32) rfl)))))))⟩,
   ⟨rfl, rfl, fun W hg => (binary_result main_v870 main_v871 main_v872 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v870, Read.val_main_v870 (F := F) X0 X1 X2 X3 X4 X5 X6⟩ (List.mem_of_getElem? (i := 1) rfl)) (hg ⟨main_v871, Read.val_main_v871 (F := F) X0 X1 X2 X3 X4 X5 X6⟩ (List.mem_of_getElem? (i := 0) rfl)))⟩,
   ⟨rfl, rfl, fun W hg => (binary_result main_v38 main_v864 main_v873 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 46) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))) (hg ⟨main_v864, Read.val_main_v864 (F := F) X0 X1 X2 X3 X4 X5 X6⟩ (List.mem_of_getElem? (i := 8) rfl)))⟩,
   ⟨rfl, rfl, fun W hg => (binary_result main_v872 main_v873 main_v874 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v872, Read.val_main_v872 (F := F) X0 X1 X2 X3 X4 X5 X6⟩ (List.mem_of_getElem? (i := 1) rfl)) (hg ⟨main_v873, Read.val_main_v873 (F := F) X0 X1 X2 X3 X4 X5 X6⟩ (List.mem_of_getElem? (i := 0) rfl)))⟩,
   ⟨rfl, rfl, fun W hg => (binary_result main_v28 main_v404 main_v875 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 48) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))) (hg ⟨main_v404, Read.val_main_v404 (F := F) X0 X1 X2 X3 X4 X5 X6⟩ (List.mem_of_mem_drop (i := 48) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 2) rfl)))))))))))⟩,
   ⟨rfl, rfl, fun W hg => (binary_result main_v26 main_v849 main_v876 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 49) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))) (hg ⟨main_v849, Read.val_main_v849 (F := F) X0 X1 X2 X3 X4 X5 X6⟩ (List.mem_of_getElem? (i := 26) rfl)))⟩,
   ⟨rfl, rfl, fun W hg => (binary_result main_v875 main_v876 main_v877 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v875, Read.val_main_v875 (F := F) X0 X1 X2 X3 X4 X5 X6⟩ (List.mem_of_getElem? (i := 1) rfl)) (hg ⟨main_v876, Read.val_main_v876 (F := F) X0 X1 X2 X3 X4 X5 X6⟩ (List.mem_of_getElem? (i := 0) rfl)))⟩,
   ⟨rfl, rfl, fun W hg => (binary_result main_v32 main_v544 main_v878 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 51) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))) (hg ⟨main_v544, Read.val_main_v544 (F := F) X0 X1 X2 X3 X4 X5 X6⟩ (List.mem_of_mem_drop (i := 51) (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 42) rfl))))))))⟩,
   ⟨rfl, rfl, fun W hg => (binary_result main_v877 main_v878 main_v879 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v877, Read.val_main_v877 (F := F) X0 X1 X2 X3 X4 X5 X6⟩ (List.mem_of_getElem? (i := 1) rfl)) (hg ⟨main_v878, Read.val_main_v878 (F := F) X0 X1 X2 X3 X4 X5 X6⟩ (List.mem_of_getElem? (i := 0) rfl)))⟩,
   ⟨rfl, rfl, fun W hg => (binary_result main_v30 main_v44 main_v880 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 53) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))) (hg ⟨main_v44, Read.val_main_v44 (F := F) X0 X1 X2 X3 X4 X5 X6⟩ (List.mem_of_mem_drop (i := 53) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))⟩,
   ⟨rfl, rfl, fun W hg => (binary_result main_v36 main_v539 main_v881 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 54) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))) (hg ⟨main_v539, Read.val_main_v539 (F := F) X0 X1 X2 X3 X4 X5 X6⟩ (List.mem_of_mem_drop (i := 54) (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 47) rfl))))))))⟩,
   ⟨rfl, rfl, fun W hg => (binary_result main_v880 main_v881 main_v882 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v880, Read.val_main_v880 (F := F) X0 X1 X2 X3 X4 X5 X6⟩ (List.mem_of_getElem? (i := 1) rfl)) (hg ⟨main_v881, Read.val_main_v881 (F := F) X0 X1 X2 X3 X4 X5 X6⟩ (List.mem_of_getElem? (i := 0) rfl)))⟩,
   ⟨rfl, rfl, fun W hg => (binary_result main_v32 main_v809 main_v883 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 56) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))) (hg ⟨main_v809, Read.val_main_v809 (F := F) X0 X1 X2 X3 X4 X5 X6⟩ (List.mem_of_mem_drop (i := 56) (in_13 X0 X1 X2 X3 X4 X5 X6 (j := 17) rfl))))⟩,
   ⟨rfl, rfl, fun W hg => (binary_result main_v882 main_v883 main_v884 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v882, Read.val_main_v882 (F := F) X0 X1 X2 X3 X4 X5 X6⟩ (List.mem_of_getElem? (i := 1) rfl)) (hg ⟨main_v883, Read.val_main_v883 (F := F) X0 X1 X2 X3 X4 X5 X6⟩ (List.mem_of_getElem? (i := 0) rfl)))⟩,
   ⟨rfl, rfl, fun W hg => (binary_result main_v42 main_v424 main_v885 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 58) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))) (hg ⟨main_v424, Read.val_main_v424 (F := F) X0 X1 X2 X3 X4 X5 X6⟩ (List.mem_of_mem_drop (i := 58) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 42) rfl))))))))))⟩,
   ⟨rfl, rfl, fun W hg => (binary_result main_v38 main_v32 main_v886 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 59) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))) (hg ⟨main_v32, Read.val_main_v32 (F := F) X0 X1 X2 X3 X4 X5 X6⟩ (List.mem_of_mem_drop (i := 59) (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))))⟩,
   trivial⟩
theorem good_14 (W : Valuation τ sig (Elt F)) (hg : Good W (tbl_13 X0 X1 X2 X3 X4 X5 X6) (7 + 844)) :
    Good (after ops_14 W) (tbl_14 X0 X1 X2 X3 X4 X5 X6) (7 + 904) :=
  Good.after _ _ _ _ W hg (chain_14 X0 X1 X2 X3 X4 X5 X6)

theorem part_eq_15 (c : Dev nD) : main_part15 (F := F) c = seq ops_15 := rfl
theorem fresh_15 : (ops_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 15's operations write, in order. -/
abbrev ps_15 : List (Entry sig (Elt F)) :=
  [ ⟨main_v887, Read.val_main_v887 (F := F) X0 X1 X2 X3 X4 X5 X6⟩,
    ⟨main_v888, Read.val_main_v888 (F := F) X0 X1 X2 X3 X4 X5 X6⟩,
    ⟨main_v889, Read.val_main_v889 (F := F) X0 X1 X2 X3 X4 X5 X6⟩,
    ⟨main_v890, Read.val_main_v890 (F := F) X0 X1 X2 X3 X4 X5 X6⟩,
    ⟨main_v891, Read.val_main_v891 (F := F) X0 X1 X2 X3 X4 X5 X6⟩,
    ⟨main_v892, Read.val_main_v892 (F := F) X0 X1 X2 X3 X4 X5 X6⟩,
    ⟨main_v893, Read.val_main_v893 (F := F) X0 X1 X2 X3 X4 X5 X6⟩,
    ⟨main_v894, Read.val_main_v894 (F := F) X0 X1 X2 X3 X4 X5 X6⟩,
    ⟨main_v895, Read.val_main_v895 (F := F) X0 X1 X2 X3 X4 X5 X6⟩,
    ⟨main_v896, Read.val_main_v896 (F := F) X0 X1 X2 X3 X4 X5 X6⟩,
    ⟨main_v897, Read.val_main_v897 (F := F) X0 X1 X2 X3 X4 X5 X6⟩,
    ⟨main_v898, Read.val_main_v898 (F := F) X0 X1 X2 X3 X4 X5 X6⟩,
    ⟨main_v899, Read.val_main_v899 (F := F) X0 X1 X2 X3 X4 X5 X6⟩,
    ⟨main_v900, Read.val_main_v900 (F := F) X0 X1 X2 X3 X4 X5 X6⟩,
    ⟨main_v901, Read.val_main_v901 (F := F) X0 X1 X2 X3 X4 X5 X6⟩,
    ⟨main_v902, Read.val_main_v902 (F := F) X0 X1 X2 X3 X4 X5 X6⟩,
    ⟨main_v903, Read.val_main_v903 (F := F) X0 X1 X2 X3 X4 X5 X6⟩,
    ⟨main_v904, Read.val_main_v904 (F := F) X0 X1 X2 X3 X4 X5 X6⟩,
    ⟨main_v905, Read.val_main_v905 (F := F) X0 X1 X2 X3 X4 X5 X6⟩,
    ⟨main_v906, Read.val_main_v906 (F := F) X0 X1 X2 X3 X4 X5 X6⟩,
    ⟨main_v907, Read.val_main_v907 (F := F) X0 X1 X2 X3 X4 X5 X6⟩,
    ⟨main_v908, Read.val_main_v908 (F := F) X0 X1 X2 X3 X4 X5 X6⟩,
    ⟨main_v909, Read.val_main_v909 (F := F) X0 X1 X2 X3 X4 X5 X6⟩,
    ⟨main_v910, Read.val_main_v910 (F := F) X0 X1 X2 X3 X4 X5 X6⟩,
    ⟨main_v911, Read.val_main_v911 (F := F) X0 X1 X2 X3 X4 X5 X6⟩,
    ⟨main_v912, Read.val_main_v912 (F := F) X0 X1 X2 X3 X4 X5 X6⟩,
    ⟨main_v913, Read.val_main_v913 (F := F) X0 X1 X2 X3 X4 X5 X6⟩,
    ⟨main_v914, Read.val_main_v914 (F := F) X0 X1 X2 X3 X4 X5 X6⟩,
    ⟨main_v915, Read.val_main_v915 (F := F) X0 X1 X2 X3 X4 X5 X6⟩,
    ⟨main_v916, Read.val_main_v916 (F := F) X0 X1 X2 X3 X4 X5 X6⟩,
    ⟨main_v917, Read.val_main_v917 (F := F) X0 X1 X2 X3 X4 X5 X6⟩,
    ⟨main_v918, Read.val_main_v918 (F := F) X0 X1 X2 X3 X4 X5 X6⟩,
    ⟨main_v919, Read.val_main_v919 (F := F) X0 X1 X2 X3 X4 X5 X6⟩,
    ⟨main_v920, Read.val_main_v920 (F := F) X0 X1 X2 X3 X4 X5 X6⟩,
    ⟨main_v921, Read.val_main_v921 (F := F) X0 X1 X2 X3 X4 X5 X6⟩,
    ⟨main_v922, Read.val_main_v922 (F := F) X0 X1 X2 X3 X4 X5 X6⟩,
    ⟨main_v923, Read.val_main_v923 (F := F) X0 X1 X2 X3 X4 X5 X6⟩,
    ⟨main_v924, Read.val_main_v924 (F := F) X0 X1 X2 X3 X4 X5 X6⟩,
    ⟨main_v925, Read.val_main_v925 (F := F) X0 X1 X2 X3 X4 X5 X6⟩,
    ⟨main_v926, Read.val_main_v926 (F := F) X0 X1 X2 X3 X4 X5 X6⟩,
    ⟨main_v927, Read.val_main_v927 (F := F) X0 X1 X2 X3 X4 X5 X6⟩,
    ⟨main_v928, Read.val_main_v928 (F := F) X0 X1 X2 X3 X4 X5 X6⟩,
    ⟨main_v929, Read.val_main_v929 (F := F) X0 X1 X2 X3 X4 X5 X6⟩,
    ⟨main_v930, Read.val_main_v930 (F := F) X0 X1 X2 X3 X4 X5 X6⟩,
    ⟨main_v931, Read.val_main_v931 (F := F) X0 X1 X2 X3 X4 X5 X6⟩,
    ⟨main_v932, Read.val_main_v932 (F := F) X0 X1 X2 X3 X4 X5 X6⟩,
    ⟨main_v933, Read.val_main_v933 (F := F) X0 X1 X2 X3 X4 X5 X6⟩,
    ⟨main_v934, Read.val_main_v934 (F := F) X0 X1 X2 X3 X4 X5 X6⟩,
    ⟨main_v935, Read.val_main_v935 (F := F) X0 X1 X2 X3 X4 X5 X6⟩,
    ⟨main_v936, Read.val_main_v936 (F := F) X0 X1 X2 X3 X4 X5 X6⟩,
    ⟨main_v937, Read.val_main_v937 (F := F) X0 X1 X2 X3 X4 X5 X6⟩,
    ⟨main_v938, Read.val_main_v938 (F := F) X0 X1 X2 X3 X4 X5 X6⟩,
    ⟨main_v939, Read.val_main_v939 (F := F) X0 X1 X2 X3 X4 X5 X6⟩,
    ⟨main_v940, Read.val_main_v940 (F := F) X0 X1 X2 X3 X4 X5 X6⟩,
    ⟨main_v941, Read.val_main_v941 (F := F) X0 X1 X2 X3 X4 X5 X6⟩,
    ⟨main_v942, Read.val_main_v942 (F := F) X0 X1 X2 X3 X4 X5 X6⟩,
    ⟨main_v943, Read.val_main_v943 (F := F) X0 X1 X2 X3 X4 X5 X6⟩,
    ⟨main_v944, Read.val_main_v944 (F := F) X0 X1 X2 X3 X4 X5 X6⟩,
    ⟨main_v945, Read.val_main_v945 (F := F) X0 X1 X2 X3 X4 X5 X6⟩,
    ⟨main_v946, Read.val_main_v946 (F := F) X0 X1 X2 X3 X4 X5 X6⟩ ]
/-- The stages known after window 15, the newest first. -/
abbrev tbl_15 : List (Entry sig (Elt F)) := (ps_15 X0 X1 X2 X3 X4 X5 X6).reverse ++ tbl_14 X0 X1 X2 X3 X4 X5 X6
theorem up_15 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_14 X0 X1 X2 X3 X4 X5 X6) : e ∈ tbl_15 X0 X1 X2 X3 X4 X5 X6 := List.mem_append_right _ h
theorem in_15 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_15 X0 X1 X2 X3 X4 X5 X6).reverse[j]? = some e) : e ∈ tbl_15 X0 X1 X2 X3 X4 X5 X6 :=
  List.mem_append_left _ (List.mem_of_getElem? h)
set_option maxRecDepth 1000000 in
set_option maxHeartbeats 4000000 in
theorem chain_15 : Chain (tbl_14 X0 X1 X2 X3 X4 X5 X6) (7 + 904) (ops_15 (F := F)) (ps_15 X0 X1 X2 X3 X4 X5 X6) :=
  ⟨⟨rfl, rfl, fun W hg => (binary_result main_v885 main_v886 main_v887 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v885, Read.val_main_v885 (F := F) X0 X1 X2 X3 X4 X5 X6⟩ (List.mem_of_mem_drop (i := 0) (in_14 X0 X1 X2 X3 X4 X5 X6 (j := 1) rfl))) (hg ⟨main_v886, Read.val_main_v886 (F := F) X0 X1 X2 X3 X4 X5 X6⟩ (List.mem_of_mem_drop (i := 0) (in_14 X0 X1 X2 X3 X4 X5 X6 (j := 0) rfl))))⟩,
   ⟨rfl, rfl, fun W hg => (binary_result main_v28 main_v544 main_v888 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 1) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))) (hg ⟨main_v544, Read.val_main_v544 (F := F) X0 X1 X2 X3 X4 X5 X6⟩ (List.mem_of_mem_drop (i := 1) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 42) rfl)))))))))⟩,
   ⟨rfl, rfl, fun W hg => (binary_result main_v887 main_v888 main_v889 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v887, Read.val_main_v887 (F := F) X0 X1 X2 X3 X4 X5 X6⟩ (List.mem_of_getElem? (i := 1) rfl)) (hg ⟨main_v888, Read.val_main_v888 (F := F) X0 X1 X2 X3 X4 X5 X6⟩ (List.mem_of_getElem? (i := 0) rfl)))⟩,
   ⟨rfl, rfl, fun W hg => (binary_result main_v40 main_v254 main_v890 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 3) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))) (hg ⟨main_v254, Read.val_main_v254 (F := F) X0 X1 X2 X3 X4 X5 X6⟩ (List.mem_of_mem_drop (i := 3) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 32) rfl))))))))))))))⟩,
   ⟨rfl, rfl, fun W hg => (binary_result main_v28 main_v119 main_v891 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 4) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))) (hg ⟨main_v119, Read.val_main_v119 (F := F) X0 X1 X2 X3 X4 X5 X6⟩ (List.mem_of_mem_drop (i := 4) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 47) rfl))))))))))))))))⟩,
   ⟨rfl, rfl, fun W hg => (binary_result main_v890 main_v891 main_v892 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v890, Read.val_main_v890 (F := F) X0 X1 X2 X3 X4 X5 X6⟩ (List.mem_of_getElem? (i := 1) rfl)) (hg ⟨main_v891, Read.val_main_v891 (F := F) X0 X1 X2 X3 X4 X5 X6⟩ (List.mem_of_getElem? (i := 0) rfl)))⟩,
   ⟨rfl, rfl, fun W hg => (binary_result main_v42 main_v554 main_v893 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 6) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))) (hg ⟨main_v554, Read.val_main_v554 (F := F) X0 X1 X2 X3 X4 X5 X6⟩ (List.mem_of_mem_drop (i := 6) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 32) rfl)))))))))⟩,
   ⟨rfl, rfl, fun W hg => (binary_result main_v892 main_v893 main_v894 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v892, Read.val_main_v892 (F := F) X0 X1 X2 X3 X4 X5 X6⟩ (List.mem_of_getElem? (i := 1) rfl)) (hg ⟨main_v893, Read.val_main_v893 (F := F) X0 X1 X2 X3 X4 X5 X6⟩ (List.mem_of_getElem? (i := 0) rfl)))⟩,
   ⟨rfl, rfl, fun W hg => (binary_result main_v26 main_v364 main_v895 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 8) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))) (hg ⟨main_v364, Read.val_main_v364 (F := F) X0 X1 X2 X3 X4 X5 X6⟩ (List.mem_of_mem_drop (i := 8) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 42) rfl))))))))))))⟩,
   ⟨rfl, rfl, fun W hg => (binary_result main_v42 main_v469 main_v896 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 9) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))) (hg ⟨main_v469, Read.val_main_v469 (F := F) X0 X1 X2 X3 X4 X5 X6⟩ (List.mem_of_mem_drop (i := 9) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 57) rfl))))))))))⟩,
   ⟨rfl, rfl, fun W hg => (binary_result main_v895 main_v896 main_v897 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v895, Read.val_main_v895 (F := F) X0 X1 X2 X3 X4 X5 X6⟩ (List.mem_of_getElem? (i := 1) rfl)) (hg ⟨main_v896, Read.val_main_v896 (F := F) X0 X1 X2 X3 X4 X5 X6⟩ (List.mem_of_getElem? (i := 0) rfl)))⟩,
   ⟨rfl, rfl, fun W hg => (binary_result main_v28 main_v819 main_v898 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 11) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))) (hg ⟨main_v819, Read.val_main_v819 (F := F) X0 X1 X2 X3 X4 X5 X6⟩ (List.mem_of_mem_drop (i := 11) (up_14 X0 X1 X2 X3 X4 X5 X6 (in_13 X0 X1 X2 X3 X4 X5 X6 (j := 7) rfl)))))⟩,
   ⟨rfl, rfl, fun W hg => (binary_result main_v897 main_v898 main_v899 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v897, Read.val_main_v897 (F := F) X0 X1 X2 X3 X4 X5 X6⟩ (List.mem_of_getElem? (i := 1) rfl)) (hg ⟨main_v898, Read.val_main_v898 (F := F) X0 X1 X2 X3 X4 X5 X6⟩ (List.mem_of_getElem? (i := 0) rfl)))⟩,
   ⟨rfl, rfl, fun W hg => (binary_result main_v30 main_v564 main_v900 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 13) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))) (hg ⟨main_v564, Read.val_main_v564 (F := F) X0 X1 X2 X3 X4 X5 X6⟩ (List.mem_of_mem_drop (i := 13) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 22) rfl)))))))))⟩,
   ⟨rfl, rfl, fun W hg => (binary_result main_v40 main_v524 main_v901 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 14) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))) (hg ⟨main_v524, Read.val_main_v524 (F := F) X0 X1 X2 X3 X4 X5 X6⟩ (List.mem_of_mem_drop (i := 14) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 2) rfl))))))))))⟩,
   ⟨rfl, rfl, fun W hg => (binary_result main_v900 main_v901 main_v902 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v900, Read.val_main_v900 (F := F) X0 X1 X2 X3 X4 X5 X6⟩ (List.mem_of_getElem? (i := 1) rfl)) (hg ⟨main_v901, Read.val_main_v901 (F := F) X0 X1 X2 X3 X4 X5 X6⟩ (List.mem_of_getElem? (i := 0) rfl)))⟩,
   ⟨rfl, rfl, fun W hg => (binary_result main_v26 main_v484 main_v903 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 16) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))) (hg ⟨main_v484, Read.val_main_v484 (F := F) X0 X1 X2 X3 X4 X5 X6⟩ (List.mem_of_mem_drop (i := 16) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 42) rfl))))))))))⟩,
   ⟨rfl, rfl, fun W hg => (binary_result main_v902 main_v903 main_v904 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v902, Read.val_main_v902 (F := F) X0 X1 X2 X3 X4 X5 X6⟩ (List.mem_of_getElem? (i := 1) rfl)) (hg ⟨main_v903, Read.val_main_v903 (F := F) X0 X1 X2 X3 X4 X5 X6⟩ (List.mem_of_getElem? (i := 0) rfl)))⟩,
   ⟨rfl, rfl, fun W hg => (binary_result main_v32 main_v289 main_v905 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 18) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))) (hg ⟨main_v289, Read.val_main_v289 (F := F) X0 X1 X2 X3 X4 X5 X6⟩ (List.mem_of_mem_drop (i := 18) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 57) rfl)))))))))))))⟩,
   ⟨rfl, rfl, fun W hg => (binary_result main_v42 main_v224 main_v906 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 19) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))) (hg ⟨main_v224, Read.val_main_v224 (F := F) X0 X1 X2 X3 X4 X5 X6⟩ (List.mem_of_mem_drop (i := 19) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 2) rfl)))))))))))))))⟩,
   ⟨rfl, rfl, fun W hg => (binary_result main_v905 main_v906 main_v907 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v905, Read.val_main_v905 (F := F) X0 X1 X2 X3 X4 X5 X6⟩ (List.mem_of_getElem? (i := 1) rfl)) (hg ⟨main_v906, Read.val_main_v906 (F := F) X0 X1 X2 X3 X4 X5 X6⟩ (List.mem_of_getElem? (i := 0) rfl)))⟩,
   ⟨rfl, rfl, fun W hg => (binary_result main_v28 main_v704 main_v908 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 21) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))) (hg ⟨main_v704, Read.val_main_v704 (F := F) X0 X1 X2 X3 X4 X5 X6⟩ (List.mem_of_mem_drop (i := 21) (up_14 X0 X1 X2 X3 X4 X5 X6 (up_13 X0 X1 X2 X3 X4 X5 X6 (up_12 X0 X1 X2 X3 X4 X5 X6 (in_11 X0 X1 X2 X3 X4 X5 X6 (j := 2) rfl)))))))⟩,
   ⟨rfl, rfl, fun W hg => (binary_result main_v907 main_v908 main_v909 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v907, Read.val_main_v907 (F := F) X0 X1 X2 X3 X4 X5 X6⟩ (List.mem_of_getElem? (i := 1) rfl)) (hg ⟨main_v908, Read.val_main_v908 (F := F) X0 X1 X2 X3 X4 X5 X6⟩ (List.mem_of_getElem? (i := 0) rfl)))⟩,
   ⟨rfl, rfl, fun W hg => (binary_result main_v44 main_v324 main_v910 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 23) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))) (hg ⟨main_v324, Read.val_main_v324 (F := F) X0 X1 X2 X3 X4 X5 X6⟩ (List.mem_of_mem_drop (i := 23) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 22) rfl)))))))))))))⟩,
   ⟨rfl, rfl, fun W hg => (binary_result main_v42 main_v144 main_v911 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 24) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))) (hg ⟨main_v144, Read.val_main_v144 (F := F) X0 X1 X2 X3 X4 X5 X6⟩ (List.mem_of_mem_drop (i := 24) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 22) rfl))))))))))))))))⟩,
   ⟨rfl, rfl, fun W hg => (binary_result main_v910 main_v911 main_v912 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v910, Read.val_main_v910 (F := F) X0 X1 X2 X3 X4 X5 X6⟩ (List.mem_of_getElem? (i := 1) rfl)) (hg ⟨main_v911, Read.val_main_v911 (F := F) X0 X1 X2 X3 X4 X5 X6⟩ (List.mem_of_getElem? (i := 0) rfl)))⟩,
   ⟨rfl, rfl, fun W hg => (binary_result main_v40 main_v134 main_v913 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 26) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))) (hg ⟨main_v134, Read.val_main_v134 (F := F) X0 X1 X2 X3 X4 X5 X6⟩ (List.mem_of_mem_drop (i := 26) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 32) rfl))))))))))))))))⟩,
   ⟨rfl, rfl, fun W hg => (binary_result main_v912 main_v913 main_v914 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v912, Read.val_main_v912 (F := F) X0 X1 X2 X3 X4 X5 X6⟩ (List.mem_of_getElem? (i := 1) rfl)) (hg ⟨main_v913, Read.val_main_v913 (F := F) X0 X1 X2 X3 X4 X5 X6⟩ (List.mem_of_getElem? (i := 0) rfl)))⟩,
   ⟨rfl, rfl, fun W hg => (binary_result main_v44 main_v324 main_v915 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 28) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))) (hg ⟨main_v324, Read.val_main_v324 (F := F) X0 X1 X2 X3 X4 X5 X6⟩ (List.mem_of_mem_drop (i := 28) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 22) rfl)))))))))))))⟩,
   ⟨rfl, rfl, fun W hg => (binary_result main_v40 main_v89 main_v916 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 29) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))) (hg ⟨main_v89, Read.val_main_v89 (F := F) X0 X1 X2 X3 X4 X5 X6⟩ (List.mem_of_mem_drop (i := 29) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 17) rfl)))))))))))))))))⟩,
   ⟨rfl, rfl, fun W hg => (binary_result main_v915 main_v916 main_v917 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v915, Read.val_main_v915 (F := F) X0 X1 X2 X3 X4 X5 X6⟩ (List.mem_of_getElem? (i := 1) rfl)) (hg ⟨main_v916, Read.val_main_v916 (F := F) X0 X1 X2 X3 X4 X5 X6⟩ (List.mem_of_getElem? (i := 0) rfl)))⟩,
   ⟨rfl, rfl, fun W hg => (binary_result main_v34 main_v584 main_v918 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 31) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))) (hg ⟨main_v584, Read.val_main_v584 (F := F) X0 X1 X2 X3 X4 X5 X6⟩ (List.mem_of_mem_drop (i := 31) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 2) rfl)))))))))⟩,
   ⟨rfl, rfl, fun W hg => (binary_result main_v917 main_v918 main_v919 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v917, Read.val_main_v917 (F := F) X0 X1 X2 X3 X4 X5 X6⟩ (List.mem_of_getElem? (i := 1) rfl)) (hg ⟨main_v918, Read.val_main_v918 (F := F) X0 X1 X2 X3 X4 X5 X6⟩ (List.mem_of_getElem? (i := 0) rfl)))⟩,
   ⟨rfl, rfl, fun W hg => (binary_result main_v34 main_v104 main_v920 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 33) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))) (hg ⟨main_v104, Read.val_main_v104 (F := F) X0 X1 X2 X3 X4 X5 X6⟩ (List.mem_of_mem_drop (i := 33) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 2) rfl)))))))))))))))))⟩,
   ⟨rfl, rfl, fun W hg => (binary_result main_v28 main_v159 main_v921 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 34) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))) (hg ⟨main_v159, Read.val_main_v159 (F := F) X0 X1 X2 X3 X4 X5 X6⟩ (List.mem_of_mem_drop (i := 34) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 7) rfl))))))))))))))))⟩,
   ⟨rfl, rfl, fun W hg => (binary_result main_v920 main_v921 main_v922 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v920, Read.val_main_v920 (F := F) X0 X1 X2 X3 X4 X5 X6⟩ (List.mem_of_getElem? (i := 1) rfl)) (hg ⟨main_v921, Read.val_main_v921 (F := F) X0 X1 X2 X3 X4 X5 X6⟩ (List.mem_of_getElem? (i := 0) rfl)))⟩,
   ⟨rfl, rfl, fun W hg => (binary_result main_v44 main_v149 main_v923 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 36) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))) (hg ⟨main_v149, Read.val_main_v149 (F := F) X0 X1 X2 X3 X4 X5 X6⟩ (List.mem_of_mem_drop (i := 36) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 17) rfl))))))))))))))))⟩,
   ⟨rfl, rfl, fun W hg => (binary_result main_v922 main_v923 main_v924 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v922, Read.val_main_v922 (F := F) X0 X1 X2 X3 X4 X5 X6⟩ (List.mem_of_getElem? (i := 1) rfl)) (hg ⟨main_v923, Read.val_main_v923 (F := F) X0 X1 X2 X3 X4 X5 X6⟩ (List.mem_of_getElem? (i := 0) rfl)))⟩,
   ⟨rfl, rfl, fun W hg => (binary_result main_v42 main_v76 main_v925 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 38) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))) (hg ⟨main_v76, Read.val_main_v76 (F := F) X0 X1 X2 X3 X4 X5 X6⟩ (List.mem_of_mem_drop (i := 38) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 32) rfl)))))))))))))))))⟩,
   ⟨rfl, rfl, fun W hg => (binary_result main_v30 main_v889 main_v926 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 39) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))) (hg ⟨main_v889, Read.val_main_v889 (F := F) X0 X1 X2 X3 X4 X5 X6⟩ (List.mem_of_getElem? (i := 36) rfl)))⟩,
   ⟨rfl, rfl, fun W hg => (binary_result main_v925 main_v926 main_v927 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v925, Read.val_main_v925 (F := F) X0 X1 X2 X3 X4 X5 X6⟩ (List.mem_of_getElem? (i := 1) rfl)) (hg ⟨main_v926, Read.val_main_v926 (F := F) X0 X1 X2 X3 X4 X5 X6⟩ (List.mem_of_getElem? (i := 0) rfl)))⟩,
   ⟨rfl, rfl, fun W hg => (binary_result main_v40 main_v669 main_v928 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 41) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))) (hg ⟨main_v669, Read.val_main_v669 (F := F) X0 X1 X2 X3 X4 X5 X6⟩ (List.mem_of_mem_drop (i := 41) (up_14 X0 X1 X2 X3 X4 X5 X6 (up_13 X0 X1 X2 X3 X4 X5 X6 (up_12 X0 X1 X2 X3 X4 X5 X6 (in_11 X0 X1 X2 X3 X4 X5 X6 (j := 37) rfl)))))))⟩,
   ⟨rfl, rfl, fun W hg => (binary_result main_v927 main_v928 main_v929 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v927, Read.val_main_v927 (F := F) X0 X1 X2 X3 X4 X5 X6⟩ (List.mem_of_getElem? (i := 1) rfl)) (hg ⟨main_v928, Read.val_main_v928 (F := F) X0 X1 X2 X3 X4 X5 X6⟩ (List.mem_of_getElem? (i := 0) rfl)))⟩,
   ⟨rfl, rfl, fun W hg => (binary_result main_v26 main_v779 main_v930 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 43) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))) (hg ⟨main_v779, Read.val_main_v779 (F := F) X0 X1 X2 X3 X4 X5 X6⟩ (List.mem_of_mem_drop (i := 43) (up_14 X0 X1 X2 X3 X4 X5 X6 (in_13 X0 X1 X2 X3 X4 X5 X6 (j := 47) rfl)))))⟩,
   ⟨rfl, rfl, fun W hg => (binary_result main_v32 main_v344 main_v931 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 44) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))) (hg ⟨main_v344, Read.val_main_v344 (F := F) X0 X1 X2 X3 X4 X5 X6⟩ (List.mem_of_mem_drop (i := 44) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 2) rfl)))))))))))))⟩,
   ⟨rfl, rfl, fun W hg => (binary_result main_v930 main_v931 main_v932 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v930, Read.val_main_v930 (F := F) X0 X1 X2 X3 X4 X5 X6⟩ (List.mem_of_getElem? (i := 1) rfl)) (hg ⟨main_v931, Read.val_main_v931 (F := F) X0 X1 X2 X3 X4 X5 X6⟩ (List.mem_of_getElem? (i := 0) rfl)))⟩,
   ⟨rfl, rfl, fun W hg => (binary_result main_v42 main_v279 main_v933 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 46) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))) (hg ⟨main_v279, Read.val_main_v279 (F := F) X0 X1 X2 X3 X4 X5 X6⟩ (List.mem_of_mem_drop (i := 46) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 7) rfl))))))))))))))⟩,
   ⟨rfl, rfl, fun W hg => (binary_result main_v932 main_v933 main_v934 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v932, Read.val_main_v932 (F := F) X0 X1 X2 X3 X4 X5 X6⟩ (List.mem_of_getElem? (i := 1) rfl)) (hg ⟨main_v933, Read.val_main_v933 (F := F) X0 X1 X2 X3 X4 X5 X6⟩ (List.mem_of_getElem? (i := 0) rfl)))⟩,
   ⟨rfl, rfl, fun W hg => (binary_result main_v30 main_v644 main_v935 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 48) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))) (hg ⟨main_v644, Read.val_main_v644 (F := F) X0 X1 X2 X3 X4 X5 X6⟩ (List.mem_of_mem_drop (i := 48) (up_14 X0 X1 X2 X3 X4 X5 X6 (up_13 X0 X1 X2 X3 X4 X5 X6 (up_12 X0 X1 X2 X3 X4 X5 X6 (up_11 X0 X1 X2 X3 X4 X5 X6 (in_10 X0 X1 X2 X3 X4 X5 X6 (j := 2) rfl))))))))⟩,
   ⟨rfl, rfl, fun W hg => (binary_result main_v26 main_v569 main_v936 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 49) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))) (hg ⟨main_v569, Read.val_main_v569 (F := F) X0 X1 X2 X3 X4 X5 X6⟩ (List.mem_of_mem_drop (i := 49) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 17) rfl)))))))))⟩,
   ⟨rfl, rfl, fun W hg => (binary_result main_v935 main_v936 main_v937 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v935, Read.val_main_v935 (F := F) X0 X1 X2 X3 X4 X5 X6⟩ (List.mem_of_getElem? (i := 1) rfl)) (hg ⟨main_v936, Read.val_main_v936 (F := F) X0 X1 X2 X3 X4 X5 X6⟩ (List.mem_of_getElem? (i := 0) rfl)))⟩,
   ⟨rfl, rfl, fun W hg => (binary_result main_v44 main_v404 main_v938 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 51) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))) (hg ⟨main_v404, Read.val_main_v404 (F := F) X0 X1 X2 X3 X4 X5 X6⟩ (List.mem_of_mem_drop (i := 51) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 2) rfl))))))))))))⟩,
   ⟨rfl, rfl, fun W hg => (binary_result main_v937 main_v938 main_v939 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v937, Read.val_main_v937 (F := F) X0 X1 X2 X3 X4 X5 X6⟩ (List.mem_of_getElem? (i := 1) rfl)) (hg ⟨main_v938, Read.val_main_v938 (F := F) X0 X1 X2 X3 X4 X5 X6⟩ (List.mem_of_getElem? (i := 0) rfl)))⟩,
   ⟨rfl, rfl, fun W hg => (binary_result main_v30 main_v409 main_v940 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 53) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))) (hg ⟨main_v409, Read.val_main_v409 (F := F) X0 X1 X2 X3 X4 X5 X6⟩ (List.mem_of_mem_drop (i := 53) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 57) rfl)))))))))))⟩,
   ⟨rfl, rfl, fun W hg => (binary_result main_v42 main_v479 main_v941 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 54) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))) (hg ⟨main_v479, Read.val_main_v479 (F := F) X0 X1 X2 X3 X4 X5 X6⟩ (List.mem_of_mem_drop (i := 54) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 47) rfl))))))))))⟩,
   ⟨rfl, rfl, fun W hg => (binary_result main_v940 main_v941 main_v942 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v940, Read.val_main_v940 (F := F) X0 X1 X2 X3 X4 X5 X6⟩ (List.mem_of_getElem? (i := 1) rfl)) (hg ⟨main_v941, Read.val_main_v941 (F := F) X0 X1 X2 X3 X4 X5 X6⟩ (List.mem_of_getElem? (i := 0) rfl)))⟩,
   ⟨rfl, rfl, fun W hg => (binary_result main_v26 main_v72 main_v943 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 56) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))) (hg ⟨main_v72, Read.val_main_v72 (F := F) X0 X1 X2 X3 X4 X5 X6⟩ (List.mem_of_mem_drop (i := 56) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 37) rfl)))))))))))))))))⟩,
   ⟨rfl, rfl, fun W hg => (binary_result main_v942 main_v943 main_v944 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v942, Read.val_main_v942 (F := F) X0 X1 X2 X3 X4 X5 X6⟩ (List.mem_of_getElem? (i := 1) rfl)) (hg ⟨main_v943, Read.val_main_v943 (F := F) X0 X1 X2 X3 X4 X5 X6⟩ (List.mem_of_getElem? (i := 0) rfl)))⟩,
   ⟨rfl, rfl, fun W hg => (binary_result main_v34 main_v38 main_v945 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 58) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))) (hg ⟨main_v38, Read.val_main_v38 (F := F) X0 X1 X2 X3 X4 X5 X6⟩ (List.mem_of_mem_drop (i := 58) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))))))⟩,
   ⟨rfl, rfl, fun W hg => (binary_result main_v30 main_v474 main_v946 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 59) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))) (hg ⟨main_v474, Read.val_main_v474 (F := F) X0 X1 X2 X3 X4 X5 X6⟩ (List.mem_of_mem_drop (i := 59) (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 52) rfl))))))))))⟩,
   trivial⟩
theorem good_15 (W : Valuation τ sig (Elt F)) (hg : Good W (tbl_14 X0 X1 X2 X3 X4 X5 X6) (7 + 904)) :
    Good (after ops_15 W) (tbl_15 X0 X1 X2 X3 X4 X5 X6) (7 + 964) :=
  Good.after _ _ _ _ W hg (chain_15 X0 X1 X2 X3 X4 X5 X6)

theorem part_eq_16 (c : Dev nD) : main_part16 (F := F) c = seq ops_16 := rfl
theorem fresh_16 : (ops_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 16's operations write, in order. -/
abbrev ps_16 : List (Entry sig (Elt F)) :=
  [ ⟨main_v947, Read.val_main_v947 (F := F) X0 X1 X2 X3 X4 X5 X6⟩,
    ⟨main_v948, Read.val_main_v948 (F := F) X0 X1 X2 X3 X4 X5 X6⟩,
    ⟨main_v949, Read.val_main_v949 (F := F) X0 X1 X2 X3 X4 X5 X6⟩,
    ⟨main_v950, Read.val_main_v950 (F := F) X0 X1 X2 X3 X4 X5 X6⟩,
    ⟨main_v951, Read.val_main_v951 (F := F) X0 X1 X2 X3 X4 X5 X6⟩,
    ⟨main_v952, Read.val_main_v952 (F := F) X0 X1 X2 X3 X4 X5 X6⟩,
    ⟨main_v953, Read.val_main_v953 (F := F) X0 X1 X2 X3 X4 X5 X6⟩,
    ⟨main_v954, Read.val_main_v954 (F := F) X0 X1 X2 X3 X4 X5 X6⟩,
    ⟨main_v955, Read.val_main_v955 (F := F) X0 X1 X2 X3 X4 X5 X6⟩,
    ⟨main_v956, Read.val_main_v956 (F := F) X0 X1 X2 X3 X4 X5 X6⟩,
    ⟨main_v957, Read.val_main_v957 (F := F) X0 X1 X2 X3 X4 X5 X6⟩,
    ⟨main_v958, Read.val_main_v958 (F := F) X0 X1 X2 X3 X4 X5 X6⟩,
    ⟨main_v959, Read.val_main_v959 (F := F) X0 X1 X2 X3 X4 X5 X6⟩,
    ⟨main_v960, Read.val_main_v960 (F := F) X0 X1 X2 X3 X4 X5 X6⟩,
    ⟨main_v961, Read.val_main_v961 (F := F) X0 X1 X2 X3 X4 X5 X6⟩,
    ⟨main_v962, Read.val_main_v962 (F := F) X0 X1 X2 X3 X4 X5 X6⟩,
    ⟨main_v963, Read.val_main_v963 (F := F) X0 X1 X2 X3 X4 X5 X6⟩,
    ⟨main_v964, Read.val_main_v964 (F := F) X0 X1 X2 X3 X4 X5 X6⟩,
    ⟨main_v965, Read.val_main_v965 (F := F) X0 X1 X2 X3 X4 X5 X6⟩,
    ⟨main_v966, Read.val_main_v966 (F := F) X0 X1 X2 X3 X4 X5 X6⟩,
    ⟨main_v967, Read.val_main_v967 (F := F) X0 X1 X2 X3 X4 X5 X6⟩,
    ⟨main_v968, Read.val_main_v968 (F := F) X0 X1 X2 X3 X4 X5 X6⟩,
    ⟨main_v969, Read.val_main_v969 (F := F) X0 X1 X2 X3 X4 X5 X6⟩,
    ⟨main_v970, Read.val_main_v970 (F := F) X0 X1 X2 X3 X4 X5 X6⟩,
    ⟨main_v971, Read.val_main_v971 (F := F) X0 X1 X2 X3 X4 X5 X6⟩,
    ⟨main_v972, Read.val_main_v972 (F := F) X0 X1 X2 X3 X4 X5 X6⟩,
    ⟨main_v973, Read.val_main_v973 (F := F) X0 X1 X2 X3 X4 X5 X6⟩,
    ⟨main_v974, Read.val_main_v974 (F := F) X0 X1 X2 X3 X4 X5 X6⟩,
    ⟨main_v975, Read.val_main_v975 (F := F) X0 X1 X2 X3 X4 X5 X6⟩,
    ⟨main_v976, Read.val_main_v976 (F := F) X0 X1 X2 X3 X4 X5 X6⟩,
    ⟨main_v977, Read.val_main_v977 (F := F) X0 X1 X2 X3 X4 X5 X6⟩,
    ⟨main_v978, Read.val_main_v978 (F := F) X0 X1 X2 X3 X4 X5 X6⟩,
    ⟨main_v979, Read.val_main_v979 (F := F) X0 X1 X2 X3 X4 X5 X6⟩,
    ⟨main_v980, Read.val_main_v980 (F := F) X0 X1 X2 X3 X4 X5 X6⟩,
    ⟨main_v981, Read.val_main_v981 (F := F) X0 X1 X2 X3 X4 X5 X6⟩,
    ⟨main_v982, Read.val_main_v982 (F := F) X0 X1 X2 X3 X4 X5 X6⟩,
    ⟨main_v983, Read.val_main_v983 (F := F) X0 X1 X2 X3 X4 X5 X6⟩,
    ⟨main_v984, Read.val_main_v984 (F := F) X0 X1 X2 X3 X4 X5 X6⟩,
    ⟨main_v985, Read.val_main_v985 (F := F) X0 X1 X2 X3 X4 X5 X6⟩,
    ⟨main_v986, Read.val_main_v986 (F := F) X0 X1 X2 X3 X4 X5 X6⟩,
    ⟨main_v987, Read.val_main_v987 (F := F) X0 X1 X2 X3 X4 X5 X6⟩,
    ⟨main_v988, Read.val_main_v988 (F := F) X0 X1 X2 X3 X4 X5 X6⟩,
    ⟨main_v989, Read.val_main_v989 (F := F) X0 X1 X2 X3 X4 X5 X6⟩,
    ⟨main_v990, Read.val_main_v990 (F := F) X0 X1 X2 X3 X4 X5 X6⟩,
    ⟨main_v991, Read.val_main_v991 (F := F) X0 X1 X2 X3 X4 X5 X6⟩,
    ⟨main_v992, Read.val_main_v992 (F := F) X0 X1 X2 X3 X4 X5 X6⟩,
    ⟨main_v993, Read.val_main_v993 (F := F) X0 X1 X2 X3 X4 X5 X6⟩,
    ⟨main_v994, Read.val_main_v994 (F := F) X0 X1 X2 X3 X4 X5 X6⟩,
    ⟨main_v995, Read.val_main_v995 (F := F) X0 X1 X2 X3 X4 X5 X6⟩,
    ⟨main_v996, Read.val_main_v996 (F := F) X0 X1 X2 X3 X4 X5 X6⟩,
    ⟨main_v997, Read.val_main_v997 (F := F) X0 X1 X2 X3 X4 X5 X6⟩,
    ⟨main_v998, Read.val_main_v998 (F := F) X0 X1 X2 X3 X4 X5 X6⟩,
    ⟨main_v999, Read.val_main_v999 (F := F) X0 X1 X2 X3 X4 X5 X6⟩,
    ⟨main_v1000, Read.val_main_v1000 (F := F) X0 X1 X2 X3 X4 X5 X6⟩,
    ⟨main_v1001, Read.val_main_v1001 (F := F) X0 X1 X2 X3 X4 X5 X6⟩,
    ⟨main_v1002, Read.val_main_v1002 (F := F) X0 X1 X2 X3 X4 X5 X6⟩,
    ⟨main_v1003, Read.val_main_v1003 (F := F) X0 X1 X2 X3 X4 X5 X6⟩,
    ⟨main_v1004, Read.val_main_v1004 (F := F) X0 X1 X2 X3 X4 X5 X6⟩,
    ⟨main_v1005, Read.val_main_v1005 (F := F) X0 X1 X2 X3 X4 X5 X6⟩,
    ⟨main_v1006, Read.val_main_v1006 (F := F) X0 X1 X2 X3 X4 X5 X6⟩ ]
/-- The stages known after window 16, the newest first. -/
abbrev tbl_16 : List (Entry sig (Elt F)) := (ps_16 X0 X1 X2 X3 X4 X5 X6).reverse ++ tbl_15 X0 X1 X2 X3 X4 X5 X6
theorem up_16 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_15 X0 X1 X2 X3 X4 X5 X6) : e ∈ tbl_16 X0 X1 X2 X3 X4 X5 X6 := List.mem_append_right _ h
theorem in_16 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_16 X0 X1 X2 X3 X4 X5 X6).reverse[j]? = some e) : e ∈ tbl_16 X0 X1 X2 X3 X4 X5 X6 :=
  List.mem_append_left _ (List.mem_of_getElem? h)
set_option maxRecDepth 1000000 in
set_option maxHeartbeats 4000000 in
theorem chain_16 : Chain (tbl_15 X0 X1 X2 X3 X4 X5 X6) (7 + 964) (ops_16 (F := F)) (ps_16 X0 X1 X2 X3 X4 X5 X6) :=
  ⟨⟨rfl, rfl, fun W hg => (binary_result main_v945 main_v946 main_v947 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v945, Read.val_main_v945 (F := F) X0 X1 X2 X3 X4 X5 X6⟩ (List.mem_of_mem_drop (i := 0) (in_15 X0 X1 X2 X3 X4 X5 X6 (j := 1) rfl))) (hg ⟨main_v946, Read.val_main_v946 (F := F) X0 X1 X2 X3 X4 X5 X6⟩ (List.mem_of_mem_drop (i := 0) (in_15 X0 X1 X2 X3 X4 X5 X6 (j := 0) rfl))))⟩,
   ⟨rfl, rfl, fun W hg => (binary_result main_v26 main_v559 main_v948 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 1) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))) (hg ⟨main_v559, Read.val_main_v559 (F := F) X0 X1 X2 X3 X4 X5 X6⟩ (List.mem_of_mem_drop (i := 1) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 27) rfl))))))))))⟩,
   ⟨rfl, rfl, fun W hg => (binary_result main_v947 main_v948 main_v949 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v947, Read.val_main_v947 (F := F) X0 X1 X2 X3 X4 X5 X6⟩ (List.mem_of_getElem? (i := 1) rfl)) (hg ⟨main_v948, Read.val_main_v948 (F := F) X0 X1 X2 X3 X4 X5 X6⟩ (List.mem_of_getElem? (i := 0) rfl)))⟩,
   ⟨rfl, rfl, fun W hg => (binary_result main_v36 main_v734 main_v950 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 3) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))) (hg ⟨main_v734, Read.val_main_v734 (F := F) X0 X1 X2 X3 X4 X5 X6⟩ (List.mem_of_mem_drop (i := 3) (up_15 X0 X1 X2 X3 X4 X5 X6 (up_14 X0 X1 X2 X3 X4 X5 X6 (up_13 X0 X1 X2 X3 X4 X5 X6 (in_12 X0 X1 X2 X3 X4 X5 X6 (j := 32) rfl)))))))⟩,
   ⟨rfl, rfl, fun W hg => (binary_result main_v38 main_v38 main_v951 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 4) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))) (hg ⟨main_v38, Read.val_main_v38 (F := F) X0 X1 X2 X3 X4 X5 X6⟩ (List.mem_of_mem_drop (i := 4) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))))⟩,
   ⟨rfl, rfl, fun W hg => (binary_result main_v950 main_v951 main_v952 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v950, Read.val_main_v950 (F := F) X0 X1 X2 X3 X4 X5 X6⟩ (List.mem_of_getElem? (i := 1) rfl)) (hg ⟨main_v951, Read.val_main_v951 (F := F) X0 X1 X2 X3 X4 X5 X6⟩ (List.mem_of_getElem? (i := 0) rfl)))⟩,
   ⟨rfl, rfl, fun W hg => (binary_result main_v40 main_v409 main_v953 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 6) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))) (hg ⟨main_v409, Read.val_main_v409 (F := F) X0 X1 X2 X3 X4 X5 X6⟩ (List.mem_of_mem_drop (i := 6) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 57) rfl))))))))))))⟩,
   ⟨rfl, rfl, fun W hg => (binary_result main_v952 main_v953 main_v954 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v952, Read.val_main_v952 (F := F) X0 X1 X2 X3 X4 X5 X6⟩ (List.mem_of_getElem? (i := 1) rfl)) (hg ⟨main_v953, Read.val_main_v953 (F := F) X0 X1 X2 X3 X4 X5 X6⟩ (List.mem_of_getElem? (i := 0) rfl)))⟩,
   ⟨rfl, rfl, fun W hg => (binary_result main_v34 main_v40 main_v955 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 8) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))))) (hg ⟨main_v40, Read.val_main_v40 (F := F) X0 X1 X2 X3 X4 X5 X6⟩ (List.mem_of_mem_drop (i := 8) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))⟩,
   ⟨rfl, rfl, fun W hg => (binary_result main_v42 main_v589 main_v956 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 9) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))) (hg ⟨main_v589, Read.val_main_v589 (F := F) X0 X1 X2 X3 X4 X5 X6⟩ (List.mem_of_mem_drop (i := 9) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (in_10 X0 X1 X2 X3 X4 X5 X6 (j := 57) rfl)))))))))⟩,
   ⟨rfl, rfl, fun W hg => (binary_result main_v955 main_v956 main_v957 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v955, Read.val_main_v955 (F := F) X0 X1 X2 X3 X4 X5 X6⟩ (List.mem_of_getElem? (i := 1) rfl)) (hg ⟨main_v956, Read.val_main_v956 (F := F) X0 X1 X2 X3 X4 X5 X6⟩ (List.mem_of_getElem? (i := 0) rfl)))⟩,
   ⟨rfl, rfl, fun W hg => (binary_result main_v44 main_v389 main_v958 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 11) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))) (hg ⟨main_v389, Read.val_main_v389 (F := F) X0 X1 X2 X3 X4 X5 X6⟩ (List.mem_of_mem_drop (i := 11) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 17) rfl)))))))))))))⟩,
   ⟨rfl, rfl, fun W hg => (binary_result main_v957 main_v958 main_v959 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v957, Read.val_main_v957 (F := F) X0 X1 X2 X3 X4 X5 X6⟩ (List.mem_of_getElem? (i := 1) rfl)) (hg ⟨main_v958, Read.val_main_v958 (F := F) X0 X1 X2 X3 X4 X5 X6⟩ (List.mem_of_getElem? (i := 0) rfl)))⟩,
   ⟨rfl, rfl, fun W hg => (binary_result main_v32 main_v139 main_v960 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 13) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))))) (hg ⟨main_v139, Read.val_main_v139 (F := F) X0 X1 X2 X3 X4 X5 X6⟩ (List.mem_of_mem_drop (i := 13) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 27) rfl)))))))))))))))))⟩,
   ⟨rfl, rfl, fun W hg => (binary_result main_v26 main_v479 main_v961 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 14) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))) (hg ⟨main_v479, Read.val_main_v479 (F := F) X0 X1 X2 X3 X4 X5 X6⟩ (List.mem_of_mem_drop (i := 14) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 47) rfl)))))))))))⟩,
   ⟨rfl, rfl, fun W hg => (binary_result main_v960 main_v961 main_v962 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v960, Read.val_main_v960 (F := F) X0 X1 X2 X3 X4 X5 X6⟩ (List.mem_of_getElem? (i := 1) rfl)) (hg ⟨main_v961, Read.val_main_v961 (F := F) X0 X1 X2 X3 X4 X5 X6⟩ (List.mem_of_getElem? (i := 0) rfl)))⟩,
   ⟨rfl, rfl, fun W hg => (binary_result main_v40 main_v32 main_v963 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 16) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))) (hg ⟨main_v32, Read.val_main_v32 (F := F) X0 X1 X2 X3 X4 X5 X6⟩ (List.mem_of_mem_drop (i := 16) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))))))⟩,
   ⟨rfl, rfl, fun W hg => (binary_result main_v962 main_v963 main_v964 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v962, Read.val_main_v962 (F := F) X0 X1 X2 X3 X4 X5 X6⟩ (List.mem_of_getElem? (i := 1) rfl)) (hg ⟨main_v963, Read.val_main_v963 (F := F) X0 X1 X2 X3 X4 X5 X6⟩ (List.mem_of_getElem? (i := 0) rfl)))⟩,
   ⟨rfl, rfl, fun W hg => (binary_result main_v42 main_v924 main_v965 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 18) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))) (hg ⟨main_v924, Read.val_main_v924 (F := F) X0 X1 X2 X3 X4 X5 X6⟩ (List.mem_of_mem_drop (i := 18) (in_15 X0 X1 X2 X3 X4 X5 X6 (j := 22) rfl))))⟩,
   ⟨rfl, rfl, fun W hg => (binary_result main_v40 main_v94 main_v966 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 19) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))) (hg ⟨main_v94, Read.val_main_v94 (F := F) X0 X1 X2 X3 X4 X5 X6⟩ (List.mem_of_mem_drop (i := 19) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 12) rfl))))))))))))))))))⟩,
   ⟨rfl, rfl, fun W hg => (binary_result main_v965 main_v966 main_v967 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v965, Read.val_main_v965 (F := F) X0 X1 X2 X3 X4 X5 X6⟩ (List.mem_of_getElem? (i := 1) rfl)) (hg ⟨main_v966, Read.val_main_v966 (F := F) X0 X1 X2 X3 X4 X5 X6⟩ (List.mem_of_getElem? (i := 0) rfl)))⟩,
   ⟨rfl, rfl, fun W hg => (binary_result main_v30 main_v304 main_v968 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 21) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))))) (hg ⟨main_v304, Read.val_main_v304 (F := F) X0 X1 X2 X3 X4 X5 X6⟩ (List.mem_of_mem_drop (i := 21) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 42) rfl))))))))))))))⟩,
   ⟨rfl, rfl, fun W hg => (binary_result main_v967 main_v968 main_v969 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v967, Read.val_main_v967 (F := F) X0 X1 X2 X3 X4 X5 X6⟩ (List.mem_of_getElem? (i := 1) rfl)) (hg ⟨main_v968, Read.val_main_v968 (F := F) X0 X1 X2 X3 X4 X5 X6⟩ (List.mem_of_getElem? (i := 0) rfl)))⟩,
   ⟨rfl, rfl, fun W hg => (binary_result main_v26 main_v894 main_v970 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 23) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))) (hg ⟨main_v894, Read.val_main_v894 (F := F) X0 X1 X2 X3 X4 X5 X6⟩ (List.mem_of_mem_drop (i := 23) (in_15 X0 X1 X2 X3 X4 X5 X6 (j := 52) rfl))))⟩,
   ⟨rfl, rfl, fun W hg => (binary_result main_v32 main_v739 main_v971 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 24) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))))) (hg ⟨main_v739, Read.val_main_v739 (F := F) X0 X1 X2 X3 X4 X5 X6⟩ (List.mem_of_mem_drop (i := 24) (up_15 X0 X1 X2 X3 X4 X5 X6 (up_14 X0 X1 X2 X3 X4 X5 X6 (up_13 X0 X1 X2 X3 X4 X5 X6 (in_12 X0 X1 X2 X3 X4 X5 X6 (j := 27) rfl)))))))⟩,
   ⟨rfl, rfl, fun W hg => (binary_result main_v970 main_v971 main_v972 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v970, Read.val_main_v970 (F := F) X0 X1 X2 X3 X4 X5 X6⟩ (List.mem_of_getElem? (i := 1) rfl)) (hg ⟨main_v971, Read.val_main_v971 (F := F) X0 X1 X2 X3 X4 X5 X6⟩ (List.mem_of_getElem? (i := 0) rfl)))⟩,
   ⟨rfl, rfl, fun W hg => (binary_result main_v34 main_v559 main_v973 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 26) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))))) (hg ⟨main_v559, Read.val_main_v559 (F := F) X0 X1 X2 X3 X4 X5 X6⟩ (List.mem_of_mem_drop (i := 26) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 27) rfl))))))))))⟩,
   ⟨rfl, rfl, fun W hg => (binary_result main_v972 main_v973 main_v974 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v972, Read.val_main_v972 (F := F) X0 X1 X2 X3 X4 X5 X6⟩ (List.mem_of_getElem? (i := 1) rfl)) (hg ⟨main_v973, Read.val_main_v973 (F := F) X0 X1 X2 X3 X4 X5 X6⟩ (List.mem_of_getElem? (i := 0) rfl)))⟩,
   ⟨rfl, rfl, fun W hg => (binary_result main_v36 main_v659 main_v975 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 28) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))) (hg ⟨main_v659, Read.val_main_v659 (F := F) X0 X1 X2 X3 X4 X5 X6⟩ (List.mem_of_mem_drop (i := 28) (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 47) rfl))))))))⟩,
   ⟨rfl, rfl, fun W hg => (binary_result main_v40 main_v579 main_v976 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 29) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))) (hg ⟨main_v579, Read.val_main_v579 (F := F) X0 X1 X2 X3 X4 X5 X6⟩ (List.mem_of_mem_drop (i := 29) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 7) rfl))))))))))⟩,
   ⟨rfl, rfl, fun W hg => (binary_result main_v975 main_v976 main_v977 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v975, Read.val_main_v975 (F := F) X0 X1 X2 X3 X4 X5 X6⟩ (List.mem_of_getElem? (i := 1) rfl)) (hg ⟨main_v976, Read.val_main_v976 (F := F) X0 X1 X2 X3 X4 X5 X6⟩ (List.mem_of_getElem? (i := 0) rfl)))⟩,
   ⟨rfl, rfl, fun W hg => (binary_result main_v28 main_v849 main_v978 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 31) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))) (hg ⟨main_v849, Read.val_main_v849 (F := F) X0 X1 X2 X3 X4 X5 X6⟩ (List.mem_of_mem_drop (i := 31) (up_15 X0 X1 X2 X3 X4 X5 X6 (in_14 X0 X1 X2 X3 X4 X5 X6 (j := 37) rfl)))))⟩,
   ⟨rfl, rfl, fun W hg => (binary_result main_v977 main_v978 main_v979 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v977, Read.val_main_v977 (F := F) X0 X1 X2 X3 X4 X5 X6⟩ (List.mem_of_getElem? (i := 1) rfl)) (hg ⟨main_v978, Read.val_main_v978 (F := F) X0 X1 X2 X3 X4 X5 X6⟩ (List.mem_of_getElem? (i := 0) rfl)))⟩,
   ⟨rfl, rfl, fun W hg => (binary_result main_v40 main_v489 main_v980 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 33) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))) (hg ⟨main_v489, Read.val_main_v489 (F := F) X0 X1 X2 X3 X4 X5 X6⟩ (List.mem_of_mem_drop (i := 33) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 37) rfl)))))))))))⟩,
   ⟨rfl, rfl, fun W hg => (binary_result main_v32 main_v519 main_v981 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 34) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))))) (hg ⟨main_v519, Read.val_main_v519 (F := F) X0 X1 X2 X3 X4 X5 X6⟩ (List.mem_of_mem_drop (i := 34) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 7) rfl)))))))))))⟩,
   ⟨rfl, rfl, fun W hg => (binary_result main_v980 main_v981 main_v982 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v980, Read.val_main_v980 (F := F) X0 X1 X2 X3 X4 X5 X6⟩ (List.mem_of_getElem? (i := 1) rfl)) (hg ⟨main_v981, Read.val_main_v981 (F := F) X0 X1 X2 X3 X4 X5 X6⟩ (List.mem_of_getElem? (i := 0) rfl)))⟩,
   ⟨rfl, rfl, fun W hg => (binary_result main_v28 main_v774 main_v983 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 36) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))) (hg ⟨main_v774, Read.val_main_v774 (F := F) X0 X1 X2 X3 X4 X5 X6⟩ (List.mem_of_mem_drop (i := 36) (up_15 X0 X1 X2 X3 X4 X5 X6 (up_14 X0 X1 X2 X3 X4 X5 X6 (in_13 X0 X1 X2 X3 X4 X5 X6 (j := 52) rfl))))))⟩,
   ⟨rfl, rfl, fun W hg => (binary_result main_v982 main_v983 main_v984 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v982, Read.val_main_v982 (F := F) X0 X1 X2 X3 X4 X5 X6⟩ (List.mem_of_getElem? (i := 1) rfl)) (hg ⟨main_v983, Read.val_main_v983 (F := F) X0 X1 X2 X3 X4 X5 X6⟩ (List.mem_of_getElem? (i := 0) rfl)))⟩,
   ⟨rfl, rfl, fun W hg => (binary_result main_v30 main_v704 main_v985 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 38) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))))) (hg ⟨main_v704, Read.val_main_v704 (F := F) X0 X1 X2 X3 X4 X5 X6⟩ (List.mem_of_mem_drop (i := 38) (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 2) rfl))))))))⟩,
   ⟨rfl, rfl, fun W hg => (binary_result main_v34 main_v914 main_v986 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 39) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))))) (hg ⟨main_v914, Read.val_main_v914 (F := F) X0 X1 X2 X3 X4 X5 X6⟩ (List.mem_of_mem_drop (i := 39) (in_15 X0 X1 X2 X3 X4 X5 X6 (j := 32) rfl))))⟩,
   ⟨rfl, rfl, fun W hg => (binary_result main_v985 main_v986 main_v987 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v985, Read.val_main_v985 (F := F) X0 X1 X2 X3 X4 X5 X6⟩ (List.mem_of_getElem? (i := 1) rfl)) (hg ⟨main_v986, Read.val_main_v986 (F := F) X0 X1 X2 X3 X4 X5 X6⟩ (List.mem_of_getElem? (i := 0) rfl)))⟩,
   ⟨rfl, rfl, fun W hg => (binary_result main_v42 main_v644 main_v988 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 41) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))) (hg ⟨main_v644, Read.val_main_v644 (F := F) X0 X1 X2 X3 X4 X5 X6⟩ (List.mem_of_mem_drop (i := 41) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (in_10 X0 X1 X2 X3 X4 X5 X6 (j := 2) rfl)))))))))⟩,
   ⟨rfl, rfl, fun W hg => (binary_result main_v987 main_v988 main_v989 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v987, Read.val_main_v987 (F := F) X0 X1 X2 X3 X4 X5 X6⟩ (List.mem_of_getElem? (i := 1) rfl)) (hg ⟨main_v988, Read.val_main_v988 (F := F) X0 X1 X2 X3 X4 X5 X6⟩ (List.mem_of_getElem? (i := 0) rfl)))⟩,
   ⟨rfl, rfl, fun W hg => (binary_result main_v30 main_v384 main_v990 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 43) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))))) (hg ⟨main_v384, Read.val_main_v384 (F := F) X0 X1 X2 X3 X4 X5 X6⟩ (List.mem_of_mem_drop (i := 43) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 22) rfl)))))))))))))⟩,
   ⟨rfl, rfl, fun W hg => (binary_result main_v40 main_v52 main_v991 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 44) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))) (hg ⟨main_v52, Read.val_main_v52 (F := F) X0 X1 X2 X3 X4 X5 X6⟩ (List.mem_of_mem_drop (i := 44) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 2) rfl)))))))))))))))))))⟩,
   ⟨rfl, rfl, fun W hg => (binary_result main_v990 main_v991 main_v992 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v990, Read.val_main_v990 (F := F) X0 X1 X2 X3 X4 X5 X6⟩ (List.mem_of_getElem? (i := 1) rfl)) (hg ⟨main_v991, Read.val_main_v991 (F := F) X0 X1 X2 X3 X4 X5 X6⟩ (List.mem_of_getElem? (i := 0) rfl)))⟩,
   ⟨rfl, rfl, fun W hg => (binary_result main_v28 main_v654 main_v993 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 46) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))) (hg ⟨main_v654, Read.val_main_v654 (F := F) X0 X1 X2 X3 X4 X5 X6⟩ (List.mem_of_mem_drop (i := 46) (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 52) rfl))))))))⟩,
   ⟨rfl, rfl, fun W hg => (binary_result main_v992 main_v993 main_v994 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v992, Read.val_main_v992 (F := F) X0 X1 X2 X3 X4 X5 X6⟩ (List.mem_of_getElem? (i := 1) rfl)) (hg ⟨main_v993, Read.val_main_v993 (F := F) X0 X1 X2 X3 X4 X5 X6⟩ (List.mem_of_getElem? (i := 0) rfl)))⟩,
   ⟨rfl, rfl, fun W hg => (binary_result main_v30 main_v764 main_v995 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 48) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))))) (hg ⟨main_v764, Read.val_main_v764 (F := F) X0 X1 X2 X3 X4 X5 X6⟩ (List.mem_of_mem_drop (i := 48) (up_15 X0 X1 X2 X3 X4 X5 X6 (up_14 X0 X1 X2 X3 X4 X5 X6 (up_13 X0 X1 X2 X3 X4 X5 X6 (in_12 X0 X1 X2 X3 X4 X5 X6 (j := 2) rfl)))))))⟩,
   ⟨rfl, rfl, fun W hg => (binary_result main_v42 main_v124 main_v996 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 49) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))) (hg ⟨main_v124, Read.val_main_v124 (F := F) X0 X1 X2 X3 X4 X5 X6⟩ (List.mem_of_mem_drop (i := 49) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 42) rfl)))))))))))))))))⟩,
   ⟨rfl, rfl, fun W hg => (binary_result main_v995 main_v996 main_v997 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v995, Read.val_main_v995 (F := F) X0 X1 X2 X3 X4 X5 X6⟩ (List.mem_of_getElem? (i := 1) rfl)) (hg ⟨main_v996, Read.val_main_v996 (F := F) X0 X1 X2 X3 X4 X5 X6⟩ (List.mem_of_getElem? (i := 0) rfl)))⟩,
   ⟨rfl, rfl, fun W hg => (binary_result main_v38 main_v134 main_v998 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 51) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))) (hg ⟨main_v134, Read.val_main_v134 (F := F) X0 X1 X2 X3 X4 X5 X6⟩ (List.mem_of_mem_drop (i := 51) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 32) rfl)))))))))))))))))⟩,
   ⟨rfl, rfl, fun W hg => (binary_result main_v997 main_v998 main_v999 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v997, Read.val_main_v997 (F := F) X0 X1 X2 X3 X4 X5 X6⟩ (List.mem_of_getElem? (i := 1) rfl)) (hg ⟨main_v998, Read.val_main_v998 (F := F) X0 X1 X2 X3 X4 X5 X6⟩ (List.mem_of_getElem? (i := 0) rfl)))⟩,
   ⟨rfl, rfl, fun W hg => (binary_result main_v36 main_v879 main_v1000 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 53) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))) (hg ⟨main_v879, Read.val_main_v879 (F := F) X0 X1 X2 X3 X4 X5 X6⟩ (List.mem_of_mem_drop (i := 53) (up_15 X0 X1 X2 X3 X4 X5 X6 (in_14 X0 X1 X2 X3 X4 X5 X6 (j := 7) rfl)))))⟩,
   ⟨rfl, rfl, fun W hg => (binary_result main_v26 main_v189 main_v1001 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 54) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))) (hg ⟨main_v189, Read.val_main_v189 (F := F) X0 X1 X2 X3 X4 X5 X6⟩ (List.mem_of_mem_drop (i := 54) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 37) rfl))))))))))))))))⟩,
   ⟨rfl, rfl, fun W hg => (binary_result main_v1000 main_v1001 main_v1002 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1000, Read.val_main_v1000 (F := F) X0 X1 X2 X3 X4 X5 X6⟩ (List.mem_of_getElem? (i := 1) rfl)) (hg ⟨main_v1001, Read.val_main_v1001 (F := F) X0 X1 X2 X3 X4 X5 X6⟩ (List.mem_of_getElem? (i := 0) rfl)))⟩,
   ⟨rfl, rfl, fun W hg => (binary_result main_v44 main_v979 main_v1003 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 56) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))) (hg ⟨main_v979, Read.val_main_v979 (F := F) X0 X1 X2 X3 X4 X5 X6⟩ (List.mem_of_getElem? (i := 23) rfl)))⟩,
   ⟨rfl, rfl, fun W hg => (binary_result main_v1002 main_v1003 main_v1004 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1002, Read.val_main_v1002 (F := F) X0 X1 X2 X3 X4 X5 X6⟩ (List.mem_of_getElem? (i := 1) rfl)) (hg ⟨main_v1003, Read.val_main_v1003 (F := F) X0 X1 X2 X3 X4 X5 X6⟩ (List.mem_of_getElem? (i := 0) rfl)))⟩,
   ⟨rfl, rfl, fun W hg => (binary_result main_v42 main_v294 main_v1005 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 58) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))) (hg ⟨main_v294, Read.val_main_v294 (F := F) X0 X1 X2 X3 X4 X5 X6⟩ (List.mem_of_mem_drop (i := 58) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 52) rfl))))))))))))))⟩,
   ⟨rfl, rfl, fun W hg => (binary_result main_v30 main_v444 main_v1006 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 59) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))))) (hg ⟨main_v444, Read.val_main_v444 (F := F) X0 X1 X2 X3 X4 X5 X6⟩ (List.mem_of_mem_drop (i := 59) (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 22) rfl))))))))))))⟩,
   trivial⟩
theorem good_16 (W : Valuation τ sig (Elt F)) (hg : Good W (tbl_15 X0 X1 X2 X3 X4 X5 X6) (7 + 964)) :
    Good (after ops_16 W) (tbl_16 X0 X1 X2 X3 X4 X5 X6) (7 + 1024) :=
  Good.after _ _ _ _ W hg (chain_16 X0 X1 X2 X3 X4 X5 X6)

theorem part_eq_17 (c : Dev nD) : main_part17 (F := F) c = seq ops_17 := rfl
theorem fresh_17 : (ops_17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 17's operations write, in order. -/
abbrev ps_17 : List (Entry sig (Elt F)) :=
  [ ⟨main_v1007, Read.val_main_v1007 (F := F) X0 X1 X2 X3 X4 X5 X6⟩,
    ⟨main_v1008, Read.val_main_v1008 (F := F) X0 X1 X2 X3 X4 X5 X6⟩,
    ⟨main_v1009, Read.val_main_v1009 (F := F) X0 X1 X2 X3 X4 X5 X6⟩,
    ⟨main_v1010, Read.val_main_v1010 (F := F) X0 X1 X2 X3 X4 X5 X6⟩,
    ⟨main_v1011, Read.val_main_v1011 (F := F) X0 X1 X2 X3 X4 X5 X6⟩,
    ⟨main_v1012, Read.val_main_v1012 (F := F) X0 X1 X2 X3 X4 X5 X6⟩,
    ⟨main_v1013, Read.val_main_v1013 (F := F) X0 X1 X2 X3 X4 X5 X6⟩,
    ⟨main_v1014, Read.val_main_v1014 (F := F) X0 X1 X2 X3 X4 X5 X6⟩,
    ⟨main_v1015, Read.val_main_v1015 (F := F) X0 X1 X2 X3 X4 X5 X6⟩,
    ⟨main_v1016, Read.val_main_v1016 (F := F) X0 X1 X2 X3 X4 X5 X6⟩,
    ⟨main_v1017, Read.val_main_v1017 (F := F) X0 X1 X2 X3 X4 X5 X6⟩,
    ⟨main_v1018, Read.val_main_v1018 (F := F) X0 X1 X2 X3 X4 X5 X6⟩,
    ⟨main_v1019, Read.val_main_v1019 (F := F) X0 X1 X2 X3 X4 X5 X6⟩,
    ⟨main_v1020, Read.val_main_v1020 (F := F) X0 X1 X2 X3 X4 X5 X6⟩,
    ⟨main_v1021, Read.val_main_v1021 (F := F) X0 X1 X2 X3 X4 X5 X6⟩,
    ⟨main_v1022, Read.val_main_v1022 (F := F) X0 X1 X2 X3 X4 X5 X6⟩,
    ⟨main_v1023, Read.val_main_v1023 (F := F) X0 X1 X2 X3 X4 X5 X6⟩,
    ⟨main_v1024, Read.val_main_v1024 (F := F) X0 X1 X2 X3 X4 X5 X6⟩,
    ⟨main_v1025, Read.val_main_v1025 (F := F) X0 X1 X2 X3 X4 X5 X6⟩,
    ⟨main_v1026, Read.val_main_v1026 (F := F) X0 X1 X2 X3 X4 X5 X6⟩,
    ⟨main_v1027, Read.val_main_v1027 (F := F) X0 X1 X2 X3 X4 X5 X6⟩,
    ⟨main_v1028, Read.val_main_v1028 (F := F) X0 X1 X2 X3 X4 X5 X6⟩,
    ⟨main_v1029, Read.val_main_v1029 (F := F) X0 X1 X2 X3 X4 X5 X6⟩,
    ⟨main_v1030, Read.val_main_v1030 (F := F) X0 X1 X2 X3 X4 X5 X6⟩,
    ⟨main_v1031, Read.val_main_v1031 (F := F) X0 X1 X2 X3 X4 X5 X6⟩,
    ⟨main_v1032, Read.val_main_v1032 (F := F) X0 X1 X2 X3 X4 X5 X6⟩,
    ⟨main_v1033, Read.val_main_v1033 (F := F) X0 X1 X2 X3 X4 X5 X6⟩,
    ⟨main_v1034, Read.val_main_v1034 (F := F) X0 X1 X2 X3 X4 X5 X6⟩,
    ⟨main_v1035, Read.val_main_v1035 (F := F) X0 X1 X2 X3 X4 X5 X6⟩,
    ⟨main_v1036, Read.val_main_v1036 (F := F) X0 X1 X2 X3 X4 X5 X6⟩,
    ⟨main_v1037, Read.val_main_v1037 (F := F) X0 X1 X2 X3 X4 X5 X6⟩,
    ⟨main_v1038, Read.val_main_v1038 (F := F) X0 X1 X2 X3 X4 X5 X6⟩,
    ⟨main_v1039, Read.val_main_v1039 (F := F) X0 X1 X2 X3 X4 X5 X6⟩,
    ⟨main_v1040, Read.val_main_v1040 (F := F) X0 X1 X2 X3 X4 X5 X6⟩,
    ⟨main_v1041, Read.val_main_v1041 (F := F) X0 X1 X2 X3 X4 X5 X6⟩,
    ⟨main_v1042, Read.val_main_v1042 (F := F) X0 X1 X2 X3 X4 X5 X6⟩,
    ⟨main_v1043, Read.val_main_v1043 (F := F) X0 X1 X2 X3 X4 X5 X6⟩,
    ⟨main_v1044, Read.val_main_v1044 (F := F) X0 X1 X2 X3 X4 X5 X6⟩,
    ⟨main_v1045, Read.val_main_v1045 (F := F) X0 X1 X2 X3 X4 X5 X6⟩,
    ⟨main_v1046, Read.val_main_v1046 (F := F) X0 X1 X2 X3 X4 X5 X6⟩,
    ⟨main_v1047, Read.val_main_v1047 (F := F) X0 X1 X2 X3 X4 X5 X6⟩,
    ⟨main_v1048, Read.val_main_v1048 (F := F) X0 X1 X2 X3 X4 X5 X6⟩,
    ⟨main_v1049, Read.val_main_v1049 (F := F) X0 X1 X2 X3 X4 X5 X6⟩,
    ⟨main_v1050, Read.val_main_v1050 (F := F) X0 X1 X2 X3 X4 X5 X6⟩,
    ⟨main_v1051, Read.val_main_v1051 (F := F) X0 X1 X2 X3 X4 X5 X6⟩,
    ⟨main_v1052, Read.val_main_v1052 (F := F) X0 X1 X2 X3 X4 X5 X6⟩,
    ⟨main_v1053, Read.val_main_v1053 (F := F) X0 X1 X2 X3 X4 X5 X6⟩,
    ⟨main_v1054, Read.val_main_v1054 (F := F) X0 X1 X2 X3 X4 X5 X6⟩,
    ⟨main_v1055, Read.val_main_v1055 (F := F) X0 X1 X2 X3 X4 X5 X6⟩,
    ⟨main_v1056, Read.val_main_v1056 (F := F) X0 X1 X2 X3 X4 X5 X6⟩,
    ⟨main_v1057, Read.val_main_v1057 (F := F) X0 X1 X2 X3 X4 X5 X6⟩,
    ⟨main_v1058, Read.val_main_v1058 (F := F) X0 X1 X2 X3 X4 X5 X6⟩,
    ⟨main_v1059, Read.val_main_v1059 (F := F) X0 X1 X2 X3 X4 X5 X6⟩,
    ⟨main_v1060, Read.val_main_v1060 (F := F) X0 X1 X2 X3 X4 X5 X6⟩,
    ⟨main_v1061, Read.val_main_v1061 (F := F) X0 X1 X2 X3 X4 X5 X6⟩,
    ⟨main_v1062, Read.val_main_v1062 (F := F) X0 X1 X2 X3 X4 X5 X6⟩,
    ⟨main_v1063, Read.val_main_v1063 (F := F) X0 X1 X2 X3 X4 X5 X6⟩,
    ⟨main_v1064, Read.val_main_v1064 (F := F) X0 X1 X2 X3 X4 X5 X6⟩,
    ⟨main_v1065, Read.val_main_v1065 (F := F) X0 X1 X2 X3 X4 X5 X6⟩,
    ⟨main_v1066, Read.val_main_v1066 (F := F) X0 X1 X2 X3 X4 X5 X6⟩ ]
/-- The stages known after window 17, the newest first. -/
abbrev tbl_17 : List (Entry sig (Elt F)) := (ps_17 X0 X1 X2 X3 X4 X5 X6).reverse ++ tbl_16 X0 X1 X2 X3 X4 X5 X6
theorem up_17 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_16 X0 X1 X2 X3 X4 X5 X6) : e ∈ tbl_17 X0 X1 X2 X3 X4 X5 X6 := List.mem_append_right _ h
theorem in_17 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_17 X0 X1 X2 X3 X4 X5 X6).reverse[j]? = some e) : e ∈ tbl_17 X0 X1 X2 X3 X4 X5 X6 :=
  List.mem_append_left _ (List.mem_of_getElem? h)
set_option maxRecDepth 1000000 in
set_option maxHeartbeats 4000000 in
theorem chain_17 : Chain (tbl_16 X0 X1 X2 X3 X4 X5 X6) (7 + 1024) (ops_17 (F := F)) (ps_17 X0 X1 X2 X3 X4 X5 X6) :=
  ⟨⟨rfl, rfl, fun W hg => (binary_result main_v1005 main_v1006 main_v1007 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1005, Read.val_main_v1005 (F := F) X0 X1 X2 X3 X4 X5 X6⟩ (List.mem_of_mem_drop (i := 0) (in_16 X0 X1 X2 X3 X4 X5 X6 (j := 1) rfl))) (hg ⟨main_v1006, Read.val_main_v1006 (F := F) X0 X1 X2 X3 X4 X5 X6⟩ (List.mem_of_mem_drop (i := 0) (in_16 X0 X1 X2 X3 X4 X5 X6 (j := 0) rfl))))⟩,
   ⟨rfl, rfl, fun W hg => (binary_result main_v36 main_v544 main_v1008 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 1) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))) (hg ⟨main_v544, Read.val_main_v544 (F := F) X0 X1 X2 X3 X4 X5 X6⟩ (List.mem_of_mem_drop (i := 1) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 42) rfl)))))))))))⟩,
   ⟨rfl, rfl, fun W hg => (binary_result main_v1007 main_v1008 main_v1009 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1007, Read.val_main_v1007 (F := F) X0 X1 X2 X3 X4 X5 X6⟩ (List.mem_of_getElem? (i := 1) rfl)) (hg ⟨main_v1008, Read.val_main_v1008 (F := F) X0 X1 X2 X3 X4 X5 X6⟩ (List.mem_of_getElem? (i := 0) rfl)))⟩,
   ⟨rfl, rfl, fun W hg => (binary_result main_v26 main_v984 main_v1010 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 3) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))))) (hg ⟨main_v984, Read.val_main_v984 (F := F) X0 X1 X2 X3 X4 X5 X6⟩ (List.mem_of_mem_drop (i := 3) (in_16 X0 X1 X2 X3 X4 X5 X6 (j := 22) rfl))))⟩,
   ⟨rfl, rfl, fun W hg => (binary_result main_v36 main_v269 main_v1011 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 4) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))) (hg ⟨main_v269, Read.val_main_v269 (F := F) X0 X1 X2 X3 X4 X5 X6⟩ (List.mem_of_mem_drop (i := 4) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 17) rfl))))))))))))))))⟩,
   ⟨rfl, rfl, fun W hg => (binary_result main_v1010 main_v1011 main_v1012 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1010, Read.val_main_v1010 (F := F) X0 X1 X2 X3 X4 X5 X6⟩ (List.mem_of_getElem? (i := 1) rfl)) (hg ⟨main_v1011, Read.val_main_v1011 (F := F) X0 X1 X2 X3 X4 X5 X6⟩ (List.mem_of_getElem? (i := 0) rfl)))⟩,
   ⟨rfl, rfl, fun W hg => (binary_result main_v34 main_v164 main_v1013 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 6) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))))) (hg ⟨main_v164, Read.val_main_v164 (F := F) X0 X1 X2 X3 X4 X5 X6⟩ (List.mem_of_mem_drop (i := 6) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 2) rfl))))))))))))))))))⟩,
   ⟨rfl, rfl, fun W hg => (binary_result main_v1012 main_v1013 main_v1014 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1012, Read.val_main_v1012 (F := F) X0 X1 X2 X3 X4 X5 X6⟩ (List.mem_of_getElem? (i := 1) rfl)) (hg ⟨main_v1013, Read.val_main_v1013 (F := F) X0 X1 X2 X3 X4 X5 X6⟩ (List.mem_of_getElem? (i := 0) rfl)))⟩,
   ⟨rfl, rfl, fun W hg => (binary_result main_v28 main_v174 main_v1015 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 8) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))))) (hg ⟨main_v174, Read.val_main_v174 (F := F) X0 X1 X2 X3 X4 X5 X6⟩ (List.mem_of_mem_drop (i := 8) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 52) rfl)))))))))))))))))⟩,
   ⟨rfl, rfl, fun W hg => (binary_result main_v42 main_v36 main_v1016 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 9) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))))) (hg ⟨main_v36, Read.val_main_v36 (F := F) X0 X1 X2 X3 X4 X5 X6⟩ (List.mem_of_mem_drop (i := 9) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))))⟩,
   ⟨rfl, rfl, fun W hg => (binary_result main_v1015 main_v1016 main_v1017 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1015, Read.val_main_v1015 (F := F) X0 X1 X2 X3 X4 X5 X6⟩ (List.mem_of_getElem? (i := 1) rfl)) (hg ⟨main_v1016, Read.val_main_v1016 (F := F) X0 X1 X2 X3 X4 X5 X6⟩ (List.mem_of_getElem? (i := 0) rfl)))⟩,
   ⟨rfl, rfl, fun W hg => (binary_result main_v30 main_v474 main_v1018 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 11) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))))) (hg ⟨main_v474, Read.val_main_v474 (F := F) X0 X1 X2 X3 X4 X5 X6⟩ (List.mem_of_mem_drop (i := 11) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 52) rfl))))))))))))⟩,
   ⟨rfl, rfl, fun W hg => (binary_result main_v1017 main_v1018 main_v1019 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1017, Read.val_main_v1017 (F := F) X0 X1 X2 X3 X4 X5 X6⟩ (List.mem_of_getElem? (i := 1) rfl)) (hg ⟨main_v1018, Read.val_main_v1018 (F := F) X0 X1 X2 X3 X4 X5 X6⟩ (List.mem_of_getElem? (i := 0) rfl)))⟩,
   ⟨rfl, rfl, fun W hg => (binary_result main_v34 main_v934 main_v1020 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 13) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))))) (hg ⟨main_v934, Read.val_main_v934 (F := F) X0 X1 X2 X3 X4 X5 X6⟩ (List.mem_of_mem_drop (i := 13) (up_16 X0 X1 X2 X3 X4 X5 X6 (in_15 X0 X1 X2 X3 X4 X5 X6 (j := 12) rfl)))))⟩,
   ⟨rfl, rfl, fun W hg => (binary_result main_v42 main_v959 main_v1021 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 14) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))))) (hg ⟨main_v959, Read.val_main_v959 (F := F) X0 X1 X2 X3 X4 X5 X6⟩ (List.mem_of_mem_drop (i := 14) (in_16 X0 X1 X2 X3 X4 X5 X6 (j := 47) rfl))))⟩,
   ⟨rfl, rfl, fun W hg => (binary_result main_v1020 main_v1021 main_v1022 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1020, Read.val_main_v1020 (F := F) X0 X1 X2 X3 X4 X5 X6⟩ (List.mem_of_getElem? (i := 1) rfl)) (hg ⟨main_v1021, Read.val_main_v1021 (F := F) X0 X1 X2 X3 X4 X5 X6⟩ (List.mem_of_getElem? (i := 0) rfl)))⟩,
   ⟨rfl, rfl, fun W hg => (binary_result main_v32 main_v52 main_v1023 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 16) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))) (hg ⟨main_v52, Read.val_main_v52 (F := F) X0 X1 X2 X3 X4 X5 X6⟩ (List.mem_of_mem_drop (i := 16) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 2) rfl))))))))))))))))))))⟩,
   ⟨rfl, rfl, fun W hg => (binary_result main_v1022 main_v1023 main_v1024 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1022, Read.val_main_v1022 (F := F) X0 X1 X2 X3 X4 X5 X6⟩ (List.mem_of_getElem? (i := 1) rfl)) (hg ⟨main_v1023, Read.val_main_v1023 (F := F) X0 X1 X2 X3 X4 X5 X6⟩ (List.mem_of_getElem? (i := 0) rfl)))⟩,
   ⟨rfl, rfl, fun W hg => (binary_result main_v32 main_v444 main_v1025 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 18) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))) (hg ⟨main_v444, Read.val_main_v444 (F := F) X0 X1 X2 X3 X4 X5 X6⟩ (List.mem_of_mem_drop (i := 18) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 22) rfl)))))))))))))⟩,
   ⟨rfl, rfl, fun W hg => (binary_result main_v28 main_v38 main_v1026 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 19) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))))) (hg ⟨main_v38, Read.val_main_v38 (F := F) X0 X1 X2 X3 X4 X5 X6⟩ (List.mem_of_mem_drop (i := 19) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))))))))⟩,
   ⟨rfl, rfl, fun W hg => (binary_result main_v1025 main_v1026 main_v1027 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1025, Read.val_main_v1025 (F := F) X0 X1 X2 X3 X4 X5 X6⟩ (List.mem_of_getElem? (i := 1) rfl)) (hg ⟨main_v1026, Read.val_main_v1026 (F := F) X0 X1 X2 X3 X4 X5 X6⟩ (List.mem_of_getElem? (i := 0) rfl)))⟩,
   ⟨rfl, rfl, fun W hg => (binary_result main_v40 main_v994 main_v1028 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 21) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))))) (hg ⟨main_v994, Read.val_main_v994 (F := F) X0 X1 X2 X3 X4 X5 X6⟩ (List.mem_of_mem_drop (i := 21) (in_16 X0 X1 X2 X3 X4 X5 X6 (j := 12) rfl))))⟩,
   ⟨rfl, rfl, fun W hg => (binary_result main_v1027 main_v1028 main_v1029 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1027, Read.val_main_v1027 (F := F) X0 X1 X2 X3 X4 X5 X6⟩ (List.mem_of_getElem? (i := 1) rfl)) (hg ⟨main_v1028, Read.val_main_v1028 (F := F) X0 X1 X2 X3 X4 X5 X6⟩ (List.mem_of_getElem? (i := 0) rfl)))⟩,
   ⟨rfl, rfl, fun W hg => (binary_result main_v30 main_v299 main_v1030 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 23) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))))) (hg ⟨main_v299, Read.val_main_v299 (F := F) X0 X1 X2 X3 X4 X5 X6⟩ (List.mem_of_mem_drop (i := 23) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 47) rfl)))))))))))))))⟩,
   ⟨rfl, rfl, fun W hg => (binary_result main_v44 main_v974 main_v1031 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 24) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))) (hg ⟨main_v974, Read.val_main_v974 (F := F) X0 X1 X2 X3 X4 X5 X6⟩ (List.mem_of_mem_drop (i := 24) (in_16 X0 X1 X2 X3 X4 X5 X6 (j := 32) rfl))))⟩,
   ⟨rfl, rfl, fun W hg => (binary_result main_v1030 main_v1031 main_v1032 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1030, Read.val_main_v1030 (F := F) X0 X1 X2 X3 X4 X5 X6⟩ (List.mem_of_getElem? (i := 1) rfl)) (hg ⟨main_v1031, Read.val_main_v1031 (F := F) X0 X1 X2 X3 X4 X5 X6⟩ (List.mem_of_getElem? (i := 0) rfl)))⟩,
   ⟨rfl, rfl, fun W hg => (binary_result main_v40 main_v299 main_v1033 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 26) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))))) (hg ⟨main_v299, Read.val_main_v299 (F := F) X0 X1 X2 X3 X4 X5 X6⟩ (List.mem_of_mem_drop (i := 26) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 47) rfl)))))))))))))))⟩,
   ⟨rfl, rfl, fun W hg => (binary_result main_v1032 main_v1033 main_v1034 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1032, Read.val_main_v1032 (F := F) X0 X1 X2 X3 X4 X5 X6⟩ (List.mem_of_getElem? (i := 1) rfl)) (hg ⟨main_v1033, Read.val_main_v1033 (F := F) X0 X1 X2 X3 X4 X5 X6⟩ (List.mem_of_getElem? (i := 0) rfl)))⟩,
   ⟨rfl, rfl, fun W hg => (binary_result main_v38 main_v60 main_v1035 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 28) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))))))) (hg ⟨main_v60, Read.val_main_v60 (F := F) X0 X1 X2 X3 X4 X5 X6⟩ (List.mem_of_mem_drop (i := 28) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 52) rfl)))))))))))))))))))⟩,
   ⟨rfl, rfl, fun W hg => (binary_result main_v32 main_v324 main_v1036 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 29) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))) (hg ⟨main_v324, Read.val_main_v324 (F := F) X0 X1 X2 X3 X4 X5 X6⟩ (List.mem_of_mem_drop (i := 29) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 22) rfl)))))))))))))))⟩,
   ⟨rfl, rfl, fun W hg => (binary_result main_v1035 main_v1036 main_v1037 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1035, Read.val_main_v1035 (F := F) X0 X1 X2 X3 X4 X5 X6⟩ (List.mem_of_getElem? (i := 1) rfl)) (hg ⟨main_v1036, Read.val_main_v1036 (F := F) X0 X1 X2 X3 X4 X5 X6⟩ (List.mem_of_getElem? (i := 0) rfl)))⟩,
   ⟨rfl, rfl, fun W hg => (binary_result main_v40 main_v514 main_v1038 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 31) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))))) (hg ⟨main_v514, Read.val_main_v514 (F := F) X0 X1 X2 X3 X4 X5 X6⟩ (List.mem_of_mem_drop (i := 31) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 12) rfl))))))))))))⟩,
   ⟨rfl, rfl, fun W hg => (binary_result main_v1037 main_v1038 main_v1039 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1037, Read.val_main_v1037 (F := F) X0 X1 X2 X3 X4 X5 X6⟩ (List.mem_of_getElem? (i := 1) rfl)) (hg ⟨main_v1038, Read.val_main_v1038 (F := F) X0 X1 X2 X3 X4 X5 X6⟩ (List.mem_of_getElem? (i := 0) rfl)))⟩,
   ⟨rfl, rfl, fun W hg => (binary_result main_v40 main_v269 main_v1040 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 33) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))))) (hg ⟨main_v269, Read.val_main_v269 (F := F) X0 X1 X2 X3 X4 X5 X6⟩ (List.mem_of_mem_drop (i := 33) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 17) rfl))))))))))))))))⟩,
   ⟨rfl, rfl, fun W hg => (binary_result main_v26 main_v279 main_v1041 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 34) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))))) (hg ⟨main_v279, Read.val_main_v279 (F := F) X0 X1 X2 X3 X4 X5 X6⟩ (List.mem_of_mem_drop (i := 34) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 7) rfl))))))))))))))))⟩,
   ⟨rfl, rfl, fun W hg => (binary_result main_v1040 main_v1041 main_v1042 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1040, Read.val_main_v1040 (F := F) X0 X1 X2 X3 X4 X5 X6⟩ (List.mem_of_getElem? (i := 1) rfl)) (hg ⟨main_v1041, Read.val_main_v1041 (F := F) X0 X1 X2 X3 X4 X5 X6⟩ (List.mem_of_getElem? (i := 0) rfl)))⟩,
   ⟨rfl, rfl, fun W hg => (binary_result main_v42 main_v76 main_v1043 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 36) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))))) (hg ⟨main_v76, Read.val_main_v76 (F := F) X0 X1 X2 X3 X4 X5 X6⟩ (List.mem_of_mem_drop (i := 36) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 32) rfl)))))))))))))))))))⟩,
   ⟨rfl, rfl, fun W hg => (binary_result main_v1042 main_v1043 main_v1044 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1042, Read.val_main_v1042 (F := F) X0 X1 X2 X3 X4 X5 X6⟩ (List.mem_of_getElem? (i := 1) rfl)) (hg ⟨main_v1043, Read.val_main_v1043 (F := F) X0 X1 X2 X3 X4 X5 X6⟩ (List.mem_of_getElem? (i := 0) rfl)))⟩,
   ⟨rfl, rfl, fun W hg => (binary_result main_v26 main_v449 main_v1045 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 38) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))))) (hg ⟨main_v449, Read.val_main_v449 (F := F) X0 X1 X2 X3 X4 X5 X6⟩ (List.mem_of_mem_drop (i := 38) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 17) rfl)))))))))))))⟩,
   ⟨rfl, rfl, fun W hg => (binary_result main_v44 main_v349 main_v1046 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 39) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))) (hg ⟨main_v349, Read.val_main_v349 (F := F) X0 X1 X2 X3 X4 X5 X6⟩ (List.mem_of_mem_drop (i := 39) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 57) rfl))))))))))))))⟩,
   ⟨rfl, rfl, fun W hg => (binary_result main_v1045 main_v1046 main_v1047 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1045, Read.val_main_v1045 (F := F) X0 X1 X2 X3 X4 X5 X6⟩ (List.mem_of_getElem? (i := 1) rfl)) (hg ⟨main_v1046, Read.val_main_v1046 (F := F) X0 X1 X2 X3 X4 X5 X6⟩ (List.mem_of_getElem? (i := 0) rfl)))⟩,
   ⟨rfl, rfl, fun W hg => (binary_result main_v42 main_v919 main_v1048 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 41) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))))) (hg ⟨main_v919, Read.val_main_v919 (F := F) X0 X1 X2 X3 X4 X5 X6⟩ (List.mem_of_mem_drop (i := 41) (up_16 X0 X1 X2 X3 X4 X5 X6 (in_15 X0 X1 X2 X3 X4 X5 X6 (j := 27) rfl)))))⟩,
   ⟨rfl, rfl, fun W hg => (binary_result main_v1047 main_v1048 main_v1049 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1047, Read.val_main_v1047 (F := F) X0 X1 X2 X3 X4 X5 X6⟩ (List.mem_of_getElem? (i := 1) rfl)) (hg ⟨main_v1048, Read.val_main_v1048 (F := F) X0 X1 X2 X3 X4 X5 X6⟩ (List.mem_of_getElem? (i := 0) rfl)))⟩,
   ⟨rfl, rfl, fun W hg => (binary_result main_v44 main_v874 main_v1050 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 43) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))) (hg ⟨main_v874, Read.val_main_v874 (F := F) X0 X1 X2 X3 X4 X5 X6⟩ (List.mem_of_mem_drop (i := 43) (up_16 X0 X1 X2 X3 X4 X5 X6 (up_15 X0 X1 X2 X3 X4 X5 X6 (in_14 X0 X1 X2 X3 X4 X5 X6 (j := 12) rfl))))))⟩,
   ⟨rfl, rfl, fun W hg => (binary_result main_v42 main_v89 main_v1051 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 44) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))))) (hg ⟨main_v89, Read.val_main_v89 (F := F) X0 X1 X2 X3 X4 X5 X6⟩ (List.mem_of_mem_drop (i := 44) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 17) rfl)))))))))))))))))))⟩,
   ⟨rfl, rfl, fun W hg => (binary_result main_v1050 main_v1051 main_v1052 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1050, Read.val_main_v1050 (F := F) X0 X1 X2 X3 X4 X5 X6⟩ (List.mem_of_getElem? (i := 1) rfl)) (hg ⟨main_v1051, Read.val_main_v1051 (F := F) X0 X1 X2 X3 X4 X5 X6⟩ (List.mem_of_getElem? (i := 0) rfl)))⟩,
   ⟨rfl, rfl, fun W hg => (binary_result main_v28 main_v584 main_v1053 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 46) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))))) (hg ⟨main_v584, Read.val_main_v584 (F := F) X0 X1 X2 X3 X4 X5 X6⟩ (List.mem_of_mem_drop (i := 46) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 2) rfl)))))))))))⟩,
   ⟨rfl, rfl, fun W hg => (binary_result main_v1052 main_v1053 main_v1054 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1052, Read.val_main_v1052 (F := F) X0 X1 X2 X3 X4 X5 X6⟩ (List.mem_of_getElem? (i := 1) rfl)) (hg ⟨main_v1053, Read.val_main_v1053 (F := F) X0 X1 X2 X3 X4 X5 X6⟩ (List.mem_of_getElem? (i := 0) rfl)))⟩,
   ⟨rfl, rfl, fun W hg => (binary_result main_v36 main_v964 main_v1055 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 48) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))) (hg ⟨main_v964, Read.val_main_v964 (F := F) X0 X1 X2 X3 X4 X5 X6⟩ (List.mem_of_mem_drop (i := 48) (in_16 X0 X1 X2 X3 X4 X5 X6 (j := 42) rfl))))⟩,
   ⟨rfl, rfl, fun W hg => (binary_result main_v44 main_v779 main_v1056 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 49) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))) (hg ⟨main_v779, Read.val_main_v779 (F := F) X0 X1 X2 X3 X4 X5 X6⟩ (List.mem_of_mem_drop (i := 49) (up_16 X0 X1 X2 X3 X4 X5 X6 (up_15 X0 X1 X2 X3 X4 X5 X6 (up_14 X0 X1 X2 X3 X4 X5 X6 (in_13 X0 X1 X2 X3 X4 X5 X6 (j := 47) rfl)))))))⟩,
   ⟨rfl, rfl, fun W hg => (binary_result main_v1055 main_v1056 main_v1057 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1055, Read.val_main_v1055 (F := F) X0 X1 X2 X3 X4 X5 X6⟩ (List.mem_of_getElem? (i := 1) rfl)) (hg ⟨main_v1056, Read.val_main_v1056 (F := F) X0 X1 X2 X3 X4 X5 X6⟩ (List.mem_of_getElem? (i := 0) rfl)))⟩,
   ⟨rfl, rfl, fun W hg => (binary_result main_v32 main_v174 main_v1058 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 51) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))) (hg ⟨main_v174, Read.val_main_v174 (F := F) X0 X1 X2 X3 X4 X5 X6⟩ (List.mem_of_mem_drop (i := 51) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 52) rfl)))))))))))))))))⟩,
   ⟨rfl, rfl, fun W hg => (binary_result main_v1057 main_v1058 main_v1059 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1057, Read.val_main_v1057 (F := F) X0 X1 X2 X3 X4 X5 X6⟩ (List.mem_of_getElem? (i := 1) rfl)) (hg ⟨main_v1058, Read.val_main_v1058 (F := F) X0 X1 X2 X3 X4 X5 X6⟩ (List.mem_of_getElem? (i := 0) rfl)))⟩,
   ⟨rfl, rfl, fun W hg => (binary_result main_v38 main_v784 main_v1060 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 53) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))))))) (hg ⟨main_v784, Read.val_main_v784 (F := F) X0 X1 X2 X3 X4 X5 X6⟩ (List.mem_of_mem_drop (i := 53) (up_16 X0 X1 X2 X3 X4 X5 X6 (up_15 X0 X1 X2 X3 X4 X5 X6 (up_14 X0 X1 X2 X3 X4 X5 X6 (in_13 X0 X1 X2 X3 X4 X5 X6 (j := 42) rfl)))))))⟩,
   ⟨rfl, rfl, fun W hg => (binary_result main_v44 main_v409 main_v1061 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 54) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))) (hg ⟨main_v409, Read.val_main_v409 (F := F) X0 X1 X2 X3 X4 X5 X6⟩ (List.mem_of_mem_drop (i := 54) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 57) rfl)))))))))))))⟩,
   ⟨rfl, rfl, fun W hg => (binary_result main_v1060 main_v1061 main_v1062 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1060, Read.val_main_v1060 (F := F) X0 X1 X2 X3 X4 X5 X6⟩ (List.mem_of_getElem? (i := 1) rfl)) (hg ⟨main_v1061, Read.val_main_v1061 (F := F) X0 X1 X2 X3 X4 X5 X6⟩ (List.mem_of_getElem? (i := 0) rfl)))⟩,
   ⟨rfl, rfl, fun W hg => (binary_result main_v34 main_v439 main_v1063 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 56) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))))) (hg ⟨main_v439, Read.val_main_v439 (F := F) X0 X1 X2 X3 X4 X5 X6⟩ (List.mem_of_mem_drop (i := 56) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 27) rfl)))))))))))))⟩,
   ⟨rfl, rfl, fun W hg => (binary_result main_v1062 main_v1063 main_v1064 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1062, Read.val_main_v1062 (F := F) X0 X1 X2 X3 X4 X5 X6⟩ (List.mem_of_getElem? (i := 1) rfl)) (hg ⟨main_v1063, Read.val_main_v1063 (F := F) X0 X1 X2 X3 X4 X5 X6⟩ (List.mem_of_getElem? (i := 0) rfl)))⟩,
   ⟨rfl, rfl, fun W hg => (binary_result main_v26 main_v604 main_v1065 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 58) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))))) (hg ⟨main_v604, Read.val_main_v604 (F := F) X0 X1 X2 X3 X4 X5 X6⟩ (List.mem_of_mem_drop (i := 58) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (in_10 X0 X1 X2 X3 X4 X5 X6 (j := 42) rfl))))))))))⟩,
   ⟨rfl, rfl, fun W hg => (binary_result main_v38 main_v684 main_v1066 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 59) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))))))) (hg ⟨main_v684, Read.val_main_v684 (F := F) X0 X1 X2 X3 X4 X5 X6⟩ (List.mem_of_mem_drop (i := 59) (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 22) rfl)))))))))⟩,
   trivial⟩
theorem good_17 (W : Valuation τ sig (Elt F)) (hg : Good W (tbl_16 X0 X1 X2 X3 X4 X5 X6) (7 + 1024)) :
    Good (after ops_17 W) (tbl_17 X0 X1 X2 X3 X4 X5 X6) (7 + 1084) :=
  Good.after _ _ _ _ W hg (chain_17 X0 X1 X2 X3 X4 X5 X6)

theorem part_eq_18 (c : Dev nD) : main_part18 (F := F) c = seq ops_18 := rfl
theorem fresh_18 : (ops_18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 18's operations write, in order. -/
abbrev ps_18 : List (Entry sig (Elt F)) :=
  [ ⟨main_v1067, Read.val_main_v1067 (F := F) X0 X1 X2 X3 X4 X5 X6⟩,
    ⟨main_v1068, Read.val_main_v1068 (F := F) X0 X1 X2 X3 X4 X5 X6⟩,
    ⟨main_v1069, Read.val_main_v1069 (F := F) X0 X1 X2 X3 X4 X5 X6⟩,
    ⟨main_v1070, Read.val_main_v1070 (F := F) X0 X1 X2 X3 X4 X5 X6⟩,
    ⟨main_v1071, Read.val_main_v1071 (F := F) X0 X1 X2 X3 X4 X5 X6⟩,
    ⟨main_v1072, Read.val_main_v1072 (F := F) X0 X1 X2 X3 X4 X5 X6⟩,
    ⟨main_v1073, Read.val_main_v1073 (F := F) X0 X1 X2 X3 X4 X5 X6⟩,
    ⟨main_v1074, Read.val_main_v1074 (F := F) X0 X1 X2 X3 X4 X5 X6⟩,
    ⟨main_v1075, Read.val_main_v1075 (F := F) X0 X1 X2 X3 X4 X5 X6⟩,
    ⟨main_v1076, Read.val_main_v1076 (F := F) X0 X1 X2 X3 X4 X5 X6⟩,
    ⟨main_v1077, Read.val_main_v1077 (F := F) X0 X1 X2 X3 X4 X5 X6⟩,
    ⟨main_v1078, Read.val_main_v1078 (F := F) X0 X1 X2 X3 X4 X5 X6⟩,
    ⟨main_v1079, Read.val_main_v1079 (F := F) X0 X1 X2 X3 X4 X5 X6⟩,
    ⟨main_v1080, Read.val_main_v1080 (F := F) X0 X1 X2 X3 X4 X5 X6⟩,
    ⟨main_v1081, Read.val_main_v1081 (F := F) X0 X1 X2 X3 X4 X5 X6⟩,
    ⟨main_v1082, Read.val_main_v1082 (F := F) X0 X1 X2 X3 X4 X5 X6⟩,
    ⟨main_v1083, Read.val_main_v1083 (F := F) X0 X1 X2 X3 X4 X5 X6⟩,
    ⟨main_v1084, Read.val_main_v1084 (F := F) X0 X1 X2 X3 X4 X5 X6⟩,
    ⟨main_v1085, Read.val_main_v1085 (F := F) X0 X1 X2 X3 X4 X5 X6⟩,
    ⟨main_v1086, Read.val_main_v1086 (F := F) X0 X1 X2 X3 X4 X5 X6⟩,
    ⟨main_v1087, Read.val_main_v1087 (F := F) X0 X1 X2 X3 X4 X5 X6⟩,
    ⟨main_v1088, Read.val_main_v1088 (F := F) X0 X1 X2 X3 X4 X5 X6⟩,
    ⟨main_v1089, Read.val_main_v1089 (F := F) X0 X1 X2 X3 X4 X5 X6⟩,
    ⟨main_v1090, Read.val_main_v1090 (F := F) X0 X1 X2 X3 X4 X5 X6⟩,
    ⟨main_v1091, Read.val_main_v1091 (F := F) X0 X1 X2 X3 X4 X5 X6⟩,
    ⟨main_v1092, Read.val_main_v1092 (F := F) X0 X1 X2 X3 X4 X5 X6⟩,
    ⟨main_v1093, Read.val_main_v1093 (F := F) X0 X1 X2 X3 X4 X5 X6⟩,
    ⟨main_v1094, Read.val_main_v1094 (F := F) X0 X1 X2 X3 X4 X5 X6⟩,
    ⟨main_v1095, Read.val_main_v1095 (F := F) X0 X1 X2 X3 X4 X5 X6⟩,
    ⟨main_v1096, Read.val_main_v1096 (F := F) X0 X1 X2 X3 X4 X5 X6⟩,
    ⟨main_v1097, Read.val_main_v1097 (F := F) X0 X1 X2 X3 X4 X5 X6⟩,
    ⟨main_v1098, Read.val_main_v1098 (F := F) X0 X1 X2 X3 X4 X5 X6⟩,
    ⟨main_v1099, Read.val_main_v1099 (F := F) X0 X1 X2 X3 X4 X5 X6⟩,
    ⟨main_v1100, Read.val_main_v1100 (F := F) X0 X1 X2 X3 X4 X5 X6⟩,
    ⟨main_v1101, Read.val_main_v1101 (F := F) X0 X1 X2 X3 X4 X5 X6⟩,
    ⟨main_v1102, Read.val_main_v1102 (F := F) X0 X1 X2 X3 X4 X5 X6⟩,
    ⟨main_v1103, Read.val_main_v1103 (F := F) X0 X1 X2 X3 X4 X5 X6⟩,
    ⟨main_v1104, Read.val_main_v1104 (F := F) X0 X1 X2 X3 X4 X5 X6⟩,
    ⟨main_v1105, Read.val_main_v1105 (F := F) X0 X1 X2 X3 X4 X5 X6⟩,
    ⟨main_v1106, Read.val_main_v1106 (F := F) X0 X1 X2 X3 X4 X5 X6⟩,
    ⟨main_v1107, Read.val_main_v1107 (F := F) X0 X1 X2 X3 X4 X5 X6⟩,
    ⟨main_v1108, Read.val_main_v1108 (F := F) X0 X1 X2 X3 X4 X5 X6⟩,
    ⟨main_v1109, Read.val_main_v1109 (F := F) X0 X1 X2 X3 X4 X5 X6⟩,
    ⟨main_v1110, Read.val_main_v1110 (F := F) X0 X1 X2 X3 X4 X5 X6⟩,
    ⟨main_v1111, Read.val_main_v1111 (F := F) X0 X1 X2 X3 X4 X5 X6⟩,
    ⟨main_v1112, Read.val_main_v1112 (F := F) X0 X1 X2 X3 X4 X5 X6⟩,
    ⟨main_v1113, Read.val_main_v1113 (F := F) X0 X1 X2 X3 X4 X5 X6⟩,
    ⟨main_v1114, Read.val_main_v1114 (F := F) X0 X1 X2 X3 X4 X5 X6⟩,
    ⟨main_v1115, Read.val_main_v1115 (F := F) X0 X1 X2 X3 X4 X5 X6⟩,
    ⟨main_v1116, Read.val_main_v1116 (F := F) X0 X1 X2 X3 X4 X5 X6⟩,
    ⟨main_v1117, Read.val_main_v1117 (F := F) X0 X1 X2 X3 X4 X5 X6⟩,
    ⟨main_v1118, Read.val_main_v1118 (F := F) X0 X1 X2 X3 X4 X5 X6⟩,
    ⟨main_v1119, Read.val_main_v1119 (F := F) X0 X1 X2 X3 X4 X5 X6⟩,
    ⟨main_v1120, Read.val_main_v1120 (F := F) X0 X1 X2 X3 X4 X5 X6⟩,
    ⟨main_v1121, Read.val_main_v1121 (F := F) X0 X1 X2 X3 X4 X5 X6⟩,
    ⟨main_v1122, Read.val_main_v1122 (F := F) X0 X1 X2 X3 X4 X5 X6⟩,
    ⟨main_v1123, Read.val_main_v1123 (F := F) X0 X1 X2 X3 X4 X5 X6⟩,
    ⟨main_v1124, Read.val_main_v1124 (F := F) X0 X1 X2 X3 X4 X5 X6⟩,
    ⟨main_v1125, Read.val_main_v1125 (F := F) X0 X1 X2 X3 X4 X5 X6⟩,
    ⟨main_v1126, Read.val_main_v1126 (F := F) X0 X1 X2 X3 X4 X5 X6⟩ ]
/-- The stages known after window 18, the newest first. -/
abbrev tbl_18 : List (Entry sig (Elt F)) := (ps_18 X0 X1 X2 X3 X4 X5 X6).reverse ++ tbl_17 X0 X1 X2 X3 X4 X5 X6
theorem up_18 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_17 X0 X1 X2 X3 X4 X5 X6) : e ∈ tbl_18 X0 X1 X2 X3 X4 X5 X6 := List.mem_append_right _ h
theorem in_18 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_18 X0 X1 X2 X3 X4 X5 X6).reverse[j]? = some e) : e ∈ tbl_18 X0 X1 X2 X3 X4 X5 X6 :=
  List.mem_append_left _ (List.mem_of_getElem? h)
set_option maxRecDepth 1000000 in
set_option maxHeartbeats 4000000 in
theorem chain_18 : Chain (tbl_17 X0 X1 X2 X3 X4 X5 X6) (7 + 1084) (ops_18 (F := F)) (ps_18 X0 X1 X2 X3 X4 X5 X6) :=
  ⟨⟨rfl, rfl, fun W hg => (binary_result main_v1065 main_v1066 main_v1067 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1065, Read.val_main_v1065 (F := F) X0 X1 X2 X3 X4 X5 X6⟩ (List.mem_of_mem_drop (i := 0) (in_17 X0 X1 X2 X3 X4 X5 X6 (j := 1) rfl))) (hg ⟨main_v1066, Read.val_main_v1066 (F := F) X0 X1 X2 X3 X4 X5 X6⟩ (List.mem_of_mem_drop (i := 0) (in_17 X0 X1 X2 X3 X4 X5 X6 (j := 0) rfl))))⟩,
   ⟨rfl, rfl, fun W hg => (binary_result main_v28 main_v504 main_v1068 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 1) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))))) (hg ⟨main_v504, Read.val_main_v504 (F := F) X0 X1 X2 X3 X4 X5 X6⟩ (List.mem_of_mem_drop (i := 1) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 22) rfl)))))))))))))⟩,
   ⟨rfl, rfl, fun W hg => (binary_result main_v1067 main_v1068 main_v1069 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1067, Read.val_main_v1067 (F := F) X0 X1 X2 X3 X4 X5 X6⟩ (List.mem_of_getElem? (i := 1) rfl)) (hg ⟨main_v1068, Read.val_main_v1068 (F := F) X0 X1 X2 X3 X4 X5 X6⟩ (List.mem_of_getElem? (i := 0) rfl)))⟩,
   ⟨rfl, rfl, fun W hg => (binary_result main_v28 main_v129 main_v1070 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 3) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))))) (hg ⟨main_v129, Read.val_main_v129 (F := F) X0 X1 X2 X3 X4 X5 X6⟩ (List.mem_of_mem_drop (i := 3) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 37) rfl)))))))))))))))))))⟩,
   ⟨rfl, rfl, fun W hg => (binary_result main_v44 main_v674 main_v1071 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 4) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))))) (hg ⟨main_v674, Read.val_main_v674 (F := F) X0 X1 X2 X3 X4 X5 X6⟩ (List.mem_of_mem_drop (i := 4) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 32) rfl))))))))))⟩,
   ⟨rfl, rfl, fun W hg => (binary_result main_v1070 main_v1071 main_v1072 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1070, Read.val_main_v1070 (F := F) X0 X1 X2 X3 X4 X5 X6⟩ (List.mem_of_getElem? (i := 1) rfl)) (hg ⟨main_v1071, Read.val_main_v1071 (F := F) X0 X1 X2 X3 X4 X5 X6⟩ (List.mem_of_getElem? (i := 0) rfl)))⟩,
   ⟨rfl, rfl, fun W hg => (binary_result main_v40 main_v494 main_v1073 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 6) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))) (hg ⟨main_v494, Read.val_main_v494 (F := F) X0 X1 X2 X3 X4 X5 X6⟩ (List.mem_of_mem_drop (i := 6) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 32) rfl)))))))))))))⟩,
   ⟨rfl, rfl, fun W hg => (binary_result main_v1072 main_v1073 main_v1074 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1072, Read.val_main_v1072 (F := F) X0 X1 X2 X3 X4 X5 X6⟩ (List.mem_of_getElem? (i := 1) rfl)) (hg ⟨main_v1073, Read.val_main_v1073 (F := F) X0 X1 X2 X3 X4 X5 X6⟩ (List.mem_of_getElem? (i := 0) rfl)))⟩,
   ⟨rfl, rfl, fun W hg => (binary_result main_v40 main_v604 main_v1075 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 8) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))) (hg ⟨main_v604, Read.val_main_v604 (F := F) X0 X1 X2 X3 X4 X5 X6⟩ (List.mem_of_mem_drop (i := 8) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (in_10 X0 X1 X2 X3 X4 X5 X6 (j := 42) rfl)))))))))))⟩,
   ⟨rfl, rfl, fun W hg => (binary_result main_v32 main_v284 main_v1076 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 9) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))))))) (hg ⟨main_v284, Read.val_main_v284 (F := F) X0 X1 X2 X3 X4 X5 X6⟩ (List.mem_of_mem_drop (i := 9) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 2) rfl)))))))))))))))))⟩,
   ⟨rfl, rfl, fun W hg => (binary_result main_v1075 main_v1076 main_v1077 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1075, Read.val_main_v1075 (F := F) X0 X1 X2 X3 X4 X5 X6⟩ (List.mem_of_getElem? (i := 1) rfl)) (hg ⟨main_v1076, Read.val_main_v1076 (F := F) X0 X1 X2 X3 X4 X5 X6⟩ (List.mem_of_getElem? (i := 0) rfl)))⟩,
   ⟨rfl, rfl, fun W hg => (binary_result main_v36 main_v919 main_v1078 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 11) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))) (hg ⟨main_v919, Read.val_main_v919 (F := F) X0 X1 X2 X3 X4 X5 X6⟩ (List.mem_of_mem_drop (i := 11) (up_17 X0 X1 X2 X3 X4 X5 X6 (up_16 X0 X1 X2 X3 X4 X5 X6 (in_15 X0 X1 X2 X3 X4 X5 X6 (j := 27) rfl))))))⟩,
   ⟨rfl, rfl, fun W hg => (binary_result main_v1077 main_v1078 main_v1079 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1077, Read.val_main_v1077 (F := F) X0 X1 X2 X3 X4 X5 X6⟩ (List.mem_of_getElem? (i := 1) rfl)) (hg ⟨main_v1078, Read.val_main_v1078 (F := F) X0 X1 X2 X3 X4 X5 X6⟩ (List.mem_of_getElem? (i := 0) rfl)))⟩,
   ⟨rfl, rfl, fun W hg => (binary_result main_v42 main_v26 main_v1080 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 13) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))))) (hg ⟨main_v26, Read.val_main_v26 (F := F) X0 X1 X2 X3 X4 X5 X6⟩ (List.mem_of_mem_drop (i := 13) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))))⟩,
   ⟨rfl, rfl, fun W hg => (binary_result main_v38 main_v40 main_v1081 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 14) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))))) (hg ⟨main_v40, Read.val_main_v40 (F := F) X0 X1 X2 X3 X4 X5 X6⟩ (List.mem_of_mem_drop (i := 14) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))⟩,
   ⟨rfl, rfl, fun W hg => (binary_result main_v1080 main_v1081 main_v1082 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1080, Read.val_main_v1080 (F := F) X0 X1 X2 X3 X4 X5 X6⟩ (List.mem_of_getElem? (i := 1) rfl)) (hg ⟨main_v1081, Read.val_main_v1081 (F := F) X0 X1 X2 X3 X4 X5 X6⟩ (List.mem_of_getElem? (i := 0) rfl)))⟩,
   ⟨rfl, rfl, fun W hg => (binary_result main_v34 main_v754 main_v1083 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 16) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))))))) (hg ⟨main_v754, Read.val_main_v754 (F := F) X0 X1 X2 X3 X4 X5 X6⟩ (List.mem_of_mem_drop (i := 16) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (in_12 X0 X1 X2 X3 X4 X5 X6 (j := 12) rfl)))))))))⟩,
   ⟨rfl, rfl, fun W hg => (binary_result main_v1082 main_v1083 main_v1084 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1082, Read.val_main_v1082 (F := F) X0 X1 X2 X3 X4 X5 X6⟩ (List.mem_of_getElem? (i := 1) rfl)) (hg ⟨main_v1083, Read.val_main_v1083 (F := F) X0 X1 X2 X3 X4 X5 X6⟩ (List.mem_of_getElem? (i := 0) rfl)))⟩,
   ⟨rfl, rfl, fun W hg => (binary_result main_v44 main_v819 main_v1085 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 18) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))))) (hg ⟨main_v819, Read.val_main_v819 (F := F) X0 X1 X2 X3 X4 X5 X6⟩ (List.mem_of_mem_drop (i := 18) (up_17 X0 X1 X2 X3 X4 X5 X6 (up_16 X0 X1 X2 X3 X4 X5 X6 (up_15 X0 X1 X2 X3 X4 X5 X6 (up_14 X0 X1 X2 X3 X4 X5 X6 (in_13 X0 X1 X2 X3 X4 X5 X6 (j := 7) rfl))))))))⟩,
   ⟨rfl, rfl, fun W hg => (binary_result main_v36 main_v839 main_v1086 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 19) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))) (hg ⟨main_v839, Read.val_main_v839 (F := F) X0 X1 X2 X3 X4 X5 X6⟩ (List.mem_of_mem_drop (i := 19) (up_17 X0 X1 X2 X3 X4 X5 X6 (up_16 X0 X1 X2 X3 X4 X5 X6 (up_15 X0 X1 X2 X3 X4 X5 X6 (in_14 X0 X1 X2 X3 X4 X5 X6 (j := 47) rfl)))))))⟩,
   ⟨rfl, rfl, fun W hg => (binary_result main_v1085 main_v1086 main_v1087 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1085, Read.val_main_v1085 (F := F) X0 X1 X2 X3 X4 X5 X6⟩ (List.mem_of_getElem? (i := 1) rfl)) (hg ⟨main_v1086, Read.val_main_v1086 (F := F) X0 X1 X2 X3 X4 X5 X6⟩ (List.mem_of_getElem? (i := 0) rfl)))⟩,
   ⟨rfl, rfl, fun W hg => (binary_result main_v26 main_v809 main_v1088 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 21) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))) (hg ⟨main_v809, Read.val_main_v809 (F := F) X0 X1 X2 X3 X4 X5 X6⟩ (List.mem_of_mem_drop (i := 21) (up_17 X0 X1 X2 X3 X4 X5 X6 (up_16 X0 X1 X2 X3 X4 X5 X6 (up_15 X0 X1 X2 X3 X4 X5 X6 (up_14 X0 X1 X2 X3 X4 X5 X6 (in_13 X0 X1 X2 X3 X4 X5 X6 (j := 17) rfl))))))))⟩,
   ⟨rfl, rfl, fun W hg => (binary_result main_v1087 main_v1088 main_v1089 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1087, Read.val_main_v1087 (F := F) X0 X1 X2 X3 X4 X5 X6⟩ (List.mem_of_getElem? (i := 1) rfl)) (hg ⟨main_v1088, Read.val_main_v1088 (F := F) X0 X1 X2 X3 X4 X5 X6⟩ (List.mem_of_getElem? (i := 0) rfl)))⟩,
   ⟨rfl, rfl, fun W hg => (binary_result main_v28 main_v36 main_v1090 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 23) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))))) (hg ⟨main_v36, Read.val_main_v36 (F := F) X0 X1 X2 X3 X4 X5 X6⟩ (List.mem_of_mem_drop (i := 23) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))))⟩,
   ⟨rfl, rfl, fun W hg => (binary_result main_v36 main_v189 main_v1091 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 24) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))) (hg ⟨main_v189, Read.val_main_v189 (F := F) X0 X1 X2 X3 X4 X5 X6⟩ (List.mem_of_mem_drop (i := 24) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 37) rfl))))))))))))))))))⟩,
   ⟨rfl, rfl, fun W hg => (binary_result main_v1090 main_v1091 main_v1092 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1090, Read.val_main_v1090 (F := F) X0 X1 X2 X3 X4 X5 X6⟩ (List.mem_of_getElem? (i := 1) rfl)) (hg ⟨main_v1091, Read.val_main_v1091 (F := F) X0 X1 X2 X3 X4 X5 X6⟩ (List.mem_of_getElem? (i := 0) rfl)))⟩,
   ⟨rfl, rfl, fun W hg => (binary_result main_v26 main_v904 main_v1093 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 26) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))) (hg ⟨main_v904, Read.val_main_v904 (F := F) X0 X1 X2 X3 X4 X5 X6⟩ (List.mem_of_mem_drop (i := 26) (up_17 X0 X1 X2 X3 X4 X5 X6 (up_16 X0 X1 X2 X3 X4 X5 X6 (in_15 X0 X1 X2 X3 X4 X5 X6 (j := 42) rfl))))))⟩,
   ⟨rfl, rfl, fun W hg => (binary_result main_v1092 main_v1093 main_v1094 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1092, Read.val_main_v1092 (F := F) X0 X1 X2 X3 X4 X5 X6⟩ (List.mem_of_getElem? (i := 1) rfl)) (hg ⟨main_v1093, Read.val_main_v1093 (F := F) X0 X1 X2 X3 X4 X5 X6⟩ (List.mem_of_getElem? (i := 0) rfl)))⟩,
   ⟨rfl, rfl, fun W hg => (binary_result main_v28 main_v659 main_v1095 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 28) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))))) (hg ⟨main_v659, Read.val_main_v659 (F := F) X0 X1 X2 X3 X4 X5 X6⟩ (List.mem_of_mem_drop (i := 28) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 47) rfl))))))))))⟩,
   ⟨rfl, rfl, fun W hg => (binary_result main_v26 main_v429 main_v1096 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 29) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))) (hg ⟨main_v429, Read.val_main_v429 (F := F) X0 X1 X2 X3 X4 X5 X6⟩ (List.mem_of_mem_drop (i := 29) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 37) rfl))))))))))))))⟩,
   ⟨rfl, rfl, fun W hg => (binary_result main_v1095 main_v1096 main_v1097 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1095, Read.val_main_v1095 (F := F) X0 X1 X2 X3 X4 X5 X6⟩ (List.mem_of_getElem? (i := 1) rfl)) (hg ⟨main_v1096, Read.val_main_v1096 (F := F) X0 X1 X2 X3 X4 X5 X6⟩ (List.mem_of_getElem? (i := 0) rfl)))⟩,
   ⟨rfl, rfl, fun W hg => (binary_result main_v40 main_v369 main_v1098 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 31) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))) (hg ⟨main_v369, Read.val_main_v369 (F := F) X0 X1 X2 X3 X4 X5 X6⟩ (List.mem_of_mem_drop (i := 31) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 37) rfl)))))))))))))))⟩,
   ⟨rfl, rfl, fun W hg => (binary_result main_v1097 main_v1098 main_v1099 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1097, Read.val_main_v1097 (F := F) X0 X1 X2 X3 X4 X5 X6⟩ (List.mem_of_getElem? (i := 1) rfl)) (hg ⟨main_v1098, Read.val_main_v1098 (F := F) X0 X1 X2 X3 X4 X5 X6⟩ (List.mem_of_getElem? (i := 0) rfl)))⟩,
   ⟨rfl, rfl, fun W hg => (binary_result main_v40 main_v929 main_v1100 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 33) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))) (hg ⟨main_v929, Read.val_main_v929 (F := F) X0 X1 X2 X3 X4 X5 X6⟩ (List.mem_of_mem_drop (i := 33) (up_17 X0 X1 X2 X3 X4 X5 X6 (up_16 X0 X1 X2 X3 X4 X5 X6 (in_15 X0 X1 X2 X3 X4 X5 X6 (j := 17) rfl))))))⟩,
   ⟨rfl, rfl, fun W hg => (binary_result main_v34 main_v624 main_v1101 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 34) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))))))) (hg ⟨main_v624, Read.val_main_v624 (F := F) X0 X1 X2 X3 X4 X5 X6⟩ (List.mem_of_mem_drop (i := 34) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (in_10 X0 X1 X2 X3 X4 X5 X6 (j := 22) rfl)))))))))))⟩,
   ⟨rfl, rfl, fun W hg => (binary_result main_v1100 main_v1101 main_v1102 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1100, Read.val_main_v1100 (F := F) X0 X1 X2 X3 X4 X5 X6⟩ (List.mem_of_getElem? (i := 1) rfl)) (hg ⟨main_v1101, Read.val_main_v1101 (F := F) X0 X1 X2 X3 X4 X5 X6⟩ (List.mem_of_getElem? (i := 0) rfl)))⟩,
   ⟨rfl, rfl, fun W hg => (binary_result main_v32 main_v48 main_v1103 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 36) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))))))) (hg ⟨main_v48, Read.val_main_v48 (F := F) X0 X1 X2 X3 X4 X5 X6⟩ (List.mem_of_mem_drop (i := 36) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 7) rfl)))))))))))))))))))))⟩,
   ⟨rfl, rfl, fun W hg => (binary_result main_v1102 main_v1103 main_v1104 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1102, Read.val_main_v1102 (F := F) X0 X1 X2 X3 X4 X5 X6⟩ (List.mem_of_getElem? (i := 1) rfl)) (hg ⟨main_v1103, Read.val_main_v1103 (F := F) X0 X1 X2 X3 X4 X5 X6⟩ (List.mem_of_getElem? (i := 0) rfl)))⟩,
   ⟨rfl, rfl, fun W hg => (binary_result main_v40 main_v814 main_v1105 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 38) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))) (hg ⟨main_v814, Read.val_main_v814 (F := F) X0 X1 X2 X3 X4 X5 X6⟩ (List.mem_of_mem_drop (i := 38) (up_17 X0 X1 X2 X3 X4 X5 X6 (up_16 X0 X1 X2 X3 X4 X5 X6 (up_15 X0 X1 X2 X3 X4 X5 X6 (up_14 X0 X1 X2 X3 X4 X5 X6 (in_13 X0 X1 X2 X3 X4 X5 X6 (j := 12) rfl))))))))⟩,
   ⟨rfl, rfl, fun W hg => (binary_result main_v30 main_v64 main_v1106 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 39) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))))))) (hg ⟨main_v64, Read.val_main_v64 (F := F) X0 X1 X2 X3 X4 X5 X6⟩ (List.mem_of_mem_drop (i := 39) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 47) rfl))))))))))))))))))))⟩,
   ⟨rfl, rfl, fun W hg => (binary_result main_v1105 main_v1106 main_v1107 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1105, Read.val_main_v1105 (F := F) X0 X1 X2 X3 X4 X5 X6⟩ (List.mem_of_getElem? (i := 1) rfl)) (hg ⟨main_v1106, Read.val_main_v1106 (F := F) X0 X1 X2 X3 X4 X5 X6⟩ (List.mem_of_getElem? (i := 0) rfl)))⟩,
   ⟨rfl, rfl, fun W hg => (binary_result main_v38 main_v809 main_v1108 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 41) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))))) (hg ⟨main_v809, Read.val_main_v809 (F := F) X0 X1 X2 X3 X4 X5 X6⟩ (List.mem_of_mem_drop (i := 41) (up_17 X0 X1 X2 X3 X4 X5 X6 (up_16 X0 X1 X2 X3 X4 X5 X6 (up_15 X0 X1 X2 X3 X4 X5 X6 (up_14 X0 X1 X2 X3 X4 X5 X6 (in_13 X0 X1 X2 X3 X4 X5 X6 (j := 17) rfl))))))))⟩,
   ⟨rfl, rfl, fun W hg => (binary_result main_v1107 main_v1108 main_v1109 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1107, Read.val_main_v1107 (F := F) X0 X1 X2 X3 X4 X5 X6⟩ (List.mem_of_getElem? (i := 1) rfl)) (hg ⟨main_v1108, Read.val_main_v1108 (F := F) X0 X1 X2 X3 X4 X5 X6⟩ (List.mem_of_getElem? (i := 0) rfl)))⟩,
   ⟨rfl, rfl, fun W hg => (binary_result main_v40 main_v72 main_v1110 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 43) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))) (hg ⟨main_v72, Read.val_main_v72 (F := F) X0 X1 X2 X3 X4 X5 X6⟩ (List.mem_of_mem_drop (i := 43) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 37) rfl))))))))))))))))))))⟩,
   ⟨rfl, rfl, fun W hg => (binary_result main_v42 main_v72 main_v1111 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 44) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))))) (hg ⟨main_v72, Read.val_main_v72 (F := F) X0 X1 X2 X3 X4 X5 X6⟩ (List.mem_of_mem_drop (i := 44) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 37) rfl))))))))))))))))))))⟩,
   ⟨rfl, rfl, fun W hg => (binary_result main_v1110 main_v1111 main_v1112 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1110, Read.val_main_v1110 (F := F) X0 X1 X2 X3 X4 X5 X6⟩ (List.mem_of_getElem? (i := 1) rfl)) (hg ⟨main_v1111, Read.val_main_v1111 (F := F) X0 X1 X2 X3 X4 X5 X6⟩ (List.mem_of_getElem? (i := 0) rfl)))⟩,
   ⟨rfl, rfl, fun W hg => (binary_result main_v36 main_v48 main_v1113 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 46) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))) (hg ⟨main_v48, Read.val_main_v48 (F := F) X0 X1 X2 X3 X4 X5 X6⟩ (List.mem_of_mem_drop (i := 46) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 7) rfl)))))))))))))))))))))⟩,
   ⟨rfl, rfl, fun W hg => (binary_result main_v1112 main_v1113 main_v1114 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1112, Read.val_main_v1112 (F := F) X0 X1 X2 X3 X4 X5 X6⟩ (List.mem_of_getElem? (i := 1) rfl)) (hg ⟨main_v1113, Read.val_main_v1113 (F := F) X0 X1 X2 X3 X4 X5 X6⟩ (List.mem_of_getElem? (i := 0) rfl)))⟩,
   ⟨rfl, rfl, fun W hg => (binary_result main_v38 main_v839 main_v1115 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 48) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))))) (hg ⟨main_v839, Read.val_main_v839 (F := F) X0 X1 X2 X3 X4 X5 X6⟩ (List.mem_of_mem_drop (i := 48) (up_17 X0 X1 X2 X3 X4 X5 X6 (up_16 X0 X1 X2 X3 X4 X5 X6 (up_15 X0 X1 X2 X3 X4 X5 X6 (in_14 X0 X1 X2 X3 X4 X5 X6 (j := 47) rfl)))))))⟩,
   ⟨rfl, rfl, fun W hg => (binary_result main_v28 main_v224 main_v1116 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 49) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))))) (hg ⟨main_v224, Read.val_main_v224 (F := F) X0 X1 X2 X3 X4 X5 X6⟩ (List.mem_of_mem_drop (i := 49) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 2) rfl))))))))))))))))))⟩,
   ⟨rfl, rfl, fun W hg => (binary_result main_v1115 main_v1116 main_v1117 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1115, Read.val_main_v1115 (F := F) X0 X1 X2 X3 X4 X5 X6⟩ (List.mem_of_getElem? (i := 1) rfl)) (hg ⟨main_v1116, Read.val_main_v1116 (F := F) X0 X1 X2 X3 X4 X5 X6⟩ (List.mem_of_getElem? (i := 0) rfl)))⟩,
   ⟨rfl, rfl, fun W hg => (binary_result main_v44 main_v94 main_v1118 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 51) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))))) (hg ⟨main_v94, Read.val_main_v94 (F := F) X0 X1 X2 X3 X4 X5 X6⟩ (List.mem_of_mem_drop (i := 51) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 12) rfl))))))))))))))))))))⟩,
   ⟨rfl, rfl, fun W hg => (binary_result main_v1117 main_v1118 main_v1119 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1117, Read.val_main_v1117 (F := F) X0 X1 X2 X3 X4 X5 X6⟩ (List.mem_of_getElem? (i := 1) rfl)) (hg ⟨main_v1118, Read.val_main_v1118 (F := F) X0 X1 X2 X3 X4 X5 X6⟩ (List.mem_of_getElem? (i := 0) rfl)))⟩,
   ⟨rfl, rfl, fun W hg => (binary_result main_v26 main_v184 main_v1120 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 53) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))) (hg ⟨main_v184, Read.val_main_v184 (F := F) X0 X1 X2 X3 X4 X5 X6⟩ (List.mem_of_mem_drop (i := 53) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 42) rfl))))))))))))))))))⟩,
   ⟨rfl, rfl, fun W hg => (binary_result main_v44 main_v824 main_v1121 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 54) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))))) (hg ⟨main_v824, Read.val_main_v824 (F := F) X0 X1 X2 X3 X4 X5 X6⟩ (List.mem_of_mem_drop (i := 54) (up_17 X0 X1 X2 X3 X4 X5 X6 (up_16 X0 X1 X2 X3 X4 X5 X6 (up_15 X0 X1 X2 X3 X4 X5 X6 (up_14 X0 X1 X2 X3 X4 X5 X6 (in_13 X0 X1 X2 X3 X4 X5 X6 (j := 2) rfl))))))))⟩,
   ⟨rfl, rfl, fun W hg => (binary_result main_v1120 main_v1121 main_v1122 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1120, Read.val_main_v1120 (F := F) X0 X1 X2 X3 X4 X5 X6⟩ (List.mem_of_getElem? (i := 1) rfl)) (hg ⟨main_v1121, Read.val_main_v1121 (F := F) X0 X1 X2 X3 X4 X5 X6⟩ (List.mem_of_getElem? (i := 0) rfl)))⟩,
   ⟨rfl, rfl, fun W hg => (binary_result main_v38 main_v294 main_v1123 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 56) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))))) (hg ⟨main_v294, Read.val_main_v294 (F := F) X0 X1 X2 X3 X4 X5 X6⟩ (List.mem_of_mem_drop (i := 56) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 52) rfl))))))))))))))))⟩,
   ⟨rfl, rfl, fun W hg => (binary_result main_v1122 main_v1123 main_v1124 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1122, Read.val_main_v1122 (F := F) X0 X1 X2 X3 X4 X5 X6⟩ (List.mem_of_getElem? (i := 1) rfl)) (hg ⟨main_v1123, Read.val_main_v1123 (F := F) X0 X1 X2 X3 X4 X5 X6⟩ (List.mem_of_getElem? (i := 0) rfl)))⟩,
   ⟨rfl, rfl, fun W hg => (binary_result main_v44 main_v659 main_v1125 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 58) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))))) (hg ⟨main_v659, Read.val_main_v659 (F := F) X0 X1 X2 X3 X4 X5 X6⟩ (List.mem_of_mem_drop (i := 58) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 47) rfl))))))))))⟩,
   ⟨rfl, rfl, fun W hg => (binary_result main_v36 main_v969 main_v1126 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 59) (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))) (hg ⟨main_v969, Read.val_main_v969 (F := F) X0 X1 X2 X3 X4 X5 X6⟩ (List.mem_of_mem_drop (i := 59) (up_17 X0 X1 X2 X3 X4 X5 X6 (in_16 X0 X1 X2 X3 X4 X5 X6 (j := 37) rfl)))))⟩,
   trivial⟩
theorem good_18 (W : Valuation τ sig (Elt F)) (hg : Good W (tbl_17 X0 X1 X2 X3 X4 X5 X6) (7 + 1084)) :
    Good (after ops_18 W) (tbl_18 X0 X1 X2 X3 X4 X5 X6) (7 + 1144) :=
  Good.after _ _ _ _ W hg (chain_18 X0 X1 X2 X3 X4 X5 X6)

theorem part_eq_19 (c : Dev nD) : main_part19 (F := F) c = seq ops_19 := rfl
theorem fresh_19 : (ops_19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 19's operations write, in order. -/
abbrev ps_19 : List (Entry sig (Elt F)) :=
  [ ⟨main_v1127, Read.val_main_v1127 (F := F) X0 X1 X2 X3 X4 X5 X6⟩,
    ⟨main_v1128, Read.val_main_v1128 (F := F) X0 X1 X2 X3 X4 X5 X6⟩,
    ⟨main_v1129, Read.val_main_v1129 (F := F) X0 X1 X2 X3 X4 X5 X6⟩,
    ⟨main_v1130, Read.val_main_v1130 (F := F) X0 X1 X2 X3 X4 X5 X6⟩,
    ⟨main_v1131, Read.val_main_v1131 (F := F) X0 X1 X2 X3 X4 X5 X6⟩,
    ⟨main_v1132, Read.val_main_v1132 (F := F) X0 X1 X2 X3 X4 X5 X6⟩,
    ⟨main_v1133, Read.val_main_v1133 (F := F) X0 X1 X2 X3 X4 X5 X6⟩,
    ⟨main_v1134, Read.val_main_v1134 (F := F) X0 X1 X2 X3 X4 X5 X6⟩,
    ⟨main_v1135, Read.val_main_v1135 (F := F) X0 X1 X2 X3 X4 X5 X6⟩,
    ⟨main_v1136, Read.val_main_v1136 (F := F) X0 X1 X2 X3 X4 X5 X6⟩,
    ⟨main_v1137, Read.val_main_v1137 (F := F) X0 X1 X2 X3 X4 X5 X6⟩,
    ⟨main_v1138, Read.val_main_v1138 (F := F) X0 X1 X2 X3 X4 X5 X6⟩,
    ⟨main_v1139, Read.val_main_v1139 (F := F) X0 X1 X2 X3 X4 X5 X6⟩,
    ⟨main_v1140, Read.val_main_v1140 (F := F) X0 X1 X2 X3 X4 X5 X6⟩,
    ⟨main_v1141, Read.val_main_v1141 (F := F) X0 X1 X2 X3 X4 X5 X6⟩,
    ⟨main_v1142, Read.val_main_v1142 (F := F) X0 X1 X2 X3 X4 X5 X6⟩,
    ⟨main_v1143, Read.val_main_v1143 (F := F) X0 X1 X2 X3 X4 X5 X6⟩,
    ⟨main_v1144, Read.val_main_v1144 (F := F) X0 X1 X2 X3 X4 X5 X6⟩,
    ⟨main_v1145, Read.val_main_v1145 (F := F) X0 X1 X2 X3 X4 X5 X6⟩,
    ⟨main_v1146, Read.val_main_v1146 (F := F) X0 X1 X2 X3 X4 X5 X6⟩,
    ⟨main_v1147, Read.val_main_v1147 (F := F) X0 X1 X2 X3 X4 X5 X6⟩,
    ⟨main_v1148, Read.val_main_v1148 (F := F) X0 X1 X2 X3 X4 X5 X6⟩,
    ⟨main_v1149, Read.val_main_v1149 (F := F) X0 X1 X2 X3 X4 X5 X6⟩,
    ⟨main_v1150, Read.val_main_v1150 (F := F) X0 X1 X2 X3 X4 X5 X6⟩,
    ⟨main_v1151, Read.val_main_v1151 (F := F) X0 X1 X2 X3 X4 X5 X6⟩,
    ⟨main_v1152, Read.val_main_v1152 (F := F) X0 X1 X2 X3 X4 X5 X6⟩,
    ⟨main_v1153, Read.val_main_v1153 (F := F) X0 X1 X2 X3 X4 X5 X6⟩,
    ⟨main_v1154, Read.val_main_v1154 (F := F) X0 X1 X2 X3 X4 X5 X6⟩,
    ⟨main_v1155, Read.val_main_v1155 (F := F) X0 X1 X2 X3 X4 X5 X6⟩,
    ⟨main_v1156, Read.val_main_v1156 (F := F) X0 X1 X2 X3 X4 X5 X6⟩,
    ⟨main_v1157, Read.val_main_v1157 (F := F) X0 X1 X2 X3 X4 X5 X6⟩,
    ⟨main_v1158, Read.val_main_v1158 (F := F) X0 X1 X2 X3 X4 X5 X6⟩,
    ⟨main_v1159, Read.val_main_v1159 (F := F) X0 X1 X2 X3 X4 X5 X6⟩,
    ⟨main_v1160, Read.val_main_v1160 (F := F) X0 X1 X2 X3 X4 X5 X6⟩,
    ⟨main_v1161, Read.val_main_v1161 (F := F) X0 X1 X2 X3 X4 X5 X6⟩,
    ⟨main_v1162, Read.val_main_v1162 (F := F) X0 X1 X2 X3 X4 X5 X6⟩,
    ⟨main_v1163, Read.val_main_v1163 (F := F) X0 X1 X2 X3 X4 X5 X6⟩,
    ⟨main_v1164, Read.val_main_v1164 (F := F) X0 X1 X2 X3 X4 X5 X6⟩,
    ⟨main_v1165, Read.val_main_v1165 (F := F) X0 X1 X2 X3 X4 X5 X6⟩,
    ⟨main_v1166, Read.val_main_v1166 (F := F) X0 X1 X2 X3 X4 X5 X6⟩,
    ⟨main_v1167, Read.val_main_v1167 (F := F) X0 X1 X2 X3 X4 X5 X6⟩,
    ⟨main_v1168, Read.val_main_v1168 (F := F) X0 X1 X2 X3 X4 X5 X6⟩,
    ⟨main_v1169, Read.val_main_v1169 (F := F) X0 X1 X2 X3 X4 X5 X6⟩,
    ⟨main_v1170, Read.val_main_v1170 (F := F) X0 X1 X2 X3 X4 X5 X6⟩,
    ⟨main_v1171, Read.val_main_v1171 (F := F) X0 X1 X2 X3 X4 X5 X6⟩,
    ⟨main_v1172, Read.val_main_v1172 (F := F) X0 X1 X2 X3 X4 X5 X6⟩,
    ⟨main_v1173, Read.val_main_v1173 (F := F) X0 X1 X2 X3 X4 X5 X6⟩,
    ⟨main_v1174, Read.val_main_v1174 (F := F) X0 X1 X2 X3 X4 X5 X6⟩,
    ⟨main_v1175, Read.val_main_v1175 (F := F) X0 X1 X2 X3 X4 X5 X6⟩,
    ⟨main_v1176, Read.val_main_v1176 (F := F) X0 X1 X2 X3 X4 X5 X6⟩,
    ⟨main_v1177, Read.val_main_v1177 (F := F) X0 X1 X2 X3 X4 X5 X6⟩,
    ⟨main_v1178, Read.val_main_v1178 (F := F) X0 X1 X2 X3 X4 X5 X6⟩,
    ⟨main_v1179, Read.val_main_v1179 (F := F) X0 X1 X2 X3 X4 X5 X6⟩,
    ⟨main_v1180, Read.val_main_v1180 (F := F) X0 X1 X2 X3 X4 X5 X6⟩,
    ⟨main_v1181, Read.val_main_v1181 (F := F) X0 X1 X2 X3 X4 X5 X6⟩,
    ⟨main_v1182, Read.val_main_v1182 (F := F) X0 X1 X2 X3 X4 X5 X6⟩,
    ⟨main_v1183, Read.val_main_v1183 (F := F) X0 X1 X2 X3 X4 X5 X6⟩,
    ⟨main_v1184, Read.val_main_v1184 (F := F) X0 X1 X2 X3 X4 X5 X6⟩,
    ⟨main_v1185, Read.val_main_v1185 (F := F) X0 X1 X2 X3 X4 X5 X6⟩,
    ⟨main_v1186, Read.val_main_v1186 (F := F) X0 X1 X2 X3 X4 X5 X6⟩ ]
/-- The stages known after window 19, the newest first. -/
abbrev tbl_19 : List (Entry sig (Elt F)) := (ps_19 X0 X1 X2 X3 X4 X5 X6).reverse ++ tbl_18 X0 X1 X2 X3 X4 X5 X6
theorem up_19 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_18 X0 X1 X2 X3 X4 X5 X6) : e ∈ tbl_19 X0 X1 X2 X3 X4 X5 X6 := List.mem_append_right _ h
theorem in_19 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_19 X0 X1 X2 X3 X4 X5 X6).reverse[j]? = some e) : e ∈ tbl_19 X0 X1 X2 X3 X4 X5 X6 :=
  List.mem_append_left _ (List.mem_of_getElem? h)
set_option maxRecDepth 1000000 in
set_option maxHeartbeats 4000000 in
theorem chain_19 : Chain (tbl_18 X0 X1 X2 X3 X4 X5 X6) (7 + 1144) (ops_19 (F := F)) (ps_19 X0 X1 X2 X3 X4 X5 X6) :=
  ⟨⟨rfl, rfl, fun W hg => (binary_result main_v1125 main_v1126 main_v1127 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1125, Read.val_main_v1125 (F := F) X0 X1 X2 X3 X4 X5 X6⟩ (List.mem_of_mem_drop (i := 0) (in_18 X0 X1 X2 X3 X4 X5 X6 (j := 1) rfl))) (hg ⟨main_v1126, Read.val_main_v1126 (F := F) X0 X1 X2 X3 X4 X5 X6⟩ (List.mem_of_mem_drop (i := 0) (in_18 X0 X1 X2 X3 X4 X5 X6 (j := 0) rfl))))⟩,
   ⟨rfl, rfl, fun W hg => (binary_result main_v32 main_v214 main_v1128 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 1) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))))) (hg ⟨main_v214, Read.val_main_v214 (F := F) X0 X1 X2 X3 X4 X5 X6⟩ (List.mem_of_mem_drop (i := 1) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 12) rfl)))))))))))))))))))⟩,
   ⟨rfl, rfl, fun W hg => (binary_result main_v1127 main_v1128 main_v1129 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1127, Read.val_main_v1127 (F := F) X0 X1 X2 X3 X4 X5 X6⟩ (List.mem_of_getElem? (i := 1) rfl)) (hg ⟨main_v1128, Read.val_main_v1128 (F := F) X0 X1 X2 X3 X4 X5 X6⟩ (List.mem_of_getElem? (i := 0) rfl)))⟩,
   ⟨rfl, rfl, fun W hg => (binary_result main_v40 main_v114 main_v1130 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 3) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))))))) (hg ⟨main_v114, Read.val_main_v114 (F := F) X0 X1 X2 X3 X4 X5 X6⟩ (List.mem_of_mem_drop (i := 3) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 52) rfl))))))))))))))))))))⟩,
   ⟨rfl, rfl, fun W hg => (binary_result main_v44 main_v60 main_v1131 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 4) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))))) (hg ⟨main_v60, Read.val_main_v60 (F := F) X0 X1 X2 X3 X4 X5 X6⟩ (List.mem_of_mem_drop (i := 4) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 52) rfl)))))))))))))))))))))⟩,
   ⟨rfl, rfl, fun W hg => (binary_result main_v1130 main_v1131 main_v1132 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1130, Read.val_main_v1130 (F := F) X0 X1 X2 X3 X4 X5 X6⟩ (List.mem_of_getElem? (i := 1) rfl)) (hg ⟨main_v1131, Read.val_main_v1131 (F := F) X0 X1 X2 X3 X4 X5 X6⟩ (List.mem_of_getElem? (i := 0) rfl)))⟩,
   ⟨rfl, rfl, fun W hg => (binary_result main_v32 main_v944 main_v1133 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 6) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))))) (hg ⟨main_v944, Read.val_main_v944 (F := F) X0 X1 X2 X3 X4 X5 X6⟩ (List.mem_of_mem_drop (i := 6) (up_18 X0 X1 X2 X3 X4 X5 X6 (up_17 X0 X1 X2 X3 X4 X5 X6 (up_16 X0 X1 X2 X3 X4 X5 X6 (in_15 X0 X1 X2 X3 X4 X5 X6 (j := 2) rfl)))))))⟩,
   ⟨rfl, rfl, fun W hg => (binary_result main_v1132 main_v1133 main_v1134 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1132, Read.val_main_v1132 (F := F) X0 X1 X2 X3 X4 X5 X6⟩ (List.mem_of_getElem? (i := 1) rfl)) (hg ⟨main_v1133, Read.val_main_v1133 (F := F) X0 X1 X2 X3 X4 X5 X6⟩ (List.mem_of_getElem? (i := 0) rfl)))⟩,
   ⟨rfl, rfl, fun W hg => (binary_result main_v34 main_v114 main_v1135 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 8) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))))))) (hg ⟨main_v114, Read.val_main_v114 (F := F) X0 X1 X2 X3 X4 X5 X6⟩ (List.mem_of_mem_drop (i := 8) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 52) rfl))))))))))))))))))))⟩,
   ⟨rfl, rfl, fun W hg => (binary_result main_v30 main_v56 main_v1136 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 9) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))))))) (hg ⟨main_v56, Read.val_main_v56 (F := F) X0 X1 X2 X3 X4 X5 X6⟩ (List.mem_of_mem_drop (i := 9) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 57) rfl)))))))))))))))))))))⟩,
   ⟨rfl, rfl, fun W hg => (binary_result main_v1135 main_v1136 main_v1137 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1135, Read.val_main_v1135 (F := F) X0 X1 X2 X3 X4 X5 X6⟩ (List.mem_of_getElem? (i := 1) rfl)) (hg ⟨main_v1136, Read.val_main_v1136 (F := F) X0 X1 X2 X3 X4 X5 X6⟩ (List.mem_of_getElem? (i := 0) rfl)))⟩,
   ⟨rfl, rfl, fun W hg => (binary_result main_v38 main_v249 main_v1138 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 11) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))))))))) (hg ⟨main_v249, Read.val_main_v249 (F := F) X0 X1 X2 X3 X4 X5 X6⟩ (List.mem_of_mem_drop (i := 11) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 37) rfl))))))))))))))))))⟩,
   ⟨rfl, rfl, fun W hg => (binary_result main_v1137 main_v1138 main_v1139 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1137, Read.val_main_v1137 (F := F) X0 X1 X2 X3 X4 X5 X6⟩ (List.mem_of_getElem? (i := 1) rfl)) (hg ⟨main_v1138, Read.val_main_v1138 (F := F) X0 X1 X2 X3 X4 X5 X6⟩ (List.mem_of_getElem? (i := 0) rfl)))⟩,
   ⟨rfl, rfl, fun W hg => (binary_result main_v28 main_v979 main_v1140 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 13) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))))))) (hg ⟨main_v979, Read.val_main_v979 (F := F) X0 X1 X2 X3 X4 X5 X6⟩ (List.mem_of_mem_drop (i := 13) (up_18 X0 X1 X2 X3 X4 X5 X6 (up_17 X0 X1 X2 X3 X4 X5 X6 (in_16 X0 X1 X2 X3 X4 X5 X6 (j := 27) rfl))))))⟩,
   ⟨rfl, rfl, fun W hg => (binary_result main_v32 main_v584 main_v1141 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 14) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))))) (hg ⟨main_v584, Read.val_main_v584 (F := F) X0 X1 X2 X3 X4 X5 X6⟩ (List.mem_of_mem_drop (i := 14) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 2) rfl)))))))))))))⟩,
   ⟨rfl, rfl, fun W hg => (binary_result main_v1140 main_v1141 main_v1142 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1140, Read.val_main_v1140 (F := F) X0 X1 X2 X3 X4 X5 X6⟩ (List.mem_of_getElem? (i := 1) rfl)) (hg ⟨main_v1141, Read.val_main_v1141 (F := F) X0 X1 X2 X3 X4 X5 X6⟩ (List.mem_of_getElem? (i := 0) rfl)))⟩,
   ⟨rfl, rfl, fun W hg => (binary_result main_v40 main_v28 main_v1143 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 16) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))))))) (hg ⟨main_v28, Read.val_main_v28 (F := F) X0 X1 X2 X3 X4 X5 X6⟩ (List.mem_of_mem_drop (i := 16) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))))))))⟩,
   ⟨rfl, rfl, fun W hg => (binary_result main_v1142 main_v1143 main_v1144 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1142, Read.val_main_v1142 (F := F) X0 X1 X2 X3 X4 X5 X6⟩ (List.mem_of_getElem? (i := 1) rfl)) (hg ⟨main_v1143, Read.val_main_v1143 (F := F) X0 X1 X2 X3 X4 X5 X6⟩ (List.mem_of_getElem? (i := 0) rfl)))⟩,
   ⟨rfl, rfl, fun W hg => (binary_result main_v42 main_v159 main_v1145 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 18) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))))))) (hg ⟨main_v159, Read.val_main_v159 (F := F) X0 X1 X2 X3 X4 X5 X6⟩ (List.mem_of_mem_drop (i := 18) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 7) rfl))))))))))))))))))))⟩,
   ⟨rfl, rfl, fun W hg => (binary_result main_v44 main_v539 main_v1146 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 19) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))))) (hg ⟨main_v539, Read.val_main_v539 (F := F) X0 X1 X2 X3 X4 X5 X6⟩ (List.mem_of_mem_drop (i := 19) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 47) rfl)))))))))))))⟩,
   ⟨rfl, rfl, fun W hg => (binary_result main_v1145 main_v1146 main_v1147 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1145, Read.val_main_v1145 (F := F) X0 X1 X2 X3 X4 X5 X6⟩ (List.mem_of_getElem? (i := 1) rfl)) (hg ⟨main_v1146, Read.val_main_v1146 (F := F) X0 X1 X2 X3 X4 X5 X6⟩ (List.mem_of_getElem? (i := 0) rfl)))⟩,
   ⟨rfl, rfl, fun W hg => (binary_result main_v32 main_v294 main_v1148 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 21) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))))) (hg ⟨main_v294, Read.val_main_v294 (F := F) X0 X1 X2 X3 X4 X5 X6⟩ (List.mem_of_mem_drop (i := 21) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 52) rfl)))))))))))))))))⟩,
   ⟨rfl, rfl, fun W hg => (binary_result main_v1147 main_v1148 main_v1149 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1147, Read.val_main_v1147 (F := F) X0 X1 X2 X3 X4 X5 X6⟩ (List.mem_of_getElem? (i := 1) rfl)) (hg ⟨main_v1148, Read.val_main_v1148 (F := F) X0 X1 X2 X3 X4 X5 X6⟩ (List.mem_of_getElem? (i := 0) rfl)))⟩,
   ⟨rfl, rfl, fun W hg => (binary_result main_v36 main_v544 main_v1150 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 23) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))))) (hg ⟨main_v544, Read.val_main_v544 (F := F) X0 X1 X2 X3 X4 X5 X6⟩ (List.mem_of_mem_drop (i := 23) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 42) rfl)))))))))))))⟩,
   ⟨rfl, rfl, fun W hg => (binary_result main_v28 main_v44 main_v1151 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 24) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))))))) (hg ⟨main_v44, Read.val_main_v44 (F := F) X0 X1 X2 X3 X4 X5 X6⟩ (List.mem_of_mem_drop (i := 24) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))))))⟩,
   ⟨rfl, rfl, fun W hg => (binary_result main_v1150 main_v1151 main_v1152 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1150, Read.val_main_v1150 (F := F) X0 X1 X2 X3 X4 X5 X6⟩ (List.mem_of_getElem? (i := 1) rfl)) (hg ⟨main_v1151, Read.val_main_v1151 (F := F) X0 X1 X2 X3 X4 X5 X6⟩ (List.mem_of_getElem? (i := 0) rfl)))⟩,
   ⟨rfl, rfl, fun W hg => (binary_result main_v30 main_v764 main_v1153 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 26) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))))))) (hg ⟨main_v764, Read.val_main_v764 (F := F) X0 X1 X2 X3 X4 X5 X6⟩ (List.mem_of_mem_drop (i := 26) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (in_12 X0 X1 X2 X3 X4 X5 X6 (j := 2) rfl))))))))))⟩,
   ⟨rfl, rfl, fun W hg => (binary_result main_v1152 main_v1153 main_v1154 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1152, Read.val_main_v1152 (F := F) X0 X1 X2 X3 X4 X5 X6⟩ (List.mem_of_getElem? (i := 1) rfl)) (hg ⟨main_v1153, Read.val_main_v1153 (F := F) X0 X1 X2 X3 X4 X5 X6⟩ (List.mem_of_getElem? (i := 0) rfl)))⟩,
   ⟨rfl, rfl, fun W hg => (binary_result main_v26 main_v774 main_v1155 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 28) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))))))) (hg ⟨main_v774, Read.val_main_v774 (F := F) X0 X1 X2 X3 X4 X5 X6⟩ (List.mem_of_mem_drop (i := 28) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (in_13 X0 X1 X2 X3 X4 X5 X6 (j := 52) rfl)))))))))⟩,
   ⟨rfl, rfl, fun W hg => (binary_result main_v32 main_v379 main_v1156 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 29) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))))) (hg ⟨main_v379, Read.val_main_v379 (F := F) X0 X1 X2 X3 X4 X5 X6⟩ (List.mem_of_mem_drop (i := 29) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 27) rfl))))))))))))))))⟩,
   ⟨rfl, rfl, fun W hg => (binary_result main_v1155 main_v1156 main_v1157 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1155, Read.val_main_v1155 (F := F) X0 X1 X2 X3 X4 X5 X6⟩ (List.mem_of_getElem? (i := 1) rfl)) (hg ⟨main_v1156, Read.val_main_v1156 (F := F) X0 X1 X2 X3 X4 X5 X6⟩ (List.mem_of_getElem? (i := 0) rfl)))⟩,
   ⟨rfl, rfl, fun W hg => (binary_result main_v34 main_v1044 main_v1158 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 31) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))))))) (hg ⟨main_v1044, Read.val_main_v1044 (F := F) X0 X1 X2 X3 X4 X5 X6⟩ (List.mem_of_mem_drop (i := 31) (up_18 X0 X1 X2 X3 X4 X5 X6 (in_17 X0 X1 X2 X3 X4 X5 X6 (j := 22) rfl)))))⟩,
   ⟨rfl, rfl, fun W hg => (binary_result main_v1157 main_v1158 main_v1159 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1157, Read.val_main_v1157 (F := F) X0 X1 X2 X3 X4 X5 X6⟩ (List.mem_of_getElem? (i := 1) rfl)) (hg ⟨main_v1158, Read.val_main_v1158 (F := F) X0 X1 X2 X3 X4 X5 X6⟩ (List.mem_of_getElem? (i := 0) rfl)))⟩,
   ⟨rfl, rfl, fun W hg => (binary_result main_v40 main_v484 main_v1160 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 33) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))))))) (hg ⟨main_v484, Read.val_main_v484 (F := F) X0 X1 X2 X3 X4 X5 X6⟩ (List.mem_of_mem_drop (i := 33) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 42) rfl))))))))))))))⟩,
   ⟨rfl, rfl, fun W hg => (binary_result main_v42 main_v754 main_v1161 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 34) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))))))) (hg ⟨main_v754, Read.val_main_v754 (F := F) X0 X1 X2 X3 X4 X5 X6⟩ (List.mem_of_mem_drop (i := 34) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (in_12 X0 X1 X2 X3 X4 X5 X6 (j := 12) rfl))))))))))⟩,
   ⟨rfl, rfl, fun W hg => (binary_result main_v1160 main_v1161 main_v1162 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1160, Read.val_main_v1160 (F := F) X0 X1 X2 X3 X4 X5 X6⟩ (List.mem_of_getElem? (i := 1) rfl)) (hg ⟨main_v1161, Read.val_main_v1161 (F := F) X0 X1 X2 X3 X4 X5 X6⟩ (List.mem_of_getElem? (i := 0) rfl)))⟩,
   ⟨rfl, rfl, fun W hg => (binary_result main_v36 main_v624 main_v1163 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 36) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))))) (hg ⟨main_v624, Read.val_main_v624 (F := F) X0 X1 X2 X3 X4 X5 X6⟩ (List.mem_of_mem_drop (i := 36) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (in_10 X0 X1 X2 X3 X4 X5 X6 (j := 22) rfl))))))))))))⟩,
   ⟨rfl, rfl, fun W hg => (binary_result main_v1162 main_v1163 main_v1164 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1162, Read.val_main_v1162 (F := F) X0 X1 X2 X3 X4 X5 X6⟩ (List.mem_of_getElem? (i := 1) rfl)) (hg ⟨main_v1163, Read.val_main_v1163 (F := F) X0 X1 X2 X3 X4 X5 X6⟩ (List.mem_of_getElem? (i := 0) rfl)))⟩,
   ⟨rfl, rfl, fun W hg => (binary_result main_v40 main_v204 main_v1165 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 38) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))))))) (hg ⟨main_v204, Read.val_main_v204 (F := F) X0 X1 X2 X3 X4 X5 X6⟩ (List.mem_of_mem_drop (i := 38) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 22) rfl)))))))))))))))))))⟩,
   ⟨rfl, rfl, fun W hg => (binary_result main_v26 main_v38 main_v1166 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 39) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))))))) (hg ⟨main_v38, Read.val_main_v38 (F := F) X0 X1 X2 X3 X4 X5 X6⟩ (List.mem_of_mem_drop (i := 39) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))))))))))⟩,
   ⟨rfl, rfl, fun W hg => (binary_result main_v1165 main_v1166 main_v1167 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1165, Read.val_main_v1165 (F := F) X0 X1 X2 X3 X4 X5 X6⟩ (List.mem_of_getElem? (i := 1) rfl)) (hg ⟨main_v1166, Read.val_main_v1166 (F := F) X0 X1 X2 X3 X4 X5 X6⟩ (List.mem_of_getElem? (i := 0) rfl)))⟩,
   ⟨rfl, rfl, fun W hg => (binary_result main_v44 main_v694 main_v1168 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 41) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))))) (hg ⟨main_v694, Read.val_main_v694 (F := F) X0 X1 X2 X3 X4 X5 X6⟩ (List.mem_of_mem_drop (i := 41) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 12) rfl)))))))))))⟩,
   ⟨rfl, rfl, fun W hg => (binary_result main_v1167 main_v1168 main_v1169 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1167, Read.val_main_v1167 (F := F) X0 X1 X2 X3 X4 X5 X6⟩ (List.mem_of_getElem? (i := 1) rfl)) (hg ⟨main_v1168, Read.val_main_v1168 (F := F) X0 X1 X2 X3 X4 X5 X6⟩ (List.mem_of_getElem? (i := 0) rfl)))⟩,
   ⟨rfl, rfl, fun W hg => (binary_result main_v32 main_v669 main_v1170 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 43) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))))) (hg ⟨main_v669, Read.val_main_v669 (F := F) X0 X1 X2 X3 X4 X5 X6⟩ (List.mem_of_mem_drop (i := 43) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 37) rfl)))))))))))⟩,
   ⟨rfl, rfl, fun W hg => (binary_result main_v44 main_v1164 main_v1171 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 44) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))))) (hg ⟨main_v1164, Read.val_main_v1164 (F := F) X0 X1 X2 X3 X4 X5 X6⟩ (List.mem_of_getElem? (i := 6) rfl)))⟩,
   ⟨rfl, rfl, fun W hg => (binary_result main_v1170 main_v1171 main_v1172 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1170, Read.val_main_v1170 (F := F) X0 X1 X2 X3 X4 X5 X6⟩ (List.mem_of_getElem? (i := 1) rfl)) (hg ⟨main_v1171, Read.val_main_v1171 (F := F) X0 X1 X2 X3 X4 X5 X6⟩ (List.mem_of_getElem? (i := 0) rfl)))⟩,
   ⟨rfl, rfl, fun W hg => (binary_result main_v40 main_v1024 main_v1173 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 46) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))))))) (hg ⟨main_v1024, Read.val_main_v1024 (F := F) X0 X1 X2 X3 X4 X5 X6⟩ (List.mem_of_mem_drop (i := 46) (up_18 X0 X1 X2 X3 X4 X5 X6 (in_17 X0 X1 X2 X3 X4 X5 X6 (j := 42) rfl)))))⟩,
   ⟨rfl, rfl, fun W hg => (binary_result main_v1172 main_v1173 main_v1174 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1172, Read.val_main_v1172 (F := F) X0 X1 X2 X3 X4 X5 X6⟩ (List.mem_of_getElem? (i := 1) rfl)) (hg ⟨main_v1173, Read.val_main_v1173 (F := F) X0 X1 X2 X3 X4 X5 X6⟩ (List.mem_of_getElem? (i := 0) rfl)))⟩,
   ⟨rfl, rfl, fun W hg => (binary_result main_v28 main_v859 main_v1175 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 48) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))))))) (hg ⟨main_v859, Read.val_main_v859 (F := F) X0 X1 X2 X3 X4 X5 X6⟩ (List.mem_of_mem_drop (i := 48) (up_18 X0 X1 X2 X3 X4 X5 X6 (up_17 X0 X1 X2 X3 X4 X5 X6 (up_16 X0 X1 X2 X3 X4 X5 X6 (up_15 X0 X1 X2 X3 X4 X5 X6 (in_14 X0 X1 X2 X3 X4 X5 X6 (j := 27) rfl))))))))⟩,
   ⟨rfl, rfl, fun W hg => (binary_result main_v26 main_v854 main_v1176 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 49) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))))))) (hg ⟨main_v854, Read.val_main_v854 (F := F) X0 X1 X2 X3 X4 X5 X6⟩ (List.mem_of_mem_drop (i := 49) (up_18 X0 X1 X2 X3 X4 X5 X6 (up_17 X0 X1 X2 X3 X4 X5 X6 (up_16 X0 X1 X2 X3 X4 X5 X6 (up_15 X0 X1 X2 X3 X4 X5 X6 (in_14 X0 X1 X2 X3 X4 X5 X6 (j := 32) rfl))))))))⟩,
   ⟨rfl, rfl, fun W hg => (binary_result main_v1175 main_v1176 main_v1177 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1175, Read.val_main_v1175 (F := F) X0 X1 X2 X3 X4 X5 X6⟩ (List.mem_of_getElem? (i := 1) rfl)) (hg ⟨main_v1176, Read.val_main_v1176 (F := F) X0 X1 X2 X3 X4 X5 X6⟩ (List.mem_of_getElem? (i := 0) rfl)))⟩,
   ⟨rfl, rfl, fun W hg => (binary_result main_v44 main_v474 main_v1178 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 51) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))))) (hg ⟨main_v474, Read.val_main_v474 (F := F) X0 X1 X2 X3 X4 X5 X6⟩ (List.mem_of_mem_drop (i := 51) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 52) rfl))))))))))))))⟩,
   ⟨rfl, rfl, fun W hg => (binary_result main_v1177 main_v1178 main_v1179 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1177, Read.val_main_v1177 (F := F) X0 X1 X2 X3 X4 X5 X6⟩ (List.mem_of_getElem? (i := 1) rfl)) (hg ⟨main_v1178, Read.val_main_v1178 (F := F) X0 X1 X2 X3 X4 X5 X6⟩ (List.mem_of_getElem? (i := 0) rfl)))⟩,
   ⟨rfl, rfl, fun W hg => (binary_result main_v32 main_v1179 main_v1180 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 53) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))))) (hg ⟨main_v1179, Read.val_main_v1179 (F := F) X0 X1 X2 X3 X4 X5 X6⟩ (List.mem_of_getElem? (i := 0) rfl)))⟩,
   ⟨rfl, rfl, fun W hg => (binary_result main_v28 main_v694 main_v1181 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 54) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))))))) (hg ⟨main_v694, Read.val_main_v694 (F := F) X0 X1 X2 X3 X4 X5 X6⟩ (List.mem_of_mem_drop (i := 54) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 12) rfl)))))))))))⟩,
   ⟨rfl, rfl, fun W hg => (binary_result main_v1180 main_v1181 main_v1182 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1180, Read.val_main_v1180 (F := F) X0 X1 X2 X3 X4 X5 X6⟩ (List.mem_of_getElem? (i := 1) rfl)) (hg ⟨main_v1181, Read.val_main_v1181 (F := F) X0 X1 X2 X3 X4 X5 X6⟩ (List.mem_of_getElem? (i := 0) rfl)))⟩,
   ⟨rfl, rfl, fun W hg => (binary_result main_v36 main_v56 main_v1183 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 56) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))))) (hg ⟨main_v56, Read.val_main_v56 (F := F) X0 X1 X2 X3 X4 X5 X6⟩ (List.mem_of_mem_drop (i := 56) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 57) rfl)))))))))))))))))))))⟩,
   ⟨rfl, rfl, fun W hg => (binary_result main_v1182 main_v1183 main_v1184 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1182, Read.val_main_v1182 (F := F) X0 X1 X2 X3 X4 X5 X6⟩ (List.mem_of_getElem? (i := 1) rfl)) (hg ⟨main_v1183, Read.val_main_v1183 (F := F) X0 X1 X2 X3 X4 X5 X6⟩ (List.mem_of_getElem? (i := 0) rfl)))⟩,
   ⟨rfl, rfl, fun W hg => (binary_result main_v30 main_v284 main_v1185 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 58) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))))))) (hg ⟨main_v284, Read.val_main_v284 (F := F) X0 X1 X2 X3 X4 X5 X6⟩ (List.mem_of_mem_drop (i := 58) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 2) rfl))))))))))))))))))⟩,
   ⟨rfl, rfl, fun W hg => (binary_result main_v26 main_v989 main_v1186 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 59) (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))))))) (hg ⟨main_v989, Read.val_main_v989 (F := F) X0 X1 X2 X3 X4 X5 X6⟩ (List.mem_of_mem_drop (i := 59) (up_18 X0 X1 X2 X3 X4 X5 X6 (up_17 X0 X1 X2 X3 X4 X5 X6 (in_16 X0 X1 X2 X3 X4 X5 X6 (j := 17) rfl))))))⟩,
   trivial⟩
theorem good_19 (W : Valuation τ sig (Elt F)) (hg : Good W (tbl_18 X0 X1 X2 X3 X4 X5 X6) (7 + 1144)) :
    Good (after ops_19 W) (tbl_19 X0 X1 X2 X3 X4 X5 X6) (7 + 1204) :=
  Good.after _ _ _ _ W hg (chain_19 X0 X1 X2 X3 X4 X5 X6)

theorem part_eq_20 (c : Dev nD) : main_part20 (F := F) c = seq ops_20 := rfl
theorem fresh_20 : (ops_20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 20's operations write, in order. -/
abbrev ps_20 : List (Entry sig (Elt F)) :=
  [ ⟨main_v1187, Read.val_main_v1187 (F := F) X0 X1 X2 X3 X4 X5 X6⟩,
    ⟨main_v1188, Read.val_main_v1188 (F := F) X0 X1 X2 X3 X4 X5 X6⟩,
    ⟨main_v1189, Read.val_main_v1189 (F := F) X0 X1 X2 X3 X4 X5 X6⟩,
    ⟨main_v1190, Read.val_main_v1190 (F := F) X0 X1 X2 X3 X4 X5 X6⟩,
    ⟨main_v1191, Read.val_main_v1191 (F := F) X0 X1 X2 X3 X4 X5 X6⟩,
    ⟨main_v1192, Read.val_main_v1192 (F := F) X0 X1 X2 X3 X4 X5 X6⟩,
    ⟨main_v1193, Read.val_main_v1193 (F := F) X0 X1 X2 X3 X4 X5 X6⟩,
    ⟨main_v1194, Read.val_main_v1194 (F := F) X0 X1 X2 X3 X4 X5 X6⟩,
    ⟨main_v1195, Read.val_main_v1195 (F := F) X0 X1 X2 X3 X4 X5 X6⟩,
    ⟨main_v1196, Read.val_main_v1196 (F := F) X0 X1 X2 X3 X4 X5 X6⟩,
    ⟨main_v1197, Read.val_main_v1197 (F := F) X0 X1 X2 X3 X4 X5 X6⟩,
    ⟨main_v1198, Read.val_main_v1198 (F := F) X0 X1 X2 X3 X4 X5 X6⟩,
    ⟨main_v1199, Read.val_main_v1199 (F := F) X0 X1 X2 X3 X4 X5 X6⟩,
    ⟨main_v1200, Read.val_main_v1200 (F := F) X0 X1 X2 X3 X4 X5 X6⟩,
    ⟨main_v1201, Read.val_main_v1201 (F := F) X0 X1 X2 X3 X4 X5 X6⟩,
    ⟨main_v1202, Read.val_main_v1202 (F := F) X0 X1 X2 X3 X4 X5 X6⟩,
    ⟨main_v1203, Read.val_main_v1203 (F := F) X0 X1 X2 X3 X4 X5 X6⟩,
    ⟨main_v1204, Read.val_main_v1204 (F := F) X0 X1 X2 X3 X4 X5 X6⟩,
    ⟨main_v1205, Read.val_main_v1205 (F := F) X0 X1 X2 X3 X4 X5 X6⟩,
    ⟨main_v1206, Read.val_main_v1206 (F := F) X0 X1 X2 X3 X4 X5 X6⟩,
    ⟨main_v1207, Read.val_main_v1207 (F := F) X0 X1 X2 X3 X4 X5 X6⟩,
    ⟨main_v1208, Read.val_main_v1208 (F := F) X0 X1 X2 X3 X4 X5 X6⟩,
    ⟨main_v1209, Read.val_main_v1209 (F := F) X0 X1 X2 X3 X4 X5 X6⟩,
    ⟨main_v1210, Read.val_main_v1210 (F := F) X0 X1 X2 X3 X4 X5 X6⟩,
    ⟨main_v1211, Read.val_main_v1211 (F := F) X0 X1 X2 X3 X4 X5 X6⟩,
    ⟨main_v1212, Read.val_main_v1212 (F := F) X0 X1 X2 X3 X4 X5 X6⟩,
    ⟨main_v1213, Read.val_main_v1213 (F := F) X0 X1 X2 X3 X4 X5 X6⟩,
    ⟨main_v1214, Read.val_main_v1214 (F := F) X0 X1 X2 X3 X4 X5 X6⟩,
    ⟨main_v1215, Read.val_main_v1215 (F := F) X0 X1 X2 X3 X4 X5 X6⟩,
    ⟨main_v1216, Read.val_main_v1216 (F := F) X0 X1 X2 X3 X4 X5 X6⟩,
    ⟨main_v1217, Read.val_main_v1217 (F := F) X0 X1 X2 X3 X4 X5 X6⟩,
    ⟨main_v1218, Read.val_main_v1218 (F := F) X0 X1 X2 X3 X4 X5 X6⟩,
    ⟨main_v1219, Read.val_main_v1219 (F := F) X0 X1 X2 X3 X4 X5 X6⟩,
    ⟨main_v1220, Read.val_main_v1220 (F := F) X0 X1 X2 X3 X4 X5 X6⟩,
    ⟨main_v1221, Read.val_main_v1221 (F := F) X0 X1 X2 X3 X4 X5 X6⟩,
    ⟨main_v1222, Read.val_main_v1222 (F := F) X0 X1 X2 X3 X4 X5 X6⟩,
    ⟨main_v1223, Read.val_main_v1223 (F := F) X0 X1 X2 X3 X4 X5 X6⟩,
    ⟨main_v1224, Read.val_main_v1224 (F := F) X0 X1 X2 X3 X4 X5 X6⟩,
    ⟨main_v1225, Read.val_main_v1225 (F := F) X0 X1 X2 X3 X4 X5 X6⟩,
    ⟨main_v1226, Read.val_main_v1226 (F := F) X0 X1 X2 X3 X4 X5 X6⟩,
    ⟨main_v1227, Read.val_main_v1227 (F := F) X0 X1 X2 X3 X4 X5 X6⟩,
    ⟨main_v1228, Read.val_main_v1228 (F := F) X0 X1 X2 X3 X4 X5 X6⟩,
    ⟨main_v1229, Read.val_main_v1229 (F := F) X0 X1 X2 X3 X4 X5 X6⟩,
    ⟨main_v1230, Read.val_main_v1230 (F := F) X0 X1 X2 X3 X4 X5 X6⟩,
    ⟨main_v1231, Read.val_main_v1231 (F := F) X0 X1 X2 X3 X4 X5 X6⟩,
    ⟨main_v1232, Read.val_main_v1232 (F := F) X0 X1 X2 X3 X4 X5 X6⟩,
    ⟨main_v1233, Read.val_main_v1233 (F := F) X0 X1 X2 X3 X4 X5 X6⟩,
    ⟨main_v1234, Read.val_main_v1234 (F := F) X0 X1 X2 X3 X4 X5 X6⟩,
    ⟨main_v1235, Read.val_main_v1235 (F := F) X0 X1 X2 X3 X4 X5 X6⟩,
    ⟨main_v1236, Read.val_main_v1236 (F := F) X0 X1 X2 X3 X4 X5 X6⟩,
    ⟨main_v1237, Read.val_main_v1237 (F := F) X0 X1 X2 X3 X4 X5 X6⟩,
    ⟨main_v1238, Read.val_main_v1238 (F := F) X0 X1 X2 X3 X4 X5 X6⟩,
    ⟨main_v1239, Read.val_main_v1239 (F := F) X0 X1 X2 X3 X4 X5 X6⟩,
    ⟨main_v1240, Read.val_main_v1240 (F := F) X0 X1 X2 X3 X4 X5 X6⟩,
    ⟨main_v1241, Read.val_main_v1241 (F := F) X0 X1 X2 X3 X4 X5 X6⟩,
    ⟨main_v1242, Read.val_main_v1242 (F := F) X0 X1 X2 X3 X4 X5 X6⟩,
    ⟨main_v1243, Read.val_main_v1243 (F := F) X0 X1 X2 X3 X4 X5 X6⟩,
    ⟨main_v1244, Read.val_main_v1244 (F := F) X0 X1 X2 X3 X4 X5 X6⟩,
    ⟨main_v1245, Read.val_main_v1245 (F := F) X0 X1 X2 X3 X4 X5 X6⟩,
    ⟨main_v1246, Read.val_main_v1246 (F := F) X0 X1 X2 X3 X4 X5 X6⟩ ]
/-- The stages known after window 20, the newest first. -/
abbrev tbl_20 : List (Entry sig (Elt F)) := (ps_20 X0 X1 X2 X3 X4 X5 X6).reverse ++ tbl_19 X0 X1 X2 X3 X4 X5 X6
theorem up_20 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_19 X0 X1 X2 X3 X4 X5 X6) : e ∈ tbl_20 X0 X1 X2 X3 X4 X5 X6 := List.mem_append_right _ h
theorem in_20 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_20 X0 X1 X2 X3 X4 X5 X6).reverse[j]? = some e) : e ∈ tbl_20 X0 X1 X2 X3 X4 X5 X6 :=
  List.mem_append_left _ (List.mem_of_getElem? h)
set_option maxRecDepth 1000000 in
set_option maxHeartbeats 4000000 in
theorem chain_20 : Chain (tbl_19 X0 X1 X2 X3 X4 X5 X6) (7 + 1204) (ops_20 (F := F)) (ps_20 X0 X1 X2 X3 X4 X5 X6) :=
  ⟨⟨rfl, rfl, fun W hg => (binary_result main_v1185 main_v1186 main_v1187 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1185, Read.val_main_v1185 (F := F) X0 X1 X2 X3 X4 X5 X6⟩ (List.mem_of_mem_drop (i := 0) (in_19 X0 X1 X2 X3 X4 X5 X6 (j := 1) rfl))) (hg ⟨main_v1186, Read.val_main_v1186 (F := F) X0 X1 X2 X3 X4 X5 X6⟩ (List.mem_of_mem_drop (i := 0) (in_19 X0 X1 X2 X3 X4 X5 X6 (j := 0) rfl))))⟩,
   ⟨rfl, rfl, fun W hg => (binary_result main_v38 main_v704 main_v1188 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 1) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))))))) (hg ⟨main_v704, Read.val_main_v704 (F := F) X0 X1 X2 X3 X4 X5 X6⟩ (List.mem_of_mem_drop (i := 1) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 2) rfl))))))))))))⟩,
   ⟨rfl, rfl, fun W hg => (binary_result main_v1187 main_v1188 main_v1189 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1187, Read.val_main_v1187 (F := F) X0 X1 X2 X3 X4 X5 X6⟩ (List.mem_of_getElem? (i := 1) rfl)) (hg ⟨main_v1188, Read.val_main_v1188 (F := F) X0 X1 X2 X3 X4 X5 X6⟩ (List.mem_of_getElem? (i := 0) rfl)))⟩,
   ⟨rfl, rfl, fun W hg => (binary_result main_v28 main_v554 main_v1190 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 3) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))))))) (hg ⟨main_v554, Read.val_main_v554 (F := F) X0 X1 X2 X3 X4 X5 X6⟩ (List.mem_of_mem_drop (i := 3) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 32) rfl))))))))))))))⟩,
   ⟨rfl, rfl, fun W hg => (binary_result main_v40 main_v52 main_v1191 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 4) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))) (hg ⟨main_v52, Read.val_main_v52 (F := F) X0 X1 X2 X3 X4 X5 X6⟩ (List.mem_of_mem_drop (i := 4) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 2) rfl)))))))))))))))))))))))⟩,
   ⟨rfl, rfl, fun W hg => (binary_result main_v1190 main_v1191 main_v1192 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1190, Read.val_main_v1190 (F := F) X0 X1 X2 X3 X4 X5 X6⟩ (List.mem_of_getElem? (i := 1) rfl)) (hg ⟨main_v1191, Read.val_main_v1191 (F := F) X0 X1 X2 X3 X4 X5 X6⟩ (List.mem_of_getElem? (i := 0) rfl)))⟩,
   ⟨rfl, rfl, fun W hg => (binary_result main_v36 main_v68 main_v1193 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 6) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))))) (hg ⟨main_v68, Read.val_main_v68 (F := F) X0 X1 X2 X3 X4 X5 X6⟩ (List.mem_of_mem_drop (i := 6) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 42) rfl))))))))))))))))))))))⟩,
   ⟨rfl, rfl, fun W hg => (binary_result main_v1192 main_v1193 main_v1194 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1192, Read.val_main_v1192 (F := F) X0 X1 X2 X3 X4 X5 X6⟩ (List.mem_of_getElem? (i := 1) rfl)) (hg ⟨main_v1193, Read.val_main_v1193 (F := F) X0 X1 X2 X3 X4 X5 X6⟩ (List.mem_of_getElem? (i := 0) rfl)))⟩,
   ⟨rfl, rfl, fun W hg => (binary_result main_v40 main_v444 main_v1195 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 8) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))) (hg ⟨main_v444, Read.val_main_v444 (F := F) X0 X1 X2 X3 X4 X5 X6⟩ (List.mem_of_mem_drop (i := 8) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 22) rfl))))))))))))))))⟩,
   ⟨rfl, rfl, fun W hg => (binary_result main_v42 main_v1089 main_v1196 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 9) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))))))) (hg ⟨main_v1089, Read.val_main_v1089 (F := F) X0 X1 X2 X3 X4 X5 X6⟩ (List.mem_of_mem_drop (i := 9) (up_19 X0 X1 X2 X3 X4 X5 X6 (in_18 X0 X1 X2 X3 X4 X5 X6 (j := 37) rfl)))))⟩,
   ⟨rfl, rfl, fun W hg => (binary_result main_v1195 main_v1196 main_v1197 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1195, Read.val_main_v1195 (F := F) X0 X1 X2 X3 X4 X5 X6⟩ (List.mem_of_getElem? (i := 1) rfl)) (hg ⟨main_v1196, Read.val_main_v1196 (F := F) X0 X1 X2 X3 X4 X5 X6⟩ (List.mem_of_getElem? (i := 0) rfl)))⟩,
   ⟨rfl, rfl, fun W hg => (binary_result main_v26 main_v1144 main_v1198 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 11) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))))) (hg ⟨main_v1144, Read.val_main_v1144 (F := F) X0 X1 X2 X3 X4 X5 X6⟩ (List.mem_of_mem_drop (i := 11) (in_19 X0 X1 X2 X3 X4 X5 X6 (j := 42) rfl))))⟩,
   ⟨rfl, rfl, fun W hg => (binary_result main_v1197 main_v1198 main_v1199 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1197, Read.val_main_v1197 (F := F) X0 X1 X2 X3 X4 X5 X6⟩ (List.mem_of_getElem? (i := 1) rfl)) (hg ⟨main_v1198, Read.val_main_v1198 (F := F) X0 X1 X2 X3 X4 X5 X6⟩ (List.mem_of_getElem? (i := 0) rfl)))⟩,
   ⟨rfl, rfl, fun W hg => (binary_result main_v42 main_v394 main_v1200 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 13) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))))))) (hg ⟨main_v394, Read.val_main_v394 (F := F) X0 X1 X2 X3 X4 X5 X6⟩ (List.mem_of_mem_drop (i := 13) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 12) rfl)))))))))))))))))⟩,
   ⟨rfl, rfl, fun W hg => (binary_result main_v44 main_v879 main_v1201 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 14) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))))))) (hg ⟨main_v879, Read.val_main_v879 (F := F) X0 X1 X2 X3 X4 X5 X6⟩ (List.mem_of_mem_drop (i := 14) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (in_14 X0 X1 X2 X3 X4 X5 X6 (j := 7) rfl)))))))))⟩,
   ⟨rfl, rfl, fun W hg => (binary_result main_v1200 main_v1201 main_v1202 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1200, Read.val_main_v1200 (F := F) X0 X1 X2 X3 X4 X5 X6⟩ (List.mem_of_getElem? (i := 1) rfl)) (hg ⟨main_v1201, Read.val_main_v1201 (F := F) X0 X1 X2 X3 X4 X5 X6⟩ (List.mem_of_getElem? (i := 0) rfl)))⟩,
   ⟨rfl, rfl, fun W hg => (binary_result main_v26 main_v709 main_v1203 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 16) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))))) (hg ⟨main_v709, Read.val_main_v709 (F := F) X0 X1 X2 X3 X4 X5 X6⟩ (List.mem_of_mem_drop (i := 16) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (in_12 X0 X1 X2 X3 X4 X5 X6 (j := 57) rfl)))))))))))⟩,
   ⟨rfl, rfl, fun W hg => (binary_result main_v1202 main_v1203 main_v1204 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1202, Read.val_main_v1202 (F := F) X0 X1 X2 X3 X4 X5 X6⟩ (List.mem_of_getElem? (i := 1) rfl)) (hg ⟨main_v1203, Read.val_main_v1203 (F := F) X0 X1 X2 X3 X4 X5 X6⟩ (List.mem_of_getElem? (i := 0) rfl)))⟩,
   ⟨rfl, rfl, fun W hg => (binary_result main_v34 main_v60 main_v1205 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 18) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))))))))) (hg ⟨main_v60, Read.val_main_v60 (F := F) X0 X1 X2 X3 X4 X5 X6⟩ (List.mem_of_mem_drop (i := 18) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 52) rfl))))))))))))))))))))))⟩,
   ⟨rfl, rfl, fun W hg => (binary_result main_v44 main_v989 main_v1206 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 19) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))))))) (hg ⟨main_v989, Read.val_main_v989 (F := F) X0 X1 X2 X3 X4 X5 X6⟩ (List.mem_of_mem_drop (i := 19) (up_19 X0 X1 X2 X3 X4 X5 X6 (up_18 X0 X1 X2 X3 X4 X5 X6 (up_17 X0 X1 X2 X3 X4 X5 X6 (in_16 X0 X1 X2 X3 X4 X5 X6 (j := 17) rfl)))))))⟩,
   ⟨rfl, rfl, fun W hg => (binary_result main_v1205 main_v1206 main_v1207 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1205, Read.val_main_v1205 (F := F) X0 X1 X2 X3 X4 X5 X6⟩ (List.mem_of_getElem? (i := 1) rfl)) (hg ⟨main_v1206, Read.val_main_v1206 (F := F) X0 X1 X2 X3 X4 X5 X6⟩ (List.mem_of_getElem? (i := 0) rfl)))⟩,
   ⟨rfl, rfl, fun W hg => (binary_result main_v36 main_v1149 main_v1208 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 21) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))))) (hg ⟨main_v1149, Read.val_main_v1149 (F := F) X0 X1 X2 X3 X4 X5 X6⟩ (List.mem_of_mem_drop (i := 21) (in_19 X0 X1 X2 X3 X4 X5 X6 (j := 37) rfl))))⟩,
   ⟨rfl, rfl, fun W hg => (binary_result main_v1207 main_v1208 main_v1209 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1207, Read.val_main_v1207 (F := F) X0 X1 X2 X3 X4 X5 X6⟩ (List.mem_of_getElem? (i := 1) rfl)) (hg ⟨main_v1208, Read.val_main_v1208 (F := F) X0 X1 X2 X3 X4 X5 X6⟩ (List.mem_of_getElem? (i := 0) rfl)))⟩,
   ⟨rfl, rfl, fun W hg => (binary_result main_v42 main_v219 main_v1210 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 23) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))))))) (hg ⟨main_v219, Read.val_main_v219 (F := F) X0 X1 X2 X3 X4 X5 X6⟩ (List.mem_of_mem_drop (i := 23) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (in_3 X0 X1 X2 X3 X4 X5 X6 (j := 7) rfl))))))))))))))))))))⟩,
   ⟨rfl, rfl, fun W hg => (binary_result main_v26 main_v259 main_v1211 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 24) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))))) (hg ⟨main_v259, Read.val_main_v259 (F := F) X0 X1 X2 X3 X4 X5 X6⟩ (List.mem_of_mem_drop (i := 24) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 27) rfl)))))))))))))))))))⟩,
   ⟨rfl, rfl, fun W hg => (binary_result main_v1210 main_v1211 main_v1212 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1210, Read.val_main_v1210 (F := F) X0 X1 X2 X3 X4 X5 X6⟩ (List.mem_of_getElem? (i := 1) rfl)) (hg ⟨main_v1211, Read.val_main_v1211 (F := F) X0 X1 X2 X3 X4 X5 X6⟩ (List.mem_of_getElem? (i := 0) rfl)))⟩,
   ⟨rfl, rfl, fun W hg => (binary_result main_v36 main_v879 main_v1213 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 26) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))))) (hg ⟨main_v879, Read.val_main_v879 (F := F) X0 X1 X2 X3 X4 X5 X6⟩ (List.mem_of_mem_drop (i := 26) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (in_14 X0 X1 X2 X3 X4 X5 X6 (j := 7) rfl)))))))))⟩,
   ⟨rfl, rfl, fun W hg => (binary_result main_v1212 main_v1213 main_v1214 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1212, Read.val_main_v1212 (F := F) X0 X1 X2 X3 X4 X5 X6⟩ (List.mem_of_getElem? (i := 1) rfl)) (hg ⟨main_v1213, Read.val_main_v1213 (F := F) X0 X1 X2 X3 X4 X5 X6⟩ (List.mem_of_getElem? (i := 0) rfl)))⟩,
   ⟨rfl, rfl, fun W hg => (binary_result main_v26 main_v1209 main_v1215 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 28) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))))) (hg ⟨main_v1209, Read.val_main_v1209 (F := F) X0 X1 X2 X3 X4 X5 X6⟩ (List.mem_of_getElem? (i := 5) rfl)))⟩,
   ⟨rfl, rfl, fun W hg => (binary_result main_v30 main_v159 main_v1216 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 29) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))))))))) (hg ⟨main_v159, Read.val_main_v159 (F := F) X0 X1 X2 X3 X4 X5 X6⟩ (List.mem_of_mem_drop (i := 29) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 7) rfl)))))))))))))))))))))⟩,
   ⟨rfl, rfl, fun W hg => (binary_result main_v1215 main_v1216 main_v1217 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1215, Read.val_main_v1215 (F := F) X0 X1 X2 X3 X4 X5 X6⟩ (List.mem_of_getElem? (i := 1) rfl)) (hg ⟨main_v1216, Read.val_main_v1216 (F := F) X0 X1 X2 X3 X4 X5 X6⟩ (List.mem_of_getElem? (i := 0) rfl)))⟩,
   ⟨rfl, rfl, fun W hg => (binary_result main_v42 main_v1099 main_v1218 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 31) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))))))) (hg ⟨main_v1099, Read.val_main_v1099 (F := F) X0 X1 X2 X3 X4 X5 X6⟩ (List.mem_of_mem_drop (i := 31) (up_19 X0 X1 X2 X3 X4 X5 X6 (in_18 X0 X1 X2 X3 X4 X5 X6 (j := 27) rfl)))))⟩,
   ⟨rfl, rfl, fun W hg => (binary_result main_v1217 main_v1218 main_v1219 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1217, Read.val_main_v1217 (F := F) X0 X1 X2 X3 X4 X5 X6⟩ (List.mem_of_getElem? (i := 1) rfl)) (hg ⟨main_v1218, Read.val_main_v1218 (F := F) X0 X1 X2 X3 X4 X5 X6⟩ (List.mem_of_getElem? (i := 0) rfl)))⟩,
   ⟨rfl, rfl, fun W hg => (binary_result main_v40 main_v1174 main_v1220 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 33) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))) (hg ⟨main_v1174, Read.val_main_v1174 (F := F) X0 X1 X2 X3 X4 X5 X6⟩ (List.mem_of_mem_drop (i := 33) (in_19 X0 X1 X2 X3 X4 X5 X6 (j := 12) rfl))))⟩,
   ⟨rfl, rfl, fun W hg => (binary_result main_v36 main_v1159 main_v1221 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 34) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))))) (hg ⟨main_v1159, Read.val_main_v1159 (F := F) X0 X1 X2 X3 X4 X5 X6⟩ (List.mem_of_mem_drop (i := 34) (in_19 X0 X1 X2 X3 X4 X5 X6 (j := 27) rfl))))⟩,
   ⟨rfl, rfl, fun W hg => (binary_result main_v1220 main_v1221 main_v1222 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1220, Read.val_main_v1220 (F := F) X0 X1 X2 X3 X4 X5 X6⟩ (List.mem_of_getElem? (i := 1) rfl)) (hg ⟨main_v1221, Read.val_main_v1221 (F := F) X0 X1 X2 X3 X4 X5 X6⟩ (List.mem_of_getElem? (i := 0) rfl)))⟩,
   ⟨rfl, rfl, fun W hg => (binary_result main_v44 main_v439 main_v1223 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 36) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))))))) (hg ⟨main_v439, Read.val_main_v439 (F := F) X0 X1 X2 X3 X4 X5 X6⟩ (List.mem_of_mem_drop (i := 36) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 27) rfl))))))))))))))))⟩,
   ⟨rfl, rfl, fun W hg => (binary_result main_v1222 main_v1223 main_v1224 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1222, Read.val_main_v1222 (F := F) X0 X1 X2 X3 X4 X5 X6⟩ (List.mem_of_getElem? (i := 1) rfl)) (hg ⟨main_v1223, Read.val_main_v1223 (F := F) X0 X1 X2 X3 X4 X5 X6⟩ (List.mem_of_getElem? (i := 0) rfl)))⟩,
   ⟨rfl, rfl, fun W hg => (binary_result main_v36 main_v384 main_v1225 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 38) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))))) (hg ⟨main_v384, Read.val_main_v384 (F := F) X0 X1 X2 X3 X4 X5 X6⟩ (List.mem_of_mem_drop (i := 38) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 22) rfl)))))))))))))))))⟩,
   ⟨rfl, rfl, fun W hg => (binary_result main_v26 main_v714 main_v1226 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 39) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))))) (hg ⟨main_v714, Read.val_main_v714 (F := F) X0 X1 X2 X3 X4 X5 X6⟩ (List.mem_of_mem_drop (i := 39) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (in_12 X0 X1 X2 X3 X4 X5 X6 (j := 52) rfl)))))))))))⟩,
   ⟨rfl, rfl, fun W hg => (binary_result main_v1225 main_v1226 main_v1227 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1225, Read.val_main_v1225 (F := F) X0 X1 X2 X3 X4 X5 X6⟩ (List.mem_of_getElem? (i := 1) rfl)) (hg ⟨main_v1226, Read.val_main_v1226 (F := F) X0 X1 X2 X3 X4 X5 X6⟩ (List.mem_of_getElem? (i := 0) rfl)))⟩,
   ⟨rfl, rfl, fun W hg => (binary_result main_v40 main_v84 main_v1228 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 41) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))) (hg ⟨main_v84, Read.val_main_v84 (F := F) X0 X1 X2 X3 X4 X5 X6⟩ (List.mem_of_mem_drop (i := 41) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 22) rfl))))))))))))))))))))))⟩,
   ⟨rfl, rfl, fun W hg => (binary_result main_v1227 main_v1228 main_v1229 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1227, Read.val_main_v1227 (F := F) X0 X1 X2 X3 X4 X5 X6⟩ (List.mem_of_getElem? (i := 1) rfl)) (hg ⟨main_v1228, Read.val_main_v1228 (F := F) X0 X1 X2 X3 X4 X5 X6⟩ (List.mem_of_getElem? (i := 0) rfl)))⟩,
   ⟨rfl, rfl, fun W hg => (binary_result main_v26 main_v894 main_v1230 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 43) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))))) (hg ⟨main_v894, Read.val_main_v894 (F := F) X0 X1 X2 X3 X4 X5 X6⟩ (List.mem_of_mem_drop (i := 43) (up_19 X0 X1 X2 X3 X4 X5 X6 (up_18 X0 X1 X2 X3 X4 X5 X6 (up_17 X0 X1 X2 X3 X4 X5 X6 (up_16 X0 X1 X2 X3 X4 X5 X6 (in_15 X0 X1 X2 X3 X4 X5 X6 (j := 52) rfl))))))))⟩,
   ⟨rfl, rfl, fun W hg => (binary_result main_v30 main_v339 main_v1231 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 44) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))))))))) (hg ⟨main_v339, Read.val_main_v339 (F := F) X0 X1 X2 X3 X4 X5 X6⟩ (List.mem_of_mem_drop (i := 44) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 7) rfl))))))))))))))))))⟩,
   ⟨rfl, rfl, fun W hg => (binary_result main_v1230 main_v1231 main_v1232 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1230, Read.val_main_v1230 (F := F) X0 X1 X2 X3 X4 X5 X6⟩ (List.mem_of_getElem? (i := 1) rfl)) (hg ⟨main_v1231, Read.val_main_v1231 (F := F) X0 X1 X2 X3 X4 X5 X6⟩ (List.mem_of_getElem? (i := 0) rfl)))⟩,
   ⟨rfl, rfl, fun W hg => (binary_result main_v36 main_v1069 main_v1233 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 46) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))))) (hg ⟨main_v1069, Read.val_main_v1069 (F := F) X0 X1 X2 X3 X4 X5 X6⟩ (List.mem_of_mem_drop (i := 46) (up_19 X0 X1 X2 X3 X4 X5 X6 (in_18 X0 X1 X2 X3 X4 X5 X6 (j := 57) rfl)))))⟩,
   ⟨rfl, rfl, fun W hg => (binary_result main_v1232 main_v1233 main_v1234 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1232, Read.val_main_v1232 (F := F) X0 X1 X2 X3 X4 X5 X6⟩ (List.mem_of_getElem? (i := 1) rfl)) (hg ⟨main_v1233, Read.val_main_v1233 (F := F) X0 X1 X2 X3 X4 X5 X6⟩ (List.mem_of_getElem? (i := 0) rfl)))⟩,
   ⟨rfl, rfl, fun W hg => (binary_result main_v30 main_v38 main_v1235 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 48) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))))))))) (hg ⟨main_v38, Read.val_main_v38 (F := F) X0 X1 X2 X3 X4 X5 X6⟩ (List.mem_of_mem_drop (i := 48) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))))))))⟩,
   ⟨rfl, rfl, fun W hg => (binary_result main_v40 main_v429 main_v1236 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 49) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))) (hg ⟨main_v429, Read.val_main_v429 (F := F) X0 X1 X2 X3 X4 X5 X6⟩ (List.mem_of_mem_drop (i := 49) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 37) rfl))))))))))))))))⟩,
   ⟨rfl, rfl, fun W hg => (binary_result main_v1235 main_v1236 main_v1237 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1235, Read.val_main_v1235 (F := F) X0 X1 X2 X3 X4 X5 X6⟩ (List.mem_of_getElem? (i := 1) rfl)) (hg ⟨main_v1236, Read.val_main_v1236 (F := F) X0 X1 X2 X3 X4 X5 X6⟩ (List.mem_of_getElem? (i := 0) rfl)))⟩,
   ⟨rfl, rfl, fun W hg => (binary_result main_v28 main_v1219 main_v1238 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 51) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))))))) (hg ⟨main_v1219, Read.val_main_v1219 (F := F) X0 X1 X2 X3 X4 X5 X6⟩ (List.mem_of_getElem? (i := 18) rfl)))⟩,
   ⟨rfl, rfl, fun W hg => (binary_result main_v1237 main_v1238 main_v1239 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1237, Read.val_main_v1237 (F := F) X0 X1 X2 X3 X4 X5 X6⟩ (List.mem_of_getElem? (i := 1) rfl)) (hg ⟨main_v1238, Read.val_main_v1238 (F := F) X0 X1 X2 X3 X4 X5 X6⟩ (List.mem_of_getElem? (i := 0) rfl)))⟩,
   ⟨rfl, rfl, fun W hg => (binary_result main_v38 main_v60 main_v1240 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 53) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))))))) (hg ⟨main_v60, Read.val_main_v60 (F := F) X0 X1 X2 X3 X4 X5 X6⟩ (List.mem_of_mem_drop (i := 53) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 52) rfl))))))))))))))))))))))⟩,
   ⟨rfl, rfl, fun W hg => (binary_result main_v40 main_v624 main_v1241 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 54) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))) (hg ⟨main_v624, Read.val_main_v624 (F := F) X0 X1 X2 X3 X4 X5 X6⟩ (List.mem_of_mem_drop (i := 54) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (in_10 X0 X1 X2 X3 X4 X5 X6 (j := 22) rfl)))))))))))))⟩,
   ⟨rfl, rfl, fun W hg => (binary_result main_v1240 main_v1241 main_v1242 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1240, Read.val_main_v1240 (F := F) X0 X1 X2 X3 X4 X5 X6⟩ (List.mem_of_getElem? (i := 1) rfl)) (hg ⟨main_v1241, Read.val_main_v1241 (F := F) X0 X1 X2 X3 X4 X5 X6⟩ (List.mem_of_getElem? (i := 0) rfl)))⟩,
   ⟨rfl, rfl, fun W hg => (binary_result main_v42 main_v554 main_v1243 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 56) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))))))) (hg ⟨main_v554, Read.val_main_v554 (F := F) X0 X1 X2 X3 X4 X5 X6⟩ (List.mem_of_mem_drop (i := 56) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 32) rfl))))))))))))))⟩,
   ⟨rfl, rfl, fun W hg => (binary_result main_v1242 main_v1243 main_v1244 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1242, Read.val_main_v1242 (F := F) X0 X1 X2 X3 X4 X5 X6⟩ (List.mem_of_getElem? (i := 1) rfl)) (hg ⟨main_v1243, Read.val_main_v1243 (F := F) X0 X1 X2 X3 X4 X5 X6⟩ (List.mem_of_getElem? (i := 0) rfl)))⟩,
   ⟨rfl, rfl, fun W hg => (binary_result main_v40 main_v1199 main_v1245 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 58) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))) (hg ⟨main_v1199, Read.val_main_v1199 (F := F) X0 X1 X2 X3 X4 X5 X6⟩ (List.mem_of_getElem? (i := 45) rfl)))⟩,
   ⟨rfl, rfl, fun W hg => (binary_result main_v44 main_v799 main_v1246 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 59) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))))))) (hg ⟨main_v799, Read.val_main_v799 (F := F) X0 X1 X2 X3 X4 X5 X6⟩ (List.mem_of_mem_drop (i := 59) (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (in_13 X0 X1 X2 X3 X4 X5 X6 (j := 27) rfl))))))))))⟩,
   trivial⟩
theorem good_20 (W : Valuation τ sig (Elt F)) (hg : Good W (tbl_19 X0 X1 X2 X3 X4 X5 X6) (7 + 1204)) :
    Good (after ops_20 W) (tbl_20 X0 X1 X2 X3 X4 X5 X6) (7 + 1264) :=
  Good.after _ _ _ _ W hg (chain_20 X0 X1 X2 X3 X4 X5 X6)

theorem part_eq_21 (c : Dev nD) : main_part21 (F := F) c = seq ops_21 := rfl
theorem fresh_21 : (ops_21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 21's operations write, in order. -/
abbrev ps_21 : List (Entry sig (Elt F)) :=
  [ ⟨main_v1247, Read.val_main_v1247 (F := F) X0 X1 X2 X3 X4 X5 X6⟩,
    ⟨main_v1248, Read.val_main_v1248 (F := F) X0 X1 X2 X3 X4 X5 X6⟩,
    ⟨main_v1249, Read.val_main_v1249 (F := F) X0 X1 X2 X3 X4 X5 X6⟩,
    ⟨main_v1250, Read.val_main_v1250 (F := F) X0 X1 X2 X3 X4 X5 X6⟩,
    ⟨main_v1251, Read.val_main_v1251 (F := F) X0 X1 X2 X3 X4 X5 X6⟩,
    ⟨main_v1252, Read.val_main_v1252 (F := F) X0 X1 X2 X3 X4 X5 X6⟩,
    ⟨main_v1253, Read.val_main_v1253 (F := F) X0 X1 X2 X3 X4 X5 X6⟩,
    ⟨main_v1254, Read.val_main_v1254 (F := F) X0 X1 X2 X3 X4 X5 X6⟩,
    ⟨main_v1255, Read.val_main_v1255 (F := F) X0 X1 X2 X3 X4 X5 X6⟩,
    ⟨main_v1256, Read.val_main_v1256 (F := F) X0 X1 X2 X3 X4 X5 X6⟩,
    ⟨main_v1257, Read.val_main_v1257 (F := F) X0 X1 X2 X3 X4 X5 X6⟩,
    ⟨main_v1258, Read.val_main_v1258 (F := F) X0 X1 X2 X3 X4 X5 X6⟩,
    ⟨main_v1259, Read.val_main_v1259 (F := F) X0 X1 X2 X3 X4 X5 X6⟩,
    ⟨main_v1260, Read.val_main_v1260 (F := F) X0 X1 X2 X3 X4 X5 X6⟩,
    ⟨main_v1261, Read.val_main_v1261 (F := F) X0 X1 X2 X3 X4 X5 X6⟩,
    ⟨main_v1262, Read.val_main_v1262 (F := F) X0 X1 X2 X3 X4 X5 X6⟩,
    ⟨main_v1263, Read.val_main_v1263 (F := F) X0 X1 X2 X3 X4 X5 X6⟩,
    ⟨main_v1264, Read.val_main_v1264 (F := F) X0 X1 X2 X3 X4 X5 X6⟩,
    ⟨main_v1265, Read.val_main_v1265 (F := F) X0 X1 X2 X3 X4 X5 X6⟩,
    ⟨main_v1266, Read.val_main_v1266 (F := F) X0 X1 X2 X3 X4 X5 X6⟩,
    ⟨main_v1267, Read.val_main_v1267 (F := F) X0 X1 X2 X3 X4 X5 X6⟩,
    ⟨main_v1268, Read.val_main_v1268 (F := F) X0 X1 X2 X3 X4 X5 X6⟩,
    ⟨main_v1269, Read.val_main_v1269 (F := F) X0 X1 X2 X3 X4 X5 X6⟩,
    ⟨main_v1270, Read.val_main_v1270 (F := F) X0 X1 X2 X3 X4 X5 X6⟩,
    ⟨main_v1271, Read.val_main_v1271 (F := F) X0 X1 X2 X3 X4 X5 X6⟩,
    ⟨main_v1272, Read.val_main_v1272 (F := F) X0 X1 X2 X3 X4 X5 X6⟩,
    ⟨main_v1273, Read.val_main_v1273 (F := F) X0 X1 X2 X3 X4 X5 X6⟩,
    ⟨main_v1274, Read.val_main_v1274 (F := F) X0 X1 X2 X3 X4 X5 X6⟩,
    ⟨main_v1275, Read.val_main_v1275 (F := F) X0 X1 X2 X3 X4 X5 X6⟩,
    ⟨main_v1276, Read.val_main_v1276 (F := F) X0 X1 X2 X3 X4 X5 X6⟩,
    ⟨main_v1277, Read.val_main_v1277 (F := F) X0 X1 X2 X3 X4 X5 X6⟩,
    ⟨main_v1278, Read.val_main_v1278 (F := F) X0 X1 X2 X3 X4 X5 X6⟩,
    ⟨main_v1279, Read.val_main_v1279 (F := F) X0 X1 X2 X3 X4 X5 X6⟩,
    ⟨main_v1280, Read.val_main_v1280 (F := F) X0 X1 X2 X3 X4 X5 X6⟩,
    ⟨main_v1281, Read.val_main_v1281 (F := F) X0 X1 X2 X3 X4 X5 X6⟩,
    ⟨main_v1282, Read.val_main_v1282 (F := F) X0 X1 X2 X3 X4 X5 X6⟩,
    ⟨main_v1283, Read.val_main_v1283 (F := F) X0 X1 X2 X3 X4 X5 X6⟩,
    ⟨main_v1284, Read.val_main_v1284 (F := F) X0 X1 X2 X3 X4 X5 X6⟩,
    ⟨main_v1285, Read.val_main_v1285 (F := F) X0 X1 X2 X3 X4 X5 X6⟩,
    ⟨main_v1286, Read.val_main_v1286 (F := F) X0 X1 X2 X3 X4 X5 X6⟩,
    ⟨main_v1287, Read.val_main_v1287 (F := F) X0 X1 X2 X3 X4 X5 X6⟩,
    ⟨main_v1288, Read.val_main_v1288 (F := F) X0 X1 X2 X3 X4 X5 X6⟩,
    ⟨main_v1289, Read.val_main_v1289 (F := F) X0 X1 X2 X3 X4 X5 X6⟩,
    ⟨main_v1290, Read.val_main_v1290 (F := F) X0 X1 X2 X3 X4 X5 X6⟩,
    ⟨main_v1291, Read.val_main_v1291 (F := F) X0 X1 X2 X3 X4 X5 X6⟩,
    ⟨main_v1292, Read.val_main_v1292 (F := F) X0 X1 X2 X3 X4 X5 X6⟩,
    ⟨main_v1293, Read.val_main_v1293 (F := F) X0 X1 X2 X3 X4 X5 X6⟩,
    ⟨main_v1294, Read.val_main_v1294 (F := F) X0 X1 X2 X3 X4 X5 X6⟩,
    ⟨main_v1295, Read.val_main_v1295 (F := F) X0 X1 X2 X3 X4 X5 X6⟩,
    ⟨main_v1296, Read.val_main_v1296 (F := F) X0 X1 X2 X3 X4 X5 X6⟩,
    ⟨main_v1297, Read.val_main_v1297 (F := F) X0 X1 X2 X3 X4 X5 X6⟩,
    ⟨main_v1298, Read.val_main_v1298 (F := F) X0 X1 X2 X3 X4 X5 X6⟩,
    ⟨main_v1299, Read.val_main_v1299 (F := F) X0 X1 X2 X3 X4 X5 X6⟩,
    ⟨main_v1300, Read.val_main_v1300 (F := F) X0 X1 X2 X3 X4 X5 X6⟩,
    ⟨main_v1301, Read.val_main_v1301 (F := F) X0 X1 X2 X3 X4 X5 X6⟩,
    ⟨main_v1302, Read.val_main_v1302 (F := F) X0 X1 X2 X3 X4 X5 X6⟩,
    ⟨main_v1303, Read.val_main_v1303 (F := F) X0 X1 X2 X3 X4 X5 X6⟩,
    ⟨main_v1304, Read.val_main_v1304 (F := F) X0 X1 X2 X3 X4 X5 X6⟩,
    ⟨main_v1305, Read.val_main_v1305 (F := F) X0 X1 X2 X3 X4 X5 X6⟩,
    ⟨main_v1306, Read.val_main_v1306 (F := F) X0 X1 X2 X3 X4 X5 X6⟩ ]
/-- The stages known after window 21, the newest first. -/
abbrev tbl_21 : List (Entry sig (Elt F)) := (ps_21 X0 X1 X2 X3 X4 X5 X6).reverse ++ tbl_20 X0 X1 X2 X3 X4 X5 X6
theorem up_21 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_20 X0 X1 X2 X3 X4 X5 X6) : e ∈ tbl_21 X0 X1 X2 X3 X4 X5 X6 := List.mem_append_right _ h
theorem in_21 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_21 X0 X1 X2 X3 X4 X5 X6).reverse[j]? = some e) : e ∈ tbl_21 X0 X1 X2 X3 X4 X5 X6 :=
  List.mem_append_left _ (List.mem_of_getElem? h)
set_option maxRecDepth 1000000 in
set_option maxHeartbeats 4000000 in
theorem chain_21 : Chain (tbl_20 X0 X1 X2 X3 X4 X5 X6) (7 + 1264) (ops_21 (F := F)) (ps_21 X0 X1 X2 X3 X4 X5 X6) :=
  ⟨⟨rfl, rfl, fun W hg => (binary_result main_v1245 main_v1246 main_v1247 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1245, Read.val_main_v1245 (F := F) X0 X1 X2 X3 X4 X5 X6⟩ (List.mem_of_mem_drop (i := 0) (in_20 X0 X1 X2 X3 X4 X5 X6 (j := 1) rfl))) (hg ⟨main_v1246, Read.val_main_v1246 (F := F) X0 X1 X2 X3 X4 X5 X6⟩ (List.mem_of_mem_drop (i := 0) (in_20 X0 X1 X2 X3 X4 X5 X6 (j := 0) rfl))))⟩,
   ⟨rfl, rfl, fun W hg => (binary_result main_v26 main_v1129 main_v1248 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 1) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))))))))) (hg ⟨main_v1129, Read.val_main_v1129 (F := F) X0 X1 X2 X3 X4 X5 X6⟩ (List.mem_of_mem_drop (i := 1) (up_20 X0 X1 X2 X3 X4 X5 X6 (in_19 X0 X1 X2 X3 X4 X5 X6 (j := 57) rfl)))))⟩,
   ⟨rfl, rfl, fun W hg => (binary_result main_v1247 main_v1248 main_v1249 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1247, Read.val_main_v1247 (F := F) X0 X1 X2 X3 X4 X5 X6⟩ (List.mem_of_getElem? (i := 1) rfl)) (hg ⟨main_v1248, Read.val_main_v1248 (F := F) X0 X1 X2 X3 X4 X5 X6⟩ (List.mem_of_getElem? (i := 0) rfl)))⟩,
   ⟨rfl, rfl, fun W hg => (binary_result main_v42 main_v654 main_v1250 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 3) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))))))))) (hg ⟨main_v654, Read.val_main_v654 (F := F) X0 X1 X2 X3 X4 X5 X6⟩ (List.mem_of_mem_drop (i := 3) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 52) rfl)))))))))))))⟩,
   ⟨rfl, rfl, fun W hg => (binary_result main_v36 main_v404 main_v1251 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 4) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))))))) (hg ⟨main_v404, Read.val_main_v404 (F := F) X0 X1 X2 X3 X4 X5 X6⟩ (List.mem_of_mem_drop (i := 4) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 2) rfl))))))))))))))))))⟩,
   ⟨rfl, rfl, fun W hg => (binary_result main_v1250 main_v1251 main_v1252 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1250, Read.val_main_v1250 (F := F) X0 X1 X2 X3 X4 X5 X6⟩ (List.mem_of_getElem? (i := 1) rfl)) (hg ⟨main_v1251, Read.val_main_v1251 (F := F) X0 X1 X2 X3 X4 X5 X6⟩ (List.mem_of_getElem? (i := 0) rfl)))⟩,
   ⟨rfl, rfl, fun W hg => (binary_result main_v26 main_v984 main_v1253 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 6) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))))))))) (hg ⟨main_v984, Read.val_main_v984 (F := F) X0 X1 X2 X3 X4 X5 X6⟩ (List.mem_of_mem_drop (i := 6) (up_20 X0 X1 X2 X3 X4 X5 X6 (up_19 X0 X1 X2 X3 X4 X5 X6 (up_18 X0 X1 X2 X3 X4 X5 X6 (up_17 X0 X1 X2 X3 X4 X5 X6 (in_16 X0 X1 X2 X3 X4 X5 X6 (j := 22) rfl))))))))⟩,
   ⟨rfl, rfl, fun W hg => (binary_result main_v1252 main_v1253 main_v1254 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1252, Read.val_main_v1252 (F := F) X0 X1 X2 X3 X4 X5 X6⟩ (List.mem_of_getElem? (i := 1) rfl)) (hg ⟨main_v1253, Read.val_main_v1253 (F := F) X0 X1 X2 X3 X4 X5 X6⟩ (List.mem_of_getElem? (i := 0) rfl)))⟩,
   ⟨rfl, rfl, fun W hg => (binary_result main_v38 main_v1199 main_v1255 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 8) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))))))))))) (hg ⟨main_v1199, Read.val_main_v1199 (F := F) X0 X1 X2 X3 X4 X5 X6⟩ (List.mem_of_mem_drop (i := 8) (in_20 X0 X1 X2 X3 X4 X5 X6 (j := 47) rfl))))⟩,
   ⟨rfl, rfl, fun W hg => (binary_result main_v36 main_v529 main_v1256 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 9) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))))))) (hg ⟨main_v529, Read.val_main_v529 (F := F) X0 X1 X2 X3 X4 X5 X6⟩ (List.mem_of_mem_drop (i := 9) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 57) rfl)))))))))))))))⟩,
   ⟨rfl, rfl, fun W hg => (binary_result main_v1255 main_v1256 main_v1257 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1255, Read.val_main_v1255 (F := F) X0 X1 X2 X3 X4 X5 X6⟩ (List.mem_of_getElem? (i := 1) rfl)) (hg ⟨main_v1256, Read.val_main_v1256 (F := F) X0 X1 X2 X3 X4 X5 X6⟩ (List.mem_of_getElem? (i := 0) rfl)))⟩,
   ⟨rfl, rfl, fun W hg => (binary_result main_v44 main_v674 main_v1258 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 11) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))))))) (hg ⟨main_v674, Read.val_main_v674 (F := F) X0 X1 X2 X3 X4 X5 X6⟩ (List.mem_of_mem_drop (i := 11) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 32) rfl)))))))))))))⟩,
   ⟨rfl, rfl, fun W hg => (binary_result main_v1257 main_v1258 main_v1259 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1257, Read.val_main_v1257 (F := F) X0 X1 X2 X3 X4 X5 X6⟩ (List.mem_of_getElem? (i := 1) rfl)) (hg ⟨main_v1258, Read.val_main_v1258 (F := F) X0 X1 X2 X3 X4 X5 X6⟩ (List.mem_of_getElem? (i := 0) rfl)))⟩,
   ⟨rfl, rfl, fun W hg => (binary_result main_v30 main_v299 main_v1260 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 13) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))))))))) (hg ⟨main_v299, Read.val_main_v299 (F := F) X0 X1 X2 X3 X4 X5 X6⟩ (List.mem_of_mem_drop (i := 13) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 47) rfl)))))))))))))))))))⟩,
   ⟨rfl, rfl, fun W hg => (binary_result main_v34 main_v344 main_v1261 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 14) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))))))))) (hg ⟨main_v344, Read.val_main_v344 (F := F) X0 X1 X2 X3 X4 X5 X6⟩ (List.mem_of_mem_drop (i := 14) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 2) rfl)))))))))))))))))))⟩,
   ⟨rfl, rfl, fun W hg => (binary_result main_v1260 main_v1261 main_v1262 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1260, Read.val_main_v1260 (F := F) X0 X1 X2 X3 X4 X5 X6⟩ (List.mem_of_getElem? (i := 1) rfl)) (hg ⟨main_v1261, Read.val_main_v1261 (F := F) X0 X1 X2 X3 X4 X5 X6⟩ (List.mem_of_getElem? (i := 0) rfl)))⟩,
   ⟨rfl, rfl, fun W hg => (binary_result main_v26 main_v459 main_v1263 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 16) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))))))))) (hg ⟨main_v459, Read.val_main_v459 (F := F) X0 X1 X2 X3 X4 X5 X6⟩ (List.mem_of_mem_drop (i := 16) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 7) rfl)))))))))))))))))⟩,
   ⟨rfl, rfl, fun W hg => (binary_result main_v1262 main_v1263 main_v1264 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1262, Read.val_main_v1262 (F := F) X0 X1 X2 X3 X4 X5 X6⟩ (List.mem_of_getElem? (i := 1) rfl)) (hg ⟨main_v1263, Read.val_main_v1263 (F := F) X0 X1 X2 X3 X4 X5 X6⟩ (List.mem_of_getElem? (i := 0) rfl)))⟩,
   ⟨rfl, rfl, fun W hg => (binary_result main_v40 main_v739 main_v1265 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 18) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl))))))))))))))))))))))) (hg ⟨main_v739, Read.val_main_v739 (F := F) X0 X1 X2 X3 X4 X5 X6⟩ (List.mem_of_mem_drop (i := 18) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (in_12 X0 X1 X2 X3 X4 X5 X6 (j := 27) rfl))))))))))))⟩,
   ⟨rfl, rfl, fun W hg => (binary_result main_v30 main_v909 main_v1266 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 19) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))))))))) (hg ⟨main_v909, Read.val_main_v909 (F := F) X0 X1 X2 X3 X4 X5 X6⟩ (List.mem_of_mem_drop (i := 19) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (in_15 X0 X1 X2 X3 X4 X5 X6 (j := 37) rfl)))))))))⟩,
   ⟨rfl, rfl, fun W hg => (binary_result main_v1265 main_v1266 main_v1267 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1265, Read.val_main_v1265 (F := F) X0 X1 X2 X3 X4 X5 X6⟩ (List.mem_of_getElem? (i := 1) rfl)) (hg ⟨main_v1266, Read.val_main_v1266 (F := F) X0 X1 X2 X3 X4 X5 X6⟩ (List.mem_of_getElem? (i := 0) rfl)))⟩,
   ⟨rfl, rfl, fun W hg => (binary_result main_v42 main_v379 main_v1268 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 21) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))))))))) (hg ⟨main_v379, Read.val_main_v379 (F := F) X0 X1 X2 X3 X4 X5 X6⟩ (List.mem_of_mem_drop (i := 21) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 27) rfl))))))))))))))))))⟩,
   ⟨rfl, rfl, fun W hg => (binary_result main_v1267 main_v1268 main_v1269 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1267, Read.val_main_v1267 (F := F) X0 X1 X2 X3 X4 X5 X6⟩ (List.mem_of_getElem? (i := 1) rfl)) (hg ⟨main_v1268, Read.val_main_v1268 (F := F) X0 X1 X2 X3 X4 X5 X6⟩ (List.mem_of_getElem? (i := 0) rfl)))⟩,
   ⟨rfl, rfl, fun W hg => (binary_result main_v30 main_v739 main_v1270 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 23) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))))))))) (hg ⟨main_v739, Read.val_main_v739 (F := F) X0 X1 X2 X3 X4 X5 X6⟩ (List.mem_of_mem_drop (i := 23) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (in_12 X0 X1 X2 X3 X4 X5 X6 (j := 27) rfl))))))))))))⟩,
   ⟨rfl, rfl, fun W hg => (binary_result main_v38 main_v1154 main_v1271 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 24) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))))))))))) (hg ⟨main_v1154, Read.val_main_v1154 (F := F) X0 X1 X2 X3 X4 X5 X6⟩ (List.mem_of_mem_drop (i := 24) (up_20 X0 X1 X2 X3 X4 X5 X6 (in_19 X0 X1 X2 X3 X4 X5 X6 (j := 32) rfl)))))⟩,
   ⟨rfl, rfl, fun W hg => (binary_result main_v1270 main_v1271 main_v1272 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1270, Read.val_main_v1270 (F := F) X0 X1 X2 X3 X4 X5 X6⟩ (List.mem_of_getElem? (i := 1) rfl)) (hg ⟨main_v1271, Read.val_main_v1271 (F := F) X0 X1 X2 X3 X4 X5 X6⟩ (List.mem_of_getElem? (i := 0) rfl)))⟩,
   ⟨rfl, rfl, fun W hg => (binary_result main_v32 main_v874 main_v1273 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 26) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))))))) (hg ⟨main_v874, Read.val_main_v874 (F := F) X0 X1 X2 X3 X4 X5 X6⟩ (List.mem_of_mem_drop (i := 26) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (in_14 X0 X1 X2 X3 X4 X5 X6 (j := 12) rfl))))))))))⟩,
   ⟨rfl, rfl, fun W hg => (binary_result main_v1272 main_v1273 main_v1274 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1272, Read.val_main_v1272 (F := F) X0 X1 X2 X3 X4 X5 X6⟩ (List.mem_of_getElem? (i := 1) rfl)) (hg ⟨main_v1273, Read.val_main_v1273 (F := F) X0 X1 X2 X3 X4 X5 X6⟩ (List.mem_of_getElem? (i := 0) rfl)))⟩,
   ⟨rfl, rfl, fun W hg => (binary_result main_v34 main_v409 main_v1275 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 28) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))))))))) (hg ⟨main_v409, Read.val_main_v409 (F := F) X0 X1 X2 X3 X4 X5 X6⟩ (List.mem_of_mem_drop (i := 28) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 57) rfl)))))))))))))))))⟩,
   ⟨rfl, rfl, fun W hg => (binary_result main_v42 main_v1039 main_v1276 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 29) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))))))))) (hg ⟨main_v1039, Read.val_main_v1039 (F := F) X0 X1 X2 X3 X4 X5 X6⟩ (List.mem_of_mem_drop (i := 29) (up_20 X0 X1 X2 X3 X4 X5 X6 (up_19 X0 X1 X2 X3 X4 X5 X6 (up_18 X0 X1 X2 X3 X4 X5 X6 (in_17 X0 X1 X2 X3 X4 X5 X6 (j := 27) rfl)))))))⟩,
   ⟨rfl, rfl, fun W hg => (binary_result main_v1275 main_v1276 main_v1277 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1275, Read.val_main_v1275 (F := F) X0 X1 X2 X3 X4 X5 X6⟩ (List.mem_of_getElem? (i := 1) rfl)) (hg ⟨main_v1276, Read.val_main_v1276 (F := F) X0 X1 X2 X3 X4 X5 X6⟩ (List.mem_of_getElem? (i := 0) rfl)))⟩,
   ⟨rfl, rfl, fun W hg => (binary_result main_v36 main_v564 main_v1278 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 31) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))))))) (hg ⟨main_v564, Read.val_main_v564 (F := F) X0 X1 X2 X3 X4 X5 X6⟩ (List.mem_of_mem_drop (i := 31) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 22) rfl)))))))))))))))⟩,
   ⟨rfl, rfl, fun W hg => (binary_result main_v1277 main_v1278 main_v1279 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1277, Read.val_main_v1277 (F := F) X0 X1 X2 X3 X4 X5 X6⟩ (List.mem_of_getElem? (i := 1) rfl)) (hg ⟨main_v1278, Read.val_main_v1278 (F := F) X0 X1 X2 X3 X4 X5 X6⟩ (List.mem_of_getElem? (i := 0) rfl)))⟩,
   ⟨rfl, rfl, fun W hg => (binary_result main_v32 main_v809 main_v1280 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 33) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))))))) (hg ⟨main_v809, Read.val_main_v809 (F := F) X0 X1 X2 X3 X4 X5 X6⟩ (List.mem_of_mem_drop (i := 33) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (in_13 X0 X1 X2 X3 X4 X5 X6 (j := 17) rfl)))))))))))⟩,
   ⟨rfl, rfl, fun W hg => (binary_result main_v42 main_v479 main_v1281 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 34) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl))))))))))))))))))))))) (hg ⟨main_v479, Read.val_main_v479 (F := F) X0 X1 X2 X3 X4 X5 X6⟩ (List.mem_of_mem_drop (i := 34) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 47) rfl))))))))))))))))⟩,
   ⟨rfl, rfl, fun W hg => (binary_result main_v1280 main_v1281 main_v1282 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1280, Read.val_main_v1280 (F := F) X0 X1 X2 X3 X4 X5 X6⟩ (List.mem_of_getElem? (i := 1) rfl)) (hg ⟨main_v1281, Read.val_main_v1281 (F := F) X0 X1 X2 X3 X4 X5 X6⟩ (List.mem_of_getElem? (i := 0) rfl)))⟩,
   ⟨rfl, rfl, fun W hg => (binary_result main_v36 main_v284 main_v1283 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 36) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))))))) (hg ⟨main_v284, Read.val_main_v284 (F := F) X0 X1 X2 X3 X4 X5 X6⟩ (List.mem_of_mem_drop (i := 36) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 2) rfl))))))))))))))))))))⟩,
   ⟨rfl, rfl, fun W hg => (binary_result main_v1282 main_v1283 main_v1284 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1282, Read.val_main_v1282 (F := F) X0 X1 X2 X3 X4 X5 X6⟩ (List.mem_of_getElem? (i := 1) rfl)) (hg ⟨main_v1283, Read.val_main_v1283 (F := F) X0 X1 X2 X3 X4 X5 X6⟩ (List.mem_of_getElem? (i := 0) rfl)))⟩,
   ⟨rfl, rfl, fun W hg => (binary_result main_v34 main_v824 main_v1285 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 38) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))))))))) (hg ⟨main_v824, Read.val_main_v824 (F := F) X0 X1 X2 X3 X4 X5 X6⟩ (List.mem_of_mem_drop (i := 38) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (in_13 X0 X1 X2 X3 X4 X5 X6 (j := 2) rfl)))))))))))⟩,
   ⟨rfl, rfl, fun W hg => (binary_result main_v28 main_v56 main_v1286 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 39) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))))))))) (hg ⟨main_v56, Read.val_main_v56 (F := F) X0 X1 X2 X3 X4 X5 X6⟩ (List.mem_of_mem_drop (i := 39) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 57) rfl)))))))))))))))))))))))⟩,
   ⟨rfl, rfl, fun W hg => (binary_result main_v1285 main_v1286 main_v1287 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1285, Read.val_main_v1285 (F := F) X0 X1 X2 X3 X4 X5 X6⟩ (List.mem_of_getElem? (i := 1) rfl)) (hg ⟨main_v1286, Read.val_main_v1286 (F := F) X0 X1 X2 X3 X4 X5 X6⟩ (List.mem_of_getElem? (i := 0) rfl)))⟩,
   ⟨rfl, rfl, fun W hg => (binary_result main_v36 main_v589 main_v1288 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 41) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))))))) (hg ⟨main_v589, Read.val_main_v589 (F := F) X0 X1 X2 X3 X4 X5 X6⟩ (List.mem_of_mem_drop (i := 41) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (in_10 X0 X1 X2 X3 X4 X5 X6 (j := 57) rfl))))))))))))))⟩,
   ⟨rfl, rfl, fun W hg => (binary_result main_v1287 main_v1288 main_v1289 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1287, Read.val_main_v1287 (F := F) X0 X1 X2 X3 X4 X5 X6⟩ (List.mem_of_getElem? (i := 1) rfl)) (hg ⟨main_v1288, Read.val_main_v1288 (F := F) X0 X1 X2 X3 X4 X5 X6⟩ (List.mem_of_getElem? (i := 0) rfl)))⟩,
   ⟨rfl, rfl, fun W hg => (binary_result main_v44 main_v669 main_v1290 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 43) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))))))) (hg ⟨main_v669, Read.val_main_v669 (F := F) X0 X1 X2 X3 X4 X5 X6⟩ (List.mem_of_mem_drop (i := 43) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 37) rfl)))))))))))))⟩,
   ⟨rfl, rfl, fun W hg => (binary_result main_v32 main_v254 main_v1291 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 44) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))))))) (hg ⟨main_v254, Read.val_main_v254 (F := F) X0 X1 X2 X3 X4 X5 X6⟩ (List.mem_of_mem_drop (i := 44) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 32) rfl))))))))))))))))))))⟩,
   ⟨rfl, rfl, fun W hg => (binary_result main_v1290 main_v1291 main_v1292 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1290, Read.val_main_v1290 (F := F) X0 X1 X2 X3 X4 X5 X6⟩ (List.mem_of_getElem? (i := 1) rfl)) (hg ⟨main_v1291, Read.val_main_v1291 (F := F) X0 X1 X2 X3 X4 X5 X6⟩ (List.mem_of_getElem? (i := 0) rfl)))⟩,
   ⟨rfl, rfl, fun W hg => (binary_result main_v26 main_v1039 main_v1293 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 46) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl))))))))))))))))))))))) (hg ⟨main_v1039, Read.val_main_v1039 (F := F) X0 X1 X2 X3 X4 X5 X6⟩ (List.mem_of_mem_drop (i := 46) (up_20 X0 X1 X2 X3 X4 X5 X6 (up_19 X0 X1 X2 X3 X4 X5 X6 (up_18 X0 X1 X2 X3 X4 X5 X6 (in_17 X0 X1 X2 X3 X4 X5 X6 (j := 27) rfl)))))))⟩,
   ⟨rfl, rfl, fun W hg => (binary_result main_v1292 main_v1293 main_v1294 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1292, Read.val_main_v1292 (F := F) X0 X1 X2 X3 X4 X5 X6⟩ (List.mem_of_getElem? (i := 1) rfl)) (hg ⟨main_v1293, Read.val_main_v1293 (F := F) X0 X1 X2 X3 X4 X5 X6⟩ (List.mem_of_getElem? (i := 0) rfl)))⟩,
   ⟨rfl, rfl, fun W hg => (binary_result main_v28 main_v744 main_v1295 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 48) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))))))))) (hg ⟨main_v744, Read.val_main_v744 (F := F) X0 X1 X2 X3 X4 X5 X6⟩ (List.mem_of_mem_drop (i := 48) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (in_12 X0 X1 X2 X3 X4 X5 X6 (j := 22) rfl))))))))))))⟩,
   ⟨rfl, rfl, fun W hg => (binary_result main_v34 main_v1259 main_v1296 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 49) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl))))))))))))))))))))))) (hg ⟨main_v1259, Read.val_main_v1259 (F := F) X0 X1 X2 X3 X4 X5 X6⟩ (List.mem_of_getElem? (i := 36) rfl)))⟩,
   ⟨rfl, rfl, fun W hg => (binary_result main_v1295 main_v1296 main_v1297 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1295, Read.val_main_v1295 (F := F) X0 X1 X2 X3 X4 X5 X6⟩ (List.mem_of_getElem? (i := 1) rfl)) (hg ⟨main_v1296, Read.val_main_v1296 (F := F) X0 X1 X2 X3 X4 X5 X6⟩ (List.mem_of_getElem? (i := 0) rfl)))⟩,
   ⟨rfl, rfl, fun W hg => (binary_result main_v30 main_v1199 main_v1298 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 51) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl))))))))))))))))))))))) (hg ⟨main_v1199, Read.val_main_v1199 (F := F) X0 X1 X2 X3 X4 X5 X6⟩ (List.mem_of_mem_drop (i := 51) (in_20 X0 X1 X2 X3 X4 X5 X6 (j := 47) rfl))))⟩,
   ⟨rfl, rfl, fun W hg => (binary_result main_v1297 main_v1298 main_v1299 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1297, Read.val_main_v1297 (F := F) X0 X1 X2 X3 X4 X5 X6⟩ (List.mem_of_getElem? (i := 1) rfl)) (hg ⟨main_v1298, Read.val_main_v1298 (F := F) X0 X1 X2 X3 X4 X5 X6⟩ (List.mem_of_getElem? (i := 0) rfl)))⟩,
   ⟨rfl, rfl, fun W hg => (binary_result main_v44 main_v1184 main_v1300 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 53) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl))))))))))))))))))))))) (hg ⟨main_v1184, Read.val_main_v1184 (F := F) X0 X1 X2 X3 X4 X5 X6⟩ (List.mem_of_mem_drop (i := 53) (up_20 X0 X1 X2 X3 X4 X5 X6 (in_19 X0 X1 X2 X3 X4 X5 X6 (j := 2) rfl)))))⟩,
   ⟨rfl, rfl, fun W hg => (binary_result main_v28 main_v864 main_v1301 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 54) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl))))))))))))))))))))))) (hg ⟨main_v864, Read.val_main_v864 (F := F) X0 X1 X2 X3 X4 X5 X6⟩ (List.mem_of_mem_drop (i := 54) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (in_14 X0 X1 X2 X3 X4 X5 X6 (j := 22) rfl))))))))))⟩,
   ⟨rfl, rfl, fun W hg => (binary_result main_v1300 main_v1301 main_v1302 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1300, Read.val_main_v1300 (F := F) X0 X1 X2 X3 X4 X5 X6⟩ (List.mem_of_getElem? (i := 1) rfl)) (hg ⟨main_v1301, Read.val_main_v1301 (F := F) X0 X1 X2 X3 X4 X5 X6⟩ (List.mem_of_getElem? (i := 0) rfl)))⟩,
   ⟨rfl, rfl, fun W hg => (binary_result main_v32 main_v109 main_v1303 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 56) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl))))))))))))))))))))))) (hg ⟨main_v109, Read.val_main_v109 (F := F) X0 X1 X2 X3 X4 X5 X6⟩ (List.mem_of_mem_drop (i := 56) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 57) rfl))))))))))))))))))))))⟩,
   ⟨rfl, rfl, fun W hg => (binary_result main_v1302 main_v1303 main_v1304 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1302, Read.val_main_v1302 (F := F) X0 X1 X2 X3 X4 X5 X6⟩ (List.mem_of_getElem? (i := 1) rfl)) (hg ⟨main_v1303, Read.val_main_v1303 (F := F) X0 X1 X2 X3 X4 X5 X6⟩ (List.mem_of_getElem? (i := 0) rfl)))⟩,
   ⟨rfl, rfl, fun W hg => (binary_result main_v38 main_v624 main_v1305 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 58) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl))))))))))))))))))))))) (hg ⟨main_v624, Read.val_main_v624 (F := F) X0 X1 X2 X3 X4 X5 X6⟩ (List.mem_of_mem_drop (i := 58) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (in_10 X0 X1 X2 X3 X4 X5 X6 (j := 22) rfl))))))))))))))⟩,
   ⟨rfl, rfl, fun W hg => (binary_result main_v36 main_v584 main_v1306 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 59) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl))))))))))))))))))))))) (hg ⟨main_v584, Read.val_main_v584 (F := F) X0 X1 X2 X3 X4 X5 X6⟩ (List.mem_of_mem_drop (i := 59) (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 2) rfl)))))))))))))))⟩,
   trivial⟩
theorem good_21 (W : Valuation τ sig (Elt F)) (hg : Good W (tbl_20 X0 X1 X2 X3 X4 X5 X6) (7 + 1264)) :
    Good (after ops_21 W) (tbl_21 X0 X1 X2 X3 X4 X5 X6) (7 + 1324) :=
  Good.after _ _ _ _ W hg (chain_21 X0 X1 X2 X3 X4 X5 X6)

theorem part_eq_22 (c : Dev nD) : main_part22 (F := F) c = seq ops_22 := rfl
theorem fresh_22 : (ops_22 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The stages window 22's operations write, in order. -/
abbrev ps_22 : List (Entry sig (Elt F)) :=
  [ ⟨main_v1307, Read.val_main_v1307 (F := F) X0 X1 X2 X3 X4 X5 X6⟩,
    ⟨main_v1308, Read.val_main_v1308 (F := F) X0 X1 X2 X3 X4 X5 X6⟩,
    ⟨main_v1309, Read.val_main_v1309 (F := F) X0 X1 X2 X3 X4 X5 X6⟩,
    ⟨main_v1310, Read.val_main_v1310 (F := F) X0 X1 X2 X3 X4 X5 X6⟩,
    ⟨main_v1311, Read.val_main_v1311 (F := F) X0 X1 X2 X3 X4 X5 X6⟩,
    ⟨main_v1312, Read.val_main_v1312 (F := F) X0 X1 X2 X3 X4 X5 X6⟩,
    ⟨main_v1313, Read.val_main_v1313 (F := F) X0 X1 X2 X3 X4 X5 X6⟩,
    ⟨main_v1314, Read.val_main_v1314 (F := F) X0 X1 X2 X3 X4 X5 X6⟩,
    ⟨main_v1315, Read.val_main_v1315 (F := F) X0 X1 X2 X3 X4 X5 X6⟩,
    ⟨main_v1316, Read.val_main_v1316 (F := F) X0 X1 X2 X3 X4 X5 X6⟩,
    ⟨main_v1317, Read.val_main_v1317 (F := F) X0 X1 X2 X3 X4 X5 X6⟩,
    ⟨main_v1318, Read.val_main_v1318 (F := F) X0 X1 X2 X3 X4 X5 X6⟩,
    ⟨main_v1319, Read.val_main_v1319 (F := F) X0 X1 X2 X3 X4 X5 X6⟩,
    ⟨main_v1320, Read.val_main_v1320 (F := F) X0 X1 X2 X3 X4 X5 X6⟩,
    ⟨main_v1321, Read.val_main_v1321 (F := F) X0 X1 X2 X3 X4 X5 X6⟩,
    ⟨main_v1322, Read.val_main_v1322 (F := F) X0 X1 X2 X3 X4 X5 X6⟩,
    ⟨main_v1323, Read.val_main_v1323 (F := F) X0 X1 X2 X3 X4 X5 X6⟩,
    ⟨main_v1324, Read.val_main_v1324 (F := F) X0 X1 X2 X3 X4 X5 X6⟩,
    ⟨main_v1325, Read.val_main_v1325 (F := F) X0 X1 X2 X3 X4 X5 X6⟩,
    ⟨main_v1326, Read.val_main_v1326 (F := F) X0 X1 X2 X3 X4 X5 X6⟩,
    ⟨main_v1327, Read.val_main_v1327 (F := F) X0 X1 X2 X3 X4 X5 X6⟩,
    ⟨main_v1328, Read.val_main_v1328 (F := F) X0 X1 X2 X3 X4 X5 X6⟩,
    ⟨main_v1329, Read.val_main_v1329 (F := F) X0 X1 X2 X3 X4 X5 X6⟩,
    ⟨main_v1330, Read.val_main_v1330 (F := F) X0 X1 X2 X3 X4 X5 X6⟩,
    ⟨main_v1331, Read.val_main_v1331 (F := F) X0 X1 X2 X3 X4 X5 X6⟩,
    ⟨main_v1332, Read.val_main_v1332 (F := F) X0 X1 X2 X3 X4 X5 X6⟩,
    ⟨main_v1333, Read.val_main_v1333 (F := F) X0 X1 X2 X3 X4 X5 X6⟩,
    ⟨main_v1334, Read.val_main_v1334 (F := F) X0 X1 X2 X3 X4 X5 X6⟩,
    ⟨main_v1335, Read.val_main_v1335 (F := F) X0 X1 X2 X3 X4 X5 X6⟩,
    ⟨main_v1336, Read.val_main_v1336 (F := F) X0 X1 X2 X3 X4 X5 X6⟩,
    ⟨main_v1337, Read.val_main_v1337 (F := F) X0 X1 X2 X3 X4 X5 X6⟩,
    ⟨main_v1338, Read.val_main_v1338 (F := F) X0 X1 X2 X3 X4 X5 X6⟩,
    ⟨main_v1339, Read.val_main_v1339 (F := F) X0 X1 X2 X3 X4 X5 X6⟩,
    ⟨main_v1340, Read.val_main_v1340 (F := F) X0 X1 X2 X3 X4 X5 X6⟩,
    ⟨main_v1341, Read.val_main_v1341 (F := F) X0 X1 X2 X3 X4 X5 X6⟩,
    ⟨main_v1342, Read.val_main_v1342 (F := F) X0 X1 X2 X3 X4 X5 X6⟩,
    ⟨main_v1343, Read.val_main_v1343 (F := F) X0 X1 X2 X3 X4 X5 X6⟩,
    ⟨main_v1344, Read.val_main_v1344 (F := F) X0 X1 X2 X3 X4 X5 X6⟩,
    ⟨main_v1345, Read.val_main_v1345 (F := F) X0 X1 X2 X3 X4 X5 X6⟩,
    ⟨main_v1346, Read.val_main_v1346 (F := F) X0 X1 X2 X3 X4 X5 X6⟩,
    ⟨main_v1347, Read.val_main_v1347 (F := F) X0 X1 X2 X3 X4 X5 X6⟩,
    ⟨main_v1348, Read.val_main_v1348 (F := F) X0 X1 X2 X3 X4 X5 X6⟩,
    ⟨main_v1349, Read.val_main_v1349 (F := F) X0 X1 X2 X3 X4 X5 X6⟩,
    ⟨main_v1350, Read.val_main_v1350 (F := F) X0 X1 X2 X3 X4 X5 X6⟩,
    ⟨main_v1351, Read.val_main_v1351 (F := F) X0 X1 X2 X3 X4 X5 X6⟩,
    ⟨main_v1352, Read.val_main_v1352 (F := F) X0 X1 X2 X3 X4 X5 X6⟩,
    ⟨main_v1353, Read.val_main_v1353 (F := F) X0 X1 X2 X3 X4 X5 X6⟩,
    ⟨main_v1354, Read.val_main_v1354 (F := F) X0 X1 X2 X3 X4 X5 X6⟩,
    ⟨main_v1355, Read.val_main_v1355 (F := F) X0 X1 X2 X3 X4 X5 X6⟩,
    ⟨main_v1356, Read.val_main_v1356 (F := F) X0 X1 X2 X3 X4 X5 X6⟩,
    ⟨main_v1357, Read.val_main_v1357 (F := F) X0 X1 X2 X3 X4 X5 X6⟩,
    ⟨main_v1358, Read.val_main_v1358 (F := F) X0 X1 X2 X3 X4 X5 X6⟩,
    ⟨main_v1359, Read.val_main_v1359 (F := F) X0 X1 X2 X3 X4 X5 X6⟩,
    ⟨main_v1360, Read.val_main_v1360 (F := F) X0 X1 X2 X3 X4 X5 X6⟩,
    ⟨main_v1361, Read.val_main_v1361 (F := F) X0 X1 X2 X3 X4 X5 X6⟩,
    ⟨main_v1362, Read.val_main_v1362 (F := F) X0 X1 X2 X3 X4 X5 X6⟩,
    ⟨main_v1363, Read.val_main_v1363 (F := F) X0 X1 X2 X3 X4 X5 X6⟩,
    ⟨main_v1364, Read.val_main_v1364 (F := F) X0 X1 X2 X3 X4 X5 X6⟩ ]
/-- The stages known after window 22, the newest first. -/
abbrev tbl_22 : List (Entry sig (Elt F)) := (ps_22 X0 X1 X2 X3 X4 X5 X6).reverse ++ tbl_21 X0 X1 X2 X3 X4 X5 X6
theorem up_22 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} (h : e ∈ tbl_21 X0 X1 X2 X3 X4 X5 X6) : e ∈ tbl_22 X0 X1 X2 X3 X4 X5 X6 := List.mem_append_right _ h
theorem in_22 (X0 : (⟨S8192x784, .f32⟩ : BufTy).Contents (Elt F)) (X1 : (⟨S784x4096, .f32⟩ : BufTy).Contents (Elt F)) (X2 : (⟨S4096, .f32⟩ : BufTy).Contents (Elt F)) (X3 : (⟨S4096x4096, .f32⟩ : BufTy).Contents (Elt F)) (X4 : (⟨S4096, .f32⟩ : BufTy).Contents (Elt F)) (X5 : (⟨S4096x10, .f32⟩ : BufTy).Contents (Elt F)) (X6 : (⟨S10, .f32⟩ : BufTy).Contents (Elt F)) {e : Entry sig (Elt F)} {j : Nat} (h : (ps_22 X0 X1 X2 X3 X4 X5 X6).reverse[j]? = some e) : e ∈ tbl_22 X0 X1 X2 X3 X4 X5 X6 :=
  List.mem_append_left _ (List.mem_of_getElem? h)
set_option maxRecDepth 1000000 in
set_option maxHeartbeats 4000000 in
theorem chain_22 : Chain (tbl_21 X0 X1 X2 X3 X4 X5 X6) (7 + 1324) (ops_22 (F := F)) (ps_22 X0 X1 X2 X3 X4 X5 X6) :=
  ⟨⟨rfl, rfl, fun W hg => (binary_result main_v1305 main_v1306 main_v1307 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1305, Read.val_main_v1305 (F := F) X0 X1 X2 X3 X4 X5 X6⟩ (List.mem_of_mem_drop (i := 0) (in_21 X0 X1 X2 X3 X4 X5 X6 (j := 1) rfl))) (hg ⟨main_v1306, Read.val_main_v1306 (F := F) X0 X1 X2 X3 X4 X5 X6⟩ (List.mem_of_mem_drop (i := 0) (in_21 X0 X1 X2 X3 X4 X5 X6 (j := 0) rfl))))⟩,
   ⟨rfl, rfl, fun W hg => (binary_result main_v44 main_v1064 main_v1308 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 1) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))))))))) (hg ⟨main_v1064, Read.val_main_v1064 (F := F) X0 X1 X2 X3 X4 X5 X6⟩ (List.mem_of_mem_drop (i := 1) (up_21 X0 X1 X2 X3 X4 X5 X6 (up_20 X0 X1 X2 X3 X4 X5 X6 (up_19 X0 X1 X2 X3 X4 X5 X6 (up_18 X0 X1 X2 X3 X4 X5 X6 (in_17 X0 X1 X2 X3 X4 X5 X6 (j := 2) rfl))))))))⟩,
   ⟨rfl, rfl, fun W hg => (binary_result main_v1307 main_v1308 main_v1309 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1307, Read.val_main_v1307 (F := F) X0 X1 X2 X3 X4 X5 X6⟩ (List.mem_of_getElem? (i := 1) rfl)) (hg ⟨main_v1308, Read.val_main_v1308 (F := F) X0 X1 X2 X3 X4 X5 X6⟩ (List.mem_of_getElem? (i := 0) rfl)))⟩,
   ⟨rfl, rfl, fun W hg => (binary_result main_v40 main_v1129 main_v1310 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 3) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))))) (hg ⟨main_v1129, Read.val_main_v1129 (F := F) X0 X1 X2 X3 X4 X5 X6⟩ (List.mem_of_mem_drop (i := 3) (up_21 X0 X1 X2 X3 X4 X5 X6 (up_20 X0 X1 X2 X3 X4 X5 X6 (in_19 X0 X1 X2 X3 X4 X5 X6 (j := 57) rfl))))))⟩,
   ⟨rfl, rfl, fun W hg => (binary_result main_v28 main_v264 main_v1311 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 4) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))))))))) (hg ⟨main_v264, Read.val_main_v264 (F := F) X0 X1 X2 X3 X4 X5 X6⟩ (List.mem_of_mem_drop (i := 4) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (in_4 X0 X1 X2 X3 X4 X5 X6 (j := 22) rfl)))))))))))))))))))))⟩,
   ⟨rfl, rfl, fun W hg => (binary_result main_v1310 main_v1311 main_v1312 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1310, Read.val_main_v1310 (F := F) X0 X1 X2 X3 X4 X5 X6⟩ (List.mem_of_getElem? (i := 1) rfl)) (hg ⟨main_v1311, Read.val_main_v1311 (F := F) X0 X1 X2 X3 X4 X5 X6⟩ (List.mem_of_getElem? (i := 0) rfl)))⟩,
   ⟨rfl, rfl, fun W hg => (binary_result main_v36 main_v164 main_v1313 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 6) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))))))) (hg ⟨main_v164, Read.val_main_v164 (F := F) X0 X1 X2 X3 X4 X5 X6⟩ (List.mem_of_mem_drop (i := 6) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 2) rfl)))))))))))))))))))))))⟩,
   ⟨rfl, rfl, fun W hg => (binary_result main_v1312 main_v1313 main_v1314 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1312, Read.val_main_v1312 (F := F) X0 X1 X2 X3 X4 X5 X6⟩ (List.mem_of_getElem? (i := 1) rfl)) (hg ⟨main_v1313, Read.val_main_v1313 (F := F) X0 X1 X2 X3 X4 X5 X6⟩ (List.mem_of_getElem? (i := 0) rfl)))⟩,
   ⟨rfl, rfl, fun W hg => (binary_result main_v26 main_v299 main_v1315 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 8) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))))))) (hg ⟨main_v299, Read.val_main_v299 (F := F) X0 X1 X2 X3 X4 X5 X6⟩ (List.mem_of_mem_drop (i := 8) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 47) rfl))))))))))))))))))))⟩,
   ⟨rfl, rfl, fun W hg => (binary_result main_v44 main_v299 main_v1316 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v44, Read.val_main_v44 (F := F) X0 X1 X2 X3 X4 X5 X6⟩ (List.mem_of_mem_drop (i := 9) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))))))))) (hg ⟨main_v299, Read.val_main_v299 (F := F) X0 X1 X2 X3 X4 X5 X6⟩ (List.mem_of_mem_drop (i := 9) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 47) rfl))))))))))))))))))))⟩,
   ⟨rfl, rfl, fun W hg => (binary_result main_v1315 main_v1316 main_v1317 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1315, Read.val_main_v1315 (F := F) X0 X1 X2 X3 X4 X5 X6⟩ (List.mem_of_getElem? (i := 1) rfl)) (hg ⟨main_v1316, Read.val_main_v1316 (F := F) X0 X1 X2 X3 X4 X5 X6⟩ (List.mem_of_getElem? (i := 0) rfl)))⟩,
   ⟨rfl, rfl, fun W hg => (binary_result main_v38 main_v1244 main_v1318 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 11) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))))))))) (hg ⟨main_v1244, Read.val_main_v1244 (F := F) X0 X1 X2 X3 X4 X5 X6⟩ (List.mem_of_mem_drop (i := 11) (up_21 X0 X1 X2 X3 X4 X5 X6 (in_20 X0 X1 X2 X3 X4 X5 X6 (j := 2) rfl)))))⟩,
   ⟨rfl, rfl, fun W hg => (binary_result main_v1317 main_v1318 main_v1319 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1317, Read.val_main_v1317 (F := F) X0 X1 X2 X3 X4 X5 X6⟩ (List.mem_of_getElem? (i := 1) rfl)) (hg ⟨main_v1318, Read.val_main_v1318 (F := F) X0 X1 X2 X3 X4 X5 X6⟩ (List.mem_of_getElem? (i := 0) rfl)))⟩,
   ⟨rfl, rfl, fun W hg => (binary_result main_v40 main_v694 main_v1320 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 13) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))))) (hg ⟨main_v694, Read.val_main_v694 (F := F) X0 X1 X2 X3 X4 X5 X6⟩ (List.mem_of_mem_drop (i := 13) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 12) rfl))))))))))))))⟩,
   ⟨rfl, rfl, fun W hg => (binary_result main_v30 main_v1269 main_v1321 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v30, Read.val_main_v30 (F := F) X0 X1 X2 X3 X4 X5 X6⟩ (List.mem_of_mem_drop (i := 14) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 26) rfl)))))))))))))))))))))))) (hg ⟨main_v1269, Read.val_main_v1269 (F := F) X0 X1 X2 X3 X4 X5 X6⟩ (List.mem_of_mem_drop (i := 14) (in_21 X0 X1 X2 X3 X4 X5 X6 (j := 37) rfl))))⟩,
   ⟨rfl, rfl, fun W hg => (binary_result main_v1320 main_v1321 main_v1322 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1320, Read.val_main_v1320 (F := F) X0 X1 X2 X3 X4 X5 X6⟩ (List.mem_of_getElem? (i := 1) rfl)) (hg ⟨main_v1321, Read.val_main_v1321 (F := F) X0 X1 X2 X3 X4 X5 X6⟩ (List.mem_of_getElem? (i := 0) rfl)))⟩,
   ⟨rfl, rfl, fun W hg => (binary_result main_v26 main_v1094 main_v1323 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 16) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))))))) (hg ⟨main_v1094, Read.val_main_v1094 (F := F) X0 X1 X2 X3 X4 X5 X6⟩ (List.mem_of_mem_drop (i := 16) (up_21 X0 X1 X2 X3 X4 X5 X6 (up_20 X0 X1 X2 X3 X4 X5 X6 (up_19 X0 X1 X2 X3 X4 X5 X6 (in_18 X0 X1 X2 X3 X4 X5 X6 (j := 32) rfl)))))))⟩,
   ⟨rfl, rfl, fun W hg => (binary_result main_v1322 main_v1323 main_v1324 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1322, Read.val_main_v1322 (F := F) X0 X1 X2 X3 X4 X5 X6⟩ (List.mem_of_getElem? (i := 1) rfl)) (hg ⟨main_v1323, Read.val_main_v1323 (F := F) X0 X1 X2 X3 X4 X5 X6⟩ (List.mem_of_getElem? (i := 0) rfl)))⟩,
   ⟨rfl, rfl, fun W hg => (binary_result main_v38 main_v72 main_v1325 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 18) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))))))))) (hg ⟨main_v72, Read.val_main_v72 (F := F) X0 X1 X2 X3 X4 X5 X6⟩ (List.mem_of_mem_drop (i := 18) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 37) rfl))))))))))))))))))))))))⟩,
   ⟨rfl, rfl, fun W hg => (binary_result main_v40 main_v1004 main_v1326 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 19) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))))) (hg ⟨main_v1004, Read.val_main_v1004 (F := F) X0 X1 X2 X3 X4 X5 X6⟩ (List.mem_of_mem_drop (i := 19) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (in_16 X0 X1 X2 X3 X4 X5 X6 (j := 2) rfl)))))))))⟩,
   ⟨rfl, rfl, fun W hg => (binary_result main_v1325 main_v1326 main_v1327 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1325, Read.val_main_v1325 (F := F) X0 X1 X2 X3 X4 X5 X6⟩ (List.mem_of_getElem? (i := 1) rfl)) (hg ⟨main_v1326, Read.val_main_v1326 (F := F) X0 X1 X2 X3 X4 X5 X6⟩ (List.mem_of_getElem? (i := 0) rfl)))⟩,
   ⟨rfl, rfl, fun W hg => (binary_result main_v36 main_v44 main_v1328 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 21) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))))))) (hg ⟨main_v44, Read.val_main_v44 (F := F) X0 X1 X2 X3 X4 X5 X6⟩ (List.mem_of_mem_drop (i := 21) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 12) rfl)))))))))))))))))))))))))⟩,
   ⟨rfl, rfl, fun W hg => (binary_result main_v1327 main_v1328 main_v1329 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1327, Read.val_main_v1327 (F := F) X0 X1 X2 X3 X4 X5 X6⟩ (List.mem_of_getElem? (i := 1) rfl)) (hg ⟨main_v1328, Read.val_main_v1328 (F := F) X0 X1 X2 X3 X4 X5 X6⟩ (List.mem_of_getElem? (i := 0) rfl)))⟩,
   ⟨rfl, rfl, fun W hg => (binary_result main_v38 main_v754 main_v1330 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 23) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))))))))) (hg ⟨main_v754, Read.val_main_v754 (F := F) X0 X1 X2 X3 X4 X5 X6⟩ (List.mem_of_mem_drop (i := 23) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (in_12 X0 X1 X2 X3 X4 X5 X6 (j := 12) rfl)))))))))))))⟩,
   ⟨rfl, rfl, fun W hg => (binary_result main_v32 main_v544 main_v1331 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 24) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))))))))))) (hg ⟨main_v544, Read.val_main_v544 (F := F) X0 X1 X2 X3 X4 X5 X6⟩ (List.mem_of_mem_drop (i := 24) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 42) rfl))))))))))))))))⟩,
   ⟨rfl, rfl, fun W hg => (binary_result main_v1330 main_v1331 main_v1332 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1330, Read.val_main_v1330 (F := F) X0 X1 X2 X3 X4 X5 X6⟩ (List.mem_of_getElem? (i := 1) rfl)) (hg ⟨main_v1331, Read.val_main_v1331 (F := F) X0 X1 X2 X3 X4 X5 X6⟩ (List.mem_of_getElem? (i := 0) rfl)))⟩,
   ⟨rfl, rfl, fun W hg => (binary_result main_v42 main_v369 main_v1333 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 26) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))))))))) (hg ⟨main_v369, Read.val_main_v369 (F := F) X0 X1 X2 X3 X4 X5 X6⟩ (List.mem_of_mem_drop (i := 26) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (in_6 X0 X1 X2 X3 X4 X5 X6 (j := 37) rfl)))))))))))))))))))⟩,
   ⟨rfl, rfl, fun W hg => (binary_result main_v1332 main_v1333 main_v1334 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1332, Read.val_main_v1332 (F := F) X0 X1 X2 X3 X4 X5 X6⟩ (List.mem_of_getElem? (i := 1) rfl)) (hg ⟨main_v1333, Read.val_main_v1333 (F := F) X0 X1 X2 X3 X4 X5 X6⟩ (List.mem_of_getElem? (i := 0) rfl)))⟩,
   ⟨rfl, rfl, fun W hg => (binary_result main_v40 main_v56 main_v1335 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 28) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))))) (hg ⟨main_v56, Read.val_main_v56 (F := F) X0 X1 X2 X3 X4 X5 X6⟩ (List.mem_of_mem_drop (i := 28) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (in_1 X0 X1 X2 X3 X4 X5 X6 (j := 57) rfl))))))))))))))))))))))))⟩,
   ⟨rfl, rfl, fun W hg => (binary_result main_v26 main_v479 main_v1336 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 29) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))))))) (hg ⟨main_v479, Read.val_main_v479 (F := F) X0 X1 X2 X3 X4 X5 X6⟩ (List.mem_of_mem_drop (i := 29) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 47) rfl)))))))))))))))))⟩,
   ⟨rfl, rfl, fun W hg => (binary_result main_v1335 main_v1336 main_v1337 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1335, Read.val_main_v1335 (F := F) X0 X1 X2 X3 X4 X5 X6⟩ (List.mem_of_getElem? (i := 1) rfl)) (hg ⟨main_v1336, Read.val_main_v1336 (F := F) X0 X1 X2 X3 X4 X5 X6⟩ (List.mem_of_getElem? (i := 0) rfl)))⟩,
   ⟨rfl, rfl, fun W hg => (binary_result main_v28 main_v654 main_v1338 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 31) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))))))))) (hg ⟨main_v654, Read.val_main_v654 (F := F) X0 X1 X2 X3 X4 X5 X6⟩ (List.mem_of_mem_drop (i := 31) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (in_11 X0 X1 X2 X3 X4 X5 X6 (j := 52) rfl))))))))))))))⟩,
   ⟨rfl, rfl, fun W hg => (binary_result main_v1337 main_v1338 main_v1339 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1337, Read.val_main_v1337 (F := F) X0 X1 X2 X3 X4 X5 X6⟩ (List.mem_of_getElem? (i := 1) rfl)) (hg ⟨main_v1338, Read.val_main_v1338 (F := F) X0 X1 X2 X3 X4 X5 X6⟩ (List.mem_of_getElem? (i := 0) rfl)))⟩,
   ⟨rfl, rfl, fun W hg => (binary_result main_v38 main_v109 main_v1340 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v38, Read.val_main_v38 (F := F) X0 X1 X2 X3 X4 X5 X6⟩ (List.mem_of_mem_drop (i := 33) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 18) rfl)))))))))))))))))))))))) (hg ⟨main_v109, Read.val_main_v109 (F := F) X0 X1 X2 X3 X4 X5 X6⟩ (List.mem_of_mem_drop (i := 33) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 57) rfl)))))))))))))))))))))))⟩,
   ⟨rfl, rfl, fun W hg => (binary_result main_v28 main_v1079 main_v1341 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 34) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))))))))) (hg ⟨main_v1079, Read.val_main_v1079 (F := F) X0 X1 X2 X3 X4 X5 X6⟩ (List.mem_of_mem_drop (i := 34) (up_21 X0 X1 X2 X3 X4 X5 X6 (up_20 X0 X1 X2 X3 X4 X5 X6 (up_19 X0 X1 X2 X3 X4 X5 X6 (in_18 X0 X1 X2 X3 X4 X5 X6 (j := 47) rfl)))))))⟩,
   ⟨rfl, rfl, fun W hg => (binary_result main_v1340 main_v1341 main_v1342 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1340, Read.val_main_v1340 (F := F) X0 X1 X2 X3 X4 X5 X6⟩ (List.mem_of_getElem? (i := 1) rfl)) (hg ⟨main_v1341, Read.val_main_v1341 (F := F) X0 X1 X2 X3 X4 X5 X6⟩ (List.mem_of_getElem? (i := 0) rfl)))⟩,
   ⟨rfl, rfl, fun W hg => (binary_result main_v26 main_v1119 main_v1343 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 36) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))))))) (hg ⟨main_v1119, Read.val_main_v1119 (F := F) X0 X1 X2 X3 X4 X5 X6⟩ (List.mem_of_mem_drop (i := 36) (up_21 X0 X1 X2 X3 X4 X5 X6 (up_20 X0 X1 X2 X3 X4 X5 X6 (up_19 X0 X1 X2 X3 X4 X5 X6 (in_18 X0 X1 X2 X3 X4 X5 X6 (j := 7) rfl)))))))⟩,
   ⟨rfl, rfl, fun W hg => (binary_result main_v1342 main_v1343 main_v1344 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1342, Read.val_main_v1342 (F := F) X0 X1 X2 X3 X4 X5 X6⟩ (List.mem_of_getElem? (i := 1) rfl)) (hg ⟨main_v1343, Read.val_main_v1343 (F := F) X0 X1 X2 X3 X4 X5 X6⟩ (List.mem_of_getElem? (i := 0) rfl)))⟩,
   ⟨rfl, rfl, fun W hg => (binary_result main_v26 main_v909 main_v1345 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v26, Read.val_main_v26 (F := F) X0 X1 X2 X3 X4 X5 X6⟩ (List.mem_of_mem_drop (i := 38) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 30) rfl)))))))))))))))))))))))) (hg ⟨main_v909, Read.val_main_v909 (F := F) X0 X1 X2 X3 X4 X5 X6⟩ (List.mem_of_mem_drop (i := 38) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (in_15 X0 X1 X2 X3 X4 X5 X6 (j := 37) rfl))))))))))⟩,
   ⟨rfl, rfl, fun W hg => (binary_result main_v34 main_v1294 main_v1346 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 39) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))))))))))) (hg ⟨main_v1294, Read.val_main_v1294 (F := F) X0 X1 X2 X3 X4 X5 X6⟩ (List.mem_of_mem_drop (i := 39) (in_21 X0 X1 X2 X3 X4 X5 X6 (j := 12) rfl))))⟩,
   ⟨rfl, rfl, fun W hg => (binary_result main_v1345 main_v1346 main_v1347 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1345, Read.val_main_v1345 (F := F) X0 X1 X2 X3 X4 X5 X6⟩ (List.mem_of_getElem? (i := 1) rfl)) (hg ⟨main_v1346, Read.val_main_v1346 (F := F) X0 X1 X2 X3 X4 X5 X6⟩ (List.mem_of_getElem? (i := 0) rfl)))⟩,
   ⟨rfl, rfl, fun W hg => (binary_result main_v40 main_v134 main_v1348 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 41) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))))) (hg ⟨main_v134, Read.val_main_v134 (F := F) X0 X1 X2 X3 X4 X5 X6⟩ (List.mem_of_mem_drop (i := 41) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (in_2 X0 X1 X2 X3 X4 X5 X6 (j := 32) rfl)))))))))))))))))))))))⟩,
   ⟨rfl, rfl, fun W hg => (binary_result main_v1347 main_v1348 main_v1349 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1347, Read.val_main_v1347 (F := F) X0 X1 X2 X3 X4 X5 X6⟩ (List.mem_of_getElem? (i := 1) rfl)) (hg ⟨main_v1348, Read.val_main_v1348 (F := F) X0 X1 X2 X3 X4 X5 X6⟩ (List.mem_of_getElem? (i := 0) rfl)))⟩,
   ⟨rfl, rfl, fun W hg => (binary_result main_v32 main_v864 main_v1350 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 43) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))))))))))) (hg ⟨main_v864, Read.val_main_v864 (F := F) X0 X1 X2 X3 X4 X5 X6⟩ (List.mem_of_mem_drop (i := 43) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (in_14 X0 X1 X2 X3 X4 X5 X6 (j := 22) rfl)))))))))))⟩,
   ⟨rfl, rfl, fun W hg => (binary_result main_v34 main_v534 main_v1351 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 44) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))))))))))) (hg ⟨main_v534, Read.val_main_v534 (F := F) X0 X1 X2 X3 X4 X5 X6⟩ (List.mem_of_mem_drop (i := 44) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (in_9 X0 X1 X2 X3 X4 X5 X6 (j := 52) rfl))))))))))))))))⟩,
   ⟨rfl, rfl, fun W hg => (binary_result main_v1350 main_v1351 main_v1352 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1350, Read.val_main_v1350 (F := F) X0 X1 X2 X3 X4 X5 X6⟩ (List.mem_of_getElem? (i := 1) rfl)) (hg ⟨main_v1351, Read.val_main_v1351 (F := F) X0 X1 X2 X3 X4 X5 X6⟩ (List.mem_of_getElem? (i := 0) rfl)))⟩,
   ⟨rfl, rfl, fun W hg => (binary_result main_v40 main_v1289 main_v1353 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v40, Read.val_main_v40 (F := F) X0 X1 X2 X3 X4 X5 X6⟩ (List.mem_of_mem_drop (i := 46) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 16) rfl)))))))))))))))))))))))) (hg ⟨main_v1289, Read.val_main_v1289 (F := F) X0 X1 X2 X3 X4 X5 X6⟩ (List.mem_of_mem_drop (i := 46) (in_21 X0 X1 X2 X3 X4 X5 X6 (j := 17) rfl))))⟩,
   ⟨rfl, rfl, fun W hg => (binary_result main_v1352 main_v1353 main_v1354 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1352, Read.val_main_v1352 (F := F) X0 X1 X2 X3 X4 X5 X6⟩ (List.mem_of_getElem? (i := 1) rfl)) (hg ⟨main_v1353, Read.val_main_v1353 (F := F) X0 X1 X2 X3 X4 X5 X6⟩ (List.mem_of_getElem? (i := 0) rfl)))⟩,
   ⟨rfl, rfl, fun W hg => (binary_result main_v36 main_v339 main_v1355 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 48) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))))))) (hg ⟨main_v339, Read.val_main_v339 (F := F) X0 X1 X2 X3 X4 X5 X6⟩ (List.mem_of_mem_drop (i := 48) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (in_5 X0 X1 X2 X3 X4 X5 X6 (j := 7) rfl))))))))))))))))))))⟩,
   ⟨rfl, rfl, fun W hg => (binary_result main_v42 main_v1229 main_v1356 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v42, Read.val_main_v42 (F := F) X0 X1 X2 X3 X4 X5 X6⟩ (List.mem_of_mem_drop (i := 49) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 14) rfl)))))))))))))))))))))))) (hg ⟨main_v1229, Read.val_main_v1229 (F := F) X0 X1 X2 X3 X4 X5 X6⟩ (List.mem_of_mem_drop (i := 49) (up_21 X0 X1 X2 X3 X4 X5 X6 (in_20 X0 X1 X2 X3 X4 X5 X6 (j := 17) rfl)))))⟩,
   ⟨rfl, rfl, fun W hg => (binary_result main_v1355 main_v1356 main_v1357 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1355, Read.val_main_v1355 (F := F) X0 X1 X2 X3 X4 X5 X6⟩ (List.mem_of_getElem? (i := 1) rfl)) (hg ⟨main_v1356, Read.val_main_v1356 (F := F) X0 X1 X2 X3 X4 X5 X6⟩ (List.mem_of_getElem? (i := 0) rfl)))⟩,
   ⟨rfl, rfl, fun W hg => (binary_result main_v28 main_v464 main_v1358 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v28, Read.val_main_v28 (F := F) X0 X1 X2 X3 X4 X5 X6⟩ (List.mem_of_mem_drop (i := 51) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 28) rfl)))))))))))))))))))))))) (hg ⟨main_v464, Read.val_main_v464 (F := F) X0 X1 X2 X3 X4 X5 X6⟩ (List.mem_of_mem_drop (i := 51) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (in_7 X0 X1 X2 X3 X4 X5 X6 (j := 2) rfl))))))))))))))))))⟩,
   ⟨rfl, rfl, fun W hg => (binary_result main_v1357 main_v1358 main_v1359 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1357, Read.val_main_v1357 (F := F) X0 X1 X2 X3 X4 X5 X6⟩ (List.mem_of_getElem? (i := 1) rfl)) (hg ⟨main_v1358, Read.val_main_v1358 (F := F) X0 X1 X2 X3 X4 X5 X6⟩ (List.mem_of_getElem? (i := 0) rfl)))⟩,
   ⟨rfl, rfl, fun W hg => (binary_result main_v34 main_v1289 main_v1360 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v34, Read.val_main_v34 (F := F) X0 X1 X2 X3 X4 X5 X6⟩ (List.mem_of_mem_drop (i := 53) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 22) rfl)))))))))))))))))))))))) (hg ⟨main_v1289, Read.val_main_v1289 (F := F) X0 X1 X2 X3 X4 X5 X6⟩ (List.mem_of_mem_drop (i := 53) (in_21 X0 X1 X2 X3 X4 X5 X6 (j := 17) rfl))))⟩,
   ⟨rfl, rfl, fun W hg => (binary_result main_v32 main_v624 main_v1361 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v32, Read.val_main_v32 (F := F) X0 X1 X2 X3 X4 X5 X6⟩ (List.mem_of_mem_drop (i := 54) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 24) rfl)))))))))))))))))))))))) (hg ⟨main_v624, Read.val_main_v624 (F := F) X0 X1 X2 X3 X4 X5 X6⟩ (List.mem_of_mem_drop (i := 54) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (in_10 X0 X1 X2 X3 X4 X5 X6 (j := 22) rfl)))))))))))))))⟩,
   ⟨rfl, rfl, fun W hg => (binary_result main_v1360 main_v1361 main_v1362 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1360, Read.val_main_v1360 (F := F) X0 X1 X2 X3 X4 X5 X6⟩ (List.mem_of_getElem? (i := 1) rfl)) (hg ⟨main_v1361, Read.val_main_v1361 (F := F) X0 X1 X2 X3 X4 X5 X6⟩ (List.mem_of_getElem? (i := 0) rfl)))⟩,
   ⟨rfl, rfl, fun W hg => (binary_result main_v36 main_v499 main_v1363 (mulf : (⟨S8192, .f32⟩ : BufTy).Contents (Elt F) → (⟨S8192, .f32⟩ : BufTy).Contents (Elt F) → (⟨S8192, .f32⟩ : BufTy).Contents (Elt F)) _ _ _ W).trans (congrArg₂ (mulf : (⟨S8192, .f32⟩ : BufTy).Contents (Elt F) → (⟨S8192, .f32⟩ : BufTy).Contents (Elt F) → (⟨S8192, .f32⟩ : BufTy).Contents (Elt F)) (hg ⟨main_v36, Read.val_main_v36 (F := F) X0 X1 X2 X3 X4 X5 X6⟩ (List.mem_of_mem_drop (i := 56) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (up_8 X0 X1 X2 X3 X4 X5 X6 (up_7 X0 X1 X2 X3 X4 X5 X6 (up_6 X0 X1 X2 X3 X4 X5 X6 (up_5 X0 X1 X2 X3 X4 X5 X6 (up_4 X0 X1 X2 X3 X4 X5 X6 (up_3 X0 X1 X2 X3 X4 X5 X6 (up_2 X0 X1 X2 X3 X4 X5 X6 (up_1 X0 X1 X2 X3 X4 X5 X6 (in_0 X0 X1 X2 X3 X4 X5 X6 (j := 20) rfl)))))))))))))))))))))))) (hg ⟨main_v499, Read.val_main_v499 (F := F) X0 X1 X2 X3 X4 X5 X6⟩ (List.mem_of_mem_drop (i := 56) (up_21 X0 X1 X2 X3 X4 X5 X6 (up_20 X0 X1 X2 X3 X4 X5 X6 (up_19 X0 X1 X2 X3 X4 X5 X6 (up_18 X0 X1 X2 X3 X4 X5 X6 (up_17 X0 X1 X2 X3 X4 X5 X6 (up_16 X0 X1 X2 X3 X4 X5 X6 (up_15 X0 X1 X2 X3 X4 X5 X6 (up_14 X0 X1 X2 X3 X4 X5 X6 (up_13 X0 X1 X2 X3 X4 X5 X6 (up_12 X0 X1 X2 X3 X4 X5 X6 (up_11 X0 X1 X2 X3 X4 X5 X6 (up_10 X0 X1 X2 X3 X4 X5 X6 (up_9 X0 X1 X2 X3 X4 X5 X6 (in_8 X0 X1 X2 X3 X4 X5 X6 (j := 27) rfl)))))))))))))))))⟩,
   ⟨rfl, rfl, fun W hg => (binary_result main_v1362 main_v1363 main_v1364 (addf : (⟨S8192, .f32⟩ : BufTy).Contents (Elt F) → (⟨S8192, .f32⟩ : BufTy).Contents (Elt F) → (⟨S8192, .f32⟩ : BufTy).Contents (Elt F)) _ _ _ W).trans (congrArg₂ (addf : (⟨S8192, .f32⟩ : BufTy).Contents (Elt F) → (⟨S8192, .f32⟩ : BufTy).Contents (Elt F) → (⟨S8192, .f32⟩ : BufTy).Contents (Elt F)) (hg ⟨main_v1362, Read.val_main_v1362 (F := F) X0 X1 X2 X3 X4 X5 X6⟩ (List.mem_of_getElem? (i := 1) rfl)) (hg ⟨main_v1363, Read.val_main_v1363 (F := F) X0 X1 X2 X3 X4 X5 X6⟩ (List.mem_of_getElem? (i := 0) rfl)))⟩,
   trivial⟩
theorem good_22 (W : Valuation τ sig (Elt F)) (hg : Good W (tbl_21 X0 X1 X2 X3 X4 X5 X6) (7 + 1324)) :
    Good (after ops_22 W) (tbl_22 X0 X1 X2 X3 X4 X5 X6) (7 + 1382) :=
  Good.after _ _ _ _ W hg (chain_22 X0 X1 X2 X3 X4 X5 X6)

/-! ## The whole line -/

/-- @main is its 1382 operations run in order. -/
theorem main_eq (c : Dev nD) : main (F := F) c = seq ops := by
  unfold main
  simp only [ops, seq_append, part_eq_0 c, part_eq_1 c, part_eq_2 c, part_eq_3 c, part_eq_4 c, part_eq_5 c, part_eq_6 c, part_eq_7 c, part_eq_8 c, part_eq_9 c, part_eq_10 c, part_eq_11 c, part_eq_12 c, part_eq_13 c, part_eq_14 c, part_eq_15 c, part_eq_16 c, part_eq_17 c, part_eq_18 c, part_eq_19 c, part_eq_20 c, part_eq_21 c, part_eq_22 c]

/-- Every operation touches TensorCore buffers only. -/
theorem ops_sub : (ops : List (HloOp τ sig (Elt F))).Forall fun op => op.bufs ⊆ tcRefs τ sig :=
  forall_append ops_sub_0 (forall_append ops_sub_1 (forall_append ops_sub_2 (forall_append ops_sub_3 (forall_append ops_sub_4 (forall_append ops_sub_5 (forall_append ops_sub_6 (forall_append ops_sub_7 (forall_append ops_sub_8 (forall_append ops_sub_9 (forall_append ops_sub_10 (forall_append ops_sub_11 (forall_append ops_sub_12 (forall_append ops_sub_13 (forall_append ops_sub_14 (forall_append ops_sub_15 (forall_append ops_sub_16 (forall_append ops_sub_17 (forall_append ops_sub_18 (forall_append ops_sub_19 (forall_append ops_sub_20 (forall_append ops_sub_21 (ops_sub_22))))))))))))))))))))))

/-- Every operation determines what it writes. -/
theorem fresh_all : ∀ op ∈ (ops : List (HloOp τ sig (Elt F))), op.fresh = ∅ :=
  List.forall_iff_forall_mem.1 (forall_append fresh_0 (forall_append fresh_1 (forall_append fresh_2 (forall_append fresh_3 (forall_append fresh_4 (forall_append fresh_5 (forall_append fresh_6 (forall_append fresh_7 (forall_append fresh_8 (forall_append fresh_9 (forall_append fresh_10 (forall_append fresh_11 (forall_append fresh_12 (forall_append fresh_13 (forall_append fresh_14 (forall_append fresh_15 (forall_append fresh_16 (forall_append fresh_17 (forall_append fresh_18 (forall_append fresh_19 (forall_append fresh_20 (forall_append fresh_21 (fresh_22)))))))))))))))))))))))

/-- From contents holding the arguments, the line ends with every stage in its buffer and the arguments where they were. -/
theorem good_all (W : Valuation τ sig (Elt F)) (hg : Good W (tbl_in X0 X1 X2 X3 X4 X5 X6) (7 + 0)) :
    Good (after ops W) (tbl_22 X0 X1 X2 X3 X4 X5 X6) (7 + 1382) := by
  simp only [ops, after_append]
  exact good_22 X0 X1 X2 X3 X4 X5 X6 _ (good_21 X0 X1 X2 X3 X4 X5 X6 _ (good_20 X0 X1 X2 X3 X4 X5 X6 _ (good_19 X0 X1 X2 X3 X4 X5 X6 _ (good_18 X0 X1 X2 X3 X4 X5 X6 _ (good_17 X0 X1 X2 X3 X4 X5 X6 _ (good_16 X0 X1 X2 X3 X4 X5 X6 _ (good_15 X0 X1 X2 X3 X4 X5 X6 _ (good_14 X0 X1 X2 X3 X4 X5 X6 _ (good_13 X0 X1 X2 X3 X4 X5 X6 _ (good_12 X0 X1 X2 X3 X4 X5 X6 _ (good_11 X0 X1 X2 X3 X4 X5 X6 _ (good_10 X0 X1 X2 X3 X4 X5 X6 _ (good_9 X0 X1 X2 X3 X4 X5 X6 _ (good_8 X0 X1 X2 X3 X4 X5 X6 _ (good_7 X0 X1 X2 X3 X4 X5 X6 _ (good_6 X0 X1 X2 X3 X4 X5 X6 _ (good_5 X0 X1 X2 X3 X4 X5 X6 _ (good_4 X0 X1 X2 X3 X4 X5 X6 _ (good_3 X0 X1 X2 X3 X4 X5 X6 _ (good_2 X0 X1 X2 X3 X4 X5 X6 _ (good_1 X0 X1 X2 X3 X4 X5 X6 _ (good_0 X0 X1 X2 X3 X4 X5 X6 W hg))))))))))))))))))))))

/-- The launch contents hold the arguments. -/
theorem good_in (m : (ℓ : Loc nD τ sig) → Buf (Elt F) ℓ) (c : Dev nD) :
    Good (launchContents m c) (tbl_in (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (7 + 0) := by
  intro p hp
  simp only [tbl_in, List.mem_cons, List.not_mem_nil, or_false] at hp
  rcases hp with rfl | rfl | rfl | rfl | rfl | rfl | rfl <;> exact ⟨rfl, by dsimp only; decide⟩

/-- On every device, for any float values, from any memory with zero counters: every weakly fair execution of @main
    terminates with the returned buffer at the last stage of the arguments' launch contents and the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1364) = Read.val_main_v1364 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      have hg := good_all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (launchContents m c) (good_in m c)
      exact ⟨(h c main_v1364).trans (hg _ (in_22 _ _ _ _ _ _ _ (j := 0) rfl)).1,
        (h c main_arg0).trans (hg _ (up_22 _ _ _ _ _ _ _ (up_21 _ _ _ _ _ _ _ (up_20 _ _ _ _ _ _ _ (up_19 _ _ _ _ _ _ _ (up_18 _ _ _ _ _ _ _ (up_17 _ _ _ _ _ _ _ (up_16 _ _ _ _ _ _ _ (up_15 _ _ _ _ _ _ _ (up_14 _ _ _ _ _ _ _ (up_13 _ _ _ _ _ _ _ (up_12 _ _ _ _ _ _ _ (up_11 _ _ _ _ _ _ _ (up_10 _ _ _ _ _ _ _ (up_9 _ _ _ _ _ _ _ (up_8 _ _ _ _ _ _ _ (up_7 _ _ _ _ _ _ _ (up_6 _ _ _ _ _ _ _ (up_5 _ _ _ _ _ _ _ (up_4 _ _ _ _ _ _ _ (up_3 _ _ _ _ _ _ _ (up_2 _ _ _ _ _ _ _ (up_1 _ _ _ _ _ _ _ (up_0 _ _ _ _ _ _ _ (in_in _ _ _ _ _ _ _ (j := 6) rfl))))))))))))))))))))))))).1,
        (h c main_arg1).trans (hg _ (up_22 _ _ _ _ _ _ _ (up_21 _ _ _ _ _ _ _ (up_20 _ _ _ _ _ _ _ (up_19 _ _ _ _ _ _ _ (up_18 _ _ _ _ _ _ _ (up_17 _ _ _ _ _ _ _ (up_16 _ _ _ _ _ _ _ (up_15 _ _ _ _ _ _ _ (up_14 _ _ _ _ _ _ _ (up_13 _ _ _ _ _ _ _ (up_12 _ _ _ _ _ _ _ (up_11 _ _ _ _ _ _ _ (up_10 _ _ _ _ _ _ _ (up_9 _ _ _ _ _ _ _ (up_8 _ _ _ _ _ _ _ (up_7 _ _ _ _ _ _ _ (up_6 _ _ _ _ _ _ _ (up_5 _ _ _ _ _ _ _ (up_4 _ _ _ _ _ _ _ (up_3 _ _ _ _ _ _ _ (up_2 _ _ _ _ _ _ _ (up_1 _ _ _ _ _ _ _ (up_0 _ _ _ _ _ _ _ (in_in _ _ _ _ _ _ _ (j := 5) rfl))))))))))))))))))))))))).1,
        (h c main_arg2).trans (hg _ (up_22 _ _ _ _ _ _ _ (up_21 _ _ _ _ _ _ _ (up_20 _ _ _ _ _ _ _ (up_19 _ _ _ _ _ _ _ (up_18 _ _ _ _ _ _ _ (up_17 _ _ _ _ _ _ _ (up_16 _ _ _ _ _ _ _ (up_15 _ _ _ _ _ _ _ (up_14 _ _ _ _ _ _ _ (up_13 _ _ _ _ _ _ _ (up_12 _ _ _ _ _ _ _ (up_11 _ _ _ _ _ _ _ (up_10 _ _ _ _ _ _ _ (up_9 _ _ _ _ _ _ _ (up_8 _ _ _ _ _ _ _ (up_7 _ _ _ _ _ _ _ (up_6 _ _ _ _ _ _ _ (up_5 _ _ _ _ _ _ _ (up_4 _ _ _ _ _ _ _ (up_3 _ _ _ _ _ _ _ (up_2 _ _ _ _ _ _ _ (up_1 _ _ _ _ _ _ _ (up_0 _ _ _ _ _ _ _ (in_in _ _ _ _ _ _ _ (j := 4) rfl))))))))))))))))))))))))).1,
        (h c main_arg3).trans (hg _ (up_22 _ _ _ _ _ _ _ (up_21 _ _ _ _ _ _ _ (up_20 _ _ _ _ _ _ _ (up_19 _ _ _ _ _ _ _ (up_18 _ _ _ _ _ _ _ (up_17 _ _ _ _ _ _ _ (up_16 _ _ _ _ _ _ _ (up_15 _ _ _ _ _ _ _ (up_14 _ _ _ _ _ _ _ (up_13 _ _ _ _ _ _ _ (up_12 _ _ _ _ _ _ _ (up_11 _ _ _ _ _ _ _ (up_10 _ _ _ _ _ _ _ (up_9 _ _ _ _ _ _ _ (up_8 _ _ _ _ _ _ _ (up_7 _ _ _ _ _ _ _ (up_6 _ _ _ _ _ _ _ (up_5 _ _ _ _ _ _ _ (up_4 _ _ _ _ _ _ _ (up_3 _ _ _ _ _ _ _ (up_2 _ _ _ _ _ _ _ (up_1 _ _ _ _ _ _ _ (up_0 _ _ _ _ _ _ _ (in_in _ _ _ _ _ _ _ (j := 3) rfl))))))))))))))))))))))))).1,
        (h c main_arg4).trans (hg _ (up_22 _ _ _ _ _ _ _ (up_21 _ _ _ _ _ _ _ (up_20 _ _ _ _ _ _ _ (up_19 _ _ _ _ _ _ _ (up_18 _ _ _ _ _ _ _ (up_17 _ _ _ _ _ _ _ (up_16 _ _ _ _ _ _ _ (up_15 _ _ _ _ _ _ _ (up_14 _ _ _ _ _ _ _ (up_13 _ _ _ _ _ _ _ (up_12 _ _ _ _ _ _ _ (up_11 _ _ _ _ _ _ _ (up_10 _ _ _ _ _ _ _ (up_9 _ _ _ _ _ _ _ (up_8 _ _ _ _ _ _ _ (up_7 _ _ _ _ _ _ _ (up_6 _ _ _ _ _ _ _ (up_5 _ _ _ _ _ _ _ (up_4 _ _ _ _ _ _ _ (up_3 _ _ _ _ _ _ _ (up_2 _ _ _ _ _ _ _ (up_1 _ _ _ _ _ _ _ (up_0 _ _ _ _ _ _ _ (in_in _ _ _ _ _ _ _ (j := 2) rfl))))))))))))))))))))))))).1,
        (h c main_arg5).trans (hg _ (up_22 _ _ _ _ _ _ _ (up_21 _ _ _ _ _ _ _ (up_20 _ _ _ _ _ _ _ (up_19 _ _ _ _ _ _ _ (up_18 _ _ _ _ _ _ _ (up_17 _ _ _ _ _ _ _ (up_16 _ _ _ _ _ _ _ (up_15 _ _ _ _ _ _ _ (up_14 _ _ _ _ _ _ _ (up_13 _ _ _ _ _ _ _ (up_12 _ _ _ _ _ _ _ (up_11 _ _ _ _ _ _ _ (up_10 _ _ _ _ _ _ _ (up_9 _ _ _ _ _ _ _ (up_8 _ _ _ _ _ _ _ (up_7 _ _ _ _ _ _ _ (up_6 _ _ _ _ _ _ _ (up_5 _ _ _ _ _ _ _ (up_4 _ _ _ _ _ _ _ (up_3 _ _ _ _ _ _ _ (up_2 _ _ _ _ _ _ _ (up_1 _ _ _ _ _ _ _ (up_0 _ _ _ _ _ _ _ (in_in _ _ _ _ _ _ _ (j := 1) rfl))))))))))))))))))))))))).1,
        (h c main_arg6).trans (hg _ (up_22 _ _ _ _ _ _ _ (up_21 _ _ _ _ _ _ _ (up_20 _ _ _ _ _ _ _ (up_19 _ _ _ _ _ _ _ (up_18 _ _ _ _ _ _ _ (up_17 _ _ _ _ _ _ _ (up_16 _ _ _ _ _ _ _ (up_15 _ _ _ _ _ _ _ (up_14 _ _ _ _ _ _ _ (up_13 _ _ _ _ _ _ _ (up_12 _ _ _ _ _ _ _ (up_11 _ _ _ _ _ _ _ (up_10 _ _ _ _ _ _ _ (up_9 _ _ _ _ _ _ _ (up_8 _ _ _ _ _ _ _ (up_7 _ _ _ _ _ _ _ (up_6 _ _ _ _ _ _ _ (up_5 _ _ _ _ _ _ _ (up_4 _ _ _ _ _ _ _ (up_3 _ _ _ _ _ _ _ (up_2 _ _ _ _ _ _ _ (up_1 _ _ _ _ _ _ _ (up_0 _ _ _ _ _ _ _ (in_in _ _ _ _ _ _ _ (j := 0) rfl))))))))))))))))))))))))).1⟩)
    (run_seq scopedRefs_eq scopedSems_eq defs main (fun _ => ops) main_eq (fun _ => ops_sub) m ρ (fun _ => fresh_all))

/-- The same at the exact instance (floats as extended reals). -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1364) = Read.val_main_v1364 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run_stages m ρ

end Cert.ReferenceIdeal.RefRunValue

end
-- ==== Proof.lean ====
/-
  A three-layer perceptron with a softmax and a fixed sum-product circuit over the ten class probabilities, as three
  pallas_calls (layer 1, layer 2, layer 3 fused with the softmax and the circuit) against the same computation in jnp.
  At the exact instance the casts to bf16 are the identity, a matrix product into a zero accumulator and the host's
  dot_general are one sum, the lane reductions and the host's reductions are one sum and one maximum, and the
  circuit is the same tree of products and sums on both sides; so both programs end with the reference's last stage of
  the seven arguments. No finiteness of the inputs is used: the two sides perform the same operations on the same
  extended reals, index by index. The idealized kernel is the kernel's own text read at the exact instance (no operation
  was rewritten), so the conjunct relating the two is trivial.
-/
import proofs.«112867_j20074677141979_2_alg».proof.Defs
import proofs.«112867_j20074677141979_2_alg».proof.Proof.Gen.Kernel
import proofs.«112867_j20074677141979_2_alg».proof.Proof.Gen.Kernel.Skeleton
import proofs.«112867_j20074677141979_2_alg».proof.Proof.Gen.Kernel.Launch
import proofs.«112867_j20074677141979_2_alg».proof.Proof.Gen.Kernel.Points
import proofs.«112867_j20074677141979_2_alg».proof.Proof.Gen.Kernel.Frame
import proofs.«112867_j20074677141979_2_alg».proof.Proof.Gen.KernelIdeal
import proofs.«112867_j20074677141979_2_alg».proof.Proof.Gen.KernelIdeal.Skeleton
import proofs.«112867_j20074677141979_2_alg».proof.Proof.Gen.KernelIdeal.Launch
import proofs.«112867_j20074677141979_2_alg».proof.Proof.Gen.KernelIdeal.Points
import proofs.«112867_j20074677141979_2_alg».proof.Proof.Gen.KernelIdeal.Frame
import proofs.«112867_j20074677141979_2_alg».proof.Proof.Gen.ReferenceIdeal
import proofs.«112867_j20074677141979_2_alg».proof.Proof.Gen.Pre_finite_inputs
import proofs.«112867_j20074677141979_2_alg».proof.Proof.Bridge
import proofs.«112867_j20074677141979_2_alg».proof.Proof.RefRunValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefRunValue.run m ρ)

/-- Both idealized programs, from memories agreeing on the arguments, end with the reference's last stage of those
    arguments. -/
theorem algebraic : Cert.algebraic_KernelIdeal_ReferenceIdeal := by
  intro m ρ m' ρ' _ hagree
  refine ⟨fun c => Cert.ReferenceIdeal.Read.val_main_v1364 (F := Ideal) (Cert.KernelIdeal.Chain.X0 m c) (Cert.KernelIdeal.Chain.X1 m c)
      (Cert.KernelIdeal.Chain.X2 m c) (Cert.KernelIdeal.Chain.X3 m c) (Cert.KernelIdeal.Chain.X4 m c) (Cert.KernelIdeal.Chain.X5 m c)
      (Cert.KernelIdeal.Chain.X6 m c),
    Cert.KernelIdeal.Value.run m ρ (fun c => Cert.Proof.Bridge.refFacts _ _ _ _ _ _ _), ?_⟩
  refine (θ_run Cert.ReferenceIdeal.defs _ _).mono (fun _ h c => ⟨(h c).1.trans ?_, (h c).2⟩)
    (Cert.ReferenceIdeal.RefRunValue.run m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
